-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x1000 : Shape := ⟨2, ![16384, 1000]⟩
abbrev S16384 : Shape := ⟨1, ![16384]⟩
abbrev S_ : Shape := ⟨0, ![]⟩

class Facts : Prop where
  bcast_S_S16384x1000 : S_.BroadcastsInDim S16384x1000 (![] : Fin 0 → Fin S16384x1000.rank)
  reducesTo_S16384x1000_S_d0_1 : S16384x1000.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn_part1 {F : FTy → Type} [FloatOps F] (main_v10 : IVec S_ 1) (main_v15 : IVec S16384 1) (main_c_5 : IVec S_ 1) : IVec S_ 1 :=
  let main_v16 : IVec S_ 1 := (fun x v => Host.reduce IntOp.andi x v reducesTo_S16384_S_d0 h_S_) main_v15 main_c_5
  let main_v17 : IVec S_ 1 := andi main_v10 main_v16
  main_v17

def fn {F : FTy → Type} [FloatOps F] (main_arg0 : FVec F S16384x1000 .f32) (main_arg1 : IVec S16384 1) (main_arg2 : IVec S16384 32) (main_arg3 : IVec S16384 32) : IVec S_ 1 :=
  let main_v0 : FVec F S16384x1000 .f32 := Host.absf main_arg0
  let main_cst : FVec F S_ .f32 := constant S_ .f32 0x7F800000#32
  let main_v1 : FVec F S16384x1000 .f32 := broadcastInDim S16384x1000 ![] bcast_S_S16384x1000 main_cst
  let main_v2 : IVec S16384x1000 1 := cmpf .olt main_v0 main_v1
  let main_c : IVec S_ 1 := constantI S_ 1 1#1
  let main_v3 : IVec S_ 1 := (fun x v => Host.reduce IntOp.andi x v reducesTo_S16384x1000_S_d0_1 h_S_) main_v2 main_c
  let main_c_0 : IVec S_ 32 := constantI S_ 32 0#32
  let main_v4 : IVec S16384 32 := broadcastInDim S16384 ![] bcast_S_S16384 main_c_0
  let main_v5 : IVec S16384 1 := cmpi .sge main_arg2 main_v4
  let main_c_1 : IVec S_ 32 := constantI S_ 32 999#32
  let main_v6 : IVec S16384 32 := broadcastInDim S16384 ![] bcast_S_S16384 main_c_1
  let main_v7 : IVec S16384 1 := cmpi .sle main_arg2 main_v6
  let main_v8 : IVec S16384 1 := andi main_v5 main_v7
  let main_c_2 : IVec S_ 1 := constantI S_ 1 1#1
  let main_v9 : IVec S_ 1 := (fun x v => Host.reduce IntOp.andi x v reducesTo_S16384_S_d0 h_S_) main_v8 main_c_2
  let main_v10 : IVec S_ 1 := andi main_v3 main_v9
  let main_c_3 : IVec S_ 32 := constantI S_ 32 0#32
  let main_v11 : IVec S16384 32 := broadcastInDim S16384 ![] bcast_S_S16384 main_c_3
  let main_v12 : IVec S16384 1 := cmpi .sge main_arg3 main_v11
  let main_c_4 : IVec S_ 32 := constantI S_ 32 999#32
  let main_v13 : IVec S16384 32 := broadcastInDim S16384 ![] bcast_S_S16384 main_c_4
  let main_v14 : IVec S16384 1 := cmpi .sle main_arg3 main_v13
  let main_v15 : IVec S16384 1 := andi main_v12 main_v14
  let main_c_5 : IVec S_ 1 := constantI S_ 1 1#1
  fn_part1 (F := F) main_v10 main_v15 main_c_5
-- ==== Kernel.lean ====
abbrev S16384x1000 : Shape := ⟨2, ![16384, 1000]⟩
abbrev S16384 : Shape := ⟨1, ![16384]⟩
abbrev S1000x16384 : Shape := ⟨2, ![1000, 16384]⟩
abbrev S4x1x4096 : Shape := ⟨3, ![4, 1, 4096]⟩
abbrev S32x16 : Shape := ⟨2, ![32, 16]⟩
abbrev S512 : Shape := ⟨1, ![512]⟩
abbrev S136x512 : Shape := ⟨2, ![136, 512]⟩
abbrev S16 : Shape := ⟨1, ![16]⟩
abbrev S_ : Shape := ⟨0, ![]⟩
abbrev S1x16 : Shape := ⟨2, ![1, 16]⟩
abbrev S64x512 : Shape := ⟨2, ![64, 512]⟩
abbrev S1 : Shape := ⟨1, ![1]⟩
abbrev S1x1 : Shape := ⟨2, ![1, 1]⟩
abbrev S1x1x4096 : Shape := ⟨3, ![1, 1, 4096]⟩
abbrev S2x936x4096 : Shape := ⟨3, ![2, 936, 4096]⟩
abbrev S1x4096 : Shape := ⟨2, ![1, 4096]⟩
abbrev S2 : Shape := ⟨1, ![2]⟩
abbrev S1x936x4096 : Shape := ⟨3, ![1, 936, 4096]⟩
abbrev S936x4096 : Shape := ⟨2, ![936, 4096]⟩
abbrev S4096 : Shape := ⟨1, ![4096]⟩
abbrev S1x1x1 : Shape := ⟨3, ![1, 1, 1]⟩
abbrev S1x32x16 : Shape := ⟨3, ![1, 32, 16]⟩

abbrev nBuf : Table → Nat
  | .hbm => 14
  | .local .tc .vmem => 12
  | .local .scVector .vmem => 5
  | _ => 0

abbrev bufTy : (tb : Table) → Fin (nBuf tb) → BufTy
  | .hbm, ⟨0, _⟩ => ⟨S16384x1000, .f32⟩
  | .hbm, ⟨1, _⟩ => ⟨S16384, .i1⟩
  | .hbm, ⟨2, _⟩ => ⟨S16384, .i32⟩
  | .hbm, ⟨3, _⟩ => ⟨S16384, .i32⟩
  | .hbm, ⟨4, _⟩ => ⟨S1000x16384, .f32⟩
  | .hbm, ⟨5, _⟩ => ⟨S16384, .i32⟩
  | .hbm, ⟨6, _⟩ => ⟨S16384, .f32⟩
  | .hbm, ⟨7, _⟩ => ⟨S4x1x4096, .i32⟩
  | .hbm, ⟨8, _⟩ => ⟨S4x1x4096, .i32⟩
  | .hbm, ⟨9, _⟩ => ⟨S4x1x4096, .f32⟩
  | .hbm, ⟨10, _⟩ => ⟨S32x16, .f32⟩
  | .hbm, ⟨11, _⟩ => ⟨S1x1, .f32⟩
  | .hbm, ⟨12, _⟩ => ⟨S1x1, .f32⟩
  | .hbm, ⟨13, _⟩ => ⟨S_, .f32⟩
  | .local .tc .vmem, ⟨0, _⟩ => ⟨S1x1x4096, .i32⟩
  | .local .tc .vmem, ⟨1, _⟩ => ⟨S1x1x4096, .i32⟩
  | .local .tc .vmem, ⟨2, _⟩ => ⟨S1x1x4096, .i32⟩
  | .local .tc .vmem, ⟨3, _⟩ => ⟨S1x1x4096, .i32⟩
  | .local .tc .vmem, ⟨4, _⟩ => ⟨S1x1x4096, .f32⟩
  | .local .tc .vmem, ⟨5, _⟩ => ⟨S1x1x4096, .f32⟩
  | .local .tc .vmem, ⟨6, _⟩ => ⟨S1x1, .f32⟩
  | .local .tc .vmem, ⟨7, _⟩ => ⟨S2x936x4096, .f32⟩
  | .local .tc .vmem, ⟨8, _⟩ => ⟨S1x4096, .f32⟩
  | .local .tc .vmem, ⟨9, _⟩ => ⟨S32x16, .f32⟩
  | .local .tc .vmem, ⟨10, _⟩ => ⟨S1x1, .f32⟩
  | .local .tc .vmem, ⟨11, _⟩ => ⟨S1x1, .f32⟩
  | .local .scVector .vmem, ⟨0, _⟩ => ⟨S512, .i32⟩
  | .local .scVector .vmem, ⟨1, _⟩ => ⟨S512, .i32⟩
  | .local .scVector .vmem, ⟨2, _⟩ => ⟨S512, .i32⟩
  | .local .scVector .vmem, ⟨3, _⟩ => ⟨S136x512, .f32⟩
  | .local .scVector .vmem, ⟨4, _⟩ => ⟨S16, .f32⟩
  | _, _ => ⟨S16384x1000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v0_scv : Ref sig .scVector := ⟨.hbm, 4, rfl⟩
abbrev main_arg2_scv : Ref sig .scVector := ⟨.hbm, 2, rfl⟩
abbrev main_arg3_scv : Ref sig .scVector := ⟨.hbm, 3, rfl⟩
abbrev main_v1_scv : Ref sig .scVector := ⟨.hbm, 5, rfl⟩
abbrev main_v6_scv : Ref sig .scVector := ⟨.hbm, 10, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_scratch0 : Ref sig .tc := ⟨.vmem, 7, rfl⟩
abbrev cc1_scratch1 : Ref sig .tc := ⟨.vmem, 8, rfl⟩
abbrev cc2_stg0_0 : Ref sig .tc := ⟨.vmem, 9, rfl⟩
abbrev cc2_stg1_0 : Ref sig .tc := ⟨.vmem, 10, rfl⟩
abbrev cc2_stg2_0 : Ref sig .tc := ⟨.vmem, 11, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc2_sem0_0 : DmaSem sig := 15
abbrev cc2_sem1_0 : DmaSem sig := 16
abbrev cc2_sem2_0 : DmaSem sig := 17
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  ![v2.toNat]
def k0_off2 (i : grid0.Coords) : Fin 2 → Nat :=
  let c0_i32_32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  ![0, v2.toNat]
@[reducible] def k0_t1_loop : Scf.Loop 32 :=
  let c0_i32_45 : BitVec 32 := 0#32
  let c32_i32 : BitVec 32 := 32#32
  let v142 : BitVec 32 := Scalar.addi c0_i32_45 c32_i32
  let c1_i32 : BitVec 32 := 1#32
  ⟨c0_i32_45, v142, c1_i32⟩
def k0_off3 (k0_t1 : Fin k0_t1_loop.trips) : Fin 1 → Nat :=
  let c0_i32_45 : BitVec 32 := 0#32
  let c1_i32 : BitVec 32 := 1#32
  let arg14 : BitVec 32 := Scf.iv c0_i32_45 c1_i32 k0_t1
  let c16_i32_48 : BitVec 32 := 16#32
  let v147 : BitVec 32 := Scalar.muli arg14 c16_i32_48
  let v148 : Index := Scalar.indexCast v147
  ![v148.toNat]
def k0_off4 (k0_t1 : Fin k0_t1_loop.trips) (v158 : BitVec 32) (v162 : BitVec 32) : Fin 2 → Nat :=
  let c0_i32_49 : BitVec 32 := 0#32
  let v163 : BitVec 1 := Scalar.cmpi .ne v162 c0_i32_49
  let c0_i32_50 : BitVec 32 := 0#32
  let v164 : BitVec 1 := Scalar.cmpi .sge v158 c0_i32_50
  let v165 : BitVec 1 := Scalar.andi v163 v164
  let c64_i32 : BitVec 32 := 64#32
  let v166 : BitVec 1 := Scalar.cmpi .slt v158 c64_i32
  let v167 : BitVec 1 := Scalar.andi v165 v166
  let c0_i32_54 : BitVec 32 := 0#32
  let v173 : BitVec 32 := Scalar.addi c0_i32_54 v158
  let c0_i32_55 : BitVec 32 := 0#32
  let v174 : BitVec 32 := Scalar.subi v173 c0_i32_55
  let c128_i32_56 : BitVec 32 := 128#32
  let v175 : BitVec 32 := Scalar.select v167 v174 c128_i32_56
  let v179 : Index := Scalar.indexCast v175
  let c0_i32_45 : BitVec 32 := 0#32
  let c1_i32 : BitVec 32 := 1#32
  let arg14 : BitVec 32 := Scf.iv c0_i32_45 c1_i32 k0_t1
  let c16_i32_48 : BitVec 32 := 16#32
  let v147 : BitVec 32 := Scalar.muli arg14 c16_i32_48
  let v180 : Index := Scalar.indexCast v147
  ![v179.toNat, v180.toNat]

def k0_off5 (k0_t1 : Fin k0_t1_loop.trips) (v160 : BitVec 32) (v162 : BitVec 32) : Fin 2 → Nat :=
  let c0_i32_51 : BitVec 32 := 0#32
  let v168 : BitVec 1 := Scalar.cmpi .ne v162 c0_i32_51
  let c0_i32_52 : BitVec 32 := 0#32
  let v169 : BitVec 1 := Scalar.cmpi .sge v160 c0_i32_52
  let v170 : BitVec 1 := Scalar.andi v168 v169
  let c64_i32_53 : BitVec 32 := 64#32
  let v171 : BitVec 1 := Scalar.cmpi .slt v160 c64_i32_53
  let v172 : BitVec 1 := Scalar.andi v170 v171
  let c0_i32_57 : BitVec 32 := 0#32
  let v176 : BitVec 32 := Scalar.addi c0_i32_57 v160
  let c0_i32_58 : BitVec 32 := 0#32
  let v177 : BitVec 32 := Scalar.subi v176 c0_i32_58
  let c128_i32_59 : BitVec 32 := 128#32
  let v178 : BitVec 32 := Scalar.select v172 v177 c128_i32_59
  let v183 : Index := Scalar.indexCast v178
  let c0_i32_45 : BitVec 32 := 0#32
  let c1_i32 : BitVec 32 := 1#32
  let arg14 : BitVec 32 := Scf.iv c0_i32_45 c1_i32 k0_t1
  let c16_i32_48 : BitVec 32 := 16#32
  let v147 : BitVec 32 := Scalar.muli arg14 c16_i32_48
  let v184 : Index := Scalar.indexCast v147
  ![v183.toNat, v184.toNat]

def k0_chk1 (k0_t1 : Fin k0_t1_loop.trips) (v158 : BitVec 32) (v160 : BitVec 32) (v162 : BitVec 32) : Prop :=
  (∀ a, (k0_off4 k0_t1 v158 v162) a + S1x16.size a ≤ S136x512.size a) ∧
  (∀ a, (k0_off5 k0_t1 v160 v162) a + S1x16.size a ≤ S136x512.size a)
instance k0_chk1.dec : ∀ (k0_t1 : Fin k0_t1_loop.trips) (v158 : BitVec 32) (v160 : BitVec 32) (v162 : BitVec 32), Decidable (k0_chk1 k0_t1 v158 v160 v162) := fun k0_t1 v158 v160 v162 => decidable_of_iff' _ (Iff.of_eq (k0_chk1.eq_1 k0_t1 v158 v160 v162))
theorem k0_off4_inb : ∀ (k0_t1 : Fin k0_t1_loop.trips) (v158 : BitVec 32) (v160 : BitVec 32) (v162 : BitVec 32) (k0_hw1 : k0_chk1 k0_t1 v158 v160 v162), ∀ a, (k0_off4 k0_t1 v158 v162) a + S1x16.size a ≤ S136x512.size a := fun k0_t1 v158 v160 v162 k0_hw1 => k0_hw1.1
theorem k0_off5_inb : ∀ (k0_t1 : Fin k0_t1_loop.trips) (v158 : BitVec 32) (v160 : BitVec 32) (v162 : BitVec 32) (k0_hw1 : k0_chk1 k0_t1 v158 v160 v162), ∀ a, (k0_off5 k0_t1 v160 v162) a + S1x16.size a ≤ S136x512.size a := fun k0_t1 v158 v160 v162 k0_hw1 => k0_hw1.2

def k0_off6 (k0_t1 : Fin k0_t1_loop.trips) (v196 : BitVec 32) (v200 : BitVec 32) : Fin 2 → Nat :=
  let c0_i32_63 : BitVec 32 := 0#32
  let v201 : BitVec 1 := Scalar.cmpi .ne v200 c0_i32_63
  let c0_i32_64 : BitVec 32 := 0#32
  let v202 : BitVec 1 := Scalar.cmpi .sge v196 c0_i32_64
  let v203 : BitVec 1 := Scalar.andi v201 v202
  let c64_i32_65 : BitVec 32 := 64#32
  let v204 : BitVec 1 := Scalar.cmpi .slt v196 c64_i32_65
  let v205 : BitVec 1 := Scalar.andi v203 v204
  let c0_i32_69 : BitVec 32 := 0#32
  let v211 : BitVec 32 := Scalar.addi c0_i32_69 v196
  let c0_i32_70 : BitVec 32 := 0#32
  let v212 : BitVec 32 := Scalar.subi v211 c0_i32_70
  let c128_i32_71 : BitVec 32 := 128#32
  let v213 : BitVec 32 := Scalar.select v205 v212 c128_i32_71
  let v217 : Index := Scalar.indexCast v213
  let c0_i32_45 : BitVec 32 := 0#32
  let c1_i32 : BitVec 32 := 1#32
  let arg14 : BitVec 32 := Scf.iv c0_i32_45 c1_i32 k0_t1
  let c16_i32_48 : BitVec 32 := 16#32
  let v147 : BitVec 32 := Scalar.muli arg14 c16_i32_48
  let v218 : Index := Scalar.indexCast v147
  ![v217.toNat, v218.toNat]

def k0_off7 (k0_t1 : Fin k0_t1_loop.trips) (v198 : BitVec 32) (v200 : BitVec 32) : Fin 2 → Nat :=
  let c0_i32_66 : BitVec 32 := 0#32
  let v206 : BitVec 1 := Scalar.cmpi .ne v200 c0_i32_66
  let c0_i32_67 : BitVec 32 := 0#32
  let v207 : BitVec 1 := Scalar.cmpi .sge v198 c0_i32_67
  let v208 : BitVec 1 := Scalar.andi v206 v207
  let c64_i32_68 : BitVec 32 := 64#32
  let v209 : BitVec 1 := Scalar.cmpi .slt v198 c64_i32_68
  let v210 : BitVec 1 := Scalar.andi v208 v209
  let c0_i32_72 : BitVec 32 := 0#32
  let v214 : BitVec 32 := Scalar.addi c0_i32_72 v198
  let c0_i32_73 : BitVec 32 := 0#32
  let v215 : BitVec 32 := Scalar.subi v214 c0_i32_73
  let c128_i32_74 : BitVec 32 := 128#32
  let v216 : BitVec 32 := Scalar.select v210 v215 c128_i32_74
  let v221 : Index := Scalar.indexCast v216
  let c0_i32_45 : BitVec 32 := 0#32
  let c1_i32 : BitVec 32 := 1#32
  let arg14 : BitVec 32 := Scf.iv c0_i32_45 c1_i32 k0_t1
  let c16_i32_48 : BitVec 32 := 16#32
  let v147 : BitVec 32 := Scalar.muli arg14 c16_i32_48
  let v222 : Index := Scalar.indexCast v147
  ![v221.toNat, v222.toNat]

def k0_chk2 (k0_t1 : Fin k0_t1_loop.trips) (v196 : BitVec 32) (v198 : BitVec 32) (v200 : BitVec 32) : Prop :=
  (∀ a, (k0_off6 k0_t1 v196 v200) a + S1x16.size a ≤ S136x512.size a) ∧
  (∀ a, (k0_off7 k0_t1 v198 v200) a + S1x16.size a ≤ S136x512.size a)
instance k0_chk2.dec : ∀ (k0_t1 : Fin k0_t1_loop.trips) (v196 : BitVec 32) (v198 : BitVec 32) (v200 : BitVec 32), Decidable (k0_chk2 k0_t1 v196 v198 v200) := fun k0_t1 v196 v198 v200 => decidable_of_iff' _ (Iff.of_eq (k0_chk2.eq_1 k0_t1 v196 v198 v200))
theorem k0_off6_inb : ∀ (k0_t1 : Fin k0_t1_loop.trips) (v196 : BitVec 32) (v198 : BitVec 32) (v200 : BitVec 32) (k0_hw2 : k0_chk2 k0_t1 v196 v198 v200), ∀ a, (k0_off6 k0_t1 v196 v200) a + S1x16.size a ≤ S136x512.size a := fun k0_t1 v196 v198 v200 k0_hw2 => k0_hw2.1
theorem k0_off7_inb : ∀ (k0_t1 : Fin k0_t1_loop.trips) (v196 : BitVec 32) (v198 : BitVec 32) (v200 : BitVec 32) (k0_hw2 : k0_chk2 k0_t1 v196 v198 v200), ∀ a, (k0_off7 k0_t1 v198 v200) a + S1x16.size a ≤ S136x512.size a := fun k0_t1 v196 v198 v200 k0_hw2 => k0_hw2.2

def k0_off8 (k0_t1 : Fin k0_t1_loop.trips) (v234 : BitVec 32) (v238 : BitVec 32) : Fin 2 → Nat :=
  let c0_i32_78 : BitVec 32 := 0#32
  let v239 : BitVec 1 := Scalar.cmpi .ne v238 c0_i32_78
  let c0_i32_79 : BitVec 32 := 0#32
  let v240 : BitVec 1 := Scalar.cmpi .sge v234 c0_i32_79
  let v241 : BitVec 1 := Scalar.andi v239 v240
  let c64_i32_80 : BitVec 32 := 64#32
  let v242 : BitVec 1 := Scalar.cmpi .slt v234 c64_i32_80
  let v243 : BitVec 1 := Scalar.andi v241 v242
  let c0_i32_84 : BitVec 32 := 0#32
  let v249 : BitVec 32 := Scalar.addi c0_i32_84 v234
  let c0_i32_85 : BitVec 32 := 0#32
  let v250 : BitVec 32 := Scalar.subi v249 c0_i32_85
  let c128_i32_86 : BitVec 32 := 128#32
  let v251 : BitVec 32 := Scalar.select v243 v250 c128_i32_86
  let v255 : Index := Scalar.indexCast v251
  let c0_i32_45 : BitVec 32 := 0#32
  let c1_i32 : BitVec 32 := 1#32
  let arg14 : BitVec 32 := Scf.iv c0_i32_45 c1_i32 k0_t1
  let c16_i32_48 : BitVec 32 := 16#32
  let v147 : BitVec 32 := Scalar.muli arg14 c16_i32_48
  let v256 : Index := Scalar.indexCast v147
  ![v255.toNat, v256.toNat]

def k0_off9 (k0_t1 : Fin k0_t1_loop.trips) (v236 : BitVec 32) (v238 : BitVec 32) : Fin 2 → Nat :=
  let c0_i32_81 : BitVec 32 := 0#32
  let v244 : BitVec 1 := Scalar.cmpi .ne v238 c0_i32_81
  let c0_i32_82 : BitVec 32 := 0#32
  let v245 : BitVec 1 := Scalar.cmpi .sge v236 c0_i32_82
  let v246 : BitVec 1 := Scalar.andi v244 v245
  let c64_i32_83 : BitVec 32 := 64#32
  let v247 : BitVec 1 := Scalar.cmpi .slt v236 c64_i32_83
  let v248 : BitVec 1 := Scalar.andi v246 v247
  let c0_i32_87 : BitVec 32 := 0#32
  let v252 : BitVec 32 := Scalar.addi c0_i32_87 v236
  let c0_i32_88 : BitVec 32 := 0#32
  let v253 : BitVec 32 := Scalar.subi v252 c0_i32_88
  let c128_i32_89 : BitVec 32 := 128#32
  let v254 : BitVec 32 := Scalar.select v248 v253 c128_i32_89
  let v259 : Index := Scalar.indexCast v254
  let c0_i32_45 : BitVec 32 := 0#32
  let c1_i32 : BitVec 32 := 1#32
  let arg14 : BitVec 32 := Scf.iv c0_i32_45 c1_i32 k0_t1
  let c16_i32_48 : BitVec 32 := 16#32
  let v147 : BitVec 32 := Scalar.muli arg14 c16_i32_48
  let v260 : Index := Scalar.indexCast v147
  ![v259.toNat, v260.toNat]

def k0_chk3 (k0_t1 : Fin k0_t1_loop.trips) (v234 : BitVec 32) (v236 : BitVec 32) (v238 : BitVec 32) : Prop :=
  (∀ a, (k0_off8 k0_t1 v234 v238) a + S1x16.size a ≤ S136x512.size a) ∧
  (∀ a, (k0_off9 k0_t1 v236 v238) a + S1x16.size a ≤ S136x512.size a)
instance k0_chk3.dec : ∀ (k0_t1 : Fin k0_t1_loop.trips) (v234 : BitVec 32) (v236 : BitVec 32) (v238 : BitVec 32), Decidable (k0_chk3 k0_t1 v234 v236 v238) := fun k0_t1 v234 v236 v238 => decidable_of_iff' _ (Iff.of_eq (k0_chk3.eq_1 k0_t1 v234 v236 v238))
theorem k0_off8_inb : ∀ (k0_t1 : Fin k0_t1_loop.trips) (v234 : BitVec 32) (v236 : BitVec 32) (v238 : BitVec 32) (k0_hw3 : k0_chk3 k0_t1 v234 v236 v238), ∀ a, (k0_off8 k0_t1 v234 v238) a + S1x16.size a ≤ S136x512.size a := fun k0_t1 v234 v236 v238 k0_hw3 => k0_hw3.1
theorem k0_off9_inb : ∀ (k0_t1 : Fin k0_t1_loop.trips) (v234 : BitVec 32) (v236 : BitVec 32) (v238 : BitVec 32) (k0_hw3 : k0_chk3 k0_t1 v234 v236 v238), ∀ a, (k0_off9 k0_t1 v236 v238) a + S1x16.size a ≤ S136x512.size a := fun k0_t1 v234 v236 v238 k0_hw3 => k0_hw3.2

def k0_off10 (k0_t1 : Fin k0_t1_loop.trips) (v272 : BitVec 32) (v276 : BitVec 32) : Fin 2 → Nat :=
  let c0_i32_92 : BitVec 32 := 0#32
  let v277 : BitVec 1 := Scalar.cmpi .ne v276 c0_i32_92
  let c0_i32_93 : BitVec 32 := 0#32
  let v278 : BitVec 1 := Scalar.cmpi .sge v272 c0_i32_93
  let v279 : BitVec 1 := Scalar.andi v277 v278
  let c64_i32_94 : BitVec 32 := 64#32
  let v280 : BitVec 1 := Scalar.cmpi .slt v272 c64_i32_94
  let v281 : BitVec 1 := Scalar.andi v279 v280
  let c0_i32_98 : BitVec 32 := 0#32
  let v287 : BitVec 32 := Scalar.addi c0_i32_98 v272
  let c0_i32_99 : BitVec 32 := 0#32
  let v288 : BitVec 32 := Scalar.subi v287 c0_i32_99
  let c128_i32_100 : BitVec 32 := 128#32
  let v289 : BitVec 32 := Scalar.select v281 v288 c128_i32_100
  let v293 : Index := Scalar.indexCast v289
  let c0_i32_45 : BitVec 32 := 0#32
  let c1_i32 : BitVec 32 := 1#32
  let arg14 : BitVec 32 := Scf.iv c0_i32_45 c1_i32 k0_t1
  let c16_i32_48 : BitVec 32 := 16#32
  let v147 : BitVec 32 := Scalar.muli arg14 c16_i32_48
  let v294 : Index := Scalar.indexCast v147
  ![v293.toNat, v294.toNat]

def k0_off11 (k0_t1 : Fin k0_t1_loop.trips) (v274 : BitVec 32) (v276 : BitVec 32) : Fin 2 → Nat :=
  let c0_i32_95 : BitVec 32 := 0#32
  let v282 : BitVec 1 := Scalar.cmpi .ne v276 c0_i32_95
  let c0_i32_96 : BitVec 32 := 0#32
  let v283 : BitVec 1 := Scalar.cmpi .sge v274 c0_i32_96
  let v284 : BitVec 1 := Scalar.andi v282 v283
  let c64_i32_97 : BitVec 32 := 64#32
  let v285 : BitVec 1 := Scalar.cmpi .slt v274 c64_i32_97
  let v286 : BitVec 1 := Scalar.andi v284 v285
  let c0_i32_101 : BitVec 32 := 0#32
  let v290 : BitVec 32 := Scalar.addi c0_i32_101 v274
  let c0_i32_102 : BitVec 32 := 0#32
  let v291 : BitVec 32 := Scalar.subi v290 c0_i32_102
  let c128_i32_103 : BitVec 32 := 128#32
  let v292 : BitVec 32 := Scalar.select v286 v291 c128_i32_103
  let v297 : Index := Scalar.indexCast v292
  let c0_i32_45 : BitVec 32 := 0#32
  let c1_i32 : BitVec 32 := 1#32
  let arg14 : BitVec 32 := Scf.iv c0_i32_45 c1_i32 k0_t1
  let c16_i32_48 : BitVec 32 := 16#32
  let v147 : BitVec 32 := Scalar.muli arg14 c16_i32_48
  let v298 : Index := Scalar.indexCast v147
  ![v297.toNat, v298.toNat]

def k0_chk4 (k0_t1 : Fin k0_t1_loop.trips) (v272 : BitVec 32) (v274 : BitVec 32) (v276 : BitVec 32) : Prop :=
  (∀ a, (k0_off10 k0_t1 v272 v276) a + S1x16.size a ≤ S136x512.size a) ∧
  (∀ a, (k0_off11 k0_t1 v274 v276) a + S1x16.size a ≤ S136x512.size a)
instance k0_chk4.dec : ∀ (k0_t1 : Fin k0_t1_loop.trips) (v272 : BitVec 32) (v274 : BitVec 32) (v276 : BitVec 32), Decidable (k0_chk4 k0_t1 v272 v274 v276) := fun k0_t1 v272 v274 v276 => decidable_of_iff' _ (Iff.of_eq (k0_chk4.eq_1 k0_t1 v272 v274 v276))
theorem k0_off10_inb : ∀ (k0_t1 : Fin k0_t1_loop.trips) (v272 : BitVec 32) (v274 : BitVec 32) (v276 : BitVec 32) (k0_hw4 : k0_chk4 k0_t1 v272 v274 v276), ∀ a, (k0_off10 k0_t1 v272 v276) a + S1x16.size a ≤ S136x512.size a := fun k0_t1 v272 v274 v276 k0_hw4 => k0_hw4.1
theorem k0_off11_inb : ∀ (k0_t1 : Fin k0_t1_loop.trips) (v272 : BitVec 32) (v274 : BitVec 32) (v276 : BitVec 32) (k0_hw4 : k0_chk4 k0_t1 v272 v274 v276), ∀ a, (k0_off11 k0_t1 v274 v276) a + S1x16.size a ≤ S136x512.size a := fun k0_t1 v272 v274 v276 k0_hw4 => k0_hw4.2

def k0_off12 (k0_t1 : Fin k0_t1_loop.trips) (v310 : BitVec 32) (v314 : BitVec 32) : Fin 2 → Nat :=
  let c0_i32_106 : BitVec 32 := 0#32
  let v315 : BitVec 1 := Scalar.cmpi .ne v314 c0_i32_106
  let c0_i32_107 : BitVec 32 := 0#32
  let v316 : BitVec 1 := Scalar.cmpi .sge v310 c0_i32_107
  let v317 : BitVec 1 := Scalar.andi v315 v316
  let c64_i32_108 : BitVec 32 := 64#32
  let v318 : BitVec 1 := Scalar.cmpi .slt v310 c64_i32_108
  let v319 : BitVec 1 := Scalar.andi v317 v318
  let c0_i32_112 : BitVec 32 := 0#32
  let v325 : BitVec 32 := Scalar.addi c0_i32_112 v310
  let c0_i32_113 : BitVec 32 := 0#32
  let v326 : BitVec 32 := Scalar.subi v325 c0_i32_113
  let c128_i32_114 : BitVec 32 := 128#32
  let v327 : BitVec 32 := Scalar.select v319 v326 c128_i32_114
  let v331 : Index := Scalar.indexCast v327
  let c0_i32_45 : BitVec 32 := 0#32
  let c1_i32 : BitVec 32 := 1#32
  let arg14 : BitVec 32 := Scf.iv c0_i32_45 c1_i32 k0_t1
  let c16_i32_48 : BitVec 32 := 16#32
  let v147 : BitVec 32 := Scalar.muli arg14 c16_i32_48
  let v332 : Index := Scalar.indexCast v147
  ![v331.toNat, v332.toNat]

def k0_off13 (k0_t1 : Fin k0_t1_loop.trips) (v312 : BitVec 32) (v314 : BitVec 32) : Fin 2 → Nat :=
  let c0_i32_109 : BitVec 32 := 0#32
  let v320 : BitVec 1 := Scalar.cmpi .ne v314 c0_i32_109
  let c0_i32_110 : BitVec 32 := 0#32
  let v321 : BitVec 1 := Scalar.cmpi .sge v312 c0_i32_110
  let v322 : BitVec 1 := Scalar.andi v320 v321
  let c64_i32_111 : BitVec 32 := 64#32
  let v323 : BitVec 1 := Scalar.cmpi .slt v312 c64_i32_111
  let v324 : BitVec 1 := Scalar.andi v322 v323
  let c0_i32_115 : BitVec 32 := 0#32
  let v328 : BitVec 32 := Scalar.addi c0_i32_115 v312
  let c0_i32_116 : BitVec 32 := 0#32
  let v329 : BitVec 32 := Scalar.subi v328 c0_i32_116
  let c128_i32_117 : BitVec 32 := 128#32
  let v330 : BitVec 32 := Scalar.select v324 v329 c128_i32_117
  let v335 : Index := Scalar.indexCast v330
  let c0_i32_45 : BitVec 32 := 0#32
  let c1_i32 : BitVec 32 := 1#32
  let arg14 : BitVec 32 := Scf.iv c0_i32_45 c1_i32 k0_t1
  let c16_i32_48 : BitVec 32 := 16#32
  let v147 : BitVec 32 := Scalar.muli arg14 c16_i32_48
  let v336 : Index := Scalar.indexCast v147
  ![v335.toNat, v336.toNat]

def k0_chk5 (k0_t1 : Fin k0_t1_loop.trips) (v310 : BitVec 32) (v312 : BitVec 32) (v314 : BitVec 32) : Prop :=
  (∀ a, (k0_off12 k0_t1 v310 v314) a + S1x16.size a ≤ S136x512.size a) ∧
  (∀ a, (k0_off13 k0_t1 v312 v314) a + S1x16.size a ≤ S136x512.size a)
instance k0_chk5.dec : ∀ (k0_t1 : Fin k0_t1_loop.trips) (v310 : BitVec 32) (v312 : BitVec 32) (v314 : BitVec 32), Decidable (k0_chk5 k0_t1 v310 v312 v314) := fun k0_t1 v310 v312 v314 => decidable_of_iff' _ (Iff.of_eq (k0_chk5.eq_1 k0_t1 v310 v312 v314))
theorem k0_off12_inb : ∀ (k0_t1 : Fin k0_t1_loop.trips) (v310 : BitVec 32) (v312 : BitVec 32) (v314 : BitVec 32) (k0_hw5 : k0_chk5 k0_t1 v310 v312 v314), ∀ a, (k0_off12 k0_t1 v310 v314) a + S1x16.size a ≤ S136x512.size a := fun k0_t1 v310 v312 v314 k0_hw5 => k0_hw5.1
theorem k0_off13_inb : ∀ (k0_t1 : Fin k0_t1_loop.trips) (v310 : BitVec 32) (v312 : BitVec 32) (v314 : BitVec 32) (k0_hw5 : k0_chk5 k0_t1 v310 v312 v314), ∀ a, (k0_off13 k0_t1 v312 v314) a + S1x16.size a ≤ S136x512.size a := fun k0_t1 v310 v312 v314 k0_hw5 => k0_hw5.2

def k0_off14 (k0_t1 : Fin k0_t1_loop.trips) (v348 : BitVec 32) (v352 : BitVec 32) : Fin 2 → Nat :=
  let c0_i32_120 : BitVec 32 := 0#32
  let v353 : BitVec 1 := Scalar.cmpi .ne v352 c0_i32_120
  let c0_i32_121 : BitVec 32 := 0#32
  let v354 : BitVec 1 := Scalar.cmpi .sge v348 c0_i32_121
  let v355 : BitVec 1 := Scalar.andi v353 v354
  let c64_i32_122 : BitVec 32 := 64#32
  let v356 : BitVec 1 := Scalar.cmpi .slt v348 c64_i32_122
  let v357 : BitVec 1 := Scalar.andi v355 v356
  let c0_i32_126 : BitVec 32 := 0#32
  let v363 : BitVec 32 := Scalar.addi c0_i32_126 v348
  let c0_i32_127 : BitVec 32 := 0#32
  let v364 : BitVec 32 := Scalar.subi v363 c0_i32_127
  let c128_i32_128 : BitVec 32 := 128#32
  let v365 : BitVec 32 := Scalar.select v357 v364 c128_i32_128
  let v369 : Index := Scalar.indexCast v365
  let c0_i32_45 : BitVec 32 := 0#32
  let c1_i32 : BitVec 32 := 1#32
  let arg14 : BitVec 32 := Scf.iv c0_i32_45 c1_i32 k0_t1
  let c16_i32_48 : BitVec 32 := 16#32
  let v147 : BitVec 32 := Scalar.muli arg14 c16_i32_48
  let v370 : Index := Scalar.indexCast v147
  ![v369.toNat, v370.toNat]

def k0_off15 (k0_t1 : Fin k0_t1_loop.trips) (v350 : BitVec 32) (v352 : BitVec 32) : Fin 2 → Nat :=
  let c0_i32_123 : BitVec 32 := 0#32
  let v358 : BitVec 1 := Scalar.cmpi .ne v352 c0_i32_123
  let c0_i32_124 : BitVec 32 := 0#32
  let v359 : BitVec 1 := Scalar.cmpi .sge v350 c0_i32_124
  let v360 : BitVec 1 := Scalar.andi v358 v359
  let c64_i32_125 : BitVec 32 := 64#32
  let v361 : BitVec 1 := Scalar.cmpi .slt v350 c64_i32_125
  let v362 : BitVec 1 := Scalar.andi v360 v361
  let c0_i32_129 : BitVec 32 := 0#32
  let v366 : BitVec 32 := Scalar.addi c0_i32_129 v350
  let c0_i32_130 : BitVec 32 := 0#32
  let v367 : BitVec 32 := Scalar.subi v366 c0_i32_130
  let c128_i32_131 : BitVec 32 := 128#32
  let v368 : BitVec 32 := Scalar.select v362 v367 c128_i32_131
  let v373 : Index := Scalar.indexCast v368
  let c0_i32_45 : BitVec 32 := 0#32
  let c1_i32 : BitVec 32 := 1#32
  let arg14 : BitVec 32 := Scf.iv c0_i32_45 c1_i32 k0_t1
  let c16_i32_48 : BitVec 32 := 16#32
  let v147 : BitVec 32 := Scalar.muli arg14 c16_i32_48
  let v374 : Index := Scalar.indexCast v147
  ![v373.toNat, v374.toNat]

def k0_chk6 (k0_t1 : Fin k0_t1_loop.trips) (v348 : BitVec 32) (v350 : BitVec 32) (v352 : BitVec 32) : Prop :=
  (∀ a, (k0_off14 k0_t1 v348 v352) a + S1x16.size a ≤ S136x512.size a) ∧
  (∀ a, (k0_off15 k0_t1 v350 v352) a + S1x16.size a ≤ S136x512.size a)
instance k0_chk6.dec : ∀ (k0_t1 : Fin k0_t1_loop.trips) (v348 : BitVec 32) (v350 : BitVec 32) (v352 : BitVec 32), Decidable (k0_chk6 k0_t1 v348 v350 v352) := fun k0_t1 v348 v350 v352 => decidable_of_iff' _ (Iff.of_eq (k0_chk6.eq_1 k0_t1 v348 v350 v352))
theorem k0_off14_inb : ∀ (k0_t1 : Fin k0_t1_loop.trips) (v348 : BitVec 32) (v350 : BitVec 32) (v352 : BitVec 32) (k0_hw6 : k0_chk6 k0_t1 v348 v350 v352), ∀ a, (k0_off14 k0_t1 v348 v352) a + S1x16.size a ≤ S136x512.size a := fun k0_t1 v348 v350 v352 k0_hw6 => k0_hw6.1
theorem k0_off15_inb : ∀ (k0_t1 : Fin k0_t1_loop.trips) (v348 : BitVec 32) (v350 : BitVec 32) (v352 : BitVec 32) (k0_hw6 : k0_chk6 k0_t1 v348 v350 v352), ∀ a, (k0_off15 k0_t1 v350 v352) a + S1x16.size a ≤ S136x512.size a := fun k0_t1 v348 v350 v352 k0_hw6 => k0_hw6.2

def k0_off16 (k0_t1 : Fin k0_t1_loop.trips) (v386 : BitVec 32) (v390 : BitVec 32) : Fin 2 → Nat :=
  let c0_i32_134 : BitVec 32 := 0#32
  let v391 : BitVec 1 := Scalar.cmpi .ne v390 c0_i32_134
  let c0_i32_135 : BitVec 32 := 0#32
  let v392 : BitVec 1 := Scalar.cmpi .sge v386 c0_i32_135
  let v393 : BitVec 1 := Scalar.andi v391 v392
  let c64_i32_136 : BitVec 32 := 64#32
  let v394 : BitVec 1 := Scalar.cmpi .slt v386 c64_i32_136
  let v395 : BitVec 1 := Scalar.andi v393 v394
  let c0_i32_140 : BitVec 32 := 0#32
  let v401 : BitVec 32 := Scalar.addi c0_i32_140 v386
  let c0_i32_141 : BitVec 32 := 0#32
  let v402 : BitVec 32 := Scalar.subi v401 c0_i32_141
  let c128_i32_142 : BitVec 32 := 128#32
  let v403 : BitVec 32 := Scalar.select v395 v402 c128_i32_142
  let v407 : Index := Scalar.indexCast v403
  let c0_i32_45 : BitVec 32 := 0#32
  let c1_i32 : BitVec 32 := 1#32
  let arg14 : BitVec 32 := Scf.iv c0_i32_45 c1_i32 k0_t1
  let c16_i32_48 : BitVec 32 := 16#32
  let v147 : BitVec 32 := Scalar.muli arg14 c16_i32_48
  let v408 : Index := Scalar.indexCast v147
  ![v407.toNat, v408.toNat]

def k0_off17 (k0_t1 : Fin k0_t1_loop.trips) (v388 : BitVec 32) (v390 : BitVec 32) : Fin 2 → Nat :=
  let c0_i32_137 : BitVec 32 := 0#32
  let v396 : BitVec 1 := Scalar.cmpi .ne v390 c0_i32_137
  let c0_i32_138 : BitVec 32 := 0#32
  let v397 : BitVec 1 := Scalar.cmpi .sge v388 c0_i32_138
  let v398 : BitVec 1 := Scalar.andi v396 v397
  let c64_i32_139 : BitVec 32 := 64#32
  let v399 : BitVec 1 := Scalar.cmpi .slt v388 c64_i32_139
  let v400 : BitVec 1 := Scalar.andi v398 v399
  let c0_i32_143 : BitVec 32 := 0#32
  let v404 : BitVec 32 := Scalar.addi c0_i32_143 v388
  let c0_i32_144 : BitVec 32 := 0#32
  let v405 : BitVec 32 := Scalar.subi v404 c0_i32_144
  let c128_i32_145 : BitVec 32 := 128#32
  let v406 : BitVec 32 := Scalar.select v400 v405 c128_i32_145
  let v411 : Index := Scalar.indexCast v406
  let c0_i32_45 : BitVec 32 := 0#32
  let c1_i32 : BitVec 32 := 1#32
  let arg14 : BitVec 32 := Scf.iv c0_i32_45 c1_i32 k0_t1
  let c16_i32_48 : BitVec 32 := 16#32
  let v147 : BitVec 32 := Scalar.muli arg14 c16_i32_48
  let v412 : Index := Scalar.indexCast v147
  ![v411.toNat, v412.toNat]

def k0_chk7 (k0_t1 : Fin k0_t1_loop.trips) (v386 : BitVec 32) (v388 : BitVec 32) (v390 : BitVec 32) : Prop :=
  (∀ a, (k0_off16 k0_t1 v386 v390) a + S1x16.size a ≤ S136x512.size a) ∧
  (∀ a, (k0_off17 k0_t1 v388 v390) a + S1x16.size a ≤ S136x512.size a)
instance k0_chk7.dec : ∀ (k0_t1 : Fin k0_t1_loop.trips) (v386 : BitVec 32) (v388 : BitVec 32) (v390 : BitVec 32), Decidable (k0_chk7 k0_t1 v386 v388 v390) := fun k0_t1 v386 v388 v390 => decidable_of_iff' _ (Iff.of_eq (k0_chk7.eq_1 k0_t1 v386 v388 v390))
theorem k0_off16_inb : ∀ (k0_t1 : Fin k0_t1_loop.trips) (v386 : BitVec 32) (v388 : BitVec 32) (v390 : BitVec 32) (k0_hw7 : k0_chk7 k0_t1 v386 v388 v390), ∀ a, (k0_off16 k0_t1 v386 v390) a + S1x16.size a ≤ S136x512.size a := fun k0_t1 v386 v388 v390 k0_hw7 => k0_hw7.1
theorem k0_off17_inb : ∀ (k0_t1 : Fin k0_t1_loop.trips) (v386 : BitVec 32) (v388 : BitVec 32) (v390 : BitVec 32) (k0_hw7 : k0_chk7 k0_t1 v386 v388 v390), ∀ a, (k0_off17 k0_t1 v388 v390) a + S1x16.size a ≤ S136x512.size a := fun k0_t1 v386 v388 v390 k0_hw7 => k0_hw7.2

def k0_off18 (k0_t1 : Fin k0_t1_loop.trips) (v424 : BitVec 32) (v428 : BitVec 32) : Fin 2 → Nat :=
  let c0_i32_148 : BitVec 32 := 0#32
  let v429 : BitVec 1 := Scalar.cmpi .ne v428 c0_i32_148
  let c0_i32_149 : BitVec 32 := 0#32
  let v430 : BitVec 1 := Scalar.cmpi .sge v424 c0_i32_149
  let v431 : BitVec 1 := Scalar.andi v429 v430
  let c64_i32_150 : BitVec 32 := 64#32
  let v432 : BitVec 1 := Scalar.cmpi .slt v424 c64_i32_150
  let v433 : BitVec 1 := Scalar.andi v431 v432
  let c0_i32_154 : BitVec 32 := 0#32
  let v439 : BitVec 32 := Scalar.addi c0_i32_154 v424
  let c0_i32_155 : BitVec 32 := 0#32
  let v440 : BitVec 32 := Scalar.subi v439 c0_i32_155
  let c128_i32_156 : BitVec 32 := 128#32
  let v441 : BitVec 32 := Scalar.select v433 v440 c128_i32_156
  let v445 : Index := Scalar.indexCast v441
  let c0_i32_45 : BitVec 32 := 0#32
  let c1_i32 : BitVec 32 := 1#32
  let arg14 : BitVec 32 := Scf.iv c0_i32_45 c1_i32 k0_t1
  let c16_i32_48 : BitVec 32 := 16#32
  let v147 : BitVec 32 := Scalar.muli arg14 c16_i32_48
  let v446 : Index := Scalar.indexCast v147
  ![v445.toNat, v446.toNat]

def k0_off19 (k0_t1 : Fin k0_t1_loop.trips) (v426 : BitVec 32) (v428 : BitVec 32) : Fin 2 → Nat :=
  let c0_i32_151 : BitVec 32 := 0#32
  let v434 : BitVec 1 := Scalar.cmpi .ne v428 c0_i32_151
  let c0_i32_152 : BitVec 32 := 0#32
  let v435 : BitVec 1 := Scalar.cmpi .sge v426 c0_i32_152
  let v436 : BitVec 1 := Scalar.andi v434 v435
  let c64_i32_153 : BitVec 32 := 64#32
  let v437 : BitVec 1 := Scalar.cmpi .slt v426 c64_i32_153
  let v438 : BitVec 1 := Scalar.andi v436 v437
  let c0_i32_157 : BitVec 32 := 0#32
  let v442 : BitVec 32 := Scalar.addi c0_i32_157 v426
  let c0_i32_158 : BitVec 32 := 0#32
  let v443 : BitVec 32 := Scalar.subi v442 c0_i32_158
  let c128_i32_159 : BitVec 32 := 128#32
  let v444 : BitVec 32 := Scalar.select v438 v443 c128_i32_159
  let v449 : Index := Scalar.indexCast v444
  let c0_i32_45 : BitVec 32 := 0#32
  let c1_i32 : BitVec 32 := 1#32
  let arg14 : BitVec 32 := Scf.iv c0_i32_45 c1_i32 k0_t1
  let c16_i32_48 : BitVec 32 := 16#32
  let v147 : BitVec 32 := Scalar.muli arg14 c16_i32_48
  let v450 : Index := Scalar.indexCast v147
  ![v449.toNat, v450.toNat]

def k0_chk8 (k0_t1 : Fin k0_t1_loop.trips) (v424 : BitVec 32) (v426 : BitVec 32) (v428 : BitVec 32) : Prop :=
  (∀ a, (k0_off18 k0_t1 v424 v428) a + S1x16.size a ≤ S136x512.size a) ∧
  (∀ a, (k0_off19 k0_t1 v426 v428) a + S1x16.size a ≤ S136x512.size a)
instance k0_chk8.dec : ∀ (k0_t1 : Fin k0_t1_loop.trips) (v424 : BitVec 32) (v426 : BitVec 32) (v428 : BitVec 32), Decidable (k0_chk8 k0_t1 v424 v426 v428) := fun k0_t1 v424 v426 v428 => decidable_of_iff' _ (Iff.of_eq (k0_chk8.eq_1 k0_t1 v424 v426 v428))
theorem k0_off18_inb : ∀ (k0_t1 : Fin k0_t1_loop.trips) (v424 : BitVec 32) (v426 : BitVec 32) (v428 : BitVec 32) (k0_hw8 : k0_chk8 k0_t1 v424 v426 v428), ∀ a, (k0_off18 k0_t1 v424 v428) a + S1x16.size a ≤ S136x512.size a := fun k0_t1 v424 v426 v428 k0_hw8 => k0_hw8.1
theorem k0_off19_inb : ∀ (k0_t1 : Fin k0_t1_loop.trips) (v424 : BitVec 32) (v426 : BitVec 32) (v428 : BitVec 32) (k0_hw8 : k0_chk8 k0_t1 v424 v426 v428), ∀ a, (k0_off19 k0_t1 v426 v428) a + S1x16.size a ≤ S136x512.size a := fun k0_t1 v424 v426 v428 k0_hw8 => k0_hw8.2

def k0_off20 (k0_t1 : Fin k0_t1_loop.trips) (v462 : BitVec 32) (v466 : BitVec 32) : Fin 2 → Nat :=
  let c0_i32_162 : BitVec 32 := 0#32
  let v467 : BitVec 1 := Scalar.cmpi .ne v466 c0_i32_162
  let c0_i32_163 : BitVec 32 := 0#32
  let v468 : BitVec 1 := Scalar.cmpi .sge v462 c0_i32_163
  let v469 : BitVec 1 := Scalar.andi v467 v468
  let c64_i32_164 : BitVec 32 := 64#32
  let v470 : BitVec 1 := Scalar.cmpi .slt v462 c64_i32_164
  let v471 : BitVec 1 := Scalar.andi v469 v470
  let c0_i32_168 : BitVec 32 := 0#32
  let v477 : BitVec 32 := Scalar.addi c0_i32_168 v462
  let c0_i32_169 : BitVec 32 := 0#32
  let v478 : BitVec 32 := Scalar.subi v477 c0_i32_169
  let c128_i32_170 : BitVec 32 := 128#32
  let v479 : BitVec 32 := Scalar.select v471 v478 c128_i32_170
  let v483 : Index := Scalar.indexCast v479
  let c0_i32_45 : BitVec 32 := 0#32
  let c1_i32 : BitVec 32 := 1#32
  let arg14 : BitVec 32 := Scf.iv c0_i32_45 c1_i32 k0_t1
  let c16_i32_48 : BitVec 32 := 16#32
  let v147 : BitVec 32 := Scalar.muli arg14 c16_i32_48
  let v484 : Index := Scalar.indexCast v147
  ![v483.toNat, v484.toNat]

def k0_off21 (k0_t1 : Fin k0_t1_loop.trips) (v464 : BitVec 32) (v466 : BitVec 32) : Fin 2 → Nat :=
  let c0_i32_165 : BitVec 32 := 0#32
  let v472 : BitVec 1 := Scalar.cmpi .ne v466 c0_i32_165
  let c0_i32_166 : BitVec 32 := 0#32
  let v473 : BitVec 1 := Scalar.cmpi .sge v464 c0_i32_166
  let v474 : BitVec 1 := Scalar.andi v472 v473
  let c64_i32_167 : BitVec 32 := 64#32
  let v475 : BitVec 1 := Scalar.cmpi .slt v464 c64_i32_167
  let v476 : BitVec 1 := Scalar.andi v474 v475
  let c0_i32_171 : BitVec 32 := 0#32
  let v480 : BitVec 32 := Scalar.addi c0_i32_171 v464
  let c0_i32_172 : BitVec 32 := 0#32
  let v481 : BitVec 32 := Scalar.subi v480 c0_i32_172
  let c128_i32_173 : BitVec 32 := 128#32
  let v482 : BitVec 32 := Scalar.select v476 v481 c128_i32_173
  let v487 : Index := Scalar.indexCast v482
  let c0_i32_45 : BitVec 32 := 0#32
  let c1_i32 : BitVec 32 := 1#32
  let arg14 : BitVec 32 := Scf.iv c0_i32_45 c1_i32 k0_t1
  let c16_i32_48 : BitVec 32 := 16#32
  let v147 : BitVec 32 := Scalar.muli arg14 c16_i32_48
  let v488 : Index := Scalar.indexCast v147
  ![v487.toNat, v488.toNat]

def k0_chk9 (k0_t1 : Fin k0_t1_loop.trips) (v462 : BitVec 32) (v464 : BitVec 32) (v466 : BitVec 32) : Prop :=
  (∀ a, (k0_off20 k0_t1 v462 v466) a + S1x16.size a ≤ S136x512.size a) ∧
  (∀ a, (k0_off21 k0_t1 v464 v466) a + S1x16.size a ≤ S136x512.size a)
instance k0_chk9.dec : ∀ (k0_t1 : Fin k0_t1_loop.trips) (v462 : BitVec 32) (v464 : BitVec 32) (v466 : BitVec 32), Decidable (k0_chk9 k0_t1 v462 v464 v466) := fun k0_t1 v462 v464 v466 => decidable_of_iff' _ (Iff.of_eq (k0_chk9.eq_1 k0_t1 v462 v464 v466))
theorem k0_off20_inb : ∀ (k0_t1 : Fin k0_t1_loop.trips) (v462 : BitVec 32) (v464 : BitVec 32) (v466 : BitVec 32) (k0_hw9 : k0_chk9 k0_t1 v462 v464 v466), ∀ a, (k0_off20 k0_t1 v462 v466) a + S1x16.size a ≤ S136x512.size a := fun k0_t1 v462 v464 v466 k0_hw9 => k0_hw9.1
theorem k0_off21_inb : ∀ (k0_t1 : Fin k0_t1_loop.trips) (v462 : BitVec 32) (v464 : BitVec 32) (v466 : BitVec 32) (k0_hw9 : k0_chk9 k0_t1 v462 v464 v466), ∀ a, (k0_off21 k0_t1 v464 v466) a + S1x16.size a ≤ S136x512.size a := fun k0_t1 v462 v464 v466 k0_hw9 => k0_hw9.2

def k0_off22 (k0_t1 : Fin k0_t1_loop.trips) (v500 : BitVec 32) (v504 : BitVec 32) : Fin 2 → Nat :=
  let c0_i32_176 : BitVec 32 := 0#32
  let v505 : BitVec 1 := Scalar.cmpi .ne v504 c0_i32_176
  let c0_i32_177 : BitVec 32 := 0#32
  let v506 : BitVec 1 := Scalar.cmpi .sge v500 c0_i32_177
  let v507 : BitVec 1 := Scalar.andi v505 v506
  let c64_i32_178 : BitVec 32 := 64#32
  let v508 : BitVec 1 := Scalar.cmpi .slt v500 c64_i32_178
  let v509 : BitVec 1 := Scalar.andi v507 v508
  let c0_i32_182 : BitVec 32 := 0#32
  let v515 : BitVec 32 := Scalar.addi c0_i32_182 v500
  let c0_i32_183 : BitVec 32 := 0#32
  let v516 : BitVec 32 := Scalar.subi v515 c0_i32_183
  let c128_i32_184 : BitVec 32 := 128#32
  let v517 : BitVec 32 := Scalar.select v509 v516 c128_i32_184
  let v521 : Index := Scalar.indexCast v517
  let c0_i32_45 : BitVec 32 := 0#32
  let c1_i32 : BitVec 32 := 1#32
  let arg14 : BitVec 32 := Scf.iv c0_i32_45 c1_i32 k0_t1
  let c16_i32_48 : BitVec 32 := 16#32
  let v147 : BitVec 32 := Scalar.muli arg14 c16_i32_48
  let v522 : Index := Scalar.indexCast v147
  ![v521.toNat, v522.toNat]

def k0_off23 (k0_t1 : Fin k0_t1_loop.trips) (v502 : BitVec 32) (v504 : BitVec 32) : Fin 2 → Nat :=
  let c0_i32_179 : BitVec 32 := 0#32
  let v510 : BitVec 1 := Scalar.cmpi .ne v504 c0_i32_179
  let c0_i32_180 : BitVec 32 := 0#32
  let v511 : BitVec 1 := Scalar.cmpi .sge v502 c0_i32_180
  let v512 : BitVec 1 := Scalar.andi v510 v511
  let c64_i32_181 : BitVec 32 := 64#32
  let v513 : BitVec 1 := Scalar.cmpi .slt v502 c64_i32_181
  let v514 : BitVec 1 := Scalar.andi v512 v513
  let c0_i32_185 : BitVec 32 := 0#32
  let v518 : BitVec 32 := Scalar.addi c0_i32_185 v502
  let c0_i32_186 : BitVec 32 := 0#32
  let v519 : BitVec 32 := Scalar.subi v518 c0_i32_186
  let c128_i32_187 : BitVec 32 := 128#32
  let v520 : BitVec 32 := Scalar.select v514 v519 c128_i32_187
  let v525 : Index := Scalar.indexCast v520
  let c0_i32_45 : BitVec 32 := 0#32
  let c1_i32 : BitVec 32 := 1#32
  let arg14 : BitVec 32 := Scf.iv c0_i32_45 c1_i32 k0_t1
  let c16_i32_48 : BitVec 32 := 16#32
  let v147 : BitVec 32 := Scalar.muli arg14 c16_i32_48
  let v526 : Index := Scalar.indexCast v147
  ![v525.toNat, v526.toNat]

def k0_chk10 (k0_t1 : Fin k0_t1_loop.trips) (v500 : BitVec 32) (v502 : BitVec 32) (v504 : BitVec 32) : Prop :=
  (∀ a, (k0_off22 k0_t1 v500 v504) a + S1x16.size a ≤ S136x512.size a) ∧
  (∀ a, (k0_off23 k0_t1 v502 v504) a + S1x16.size a ≤ S136x512.size a)
instance k0_chk10.dec : ∀ (k0_t1 : Fin k0_t1_loop.trips) (v500 : BitVec 32) (v502 : BitVec 32) (v504 : BitVec 32), Decidable (k0_chk10 k0_t1 v500 v502 v504) := fun k0_t1 v500 v502 v504 => decidable_of_iff' _ (Iff.of_eq (k0_chk10.eq_1 k0_t1 v500 v502 v504))
theorem k0_off22_inb : ∀ (k0_t1 : Fin k0_t1_loop.trips) (v500 : BitVec 32) (v502 : BitVec 32) (v504 : BitVec 32) (k0_hw10 : k0_chk10 k0_t1 v500 v502 v504), ∀ a, (k0_off22 k0_t1 v500 v504) a + S1x16.size a ≤ S136x512.size a := fun k0_t1 v500 v502 v504 k0_hw10 => k0_hw10.1
theorem k0_off23_inb : ∀ (k0_t1 : Fin k0_t1_loop.trips) (v500 : BitVec 32) (v502 : BitVec 32) (v504 : BitVec 32) (k0_hw10 : k0_chk10 k0_t1 v500 v502 v504), ∀ a, (k0_off23 k0_t1 v502 v504) a + S1x16.size a ≤ S136x512.size a := fun k0_t1 v500 v502 v504 k0_hw10 => k0_hw10.2

def k0_off24 (k0_t1 : Fin k0_t1_loop.trips) (v538 : BitVec 32) (v542 : BitVec 32) : Fin 2 → Nat :=
  let c0_i32_190 : BitVec 32 := 0#32
  let v543 : BitVec 1 := Scalar.cmpi .ne v542 c0_i32_190
  let c0_i32_191 : BitVec 32 := 0#32
  let v544 : BitVec 1 := Scalar.cmpi .sge v538 c0_i32_191
  let v545 : BitVec 1 := Scalar.andi v543 v544
  let c64_i32_192 : BitVec 32 := 64#32
  let v546 : BitVec 1 := Scalar.cmpi .slt v538 c64_i32_192
  let v547 : BitVec 1 := Scalar.andi v545 v546
  let c0_i32_196 : BitVec 32 := 0#32
  let v553 : BitVec 32 := Scalar.addi c0_i32_196 v538
  let c0_i32_197 : BitVec 32 := 0#32
  let v554 : BitVec 32 := Scalar.subi v553 c0_i32_197
  let c128_i32_198 : BitVec 32 := 128#32
  let v555 : BitVec 32 := Scalar.select v547 v554 c128_i32_198
  let v559 : Index := Scalar.indexCast v555
  let c0_i32_45 : BitVec 32 := 0#32
  let c1_i32 : BitVec 32 := 1#32
  let arg14 : BitVec 32 := Scf.iv c0_i32_45 c1_i32 k0_t1
  let c16_i32_48 : BitVec 32 := 16#32
  let v147 : BitVec 32 := Scalar.muli arg14 c16_i32_48
  let v560 : Index := Scalar.indexCast v147
  ![v559.toNat, v560.toNat]

def k0_off25 (k0_t1 : Fin k0_t1_loop.trips) (v540 : BitVec 32) (v542 : BitVec 32) : Fin 2 → Nat :=
  let c0_i32_193 : BitVec 32 := 0#32
  let v548 : BitVec 1 := Scalar.cmpi .ne v542 c0_i32_193
  let c0_i32_194 : BitVec 32 := 0#32
  let v549 : BitVec 1 := Scalar.cmpi .sge v540 c0_i32_194
  let v550 : BitVec 1 := Scalar.andi v548 v549
  let c64_i32_195 : BitVec 32 := 64#32
  let v551 : BitVec 1 := Scalar.cmpi .slt v540 c64_i32_195
  let v552 : BitVec 1 := Scalar.andi v550 v551
  let c0_i32_199 : BitVec 32 := 0#32
  let v556 : BitVec 32 := Scalar.addi c0_i32_199 v540
  let c0_i32_200 : BitVec 32 := 0#32
  let v557 : BitVec 32 := Scalar.subi v556 c0_i32_200
  let c128_i32_201 : BitVec 32 := 128#32
  let v558 : BitVec 32 := Scalar.select v552 v557 c128_i32_201
  let v563 : Index := Scalar.indexCast v558
  let c0_i32_45 : BitVec 32 := 0#32
  let c1_i32 : BitVec 32 := 1#32
  let arg14 : BitVec 32 := Scf.iv c0_i32_45 c1_i32 k0_t1
  let c16_i32_48 : BitVec 32 := 16#32
  let v147 : BitVec 32 := Scalar.muli arg14 c16_i32_48
  let v564 : Index := Scalar.indexCast v147
  ![v563.toNat, v564.toNat]

def k0_chk11 (k0_t1 : Fin k0_t1_loop.trips) (v538 : BitVec 32) (v540 : BitVec 32) (v542 : BitVec 32) : Prop :=
  (∀ a, (k0_off24 k0_t1 v538 v542) a + S1x16.size a ≤ S136x512.size a) ∧
  (∀ a, (k0_off25 k0_t1 v540 v542) a + S1x16.size a ≤ S136x512.size a)
instance k0_chk11.dec : ∀ (k0_t1 : Fin k0_t1_loop.trips) (v538 : BitVec 32) (v540 : BitVec 32) (v542 : BitVec 32), Decidable (k0_chk11 k0_t1 v538 v540 v542) := fun k0_t1 v538 v540 v542 => decidable_of_iff' _ (Iff.of_eq (k0_chk11.eq_1 k0_t1 v538 v540 v542))
theorem k0_off24_inb : ∀ (k0_t1 : Fin k0_t1_loop.trips) (v538 : BitVec 32) (v540 : BitVec 32) (v542 : BitVec 32) (k0_hw11 : k0_chk11 k0_t1 v538 v540 v542), ∀ a, (k0_off24 k0_t1 v538 v542) a + S1x16.size a ≤ S136x512.size a := fun k0_t1 v538 v540 v542 k0_hw11 => k0_hw11.1
theorem k0_off25_inb : ∀ (k0_t1 : Fin k0_t1_loop.trips) (v538 : BitVec 32) (v540 : BitVec 32) (v542 : BitVec 32) (k0_hw11 : k0_chk11 k0_t1 v538 v540 v542), ∀ a, (k0_off25 k0_t1 v540 v542) a + S1x16.size a ≤ S136x512.size a := fun k0_t1 v538 v540 v542 k0_hw11 => k0_hw11.2

def k0_off26 (k0_t1 : Fin k0_t1_loop.trips) (v576 : BitVec 32) (v580 : BitVec 32) : Fin 2 → Nat :=
  let c0_i32_204 : BitVec 32 := 0#32
  let v581 : BitVec 1 := Scalar.cmpi .ne v580 c0_i32_204
  let c0_i32_205 : BitVec 32 := 0#32
  let v582 : BitVec 1 := Scalar.cmpi .sge v576 c0_i32_205
  let v583 : BitVec 1 := Scalar.andi v581 v582
  let c64_i32_206 : BitVec 32 := 64#32
  let v584 : BitVec 1 := Scalar.cmpi .slt v576 c64_i32_206
  let v585 : BitVec 1 := Scalar.andi v583 v584
  let c0_i32_210 : BitVec 32 := 0#32
  let v591 : BitVec 32 := Scalar.addi c0_i32_210 v576
  let c0_i32_211 : BitVec 32 := 0#32
  let v592 : BitVec 32 := Scalar.subi v591 c0_i32_211
  let c128_i32_212 : BitVec 32 := 128#32
  let v593 : BitVec 32 := Scalar.select v585 v592 c128_i32_212
  let v597 : Index := Scalar.indexCast v593
  let c0_i32_45 : BitVec 32 := 0#32
  let c1_i32 : BitVec 32 := 1#32
  let arg14 : BitVec 32 := Scf.iv c0_i32_45 c1_i32 k0_t1
  let c16_i32_48 : BitVec 32 := 16#32
  let v147 : BitVec 32 := Scalar.muli arg14 c16_i32_48
  let v598 : Index := Scalar.indexCast v147
  ![v597.toNat, v598.toNat]

def k0_off27 (k0_t1 : Fin k0_t1_loop.trips) (v578 : BitVec 32) (v580 : BitVec 32) : Fin 2 → Nat :=
  let c0_i32_207 : BitVec 32 := 0#32
  let v586 : BitVec 1 := Scalar.cmpi .ne v580 c0_i32_207
  let c0_i32_208 : BitVec 32 := 0#32
  let v587 : BitVec 1 := Scalar.cmpi .sge v578 c0_i32_208
  let v588 : BitVec 1 := Scalar.andi v586 v587
  let c64_i32_209 : BitVec 32 := 64#32
  let v589 : BitVec 1 := Scalar.cmpi .slt v578 c64_i32_209
  let v590 : BitVec 1 := Scalar.andi v588 v589
  let c0_i32_213 : BitVec 32 := 0#32
  let v594 : BitVec 32 := Scalar.addi c0_i32_213 v578
  let c0_i32_214 : BitVec 32 := 0#32
  let v595 : BitVec 32 := Scalar.subi v594 c0_i32_214
  let c128_i32_215 : BitVec 32 := 128#32
  let v596 : BitVec 32 := Scalar.select v590 v595 c128_i32_215
  let v601 : Index := Scalar.indexCast v596
  let c0_i32_45 : BitVec 32 := 0#32
  let c1_i32 : BitVec 32 := 1#32
  let arg14 : BitVec 32 := Scf.iv c0_i32_45 c1_i32 k0_t1
  let c16_i32_48 : BitVec 32 := 16#32
  let v147 : BitVec 32 := Scalar.muli arg14 c16_i32_48
  let v602 : Index := Scalar.indexCast v147
  ![v601.toNat, v602.toNat]

def k0_chk12 (k0_t1 : Fin k0_t1_loop.trips) (v576 : BitVec 32) (v578 : BitVec 32) (v580 : BitVec 32) : Prop :=
  (∀ a, (k0_off26 k0_t1 v576 v580) a + S1x16.size a ≤ S136x512.size a) ∧
  (∀ a, (k0_off27 k0_t1 v578 v580) a + S1x16.size a ≤ S136x512.size a)
instance k0_chk12.dec : ∀ (k0_t1 : Fin k0_t1_loop.trips) (v576 : BitVec 32) (v578 : BitVec 32) (v580 : BitVec 32), Decidable (k0_chk12 k0_t1 v576 v578 v580) := fun k0_t1 v576 v578 v580 => decidable_of_iff' _ (Iff.of_eq (k0_chk12.eq_1 k0_t1 v576 v578 v580))
theorem k0_off26_inb : ∀ (k0_t1 : Fin k0_t1_loop.trips) (v576 : BitVec 32) (v578 : BitVec 32) (v580 : BitVec 32) (k0_hw12 : k0_chk12 k0_t1 v576 v578 v580), ∀ a, (k0_off26 k0_t1 v576 v580) a + S1x16.size a ≤ S136x512.size a := fun k0_t1 v576 v578 v580 k0_hw12 => k0_hw12.1
theorem k0_off27_inb : ∀ (k0_t1 : Fin k0_t1_loop.trips) (v576 : BitVec 32) (v578 : BitVec 32) (v580 : BitVec 32) (k0_hw12 : k0_chk12 k0_t1 v576 v578 v580), ∀ a, (k0_off27 k0_t1 v578 v580) a + S1x16.size a ≤ S136x512.size a := fun k0_t1 v576 v578 v580 k0_hw12 => k0_hw12.2

def k0_off28 (k0_t1 : Fin k0_t1_loop.trips) (v614 : BitVec 32) (v618 : BitVec 32) : Fin 2 → Nat :=
  let c0_i32_218 : BitVec 32 := 0#32
  let v619 : BitVec 1 := Scalar.cmpi .ne v618 c0_i32_218
  let c0_i32_219 : BitVec 32 := 0#32
  let v620 : BitVec 1 := Scalar.cmpi .sge v614 c0_i32_219
  let v621 : BitVec 1 := Scalar.andi v619 v620
  let c64_i32_220 : BitVec 32 := 64#32
  let v622 : BitVec 1 := Scalar.cmpi .slt v614 c64_i32_220
  let v623 : BitVec 1 := Scalar.andi v621 v622
  let c0_i32_224 : BitVec 32 := 0#32
  let v629 : BitVec 32 := Scalar.addi c0_i32_224 v614
  let c0_i32_225 : BitVec 32 := 0#32
  let v630 : BitVec 32 := Scalar.subi v629 c0_i32_225
  let c128_i32_226 : BitVec 32 := 128#32
  let v631 : BitVec 32 := Scalar.select v623 v630 c128_i32_226
  let v635 : Index := Scalar.indexCast v631
  let c0_i32_45 : BitVec 32 := 0#32
  let c1_i32 : BitVec 32 := 1#32
  let arg14 : BitVec 32 := Scf.iv c0_i32_45 c1_i32 k0_t1
  let c16_i32_48 : BitVec 32 := 16#32
  let v147 : BitVec 32 := Scalar.muli arg14 c16_i32_48
  let v636 : Index := Scalar.indexCast v147
  ![v635.toNat, v636.toNat]

def k0_off29 (k0_t1 : Fin k0_t1_loop.trips) (v616 : BitVec 32) (v618 : BitVec 32) : Fin 2 → Nat :=
  let c0_i32_221 : BitVec 32 := 0#32
  let v624 : BitVec 1 := Scalar.cmpi .ne v618 c0_i32_221
  let c0_i32_222 : BitVec 32 := 0#32
  let v625 : BitVec 1 := Scalar.cmpi .sge v616 c0_i32_222
  let v626 : BitVec 1 := Scalar.andi v624 v625
  let c64_i32_223 : BitVec 32 := 64#32
  let v627 : BitVec 1 := Scalar.cmpi .slt v616 c64_i32_223
  let v628 : BitVec 1 := Scalar.andi v626 v627
  let c0_i32_227 : BitVec 32 := 0#32
  let v632 : BitVec 32 := Scalar.addi c0_i32_227 v616
  let c0_i32_228 : BitVec 32 := 0#32
  let v633 : BitVec 32 := Scalar.subi v632 c0_i32_228
  let c128_i32_229 : BitVec 32 := 128#32
  let v634 : BitVec 32 := Scalar.select v628 v633 c128_i32_229
  let v639 : Index := Scalar.indexCast v634
  let c0_i32_45 : BitVec 32 := 0#32
  let c1_i32 : BitVec 32 := 1#32
  let arg14 : BitVec 32 := Scf.iv c0_i32_45 c1_i32 k0_t1
  let c16_i32_48 : BitVec 32 := 16#32
  let v147 : BitVec 32 := Scalar.muli arg14 c16_i32_48
  let v640 : Index := Scalar.indexCast v147
  ![v639.toNat, v640.toNat]

def k0_chk13 (k0_t1 : Fin k0_t1_loop.trips) (v614 : BitVec 32) (v616 : BitVec 32) (v618 : BitVec 32) : Prop :=
  (∀ a, (k0_off28 k0_t1 v614 v618) a + S1x16.size a ≤ S136x512.size a) ∧
  (∀ a, (k0_off29 k0_t1 v616 v618) a + S1x16.size a ≤ S136x512.size a)
instance k0_chk13.dec : ∀ (k0_t1 : Fin k0_t1_loop.trips) (v614 : BitVec 32) (v616 : BitVec 32) (v618 : BitVec 32), Decidable (k0_chk13 k0_t1 v614 v616 v618) := fun k0_t1 v614 v616 v618 => decidable_of_iff' _ (Iff.of_eq (k0_chk13.eq_1 k0_t1 v614 v616 v618))
theorem k0_off28_inb : ∀ (k0_t1 : Fin k0_t1_loop.trips) (v614 : BitVec 32) (v616 : BitVec 32) (v618 : BitVec 32) (k0_hw13 : k0_chk13 k0_t1 v614 v616 v618), ∀ a, (k0_off28 k0_t1 v614 v618) a + S1x16.size a ≤ S136x512.size a := fun k0_t1 v614 v616 v618 k0_hw13 => k0_hw13.1
theorem k0_off29_inb : ∀ (k0_t1 : Fin k0_t1_loop.trips) (v614 : BitVec 32) (v616 : BitVec 32) (v618 : BitVec 32) (k0_hw13 : k0_chk13 k0_t1 v614 v616 v618), ∀ a, (k0_off29 k0_t1 v616 v618) a + S1x16.size a ≤ S136x512.size a := fun k0_t1 v614 v616 v618 k0_hw13 => k0_hw13.2

def k0_off30 (k0_t1 : Fin k0_t1_loop.trips) (v652 : BitVec 32) (v656 : BitVec 32) : Fin 2 → Nat :=
  let c0_i32_232 : BitVec 32 := 0#32
  let v657 : BitVec 1 := Scalar.cmpi .ne v656 c0_i32_232
  let c0_i32_233 : BitVec 32 := 0#32
  let v658 : BitVec 1 := Scalar.cmpi .sge v652 c0_i32_233
  let v659 : BitVec 1 := Scalar.andi v657 v658
  let c64_i32_234 : BitVec 32 := 64#32
  let v660 : BitVec 1 := Scalar.cmpi .slt v652 c64_i32_234
  let v661 : BitVec 1 := Scalar.andi v659 v660
  let c0_i32_238 : BitVec 32 := 0#32
  let v667 : BitVec 32 := Scalar.addi c0_i32_238 v652
  let c0_i32_239 : BitVec 32 := 0#32
  let v668 : BitVec 32 := Scalar.subi v667 c0_i32_239
  let c128_i32_240 : BitVec 32 := 128#32
  let v669 : BitVec 32 := Scalar.select v661 v668 c128_i32_240
  let v673 : Index := Scalar.indexCast v669
  let c0_i32_45 : BitVec 32 := 0#32
  let c1_i32 : BitVec 32 := 1#32
  let arg14 : BitVec 32 := Scf.iv c0_i32_45 c1_i32 k0_t1
  let c16_i32_48 : BitVec 32 := 16#32
  let v147 : BitVec 32 := Scalar.muli arg14 c16_i32_48
  let v674 : Index := Scalar.indexCast v147
  ![v673.toNat, v674.toNat]

def k0_off31 (k0_t1 : Fin k0_t1_loop.trips) (v654 : BitVec 32) (v656 : BitVec 32) : Fin 2 → Nat :=
  let c0_i32_235 : BitVec 32 := 0#32
  let v662 : BitVec 1 := Scalar.cmpi .ne v656 c0_i32_235
  let c0_i32_236 : BitVec 32 := 0#32
  let v663 : BitVec 1 := Scalar.cmpi .sge v654 c0_i32_236
  let v664 : BitVec 1 := Scalar.andi v662 v663
  let c64_i32_237 : BitVec 32 := 64#32
  let v665 : BitVec 1 := Scalar.cmpi .slt v654 c64_i32_237
  let v666 : BitVec 1 := Scalar.andi v664 v665
  let c0_i32_241 : BitVec 32 := 0#32
  let v670 : BitVec 32 := Scalar.addi c0_i32_241 v654
  let c0_i32_242 : BitVec 32 := 0#32
  let v671 : BitVec 32 := Scalar.subi v670 c0_i32_242
  let c128_i32_243 : BitVec 32 := 128#32
  let v672 : BitVec 32 := Scalar.select v666 v671 c128_i32_243
  let v677 : Index := Scalar.indexCast v672
  let c0_i32_45 : BitVec 32 := 0#32
  let c1_i32 : BitVec 32 := 1#32
  let arg14 : BitVec 32 := Scf.iv c0_i32_45 c1_i32 k0_t1
  let c16_i32_48 : BitVec 32 := 16#32
  let v147 : BitVec 32 := Scalar.muli arg14 c16_i32_48
  let v678 : Index := Scalar.indexCast v147
  ![v677.toNat, v678.toNat]

def k0_chk14 (k0_t1 : Fin k0_t1_loop.trips) (v652 : BitVec 32) (v654 : BitVec 32) (v656 : BitVec 32) : Prop :=
  (∀ a, (k0_off30 k0_t1 v652 v656) a + S1x16.size a ≤ S136x512.size a) ∧
  (∀ a, (k0_off31 k0_t1 v654 v656) a + S1x16.size a ≤ S136x512.size a)
instance k0_chk14.dec : ∀ (k0_t1 : Fin k0_t1_loop.trips) (v652 : BitVec 32) (v654 : BitVec 32) (v656 : BitVec 32), Decidable (k0_chk14 k0_t1 v652 v654 v656) := fun k0_t1 v652 v654 v656 => decidable_of_iff' _ (Iff.of_eq (k0_chk14.eq_1 k0_t1 v652 v654 v656))
theorem k0_off30_inb : ∀ (k0_t1 : Fin k0_t1_loop.trips) (v652 : BitVec 32) (v654 : BitVec 32) (v656 : BitVec 32) (k0_hw14 : k0_chk14 k0_t1 v652 v654 v656), ∀ a, (k0_off30 k0_t1 v652 v656) a + S1x16.size a ≤ S136x512.size a := fun k0_t1 v652 v654 v656 k0_hw14 => k0_hw14.1
theorem k0_off31_inb : ∀ (k0_t1 : Fin k0_t1_loop.trips) (v652 : BitVec 32) (v654 : BitVec 32) (v656 : BitVec 32) (k0_hw14 : k0_chk14 k0_t1 v652 v654 v656), ∀ a, (k0_off31 k0_t1 v654 v656) a + S1x16.size a ≤ S136x512.size a := fun k0_t1 v652 v654 v656 k0_hw14 => k0_hw14.2

def k0_off32 (k0_t1 : Fin k0_t1_loop.trips) (v690 : BitVec 32) (v694 : BitVec 32) : Fin 2 → Nat :=
  let c0_i32_246 : BitVec 32 := 0#32
  let v695 : BitVec 1 := Scalar.cmpi .ne v694 c0_i32_246
  let c0_i32_247 : BitVec 32 := 0#32
  let v696 : BitVec 1 := Scalar.cmpi .sge v690 c0_i32_247
  let v697 : BitVec 1 := Scalar.andi v695 v696
  let c64_i32_248 : BitVec 32 := 64#32
  let v698 : BitVec 1 := Scalar.cmpi .slt v690 c64_i32_248
  let v699 : BitVec 1 := Scalar.andi v697 v698
  let c0_i32_252 : BitVec 32 := 0#32
  let v705 : BitVec 32 := Scalar.addi c0_i32_252 v690
  let c0_i32_253 : BitVec 32 := 0#32
  let v706 : BitVec 32 := Scalar.subi v705 c0_i32_253
  let c128_i32_254 : BitVec 32 := 128#32
  let v707 : BitVec 32 := Scalar.select v699 v706 c128_i32_254
  let v711 : Index := Scalar.indexCast v707
  let c0_i32_45 : BitVec 32 := 0#32
  let c1_i32 : BitVec 32 := 1#32
  let arg14 : BitVec 32 := Scf.iv c0_i32_45 c1_i32 k0_t1
  let c16_i32_48 : BitVec 32 := 16#32
  let v147 : BitVec 32 := Scalar.muli arg14 c16_i32_48
  let v712 : Index := Scalar.indexCast v147
  ![v711.toNat, v712.toNat]

def k0_off33 (k0_t1 : Fin k0_t1_loop.trips) (v692 : BitVec 32) (v694 : BitVec 32) : Fin 2 → Nat :=
  let c0_i32_249 : BitVec 32 := 0#32
  let v700 : BitVec 1 := Scalar.cmpi .ne v694 c0_i32_249
  let c0_i32_250 : BitVec 32 := 0#32
  let v701 : BitVec 1 := Scalar.cmpi .sge v692 c0_i32_250
  let v702 : BitVec 1 := Scalar.andi v700 v701
  let c64_i32_251 : BitVec 32 := 64#32
  let v703 : BitVec 1 := Scalar.cmpi .slt v692 c64_i32_251
  let v704 : BitVec 1 := Scalar.andi v702 v703
  let c0_i32_255 : BitVec 32 := 0#32
  let v708 : BitVec 32 := Scalar.addi c0_i32_255 v692
  let c0_i32_256 : BitVec 32 := 0#32
  let v709 : BitVec 32 := Scalar.subi v708 c0_i32_256
  let c128_i32_257 : BitVec 32 := 128#32
  let v710 : BitVec 32 := Scalar.select v704 v709 c128_i32_257
  let v715 : Index := Scalar.indexCast v710
  let c0_i32_45 : BitVec 32 := 0#32
  let c1_i32 : BitVec 32 := 1#32
  let arg14 : BitVec 32 := Scf.iv c0_i32_45 c1_i32 k0_t1
  let c16_i32_48 : BitVec 32 := 16#32
  let v147 : BitVec 32 := Scalar.muli arg14 c16_i32_48
  let v716 : Index := Scalar.indexCast v147
  ![v715.toNat, v716.toNat]

def k0_chk15 (k0_t1 : Fin k0_t1_loop.trips) (v690 : BitVec 32) (v692 : BitVec 32) (v694 : BitVec 32) : Prop :=
  (∀ a, (k0_off32 k0_t1 v690 v694) a + S1x16.size a ≤ S136x512.size a) ∧
  (∀ a, (k0_off33 k0_t1 v692 v694) a + S1x16.size a ≤ S136x512.size a)
instance k0_chk15.dec : ∀ (k0_t1 : Fin k0_t1_loop.trips) (v690 : BitVec 32) (v692 : BitVec 32) (v694 : BitVec 32), Decidable (k0_chk15 k0_t1 v690 v692 v694) := fun k0_t1 v690 v692 v694 => decidable_of_iff' _ (Iff.of_eq (k0_chk15.eq_1 k0_t1 v690 v692 v694))
theorem k0_off32_inb : ∀ (k0_t1 : Fin k0_t1_loop.trips) (v690 : BitVec 32) (v692 : BitVec 32) (v694 : BitVec 32) (k0_hw15 : k0_chk15 k0_t1 v690 v692 v694), ∀ a, (k0_off32 k0_t1 v690 v694) a + S1x16.size a ≤ S136x512.size a := fun k0_t1 v690 v692 v694 k0_hw15 => k0_hw15.1
theorem k0_off33_inb : ∀ (k0_t1 : Fin k0_t1_loop.trips) (v690 : BitVec 32) (v692 : BitVec 32) (v694 : BitVec 32) (k0_hw15 : k0_chk15 k0_t1 v690 v692 v694), ∀ a, (k0_off33 k0_t1 v692 v694) a + S1x16.size a ≤ S136x512.size a := fun k0_t1 v690 v692 v694 k0_hw15 => k0_hw15.2

def k0_off34 (k0_t1 : Fin k0_t1_loop.trips) (v728 : BitVec 32) (v732 : BitVec 32) : Fin 2 → Nat :=
  let c0_i32_260 : BitVec 32 := 0#32
  let v733 : BitVec 1 := Scalar.cmpi .ne v732 c0_i32_260
  let c0_i32_261 : BitVec 32 := 0#32
  let v734 : BitVec 1 := Scalar.cmpi .sge v728 c0_i32_261
  let v735 : BitVec 1 := Scalar.andi v733 v734
  let c64_i32_262 : BitVec 32 := 64#32
  let v736 : BitVec 1 := Scalar.cmpi .slt v728 c64_i32_262
  let v737 : BitVec 1 := Scalar.andi v735 v736
  let c0_i32_266 : BitVec 32 := 0#32
  let v743 : BitVec 32 := Scalar.addi c0_i32_266 v728
  let c0_i32_267 : BitVec 32 := 0#32
  let v744 : BitVec 32 := Scalar.subi v743 c0_i32_267
  let c128_i32_268 : BitVec 32 := 128#32
  let v745 : BitVec 32 := Scalar.select v737 v744 c128_i32_268
  let v749 : Index := Scalar.indexCast v745
  let c0_i32_45 : BitVec 32 := 0#32
  let c1_i32 : BitVec 32 := 1#32
  let arg14 : BitVec 32 := Scf.iv c0_i32_45 c1_i32 k0_t1
  let c16_i32_48 : BitVec 32 := 16#32
  let v147 : BitVec 32 := Scalar.muli arg14 c16_i32_48
  let v750 : Index := Scalar.indexCast v147
  ![v749.toNat, v750.toNat]

def k0_off35 (k0_t1 : Fin k0_t1_loop.trips) (v730 : BitVec 32) (v732 : BitVec 32) : Fin 2 → Nat :=
  let c0_i32_263 : BitVec 32 := 0#32
  let v738 : BitVec 1 := Scalar.cmpi .ne v732 c0_i32_263
  let c0_i32_264 : BitVec 32 := 0#32
  let v739 : BitVec 1 := Scalar.cmpi .sge v730 c0_i32_264
  let v740 : BitVec 1 := Scalar.andi v738 v739
  let c64_i32_265 : BitVec 32 := 64#32
  let v741 : BitVec 1 := Scalar.cmpi .slt v730 c64_i32_265
  let v742 : BitVec 1 := Scalar.andi v740 v741
  let c0_i32_269 : BitVec 32 := 0#32
  let v746 : BitVec 32 := Scalar.addi c0_i32_269 v730
  let c0_i32_270 : BitVec 32 := 0#32
  let v747 : BitVec 32 := Scalar.subi v746 c0_i32_270
  let c128_i32_271 : BitVec 32 := 128#32
  let v748 : BitVec 32 := Scalar.select v742 v747 c128_i32_271
  let v753 : Index := Scalar.indexCast v748
  let c0_i32_45 : BitVec 32 := 0#32
  let c1_i32 : BitVec 32 := 1#32
  let arg14 : BitVec 32 := Scf.iv c0_i32_45 c1_i32 k0_t1
  let c16_i32_48 : BitVec 32 := 16#32
  let v147 : BitVec 32 := Scalar.muli arg14 c16_i32_48
  let v754 : Index := Scalar.indexCast v147
  ![v753.toNat, v754.toNat]

def k0_chk16 (k0_t1 : Fin k0_t1_loop.trips) (v728 : BitVec 32) (v730 : BitVec 32) (v732 : BitVec 32) : Prop :=
  (∀ a, (k0_off34 k0_t1 v728 v732) a + S1x16.size a ≤ S136x512.size a) ∧
  (∀ a, (k0_off35 k0_t1 v730 v732) a + S1x16.size a ≤ S136x512.size a)
instance k0_chk16.dec : ∀ (k0_t1 : Fin k0_t1_loop.trips) (v728 : BitVec 32) (v730 : BitVec 32) (v732 : BitVec 32), Decidable (k0_chk16 k0_t1 v728 v730 v732) := fun k0_t1 v728 v730 v732 => decidable_of_iff' _ (Iff.of_eq (k0_chk16.eq_1 k0_t1 v728 v730 v732))
theorem k0_off34_inb : ∀ (k0_t1 : Fin k0_t1_loop.trips) (v728 : BitVec 32) (v730 : BitVec 32) (v732 : BitVec 32) (k0_hw16 : k0_chk16 k0_t1 v728 v730 v732), ∀ a, (k0_off34 k0_t1 v728 v732) a + S1x16.size a ≤ S136x512.size a := fun k0_t1 v728 v730 v732 k0_hw16 => k0_hw16.1
theorem k0_off35_inb : ∀ (k0_t1 : Fin k0_t1_loop.trips) (v728 : BitVec 32) (v730 : BitVec 32) (v732 : BitVec 32) (k0_hw16 : k0_chk16 k0_t1 v728 v730 v732), ∀ a, (k0_off35 k0_t1 v730 v732) a + S1x16.size a ≤ S136x512.size a := fun k0_t1 v728 v730 v732 k0_hw16 => k0_hw16.2

def k0_off36 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_48_r3 : BitVec 32 := 0#32
  ![v1.toNat, 0]
abbrev grid1 : Pipeline.Grid := ⟨1, ![4], ![false]⟩

def k1_cond2 (i : grid1.Coords) : BitVec 1 :=
  let arg0 : BitVec 32 := BitVec.ofNat 32 (i 0).val
  let c1_i32 : BitVec 32 := 1#32
  let v4 : BitVec 32 := Scalar.addi arg0 c1_i32
  let c4_i32 : BitVec 32 := 4#32
  let v5 : BitVec 1 := Scalar.cmpi .slt v4 c4_i32
  let v6 : BitVec 32 := Scalar.extui v5
  let c0_i32_1 : BitVec 32 := 0#32
  let v7 : BitVec 1 := Scalar.cmpi .ne v6 c0_i32_1
  v7

def k1_off1 (i : grid1.Coords) : Fin 1 → Nat :=
  let arg0 : BitVec 32 := BitVec.ofNat 32 (i 0).val
  let c1_i32_23 : BitVec 32 := 1#32
  let v50 : BitVec 32 := Scalar.addi arg0 c1_i32_23
  let c2_i32_24 : BitVec 32 := 2#32
  let v51 : BitVec 32 := Scalar.remsi v50 c2_i32_24
  ![v51.toNat]
def k1_off2 (i : grid1.Coords) : Fin 3 → Nat :=
  let arg0 : BitVec 32 := BitVec.ofNat 32 (i 0).val
  let c1_i32_23 : BitVec 32 := 1#32
  let v50 : BitVec 32 := Scalar.addi arg0 c1_i32_23
  let c2_i32_24 : BitVec 32 := 2#32
  let v51 : BitVec 32 := Scalar.remsi v50 c2_i32_24
  let c0_i32_26 : BitVec 32 := 0#32
  let c0_i32_27 : BitVec 32 := 0#32
  ![v51.toNat, 0, 0]
def k1_off3 (i : grid1.Coords) : Fin 2 → Nat :=
  let c64_i32_28 : BitVec 32 := 64#32
  let arg0 : BitVec 32 := BitVec.ofNat 32 (i 0).val
  let c1_i32_22 : BitVec 32 := 1#32
  let v49 : BitVec 32 := Scalar.addi arg0 c1_i32_22
  let c4096_i32_25 : BitVec 32 := 4096#32
  let v52 : BitVec 32 := Scalar.muli v49 c4096_i32_25
  ![64, v52.toNat]
def k1_off4 (i : grid1.Coords) : Fin 1 → Nat :=
  let arg0 : BitVec 32 := BitVec.ofNat 32 (i 0).val
  let c2_i32 : BitVec 32 := 2#32
  let v0 : BitVec 32 := Scalar.remsi arg0 c2_i32
  ![v0.toNat]
def k1_off5 (i : grid1.Coords) : Fin 3 → Nat :=
  let arg0 : BitVec 32 := BitVec.ofNat 32 (i 0).val
  let c2_i32 : BitVec 32 := 2#32
  let v0 : BitVec 32 := Scalar.remsi arg0 c2_i32
  let c0_i32_2 : BitVec 32 := 0#32
  let c0_i32_3 : BitVec 32 := 0#32
  ![v0.toNat, 0, 0]
def k1_off6 (i : grid1.Coords) : Fin 2 → Nat :=
  let c64_i32 : BitVec 32 := 64#32
  let arg0 : BitVec 32 := BitVec.ofNat 32 (i 0).val
  let c4096_i32 : BitVec 32 := 4096#32
  let v8 : BitVec 32 := Scalar.muli arg0 c4096_i32
  ![64, v8.toNat]
def k1_off7 (i : grid1.Coords) : Fin 3 → Nat :=
  let arg0 : BitVec 32 := BitVec.ofNat 32 (i 0).val
  let c2_i32 : BitVec 32 := 2#32
  let v0 : BitVec 32 := Scalar.remsi arg0 c2_i32
  let v14 : Index := Scalar.indexCast v0
  let c0 : Index := 0#32
  let c0_4 : Index := 0#32
  ![v14.toNat, 0, 0]
def k1_cond3 (i : grid1.Coords) : BitVec 1 :=
  let arg0 : BitVec 32 := BitVec.ofNat 32 (i 0).val
  let c3_i32 : BitVec 32 := 3#32
  let v46 : BitVec 1 := Scalar.cmpi .eq arg0 c3_i32
  let v47 : BitVec 32 := Scalar.extui v46
  let c0_i32_21 : BitVec 32 := 0#32
  let v48 : BitVec 1 := Scalar.cmpi .ne v47 c0_i32_21
  v48

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x1x4096 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x4096 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := .none

abbrev stage2_0 : Fin 1 → Memref sig .tc .vmem S32x16 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S16384x1000_S1000x16384_1_0 : S16384x1000.Transposes [1, 0] S1000x16384
  natLt_1_32 : 1 < 32
  shapeCasts_S16384_S4x1x4096 : S16384.ShapeCasts S4x1x4096
  inb_S136x512_S1x16_128_0 : ∀ a, (![128, 0] : Fin 2 → Nat) a + S1x16.size a ≤ S136x512.size a
  h_S1x16 : 0 < S1x16.numel
  shapeCasts_S1x16_S16 : S1x16.ShapeCasts S16
  shapeCasts_S16_S1x16 : S16.ShapeCasts S1x16
  inb_S136x512_S1x16_128_16 : ∀ a, (![128, 16] : Fin 2 → Nat) a + S1x16.size a ≤ S136x512.size a
  inb_S136x512_S1x16_128_32 : ∀ a, (![128, 32] : Fin 2 → Nat) a + S1x16.size a ≤ S136x512.size a
  inb_S136x512_S1x16_128_48 : ∀ a, (![128, 48] : Fin 2 → Nat) a + S1x16.size a ≤ S136x512.size a
  inb_S136x512_S1x16_128_64 : ∀ a, (![128, 64] : Fin 2 → Nat) a + S1x16.size a ≤ S136x512.size a
  inb_S136x512_S1x16_128_80 : ∀ a, (![128, 80] : Fin 2 → Nat) a + S1x16.size a ≤ S136x512.size a
  inb_S136x512_S1x16_128_96 : ∀ a, (![128, 96] : Fin 2 → Nat) a + S1x16.size a ≤ S136x512.size a
  inb_S136x512_S1x16_128_112 : ∀ a, (![128, 112] : Fin 2 → Nat) a + S1x16.size a ≤ S136x512.size a
  inb_S136x512_S1x16_128_128 : ∀ a, (![128, 128] : Fin 2 → Nat) a + S1x16.size a ≤ S136x512.size a
  inb_S136x512_S1x16_128_144 : ∀ a, (![128, 144] : Fin 2 → Nat) a + S1x16.size a ≤ S136x512.size a
  inb_S136x512_S1x16_128_160 : ∀ a, (![128, 160] : Fin 2 → Nat) a + S1x16.size a ≤ S136x512.size a
  inb_S136x512_S1x16_128_176 : ∀ a, (![128, 176] : Fin 2 → Nat) a + S1x16.size a ≤ S136x512.size a
  inb_S136x512_S1x16_128_192 : ∀ a, (![128, 192] : Fin 2 → Nat) a + S1x16.size a ≤ S136x512.size a
  inb_S136x512_S1x16_128_208 : ∀ a, (![128, 208] : Fin 2 → Nat) a + S1x16.size a ≤ S136x512.size a
  inb_S136x512_S1x16_128_224 : ∀ a, (![128, 224] : Fin 2 → Nat) a + S1x16.size a ≤ S136x512.size a
  inb_S136x512_S1x16_128_240 : ∀ a, (![128, 240] : Fin 2 → Nat) a + S1x16.size a ≤ S136x512.size a
  inb_S136x512_S1x16_128_256 : ∀ a, (![128, 256] : Fin 2 → Nat) a + S1x16.size a ≤ S136x512.size a
  inb_S136x512_S1x16_128_272 : ∀ a, (![128, 272] : Fin 2 → Nat) a + S1x16.size a ≤ S136x512.size a
  inb_S136x512_S1x16_128_288 : ∀ a, (![128, 288] : Fin 2 → Nat) a + S1x16.size a ≤ S136x512.size a
  inb_S136x512_S1x16_128_304 : ∀ a, (![128, 304] : Fin 2 → Nat) a + S1x16.size a ≤ S136x512.size a
  inb_S136x512_S1x16_128_320 : ∀ a, (![128, 320] : Fin 2 → Nat) a + S1x16.size a ≤ S136x512.size a
  inb_S136x512_S1x16_128_336 : ∀ a, (![128, 336] : Fin 2 → Nat) a + S1x16.size a ≤ S136x512.size a
  inb_S136x512_S1x16_128_352 : ∀ a, (![128, 352] : Fin 2 → Nat) a + S1x16.size a ≤ S136x512.size a
  inb_S136x512_S1x16_128_368 : ∀ a, (![128, 368] : Fin 2 → Nat) a + S1x16.size a ≤ S136x512.size a
  inb_S136x512_S1x16_128_384 : ∀ a, (![128, 384] : Fin 2 → Nat) a + S1x16.size a ≤ S136x512.size a
  inb_S136x512_S1x16_128_400 : ∀ a, (![128, 400] : Fin 2 → Nat) a + S1x16.size a ≤ S136x512.size a
  inb_S136x512_S1x16_128_416 : ∀ a, (![128, 416] : Fin 2 → Nat) a + S1x16.size a ≤ S136x512.size a
  inb_S136x512_S1x16_128_432 : ∀ a, (![128, 432] : Fin 2 → Nat) a + S1x16.size a ≤ S136x512.size a
  inb_S136x512_S1x16_128_448 : ∀ a, (![128, 448] : Fin 2 → Nat) a + S1x16.size a ≤ S136x512.size a
  inb_S136x512_S1x16_128_464 : ∀ a, (![128, 464] : Fin 2 → Nat) a + S1x16.size a ≤ S136x512.size a
  inb_S136x512_S1x16_128_480 : ∀ a, (![128, 480] : Fin 2 → Nat) a + S1x16.size a ≤ S136x512.size a
  inb_S136x512_S1x16_128_496 : ∀ a, (![128, 496] : Fin 2 → Nat) a + S1x16.size a ≤ S136x512.size a
  iota_S16_d0_w32_scVector : S16.Iotas .scVector 32 [0]
  inb_S136x512_S64x512_0_0 : ∀ a, (![0, 0] : Fin 2 → Nat) a + S64x512.size a ≤ S136x512.size a
  inb_S1000x16384_S64x512_0_0 : ∀ a, (![0, 0] : Fin 2 → Nat) a + S64x512.size a ≤ S1000x16384.size a
  h_S16 : 0 < S16.numel
  shapeCasts_S16_S16 : S16.ShapeCasts S16
  slices_S16_o0_S1 : S16.Slices ![0] S1
  inpos_S1_p0 : ∀ a, (![0] : Fin 1 → Nat) a < S1.size a
  slices_S16_o1_S1 : S16.Slices ![1] S1
  slices_S16_o2_S1 : S16.Slices ![2] S1
  slices_S16_o3_S1 : S16.Slices ![3] S1
  slices_S16_o4_S1 : S16.Slices ![4] S1
  slices_S16_o5_S1 : S16.Slices ![5] S1
  slices_S16_o6_S1 : S16.Slices ![6] S1
  slices_S16_o7_S1 : S16.Slices ![7] S1
  slices_S16_o8_S1 : S16.Slices ![8] S1
  slices_S16_o9_S1 : S16.Slices ![9] S1
  slices_S16_o10_S1 : S16.Slices ![10] S1
  slices_S16_o11_S1 : S16.Slices ![11] S1
  slices_S16_o12_S1 : S16.Slices ![12] S1
  slices_S16_o13_S1 : S16.Slices ![13] S1
  slices_S16_o14_S1 : S16.Slices ![14] S1
  slices_S16_o15_S1 : S16.Slices ![15] S1
  inb_S16_S16_0 : ∀ a, (![0] : Fin 1 → Nat) a + S16.size a ≤ S16.size a
  squeezes_S1x16_S16 : S1x16.Squeezes S16
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S2_S1_0 : ∀ a, (![0] : Fin 1 → Nat) a + S1.size a ≤ S2.size a
  squeezes_S1_S_ : S1.Squeezes S_
  inb_S2x936x4096_S1x936x4096_0_0_0 : ∀ a, (![0, 0, 0] : Fin 3 → Nat) a + S1x936x4096.size a ≤ S2x936x4096.size a
  squeezes_S1x936x4096_S936x4096 : S1x936x4096.Squeezes S936x4096
  inb_S1000x16384_S936x4096_64_0 : ∀ a, (![64, 0] : Fin 2 → Nat) a + S936x4096.size a ≤ S1000x16384.size a
  h_S1x936x4096 : 0 < S1x936x4096.numel
  shapeCasts_S1x936x4096_S936x4096 : S1x936x4096.ShapeCasts S936x4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S4096 : S1x1x4096.ShapeCasts S4096
  shapeCasts_S4096_S1x4096 : S4096.ShapeCasts S1x4096
  iota_S936x4096_d0_w32 : S936x4096.Iotas .tc 32 [0]
  broadcasts_S1x4096_S936x4096 : S1x4096.Broadcasts S936x4096
  reduces_S936x4096_S4096 : S936x4096.Reduces [0] S4096
  shapeCasts_S1x4096_S1x1x4096 : S1x4096.ShapeCasts S1x1x4096
  reduces_S1x1x4096_S1 : S1x1x4096.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  inb_S32x16_S32x16_0_0 : ∀ a, (![0, 0] : Fin 2 → Nat) a + S32x16.size a ≤ S32x16.size a
  h_S32x16 : 0 < S32x16.numel
  shapeCasts_S32x16_S32x16 : S32x16.ShapeCasts S32x16
  shapeCasts_S32x16_S1x32x16 : S32x16.ShapeCasts S1x32x16
  reduces_S1x32x16_S1 : S1x32x16.Reduces [1, 2] S1
  inpos_S1x1_p0_0 : ∀ a, (![0, 0] : Fin 2 → Nat) a < S1x1.size a
  shapeCasts_S1x1_S_ : S1x1.ShapeCasts S_
  hcc0_scratch5 : 0 + S_.numel ≤ 18
  hcc0_scratch6 : 1 + S_.numel ≤ 18
  hcc0_scoped0 : 2 + S_.numel ≤ 18
  hcc0_scoped1 : 3 + S_.numel ≤ 18
  hcc0_scoped2 : 4 + S_.numel ≤ 18
  hcc0_scoped3 : 5 + S_.numel ≤ 18
  hcc1_scratch2 : 13 + S2.numel ≤ 18
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  k0_off2_inb : ∀ i : grid0.Coords, ∀ a, (k0_off2 i) a + S64x512.size a ≤ S1000x16384.size a
  k0_t1_ok : k0_t1_loop.OK
  k0_off3_inb : ∀ k0_t1 : Fin k0_t1_loop.trips, ∀ a, (k0_off3 k0_t1) a + S16.size a ≤ S512.size a
  k0_off36_inb : ∀ i : grid0.Coords, ∀ a, (k0_off36 i) a + S1x16.size a ≤ S32x16.size a
  hrank1 : 0 < grid1.rank
  k1_off1_inb : ∀ i : grid1.Coords, ∀ (k1_h2 : k1_cond2 i = 1#1), ∀ a, (k1_off1 i) a + S1.size a ≤ S2.size a
  k1_off2_inb : ∀ i : grid1.Coords, ∀ (k1_h2 : k1_cond2 i = 1#1), ∀ a, (k1_off2 i) a + S1x936x4096.size a ≤ S2x936x4096.size a
  k1_off3_inb : ∀ i : grid1.Coords, ∀ (k1_h2 : k1_cond2 i = 1#1), ∀ a, (k1_off3 i) a + S936x4096.size a ≤ S1000x16384.size a
  k1_off4_inb : ∀ i : grid1.Coords, ∀ a, (k1_off4 i) a + S1.size a ≤ S2.size a
  k1_off5_inb : ∀ i : grid1.Coords, ∀ a, (k1_off5 i) a + S1x936x4096.size a ≤ S2x936x4096.size a
  k1_off6_inb : ∀ i : grid1.Coords, ∀ a, (k1_off6 i) a + S936x4096.size a ≤ S1000x16384.size a
  k1_off7_inb : ∀ i : grid1.Coords, ∀ a, (k1_off7 i) a + S1x936x4096.size a ≤ S2x936x4096.size a
  hstage1_0 : ∀ j, (stage1_0 j).IsWhole
  nbuf1_0 : grid1.bufCount reads1_0 false = 2
  hreads1_0 : ∀ i i' : grid1.Coords, (∀ a, reads1_0 a = true → i a = i' a) → cc1_transform_1 i = cc1_transform_1 i'
  hinb1_0 : ∀ (i : grid1.Coords) a, (cc1_transform_1 i a + 1) * S1x1x4096.size a ≤ S4x1x4096.size a
  hwx1_0 : ∀ i : grid1.Coords, EltTy.bits .i32 = 32 ∨ (Rect.block (s := S4x1x4096) S1x1x4096.size (cc1_transform_1 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_2 i = cc1_transform_2 i'
  hinb1_1 : ∀ (i : grid1.Coords) a, (cc1_transform_2 i a + 1) * S1x1x4096.size a ≤ S4x1x4096.size a
  hwx1_1 : ∀ i : grid1.Coords, EltTy.bits .i32 = 32 ∨ (Rect.block (s := S4x1x4096) S1x1x4096.size (cc1_transform_2 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_3 i = cc1_transform_3 i'
  hinb1_2 : ∀ (i : grid1.Coords) a, (cc1_transform_3 i a + 1) * S1x1x4096.size a ≤ S4x1x4096.size a
  hwx1_2 : ∀ i : grid1.Coords, EltTy.bits .f32 = 32 ∨ (Rect.block (s := S4x1x4096) S1x1x4096.size (cc1_transform_3 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_4 i = cc1_transform_4 i'
  hinb1_3 : ∀ (i : grid1.Coords) a, (cc1_transform_4 i a + 1) * S1x1.size a ≤ S1x1.size a
  hwx1_3 : ∀ i : grid1.Coords, EltTy.bits .f32 = 32 ∨ (Rect.block (s := S1x1) S1x1.size (cc1_transform_4 i) (hinb1_3 i)).WholeWords (EltTy.packing .f32)
  hstage2_0 : ∀ j, (stage2_0 j).IsWhole
  hstage2_1 : ∀ j, (stage2_1 j).IsWhole
  hstage2_2 : ∀ j, (stage2_2 j).IsWhole

variable [Facts₀]

abbrev cc0_scratch5 : DmaSems sig S_ := SemArray.consecutive 0 S_ hcc0_scratch5
abbrev cc0_scratch6 : DmaSems sig S_ := SemArray.consecutive 1 S_ hcc0_scratch6
abbrev cc0_scoped0 : DmaSems sig S_ := SemArray.consecutive 2 S_ hcc0_scoped0
abbrev cc0_scoped1 : DmaSems sig S_ := SemArray.consecutive 3 S_ hcc0_scoped1
abbrev cc0_scoped2 : DmaSems sig S_ := SemArray.consecutive 4 S_ hcc0_scoped2
abbrev cc0_scoped3 : DmaSems sig S_ := SemArray.consecutive 5 S_ hcc0_scoped3
abbrev cc1_scratch2 : DmaSems sig S2 := SemArray.consecutive 13 S2 hcc1_scratch2

abbrev win1_0 : Pipeline.Window sig grid1 :=
  Pipeline.Window.ofSpec (Memref.whole main_v3) S1x1x4096.size cc1_transform_1 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x1x4096.size cc1_transform_2 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x1x4096.size cc1_transform_3 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x1.size cc1_transform_4 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

abbrev win2_0 : Pipeline.Window sig grid2 :=
  Pipeline.Window.whole (Memref.whole main_v6) false false (stage2_0 0) (sem2_0 0) (Memref.isWhole_whole _) (hstage2_0 0)

abbrev win2_1 : Pipeline.Window sig grid2 :=
  Pipeline.Window.whole (Memref.whole main_v7) false false (stage2_1 0) (sem2_1 0) (Memref.isWhole_whole _) (hstage2_1 0)

abbrev win2_2 : Pipeline.Window sig grid2 :=
  Pipeline.Window.whole (Memref.whole main_v8) true false (stage2_2 0) (sem2_2 0) (Memref.isWhole_whole _) (hstage2_2 0)

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S16384x1000 : Shape := ⟨2, ![16384, 1000]⟩
abbrev S16384 : Shape := ⟨1, ![16384]⟩
abbrev S_ : Shape := ⟨0, ![]⟩
abbrev S16384x1 : Shape := ⟨2, ![16384, 1]⟩
abbrev S16384x2 : Shape := ⟨2, ![16384, 2]⟩

abbrev nBuf : Space → Nat
  | .hbm => 47
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S16384, .i1⟩
  | .hbm, ⟨2, _⟩ => ⟨S16384, .i32⟩
  | .hbm, ⟨3, _⟩ => ⟨S16384, .i32⟩
  | .hbm, ⟨4, _⟩ => ⟨S16384, .i32⟩
  | .hbm, ⟨5, _⟩ => ⟨S_, .i32⟩
  | .hbm, ⟨6, _⟩ => ⟨S16384, .i32⟩
  | .hbm, ⟨7, _⟩ => ⟨S16384, .i1⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S_, .i32⟩
  | .hbm, ⟨13, _⟩ => ⟨S16384, .i32⟩
  | .hbm, ⟨14, _⟩ => ⟨S16384, .i1⟩
  | .hbm, ⟨15, _⟩ => ⟨S_, .i32⟩
  | .hbm, ⟨16, _⟩ => ⟨S16384, .i32⟩
  | .hbm, ⟨17, _⟩ => ⟨S16384, .i32⟩
  | .hbm, ⟨18, _⟩ => ⟨S16384, .i32⟩
  | .hbm, ⟨19, _⟩ => ⟨S16384x1, .i32⟩
  | .hbm, ⟨20, _⟩ => ⟨S16384x1, .i32⟩
  | .hbm, ⟨21, _⟩ => ⟨S16384x2, .i32⟩
  | .hbm, ⟨22, _⟩ => ⟨S16384, .f32⟩
  | .hbm, ⟨23, _⟩ => ⟨S_, .i32⟩
  | .hbm, ⟨24, _⟩ => ⟨S16384, .i32⟩
  | .hbm, ⟨25, _⟩ => ⟨S16384, .i1⟩
  | .hbm, ⟨26, _⟩ => ⟨S_, .i32⟩
  | .hbm, ⟨27, _⟩ => ⟨S16384, .i32⟩
  | .hbm, ⟨28, _⟩ => ⟨S16384, .i32⟩
  | .hbm, ⟨29, _⟩ => ⟨S16384, .i32⟩
  | .hbm, ⟨30, _⟩ => ⟨S_, .i32⟩
  | .hbm, ⟨31, _⟩ => ⟨S16384, .i32⟩
  | .hbm, ⟨32, _⟩ => ⟨S16384, .i1⟩
  | .hbm, ⟨33, _⟩ => ⟨S_, .i32⟩
  | .hbm, ⟨34, _⟩ => ⟨S16384, .i32⟩
  | .hbm, ⟨35, _⟩ => ⟨S16384, .i32⟩
  | .hbm, ⟨36, _⟩ => ⟨S16384, .i32⟩
  | .hbm, ⟨37, _⟩ => ⟨S16384x1, .i32⟩
  | .hbm, ⟨38, _⟩ => ⟨S16384x1, .i32⟩
  | .hbm, ⟨39, _⟩ => ⟨S16384x2, .i32⟩
  | .hbm, ⟨40, _⟩ => ⟨S16384, .f32⟩
  | .hbm, ⟨41, _⟩ => ⟨S16384, .f32⟩
  | .hbm, ⟨42, _⟩ => ⟨S_, .f32⟩
  | .hbm, ⟨43, _⟩ => ⟨S16384, .f32⟩
  | .hbm, ⟨44, _⟩ => ⟨S16384, .f32⟩
  | .hbm, ⟨45, _⟩ => ⟨S_, .f32⟩
  | .hbm, ⟨46, _⟩ => ⟨S_, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_c_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_5 : Ref sig .tc := ⟨.hbm, 30, rfl⟩
abbrev main_v20 : Ref sig .tc := ⟨.hbm, 31, rfl⟩
abbrev main_v21 : Ref sig .tc := ⟨.hbm, 32, rfl⟩
abbrev main_c_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  concatenates_S16384x1_S16384x1_S16384x2_d1 : Shape.Concatenates [S16384x1, S16384x1] S16384x2 1
  reducesTo_S16384_S_d0 : S16384.ReducesTo [0] S_
  h_S_ : 0 < S_.numel
  gather_S16384x1000_S16384x2_S16384_n_01_n_n_01_1_11_wf : GatherDims.WF S16384x1000 S16384x2 S16384 [] [0, 1] [] [0, 1] [] 1 ![1, 1]

variable [Facts₀]

def gather_S16384x1000_S16384x2_S16384_n_01_n_n_01_1_11 : GatherDims S16384x1000 S16384x2 S16384 where
  offsetDims := []
  collapsedSliceDims := [0, 1]
  operandBatchingDims := []
  startIndicesBatchingDims := []
  startIndexMap := [0, 1]
  indexVectorDim := 1
  sliceSizes := ![1, 1]
  wf := gather_S16384x1000_S16384x2_S16384_n_01_n_n_01_1_11_wf

class Facts : Prop extends Facts₀ where

variable [Facts]
-- ==== Proof.LaunchA.lean ====
/-
  The run of the whole program from its parts, I.

  The program as the launch theorem for a SparseCore program sees it; the resource algebra (the handshakes' rounds, the
  staging cells' rounds of the two TensorCore kernels, the transfers' counters); what the handshakes of the one
  SparseCore call carry: each of the 32 tiles gets its 64 by 512 block of the transposed matrix, its 512 entries of the
  two label vectors and of the widened mask, and its own row of the 32 by 16 result, and gives them back with the row
  at the tile's value. A SparseCore's payload is the conjunction of its sixteen tiles', so the split among the tiles is
  the identity. The tile's obligation follows from the tile kernel's specification, which is a hypothesis here.
-/
import proofs.«202802_g48112223650475_cont_8to1c4_51_21_alg».proof.Proof.Gen.KernelIdeal
import proofs.«202802_g48112223650475_cont_8to1c4_51_21_alg».proof.Proof.Gen.KernelIdeal.Launch
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic

noncomputable section

namespace Cert.KernelIdeal.LaunchA

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UR : Type := URounds (GSem nD τ sig) Unit
abbrev UU : Type := (UH × UR) × Counters

local notation "𝕄" => MT nD τ sig (HIx 1) (Elt F) ℕ UU ℕ

/-- The handshakes' rounds: the left of the left factor. -/
def EH : Emb UH (MT nD τ sig (HIx 1) (Elt F) ℕ UU ℕ) := (Emb.inl : Emb UH (UH × UR)).trans embL
/-- The staging cells' rounds: the right of the left factor. The counters are found by instance in the right factor. -/
def EP : Emb UR (MT nD τ sig (HIx 1) (Elt F) ℕ UU ℕ) := (Emb.inr : Emb UR (UH × UR)).trans embL

instance EH_landsIn : (EH : Emb UH 𝕄).LandsIn (upEmb : UEmb _ 𝕄) := by unfold EH; infer_instance
instance EP_landsIn : (EP : Emb UR 𝕄).LandsIn (upEmb : UEmb _ 𝕄) := by unfold EP; infer_instance

/-! ## The tiles -/

/-- The coordinates of tile `i` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The tile's number among the 32: sixteen per SparseCore. -/
def wid (L : grid0.Coords) : Nat := 16 * (L 0).val + (L 1).val

/-- The tile's thread. -/
abbrev thr (d : Dev nD) (L : grid0.Coords) : Thread nD τ := V d ((L 0).castLE hcore0) ((L 1).castLE hsub0)

/-- The coordinates of the task the launch theorem numbers `(c, i)`. -/
abbrev Lof (c : Fin ((K (F := F)).nCore 0)) (i : Fin ((K (F := F)).nSub 0)) : grid0.Coords := coordsV ⟨c.val, c.isLt⟩ ⟨i.val, i.isLt⟩

theorem wid_Lof (c : Fin ((K (F := F)).nCore 0)) (i : Fin ((K (F := F)).nSub 0)) : wid (Lof (F := F) c i) = 16 * c.val + i.val := rfl

abbrev zLoc (d : Dev nD) : Loc nD τ sig := (SparseCore.T d).loc main_v0
abbrev lLoc (d : Dev nD) : Loc nD τ sig := (SparseCore.T d).loc main_arg2
abbrev lpLoc (d : Dev nD) : Loc nD τ sig := (SparseCore.T d).loc main_arg3
abbrev cLoc (d : Dev nD) : Loc nD τ sig := (SparseCore.T d).loc main_v1
abbrev oLoc (d : Dev nD) : Loc nD τ sig := (SparseCore.T d).loc main_v6

/-- The element sets of a tile: its block of the transposed matrix, its entries of a vector, its row of the result; and
    the tile's row as a pure term of the four inputs. These are hypotheses here; they are properties of the tile kernel. -/
structure TileSets (F : FTy → Type) where
  ztSet : grid0.Coords → Finset S1000x16384.Idx
  vecSet : grid0.Coords → Finset S16384.Idx
  outSet : grid0.Coords → Finset S32x16.Idx
  scRow : Vec F S1000x16384 .f32 → Vec F S16384 .i32 → Vec F S16384 .i32 → Vec F S16384 .i32 → grid0.Coords → Vec F S32x16 .f32
  mem_ztSet : ∀ L ix, ix ∈ ztSet L ↔ (ix 0).val < 64 ∧ 512 * wid L ≤ (ix 1).val ∧ (ix 1).val < 512 * wid L + 512
  mem_vecSet : ∀ L ix, ix ∈ vecSet L ↔ 512 * wid L ≤ (ix 0).val ∧ (ix 0).val < 512 * wid L + 512
  mem_outSet : ∀ L ix, ix ∈ outSet L ↔ (ix 0).val = wid L

variable (TS : TileSets F)

/-- What a tile is handed: its parts of the four inputs, and its row of the result at contents `o`. -/
def tileGo (d : Dev nD) (L : grid0.Coords) (zt : Vec F S1000x16384 .f32) (l lp cnd : Vec F S16384 .i32) (o : Vec F S32x16 .f32) : sProp 𝕄 :=
  iprop((zLoc d ↦[TS.ztSet L]{fullShare} zt) ∗ (lLoc d ↦[TS.vecSet L]{fullShare} l) ∗ (lpLoc d ↦[TS.vecSet L]{fullShare} lp)
    ∗ (cLoc d ↦[TS.vecSet L]{fullShare} cnd) ∗ (oLoc d ↦[TS.outSet L]{fullShare} o))

/-- What it hands back: the same, its row at the tile's value. -/
def tileTd (d : Dev nD) (L : grid0.Coords) (zt : Vec F S1000x16384 .f32) (l lp cnd : Vec F S16384 .i32) : sProp 𝕄 :=
  tileGo TS d L zt l lp cnd (TS.scRow zt l lp cnd L)

instance tileGo_storable (d : Dev nD) (L : grid0.Coords) (zt : Vec F S1000x16384 .f32) (l lp cnd : Vec F S16384 .i32) (o : Vec F S32x16 .f32) :
    BI.Storable (upEmb : UEmb _ 𝕄) (tileGo TS d L zt l lp cnd o) := by unfold tileGo; infer_instance
instance tileTd_storable (d : Dev nD) (L : grid0.Coords) (zt : Vec F S1000x16384 .f32) (l lp cnd : Vec F S16384 .i32) :
    BI.Storable (upEmb : UEmb _ 𝕄) (tileTd TS d L zt l lp cnd) := by unfold tileTd; infer_instance

/-- The contents the call is made at, per device: the transposed matrix, the two label vectors, the widened mask, and
    what the result array holds before the call. -/
structure CallVals (F : FTy → Type) where
  zt : Dev nD → Vec F S1000x16384 .f32
  l : Dev nD → Vec F S16384 .i32
  lp : Dev nD → Vec F S16384 .i32
  cnd : Dev nD → Vec F S16384 .i32
  o : Dev nD → Vec F S32x16 .f32

variable (cv : CallVals F)

/-- The one call's payloads: a tile's are `tileGo` and `tileTd` at the call's contents, a SparseCore's the
    conjunction of its tiles'; no kernel proof consumes anything of the launch's. -/
def P : (K (F := F)).Pay (nD := nD) (Val := Elt F) (Name := ℕ) (U := UU) where
  st := fun q d c => match q with
    | 0 => bigSep Finset.univ fun i : Fin ((K (F := F)).nSub 0) => tileGo TS d (Lof (F := F) c i) (cv.zt d) (cv.l d) (cv.lp d) (cv.cnd d) (cv.o d)
  dn := fun q d c => match q with
    | 0 => bigSep Finset.univ fun i : Fin ((K (F := F)).nSub 0) => tileTd TS d (Lof (F := F) c i) (cv.zt d) (cv.l d) (cv.lp d) (cv.cnd d)
  go := fun q d c i => match q with
    | 0 => tileGo TS d (Lof (F := F) c i) (cv.zt d) (cv.l d) (cv.lp d) (cv.cnd d) (cv.o d)
  td := fun q d c i => match q with
    | 0 => tileTd TS d (Lof (F := F) c i) (cv.zt d) (cv.l d) (cv.lp d) (cv.cnd d)
  x := fun _ _ => iprop(emp)

instance P_storable : (P (F := F) TS cv).IsStorable where
  st q d c := match q with
    | 0 => (inferInstance : BI.Storable (upEmb : UEmb _ 𝕄)
        (bigSep Finset.univ fun i : Fin ((K (F := F)).nSub 0) => tileGo TS d (Lof (F := F) c i) (cv.zt d) (cv.l d) (cv.lp d) (cv.cnd d) (cv.o d)))
  dn q d c := match q with
    | 0 => (inferInstance : BI.Storable (upEmb : UEmb _ 𝕄)
        (bigSep Finset.univ fun i : Fin ((K (F := F)).nSub 0) => tileTd TS d (Lof (F := F) c i) (cv.zt d) (cv.l d) (cv.lp d) (cv.cnd d)))
  go q d c i := match q with
    | 0 => (inferInstance : BI.Storable (upEmb : UEmb _ 𝕄) (tileGo TS d (Lof (F := F) c i) (cv.zt d) (cv.l d) (cv.lp d) (cv.cnd d) (cv.o d)))
  td q d c i := match q with
    | 0 => (inferInstance : BI.Storable (upEmb : UEmb _ 𝕄) (tileTd TS d (Lof (F := F) c i) (cv.zt d) (cv.l d) (cv.lp d) (cv.cnd d)))

/-- A SparseCore's payload splits into its tiles' by definition. -/
theorem vecSplit : (K (F := F)).VecSplit' (P TS cv) 0 := by
  intro d c
  show (bigSep Finset.univ fun i : Fin ((K (F := F)).nSub 0) => tileGo TS d (Lof (F := F) c i) (cv.zt d) (cv.l d) (cv.lp d) (cv.cnd d) (cv.o d))
    ⊢ |={Set.univ}=> iprop((bigSep Finset.univ fun i : Fin ((K (F := F)).nSub 0) => tileGo TS d (Lof (F := F) c i) (cv.zt d) (cv.l d) (cv.lp d) (cv.cnd d) (cv.o d))
      ∗ ((bigSep Finset.univ fun i : Fin ((K (F := F)).nSub 0) => tileTd TS d (Lof (F := F) c i) (cv.zt d) (cv.l d) (cv.lp d) (cv.cnd d))
          -∗ (bigSep Finset.univ fun i : Fin ((K (F := F)).nSub 0) => tileTd TS d (Lof (F := F) c i) (cv.zt d) (cv.l d) (cv.lp d) (cv.cnd d))))
  iintro H; imodintro
  isplitl [H]; · iexact H
  iintro H; iexact H

/-! ## The tile's obligation, from the tile kernel's specification -/

variable [FloatOps F]

/-- The tile kernel as the body table runs it at coordinates `L`. -/
abbrev tileProg (L : grid0.Coords) : Prog (TpuEff nD τ sig (Elt F) Λ₀ (.scVector ((L 0).castLE hcore0) ((L 1).castLE hsub0))) PUnit :=
  cc0__sc_stream L (Memref.whole main_v0_scv) (Memref.isWhole_whole _) (Memref.whole main_arg2_scv) (Memref.isWhole_whole _)
    (Memref.whole main_arg3_scv) (Memref.isWhole_whole _) (Memref.whole main_v1_scv) (Memref.isWhole_whole _) (Memref.whole main_v6_scv) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _)
    cc0_scratch5 cc0_scratch6 cc0_scoped0 cc0_scoped1 cc0_scoped2 cc0_scoped3

/-- The tile kernel's specification at any tile, any contents and whatever the tile owes: from the wait evidence, the
    tile's parts and its scoped storage, the kernel runs to the parts with the row at the tile's value. -/
def TileSpec : Prop :=
  ∀ (d : Dev nD) (L : grid0.Coords) (O : CellTallies nD τ sig (HIx 1)) (W : Waits sig (HIx 1))
    (zt : Vec F S1000x16384 .f32) (l lp cnd : Vec F S16384 .i32) (o : Vec F S32x16 .f32),
    iprop(Transfers.MayWaits (thr d L) (none : HIx 1) O ∗ tileGo TS d L zt l lp cnd o
        ∗ scopedBufs (thr d L) ∗ scopedSems0 (thr d L) ∗ owes (thr d L) O W)
      ⊢ wp frame (wpE (defs₀ (F := F)) 𝒱₀ (thr d L) none) Set.univ (tileProg (F := F) L)
          fun _ => (iprop(tileTd TS d L zt l lp cnd ∗ scopedBufs (thr d L) ∗ scopedSems0 (thr d L)
            ∗ ∃ W', ⌜∀ p ∈ W', p ∈ W ∨ p.2 = none⌝ ∗ owes (thr d L) O W') : sProp 𝕄)

theorem defs₀_vector (c : Fin τ.nSC) (s : Fin τ.nSub) :
    defs₀ (F := F) (.scVector c s) 0 ()
      = SparseCore.onTile hcore0 hsub0 (fun c s => tileProg (F := F) (coordsV c s)) ⟨⟩ c s := rfl

omit [FloatOps F] in
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hspec : TileSpec (F := F) TS) : (K (F := F)).TileObl (D (F := F)) 𝒱 (P TS cv) v₀ 0 := by
  intro d c i O W hO _ _
  simp only [show (P TS cv).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have hpre : iprop(levAts (K (F := F)).L (K (F := F)).lev ∗ (iprop(emp) : sProp 𝕄)
        ∗ tileGo TS d (Lof (F := F) c i) (cv.zt d) (cv.l d) (cv.lp d) (cv.cnd d) (cv.o d)
        ∗ scopedBufs (thr d (Lof (F := F) c i)) ∗ scopedSems0 (thr d (Lof (F := F) c i)) ∗ owes (thr d (Lof (F := F) c i)) O W)
      ⊢ (iprop(Transfers.MayWaits (thr d (Lof (F := F) c i)) (none : HIx 1) O
        ∗ tileGo TS d (Lof (F := F) c i) (cv.zt d) (cv.l d) (cv.lp d) (cv.cnd d) (cv.o d)
        ∗ scopedBufs (thr d (Lof (F := F) c i)) ∗ scopedSems0 (thr d (Lof (F := F) c i)) ∗ owes (thr d (Lof (F := F) c i)) O W) : sProp 𝕄) := by
    iintro ⟨#Hlv, -, Hgo, Hsb, Hss, HO⟩
    ihave Hmw := ((K (F := F)).mayWaits_none (thr := thr d (Lof (F := F) c i)) hO) $$ Hlv
    isplitl [Hmw]; · iexact Hmw
    isplitl [Hgo]; · iexact Hgo
    isplitl [Hsb]; · iexact Hsb
    isplitl [Hss]; · iexact Hss
    iexact HO
  exact hpre.trans ((hspec d (Lof (F := F) c i) O W (cv.zt d) (cv.l d) (cv.lp d) (cv.cnd d) (cv.o d)).trans (wp_mono frame _ _ fun _ => obl_post))

end Cert.KernelIdeal.LaunchA

end
-- ==== Proof.LaunchB.lean ====
/-
  The run of the whole program from its parts, II: how the whole arrays split among the 32 tiles.

  Tile number `w = 16 c + i` owns columns `512 w … 512 w + 511` of the first 64 rows of the transposed matrix, entries
  `512 w … 512 w + 511` of each vector, and row `w` of the 32 by 16 result. Different tiles' sets are disjoint; the
  vectors' sets cover the vectors, the rows cover the result, and the blocks cover the first 64 rows of the matrix (the
  other 936 rows stay where they are). So an array held whole is the tiles' parts conjoined (and the rest), and the rows
  held at the tiles' values join to the result held whole at the one function that reads row `w` off tile `w`'s value.
-/
import proofs.«202802_g48112223650475_cont_8to1c4_51_21_alg».proof.Proof.LaunchA

noncomputable section

namespace Cert.KernelIdeal.LaunchB

open Cert.KernelIdeal Cert.KernelIdeal.Gen Cert.KernelIdeal.LaunchA

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The tasks of the one call: SparseCore by tile. -/
abbrev TI (F : FTy → Type) : Type := Fin ((K (F := F)).nCore 0) × Fin ((K (F := F)).nSub 0)

theorem c_lt (c : Fin ((K (F := F)).nCore 0)) : c.val < 2 := c.isLt
theorem i_lt (i : Fin ((K (F := F)).nSub 0)) : i.val < 16 := i.isLt

theorem wid_inj {t t' : TI F} (h : wid (Lof (F := F) t.1 t.2) = wid (Lof (F := F) t'.1 t'.2)) : t = t' := by
  obtain ⟨c, i⟩ := t; obtain ⟨c', i'⟩ := t'
  have h' : 16 * c.val + i.val = 16 * c'.val + i'.val := h
  have := c_lt c; have := c_lt c'; have := i_lt i; have := i_lt i'
  exact Prod.ext (Fin.ext (by show c.val = c'.val; omega)) (Fin.ext (by show i.val = i'.val; omega))

variable (TS : TileSets F)

theorem zt_disjoint : ∀ t ∈ (Finset.univ : Finset (TI F)), ∀ t' ∈ (Finset.univ : Finset (TI F)), t ≠ t' →
    Disjoint (TS.ztSet (Lof (F := F) t.1 t.2)) (TS.ztSet (Lof (F := F) t'.1 t'.2)) := fun t _ t' _ hne =>
  Finset.disjoint_left.mpr fun ix h1 h2 => hne (wid_inj (by
    have a := (TS.mem_ztSet _ ix).mp h1; have b := (TS.mem_ztSet _ ix).mp h2; omega))

theorem vec_disjoint : ∀ t ∈ (Finset.univ : Finset (TI F)), ∀ t' ∈ (Finset.univ : Finset (TI F)), t ≠ t' →
    Disjoint (TS.vecSet (Lof (F := F) t.1 t.2)) (TS.vecSet (Lof (F := F) t'.1 t'.2)) := fun t _ t' _ hne =>
  Finset.disjoint_left.mpr fun ix h1 h2 => hne (wid_inj (by
    have a := (TS.mem_vecSet _ ix).mp h1; have b := (TS.mem_vecSet _ ix).mp h2; omega))

theorem out_disjoint : ∀ t ∈ (Finset.univ : Finset (TI F)), ∀ t' ∈ (Finset.univ : Finset (TI F)), t ≠ t' →
    Disjoint (TS.outSet (Lof (F := F) t.1 t.2)) (TS.outSet (Lof (F := F) t'.1 t'.2)) := fun t _ t' _ hne =>
  Finset.disjoint_left.mpr fun ix h1 h2 => hne (wid_inj (by
    have a := (TS.mem_outSet _ ix).mp h1; have b := (TS.mem_outSet _ ix).mp h2; omega))

/-- The task whose number is `w`. -/
def taskOf (w : Nat) (hw : w < 32) : TI F := (⟨w / 16, by show w / 16 < 2; omega⟩, ⟨w % 16, by show w % 16 < 16; omega⟩)

theorem wid_taskOf (w : Nat) (hw : w < 32) : wid (Lof (F := F) (taskOf (F := F) w hw).1 (taskOf (F := F) w hw).2) = w := by
  rw [wid_Lof]; show 16 * (w / 16) + w % 16 = w; omega

/-- The first 64 rows of the transposed matrix. -/
def lowSet : Finset S1000x16384.Idx := Finset.univ.filter fun ix => (ix 0).val < 64

theorem zt_cover : (Finset.univ : Finset (TI F)).biUnion (fun t => TS.ztSet (Lof (F := F) t.1 t.2)) = lowSet := by
  ext ix
  simp only [Finset.mem_biUnion, Finset.mem_univ, true_and, lowSet, Finset.mem_filter]
  constructor
  · rintro ⟨t, ht⟩; exact ((TS.mem_ztSet _ ix).mp ht).1
  · intro h
    have h1 : (ix 1).val < 16384 := (ix 1).isLt
    refine ⟨taskOf (F := F) ((ix 1).val / 512) (by omega), (TS.mem_ztSet _ ix).mpr ?_⟩
    rw [wid_taskOf]; omega

theorem vec_cover : (Finset.univ : Finset (TI F)).biUnion (fun t => TS.vecSet (Lof (F := F) t.1 t.2)) = Finset.univ := by
  ext ix
  simp only [Finset.mem_biUnion, Finset.mem_univ, true_and, iff_true]
  have h0 : (ix 0).val < 16384 := (ix 0).isLt
  refine ⟨taskOf (F := F) ((ix 0).val / 512) (by omega), (TS.mem_vecSet _ ix).mpr ?_⟩
  rw [wid_taskOf]; omega

theorem out_cover : (Finset.univ : Finset (TI F)).biUnion (fun t => TS.outSet (Lof (F := F) t.1 t.2)) = Finset.univ := by
  ext ix
  simp only [Finset.mem_biUnion, Finset.mem_univ, true_and, iff_true]
  have h0 : (ix 0).val < 32 := (ix 0).isLt
  refine ⟨taskOf (F := F) (ix 0).val h0, (TS.mem_outSet _ ix).mpr ?_⟩
  rw [wid_taskOf]

/-! ## The arrays held whole, as the tiles' parts -/

/-- Conjoined over the tasks is conjoined over the SparseCores and, for each, its tiles. -/
theorem bigSep_tasks (Φ : TI F → sProp 𝕄) :
    bigSep Finset.univ Φ = bigSep Finset.univ fun c : Fin ((K (F := F)).nCore 0) => bigSep Finset.univ fun i : Fin ((K (F := F)).nSub 0) => Φ (c, i) :=
  bigSep_univ_prod Φ

theorem zt_split (d : Dev nD) (f : Vec F S1000x16384 .f32) :
    (zLoc d ↦{fullShare} f : sProp 𝕄)
      = iprop((bigSep Finset.univ fun c : Fin ((K (F := F)).nCore 0) => bigSep Finset.univ fun i : Fin ((K (F := F)).nSub 0) =>
            zLoc d ↦[TS.ztSet (Lof (F := F) c i)]{fullShare} f)
          ∗ zLoc d ↦[Finset.univ \ lowSet]{fullShare} f) := by
  rw [← bigSep_tasks (F := F) (fun t => zLoc d ↦[TS.ztSet (Lof (F := F) t.1 t.2)]{fullShare} f),
    ← pointsTo_biUnion Finset.univ (ℓ := zLoc d) (fun t : TI F => TS.ztSet (Lof (F := F) t.1 t.2)) (zt_disjoint TS), zt_cover]
  exact BI.equiv_iff.mp ⟨(pointsTo_split_subset (ℓ := zLoc d) (Finset.subset_univ lowSet)).1, (pointsTo_split_subset (ℓ := zLoc d) (Finset.subset_univ lowSet)).2⟩

theorem l_split (d : Dev nD) (f : Vec F S16384 .i32) :
    (lLoc d ↦{fullShare} f : sProp 𝕄)
      = bigSep Finset.univ fun c : Fin ((K (F := F)).nCore 0) => bigSep Finset.univ fun i : Fin ((K (F := F)).nSub 0) =>
            lLoc d ↦[TS.vecSet (Lof (F := F) c i)]{fullShare} f := by
  rw [← bigSep_tasks (F := F) (fun t => lLoc d ↦[TS.vecSet (Lof (F := F) t.1 t.2)]{fullShare} f),
    ← pointsTo_biUnion Finset.univ (ℓ := lLoc d) (fun t : TI F => TS.vecSet (Lof (F := F) t.1 t.2)) (vec_disjoint TS), vec_cover]; try rfl
theorem lp_split (d : Dev nD) (f : Vec F S16384 .i32) :
    (lpLoc d ↦{fullShare} f : sProp 𝕄)
      = bigSep Finset.univ fun c : Fin ((K (F := F)).nCore 0) => bigSep Finset.univ fun i : Fin ((K (F := F)).nSub 0) =>
            lpLoc d ↦[TS.vecSet (Lof (F := F) c i)]{fullShare} f := by
  rw [← bigSep_tasks (F := F) (fun t => lpLoc d ↦[TS.vecSet (Lof (F := F) t.1 t.2)]{fullShare} f),
    ← pointsTo_biUnion Finset.univ (ℓ := lpLoc d) (fun t : TI F => TS.vecSet (Lof (F := F) t.1 t.2)) (vec_disjoint TS), vec_cover]; try rfl
theorem c_split (d : Dev nD) (f : Vec F S16384 .i32) :
    (cLoc d ↦{fullShare} f : sProp 𝕄)
      = bigSep Finset.univ fun c : Fin ((K (F := F)).nCore 0) => bigSep Finset.univ fun i : Fin ((K (F := F)).nSub 0) =>
            cLoc d ↦[TS.vecSet (Lof (F := F) c i)]{fullShare} f := by
  rw [← bigSep_tasks (F := F) (fun t => cLoc d ↦[TS.vecSet (Lof (F := F) t.1 t.2)]{fullShare} f),
    ← pointsTo_biUnion Finset.univ (ℓ := cLoc d) (fun t : TI F => TS.vecSet (Lof (F := F) t.1 t.2)) (vec_disjoint TS), vec_cover]; try rfl
theorem o_split (d : Dev nD) (f : Vec F S32x16 .f32) :
    (oLoc d ↦{fullShare} f : sProp 𝕄)
      = bigSep Finset.univ fun c : Fin ((K (F := F)).nCore 0) => bigSep Finset.univ fun i : Fin ((K (F := F)).nSub 0) =>
            oLoc d ↦[TS.outSet (Lof (F := F) c i)]{fullShare} f := by
  rw [← bigSep_tasks (F := F) (fun t => oLoc d ↦[TS.outSet (Lof (F := F) t.1 t.2)]{fullShare} f),
    ← pointsTo_biUnion Finset.univ (ℓ := oLoc d) (fun t : TI F => TS.outSet (Lof (F := F) t.1 t.2)) (out_disjoint TS), out_cover]; try rfl

/-- The 32 by 16 result after the call: row `w` read off tile `w`'s value. -/
def scOut (zt : Vec F S1000x16384 .f32) (l lp cnd : Vec F S16384 .i32) : Vec F S32x16 .f32 := fun ix =>
  TS.scRow zt l lp cnd (Lof (F := F) (taskOf (F := F) (ix 0).val (ix 0).isLt).1 (taskOf (F := F) (ix 0).val (ix 0).isLt).2) ix

/-- The rows at the tiles' values are the rows of the one function. -/
theorem o_join (d : Dev nD) (zt : Vec F S1000x16384 .f32) (l lp cnd : Vec F S16384 .i32) :
    (bigSep Finset.univ fun c : Fin ((K (F := F)).nCore 0) => bigSep Finset.univ fun i : Fin ((K (F := F)).nSub 0) =>
        (oLoc d ↦[TS.outSet (Lof (F := F) c i)]{fullShare} TS.scRow zt l lp cnd (Lof (F := F) c i) : sProp 𝕄))
      = (oLoc d ↦{fullShare} scOut TS zt l lp cnd) := by
  rw [o_split TS d (scOut TS zt l lp cnd)]
  refine bigSep_congr fun c _ => bigSep_congr fun i _ => pointsTo_congr fun ix hix => ?_
  have hw : (ix 0).val = wid (Lof (F := F) c i) := (TS.mem_outSet _ ix).mp hix
  have ht : taskOf (F := F) (ix 0).val (ix 0).isLt = (c, i) :=
    wid_inj (t := taskOf (F := F) (ix 0).val (ix 0).isLt) (t' := (c, i)) ((wid_taskOf (F := F) _ _).trans hw)
  have key : ∀ t : TI F, t = (c, i) → TS.scRow zt l lp cnd (Lof (F := F) c i) ix = TS.scRow zt l lp cnd (Lof (F := F) t.1 t.2) ix := by
    rintro _ rfl; rfl
  exact key _ ht

end Cert.KernelIdeal.LaunchB

end
-- ==== Proof.Launch.lean ====
/-
  The run of the whole program from its parts, III: the launch element, @main on the TensorCore, and the run.

  @main is: six host operations; the SparseCore call; the two TensorCore kernel regions; the final reshape. Holding the
  TensorCore's fourteen arrays whole, the host operations run to their values; the five arrays of the call are split
  into the 32 tiles' parts (the rows of the transposed matrix from 64 on stay here), handed over, and come back with the
  result at the one function reading row `w` off tile `w`'s value; what the TensorCore then owes is nothing, its recorded
  waits within the levels the call left, and each region runs from that to the same with its result written; then the
  reshape. The final memory holds the four arguments at their launch contents and the result at the composed value.

  The host operations' values and the two regions' runs enter as hypotheses.
-/
import proofs.«202802_g48112223650475_cont_8to1c4_51_21_alg».proof.Proof.LaunchB
import Idealize.ShloMosaic.Lib.Pipeline.Frame

noncomputable section

namespace Cert.KernelIdeal.Launch

open Cert.KernelIdeal Cert.KernelIdeal.Gen Cert.KernelIdeal.LaunchA Cert.KernelIdeal.LaunchB

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr)

variable {F : FTy → Type}

local notation "𝕄" => MT nD τ sig (HIx 1) (Elt F) ℕ UU ℕ

/-! ## The pipelines' staging cells and the launch element -/

/-- The one admissible contents of each pipeline's (empty) prefetched tables. -/
abbrev adm : (p : Fin 2) → (pcfgs (F := F) p).Adm := fun p => (cfgs p).toPCfg_adm
/-- The pipelines at them. -/
abbrev pcs : Fin 2 → Pipeline.Cfg sig Λ₀ := Pipeline.pin (pcfgs (F := F)) adm

theorem pcs_inj : Function.Injective (Pipeline.cellOf (nD := nD) (τ := τ) (pcs (F := F))) := cellOf_inj

def u₀ : UU :=
  ((initOf (K (F := F)).hsCells (K (F := F)).hsToks,
    initOf (Pipeline.cells (pcs (F := F)) pcs_inj) (Pipeline.launchToks (pcs (F := F)) pcs_inj)), 1)

/-- What @main's proof starts from beside what the launch deals: the ghost state of both pipelines' staging cells. -/
def G (d : Dev nD) : sProp 𝕄 :=
  bigSep Finset.univ fun p : Fin 2 => iprop(Pipeline.cellsGhost (pcs (F := F)) EP p d ∗ Pipeline.toksInit (pcs (F := F)) EP p d)

theorem G_eq (d : Dev nD) : (G (F := F) d : sProp 𝕄)
    = iprop((Pipeline.cellsGhost (pcs (F := F)) EP 0 d ∗ Pipeline.toksInit (pcs (F := F)) EP 0 d)
        ∗ (Pipeline.cellsGhost (pcs (F := F)) EP 1 d ∗ Pipeline.toksInit (pcs (F := F)) EP 1 d)) := by
  unfold G
  rw [show (Finset.univ : Finset (Fin 2)) = {0, 1} by decide, SparseCore.bigSep_insert' (by decide), bigSep_singleton]

theorem bigSep_emp' {I : Type} (s : Finset I) : (bigSep s fun _ => iprop(emp)) = (iprop(emp) : sProp 𝕄) := bigSep_emp_const s

variable (TS : TileSets F) (cv : CallVals F)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun t : Thread nD τ => bigSep Finset.univ fun q : Fin 1 => (P TS cv).x q t) := by
  have hG : (bigSep Finset.univ fun d : Dev nD => G (F := F) d)
      = iprop((bigSep Finset.univ fun c : Dev nD => bigSep Finset.univ fun p : Fin 2 => Pipeline.cellsGhost (pcs (F := F)) EP p c)
          ∗ (bigSep Finset.univ fun c : Dev nD => bigSep Finset.univ fun p : Fin 2 => (Pipeline.toksInit (pcs (F := F)) EP p c : sProp 𝕄))) := by
    unfold G; simp only [bigSep_sep']
  have hsplit : (ownU (u₀ (F := F)) : sProp 𝕄)
      ⊢ iprop(BI.own (EH (initOf (K (F := F)).hsCells (K (F := F)).hsToks))
          ∗ BI.own (EP (initOf (Pipeline.cells (pcs (F := F)) pcs_inj) (Pipeline.launchToks (pcs (F := F)) pcs_inj)))) :=
    (ownU_pair _ _).trans (sep_elim_left.trans
      (show (BI.own ((embL : Emb (UH × UR) 𝕄) (initOf (K (F := F)).hsCells (K (F := F)).hsToks,
            initOf (Pipeline.cells (pcs (F := F)) pcs_inj) (Pipeline.launchToks (pcs (F := F)) pcs_inj))) : sProp 𝕄)
          ⊢ iprop(BI.own (EH (initOf (K (F := F)).hsCells (K (F := F)).hsToks))
            ∗ BI.own (EP (initOf (Pipeline.cells (pcs (F := F)) pcs_inj) (Pipeline.launchToks (pcs (F := F)) pcs_inj))))
        from own_pair_emb (embL : Emb (UH × UR) 𝕄) (initOf (K (F := F)).hsCells (K (F := F)).hsToks)
          (initOf (Pipeline.cells (pcs (F := F)) pcs_inj) (Pipeline.launchToks (pcs (F := F)) pcs_inj))))
  iintro Hu
  ihave H2 := hsplit $$ Hu
  icases H2 with ⟨HH, HP⟩
  imod (Pipeline.fund_ghost (pcs (F := F)) EP pcs_inj) $$ HP with Hg
  imodintro
  isplitl [HH]; · iexact HH
  isplitl [Hg]; · rw [hG]; iexact Hg
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The valuations along @main -/

variable (m : (ℓ : Loc nD τ sig) → Buf (Elt F) ℓ) (ρ : Dev nD → PrngReg)
variable (opsA opsB : List (HloOp τ sig (Elt F)))

/-- A TensorCore reference as a buffer of the device. -/
abbrev dr (b : Ref sig .tc) : DevRef τ sig := Proc.devRef .tc b

theorem dr_inj : Function.Injective (dr : Ref sig .tc → DevRef τ sig) := by decide

/-- The TensorCore's arrays at contents of their own, as the regions' states name them. -/
abbrev TcVal (F : FTy → Type) (d : Dev nD) : Type := (b : Ref sig .tc) → Buf (Elt F) ((d.tc : Thread nD τ).loc b)

/-- The launch contents; -/
def W0 (d : Dev nD) : Valuation τ sig (Elt F) := fun b => m (d, b)
/-- after the six host operations; -/
def W1 (d : Dev nD) : Valuation τ sig (Elt F) := StableHlo.after opsA (W0 m d)

/-- the contents the SparseCore call is made at; -/
def cvOf : CallVals F where
  zt d := W1 m opsA d (dr main_v0)
  l d := W1 m opsA d (dr main_arg2)
  lp d := W1 m opsA d (dr main_arg3)
  cnd d := W1 m opsA d (dr main_v1)
  o d := W1 m opsA d (dr main_v6)

/-- after the call: the 32 by 16 result at the tiles' rows. -/
def W2 (d : Dev nD) : Valuation τ sig (Elt F) :=
  Function.update (W1 m opsA d) (dr main_v6)
    (scOut TS ((cvOf m opsA).zt d) ((cvOf m opsA).l d) ((cvOf m opsA).lp d) ((cvOf m opsA).cnd d))

/-- What the first region is entered at, -/
def Vin0 (d : Dev nD) : TcVal F d := fun b => W2 TS m opsA d (dr b)

variable (v7 : (d : Dev nD) → Buf (Elt F) ((d.tc : Thread nD τ).loc main_v7))
variable (v8 : (d : Dev nD) → Buf (Elt F) ((d.tc : Thread nD τ).loc main_v8))

/-- the second, -/
def Vin1 (d : Dev nD) : TcVal F d := Function.update (Vin0 TS m opsA d) main_v7 (v7 d)
/-- what it leaves, -/
def Vout1 (d : Dev nD) : TcVal F d := Function.update (Vin1 TS m opsA v7 d) main_v8 (v8 d)

/-- the same as a valuation of the device's buffers, -/
def W3 (d : Dev nD) : Valuation τ sig (Elt F) :=
  Function.update (Function.update (W2 TS m opsA d) (dr main_v7) (v7 d)) (dr main_v8) (v8 d)
/-- and after the final reshape. -/
def W4 (d : Dev nD) : Valuation τ sig (Elt F) := StableHlo.after opsB (W3 TS m opsA v7 v8 d)

theorem dr_update (d : Dev nD) (W : Valuation τ sig (Elt F)) (r : Ref sig .tc) (x : Buf (Elt F) ((d.tc : Thread nD τ).loc r)) :
    ((fun b => Function.update W (dr r) x (dr b)) : TcVal F d) = Function.update ((fun b => W (dr b)) : TcVal F d) r x := by
  funext b
  by_cases h : b = r
  · subst h; rw [Function.update_self, Function.update_self]
  · rw [Function.update_of_ne h, Function.update_of_ne (fun e => h (dr_inj e))]

theorem Vout1_eq (d : Dev nD) : Vout1 TS m opsA v7 v8 d = fun b => W3 TS m opsA v7 v8 d (dr b) := by
  unfold Vout1 Vin1 Vin0 W3
  rw [dr_update d, dr_update d]

/-! ## The call's five arrays among the fourteen -/

/-- The five arrays the call is handed. -/
abbrev T5 : Finset (DevRef τ sig) := {dr main_v0, dr main_arg2, dr main_arg3, dr main_v1, dr main_v6}

theorem T5_sub : (T5 : Finset (DevRef τ sig)) ⊆ Pipeline.ucRefs τ sig := by decide

theorem held_T5 (d : Dev nD) (W : Valuation τ sig (Elt F)) :
    (held (SparseCore.T d) T5 W : sProp 𝕄)
      = iprop((zLoc d ↦{fullShare} W (dr main_v0)) ∗ (lLoc d ↦{fullShare} W (dr main_arg2)) ∗ (lpLoc d ↦{fullShare} W (dr main_arg3))
          ∗ (cLoc d ↦{fullShare} W (dr main_v1)) ∗ (oLoc d ↦{fullShare} W (dr main_v6))) := by
  unfold held T5
  rw [SparseCore.bigSep_insert' (by decide), SparseCore.bigSep_insert' (by decide), SparseCore.bigSep_insert' (by decide),
    SparseCore.bigSep_insert' (by decide), bigSep_singleton]

/-- What stays with the TensorCore during the call: rows 64 to 999 of the transposed matrix and the other nine arrays. -/
def Stay (d : Dev nD) : sProp 𝕄 :=
  iprop((zLoc d ↦[Finset.univ \ lowSet]{fullShare} (cvOf m opsA).zt d) ∗ held (SparseCore.T d) (Pipeline.ucRefs τ sig \ T5) (W1 m opsA d))

theorem st_eq (d : Dev nD) :
    (bigSep Finset.univ fun c : Fin ((K (F := F)).nCore 0) => (P TS (cvOf m opsA)).st 0 d c)
      = iprop((bigSep Finset.univ fun c : Fin ((K (F := F)).nCore 0) => bigSep Finset.univ fun i : Fin ((K (F := F)).nSub 0) =>
            zLoc d ↦[TS.ztSet (Lof (F := F) c i)]{fullShare} (cvOf m opsA).zt d)
        ∗ (bigSep Finset.univ fun c : Fin ((K (F := F)).nCore 0) => bigSep Finset.univ fun i : Fin ((K (F := F)).nSub 0) =>
            lLoc d ↦[TS.vecSet (Lof (F := F) c i)]{fullShare} (cvOf m opsA).l d)
        ∗ (bigSep Finset.univ fun c : Fin ((K (F := F)).nCore 0) => bigSep Finset.univ fun i : Fin ((K (F := F)).nSub 0) =>
            lpLoc d ↦[TS.vecSet (Lof (F := F) c i)]{fullShare} (cvOf m opsA).lp d)
        ∗ (bigSep Finset.univ fun c : Fin ((K (F := F)).nCore 0) => bigSep Finset.univ fun i : Fin ((K (F := F)).nSub 0) =>
            cLoc d ↦[TS.vecSet (Lof (F := F) c i)]{fullShare} (cvOf m opsA).cnd d)
        ∗ (bigSep Finset.univ fun c : Fin ((K (F := F)).nCore 0) => bigSep Finset.univ fun i : Fin ((K (F := F)).nSub 0) =>
            (oLoc d ↦[TS.outSet (Lof (F := F) c i)]{fullShare} (cvOf m opsA).o d : sProp 𝕄))) := by
  show (bigSep Finset.univ fun c : Fin ((K (F := F)).nCore 0) => bigSep Finset.univ fun i : Fin ((K (F := F)).nSub 0) =>
      tileGo TS d (Lof (F := F) c i) ((cvOf m opsA).zt d) ((cvOf m opsA).l d) ((cvOf m opsA).lp d) ((cvOf m opsA).cnd d) ((cvOf m opsA).o d)) = _
  unfold tileGo; simp only [bigSep_sep']

theorem dn_eq (d : Dev nD) :
    (bigSep Finset.univ fun c : Fin ((K (F := F)).nCore 0) => (P TS (cvOf m opsA)).dn 0 d c)
      = iprop((bigSep Finset.univ fun c : Fin ((K (F := F)).nCore 0) => bigSep Finset.univ fun i : Fin ((K (F := F)).nSub 0) =>
            zLoc d ↦[TS.ztSet (Lof (F := F) c i)]{fullShare} (cvOf m opsA).zt d)
        ∗ (bigSep Finset.univ fun c : Fin ((K (F := F)).nCore 0) => bigSep Finset.univ fun i : Fin ((K (F := F)).nSub 0) =>
            lLoc d ↦[TS.vecSet (Lof (F := F) c i)]{fullShare} (cvOf m opsA).l d)
        ∗ (bigSep Finset.univ fun c : Fin ((K (F := F)).nCore 0) => bigSep Finset.univ fun i : Fin ((K (F := F)).nSub 0) =>
            lpLoc d ↦[TS.vecSet (Lof (F := F) c i)]{fullShare} (cvOf m opsA).lp d)
        ∗ (bigSep Finset.univ fun c : Fin ((K (F := F)).nCore 0) => bigSep Finset.univ fun i : Fin ((K (F := F)).nSub 0) =>
            cLoc d ↦[TS.vecSet (Lof (F := F) c i)]{fullShare} (cvOf m opsA).cnd d)
        ∗ (bigSep Finset.univ fun c : Fin ((K (F := F)).nCore 0) => bigSep Finset.univ fun i : Fin ((K (F := F)).nSub 0) =>
            (oLoc d ↦[TS.outSet (Lof (F := F) c i)]{fullShare}
              TS.scRow ((cvOf m opsA).zt d) ((cvOf m opsA).l d) ((cvOf m opsA).lp d) ((cvOf m opsA).cnd d) (Lof (F := F) c i) : sProp 𝕄))) := by
  show (bigSep Finset.univ fun c : Fin ((K (F := F)).nCore 0) => bigSep Finset.univ fun i : Fin ((K (F := F)).nSub 0) =>
      tileTd TS d (Lof (F := F) c i) ((cvOf m opsA).zt d) ((cvOf m opsA).l d) ((cvOf m opsA).lp d) ((cvOf m opsA).cnd d)) = _
  unfold tileTd tileGo; simp only [bigSep_sep']

/-- The fourteen arrays after the host operations are the call's operands and what stays. -/
theorem call_split (d : Dev nD) :
    (unscopedBufs d (fun b => W1 m opsA d (dr b)) : sProp 𝕄)
      ⊢ iprop((bigSep Finset.univ fun c : Fin ((K (F := F)).nCore 0) => (P TS (cvOf m opsA)).st 0 d c) ∗ Stay m opsA d) := by
  rw [show (unscopedBufs d (fun b => W1 m opsA d (dr b)) : sProp 𝕄) = held (SparseCore.T d) (Pipeline.ucRefs τ sig) (W1 m opsA d) from
      Pipeline.unscopedBufs_held d (W1 m opsA d),
    held_sub_split (SparseCore.T d) T5_sub, held_T5, st_eq]
  unfold Stay
  rw [zt_split TS d, l_split TS d, lp_split TS d, c_split TS d, o_split TS d]
  iintro ⟨⟨⟨Hz, Hzr⟩, Hl, Hlp, Hc, Ho⟩, Hrest⟩
  isplitl [Hz Hl Hlp Hc Ho]
  · isplitl [Hz]; · iexact Hz
    isplitl [Hl]; · iexact Hl
    isplitl [Hlp]; · iexact Hlp
    isplitl [Hc]; · iexact Hc
    iexact Ho
  isplitl [Hzr]; · iexact Hzr
  iexact Hrest

theorem W2_ne (d : Dev nD) {b : DevRef τ sig} (h : b ≠ dr main_v6) : W2 TS m opsA d b = W1 m opsA d b :=
  Function.update_of_ne h _ _
theorem W2_o (d : Dev nD) : W2 TS m opsA d (dr main_v6)
    = scOut TS ((cvOf m opsA).zt d) ((cvOf m opsA).l d) ((cvOf m opsA).lp d) ((cvOf m opsA).cnd d) := Function.update_self _ _ _

/-- What comes back and what stayed are the fourteen arrays after the call. -/
theorem call_join (d : Dev nD) :
    iprop((bigSep Finset.univ fun c : Fin ((K (F := F)).nCore 0) => (P TS (cvOf m opsA)).dn 0 d c) ∗ Stay m opsA d)
      ⊢ (unscopedBufs d (Vin0 TS m opsA d) : sProp 𝕄) := by
  have hrest : (held (SparseCore.T d) (Pipeline.ucRefs τ sig \ T5) (W2 TS m opsA d) : sProp 𝕄)
      = held (SparseCore.T d) (Pipeline.ucRefs τ sig \ T5) (W1 m opsA d) :=
    held_congr (SparseCore.T d) fun b hb => W2_ne TS m opsA d (fun e => (Finset.mem_sdiff.mp hb).2 (by rw [e]; decide))
  rw [show (unscopedBufs d (Vin0 TS m opsA d) : sProp 𝕄) = held (SparseCore.T d) (Pipeline.ucRefs τ sig) (W2 TS m opsA d) from
      Pipeline.unscopedBufs_held d (W2 TS m opsA d),
    held_sub_split (SparseCore.T d) T5_sub, held_T5, hrest, dn_eq,
    W2_ne TS m opsA d (show dr main_v0 ≠ dr main_v6 by decide), W2_ne TS m opsA d (show dr main_arg2 ≠ dr main_v6 by decide),
    W2_ne TS m opsA d (show dr main_arg3 ≠ dr main_v6 by decide), W2_ne TS m opsA d (show dr main_v1 ≠ dr main_v6 by decide), W2_o,
    o_join TS d]
  unfold Stay
  rw [zt_split TS d, l_split TS d, lp_split TS d, c_split TS d]
  iintro ⟨⟨Hz, Hl, Hlp, Hc, Ho⟩, Hzr, Hrest⟩
  isplitr [Hrest]
  · isplitl [Hz Hzr]
    · isplitl [Hz]; · iexact Hz
      iexact Hzr
    isplitl [Hl]; · iexact Hl
    isplitl [Hlp]; · iexact Hlp
    isplitl [Hc]; · iexact Hc
    iexact Ho
  iexact Hrest

/-! ## What the TensorCore owes around the regions -/

/-- The pairs a wait may have recorded by the end of the call: those at the call's levels or below. -/
def Bd (d : Dev nD) : Set (SemLoc sig × HIx 1) := {p | (K (F := F)).lev (SparseCore.T d, p.1) p.2 ≤ 8}

theorem Bd_none (d : Dev nD) (p : SemLoc sig × HIx 1) (h : p.2 = none) : p ∈ Bd (F := F) d := by
  show (K (F := F)).lev (SparseCore.T d, p.1) p.2 ≤ 8
  rw [h]; exact Nat.zero_le _

/-- After the call the TensorCore owes nothing, its recorded pairs within `Bd`; and any such state is the state after
    the call. -/
theorem tcSt_open (d : Dev nD) :
    ((K (F := F)).tcSt EH d ((0 : Fin 1).val + 1) : sProp 𝕄)
      ⊢ iprop(Pipeline.owesWithin d 0 (Bd (F := F) d) ∗ (Pipeline.owesWithin d 0 (Bd (F := F) d) -∗ (K (F := F)).tcSt EH d 1)) := by
  unfold SparseCore.Cfg.tcSt
  rw [(K (F := F)).Otc_end d (show 1 ≤ (0 : Fin 1).val + 1 from le_rfl)]
  iintro ⟨⟨%W, %hW, HO⟩, Hrest⟩
  isplitl [HO]
  · iexists W; isplitr
    · ipureintro; exact fun p hp => hW p hp
    · iexact HO
  iintro ⟨%W', %hW', HO'⟩
  isplitl [HO']
  · iexists W'; isplitr
    · ipureintro; exact fun p hp => hW' hp
    · iexact HO'
  iexact Hrest

/-! ## @main on the TensorCore -/

variable [FloatOps F] [∀ e, Nonempty (Elt F e)]

/-- What @main leaves the claim: the four arguments and the result, at the final valuation. -/
def FIN (d : Dev nD) : sProp 𝕄 :=
  iprop((((SparseCore.T d).loc main_arg0 : Loc nD τ sig) ↦{fullShare} W4 TS m opsA opsB v7 v8 d (dr main_arg0))
    ∗ (((SparseCore.T d).loc main_arg1 : Loc nD τ sig) ↦{fullShare} W4 TS m opsA opsB v7 v8 d (dr main_arg1))
    ∗ (((SparseCore.T d).loc main_arg2 : Loc nD τ sig) ↦{fullShare} W4 TS m opsA opsB v7 v8 d (dr main_arg2))
    ∗ (((SparseCore.T d).loc main_arg3 : Loc nD τ sig) ↦{fullShare} W4 TS m opsA opsB v7 v8 d (dr main_arg3))
    ∗ (((SparseCore.T d).loc main_v9 : Loc nD τ sig) ↦{fullShare} W4 TS m opsA opsB v7 v8 d (dr main_v9)))

abbrev T5f : Finset (DevRef τ sig) := {dr main_arg0, dr main_arg1, dr main_arg2, dr main_arg3, dr main_v9}
theorem T5f_sub : (T5f : Finset (DevRef τ sig)) ⊆ Pipeline.ucRefs τ sig := by decide

omit [FloatOps F] [∀ e, Nonempty (Elt F e)] in
theorem fin_of_bufs (d : Dev nD) :
    (unscopedBufs d (fun b => W4 TS m opsA opsB v7 v8 d (dr b)) : sProp 𝕄) ⊢ FIN TS m opsA opsB v7 v8 d := by
  rw [show (unscopedBufs d (fun b => W4 TS m opsA opsB v7 v8 d (dr b)) : sProp 𝕄)
      = held (SparseCore.T d) (Pipeline.ucRefs τ sig) (W4 TS m opsA opsB v7 v8 d) from Pipeline.unscopedBufs_held d (W4 TS m opsA opsB v7 v8 d),
    held_sub_split (SparseCore.T d) T5f_sub]
  refine sep_elim_left.trans ?_
  unfold held T5f FIN
  rw [SparseCore.bigSep_insert' (by decide), SparseCore.bigSep_insert' (by decide), SparseCore.bigSep_insert' (by decide),
    SparseCore.bigSep_insert' (by decide), bigSep_singleton]

/-- The two regions' runs and the host operations' values, as hypotheses. -/
structure Parts where
  /-- @main is the host operations, the call, the two regions, the reshape. -/
  main_eq : ∀ d : Dev nD, main (F := F) d
    = (StableHlo.seq opsA >>= fun _ => (sc (F := F)).run d 0 >>= fun _ =>
        Prog.lift (.customCall (SparseCore.inner (Pipeline.entry (0 : Fin 2))) ()) >>= fun _ =>
        Prog.lift (.customCall (SparseCore.inner (Pipeline.entry (1 : Fin 2))) ()) >>= fun _ => StableHlo.seq opsB)
  hostA : ∀ (d : Dev nD) (W : Valuation τ sig (Elt F)) {β : Type}
      (k : PUnit → Prog (TpuEff nD τ sig (Elt F) (SparseCore.Sig (ΛP (F := F)) 1) .tc) β) (Q : β → sProp 𝕄),
    iprop(boundary (d.tc : Thread nD τ) ∗ unscopedBufs d (fun b => W (dr b)))
      ⊢ iprop(((boundary (d.tc : Thread nD τ) ∗ unscopedBufs d (fun b => StableHlo.after opsA W (dr b)))
            -∗ wp frame (wpE ((K (F := F)).defs (D (F := F))) 𝒱 (d.tc : Thread nD τ) none) Set.univ (k ⟨⟩) Q)
          -∗ wp frame (wpE ((K (F := F)).defs (D (F := F))) 𝒱 (d.tc : Thread nD τ) none) Set.univ (StableHlo.seq opsA >>= k) Q)
  hostB : ∀ (d : Dev nD) (W : Valuation τ sig (Elt F)) {β : Type}
      (k : PUnit → Prog (TpuEff nD τ sig (Elt F) (SparseCore.Sig (ΛP (F := F)) 1) .tc) β) (Q : β → sProp 𝕄),
    iprop(boundary (d.tc : Thread nD τ) ∗ unscopedBufs d (fun b => W (dr b)))
      ⊢ iprop(((boundary (d.tc : Thread nD τ) ∗ unscopedBufs d (fun b => StableHlo.after opsB W (dr b)))
            -∗ wp frame (wpE ((K (F := F)).defs (D (F := F))) 𝒱 (d.tc : Thread nD τ) none) Set.univ (k ⟨⟩) Q)
          -∗ wp frame (wpE ((K (F := F)).defs (D (F := F))) 𝒱 (d.tc : Thread nD τ) none) Set.univ (StableHlo.seq opsB >>= k) Q)
  /-- The dense kernel's region, entered at the arrays after the call, leaving its one-by-one result `v7`. -/
  pd0 : (p : Fin 2) → (c : Dev nD) → Pipeline.Dat τ (Elt F) (HIx 1) ℕ UU ℕ (pcs (F := F) p) c
  R0 : Pipeline.RegionSeg (pcfgs (F := F)) adm pd0 (none : HIx 1) defs₀ 𝒱₀ (K (F := F)).L (K (F := F)).lev (0 : Fin 2)
  pre0 : ∀ d, iprop(unscopedBufs d (Vin0 TS m opsA d) ∗ Pipeline.owesWithin d 0 (Bd (F := F) d)) ⊢ R0.pre d
  post0 : ∀ d, R0.post d ⊢ iprop(unscopedBufs d (Vin1 TS m opsA v7 d) ∗ Pipeline.owesWithin d 0 (Bd (F := F) d))
  /-- The combine kernel's region, entered at those, leaving its one-by-one result `v8`. -/
  pd1 : (p : Fin 2) → (c : Dev nD) → Pipeline.Dat τ (Elt F) (HIx 1) ℕ UU ℕ (pcs (F := F) p) c
  R1 : Pipeline.RegionSeg (pcfgs (F := F)) adm pd1 (none : HIx 1) defs₀ 𝒱₀ (K (F := F)).L (K (F := F)).lev (1 : Fin 2)
  pre1 : ∀ d, iprop(unscopedBufs d (Vin1 TS m opsA v7 d) ∗ Pipeline.owesWithin d 0 (Bd (F := F) d)) ⊢ R1.pre d
  post1 : ∀ d, R1.post d ⊢ iprop(unscopedBufs d (Vout1 TS m opsA v7 v8 d) ∗ Pipeline.owesWithin d 0 (Bd (F := F) d))

variable (H : Parts TS m opsA opsB v7 v8)

omit [∀ e, Nonempty (Elt F e)] in
/-- A region's call in the program's signature is the lifted call in the pipelines' signature. -/
theorem lift_entry (p : Fin 2) :
    (Prog.lift (.customCall (SparseCore.inner (Pipeline.entry p)) ()) : Prog (TpuEff nD τ sig (Elt F) (SparseCore.Sig (ΛP (F := F)) 1) .tc) PUnit)
      = SparseCore.liftProg (Prog.op (.customCall (Pipeline.entry p) ()) fun _ => .ret ⟨⟩) := rfl

include H in
set_option backward.isDefEq.respectTransparency.types false in
/-- @main on device `d`'s TensorCore. -/
theorem hmain (κ : GSem nD τ sig → ℕ) (d : Dev nD) :
    iprop((K (F := F)).ctx EH (P TS (cvOf m opsA)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN TS m opsA opsB v7 v8 d) := by
  have hcs : (unscopedBufs d (fun b => StableHlo.after opsA (W0 m d) (dr b)) : sProp 𝕄)
      ⊢ iprop((bigSep Finset.univ fun c : Fin ((K (F := F)).nCore 0) => (P TS (cvOf m opsA)).st 0 d c) ∗ Stay m opsA d) := call_split TS m opsA d
  have hfb : (unscopedBufs d (fun b => StableHlo.after opsB (W3 TS m opsA v7 v8 d) (dr b)) : sProp 𝕄) ⊢ FIN TS m opsA opsB v7 v8 d :=
    fin_of_bufs TS m opsA opsB v7 v8 d
  unfold SparseCore.Cfg.tcRes
  rw [H.main_eq d, G_eq]
  iintro ⟨#Hctx, Hst, ⟨Hb, Hun, -, -⟩, ⟨⟨Hg0, Ht0⟩, ⟨Hg1, Ht1⟩⟩⟩
  ihave #Hlv := (SparseCore.Cfg.ctx_levAts κ) $$ Hctx
  -- the six host operations
  iapply (H.hostA d (W0 m d) _ _) $$ [Hb Hun]
  · isplitl [Hb]; · iexact Hb
    iexact Hun
  iintro ⟨Hb, Hun⟩
  -- the call: the five arrays split among the tiles, handed over, and back
  ihave Hsp := hcs $$ Hun
  icases Hsp with ⟨Hops, Hstay⟩
  rw [wp_bind]
  iapply ((K (F := F)).wp_run (D (F := F)) 𝒱 (EH := EH) (P := P TS (cvOf m opsA)) κ d 0) $$ [Hst Hops Hb Hstay Hg0 Ht0 Hg1 Ht1]
  isplitr; · iexact Hctx
  isplitl [Hst]; · iexact Hst
  isplitl [Hops]; · iexact Hops
  iintro ⟨Hst, Hdn⟩
  ihave Hun := (call_join TS m opsA d) $$ [Hdn Hstay]
  · isplitl [Hdn]; · iexact Hdn
    iexact Hstay
  ihave Hst' := (tcSt_open (F := F) d) $$ Hst
  icases Hst' with ⟨HO, Hclose⟩
  -- the dense kernel's region
  rw [wp_bind, lift_entry (F := F) 0]
  iapply ((K (F := F)).wp_liftProg (D (F := F)) 𝒱 (SparseCore.T d) Set.univ none
    (Prog.op (.customCall (Pipeline.entry (0 : Fin 2)) ()) fun _ => .ret ⟨⟩) _)
  iapply (Pipeline.RegionSeg.wp (pcfgs (F := F)) adm H.pd0 (none : HIx 1) pcs_inj EP defs₀ 𝒱₀ (K (F := F)).L (K (F := F)).lev H.R0 d none
    (fun _ h => nomatch h) (fun _ => .ret ⟨⟩) _) $$ [Hb Hun HO Hclose Hg0 Ht0 Hg1 Ht1]
  isplitr [Hb Hun HO Hg0 Ht0]
  swap
  · isplitl [Hb]; · iexact Hb
    isplitl [Hun HO]
    · iapply (H.pre0 d); isplitl [Hun]; · iexact Hun
      iexact HO
    isplitr; · iexact Hlv
    isplitl [Hg0]; · iexact Hg0
    iexact Ht0
  iintro ⟨Hb, Hpost⟩
  ihave Hp := (H.post0 d) $$ Hpost
  icases Hp with ⟨Hun, HO⟩
  rw [wp_ret]; imodintro
  -- the combine kernel's region
  rw [wp_bind, lift_entry (F := F) 1]
  iapply ((K (F := F)).wp_liftProg (D (F := F)) 𝒱 (SparseCore.T d) Set.univ none
    (Prog.op (.customCall (Pipeline.entry (1 : Fin 2)) ()) fun _ => .ret ⟨⟩) _)
  iapply (Pipeline.RegionSeg.wp (pcfgs (F := F)) adm H.pd1 (none : HIx 1) pcs_inj EP defs₀ 𝒱₀ (K (F := F)).L (K (F := F)).lev H.R1 d none
    (fun _ h => nomatch h) (fun _ => .ret ⟨⟩) _) $$ [Hb Hun HO Hclose Hg1 Ht1]
  isplitr [Hb Hun HO Hg1 Ht1]
  swap
  · isplitl [Hb]; · iexact Hb
    isplitl [Hun HO]
    · iapply (H.pre1 d); isplitl [Hun]; · iexact Hun
      iexact HO
    isplitr; · iexact Hlv
    isplitl [Hg1]; · iexact Hg1
    iexact Ht1
  iintro ⟨Hb, Hpost⟩
  ihave Hp := (H.post1 d) $$ Hpost
  icases Hp with ⟨Hun, HO⟩
  rw [wp_ret]; imodintro
  -- the final reshape
  rw [show (StableHlo.seq opsB : Prog (TpuEff nD τ sig (Elt F) (SparseCore.Sig (ΛP (F := F)) 1) .tc) PUnit)
      = (StableHlo.seq opsB >>= fun u => pure u) from (bind_pure _).symm, Vout1_eq]
  iapply (H.hostB d (W3 TS m opsA v7 v8 d) _ _) $$ [Hb Hun]
  · isplitl [Hb]; · iexact Hb
    iexact Hun
  iintro ⟨Hb, Hun⟩
  rw [wp_pure]; imodintro
  isplitl [HO Hclose]
  · iapply Hclose; iexact HO
  iapply hfb; iexact Hun

/-! ## The final memory, and the run -/

/-- What the claim reads off the final memory on device `d`. -/
def fq (d : Dev nD) (s' : Phys nD τ sig (Elt F)) : Prop :=
  s'.mem.mem ((SparseCore.T d).loc main_arg0) = W4 TS m opsA opsB v7 v8 d (dr main_arg0)
  ∧ s'.mem.mem ((SparseCore.T d).loc main_arg1) = W4 TS m opsA opsB v7 v8 d (dr main_arg1)
  ∧ s'.mem.mem ((SparseCore.T d).loc main_arg2) = W4 TS m opsA opsB v7 v8 d (dr main_arg2)
  ∧ s'.mem.mem ((SparseCore.T d).loc main_arg3) = W4 TS m opsA opsB v7 v8 d (dr main_arg3)
  ∧ s'.mem.mem ((SparseCore.T d).loc main_v9) = W4 TS m opsA opsB v7 v8 d (dr main_v9)

omit [FloatOps F] [∀ e, Nonempty (Elt F e)] in
theorem hfin (d : Dev nD) (s' : Phys nD τ sig (Elt F)) :
    iprop(FIN TS m opsA opsB v7 v8 d ∗ SI s') ⊢ (⌜fq TS m opsA opsB v7 v8 d s'⌝ : sProp 𝕄) := by
  unfold FIN
  iintro ⟨⟨H0, H1, H2, H3, H9⟩, HSI⟩
  ihave X := (persistent_entails_right (SI_pointsTo_agree (st := s') (ℓ := (SparseCore.T d).loc main_arg0) (I := Finset.univ) (q := fullShare)
    (f := W4 TS m opsA opsB v7 v8 d (dr main_arg0)))) $$ [HSI H0]
  · isplitl [HSI] <;> iassumption
  icases X with ⟨%h0, HSI, -⟩
  ihave X := (persistent_entails_right (SI_pointsTo_agree (st := s') (ℓ := (SparseCore.T d).loc main_arg1) (I := Finset.univ) (q := fullShare)
    (f := W4 TS m opsA opsB v7 v8 d (dr main_arg1)))) $$ [HSI H1]
  · isplitl [HSI] <;> iassumption
  icases X with ⟨%h1, HSI, -⟩
  ihave X := (persistent_entails_right (SI_pointsTo_agree (st := s') (ℓ := (SparseCore.T d).loc main_arg2) (I := Finset.univ) (q := fullShare)
    (f := W4 TS m opsA opsB v7 v8 d (dr main_arg2)))) $$ [HSI H2]
  · isplitl [HSI] <;> iassumption
  icases X with ⟨%h2, HSI, -⟩
  ihave X := (persistent_entails_right (SI_pointsTo_agree (st := s') (ℓ := (SparseCore.T d).loc main_arg3) (I := Finset.univ) (q := fullShare)
    (f := W4 TS m opsA opsB v7 v8 d (dr main_arg3)))) $$ [HSI H3]
  · isplitl [HSI] <;> iassumption
  icases X with ⟨%h3, HSI, -⟩
  ihave X := (SI_pointsTo_agree (st := s') (ℓ := (SparseCore.T d).loc main_v9) (I := Finset.univ) (q := fullShare)
    (f := W4 TS m opsA opsB v7 v8 d (dr main_v9))) $$ [HSI H9]
  · isplitl [HSI] <;> iassumption
  icases X with %h9
  ipureintro
  exact ⟨funext fun i => h0 i (Finset.mem_univ i), funext fun i => h1 i (Finset.mem_univ i), funext fun i => h2 i (Finset.mem_univ i),
    funext fun i => h3 i (Finset.mem_univ i), funext fun i => h9 i (Finset.mem_univ i)⟩

/-- The run's post: on every device the four arguments and the result are at the final valuation — the composition of
    the host operations, the tiles' rows, the two kernels' results and the reshape, applied to the launch contents. -/
def QC : PUnit × MemSt nD τ sig (Elt F) → Prop := fun r => ∀ c : Dev nD,
  r.2.mem ((SparseCore.T c).loc main_arg0) = W4 TS m opsA opsB v7 v8 c (dr main_arg0)
  ∧ r.2.mem ((SparseCore.T c).loc main_arg1) = W4 TS m opsA opsB v7 v8 c (dr main_arg1)
  ∧ r.2.mem ((SparseCore.T c).loc main_arg2) = W4 TS m opsA opsB v7 v8 c (dr main_arg2)
  ∧ r.2.mem ((SparseCore.T c).loc main_arg3) = W4 TS m opsA opsB v7 v8 c (dr main_arg3)
  ∧ r.2.mem ((SparseCore.T c).loc main_v9) = W4 TS m opsA opsB v7 v8 c (dr main_v9)

include H in
/-- The whole program's run, from the tile kernel's specification, the two regions' runs and the host operations' values. -/
theorem run_main (hspec : TileSpec (F := F) TS) :
    θ_run (Cert.KernelIdeal.defs (F := F)) (Cert.KernelIdeal.threads (F := F)) ⟨m, fun _ => 0, ρ⟩ (QC TS m opsA opsB v7 v8) :=
  SparseCore.Cfg.θ_run_sc (K := K (F := F)) (D := D (F := F)) (𝒱 := 𝒱) (EH := EH) (P := P TS (cvOf m opsA)) facts v₀
    (fun q hq => match q with | 0 => nomatch hq)
    (fun q _ => match q with | 0 => tileObl TS (cvOf m opsA) hspec)
    (fun q _ => match q with | 0 => SparseCore.Cfg.VecSplit.of_plain (vecSplit TS (cvOf m opsA)))
    m ρ main (G (F := F)) (FIN TS m opsA opsB v7 v8) (u₀ (F := F)) (sep_elim_left.trans (hu₀ TS (cvOf m opsA)))
    (hmain TS m ρ opsA opsB v7 v8 H) (fq TS m opsA opsB v7 v8) (hfin TS m opsA opsB v7 v8) (QC TS m opsA opsB v7 v8) (fun _ h => h)

end Cert.KernelIdeal.Launch

end
-- ==== Proof.Host.lean ====
/-
  The host operations of the main program: the six before the first kernel call and the one after the last.

  Before: the matrix transposed; the mask widened to 32-bit words and converted to floats; the two label vectors
  and the float mask each reshaped from 16384 entries to 4 blocks of one row of 4096.  After: the one-by-one result
  reshaped to a scalar.  Here: the two stretches as lists of operations, the main program as those stretches around
  its three kernel calls, the rule that runs a stretch for a thread holding every unscoped buffer at a valuation, and
  what each result buffer then holds at an index.
-/
import proofs.«202802_g48112223650475_cont_8to1c4_51_21_alg».proof.Proof.Gen.KernelIdeal
import Idealize.ShloMosaic.Lib.StableHlo.Run
import Idealize.ShloMosaic.Lib.Pipeline.Frame
import Idealize.ShloMosaic.Lib.Pipeline.Value
import Idealize.ShloMosaic.Lib.ValueIdx
import Idealize.ShloMosaic.Lib.ValueLayout
import Idealize.ShloMosaic.Lib.Tactic

noncomputable section

namespace Cert.KernelIdeal.Host

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The two stretches -/

/-- The six operations before the first kernel call, in the program's order. -/
def hostOpsA : List (HloOp τ sig (Elt F)) :=
  [ StableHlo.unary main_arg0 main_v0 ((transpose S1000x16384 [1, 0] · transposes_S16384x1000_S1000x16384_1_0) : (⟨S16384x1000, .f32⟩ : BufTy).Contents (Elt F) → (⟨S1000x16384, .f32⟩ : BufTy).Contents (Elt F)),
    StableHlo.unary main_arg1 main_v1 ((extui 32 · natLt_1_32) : (⟨S16384, .i1⟩ : BufTy).Contents (Elt F) → (⟨S16384, .i32⟩ : BufTy).Contents (Elt F)),
    StableHlo.unary main_arg1 main_v2 (uitofp .f32 : (⟨S16384, .i1⟩ : BufTy).Contents (Elt F) → (⟨S16384, .f32⟩ : BufTy).Contents (Elt F)),
    StableHlo.reshape main_arg2 main_v3 rfl shapeCasts_S16384_S4x1x4096,
    StableHlo.reshape main_arg3 main_v4 rfl shapeCasts_S16384_S4x1x4096,
    StableHlo.reshape main_v2 main_v5 rfl shapeCasts_S16384_S4x1x4096 ]

/-- The one operation after the last kernel call. -/
def hostOpsB : List (HloOp τ sig (Elt F)) :=
  [ StableHlo.reshape main_v8 main_v9 rfl shapeCasts_S1x1_S_ ]

/-- The main program is the first stretch, the three kernel calls, the second stretch. -/
theorem main_eq (d : Dev nD) :
    main (F := F) d
      = (StableHlo.seq hostOpsA >>= fun _ =>
          sc.run d 0 >>= fun _ =>
          Prog.lift (.customCall (SparseCore.inner (Pipeline.entry 0)) ()) >>= fun _ =>
          Prog.lift (.customCall (SparseCore.inner (Pipeline.entry 1)) ()) >>= fun _ =>
          StableHlo.seq hostOpsB) := by
  rfl

/-! ## Their side conditions -/

theorem hostOpsA_sub : ∀ op ∈ (hostOpsA : List (HloOp τ sig (Elt F))), op.bufs ⊆ Pipeline.ucRefs τ sig := by
  intro op hop
  refine Pipeline.sub_ucRefs op ?_
  simp only [hostOpsA, List.mem_cons, List.mem_nil_iff, or_false] at hop
  rcases hop with rfl | rfl | rfl | rfl | rfl | rfl
  · exact StableHlo.unary_bufs_sub ..
  · exact StableHlo.unary_bufs_sub ..
  · exact StableHlo.unary_bufs_sub ..
  · exact StableHlo.reshape_bufs_sub ..
  · exact StableHlo.reshape_bufs_sub ..
  · exact StableHlo.reshape_bufs_sub ..

theorem hostOpsB_sub : ∀ op ∈ (hostOpsB : List (HloOp τ sig (Elt F))), op.bufs ⊆ Pipeline.ucRefs τ sig := by
  intro op hop
  refine Pipeline.sub_ucRefs op ?_
  simp only [hostOpsB, List.mem_cons, List.mem_nil_iff, or_false] at hop
  subst hop
  exact StableHlo.reshape_bufs_sub ..

theorem hostOpsA_fresh : ∀ op ∈ (hostOpsA : List (HloOp τ sig (Elt F))), op.fresh = ∅ := by
  intro op hop
  simp only [hostOpsA, List.mem_cons, List.mem_nil_iff, or_false] at hop
  rcases hop with rfl | rfl | rfl | rfl | rfl | rfl <;> rfl

theorem hostOpsB_fresh : ∀ op ∈ (hostOpsB : List (HloOp τ sig (Elt F))), op.fresh = ∅ := by
  intro op hop
  simp only [hostOpsB, List.mem_cons, List.mem_nil_iff, or_false] at hop
  subst hop; rfl

/-! ## The rule for a stretch -/

section Rules

variable {Ix : Type} [DecidableEq Ix] {Name : Type} [DecidableEq Name] {U : Type} [URA U] {Lvl : Type} [Preorder Lvl]

local notation "𝕄" => MT nD τ sig Ix (Elt F) Name U Lvl

variable {Λ : Labels} {defs : Defs nD τ sig (Elt F) Λ} (𝒱 : Variants) (bd : Option 𝒱.V) (E : Set Name)

/-- A stretch at the head of the TensorCore's program, the thread holding its region boundary and every unscoped
    buffer at the valuation `W`: it runs to its end, where the buffers are at the stretch's fold of `W`. For any body
    table and label signature. -/
theorem wp_host (ops : List (HloOp τ sig (Elt F))) (hS : ∀ op ∈ ops, op.bufs ⊆ Pipeline.ucRefs τ sig) (hf : ∀ op ∈ ops, op.fresh = ∅)
    (d : Dev nD) (W : Valuation τ sig (Elt F)) {β : Type} (k : PUnit → Prog (TpuEff nD τ sig (Elt F) Λ .tc) β) (Q : β → sProp 𝕄) :
    iprop(boundary (d.tc : Thread nD τ) ∗ (unscopedBufs d (fun b => W b) : sProp 𝕄))
      ⊢ iprop(((boundary (d.tc : Thread nD τ) ∗ (unscopedBufs d (fun b => StableHlo.after ops W b) : sProp 𝕄))
                -∗ wp frame (wpE defs 𝒱 d.tc bd) E (k ⟨⟩) Q)
        -∗ wp frame (wpE defs 𝒱 d.tc bd) E (StableHlo.seq ops >>= k) Q) := by
  rw [Pipeline.unscopedBufs_held, Pipeline.unscopedBufs_held]
  exact StableHlo.wp_seq 𝒱 bd E d (Pipeline.ucRefs τ sig) k ops hS hf W

/-- The first stretch. -/
theorem wp_hostA (d : Dev nD) (W : Valuation τ sig (Elt F)) {β : Type} (k : PUnit → Prog (TpuEff nD τ sig (Elt F) Λ .tc) β) (Q : β → sProp 𝕄) :
    iprop(boundary (d.tc : Thread nD τ) ∗ (unscopedBufs d (fun b => W b) : sProp 𝕄))
      ⊢ iprop(((boundary (d.tc : Thread nD τ) ∗ (unscopedBufs d (fun b => StableHlo.after hostOpsA W b) : sProp 𝕄))
                -∗ wp frame (wpE defs 𝒱 d.tc bd) E (k ⟨⟩) Q)
        -∗ wp frame (wpE defs 𝒱 d.tc bd) E (StableHlo.seq hostOpsA >>= k) Q) :=
  wp_host 𝒱 bd E hostOpsA hostOpsA_sub hostOpsA_fresh d W k Q

/-- The second stretch. -/
theorem wp_hostB (d : Dev nD) (W : Valuation τ sig (Elt F)) {β : Type} (k : PUnit → Prog (TpuEff nD τ sig (Elt F) Λ .tc) β) (Q : β → sProp 𝕄) :
    iprop(boundary (d.tc : Thread nD τ) ∗ (unscopedBufs d (fun b => W b) : sProp 𝕄))
      ⊢ iprop(((boundary (d.tc : Thread nD τ) ∗ (unscopedBufs d (fun b => StableHlo.after hostOpsB W b) : sProp 𝕄))
                -∗ wp frame (wpE defs 𝒱 d.tc bd) E (k ⟨⟩) Q)
        -∗ wp frame (wpE defs 𝒱 d.tc bd) E (StableHlo.seq hostOpsB >>= k) Q) :=
  wp_host 𝒱 bd E hostOpsB hostOpsB_sub hostOpsB_fresh d W k Q

end Rules

/-! ## What the buffers hold after a stretch -/

section Values

variable (W : Valuation τ sig (Elt F))

/-- The references the first stretch writes. -/
abbrev writesA : List (Ref sig .tc) := [main_v0, main_v1, main_v2, main_v3, main_v4, main_v5]

theorem hostOpsA_writes :
    (hostOpsA : List (HloOp τ sig (Elt F))).Forall fun op => op.writes ⊆ (writesA.map (Proc.devRef (τ := τ) .tc)).toFinset := by
  simp only [hostOpsA, List.Forall, StableHlo.unary_writes, StableHlo.reshape_writes, Finset.singleton_subset_iff, List.mem_toFinset]
  refine ⟨?_, ?_, ?_, ?_, ?_, ?_⟩ <;> exact List.mem_map.mpr ⟨_, by decide, rfl⟩

theorem hostOpsB_writes :
    (hostOpsB : List (HloOp τ sig (Elt F))).Forall fun op => op.writes ⊆ (([main_v9] : List (Ref sig .tc)).map (Proc.devRef (τ := τ) .tc)).toFinset := by
  simp only [hostOpsB, List.Forall, StableHlo.reshape_writes, Finset.singleton_subset_iff, List.mem_toFinset]
  exact List.mem_map.mpr ⟨_, by decide, rfl⟩

/-- A reference the first stretch does not write keeps its contents. -/
theorem afterA_of_not_mem {r : Ref sig .tc} (hr : r ∉ writesA) :
    StableHlo.after hostOpsA W (Proc.devRef .tc r) = W (Proc.devRef .tc r) :=
  StableHlo.after_of_writes_sub hostOpsA W hostOpsA_writes hr

/-- A reference other than the scalar result keeps its contents through the second stretch. -/
theorem afterB_of_ne {r : Ref sig .tc} (hr : r ≠ main_v9) :
    StableHlo.after hostOpsB W (Proc.devRef .tc r) = W (Proc.devRef .tc r) :=
  StableHlo.after_of_writes_sub hostOpsB W hostOpsB_writes (by simpa using hr)

/-- The first stretch's six results, each as a function of the arguments' contents. -/
theorem afterA_v0 : StableHlo.after hostOpsA W (Proc.devRef .tc main_v0)
    = transpose S1000x16384 [1, 0] (W (Proc.devRef .tc main_arg0)) transposes_S16384x1000_S1000x16384_1_0 := by
  unfold hostOpsA; after_results
theorem afterA_v1 : StableHlo.after hostOpsA W (Proc.devRef .tc main_v1)
    = extui 32 (W (Proc.devRef .tc main_arg1)) natLt_1_32 := by
  unfold hostOpsA; after_results
theorem afterA_v2 : StableHlo.after hostOpsA W (Proc.devRef .tc main_v2)
    = uitofp .f32 (W (Proc.devRef .tc main_arg1)) := by
  unfold hostOpsA; after_results
theorem afterA_v3 : StableHlo.after hostOpsA W (Proc.devRef .tc main_v3)
    = shapeCast S4x1x4096 (W (Proc.devRef .tc main_arg2)) shapeCasts_S16384_S4x1x4096 := by
  unfold hostOpsA; after_results; rfl
theorem afterA_v4 : StableHlo.after hostOpsA W (Proc.devRef .tc main_v4)
    = shapeCast S4x1x4096 (W (Proc.devRef .tc main_arg3)) shapeCasts_S16384_S4x1x4096 := by
  unfold hostOpsA; after_results; rfl
theorem afterA_v5 : StableHlo.after hostOpsA W (Proc.devRef .tc main_v5)
    = shapeCast S4x1x4096 (uitofp (F := F) .f32 (W (Proc.devRef .tc main_arg1))) shapeCasts_S16384_S4x1x4096 := by
  unfold hostOpsA; after_results; rfl

/-- The second stretch's result. -/
theorem afterB_v9 : StableHlo.after hostOpsB W (Proc.devRef .tc main_v9)
    = shapeCast S_ (W (Proc.devRef .tc main_v8)) shapeCasts_S1x1_S_ := by
  unfold hostOpsB; after_results; rfl

end Values

/-! ## The same, read at an index -/

section Indexed

variable (W : Valuation τ sig (Elt F))

/-- The transposed matrix at class `k`, row `r` is the matrix at row `r`, class `k`. -/
theorem afterA_v0_apply (k : Fin 1000) (r : Fin 16384) :
    StableHlo.after hostOpsA W (Proc.devRef .tc main_v0) (ix2 k r) = W (Proc.devRef .tc main_arg0) (ix2 r k) := by
  rw [afterA_v0]; exact transpose_ix2_apply _ _ k r

/-- The widened mask at row `r` is the mask's bit there as a 32-bit word. -/
theorem afterA_v1_apply (r : Fin 16384) :
    StableHlo.after hostOpsA W (Proc.devRef .tc main_v1) (ix1 r) = (W (Proc.devRef .tc main_arg1) (ix1 r)).setWidth 32 := by
  rw [afterA_v1]; rfl

/-- The float mask at row `r` is the mask's bit there converted. -/
theorem afterA_v2_apply (r : Fin 16384) :
    StableHlo.after hostOpsA W (Proc.devRef .tc main_v2) (ix1 r) = FloatOps.uitofp .f32 (W (Proc.devRef .tc main_arg1) (ix1 r)) := by
  rw [afterA_v2]; rfl

/-- Position `4096 n + j` of a vector of 16384 entries. -/
abbrev row (n : Fin 4) (j : Fin 4096) : Fin 16384 := ⟨4096 * n.val + j.val, by omega⟩

/-- A vector of 16384 entries reshaped to 4 blocks of one row of 4096 reads, at block `n` lane `j`, its entry `4096 n + j`. -/
theorem shapeCast_blocks_apply {α : Type} (x : S16384.Idx → α) (n : Fin 4) (u : Fin 1) (j : Fin 4096) :
    shapeCast S4x1x4096 x shapeCasts_S16384_S4x1x4096 (ix3 n u j) = x (ix1 (row n j)) :=
  shapeCast_apply x _ _ _ (by
    rw [Shape.rowMajor_val_one, Shape.rowMajor_val_three]
    show 4096 * n.val + j.val = (n.val * 1 + u.val) * 4096 + j.val
    have := u.isLt; omega)

theorem afterA_v3_apply (n : Fin 4) (u : Fin 1) (j : Fin 4096) :
    StableHlo.after hostOpsA W (Proc.devRef .tc main_v3) (ix3 n u j) = W (Proc.devRef .tc main_arg2) (ix1 (row n j)) := by
  rw [afterA_v3]; exact shapeCast_blocks_apply _ n u j
theorem afterA_v4_apply (n : Fin 4) (u : Fin 1) (j : Fin 4096) :
    StableHlo.after hostOpsA W (Proc.devRef .tc main_v4) (ix3 n u j) = W (Proc.devRef .tc main_arg3) (ix1 (row n j)) := by
  rw [afterA_v4]; exact shapeCast_blocks_apply _ n u j
theorem afterA_v5_apply (n : Fin 4) (u : Fin 1) (j : Fin 4096) :
    StableHlo.after hostOpsA W (Proc.devRef .tc main_v5) (ix3 n u j)
      = FloatOps.uitofp .f32 (W (Proc.devRef .tc main_arg1) (ix1 (row n j))) := by
  rw [afterA_v5]; exact shapeCast_blocks_apply _ n u j

/-- The scalar result is the one entry of the one-by-one result. -/
theorem afterB_v9_apply :
    StableHlo.after hostOpsB W (Proc.devRef .tc main_v9) ix0 = W (Proc.devRef .tc main_v8) (ix2 (0 : Fin 1) (0 : Fin 1)) := by
  rw [afterB_v9]
  exact shapeCast_apply _ _ _ _ (by
    show (S1x1.rowMajor (ix2 (0 : Fin 1) (0 : Fin 1))).val = (S_.rowMajor ix0).val
    rw [Shape.rowMajor_val_two]
    show 0 * 1 + 0 = (Shape.rowMajorPi _ _).val
    rw [Shape.rowMajorPi_zero])

end Indexed

end Cert.KernelIdeal.Host

end
-- ==== Proof.Vals.lean ====
/-
  The values the two TensorCore kernels compute, as pure terms of what their bodies load, for any float instance.

  The dense kernel visits four blocks of 4096 rows.  At block `n` it loads the block's slab of the transposed matrix
  (classes 64 to 999 by the block's 4096 rows), the block's two label rows and its mask row, and adds to a running row of
  4096 lanes the column sums of "entry where the class is the first label, minus entry where the class is the second
  label", times the mask.  The running row starts at zero; after the fourth block its 4096 lanes are summed into one number.
  The combine kernel adds the sum of a 32 by 16 array to one number.
-/
import proofs.«202802_g48112223650475_cont_8to1c4_51_21_alg».proof.Proof.Gen.KernelIdeal.Skeleton

noncomputable section

namespace Cert.KernelIdeal.Vals

open Idealize.ShloMosaic Cert.KernelIdeal Cert.KernelIdeal.Gen

variable {F : FTy → Type} [FloatOps F]

/-- The running row after the first `n` blocks: zero, then one block's contribution at a time. -/
def denseAcc (zb : Fin 4 → Vec F S1x936x4096 .f32) (lb lpb : Fin 4 → Vec F S1x1x4096 .i32) (cb : Fin 4 → Vec F S1x1x4096 .f32) :
    Nat → FVec F S1x4096 .f32
  | 0 => k1_pay3 (F := F)
  | n + 1 =>
    if h : n < 4 then
      k1_pay1 (k1_pay4 (zb ⟨n, h⟩)) (k1_pay5 (F := F) (lpb ⟨n, h⟩)) (k1_pay6 (cb ⟨n, h⟩)) (k1_pay7) (k1_pay8 (zb ⟨n, h⟩) (lb ⟨n, h⟩))
        (denseAcc zb lb lpb cb n)
    else denseAcc zb lb lpb cb n

/-- The dense kernel's one-by-one result: the lanes of the running row after all four blocks, summed. -/
def denseRes (zb : Fin 4 → Vec F S1x936x4096 .f32) (lb lpb : Fin 4 → Vec F S1x1x4096 .i32) (cb : Fin 4 → Vec F S1x1x4096 .f32) :
    FVec F S1x1 .f32 :=
  k1_pay2 (denseAcc zb lb lpb cb 4)

/-- The combine kernel's one-by-one result: the sum of the 32 by 16 array plus the dense kernel's number. -/
def combRes (part : Vec F S32x16 .f32) (tcs : Vec F S1x1 .f32) : FVec F S1x1 .f32 :=
  k2_pay1 part tcs

end Cert.KernelIdeal.Vals

end
-- ==== Proof.Combine.lean ====
/-
  The combine region: the third kernel of the program, one point, no grid.

  It is handed the 32 by 16 array of partial sums and the one-by-one number the dense kernel produced, and stores
  into a one-by-one result the sum of the array's entries plus that number.  Here: what its body leaves in the
  result's buffer as a pure term of what it loads, the proof data of its region, and the region as a segment of the
  main program between two states that hold every unscoped buffer at a valuation.
-/
import proofs.«202802_g48112223650475_cont_8to1c4_51_21_alg».proof.Proof.Vals
import proofs.«202802_g48112223650475_cont_8to1c4_51_21_alg».proof.Proof.Gen.KernelIdeal.Launch
import proofs.«202802_g48112223650475_cont_8to1c4_51_21_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Tactic

noncomputable section

namespace Cert.KernelIdeal.Combine

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline.Dat (before_fetched)

variable {F : FTy → Type} [FloatOps F]
variable {Ix : Type} [DecidableEq Ix] {Name : Type} [DecidableEq Name] {U : Type} [URA U] [CountersIn U]
  {Lvl : Type} [Preorder Lvl]

local notation "𝕄" => MT nD τ sig Ix (Elt F) Name U Lvl

/-! ## The body's triple -/

/-- The two-dimensional zero offset, as a constant function. -/
theorem off2_zero : (![0, 0] : Fin 2 → Nat) = fun _ => 0 := by
  funext a; fin_cases a <;> rfl

set_option maxHeartbeats 1000000 in
/-- The body on whole staging memrefs, the two inputs' at read contents `x0` and `x1` and the output's at anything,
    runs to the continuation holding the inputs' as they were and the output's at the sum of `x0`'s entries plus
    `x1`'s one entry: three loads of whole buffers and one store of the whole output. -/
theorem sound_kernel (c : Dev nD) (E : Set Name)
    (arg0 : Memref sig .tc .vmem S32x16 .f32) (harg0 : arg0.IsWhole) (arg1 : Memref sig .tc .vmem S1x1 .f32) (harg1 : arg1.IsWhole)
    (arg2 : Memref sig .tc .vmem S1x1 .f32) (harg2 : arg2.IsWhole)
    (x0 : Vec F S32x16 .f32) (x1 : Vec F S1x1 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
              ∗ owns (c : Thread nD τ) arg2 fullShare (Vals.combRes x0 x1)) -∗ K ⟨⟩))
      ⊢ wp frame (wpE (defs₀ (F := F)) Variants.none c none) E (cc2__tc_combine_body arg0 harg0 arg1 harg1 arg2 harg2) K := by
  simp only [cc2__tc_combine_body_eq_skeleton]; unfold cc2__tc_combine_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero off2_zero inb_S1x1_S1x1_0_0 y⟩),
    View.canon_unit_zero off2_zero]
  unfold Vals.combRes
  rw [View.readAt_eq_ld, View.readAt_eq_ld, View.ld_unit_zero off2_zero, View.ld_unit_zero off2_zero]

/-! ## The region's proof data -/

section Region

-- the TensorCore's buffer contents when the region is entered, and the bound on the pairs its waits have recorded
variable (V : (c : Dev nD) → (b : Ref sig .tc) → Buf (Elt F) ((c : Thread nD τ).loc b))
variable (ι : Ix) (B : Dev nD → Set (SemLoc sig × Ix))

/-- Window `w`'s block at a point, read off its array as the region finds it: the whole array. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The proof data of the combine pipeline on core `c`: the arrays as the region finds them; after the body each
    input's buffer at its block and the output's at the sum of the first block's entries plus the second's entry;
    the invariant the scoped buffers that stage nothing, untouched; nothing owed; the recorded pairs within `B c`;
    full shares. -/
def dat2 (c : Dev nD) : Dat τ (Elt F) Ix Name U Lvl cfg2 c where
  A w := V c (Pipeline.arrRef spec2 w)
  after w t := match w with
    | ⟨0, _⟩ => iblk V c 0 t
    | ⟨1, _⟩ => iblk V c 1 t
    | ⟨2, _⟩ => Vals.combRes (iblk V c 0 t) (iblk V c 1 t)
  Φ _ := Pipeline.scopedRest (Ix := Ix) (Name := Name) (U := U) (Lvl := Lvl) (Val := Elt F) spec2 c
  q _ := fullShare
  owed _ := 0
  recorded _ := B c

-- the proof data at this section's parameters, its resource algebra named
local notation "dat₂" => dat2 (F := F) (Ix := Ix) (Name := Name) (U := U) (Lvl := Lvl) V B

theorem A_eq (c : Dev nD) (w : Fin cfg2.W) : (dat₂ c).A w = V c (Pipeline.arrRef spec2 w) := by
  dsimp only [dat2]

theorem after_0 (c : Dev nD) (t : Fin cfg2.N) : (dat₂ c).after 0 t = iblk V c 0 t := by dsimp only [dat2]
theorem after_1 (c : Dev nD) (t : Fin cfg2.N) : (dat₂ c).after 1 t = iblk V c 1 t := by dsimp only [dat2]
theorem after_2 (c : Dev nD) (t : Fin cfg2.N) :
    (dat₂ c).after 2 t = Vals.combRes (iblk V c 0 t) (iblk V c 1 t) := by dsimp only [dat2]

/-- Each input's staging buffer holds its block when the body runs: both are fetched at the one point. -/
theorem before_0 (c : Dev nD) (t : Fin cfg2.N) (d) : (dat₂ c).before 0 t d = iblk V c 0 t :=
  ((dat₂ c).before_fetched 0 t (fetch2_0 t) d).trans (by unfold Dat.fetched Dat.blockOf iblk; rw [A_eq]; try rfl)
theorem before_1 (c : Dev nD) (t : Fin cfg2.N) (d) : (dat₂ c).before 1 t d = iblk V c 1 t :=
  ((dat₂ c).before_fetched 1 t (fetch2_1 t) d).trans (by unfold Dat.fetched Dat.blockOf iblk; rw [A_eq]; try rfl)

/-! ## The body obligation -/

/-- What the body is called with at the point, the windows one by one, -/
def bodyPre (c : Dev nD) (t : Fin cfg2.N) : sProp 𝕄 :=
  iprop((dat₂ c).Φ t.castSucc ∗ (dat₂ c).owesAt ι t.castSucc
    ∗ (∃ d, owns (c : Thread nD τ) (st2_0 t) fullShare ((dat₂ c).before 0 t d))
    ∗ (∃ d, owns (c : Thread nD τ) (st2_1 t) fullShare ((dat₂ c).before 1 t d))
    ∗ (∃ d, owns (c : Thread nD τ) (st2_2 t) fullShare ((dat₂ c).before 2 t d)))

/-- and what it returns. -/
def bodyPost (c : Dev nD) (t : Fin cfg2.N) : sProp 𝕄 :=
  iprop((dat₂ c).Φ t.succ ∗ (dat₂ c).owesAt ι t.succ
    ∗ owns (c : Thread nD τ) (st2_0 t) fullShare ((dat₂ c).after 0 t)
    ∗ owns (c : Thread nD τ) (st2_1 t) fullShare ((dat₂ c).after 1 t)
    ∗ owns (c : Thread nD τ) (st2_2 t) fullShare ((dat₂ c).after 2 t))

/-- The body at the point: the inputs' memrefs hold their blocks, so the triple applies; the invariant and what the
    core owes pass through unread. -/
theorem sound_body (c : Dev nD) (t : Fin cfg2.N) :
    bodyPre (Name := Name) (U := U) (Lvl := Lvl) V ι B c t ⊢ wp frame (wpE (defs₀ (F := F)) Variants.none c none) Set.univ (bodyAt2 t) (fun _ => bodyPost (Name := Name) (U := U) (Lvl := Lvl) V ι B c t) := by
  unfold bodyPre bodyPost bodyAt2
  simp only [before_0, before_1]
  rw [show (dat₂ c).Φ t.succ = (dat₂ c).Φ t.castSucc from rfl,
    show (dat₂ c).owesAt ι t.succ = (dat₂ c).owesAt ι t.castSucc from rfl,
    after_0, after_1, after_2]
  iintro ⟨HΦ, Ho, ⟨%d0, H0⟩, ⟨%d1, H1⟩, ⟨%d2, H2⟩⟩
  iapply (sound_kernel c Set.univ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at the one point. -/
theorem combine_body (c : Dev nD) :
    BodyObligation (dat₂ c) (defs₀ (F := F)) Variants.none ι Set.univ := fun t => by
  rw [bigSep_W2, bigSep_W2]
  exact sound_body V ι B c t

end Region

/-! ## What the region leaves in its arrays -/

section Region2

variable (V : (c : Dev nD) → (b : Ref sig .tc) → Buf (Elt F) ((c : Thread nD τ).loc b))
variable (ι : Ix) (B : Dev nD → Set (SemLoc sig × Ix))

local notation "dat₂" => dat2 (F := F) (Ix := Ix) (Name := Name) (U := U) (Lvl := Lvl) V B

/-- A whole-shape rectangle at offsets that are all zero, however spelt, embeds an index as itself. -/
theorem unit_zero_emb {S : Shape} {off : Fin S.rank → Nat} (h : off = fun _ => 0) (inb : ∀ a, off a + S.size a ≤ S.size a)
    (x : S.Idx) : (Rect.unit off S.size inb).emb x = x := by
  subst h; exact Rect.emb_whole_apply S x

/-- Each window's block is its whole array: the one block index is zero on every axis. -/
theorem iblk_0 (c : Dev nD) (t : Fin cfg2.N) : iblk V c 0 t = V c main_v6 := by
  have h : iblk V c 0 t = View.ld (V c main_v6) ((cfg2.win 0).rect t) := rfl
  rw [h]
  exact View.ld_unit_zero (by funext a; exact Nat.zero_mul _) _ _
theorem iblk_1 (c : Dev nD) (t : Fin cfg2.N) : iblk V c 1 t = V c main_v7 := by
  have h : iblk V c 1 t = View.ld (V c main_v7) ((cfg2.win 1).rect t) := rfl
  rw [h]
  exact View.ld_unit_zero (by funext a; exact Nat.zero_mul _) _ _

/-- The result the region writes: the sum of the entries of the 32 by 16 array it is handed plus the one entry of the
    one-by-one array it is handed. -/
def v8 (c : Dev nD) : Buf (Elt F) ((c : Thread nD τ).loc main_v8) := Vals.combRes (V c main_v6) (V c main_v7)

/-- The two input arrays are as entered at the region's exit. -/
theorem dat2_arrAt0 (c : Dev nD) (n : Nat) : (dat₂ c).arrAt 0 n = V c main_v6 := (dat₂ c).arrAt_in 0 rfl n
theorem dat2_arrAt1 (c : Dev nD) (n : Nat) : (dat₂ c).arrAt 1 n = V c main_v7 := (dat₂ c).arrAt_in 1 rfl n

/-- The output array holds the result at the region's exit: the one point writes its whole block back. -/
theorem dat2_arrAt2 (c : Dev nD) : (dat₂ c).arrAt 2 cfg2.N = v8 V c := by
  refine (dat₂ c).arrAt_eq_of_cover 2 (v8 V c) (fun t _ => ?_) (fun i => ⟨t2_0, flush2_2 _, ?_⟩)
  · have h1 : (dat₂ c).flushed 2 t = Vals.combRes (iblk V c 0 t) (iblk V c 1 t) := rfl
    have h2 : ((cfg2.win 2).blk t).view.read (Elt F) (v8 V c) = View.ld (v8 V c) ((cfg2.win 2).rect t) := rfl
    rw [h1, h2, iblk_0, iblk_1]
    symm
    exact View.ld_unit_zero (by funext a; exact Nat.zero_mul _) _ _
  · refine Finset.mem_map.mpr ⟨i, Finset.mem_univ _, ?_⟩
    show ((cfg2.win 2).rect t2_0).emb i = i
    exact unit_zero_emb (by funext a; exact Nat.zero_mul _) _ i

end Region2

/-! ## The region as a segment of the main program -/

section Seg

variable (V : (c : Dev nD) → (b : Ref sig .tc) → Buf (Elt F) ((c : Thread nD τ).loc b))
variable (ι : Ix) (B : Dev nD → Set (SemLoc sig × Ix))

local notation "dat₂" => dat2 (F := F) (Ix := Ix) (Name := Name) (U := U) (Lvl := Lvl) V B

/-- The prefetched tables' admissible contents: no pipeline has a table. -/
abbrev adm : (p : Fin 2) → (pcfgs (F := F) p).Adm := fun p => (cfgs p).toPCfg_adm

/-- Both pipelines' proof data: this region's, and for the other pipeline whatever it is given. -/
def pdats (d0 : (c : Dev nD) → Dat τ (Elt F) Ix Name U Lvl (Pipeline.pin (pcfgs (F := F)) adm 0) c) :
    (p : Fin 2) → (c : Dev nD) → Dat τ (Elt F) Ix Name U Lvl (Pipeline.pin (pcfgs (F := F)) adm p) c
  | ⟨0, _⟩ => d0
  | ⟨1, _⟩ => fun c => dat₂ c

/-- The buffer contents at the region's exit: as entered, the result array at the result. -/
abbrev Vout (c : Dev nD) : (b : Ref sig .tc) → Buf (Elt F) ((c : Thread nD τ).loc b) :=
  Function.update (V c) main_v8 (v8 V c)

/-- At the exit each of the region's arrays holds what the pipeline leaves, -/
theorem hF (c : Dev nD) (w : Fin cfg2.W) : (dat₂ c).arrAt w cfg2.N = Vout V c (Pipeline.arrRef spec2 w) := by
  match w with
  | ⟨0, _⟩ => exact (dat2_arrAt0 V B c _).trans (Function.update_of_ne (show (main_v6 : Ref sig .tc) ≠ main_v8 by decide) _ _).symm
  | ⟨1, _⟩ => exact (dat2_arrAt1 V B c _).trans (Function.update_of_ne (show (main_v7 : Ref sig .tc) ≠ main_v8 by decide) _ _).symm
  | ⟨2, _⟩ => exact (dat2_arrAt2 V B c).trans (show v8 V c = Function.update (V c) main_v8 (v8 V c) main_v8 from (Function.update_self (β := fun b : Ref sig .tc => Buf (Elt F) ((c : Thread nD τ).loc b)) main_v8 (v8 V c) (V c)).symm)

/-- and every other buffer what it held at entry. -/
theorem hrest (c : Dev nD) : ∀ b, b ∉ Finset.univ.image (Pipeline.arrRef spec2) → Vout V c b = V c b := fun b hb =>
  Function.update_of_ne (fun e => hb (Finset.mem_image.mpr ⟨2, Finset.mem_univ _, e.symm⟩)) _ _

variable (hB : ∀ d p, p.2 = ι → p ∈ B d)
variable (L : GSem nD τ sig → Finset Ix) (lv : GSem nD τ sig → Ix → Lvl)

-- the pipeline's configuration at index 1 is the printed one up to unfolding of definitions
set_option backward.isDefEq.respectTransparency.types false in
/-- The combine region over a thread state that holds every unscoped buffer at a valuation and the core owing
    nothing with its recorded pairs within `B`: entered at `V`, left at `V` with the result array at the result.
    Its arrays are split out of the unscoped buffers at entry and put back at exit; the invariant is the scoped
    buffers that stage nothing; no semaphore of the kernel's own. -/
def regCombine (d0 : (c : Dev nD) → Dat τ (Elt F) Ix Name U Lvl (Pipeline.pin (pcfgs (F := F)) adm 0) c) :
    Pipeline.RegionSeg (pcfgs (F := F)) adm (pdats V B d0) ι defs₀ Variants.none L lv 1 where
  win := launch2.win.to₀
  block_pos := launch2.block_pos
  stage_whole := launch2.stage_whole
  K := PEmpty
  osem k := k.elim
  ho := Pipeline.OwnSemFacts.none _
  hbody c := (combine_body V ι B c).loose
  hwaits := Pipeline.hwaits_of_owed_zero _ _ _ _ L lv 1 fun _ _ => rfl
  pre c := iprop(unscopedBufs c (V c) ∗ Pipeline.owesWithin (c : Dev nD) (0 : CellTallies nD τ sig Ix) (B c))
  post c := iprop(unscopedBufs c (Vout V c) ∗ Pipeline.owesWithin (c : Dev nD) (0 : CellTallies nD τ sig Ix) (B c))
  X c := iprop(emp)
  Y c := iprop(emp)
  Z c := Pipeline.unscopedRest (Ix := Ix) (Name := Name) (U := U) (Lvl := Lvl) spec2 c (V c)
  hentry c := by
    rw [Pipeline.ownSems0_none]
    have hsplit := Pipeline.arrays_of_unscopedBufs (p := 1) (pcfgs (F := F)) adm (pdats V B d0) launch2.win launch2.arr_whole c
      ((pdats V B d0 1 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono (c : Dev nD) (0 : CellTallies nD τ sig Ix) (B := B c) (B' := (dat₂ c).bound ι 0) Set.subset_union_left)
      iexact HO
    isplitr; · iempintro
    iexact Hrest
  hin c := by
    rw [show (pdats V B d0 1 c).Φ 0 = Pipeline.scopedRest (Ix := Ix) (Name := Name) (U := U) (Lvl := Lvl) (Val := Elt F) spec2 c from rfl]
    iintro ⟨-, -, Hr⟩
    iexact Hr
  hout c := by
    rw [Pipeline.ownSems0_none,
      show (pdats V B d0 1 c).Φ (Fin.last _) = Pipeline.scopedRest (Ix := Ix) (Name := Name) (U := U) (Lvl := Lvl) (Val := Elt F) spec2 c from rfl]
    iintro Hr
    isplitr; · iempintro
    isplitr; · iempintro
    iexact Hr
  hexit c := by
    have hjoin := Pipeline.unscopedBufs_of_arrays (p := 1) (pcfgs (F := F)) adm (Ix := Ix) (Name := Name) (U := U) (Lvl := Lvl)
      launch2.win launch2.arr_whole c (pdats V B d0) ((pdats V B d0 1 c).share_full fun _ => rfl)
      (V c) (Vout V c) ((pdats V B d0 1 c).arrAt · cfg2.N) (hF V B c) (hrest V c)
    have hsub : (dat₂ c).bound ι (Fin.last cfg2.N) ⊆ B c :=
      Set.union_subset (fun _ h => h) fun p hp => by obtain ⟨w, s, rfl⟩ := hp; exact hB c _ rfl
    iintro ⟨Ha, HO, -, Hrest⟩
    imodintro
    isplitl [Ha Hrest]
    · iapply hjoin; isplitl [Ha] <;> iassumption
    iapply (Pipeline.owesWithin_mono (c : Dev nD) (0 : CellTallies nD τ sig Ix) hsub)
    iexact HO

end Seg

end Cert.KernelIdeal.Combine

end
-- ==== Proof.Dense1.lean ====
/-
  The dense region's geometry and invariant.

  The region visits four blocks of 4096 rows.  The transposed matrix stays where it is and the body streams the block's
  slab (classes 64 to 999 by the block's 4096 rows) through a two-slot buffer by its own copies: at block `i` it starts
  the copy of block `i + 1` into slot `(i + 1) % 2`, on that slot's own counter, and then waits for the copy of block `i`
  into slot `i % 2`, which the step before started (the first step starts it itself).  Between steps `k - 1` and `k`
  (`1 ≤ k ≤ 3`) one copy is outstanding: block `k` into slot `k % 2`.  The matrix is held as two read shares, one per
  slot, and each copy borrows its block's elements from its own slot's share.  The running row holds, before step `k`,
  the sum of the first `k` blocks' contributions.
-/
import proofs.«202802_g48112223650475_cont_8to1c4_51_21_alg».proof.Proof.Gen.KernelIdeal.Launch
import proofs.«202802_g48112223650475_cont_8to1c4_51_21_alg».proof.Proof.Gen.KernelIdeal.Points
import proofs.«202802_g48112223650475_cont_8to1c4_51_21_alg».proof.Proof.Gen.KernelIdeal.Skeleton
import proofs.«202802_g48112223650475_cont_8to1c4_51_21_alg».proof.Proof.Vals
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.KernelIdeal.Dense

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable {Ix : Type} [DecidableEq Ix] [Inhabited Ix] {Name : Type} [DecidableEq Name] [Infinite Name] {U : Type} [URA U] [CountersIn U]
variable {Lvl : Type} [Preorder Lvl]

local notation "𝕄" => MT nD τ sig Ix (Elt F) Name U Lvl

/-! ## The memrefs the body names -/

/-- The transposed matrix, the two-slot buffer and the running row, whole. -/
abbrev zM : Memref sig .tc .hbm S1000x16384 .f32 := Memref.whole main_v0
abbrev scM : Memref sig .tc .vmem S2x936x4096 .f32 := Memref.whole cc1_scratch0
abbrev accM : Memref sig .tc .vmem S1x4096 .f32 := Memref.whole cc1_scratch1

theorem inb_slot (s : Fin 2) : ∀ a, (![s.val, 0, 0] : Fin 3 → Nat) a + S1x936x4096.size a ≤ S2x936x4096.size a := by
  have := s.isLt; intro a; fin_cases a <;> simp <;> omega
theorem inb_src (b : Fin 4) : ∀ a, (![64, 4096 * b.val] : Fin 2 → Nat) a + S936x4096.size a ≤ S1000x16384.size a := by
  have := b.isLt; intro a; fin_cases a <;> simp <;> omega
theorem inb_cell (s : Fin 2) : ∀ a, (![s.val] : Fin 1 → Nat) a + S1.size a ≤ S2.size a := by
  have := s.isLt; intro a; fin_cases a <;> simp <;> omega

/-- Slot `s` of the buffer, as the copies spell their destination. -/
def rslot (s : Fin 2) : Memref sig .tc .vmem S936x4096 .f32 :=
  (scM.slice (Rect.unit (s := S2x936x4096) ![s.val, 0, 0] S1x936x4096.size (inb_slot s)) (fun _ => rfl)).squeeze S936x4096 squeezes_S1x936x4096_S936x4096
/-- Block `b`'s slab of the matrix, as the copies spell their source. -/
def srcB (b : Fin 4) : Memref sig .tc .hbm S936x4096 .f32 :=
  zM.slice (Rect.unit (s := S1000x16384) ![64, 4096 * b.val] S936x4096.size (inb_src b)) (fun _ => rfl)
/-- Counter `s` of the pair, as the body spells it. -/
def cellA (s : Fin 2) : DmaSems sig S_ := (cc1_scratch2.slice (Rect.unit (s := S2) ![s.val] S1.size (inb_cell s))).squeeze S_ squeezes_S1_S_
abbrev cellR (s : Fin 2) : SemLoc sig := SemLoc.dma (cellA s).sem
theorem cellR_0 : cellR 0 = SemLoc.dma 13 := by decide
theorem cellR_1 : cellR 1 = SemLoc.dma 14 := by decide

/-! ## The body's branch conditions, decided over the four steps -/

/-- The first step. -/
abbrev cond1 (i : grid1.Coords) : Prop := (Scalar.cmpi .ne (Scalar.extui (Scalar.cmpi .eq (BitVec.ofNat 32 (i 0).val) 0#32)) 0#32) = 1#1
theorem hcond1 : ∀ t : Fin cfg1.N, cond1 (grid1.coords t) ↔ t.val = 0 :=
  (by decide +kernel : ∀ t : Fin grid1.N, cond1 (grid1.coords t) ↔ t.val = 0)
/-- A next block exists. -/
abbrev cond2 (i : grid1.Coords) : Prop := k1_cond2 i = 1#1
theorem hcond2 : ∀ t : Fin cfg1.N, cond2 (grid1.coords t) ↔ t.val < 3 :=
  (by decide +kernel : ∀ t : Fin grid1.N, cond2 (grid1.coords t) ↔ t.val < 3)
/-- The last step. -/
abbrev cond3 (i : grid1.Coords) : Prop := k1_cond3 i = 1#1
theorem hcond3 : ∀ t : Fin cfg1.N, cond3 (grid1.coords t) ↔ t.val = 3 :=
  (by decide +kernel : ∀ t : Fin grid1.N, cond3 (grid1.coords t) ↔ t.val = 3)

instance : NeZero grid1.N := ⟨by rw [N_1]; decide⟩

/-! ## The body's operands at step `t` are the slots, blocks and counters by number -/

section Canon
set_option synthInstance.maxSize 4096
theorem coffA1 : ∀ t : Fin grid1.N, cond1 (grid1.coords t) → (![0, 0, 0] : Fin 3 → Nat) = ![(Ring.sl 2 t.val).val, 0, 0] := by decide +kernel
@[sl_canon] theorem canonA1 (t : Fin grid1.N) (h1 : cond1 (grid1.coords t)) :
    (scM.slice (Rect.unit (s := S2x936x4096) ![0, 0, 0] S1x936x4096.size inb_S2x936x4096_S1x936x4096_0_0_0) (fun _ => rfl)).squeeze S936x4096 squeezes_S1x936x4096_S936x4096 = rslot (Ring.sl 2 t.val) :=
  congrArg (fun M : Memref sig .tc .vmem S1x936x4096 .f32 => M.squeeze S936x4096 squeezes_S1x936x4096_S936x4096) (Memref.slice_unit_congr _ (coffA1 t h1) _ _ (fun _ => rfl) (fun _ => rfl))
theorem coffA2 : ∀ t : Fin grid1.N, cond1 (grid1.coords t) → (![0] : Fin 1 → Nat) = ![(Ring.sl 2 t.val).val] := by decide +kernel
@[sl_canon] theorem canonA2 (t : Fin grid1.N) (h1 : cond1 (grid1.coords t)) :
    (cc1_scratch2.slice (Rect.unit (s := S2) ![0] S1.size inb_S2_S1_0)).squeeze S_ squeezes_S1_S_ = cellA (Ring.sl 2 t.val) :=
  congrArg (fun A : DmaSems sig S1 => A.squeeze S_ squeezes_S1_S_) (SemArray.slice_unit_congr _ (coffA2 t h1) _ _)
theorem coffA3 : ∀ t : Fin grid1.N, cond1 (grid1.coords t) → (![64, 0] : Fin 2 → Nat) = ![64, 4096 * (Ring.bk 4 t.val).val] := by decide +kernel
@[sl_canon] theorem canonA3 (t : Fin grid1.N) (h1 : cond1 (grid1.coords t)) :
    zM.slice (Rect.unit (s := S1000x16384) ![64, 0] S936x4096.size inb_S1000x16384_S936x4096_64_0) (fun _ => rfl) = srcB (Ring.bk 4 t.val) :=
  Memref.slice_unit_congr _ (coffA3 t h1) _ _ (fun _ => rfl) (fun _ => rfl)
theorem coff2 : ∀ t : Fin grid1.N, k1_off2 (grid1.coords t) = ![(Ring.sl 2 (t.val + 1)).val, 0, 0] := by decide +kernel
@[sl_canon] theorem canon2 (t : Fin grid1.N) (h2 : cond2 (grid1.coords t)) :
    (scM.slice (Rect.unit (s := S2x936x4096) (k1_off2 (grid1.coords t)) S1x936x4096.size (k1_off2_inb (grid1.coords t) h2)) (fun _ => rfl)).squeeze S936x4096 squeezes_S1x936x4096_S936x4096 = rslot (Ring.sl 2 (t.val + 1)) :=
  congrArg (fun M : Memref sig .tc .vmem S1x936x4096 .f32 => M.squeeze S936x4096 squeezes_S1x936x4096_S936x4096) (Memref.slice_unit_congr _ (coff2 t) _ _ (fun _ => rfl) (fun _ => rfl))
theorem coff1 : ∀ t : Fin grid1.N, k1_off1 (grid1.coords t) = ![(Ring.sl 2 (t.val + 1)).val] := by decide +kernel
@[sl_canon] theorem canon1 (t : Fin grid1.N) (h2 : cond2 (grid1.coords t)) :
    (cc1_scratch2.slice (Rect.unit (s := S2) (k1_off1 (grid1.coords t)) S1.size (k1_off1_inb (grid1.coords t) h2))).squeeze S_ squeezes_S1_S_ = cellA (Ring.sl 2 (t.val + 1)) :=
  congrArg (fun A : DmaSems sig S1 => A.squeeze S_ squeezes_S1_S_) (SemArray.slice_unit_congr _ (coff1 t) _ _)
theorem coff3 : ∀ t : Fin grid1.N, cond2 (grid1.coords t) → k1_off3 (grid1.coords t) = ![64, 4096 * (Ring.bk 4 (t.val + 1)).val] := by decide +kernel
@[sl_canon] theorem canon3 (t : Fin grid1.N) (h2 : cond2 (grid1.coords t)) :
    zM.slice (Rect.unit (s := S1000x16384) (k1_off3 (grid1.coords t)) S936x4096.size (k1_off3_inb (grid1.coords t) h2)) (fun _ => rfl) = srcB (Ring.bk 4 (t.val + 1)) :=
  Memref.slice_unit_congr _ (coff3 t h2) _ _ (fun _ => rfl) (fun _ => rfl)
theorem coff5 : ∀ t : Fin grid1.N, k1_off5 (grid1.coords t) = ![(Ring.sl 2 t.val).val, 0, 0] := by decide +kernel
@[sl_canon] theorem canon5 (t : Fin grid1.N) :
    (scM.slice (Rect.unit (s := S2x936x4096) (k1_off5 (grid1.coords t)) S1x936x4096.size (k1_off5_inb (grid1.coords t))) (fun _ => rfl)).squeeze S936x4096 squeezes_S1x936x4096_S936x4096 = rslot (Ring.sl 2 t.val) :=
  congrArg (fun M : Memref sig .tc .vmem S1x936x4096 .f32 => M.squeeze S936x4096 squeezes_S1x936x4096_S936x4096) (Memref.slice_unit_congr _ (coff5 t) _ _ (fun _ => rfl) (fun _ => rfl))
theorem coff4 : ∀ t : Fin grid1.N, k1_off4 (grid1.coords t) = ![(Ring.sl 2 t.val).val] := by decide +kernel
@[sl_canon] theorem canon4 (t : Fin grid1.N) :
    (cc1_scratch2.slice (Rect.unit (s := S2) (k1_off4 (grid1.coords t)) S1.size (k1_off4_inb (grid1.coords t)))).squeeze S_ squeezes_S1_S_ = cellA (Ring.sl 2 t.val) :=
  congrArg (fun A : DmaSems sig S1 => A.squeeze S_ squeezes_S1_S_) (SemArray.slice_unit_congr _ (coff4 t) _ _)
theorem coff6 : ∀ t : Fin grid1.N, k1_off6 (grid1.coords t) = ![64, 4096 * (Ring.bk 4 t.val).val] := by decide +kernel
@[sl_canon] theorem canon6 (t : Fin grid1.N) :
    zM.slice (Rect.unit (s := S1000x16384) (k1_off6 (grid1.coords t)) S936x4096.size (k1_off6_inb (grid1.coords t))) (fun _ => rfl) = srcB (Ring.bk 4 t.val) :=
  Memref.slice_unit_congr _ (coff6 t) _ _ (fun _ => rfl) (fun _ => rfl)
theorem coff7 : ∀ t : Fin grid1.N, k1_off7 (grid1.coords t) = ![(Ring.sl 2 t.val).val, 0, 0] := by decide +kernel
/-- The load of the slot just waited for, in the slot's spelling. -/
instance (priority := high) closedOff7 (t : Fin grid1.N) : ClosedOff (k1_off7 (grid1.coords t)) := ⟨![(Ring.sl 2 t.val).val, 0, 0], coff7 t⟩
end Canon

/-! ## The pieces of the invariant -/

section Pieces
variable (c : Dev nD)

/-- Contents of the matrix's buffer, of a slot's, of the running row's. -/
abbrev ZBuf : Type := Buf (Elt F) (zM.view.loc (c : Thread nD τ))
abbrev SlotBuf (s : Fin 2) : Type := Buf (Elt F) ((rslot s).view.loc (c : Thread nD τ))

variable (Wz : ZBuf (F := F) c)

/-- The matrix is lent by share: slot 0's copies borrow from the left half of the full share, slot 1's from the right. -/
abbrev qs (s : Fin 2) : PosShare TreeShare := if s.val = 0 then fullShare.left else fullShare.right
/-- Slot `s` held at `f`; counter `s` at zero; block `b`'s elements of slot `s`'s share of the matrix, the rest of that share,
    and the share whole; slot `s` once block `b` has landed over `f`; the copy of block `b` into slot `s` outstanding. -/
abbrev slotP (s : Fin 2) (f : SlotBuf (F := F) c s) : sProp 𝕄 := (rslot s).view.loc (c : Thread nD τ) ↦[(rslot s).view.set]{fullShare} f
abbrev cellP (s : Fin 2) : sProp 𝕄 := semVal ((c : Thread nD τ), cellR s) 0
abbrev srcP (s : Fin 2) (b : Fin 4) : sProp 𝕄 := (srcB b).view.loc (c : Thread nD τ) ↦[(srcB b).view.set]{qs s} Wz
def restP (s : Fin 2) (b : Fin 4) : sProp 𝕄 := ((c : Thread nD τ).loc main_v0) ↦[Finset.univ \ (srcB b).view.set]{qs s} Wz
abbrev wholeP (s : Fin 2) : sProp 𝕄 := ((c : Thread nD τ).loc main_v0) ↦[Finset.univ]{qs s} Wz
abbrev landed (s : Fin 2) (b : Fin 4) (f : SlotBuf (F := F) c s) : SlotBuf (F := F) c s :=
  (rslot s).view.writes (Elt F) f [⟨Rect.whole S936x4096, ReadAs.same.apply ((srcB b).view.read (Elt F) Wz)⟩]
abbrev flightP (s : Fin 2) (b : Fin 4) (f : SlotBuf (F := F) c s) : sProp 𝕄 :=
  Transfers.Flight countersEmb (c : Thread nD τ) (cellR s) default ((rslot s).view.amount (cellR s))
    iprop(slotP c s (landed c Wz s b f) ∗ srcP c Wz s b)
/-- The running row at `a`. -/
abbrev accP (a : Vec F S1x4096 .f32) : sProp 𝕄 := accM.view.loc (c : Thread nD τ) ↦[accM.view.set]{fullShare} a

theorem src_split (s : Fin 2) (b : Fin 4) : wholeP (F := F) (Ix := Ix) (Name := Name) (U := U) (Lvl := Lvl) c Wz s ⊣⊢ iprop(srcP c Wz s b ∗ restP c Wz s b) := by
  unfold restP; exact pointsTo_split_subset (Finset.subset_univ _)

end Pieces

/-! ## The blocks the body reads, as functions of the arrays' contents -/

section Data
variable (c : Dev nD)

/-- Step `n` as a point of the grid. -/
def pt (n : Fin 4) : Fin cfg1.N := ⟨n.val, lt_of_lt_of_eq n.isLt N_1.symm⟩

/-- Block `n`'s slab of the transposed matrix as the body loads it from its slot: entry `(0, k, j)` is the slab's entry `(k, j)`,
    the matrix's entry at class `64 + k`, row `4096 n + j`. -/
def zb (Wz : ZBuf (F := F) c) (n : Fin 4) : Vec F S1x936x4096 .f32 :=
  fun y => ReadAs.same.apply ((srcB n).view.read (Elt F) Wz) (fun i => (y i.succ).cast rfl)

variable (V : (b : Ref sig .tc) → Buf (Elt F) ((c : Thread nD τ).loc b))

/-- Window `w`'s block at point `t`, read off its array. -/
def iblk (w : Fin cfg1.W) (t : Fin cfg1.N) : ((cfg1.win w).xblock (cfg1.grid.coords t)).Idx → Elt F (cfg1.win w).elt :=
  ((cfg1.win w).blk t).view.read (Elt F) (V (Pipeline.arrRef spec1 w))

/-- Block `n` of the labels, of the second labels, of the mask. -/
def lb (n : Fin 4) : Vec F S1x1x4096 .i32 := iblk c V 0 (pt n)
def lpb (n : Fin 4) : Vec F S1x1x4096 .i32 := iblk c V 1 (pt n)
def cb (n : Fin 4) : Vec F S1x1x4096 .f32 := iblk c V 2 (pt n)

/-- The running row after the first `k` blocks, and the region's one-by-one result. -/
def accD (k : ℕ) : Vec F S1x4096 .f32 := Vals.denseAcc (zb c (V main_v0)) (lb c V) (lpb c V) (cb c V) k
def resD : Vec F S1x1 .f32 := Vals.denseRes (zb c (V main_v0)) (lb c V) (lpb c V) (cb c V)

/-- One block's contribution added to the running row. -/
def accStep (z : Vec F S1x936x4096 .f32) (x0 x1 : Vec F S1x1x4096 .i32) (x2 : Vec F S1x1x4096 .f32) (a : Vec F S1x4096 .f32) : Vec F S1x4096 .f32 :=
  k1_pay1 (k1_pay4 z) (k1_pay5 (F := F) x1) (k1_pay6 x2) k1_pay7 (k1_pay8 z x0) a

theorem accD_zero : accD c V 0 = k1_pay3 (F := F) := rfl
theorem accD_succ (t : Fin cfg1.N) : accD c V (t.val + 1) = accStep (zb c (V main_v0) (Ring.bk 4 t.val)) (iblk c V 0 t) (iblk c V 1 t) (iblk c V 2 t) (accD c V t.val) := by
  have h : t.val < 4 := lt_of_lt_of_eq t.isLt N_1
  have hb : Ring.bk 4 t.val = ⟨t.val, h⟩ := Fin.ext (Ring.bk_val h)
  unfold accD; rw [Vals.denseAcc, dif_pos h, hb]; rfl
theorem resD_eq : resD c V = k1_pay2 (accD c V 4) := rfl

end Data

/-! ## The invariant between steps -/

section Inv
variable (c : Dev nD) (Wz : ZBuf (F := F) c) (acc : ℕ → Vec F S1x4096 .f32)

/-- The other region's three staging buffers ride through untouched. -/
abbrev otherP : sProp 𝕄 :=
  iprop((∃ f : Buf (Elt F) ((c : Thread nD τ).loc cc2_stg0_0), ((c : Thread nD τ).loc cc2_stg0_0) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f))

/-- Nothing outstanding: the running row and both slots at anything, both counters at zero, both shares of the matrix whole. -/
def PhiFree : sProp 𝕄 :=
  iprop((∃ a, accP c a) ∗ (cellP c 0 ∗ ∃ f, slotP c 0 f) ∗ (cellP c 1 ∗ ∃ f, slotP c 1 f) ∗ wholeP c Wz 0 ∗ wholeP c Wz 1 ∗ otherP c)

/-- Before step `k`, `1 ≤ k ≤ 3`: the running row at the first `k` blocks' sum; the copy of block `k` into slot `k % 2`
    outstanding, beside the rest of the share it borrowed from; the other slot free, its counter at zero, its share whole. -/
def PhiMid (k : ℕ) : sProp 𝕄 :=
  iprop(accP c (acc k)
    ∗ ((∃ f, flightP c Wz (Ring.sl 2 k) (Ring.bk 4 k) f) ∗ restP c Wz (Ring.sl 2 k) (Ring.bk 4 k))
    ∗ (cellP c (Ring.sl 2 (k + 1)) ∗ (∃ f, slotP c (Ring.sl 2 (k + 1)) f) ∗ wholeP c Wz (Ring.sl 2 (k + 1)))
    ∗ otherP c)

/-- The invariant before step `k` (after step `k - 1`). -/
def PhiD (k : ℕ) : sProp 𝕄 := if k = 0 ∨ 4 ≤ k then PhiFree c Wz else PhiMid c Wz acc k

end Inv

/-! ## The proof data -/

/-- The dense region's proof data on core `c`, at the entry contents `V`, the core's recorded pairs within `B`: each input's
    buffer keeps its block; the result's buffer holds the region's result after the last step; the invariant above; nothing
    owed; full shares. -/
def dat1 (B : Set (SemLoc sig × Ix)) (c : Dev nD) (V : (b : Ref sig .tc) → Buf (Elt F) ((c : Thread nD τ).loc b)) :
    Dat τ (Elt F) Ix Name U Lvl cfg1 c where
  A w := V (Pipeline.arrRef spec1 w)
  after w t := match w with
    | ⟨0, _⟩ => iblk c V 0 t
    | ⟨1, _⟩ => iblk c V 1 t
    | ⟨2, _⟩ => iblk c V 2 t
    | ⟨3, _⟩ => resD c V
  Φ t := PhiD c (V main_v0) (accD c V) t.val
  q _ := fullShare
  owed _ := 0
  recorded _ := B

section DatFacts
variable (B : Set (SemLoc sig × Ix)) (c : Dev nD) (V : (b : Ref sig .tc) → Buf (Elt F) ((c : Thread nD τ).loc b))

theorem A_eq (w : Fin cfg1.W) : (dat1 (Name := Name) (U := U) (Lvl := Lvl) B c V).A w = V (Pipeline.arrRef spec1 w) := by dsimp only [dat1]
theorem after_0 (t : Fin cfg1.N) : (dat1 (Name := Name) (U := U) (Lvl := Lvl) B c V).after 0 t = iblk c V 0 t := by dsimp only [dat1]
theorem after_1 (t : Fin cfg1.N) : (dat1 (Name := Name) (U := U) (Lvl := Lvl) B c V).after 1 t = iblk c V 1 t := by dsimp only [dat1]
theorem after_2 (t : Fin cfg1.N) : (dat1 (Name := Name) (U := U) (Lvl := Lvl) B c V).after 2 t = iblk c V 2 t := by dsimp only [dat1]
theorem after_3 (t : Fin cfg1.N) : (dat1 (Name := Name) (U := U) (Lvl := Lvl) B c V).after 3 t = resD c V := by dsimp only [dat1]
theorem Phi_castSucc (t : Fin cfg1.N) : (dat1 (Name := Name) (U := U) (Lvl := Lvl) B c V).Φ t.castSucc = PhiD c (V main_v0) (accD c V) t.val := by
  dsimp only [dat1]; simp only [Fin.coe_castSucc]
theorem Phi_succ (t : Fin cfg1.N) : (dat1 (Name := Name) (U := U) (Lvl := Lvl) B c V).Φ t.succ = PhiD c (V main_v0) (accD c V) (t.val + 1) := by
  dsimp only [dat1]; simp only [Fin.val_succ]

/-- Each input's current buffer holds its block at every point. -/
theorem before_0 (t : Fin cfg1.N) (d) : (dat1 (Name := Name) (U := U) (Lvl := Lvl) B c V).before 0 t d = iblk c V 0 t :=
  ((dat1 B c V).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (t : Fin cfg1.N) (d) : (dat1 (Name := Name) (U := U) (Lvl := Lvl) B c V).before 1 t d = iblk c V 1 t :=
  ((dat1 B c V).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (t : Fin cfg1.N) (d) : (dat1 (Name := Name) (U := U) (Lvl := Lvl) B c V).before 2 t d = iblk c V 2 t :=
  ((dat1 B c V).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

end DatFacts

end Cert.KernelIdeal.Dense

end
-- ==== Proof.Dense2.lean ====
/-
  The dense region's body, step by step: the first step (it zeroes the running row and starts the first two copies), a
  middle step (it starts the next copy, waits for its own, adds its block), the last step (it waits, adds, and sums the
  running row into the result).
-/
import proofs.«202802_g48112223650475_cont_8to1c4_51_21_alg».proof.Proof.Dense1
import Idealize.ShloMosaic.Lib.Pipeline.Value

set_option maxRecDepth 16384

noncomputable section

namespace Cert.KernelIdeal.Dense

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable {Ix : Type} [DecidableEq Ix] [Inhabited Ix] {Name : Type} [DecidableEq Name] [Infinite Name] {U : Type} [URA U] [CountersIn U]
variable {Lvl : Type} [Preorder Lvl]

local notation "𝕄" => MT nD τ sig Ix (Elt F) Name U Lvl

variable {c : Dev nD}

/-! ## What the body's loads read and its stores leave -/

theorem hz2 : (![0, 0] : Fin 2 → Nat) = fun _ => 0 := by funext a; fin_cases a <;> rfl
theorem hz3 : (![0, 0, 0] : Fin 3 → Nat) = fun _ => 0 := by funext a; fin_cases a <;> rfl

/-- A load of the whole running row reads it. -/
theorem acc_readAt (inb) (a : Vec F S1x4096 .f32) :
    View.readAt (Elt F) accM.view (Rect.unit (s := S1x4096) ![0, 0] S1x4096.size inb).toLoadRect a = a := by
  simp only [View.readAt_eq_ld, Memref.view_whole, View.read_whole, View.ld_unit_zero (S := S1x4096) hz2]

/-- A store of the whole running row leaves what it stores. -/
theorem acc_writes (inb) (a w : Vec F S1x4096 .f32) :
    accM.view.writes (Elt F) a [⟨Rect.unit (s := S1x4096) ![0, 0] S1x4096.size inb, w⟩] = w := by
  have h := View.read_writes_eq_canon accM.view a [(⟨Rect.unit (s := S1x4096) ![0, 0] S1x4096.size inb, w⟩ : View.Piece (Elt F) S1x4096 .f32)]
    (fun y => ⟨_, List.mem_singleton_self _, View.mem_set_unit_zero hz2 inb y⟩)
  rw [View.canon_unit_zero hz2] at h
  simpa only [Memref.view_whole, View.read_whole] using h

/-- A store of the whole running row, last, leaves what it stores whatever was stored before. -/
theorem acc_writes' (inb) (a w : Vec F S1x4096 .f32) (L : List (View.Piece (Elt F) S1x4096 .f32)) :
    accM.view.writes (Elt F) a ((⟨Rect.unit (s := S1x4096) ![0, 0] S1x4096.size inb, w⟩ : View.Piece (Elt F) S1x4096 .f32) :: L) = w := by
  have h := View.read_writes_eq_canon accM.view a ((⟨Rect.unit (s := S1x4096) ![0, 0] S1x4096.size inb, w⟩ : View.Piece (Elt F) S1x4096 .f32) :: L)
    (fun y => ⟨_, List.mem_cons_self, View.mem_set_unit_zero hz2 inb y⟩)
  rw [View.canon_cons_unit_zero hz2] at h
  simpa only [Memref.view_whole, View.read_whole] using h

/-- Where the slot's view puts an index: behind the slot's number on the leading axis. -/
theorem slot_emb (s : Fin 2) (y : S936x4096.Idx) (x : S1x936x4096.Idx) (hy : ∀ i : Fin 2, (y i).val = (x i.succ).val) (a : Fin 3) :
    ((rslot s).view.emb y a).val = (![s.val, 0, 0] : Fin 3 → Nat) a + (x a).val := by
  show (![s.val, 0, 0] : Fin 3 → Nat) a + 1 * ((Shape.reshapeEquiv (Shape.Squeezes.numel_eq squeezes_S1x936x4096_S936x4096) y) a).val = _
  rw [Shape.reshapeEquiv_cons_one (n := 2) (d := ![936, 4096])]
  refine Fin.cases ?_ (fun i => ?_) a
  · have hx : (x 0).val < 1 := (x 0).isLt
    show s.val + 1 * 0 = s.val + (x 0).val
    omega
  · have := hy i
    show (![s.val, 0, 0] : Fin 3 → Nat) i.succ + 1 * (y i).val = _
    omega

/-- A load of slot `s`'s row through the whole buffer, of contents a copy left on the slot's own view, reads the copy's
    payload at the index behind the leading axis. -/
theorem slot_read (s : Fin 2) (f : SlotBuf (F := F) c s) (x : S936x4096.Idx → Elt F .f32) (off : Fin 3 → Nat) (inb) (hoff : off = ![s.val, 0, 0]) :
    View.readAt (Elt F) scM.view (Rect.unit (s := S2x936x4096) off S1x936x4096.size inb).toLoadRect
        ((rslot s).view.writes (Elt F) f [⟨Rect.whole S936x4096, x⟩])
      = fun y => x (fun i => (y i.succ).cast rfl) := by
  subst hoff
  funext y
  simp only [View.readAt, Memref.view_whole, View.read_whole]
  have e : (Rect.unit (s := S2x936x4096) ![s.val, 0, 0] S1x936x4096.size inb).toLoadRect.idx y
      = (rslot s).view.emb (fun i => (y i.succ).cast rfl) := by
    funext a; apply Fin.ext
    rw [slot_emb s (fun i => (y i.succ).cast rfl) y (fun _ => rfl) a]
    show (![s.val, 0, 0] : Fin 3 → Nat) a + 1 * (y a).val = _
    omega
  rw [e]
  exact congrFun (View.read_writes_whole (rslot s).view f x) _

set_option maxHeartbeats 1000000 in
/-- A middle step. -/
theorem runB (c : Dev nD) (t : Fin cfg1.N)
    (arg2 : Memref sig .tc .vmem S1x1x4096 .i32) (harg2 : arg2.IsWhole) (arg3 : Memref sig .tc .vmem S1x1x4096 .i32) (harg3 : arg3.IsWhole)
    (arg4 : Memref sig .tc .vmem S1x1x4096 .f32) (harg4 : arg4.IsWhole) (arg5 : Memref sig .tc .vmem S1x1 .f32) (harg5 : arg5.IsWhole)
    (hc1 : ¬cond1 (grid1.coords t)) (hc2 : cond2 (grid1.coords t)) (hc3 : ¬cond3 (grid1.coords t))
    (x0 x1 : Vec F S1x1x4096 .i32) (x2 : Vec F S1x1x4096 .f32) (y : Vec F S1x1 .f32) (Wz : ZBuf (F := F) c) (a : Vec F S1x4096 .f32)
    (W : Waits sig Ix) (K : PUnit → sProp 𝕄) :
    iprop(owns (c : Thread nD τ) arg2 fullShare x0 ∗ owns (c : Thread nD τ) arg3 fullShare x1 ∗ owns (c : Thread nD τ) arg4 fullShare x2
          ∗ owns (c : Thread nD τ) arg5 fullShare y ∗ accP c a
          ∗ (∃ f, flightP c Wz (Ring.sl 2 t.val) (Ring.bk 4 t.val) f) ∗ restP c Wz (Ring.sl 2 t.val) (Ring.bk 4 t.val)
          ∗ cellP c (Ring.sl 2 (t.val + 1)) ∗ (∃ f, slotP c (Ring.sl 2 (t.val + 1)) f) ∗ wholeP c Wz (Ring.sl 2 (t.val + 1))
          ∗ owes (c : Thread nD τ) 0 W
          ∗ (iprop(owns (c : Thread nD τ) arg2 fullShare x0 ∗ owns (c : Thread nD τ) arg3 fullShare x1 ∗ owns (c : Thread nD τ) arg4 fullShare x2
              ∗ owns (c : Thread nD τ) arg5 fullShare y
              ∗ (∃ g, ⌜g = accStep (zb c Wz (Ring.bk 4 t.val)) x0 x1 x2 a⌝ ∗ accP c g)
              ∗ (∃ f, flightP c Wz (Ring.sl 2 (t.val + 1)) (Ring.bk 4 (t.val + 1)) f) ∗ restP c Wz (Ring.sl 2 (t.val + 1)) (Ring.bk 4 (t.val + 1))
              ∗ cellP c (Ring.sl 2 t.val) ∗ (∃ f, slotP c (Ring.sl 2 t.val) f) ∗ wholeP c Wz (Ring.sl 2 t.val)
              ∗ owes (c : Thread nD τ) 0 (insert (cellR (Ring.sl 2 t.val), default) W)) -∗ K ⟨⟩))
      ⊢ wp frame (wpE (defs₀ (F := F)) Variants.none c none) Set.univ (cc1__tc_dense_body (grid1.coords t) zM (Memref.isWhole_whole _) arg2 harg2 arg3 harg3 arg4 harg4 arg5 harg5 scM (Memref.isWhole_whole _) accM (Memref.isWhole_whole _) cc1_scratch2) K := by
  haveI : Fact (¬cond1 (grid1.coords t)) := ⟨hc1⟩
  haveI : Fact (cond2 (grid1.coords t)) := ⟨hc2⟩
  haveI : Fact (¬cond3 (grid1.coords t)) := ⟨hc3⟩
  simp only [cc1__tc_dense_body_eq_skeleton]; unfold cc1__tc_dense_body_skel
  unfold owns
  iintro ⟨⟨%f0, %hf0, H0⟩, ⟨%f1, %hf1, H1⟩, ⟨%f2, %hf2, H2⟩, ⟨%f3, %hf3, H3⟩, Hacc, ⟨%ff, Hfl⟩, Hrf, Hc, ⟨%fs, Hs⟩, Hw, HW, Hk⟩
  ihave Hsp := (src_split c Wz (Ring.sl 2 (t.val + 1)) (Ring.bk 4 (t.val + 1))).1 $$ Hw
  icases Hsp with ⟨Hh, Hr⟩
  obtain rfl := harg2.eq_unread hf0
  obtain rfl := harg3.eq_unread hf1
  obtain rfl := harg4.eq_unread hf2
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact hf3
    iexact H3
  isplitl [Hacc]
  · iexists _; isplitr
    swap; · iexact Hacc
    ipureintro
    sl_unfold_run_names
    rw [slot_read (c := c) (Ring.sl 2 t.val) _ _ _ _ (coff7 t), acc_readAt, acc_writes]
    simp only [View.readAt_eq_ld, harg2.read_unread, harg3.read_unread, harg4.read_unread, View.ld_unit_zero (S := S1x1x4096) hz3]
    rfl
  isplitl [Hc]; · iexists _; iexact Hc
  isplitl [Hr]; · iexact Hr
  isplitl [Hfl]; · iexact Hfl
  isplitl [Hfl_dst]; · iexists _; iexact Hfl_dst
  isplitl [Hfl_src Hrf]
  · iapply (src_split c Wz (Ring.sl 2 t.val) (Ring.bk 4 t.val)).2; isplitl [Hfl_src]; · iexact Hfl_src
    iexact Hrf
  iexact HW

set_option maxHeartbeats 1000000 in
/-- The first step. -/
theorem runA (c : Dev nD) (t : Fin cfg1.N)
    (arg2 : Memref sig .tc .vmem S1x1x4096 .i32) (harg2 : arg2.IsWhole) (arg3 : Memref sig .tc .vmem S1x1x4096 .i32) (harg3 : arg3.IsWhole)
    (arg4 : Memref sig .tc .vmem S1x1x4096 .f32) (harg4 : arg4.IsWhole) (arg5 : Memref sig .tc .vmem S1x1 .f32) (harg5 : arg5.IsWhole)
    (hc1 : cond1 (grid1.coords t)) (hc2 : cond2 (grid1.coords t)) (hc3 : ¬cond3 (grid1.coords t))
    (x0 x1 : Vec F S1x1x4096 .i32) (x2 : Vec F S1x1x4096 .f32) (y : Vec F S1x1 .f32) (Wz : ZBuf (F := F) c)
    (W : Waits sig Ix) (K : PUnit → sProp 𝕄) :
    iprop(owns (c : Thread nD τ) arg2 fullShare x0 ∗ owns (c : Thread nD τ) arg3 fullShare x1 ∗ owns (c : Thread nD τ) arg4 fullShare x2
          ∗ owns (c : Thread nD τ) arg5 fullShare y ∗ (∃ a, accP c a)
          ∗ cellP c (Ring.sl 2 t.val) ∗ (∃ f, slotP c (Ring.sl 2 t.val) f) ∗ wholeP c Wz (Ring.sl 2 t.val)
          ∗ cellP c (Ring.sl 2 (t.val + 1)) ∗ (∃ f, slotP c (Ring.sl 2 (t.val + 1)) f) ∗ wholeP c Wz (Ring.sl 2 (t.val + 1))
          ∗ owes (c : Thread nD τ) 0 W
          ∗ (iprop(owns (c : Thread nD τ) arg2 fullShare x0 ∗ owns (c : Thread nD τ) arg3 fullShare x1 ∗ owns (c : Thread nD τ) arg4 fullShare x2
              ∗ owns (c : Thread nD τ) arg5 fullShare y
              ∗ (∃ g, ⌜g = accStep (zb c Wz (Ring.bk 4 t.val)) x0 x1 x2 (k1_pay3 (F := F))⌝ ∗ accP c g)
              ∗ (∃ f, flightP c Wz (Ring.sl 2 (t.val + 1)) (Ring.bk 4 (t.val + 1)) f) ∗ restP c Wz (Ring.sl 2 (t.val + 1)) (Ring.bk 4 (t.val + 1))
              ∗ cellP c (Ring.sl 2 t.val) ∗ (∃ f, slotP c (Ring.sl 2 t.val) f) ∗ wholeP c Wz (Ring.sl 2 t.val)
              ∗ owes (c : Thread nD τ) 0 (insert (cellR (Ring.sl 2 t.val), default) W)) -∗ K ⟨⟩))
      ⊢ wp frame (wpE (defs₀ (F := F)) Variants.none c none) Set.univ (cc1__tc_dense_body (grid1.coords t) zM (Memref.isWhole_whole _) arg2 harg2 arg3 harg3 arg4 harg4 arg5 harg5 scM (Memref.isWhole_whole _) accM (Memref.isWhole_whole _) cc1_scratch2) K := by
  haveI : Fact (cond1 (grid1.coords t)) := ⟨hc1⟩
  haveI : Fact (cond2 (grid1.coords t)) := ⟨hc2⟩
  haveI : Fact (¬cond3 (grid1.coords t)) := ⟨hc3⟩
  simp only [cc1__tc_dense_body_eq_skeleton]; unfold cc1__tc_dense_body_skel
  unfold owns
  iintro ⟨⟨%f0, %hf0, H0⟩, ⟨%f1, %hf1, H1⟩, ⟨%f2, %hf2, H2⟩, ⟨%f3, %hf3, H3⟩, ⟨%a0, Hacc⟩, Hc0, ⟨%fs0, Hs0⟩, Hw0, Hc1, ⟨%fs1, Hs1⟩, Hw1, HW, Hk⟩
  ihave Hsp0 := (src_split c Wz (Ring.sl 2 t.val) (Ring.bk 4 t.val)).1 $$ Hw0
  icases Hsp0 with ⟨Hh0, Hr0⟩
  ihave Hsp1 := (src_split c Wz (Ring.sl 2 (t.val + 1)) (Ring.bk 4 (t.val + 1))).1 $$ Hw1
  icases Hsp1 with ⟨Hh1, Hr1⟩
  obtain rfl := harg2.eq_unread hf0
  obtain rfl := harg3.eq_unread hf1
  obtain rfl := harg4.eq_unread hf2
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact hf3
    iexact H3
  isplitl [Hacc]
  · iexists _; isplitr
    swap; · iexact Hacc
    ipureintro
    sl_unfold_run_names
    rw [slot_read (c := c) (Ring.sl 2 t.val) _ _ _ _ (coff7 t), View.readCov_unit_zero _ hz2, acc_writes']
    simp only [View.readAt_eq_ld, harg2.read_unread, harg3.read_unread, harg4.read_unread, View.ld_unit_zero (S := S1x1x4096) hz3]
    rfl
  isplitl [Hc1]; · iexists _; iexact Hc1
  isplitl [Hr1]; · iexact Hr1
  isplitl [Hc0]; · iexact Hc0
  isplitl [Hs0]; · iexists _; iexact Hs0
  isplitl [Hh0 Hr0]
  · iapply (src_split c Wz (Ring.sl 2 t.val) (Ring.bk 4 t.val)).2; isplitl [Hh0]; · iexact Hh0
    iexact Hr0
  iexact HW

set_option maxHeartbeats 1000000 in
/-- The last step. -/
theorem runC (c : Dev nD) (t : Fin cfg1.N)
    (arg2 : Memref sig .tc .vmem S1x1x4096 .i32) (harg2 : arg2.IsWhole) (arg3 : Memref sig .tc .vmem S1x1x4096 .i32) (harg3 : arg3.IsWhole)
    (arg4 : Memref sig .tc .vmem S1x1x4096 .f32) (harg4 : arg4.IsWhole) (arg5 : Memref sig .tc .vmem S1x1 .f32) (harg5 : arg5.IsWhole)
    (hc1 : ¬cond1 (grid1.coords t)) (hc2 : ¬cond2 (grid1.coords t)) (hc3 : cond3 (grid1.coords t))
    (x0 x1 : Vec F S1x1x4096 .i32) (x2 : Vec F S1x1x4096 .f32) (Wz : ZBuf (F := F) c) (a : Vec F S1x4096 .f32)
    (W : Waits sig Ix) (K : PUnit → sProp 𝕄) :
    iprop(owns (c : Thread nD τ) arg2 fullShare x0 ∗ owns (c : Thread nD τ) arg3 fullShare x1 ∗ owns (c : Thread nD τ) arg4 fullShare x2
          ∗ (∃ d, owns (c : Thread nD τ) arg5 fullShare d) ∗ accP c a
          ∗ (∃ f, flightP c Wz (Ring.sl 2 t.val) (Ring.bk 4 t.val) f) ∗ restP c Wz (Ring.sl 2 t.val) (Ring.bk 4 t.val)
          ∗ owes (c : Thread nD τ) 0 W
          ∗ (iprop(owns (c : Thread nD τ) arg2 fullShare x0 ∗ owns (c : Thread nD τ) arg3 fullShare x1 ∗ owns (c : Thread nD τ) arg4 fullShare x2
              ∗ owns (c : Thread nD τ) arg5 fullShare (k1_pay2 (accStep (zb c Wz (Ring.bk 4 t.val)) x0 x1 x2 a))
              ∗ (∃ g, accP c g)
              ∗ cellP c (Ring.sl 2 t.val) ∗ (∃ f, slotP c (Ring.sl 2 t.val) f) ∗ wholeP c Wz (Ring.sl 2 t.val)
              ∗ owes (c : Thread nD τ) 0 (insert (cellR (Ring.sl 2 t.val), default) W)) -∗ K ⟨⟩))
      ⊢ wp frame (wpE (defs₀ (F := F)) Variants.none c none) Set.univ (cc1__tc_dense_body (grid1.coords t) zM (Memref.isWhole_whole _) arg2 harg2 arg3 harg3 arg4 harg4 arg5 harg5 scM (Memref.isWhole_whole _) accM (Memref.isWhole_whole _) cc1_scratch2) K := by
  haveI : Fact (¬cond1 (grid1.coords t)) := ⟨hc1⟩
  haveI : Fact (¬cond2 (grid1.coords t)) := ⟨hc2⟩
  haveI : Fact (cond3 (grid1.coords t)) := ⟨hc3⟩
  simp only [cc1__tc_dense_body_eq_skeleton]; unfold cc1__tc_dense_body_skel
  unfold owns
  iintro ⟨⟨%f0, %hf0, H0⟩, ⟨%f1, %hf1, H1⟩, ⟨%f2, %hf2, H2⟩, ⟨%d3, %f3, -, H3⟩, Hacc, ⟨%ff, Hfl⟩, Hrf, HW, Hk⟩
  obtain rfl := harg2.eq_unread hf0
  obtain rfl := harg3.eq_unread hf1
  obtain rfl := harg4.eq_unread hf2
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_run_names
    rw [View.read_writes_eq_canon _ _ _ (fun y => ⟨_, List.mem_singleton_self _, View.mem_set_unit_zero hz2 inb_S1x1_S1x1_0_0 y⟩), View.canon_unit_zero hz2]
    rw [View.readCov_unit_zero _ hz2]
    rw [slot_read (c := c) (Ring.sl 2 t.val) _ _ _ _ (coff7 t), acc_readAt]
    simp only [View.readAt_eq_ld, harg2.read_unread, harg3.read_unread, harg4.read_unread, View.ld_unit_zero (S := S1x1x4096) hz3]
    rfl
  isplitl [Hacc]; · iexists _; iexact Hacc
  isplitl [Hfl]; · iexact Hfl
  isplitl [Hfl_dst]; · iexists _; iexact Hfl_dst
  isplitl [Hfl_src Hrf]
  · iapply (src_split c Wz (Ring.sl 2 t.val) (Ring.bk 4 t.val)).2; isplitl [Hfl_src]; · iexact Hfl_src
    iexact Hrf
  iexact HW

end Cert.KernelIdeal.Dense

end
-- ==== Proof.Dense3.lean ====
/-
  The dense region's body obligation: at every step, from the invariant, the core's recorded waits and the windows'
  buffers, the body runs to the invariant at the next step.
-/
import proofs.«202802_g48112223650475_cont_8to1c4_51_21_alg».proof.Proof.Dense2

set_option maxRecDepth 16384

noncomputable section

namespace Cert.KernelIdeal.Dense

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable {Ix : Type} [DecidableEq Ix] [Inhabited Ix] {Name : Type} [DecidableEq Name] [Infinite Name] {U : Type} [URA U] [CountersIn U]
variable {Lvl : Type} [Preorder Lvl]

local notation "𝕄" => MT nD τ sig Ix (Elt F) Name U Lvl

section Body
variable (B : Set (SemLoc sig × Ix)) (hB : ∀ p : SemLoc sig × Ix, p.2 = default → p ∈ B) (ι : Ix) (c : Dev nD)
  (V : (b : Ref sig .tc) → Buf (Elt F) ((c : Thread nD τ).loc b))

/-- The result's window is idle but at the last step, and written back only there. -/
theorem idle3_true : ∀ t : Fin cfg1.N, t.val ≠ 3 → cfg1.idle (3 : Fin 4) (cfg1.grid.coords t) = true :=
  (by decide +kernel : ∀ t : Fin grid1.N, t.val ≠ 3 → idle1 3 (grid1.coords t) = true)
theorem idle3_false : ∀ t : Fin cfg1.N, t.val = 3 → cfg1.idle (3 : Fin 4) (cfg1.grid.coords t) = false :=
  (by decide +kernel : ∀ t : Fin grid1.N, t.val = 3 → idle1 3 (grid1.coords t) = false)
theorem idle3_true' : ∀ t : Fin cfg1.N, t.val ≠ 3 → idle1 3 (grid1.coords t) = true :=
  (by decide +kernel : ∀ t : Fin grid1.N, t.val ≠ 3 → idle1 3 (grid1.coords t) = true)
theorem idle3_false' : ∀ t : Fin cfg1.N, t.val = 3 → idle1 3 (grid1.coords t) = false :=
  (by decide +kernel : ∀ t : Fin grid1.N, t.val = 3 → idle1 3 (grid1.coords t) = false)
theorem flush3_false (t : Fin cfg1.N) (h : t.val ≠ 3) : (cfg1.win (3 : Fin 4)).flush t = false := by
  have hN : t.val < 4 := lt_of_lt_of_eq t.isLt N_1
  cases hf : (cfg1.win (3 : Fin 4)).flush t
  · rfl
  · exact absurd ((flush1_3 t).mp hf) (by omega)

/-- What the body is called with at step `t`, -/
def bodyPre (t : Fin cfg1.N) : sProp 𝕄 :=
  iprop((dat1 (Name := Name) (U := U) (Lvl := Lvl) B c V).Φ t.castSucc ∗ (dat1 (Name := Name) (U := U) (Lvl := Lvl) B c V).owesAt ι t.castSucc
    ∗ (∃ d, owns (c : Thread nD τ) (st1_0 t) fullShare ((dat1 (Name := Name) (U := U) (Lvl := Lvl) B c V).before 0 t d))
    ∗ (∃ d, owns (c : Thread nD τ) (st1_1 t) fullShare ((dat1 (Name := Name) (U := U) (Lvl := Lvl) B c V).before 1 t d))
    ∗ (∃ d, owns (c : Thread nD τ) (st1_2 t) fullShare ((dat1 (Name := Name) (U := U) (Lvl := Lvl) B c V).before 2 t d))
    ∗ (∃ d, owns (c : Thread nD τ) (st1_3 t) fullShare ((dat1 (Name := Name) (U := U) (Lvl := Lvl) B c V).before 3 t d)))
/-- what it returns at a step that leaves the result's buffer alone, -/
def bodyPostIdle (t : Fin cfg1.N) : sProp 𝕄 :=
  iprop((dat1 (Name := Name) (U := U) (Lvl := Lvl) B c V).Φ t.succ ∗ (dat1 (Name := Name) (U := U) (Lvl := Lvl) B c V).owesAt ι t.succ
    ∗ owns (c : Thread nD τ) (st1_0 t) fullShare ((dat1 (Name := Name) (U := U) (Lvl := Lvl) B c V).after 0 t)
    ∗ owns (c : Thread nD τ) (st1_1 t) fullShare ((dat1 (Name := Name) (U := U) (Lvl := Lvl) B c V).after 1 t)
    ∗ owns (c : Thread nD τ) (st1_2 t) fullShare ((dat1 (Name := Name) (U := U) (Lvl := Lvl) B c V).after 2 t)
    ∗ (∃ d, owns (c : Thread nD τ) (st1_3 t) fullShare ((dat1 (Name := Name) (U := U) (Lvl := Lvl) B c V).before 3 t d)))
/-- and at the last. -/
def bodyPostLast (t : Fin cfg1.N) : sProp 𝕄 :=
  iprop((dat1 (Name := Name) (U := U) (Lvl := Lvl) B c V).Φ t.succ ∗ (dat1 (Name := Name) (U := U) (Lvl := Lvl) B c V).owesAt ι t.succ
    ∗ owns (c : Thread nD τ) (st1_0 t) fullShare ((dat1 (Name := Name) (U := U) (Lvl := Lvl) B c V).after 0 t)
    ∗ owns (c : Thread nD τ) (st1_1 t) fullShare ((dat1 (Name := Name) (U := U) (Lvl := Lvl) B c V).after 1 t)
    ∗ owns (c : Thread nD τ) (st1_2 t) fullShare ((dat1 (Name := Name) (U := U) (Lvl := Lvl) B c V).after 2 t)
    ∗ owns (c : Thread nD τ) (st1_3 t) fullShare ((dat1 (Name := Name) (U := U) (Lvl := Lvl) B c V).after 3 t))

include hB in
/-- The wait's pair joins the recorded ones within the bound. -/
theorem bound_insert (t : Fin cfg1.N) (s : Fin 2) (W : Waits sig Ix) (hW : ↑W ⊆ (dat1 (Name := Name) (U := U) (Lvl := Lvl) B c V).bound ι t.castSucc) :
    ↑(insert (cellR s, (default : Ix)) W) ⊆ (dat1 (Name := Name) (U := U) (Lvl := Lvl) B c V).bound ι t.succ := by
  intro p hp
  rw [Finset.coe_insert] at hp
  rcases hp with rfl | hp
  · exact Or.inl (hB _ rfl)
  · exact hW hp

set_option maxHeartbeats 1000000 in
include hB in
/-- A middle step. -/
theorem body_mid (t : Fin cfg1.N) (h1 : 1 ≤ t.val) (h2 : t.val < 3) :
    bodyPre (Name := Name) (U := U) (Lvl := Lvl) B ι c V t ⊢ wp frame (wpE (defs₀ (F := F)) Variants.none c none) Set.univ (bodyAt1 t) (fun _ => bodyPostIdle (Name := Name) (U := U) (Lvl := Lvl) B ι c V t) := by
  have hc1 : ¬cond1 (grid1.coords t) := fun h => by have := (hcond1 t).mp h; omega
  have hc2 : cond2 (grid1.coords t) := (hcond2 t).mpr h2
  have hc3 : ¬cond3 (grid1.coords t) := fun h => by have := (hcond3 t).mp h; omega
  unfold bodyPre bodyPostIdle bodyAt1
  simp only [before_0, before_1, before_2]
  rw [after_0, after_1, after_2, Phi_castSucc, Phi_succ]
  unfold Dat.owesAt Pipeline.owesWithin
  rw [show (dat1 (Name := Name) (U := U) (Lvl := Lvl) B c V).owed t.castSucc = 0 from rfl, show (dat1 (Name := Name) (U := U) (Lvl := Lvl) B c V).owed t.succ = 0 from rfl]
  unfold PhiD
  rw [if_neg (show ¬(t.val = 0 ∨ 4 ≤ t.val) by omega), if_neg (show ¬(t.val + 1 = 0 ∨ 4 ≤ t.val + 1) by omega)]
  unfold PhiMid
  rw [show t.val + 1 + 1 = t.val + 2 from rfl, Ring.sl_add 2 t.val]
  iintro ⟨⟨Hacc, ⟨Hfl, Hrf⟩, ⟨Hc, Hs, Hw⟩, Hoth⟩, ⟨%W, %hW, HW⟩, ⟨%d0, H0⟩, ⟨%d1, H1⟩, ⟨%d2, H2⟩, ⟨%d3, H3⟩⟩
  iapply (runB c t _ _ _ _ _ _ _ _ hc1 hc2 hc3 (iblk c V 0 t) (iblk c V 1 t) (iblk c V 2 t) ((dat1 (Name := Name) (U := U) (Lvl := Lvl) B c V).before 3 t d3) (V main_v0) (accD c V t.val) W _)
  isplitl [H0]; · iexact H0
  isplitl [H1]; · iexact H1
  isplitl [H2]; · iexact H2
  isplitl [H3]; · iexact H3
  isplitl [Hacc]; · iexact Hacc
  isplitl [Hfl]; · iexact Hfl
  isplitl [Hrf]; · iexact Hrf
  isplitl [Hc]; · iexact Hc
  isplitl [Hs]; · iexact Hs
  isplitl [Hw]; · iexact Hw
  isplitl [HW]; · iexact HW
  iintro ⟨H0, H1, H2, H3, ⟨%g, %hg, Hacc⟩, Hfl', Hrf', Hc', Hs', Hw', HW'⟩
  isplitl [Hacc Hfl' Hrf' Hc' Hs' Hw' Hoth]
  · isplitl [Hacc]; · rw [accD_succ c V t, ← hg]; iexact Hacc
    isplitl [Hfl' Hrf']
    · isplitl [Hfl']; · iexact Hfl'
      iexact Hrf'
    isplitl [Hc' Hs' Hw']
    · isplitl [Hc']; · iexact Hc'
      isplitl [Hs']; · iexact Hs'
      iexact Hw'
    iexact Hoth
  isplitl [HW']
  · iexists _; isplitr
    swap; · iexact HW'
    ipureintro; exact bound_insert B hB ι c V t _ W hW
  isplitl [H0]; · iexact H0
  isplitl [H1]; · iexact H1
  isplitl [H2]; · iexact H2
  iexists _; iexact H3

end Body

section Body2
variable (B : Set (SemLoc sig × Ix)) (hB : ∀ p : SemLoc sig × Ix, p.2 = default → p ∈ B) (ι : Ix) (c : Dev nD)
  (V : (b : Ref sig .tc) → Buf (Elt F) ((c : Thread nD τ).loc b))

set_option maxHeartbeats 1000000 in
include hB in
/-- The first step. -/
theorem body_first (t : Fin cfg1.N) (h0 : t.val = 0) :
    bodyPre (Name := Name) (U := U) (Lvl := Lvl) B ι c V t ⊢ wp frame (wpE (defs₀ (F := F)) Variants.none c none) Set.univ (bodyAt1 t) (fun _ => bodyPostIdle (Name := Name) (U := U) (Lvl := Lvl) B ι c V t) := by
  have hc1 : cond1 (grid1.coords t) := (hcond1 t).mpr h0
  have hc2 : cond2 (grid1.coords t) := (hcond2 t).mpr (by omega)
  have hc3 : ¬cond3 (grid1.coords t) := fun h => by have := (hcond3 t).mp h; omega
  have hs0 : Ring.sl 2 t.val = 0 := by rw [h0]; rfl
  have hs1 : Ring.sl 2 (t.val + 1) = 1 := by rw [h0]; rfl
  have ha0 : accD c V t.val = k1_pay3 (F := F) := by rw [h0]; rfl
  unfold bodyPre bodyPostIdle bodyAt1
  simp only [before_0, before_1, before_2]
  rw [after_0, after_1, after_2, Phi_castSucc, Phi_succ]
  unfold Dat.owesAt Pipeline.owesWithin
  rw [show (dat1 (Name := Name) (U := U) (Lvl := Lvl) B c V).owed t.castSucc = 0 from rfl, show (dat1 (Name := Name) (U := U) (Lvl := Lvl) B c V).owed t.succ = 0 from rfl]
  unfold PhiD
  rw [if_pos (show t.val = 0 ∨ 4 ≤ t.val from Or.inl h0), if_neg (show ¬(t.val + 1 = 0 ∨ 4 ≤ t.val + 1) by omega)]
  unfold PhiFree PhiMid
  rw [show t.val + 1 + 1 = t.val + 2 from rfl, Ring.sl_add 2 t.val]
  rw [← hs0, ← hs1]
  iintro ⟨⟨⟨%a0, Hacc⟩, ⟨Hc0, Hs0⟩, ⟨Hc1, Hs1⟩, Hw0, Hw1, Hoth⟩, ⟨%W, %hW, HW⟩, ⟨%d0, H0⟩, ⟨%d1, H1⟩, ⟨%d2, H2⟩, ⟨%d3, H3⟩⟩
  iapply (runA c t _ _ _ _ _ _ _ _ hc1 hc2 hc3 (iblk c V 0 t) (iblk c V 1 t) (iblk c V 2 t) ((dat1 (Name := Name) (U := U) (Lvl := Lvl) B c V).before 3 t d3) (V main_v0) W _)
  isplitl [H0]; · iexact H0
  isplitl [H1]; · iexact H1
  isplitl [H2]; · iexact H2
  isplitl [H3]; · iexact H3
  isplitl [Hacc]; · iexists a0; iexact Hacc
  isplitl [Hc0]; · iexact Hc0
  isplitl [Hs0]; · iexact Hs0
  isplitl [Hw0]; · iexact Hw0
  isplitl [Hc1]; · iexact Hc1
  isplitl [Hs1]; · iexact Hs1
  isplitl [Hw1]; · iexact Hw1
  isplitl [HW]; · iexact HW
  iintro ⟨H0, H1, H2, H3, ⟨%g, %hg, Hacc⟩, Hfl', Hrf', Hc', Hs', Hw', HW'⟩
  isplitl [Hacc Hfl' Hrf' Hc' Hs' Hw' Hoth]
  · isplitl [Hacc]; · rw [accD_succ c V t, ha0, ← hg]; iexact Hacc
    isplitl [Hfl' Hrf']
    · isplitl [Hfl']; · iexact Hfl'
      iexact Hrf'
    isplitl [Hc' Hs' Hw']
    · isplitl [Hc']; · iexact Hc'
      isplitl [Hs']; · iexact Hs'
      iexact Hw'
    iexact Hoth
  isplitl [HW']
  · iexists _; isplitr
    swap; · iexact HW'
    ipureintro; exact bound_insert B hB ι c V t _ W hW
  isplitl [H0]; · iexact H0
  isplitl [H1]; · iexact H1
  isplitl [H2]; · iexact H2
  iexists _; iexact H3

set_option maxHeartbeats 1000000 in
include hB in
/-- The last step. -/
theorem body_last (t : Fin cfg1.N) (h3 : t.val = 3) :
    bodyPre (Name := Name) (U := U) (Lvl := Lvl) B ι c V t ⊢ wp frame (wpE (defs₀ (F := F)) Variants.none c none) Set.univ (bodyAt1 t) (fun _ => bodyPostLast (Name := Name) (U := U) (Lvl := Lvl) B ι c V t) := by
  have hc1 : ¬cond1 (grid1.coords t) := fun h => by have := (hcond1 t).mp h; omega
  have hc2 : ¬cond2 (grid1.coords t) := fun h => by have := (hcond2 t).mp h; omega
  have hc3 : cond3 (grid1.coords t) := (hcond3 t).mpr h3
  have hs1 : Ring.sl 2 t.val = 1 := by rw [h3]; rfl
  have hs0 : Ring.sl 2 (t.val + 1) = 0 := by rw [h3]; rfl
  have h4 : accD c V 4 = accD c V (t.val + 1) := by rw [h3]
  unfold bodyPre bodyPostLast bodyAt1
  simp only [before_0, before_1, before_2]
  rw [after_0, after_1, after_2, after_3, resD_eq, h4, accD_succ c V t, Phi_castSucc, Phi_succ]
  unfold Dat.owesAt Pipeline.owesWithin
  rw [show (dat1 (Name := Name) (U := U) (Lvl := Lvl) B c V).owed t.castSucc = 0 from rfl, show (dat1 (Name := Name) (U := U) (Lvl := Lvl) B c V).owed t.succ = 0 from rfl]
  unfold PhiD
  rw [if_neg (show ¬(t.val = 0 ∨ 4 ≤ t.val) by omega), if_pos (show t.val + 1 = 0 ∨ 4 ≤ t.val + 1 from Or.inr (by omega))]
  unfold PhiFree PhiMid
  rw [← hs1, ← hs0]
  iintro ⟨⟨Hacc, ⟨Hfl, Hrf⟩, ⟨Hc, Hs, Hw⟩, Hoth⟩, ⟨%W, %hW, HW⟩, ⟨%d0, H0⟩, ⟨%d1, H1⟩, ⟨%d2, H2⟩, ⟨%d3, H3⟩⟩
  iapply (runC c t _ _ _ _ _ _ _ _ hc1 hc2 hc3 (iblk c V 0 t) (iblk c V 1 t) (iblk c V 2 t) (V main_v0) (accD c V t.val) W _)
  isplitl [H0]; · iexact H0
  isplitl [H1]; · iexact H1
  isplitl [H2]; · iexact H2
  isplitl [H3]; · iexists _; iexact H3
  isplitl [Hacc]; · iexact Hacc
  isplitl [Hfl]; · iexact Hfl
  isplitl [Hrf]; · iexact Hrf
  isplitl [HW]; · iexact HW
  iintro ⟨H0, H1, H2, H3, Hacc, Hc', Hs', Hw', HW'⟩
  isplitl [Hacc Hc' Hs' Hw' Hc Hs Hw Hoth]
  · isplitl [Hacc]; · iexact Hacc
    isplitl [Hc Hs]
    · isplitl [Hc]; · iexact Hc
      iexact Hs
    isplitl [Hc' Hs']
    · isplitl [Hc']; · iexact Hc'
      iexact Hs'
    isplitl [Hw]; · iexact Hw
    isplitl [Hw']; · iexact Hw'
    iexact Hoth
  isplitl [HW']
  · iexists _; isplitr
    swap; · iexact HW'
    ipureintro; exact bound_insert B hB ι c V t _ W hW
  isplitl [H0]; · iexact H0
  isplitl [H1]; · iexact H1
  isplitl [H2]; · iexact H2
  iexact H3

include hB in
/-- THE BODY OBLIGATION of the dense region, at every step. -/
theorem dense_body : Pipeline.BodyObligationLoose (dat1 (Name := Name) (U := U) (Lvl := Lvl) B c V) (defs₀ (F := F)) Variants.none ι Set.univ := fun t => by
  have hN : t.val < 4 := lt_of_lt_of_eq t.isLt N_1
  rw [bigSep_W1, bigSep_W1]
  by_cases h3 : t.val = 3
  · simp only [idle3_false t h3, idle3_false' t h3]
    exact body_last (Name := Name) (U := U) (Lvl := Lvl) B hB ι c V t h3
  · simp only [idle3_true t h3, idle3_true' t h3, flush3_false t h3]
    by_cases h0 : t.val = 0
    · exact body_first (Name := Name) (U := U) (Lvl := Lvl) B hB ι c V t h0
    · exact body_mid (Name := Name) (U := U) (Lvl := Lvl) B hB ι c V t (by omega) (by omega)

end Body2

end Cert.KernelIdeal.Dense

end
-- ==== Proof.Dense4.lean ====
/-
  The dense region as a whole: what its result array holds at the end, and the region between the thread state that holds
  every unscoped buffer at the entry contents and the one that holds them at the exit contents — the result array at the
  region's result, every other buffer as it was.
-/
import proofs.«202802_g48112223650475_cont_8to1c4_51_21_alg».proof.Proof.Dense3
import Idealize.ShloMosaic.Lib.Pipeline.FrameSuffix

set_option maxRecDepth 16384

noncomputable section

namespace Cert.KernelIdeal.Dense

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable {Ix : Type} [DecidableEq Ix] [Inhabited Ix] {Name : Type} [DecidableEq Name] [Infinite Name] {U : Type} [URA U] [CountersIn U]
variable {Lvl : Type} [Preorder Lvl]

local notation "𝕄" => MT nD τ sig Ix (Elt F) Name U Lvl

/-! ## The arrays at the end -/

section Arrays
variable (B : Set (SemLoc sig × Ix)) (c : Dev nD) (V : (b : Ref sig .tc) → Buf (Elt F) ((c : Thread nD τ).loc b))

/-- The region's one-by-one result as contents of the result array. -/
def v7 : Buf (Elt F) ((c : Thread nD τ).loc main_v7) := resD c V

/-- The one write-back, at the last step, writes it: block (0, 0) of the one-by-one array is the array. -/
theorem flushed3_eq (t : Fin cfg1.N) (hf : (cfg1.win (3 : Fin 4)).flush t = true) :
    (dat1 (Name := Name) (U := U) (Lvl := Lvl) B c V).flushed 3 t = ((cfg1.win (3 : Fin 4)).blk t).view.read (Elt F) (v7 c V) := by
  have h3 : t.val = 3 := by have := (flush1_3 t).mp hf; have := lt_of_lt_of_eq t.isLt N_1; omega
  obtain rfl : t = t1_3 := Fin.ext h3
  show (cfg1.win (3 : Fin 4)).cut (grid1.coords t1_3) ((dat1 (Name := Name) (U := U) (Lvl := Lvl) B c V).after 3 t1_3) = _
  rw [after_3]
  have hz' : (fun a => win1_3.index t1_3 a * main_v7.ty.shape.size a) = fun _ => 0 := funext fun a => by fin_cases a <;> decide
  exact (Memref.read_access_unit_zero (Elt F) main_v7 hz' (fun a => by rw [congrFun hz' a]; simp) (v7 c V)).symm

/-- The result array ends holding the region's result: the last step's block covers it. -/
theorem dat1_arrAt3 : (dat1 (Name := Name) (U := U) (Lvl := Lvl) B c V).arrAt 3 cfg1.N = v7 c V :=
  (dat1 (Name := Name) (U := U) (Lvl := Lvl) B c V).arrAt_eq_of_cover 3 (v7 c V) (flushed3_eq B c V) fun i =>
    ⟨t1_3, (flush1_3 t1_3).mpr rfl, by
      show i ∈ ((View.whole main_v7).slice (win1_3.rect t1_3)).set
      rw [View.set_slice_whole, Rect.mem_set_unit]
      intro a
      have h0 : (i 0 : Nat) < 1 := (i 0).isLt
      have h1 : (i 1 : Nat) < 1 := (i 1).isLt
      match a with
      | ⟨0, _⟩ => show win1_3.index t1_3 0 * win1_3.size 0 ≤ (i 0 : Nat) ∧ (i 0 : Nat) < win1_3.index t1_3 0 * win1_3.size 0 + win1_3.xsize (grid1.coords t1_3) 0
                  rw [show win1_3.index t1_3 0 * win1_3.size 0 = 0 from by decide +kernel, show win1_3.xsize (grid1.coords t1_3) 0 = 1 from by decide +kernel]; omega
      | ⟨1, _⟩ => show win1_3.index t1_3 1 * win1_3.size 1 ≤ (i 1 : Nat) ∧ (i 1 : Nat) < win1_3.index t1_3 1 * win1_3.size 1 + win1_3.xsize (grid1.coords t1_3) 1
                  rw [show win1_3.index t1_3 1 * win1_3.size 1 = 0 from by decide +kernel, show win1_3.xsize (grid1.coords t1_3) 1 = 1 from by decide +kernel]; omega⟩

/-- The input arrays end as they were. -/
theorem dat1_arrAt0 : (dat1 (Name := Name) (U := U) (Lvl := Lvl) B c V).arrAt 0 cfg1.N = V main_v3 :=
  ((dat1 (Name := Name) (U := U) (Lvl := Lvl) B c V).arrAt_in 0 rfl _).trans (A_eq B c V 0)
theorem dat1_arrAt1 : (dat1 (Name := Name) (U := U) (Lvl := Lvl) B c V).arrAt 1 cfg1.N = V main_v4 :=
  ((dat1 (Name := Name) (U := U) (Lvl := Lvl) B c V).arrAt_in 1 rfl _).trans (A_eq B c V 1)
theorem dat1_arrAt2 : (dat1 (Name := Name) (U := U) (Lvl := Lvl) B c V).arrAt 2 cfg1.N = V main_v5 :=
  ((dat1 (Name := Name) (U := U) (Lvl := Lvl) B c V).arrAt_in 2 rfl _).trans (A_eq B c V 2)

end Arrays

/-! ## Into the invariant and out of it -/

section InOut
variable (c : Dev nD)

/-- The slots' element sets: disjoint, and together the whole buffer. -/
abbrev slotSet (s : Fin 2) : Finset S2x936x4096.Idx := (Rect.unit (s := S2x936x4096) ![s.val, 0, 0] S1x936x4096.size (inb_slot s)).set
theorem slotSet_eq (s : Fin 2) : (rslot s).view.set = slotSet s := by
  simp only [rslot, Memref.view_squeeze, View.set_reshape]; exact View.set_slice_whole _ _
theorem slots_disjoint (s s' : Fin 2) (h : s ≠ s') : Disjoint (slotSet s) (slotSet s') :=
  Ring.lead_disjoint (s := S2x936x4096) (0 : Fin 3) 1 (fun s : Fin 2 => (![s.val, 0, 0] : Fin 3 → Nat)) S1x936x4096.size inb_slot (fun s => by simp) rfl s s' h
theorem slots_cover : Finset.univ.biUnion slotSet = Finset.univ :=
  Ring.lead_cover (s := S2x936x4096) (0 : Fin 3) 1 (fun s : Fin 2 => (![s.val, 0, 0] : Fin 3 → Nat)) S1x936x4096.size inb_slot (fun s => by simp)
    (fun s a ha => by fin_cases a <;> first | exact absurd rfl ha | rfl) rfl (fun a ha => by fin_cases a <;> first | exact absurd rfl ha | rfl) rfl

theorem slotP_eq (s : Fin 2) (f) : slotP (F := F) (Ix := Ix) (Name := Name) (U := U) (Lvl := Lvl) c s f = (((c : Thread nD τ).loc cc1_scratch0) ↦[slotSet s]{fullShare} f : sProp 𝕄) := by
  unfold slotP; rw [slotSet_eq]; rfl

set_option maxHeartbeats 1000000 in
/-- The buffer whole at anything is its two slots at something each, and back. -/
theorem slots_in : iprop(∃ f : Buf (Elt F) ((c : Thread nD τ).loc cc1_scratch0), ((c : Thread nD τ).loc cc1_scratch0) ↦{fullShare} f)
    ⊢ (iprop((∃ f, slotP (F := F) c 0 f) ∗ ∃ f, slotP (F := F) c 1 f) : sProp 𝕄) :=
  Ring.slots2_split (U := U) (ℓ := (c : Thread nD τ).loc cc1_scratch0) (q := fullShare) slotSet slots_disjoint slots_cover
    (slotP c 0) (slotP c 1) (slotP_eq c 0) (slotP_eq c 1)
set_option maxHeartbeats 1000000 in
theorem slots_out : (iprop((∃ f, slotP (F := F) c 0 f) ∗ ∃ f, slotP (F := F) c 1 f) : sProp 𝕄)
    ⊢ iprop(∃ f : Buf (Elt F) ((c : Thread nD τ).loc cc1_scratch0), ((c : Thread nD τ).loc cc1_scratch0) ↦{fullShare} f) :=
  Ring.slots2_join (U := U) (ℓ := (c : Thread nD τ).loc cc1_scratch0) (q := fullShare) slotSet slots_disjoint slots_cover
    (slotP c 0) (slotP c 1) (slotP_eq c 0) (slotP_eq c 1)

/-- The matrix whole at the full share is the two half shares. -/
theorem whole_split (Wz : ZBuf (F := F) c) : ((((c : Thread nD τ).loc main_v0) ↦{fullShare} Wz) : sProp 𝕄) ⊣⊢ iprop(wholeP c Wz 0 ∗ wholeP c Wz 1) :=
  pointsTo_share (PosShare.mem_left_op_right fullShare)

/-- The running row's buffer whole at anything. -/
theorem accP_eq (a : Vec F S1x4096 .f32) : (accP (F := F) (Ix := Ix) (Name := Name) (U := U) (Lvl := Lvl) c a : sProp 𝕄) = (((c : Thread nD τ).loc cc1_scratch1) ↦{fullShare} a) := by
  unfold accP; simp only [Memref.view_whole, View.set_whole]

/-- The body's own counters, listed. -/
abbrev osem : Fin 2 → SemLoc sig := fun j => (![SemLoc.dma 13, SemLoc.dma 14] : Fin 2 → SemLoc sig) j
theorem ownSemFacts : Pipeline.OwnSemFacts spec1 osem := by decide
theorem ownSems0_eq :
    (Pipeline.ownSems0 (Ix := Ix) (Name := Name) (U := U) (Lvl := Lvl) (Val := Elt F) (τ := τ) osem c : sProp 𝕄)
      = iprop(semVal ((c : Thread nD τ), SemLoc.dma 13) 0 ∗ semVal ((c : Thread nD τ), SemLoc.dma 14) 0) := by
  rw [Pipeline.ownSems0_eq_of_list c osem [0, 1] (by decide) (by decide)]; rfl
omit [FloatOps F] in
theorem cellP_0 : cellP (F := F) (Ix := Ix) (Name := Name) (U := U) (Lvl := Lvl) c 0 = semVal ((c : Thread nD τ), SemLoc.dma 13) 0 :=
  congrArg (fun x => (semVal ((c : Thread nD τ), x) 0 : sProp 𝕄)) cellR_0
omit [FloatOps F] in
theorem cellP_1 : cellP (F := F) (Ix := Ix) (Name := Name) (U := U) (Lvl := Lvl) c 1 = semVal ((c : Thread nD τ), SemLoc.dma 14) 0 :=
  congrArg (fun x => (semVal ((c : Thread nD τ), x) 0 : sProp 𝕄)) cellR_1

/-- INTO THE INVARIANT: the scoped buffers no window stages, the counters at zero and the matrix whole are the invariant
    before the first step; -/
theorem phi_in (Wz : ZBuf (F := F) c) (acc : ℕ → Vec F S1x4096 .f32) :
    iprop(Pipeline.scopedRest (Ix := Ix) (Name := Name) (U := U) (Lvl := Lvl) (Val := Elt F) spec1 c
        ∗ (semVal ((c : Thread nD τ), SemLoc.dma 13) 0 ∗ semVal ((c : Thread nD τ), SemLoc.dma 14) 0)
        ∗ (((c : Thread nD τ).loc main_v0) ↦{fullShare} Wz))
      ⊢ (PhiD c Wz acc 0 : sProp 𝕄) := by
  unfold PhiD; rw [if_pos (Or.inl rfl)]; unfold PhiFree
  rw [scopedRest1_eq, cellP_0, cellP_1]
  iintro ⟨⟨Hsc, ⟨%a, Hacc⟩, Ho0, Ho1, Ho2⟩, ⟨Hc0, Hc1⟩, Hz⟩
  ihave Hs := (slots_in (F := F) c) $$ Hsc
  icases Hs with ⟨Hs0, Hs1⟩
  ihave Hw := (whole_split (F := F) c Wz).1 $$ Hz
  icases Hw with ⟨Hw0, Hw1⟩
  isplitl [Hacc]
  · iexists a; rw [accP_eq]; iexact Hacc
  isplitl [Hc0 Hs0]
  · isplitl [Hc0]
    · iexact Hc0
    · iexact Hs0
  isplitl [Hc1 Hs1]
  · isplitl [Hc1]
    · iexact Hc1
    · iexact Hs1
  isplitl [Hw0]; · iexact Hw0
  isplitl [Hw1]; · iexact Hw1
  isplitl [Ho0]; · iexact Ho0
  isplitl [Ho1]; · iexact Ho1
  iexact Ho2

/-- OUT OF IT: after the last step those pieces again. -/
theorem phi_out (Wz : ZBuf (F := F) c) (acc : ℕ → Vec F S1x4096 .f32) :
    (PhiD c Wz acc 4 : sProp 𝕄)
      ⊢ iprop(Pipeline.scopedRest (Ix := Ix) (Name := Name) (U := U) (Lvl := Lvl) (Val := Elt F) spec1 c
        ∗ (semVal ((c : Thread nD τ), SemLoc.dma 13) 0 ∗ semVal ((c : Thread nD τ), SemLoc.dma 14) 0)
        ∗ (((c : Thread nD τ).loc main_v0) ↦{fullShare} Wz)) := by
  unfold PhiD; rw [if_pos (Or.inr (Nat.le_refl 4))]; unfold PhiFree
  rw [scopedRest1_eq, cellP_0, cellP_1]
  iintro ⟨⟨%a, Hacc⟩, ⟨Hc0, Hs0⟩, ⟨Hc1, Hs1⟩, Hw0, Hw1, Ho0, Ho1, Ho2⟩
  isplitl [Hacc Hs0 Hs1 Ho0 Ho1 Ho2]
  · isplitl [Hs0 Hs1]
    · iapply (slots_out (F := F) c)
      isplitl [Hs0]
      · iexact Hs0
      · iexact Hs1
    isplitl [Hacc]
    · iexists a; rw [← accP_eq]; iexact Hacc
    isplitl [Ho0]
    · iexact Ho0
    isplitl [Ho1]
    · iexact Ho1
    iexact Ho2
  isplitl [Hc0 Hc1]
  · isplitl [Hc0]
    · iexact Hc0
    · iexact Hc1
  iapply (whole_split (F := F) c Wz).2
  isplitl [Hw0]
  · iexact Hw0
  · iexact Hw1

end InOut

/-! ## The region -/

section Region

/-- No pipeline has a prefetched table. -/
abbrev adm : (p : Fin 2) → (pcfgs (F := F) p).Adm := fun p => (cfgs p).toPCfg_adm

variable (d1 : (c : Dev nD) → Dat τ (Elt F) Ix Name U Lvl (Pipeline.pin (pcfgs (F := F)) adm 1) c)
  (V : (c : Dev nD) → (b : Ref sig .tc) → Buf (Elt F) ((c : Thread nD τ).loc b))
  (B : Dev nD → Set (SemLoc sig × Ix)) (hB : ∀ d p, p.2 = (default : Ix) → p ∈ B d)
  (L : GSem nD τ sig → Finset Ix) (lv : GSem nD τ sig → Ix → Lvl)

/-- The proof data family the region is stated over: this region's at the entry contents, the other pipeline's a parameter. -/
def pdats : (p : Fin 2) → (c : Dev nD) → Dat τ (Elt F) Ix Name U Lvl (Pipeline.pin (pcfgs (F := F)) adm p) c
  | ⟨0, _⟩ => fun c => dat1 (B c) c (V c)
  | ⟨1, _⟩ => d1

/-- The buffer contents at the region's exit: the result array at the region's result, every other buffer as entered. -/
abbrev Vout (c : Dev nD) : (b : Ref sig .tc) → Buf (Elt F) ((c : Thread nD τ).loc b) := Function.update (V c) main_v7 (v7 c (V c))

theorem hF (c : Dev nD) : ∀ w : Fin cfg1.W, (dat1 (Name := Name) (U := U) (Lvl := Lvl) (B c) c (V c)).arrAt w cfg1.N = Vout V c (Pipeline.arrRef spec1 w)
  | ⟨0, _⟩ => (dat1_arrAt0 (B c) c (V c)).trans (show V c main_v3 = Function.update (V c) main_v7 (v7 c (V c)) main_v3 from (Function.update_of_ne (by decide) _ _).symm)
  | ⟨1, _⟩ => (dat1_arrAt1 (B c) c (V c)).trans (show V c main_v4 = Function.update (V c) main_v7 (v7 c (V c)) main_v4 from (Function.update_of_ne (by decide) _ _).symm)
  | ⟨2, _⟩ => (dat1_arrAt2 (B c) c (V c)).trans (show V c main_v5 = Function.update (V c) main_v7 (v7 c (V c)) main_v5 from (Function.update_of_ne (by decide) _ _).symm)
  | ⟨3, _⟩ => (dat1_arrAt3 (B c) c (V c)).trans (show v7 c (V c) = Function.update (V c) main_v7 (v7 c (V c)) main_v7 from by rw [Function.update_self])
theorem hrest (c : Dev nD) : ∀ b, b ∉ Finset.univ.image (Pipeline.arrRef spec1) → Vout V c b = V c b := fun b hb =>
  Function.update_of_ne (fun e => hb (Finset.mem_image.mpr ⟨3, Finset.mem_univ _, e.symm⟩)) _ _

/-- The unscoped buffers that bypass the region: every one that is no window's array, but the matrix. -/
abbrev restZ (c : Dev nD) : sProp 𝕄 :=
  iprop((((c : Thread nD τ).loc main_arg0) ↦{fullShare} V c main_arg0) ∗ (((c : Thread nD τ).loc main_arg1) ↦{fullShare} V c main_arg1)
    ∗ (((c : Thread nD τ).loc main_arg2) ↦{fullShare} V c main_arg2) ∗ (((c : Thread nD τ).loc main_arg3) ↦{fullShare} V c main_arg3)
    ∗ (((c : Thread nD τ).loc main_v1) ↦{fullShare} V c main_v1) ∗ (((c : Thread nD τ).loc main_v2) ↦{fullShare} V c main_v2)
    ∗ (((c : Thread nD τ).loc main_v6) ↦{fullShare} V c main_v6) ∗ (((c : Thread nD τ).loc main_v8) ↦{fullShare} V c main_v8)
    ∗ (((c : Thread nD τ).loc main_v9) ↦{fullShare} V c main_v9))

set_option backward.isDefEq.respectTransparency.types false in
set_option maxHeartbeats 1000000 in
include hB in
/-- THE DENSE REGION over the thread state "every unscoped buffer at a valuation, the core's recorded waits within `B`":
    entered at `V`, left at `V` updated at the result array by the region's result. The windows' arrays are split out of
    the unscoped buffers and put back; the matrix and the body's two counters enter the invariant and come back; the other
    unscoped buffers bypass the region. -/
def regDense : Pipeline.RegionSeg (pcfgs (F := F)) adm (pdats d1 V B) (default : Ix) defs₀ Variants.none L lv 0 where
  win := launch1.win.to₀
  block_pos := launch1.block_pos
  stage_whole := launch1.stage_whole
  K := Fin 2
  osem := osem
  ho := ownSemFacts
  hbody c := dense_body (B c) (hB c) default c (V c)
  hwaits := Pipeline.hwaits_of_owed_zero _ _ _ _ L lv 0 fun _ _ => rfl
  pre c := iprop(unscopedBufs c (V c) ∗ Pipeline.owesWithin (c : Dev nD) (0 : CellTallies nD τ sig Ix) (B c))
  post c := iprop(unscopedBufs c (Vout V c) ∗ Pipeline.owesWithin (c : Dev nD) (0 : CellTallies nD τ sig Ix) (B c))
  X c := iprop(Pipeline.ownSems0 osem c ∗ (((c : Thread nD τ).loc main_v0) ↦{fullShare} V c main_v0))
  Y c := (((c : Thread nD τ).loc main_v0) ↦{fullShare} V c main_v0)
  Z c := restZ V c
  hentry c := by
    have hsplit := Pipeline.arrays_of_unscopedBufs (p := 0) (pcfgs (F := F)) adm (pdats d1 V B) launch1.win launch1.arr_whole c
      ((pdats d1 V B 0 c).share_full fun _ => rfl) (V c) fun _ => rfl
    rw [show (Pipeline.unscopedRest (Pipeline.pin (pcfgs (F := F)) adm 0).spec c (V c) : sProp 𝕄) = _ from unscopedRest1_eq c (V c)] at hsplit
    iintro ⟨⟨Hub, HO⟩, Hsem, -⟩
    ihave H := hsplit $$ Hub
    icases H with ⟨Ha, Ha0, Ha1, Ha2, Ha3, Hv0, Hv1, Hv2, Hv6, Hv8, Hv9⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono c 0 (fun p hp => Or.inl hp)); iexact HO
    isplitl [Hsem Hv0]
    · isplitl [Hsem]; · iexact Hsem
      iexact Hv0
    isplitl [Ha0]; · iexact Ha0
    isplitl [Ha1]; · iexact Ha1
    isplitl [Ha2]; · iexact Ha2
    isplitl [Ha3]; · iexact Ha3
    isplitl [Hv1]; · iexact Hv1
    isplitl [Hv2]; · iexact Hv2
    isplitl [Hv6]; · iexact Hv6
    isplitl [Hv8]; · iexact Hv8
    iexact Hv9
  hin c := by
    rw [show (pdats d1 V B 0 c).Φ 0 = PhiD c (V c main_v0) (accD c (V c)) 0 from rfl, ownSems0_eq]
    iintro ⟨⟨Hsem, Hz⟩, -, Hr⟩
    iapply (phi_in c (V c main_v0) (accD c (V c)))
    isplitl [Hr]; · iexact Hr
    isplitl [Hsem]; · iexact Hsem
    iexact Hz
  hout c := by
    rw [show (pdats d1 V B 0 c).Φ (Fin.last _) = PhiD c (V c main_v0) (accD c (V c)) grid1.N from rfl, ownSems0_eq, show grid1.N = 4 from N_1]
    iintro H
    ihave H' := (phi_out c (V c main_v0) (accD c (V c))) $$ H
    icases H' with ⟨Hr, Hsem, Hz⟩
    isplitl [Hz]; · iexact Hz
    isplitl [Hsem]; · iexact Hsem
    iexact Hr
  hexit c := by
    have hjoin := Pipeline.unscopedBufs_of_arrays (p := 0) (pcfgs (F := F)) adm (Ix := Ix) (Name := Name) (U := U) (Lvl := Lvl)
      launch1.win launch1.arr_whole c (pdats d1 V B) ((pdats d1 V B 0 c).share_full fun _ => rfl)
      (V c) (Vout V c) ((pdats d1 V B 0 c).arrAt · cfg1.N) (hF V B c) (hrest V c)
    rw [show (Pipeline.unscopedRest (Pipeline.pin (pcfgs (F := F)) adm 0).spec c (V c) : sProp 𝕄) = _ from unscopedRest1_eq c (V c)] at hjoin
    iintro ⟨Ha, HO, Hv0, Ha0, Ha1, Ha2, Ha3, Hv1, Hv2, Hv6, Hv8, Hv9⟩
    imodintro
    isplitl [Ha Hv0 Ha0 Ha1 Ha2 Ha3 Hv1 Hv2 Hv6 Hv8 Hv9]
    · iapply hjoin
      isplitl [Ha]; · iexact Ha
      isplitl [Ha0]; · iexact Ha0
      isplitl [Ha1]; · iexact Ha1
      isplitl [Ha2]; · iexact Ha2
      isplitl [Ha3]; · iexact Ha3
      isplitl [Hv0]; · iexact Hv0
      isplitl [Hv1]; · iexact Hv1
      isplitl [Hv2]; · iexact Hv2
      isplitl [Hv6]; · iexact Hv6
      isplitl [Hv8]; · iexact Hv8
      iexact Hv9
    unfold Pipeline.Dat.owesAt Pipeline.owesWithin
    icases HO with ⟨%W, %hW, HO⟩
    iexists W; isplitr
    · ipureintro
      exact fun p hp => (hW hp).elim id (fun ⟨w, s, e⟩ => hB c p (by rw [e]))
    iexact HO

end Region

end Cert.KernelIdeal.Dense

end
-- ==== Proof.ScBody1.lean ====
/-
  What one worker of the streaming part computes, as a pure term of the arrays it reads, for any float instance.

  Worker `w = 16 c + s` (core `c`, subcore `s`) owns the 512 samples `512 w .. 512 w + 511`.  It visits them in 32 groups
  `g` of 16 lanes.  For the sample at lane `t` of group `g` it reads two 16-wide pieces of the transposed matrix, the one at
  the row its first label names and the one at the row its second label names, both at the group's 16 columns; a label is
  honoured only when the sample's mask word is not zero and the label is below 64, and otherwise the piece read is sixteen
  zeros.  The running 16-lane sum gains lane `t` of the first piece and loses lane `t` of the second.  After the 32 groups
  the sum is row `w` of the 32 by 16 result.
-/
import proofs.«202802_g48112223650475_cont_8to1c4_51_21_alg».proof.Proof.Gen.KernelIdeal.Skeleton
import Idealize.ShloMosaic.Lib.ValueIdx

noncomputable section

namespace Cert.KernelIdeal.ScBody

open Idealize.ShloMosaic Idealize.ShloMosaic.ValueIdx Cert.KernelIdeal Cert.KernelIdeal.Gen

variable {F : FTy → Type} [FloatOps F]

/-- The worker number of a place of the grid: sixteen workers to a core. -/
def wid (L : grid0.Coords) : Nat := 16 * (L 0).val + (L 1).val

theorem wid_lt (L : grid0.Coords) : wid L < 32 := by
  have h0 : (L 0).val < 2 := (L 0).isLt
  have h1 : (L 1).val < 16 := (L 1).isLt
  unfold wid; omega

/-- The sample at lane `t` of group `g` of worker `L`. -/
theorem row_lt (L : grid0.Coords) (g : Fin 32) (t : Nat) (ht : t < 16) : 512 * wid L + 16 * g.val + t < 16384 := by
  have := wid_lt L; omega

/-- The sixteen words of a sample vector that group `g` of worker `L` loads. -/
def ldVec (v : S16384.Idx → BitVec 32) (L : grid0.Coords) (g : Fin 32) : Vec F S16 .i32 :=
  fun j => v (ix1 ⟨512 * wid L + 16 * g.val + (j 0).val, row_lt L g _ (j 0).isLt⟩)

/-- The zero a redirected read finds. -/
def zeroE : Elt F .f32 := (Scalar.ofBits .f32 0x00000000#32 : F .f32)

/-- The piece of the transposed matrix read for a label `lab` under the mask word `msk` in group `g`: the label's row at the
    group's sixteen columns when the mask word is not zero and the label is below 64, sixteen zeros otherwise. -/
def chunk (zt : S1000x16384.Idx → Elt F .f32) (L : grid0.Coords) (g : Fin 32) (lab msk : BitVec 32) : Vec F S1x16 .f32 :=
  fun j =>
    if h : msk ≠ 0#32 ∧ lab.toNat < 64 then
      zt (ix2 ⟨lab.toNat, by omega⟩ ⟨512 * wid L + 16 * g.val + (j 1).val, row_lt L g _ (idx2_lt1 j)⟩)
    else zeroE

/-- One group's update of the running sum, from the three loaded word vectors and the thirty-two pieces read: the
    program's own arithmetic, lane by lane. -/
def tripPay (v149 v152 v155 : Vec F S16 .i32) (P N : Fin 16 → Vec F S1x16 .f32) (acc : FVec F S16 .f32) : FVec F S16 .f32 :=
  let v132 : IVec S16 32 := iota .scVector S16 32 [0] iota_S16_d0_w32_scVector
  let v232 := k0_pay14 v132 acc (k0_pay7 (P 0)) (k0_pay8 (N 0)) (k0_pay9 v132) (k0_pay10 (F := F)) (P 1) (N 1)
  let v270 := k0_pay18 v132 v232 (P 2) (N 2)
  let v308 := k0_pay22 v132 v270 (P 3) (N 3)
  let v346 := k0_pay26 v132 v308 (P 4) (N 4)
  let v384 := k0_pay30 v132 v346 (P 5) (N 5)
  let v422 := k0_pay34 v132 v384 (P 6) (N 6)
  let v460 := k0_pay38 v132 v422 (P 7) (N 7)
  let v498 := k0_pay42 v132 v460 (P 8) (N 8)
  let v536 := k0_pay47 v132 v498 (k0_pay46 (P 9)) (N 9)
  let v612 := k0_pay58 v132 v536 (k0_pay51 (P 10)) (k0_pay52 (N 10)) (k0_pay53 v132) (k0_pay54 (F := F)) (P 11) (N 11)
  let v650 := k0_pay62 v132 v612 (P 12) (N 12)
  let v688 := k0_pay66 v132 v650 (P 13) (N 13)
  let v726 := k0_pay70 v132 v688 (P 14) (N 14)
  k0_pay108 v726 (P 15) (N 15)

/-- Group `g`'s update at worker `L`, from the arrays. -/
def tripVal (zt : S1000x16384.Idx → Elt F .f32) (l lp cnd : S16384.Idx → BitVec 32) (L : grid0.Coords) (g : Fin 32)
    (acc : FVec F S16 .f32) : FVec F S16 .f32 :=
  tripPay (F := F) (ldVec (F := F) l L g) (ldVec (F := F) lp L g) (ldVec (F := F) cnd L g)
    (fun t => chunk zt L g (ldVec (F := F) l L g (ix1 t)) (ldVec (F := F) cnd L g (ix1 t)))
    (fun t => chunk zt L g (ldVec (F := F) lp L g (ix1 t)) (ldVec (F := F) cnd L g (ix1 t))) acc

/-- The running sum after the first `k` groups: zero, then one group at a time. -/
def accAt (zt : S1000x16384.Idx → Elt F .f32) (l lp cnd : S16384.Idx → BitVec 32) (L : grid0.Coords) : Nat → FVec F S16 .f32
  | 0 => k0_pay107 (F := F)
  | k + 1 => if h : k < 32 then tripVal zt l lp cnd L ⟨k, h⟩ (accAt zt l lp cnd L k) else accAt zt l lp cnd L k

/-- What row `wid L` of the 32 by 16 result ends at: the running sum after all 32 groups, at the column. -/
def scRow (zt : S1000x16384.Idx → Elt F .f32) (l lp cnd : S16384.Idx → BitVec 32) (L : grid0.Coords) : S32x16.Idx → Elt F .f32 :=
  fun ix => k0_pay109 (accAt zt l lp cnd L 32) (ix1 (ix 1))

end Cert.KernelIdeal.ScBody

end
-- ==== Proof.ScBody2.lean ====
/-
  One trip of the tile's loop.  In trip g the tile reads 16 labels, 16 second labels and 16 mask words at offset 16 g; for
  each lane t it reads two rows of 16 lanes out of its slab — the row the label names when the label lies below 64 and the
  mask word is set, the row of zeros otherwise — and adds to the running 16-lane sum the first row's lane t minus the second
  row's lane t.  The trip's effect on the running sum is one pure function of what the trip reads; the rows it reads lie
  inside the slab whichever way the selection falls.
-/
import proofs.«202802_g48112223650475_cont_8to1c4_51_21_alg».proof.Proof.ScBody1
import Idealize.ShloMosaic.Lib.SparseCore.Launch
import Idealize.ShloMosaic.Lib.Tactic

noncomputable section

namespace Cert.KernelIdeal.ScBody

open Idealize.ShloMosaic Idealize.ShloMosaic.ValueIdx Cert.KernelIdeal Cert.KernelIdeal.Gen
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] {Name : Type} [DecidableEq Name] {U : Type} [URA U] [CountersIn U]

local notation "𝕄" => MT nD τ sig (SparseCore.Cfg.HIx 1) (Elt F) Name U ℕ

/-- The vector subcore a place of the grid names. -/
abbrev thr (d : Dev nD) (L : grid0.Coords) : Thread nD τ := SparseCore.V d ((L 0).castLE hcore0) ((L 1).castLE hsub0)

local notation "zW" => (Memref.whole Cert.KernelIdeal.main_v0_scv : Memref Cert.KernelIdeal.sig Kind.scVector Space.hbm Cert.KernelIdeal.S1000x16384 EltTy.f32)
local notation "lW" => (Memref.whole Cert.KernelIdeal.main_arg2_scv : Memref Cert.KernelIdeal.sig Kind.scVector Space.hbm Cert.KernelIdeal.S16384 EltTy.i32)
local notation "pW" => (Memref.whole Cert.KernelIdeal.main_arg3_scv : Memref Cert.KernelIdeal.sig Kind.scVector Space.hbm Cert.KernelIdeal.S16384 EltTy.i32)
local notation "cW" => (Memref.whole Cert.KernelIdeal.main_v1_scv : Memref Cert.KernelIdeal.sig Kind.scVector Space.hbm Cert.KernelIdeal.S16384 EltTy.i32)
local notation "oW" => (Memref.whole Cert.KernelIdeal.main_v6_scv : Memref Cert.KernelIdeal.sig Kind.scVector Space.hbm Cert.KernelIdeal.S32x16 EltTy.f32)
local notation "s0" => (Memref.whole Cert.KernelIdeal.cc0_scratch0 : Memref Cert.KernelIdeal.sig Kind.scVector Space.vmem Cert.KernelIdeal.S512 EltTy.i32)
local notation "s1" => (Memref.whole Cert.KernelIdeal.cc0_scratch1 : Memref Cert.KernelIdeal.sig Kind.scVector Space.vmem Cert.KernelIdeal.S512 EltTy.i32)
local notation "s2" => (Memref.whole Cert.KernelIdeal.cc0_scratch2 : Memref Cert.KernelIdeal.sig Kind.scVector Space.vmem Cert.KernelIdeal.S512 EltTy.i32)
local notation "s3" => (Memref.whole Cert.KernelIdeal.cc0_scratch3 : Memref Cert.KernelIdeal.sig Kind.scVector Space.vmem Cert.KernelIdeal.S136x512 EltTy.f32)
local notation "s4" => (Memref.whole Cert.KernelIdeal.cc0_scratch4 : Memref Cert.KernelIdeal.sig Kind.scVector Space.vmem Cert.KernelIdeal.S16 EltTy.f32)

/-! ## One group of sixteen samples -/

/-- Lane `t` of a loaded word vector, spelt as the program extracts it. -/
def laneW (t : Fin 16) (v : Vec F S16 .i32) : BitVec 32 :=
  match t with
  | ⟨0, _⟩ => extractAt ![0] (k0_pay4 v) inpos_S1_p0
  | ⟨1, _⟩ => extractAt ![0] (k0_pay11 (k0_pay1 v)) inpos_S1_p0
  | ⟨2, _⟩ => extractAt ![0] (k0_pay15 (k0_pay1 v)) inpos_S1_p0
  | ⟨3, _⟩ => extractAt ![0] (k0_pay19 (k0_pay1 v)) inpos_S1_p0
  | ⟨4, _⟩ => extractAt ![0] (k0_pay23 (k0_pay1 v)) inpos_S1_p0
  | ⟨5, _⟩ => extractAt ![0] (k0_pay27 (k0_pay1 v)) inpos_S1_p0
  | ⟨6, _⟩ => extractAt ![0] (k0_pay31 (k0_pay1 v)) inpos_S1_p0
  | ⟨7, _⟩ => extractAt ![0] (k0_pay35 (k0_pay1 v)) inpos_S1_p0
  | ⟨8, _⟩ => extractAt ![0] (k0_pay39 (k0_pay1 v)) inpos_S1_p0
  | ⟨9, _⟩ => extractAt ![0] (k0_pay43 (k0_pay1 v)) inpos_S1_p0
  | ⟨10, _⟩ => extractAt ![0] (k0_pay48 (k0_pay1 v)) inpos_S1_p0
  | ⟨11, _⟩ => extractAt ![0] (k0_pay55 (k0_pay1 v)) inpos_S1_p0
  | ⟨12, _⟩ => extractAt ![0] (k0_pay59 (k0_pay1 v)) inpos_S1_p0
  | ⟨13, _⟩ => extractAt ![0] (k0_pay63 (k0_pay1 v)) inpos_S1_p0
  | ⟨14, _⟩ => extractAt ![0] (k0_pay67 (k0_pay1 v)) inpos_S1_p0
  | ⟨15, _⟩ => extractAt ![0] (k0_pay71 (k0_pay1 v)) inpos_S1_p0
  | ⟨_ + 16, h⟩ => absurd h (by omega)

theorem laneW_eq (t : Fin 16) (v : Vec F S16 .i32) : laneW (F := F) t v = v (ix1 t) := by
  fin_cases t <;> (show v _ = v _; congr 1; funext a; fin_cases a; rfl)

/-- What group `k` loads from the three word scratches and the matrix scratch. -/
def ldA7 (d : Dev nD) (L : grid0.Coords) (A : Buf (Elt F) ((thr d L).loc cc0_scratch0)) (k : Fin k0_t1_loop.trips) : Vec F S16 .i32 :=
  (s0).view.readAt (Elt F) (Rect.unit (s := S512) (k0_off3 k) S16.size (k0_off3_inb k)).toLoadRect A
def ldA8 (d : Dev nD) (L : grid0.Coords) (A : Buf (Elt F) ((thr d L).loc cc0_scratch1)) (k : Fin k0_t1_loop.trips) : Vec F S16 .i32 :=
  (s1).view.readAt (Elt F) (Rect.unit (s := S512) (k0_off3 k) S16.size (k0_off3_inb k)).toLoadRect A
def ldA9 (d : Dev nD) (L : grid0.Coords) (A : Buf (Elt F) ((thr d L).loc cc0_scratch2)) (k : Fin k0_t1_loop.trips) : Vec F S16 .i32 :=
  (s2).view.readAt (Elt F) (Rect.unit (s := S512) (k0_off3 k) S16.size (k0_off3_inb k)).toLoadRect A
/-- The sixteen-wide piece read from the matrix scratch for a label under a mask word. -/
def ldB (d : Dev nD) (L : grid0.Coords) (B : Buf (Elt F) ((thr d L).loc cc0_scratch3)) (k : Fin k0_t1_loop.trips) (lab msk : BitVec 32) : Vec F S1x16 .f32 :=
  (s3).view.readAt (Elt F) (Rect.unit (s := S136x512) (k0_off4 k lab msk) S1x16.size ((k0_chk1_all k lab lab msk).1)).toLoadRect B

/-- One group's new running sum from the scratches' contents. -/
def tripOf (d : Dev nD) (L : grid0.Coords) (A7 : Buf (Elt F) ((thr d L).loc cc0_scratch0)) (A8 : Buf (Elt F) ((thr d L).loc cc0_scratch1))
    (A9 : Buf (Elt F) ((thr d L).loc cc0_scratch2)) (B : Buf (Elt F) ((thr d L).loc cc0_scratch3)) (k : Fin k0_t1_loop.trips) (acc : FVec F S16 .f32) : FVec F S16 .f32 :=
  tripPay (F := F) (ldA7 d L A7 k) (ldA8 d L A8 k) (ldA9 d L A9 k)
    (fun t => ldB d L B k (laneW (F := F) t (ldA7 d L A7 k)) (laneW (F := F) t (ldA9 d L A9 k)))
    (fun t => ldB d L B k (laneW (F := F) t (ldA8 d L A8 k)) (laneW (F := F) t (ldA9 d L A9 k))) acc

set_option maxHeartbeats 4000000 in
set_option maxRecDepth 65536 in
/-- One trip of the loop: the four scratches are read, never written; the running sum moves by `tripOf`. -/
theorem trip_body (d : Dev nD) (L : grid0.Coords) (k : Fin k0_t1_loop.trips) (acc v3 : FVec F S16 .f32)
    (A7 : Buf (Elt F) ((thr d L).loc cc0_scratch0)) (A8 : Buf (Elt F) ((thr d L).loc cc0_scratch1)) (A9 : Buf (Elt F) ((thr d L).loc cc0_scratch2))
    (B : Buf (Elt F) ((thr d L).loc cc0_scratch3)) :
    iprop(((s0).view.loc (thr d L) ↦{fullShare} A7) ∗ ((s1).view.loc (thr d L) ↦{fullShare} A8) ∗ ((s2).view.loc (thr d L) ↦{fullShare} A9)
        ∗ ((s3).view.loc (thr d L) ↦{fullShare} B) : sProp 𝕄)
      ⊢ wp frame (wpE (defs₀ (F := F)) Variants.none (thr d L) none) Set.univ
          (k0_t1_body L zW (Memref.isWhole_whole _) lW (Memref.isWhole_whole _) pW (Memref.isWhole_whole _) cW (Memref.isWhole_whole _) oW (Memref.isWhole_whole _)
            s0 (Memref.isWhole_whole _) s1 (Memref.isWhole_whole _) s2 (Memref.isWhole_whole _) s3 (Memref.isWhole_whole _) s4 (Memref.isWhole_whole _)
            cc0_scratch5 cc0_scratch6 cc0_scoped0 cc0_scoped1 cc0_scoped2 cc0_scoped3 v3 (iota .scVector S16 32 [0] iota_S16_d0_w32_scVector) k acc)
          fun r => iprop(⌜r = tripOf d L A7 A8 A9 B k acc⌝ ∗ ((s0).view.loc (thr d L) ↦{fullShare} A7) ∗ ((s1).view.loc (thr d L) ↦{fullShare} A8)
            ∗ ((s2).view.loc (thr d L) ↦{fullShare} A9) ∗ ((s3).view.loc (thr d L) ↦{fullShare} B)) := by
  iintro ⟨H7, H8, H9, HB⟩
  unfold k0_t1_body
  sl_exec_parts
  sl_step
  isplitr
  · ipureintro; rfl
  isplitl [H7]; · iexact H7
  isplitl [H8]; · iexact H8
  isplitl [H9]; · iexact H9
  iexact HB

end Cert.KernelIdeal.ScBody

end
-- ==== Proof.ScBody3.lean ====
import proofs.«202802_g48112223650475_cont_8to1c4_51_21_alg».proof.Proof.ScBody2
import Idealize.ShloMosaic.Lib.SparseCore.Launch
import Idealize.ShloMosaic.Lib.Tactic

noncomputable section

namespace Cert.KernelIdeal.ScBody

open Idealize.ShloMosaic Idealize.ShloMosaic.ValueIdx Cert.KernelIdeal Cert.KernelIdeal.Gen
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] {Name : Type} [DecidableEq Name] [Infinite Name] {U : Type} [URA U] [CountersIn U]

local notation "𝕄" => MT nD τ sig (SparseCore.Cfg.HIx 1) (Elt F) Name U ℕ

local notation "zW" => (Memref.whole Cert.KernelIdeal.main_v0_scv : Memref Cert.KernelIdeal.sig Kind.scVector Space.hbm Cert.KernelIdeal.S1000x16384 EltTy.f32)
local notation "lW" => (Memref.whole Cert.KernelIdeal.main_arg2_scv : Memref Cert.KernelIdeal.sig Kind.scVector Space.hbm Cert.KernelIdeal.S16384 EltTy.i32)
local notation "pW" => (Memref.whole Cert.KernelIdeal.main_arg3_scv : Memref Cert.KernelIdeal.sig Kind.scVector Space.hbm Cert.KernelIdeal.S16384 EltTy.i32)
local notation "cW" => (Memref.whole Cert.KernelIdeal.main_v1_scv : Memref Cert.KernelIdeal.sig Kind.scVector Space.hbm Cert.KernelIdeal.S16384 EltTy.i32)
local notation "oW" => (Memref.whole Cert.KernelIdeal.main_v6_scv : Memref Cert.KernelIdeal.sig Kind.scVector Space.hbm Cert.KernelIdeal.S32x16 EltTy.f32)
local notation "s0" => (Memref.whole Cert.KernelIdeal.cc0_scratch0 : Memref Cert.KernelIdeal.sig Kind.scVector Space.vmem Cert.KernelIdeal.S512 EltTy.i32)
local notation "s1" => (Memref.whole Cert.KernelIdeal.cc0_scratch1 : Memref Cert.KernelIdeal.sig Kind.scVector Space.vmem Cert.KernelIdeal.S512 EltTy.i32)
local notation "s2" => (Memref.whole Cert.KernelIdeal.cc0_scratch2 : Memref Cert.KernelIdeal.sig Kind.scVector Space.vmem Cert.KernelIdeal.S512 EltTy.i32)
local notation "s3" => (Memref.whole Cert.KernelIdeal.cc0_scratch3 : Memref Cert.KernelIdeal.sig Kind.scVector Space.vmem Cert.KernelIdeal.S136x512 EltTy.f32)
local notation "s4" => (Memref.whole Cert.KernelIdeal.cc0_scratch4 : Memref Cert.KernelIdeal.sig Kind.scVector Space.vmem Cert.KernelIdeal.S16 EltTy.f32)

/-! ## The pieces of the arrays a worker touches, spelt as the program slices them -/

abbrev lSl (L : grid0.Coords) : Memref sig .scVector .hbm S512 .i32 := (lW).slice (Rect.unit (s := S16384) (k0_off1 L) S512.size (k0_off1_inb L)) (fun _ => rfl)
abbrev pSl (L : grid0.Coords) : Memref sig .scVector .hbm S512 .i32 := (pW).slice (Rect.unit (s := S16384) (k0_off1 L) S512.size (k0_off1_inb L)) (fun _ => rfl)
abbrev cSl (L : grid0.Coords) : Memref sig .scVector .hbm S512 .i32 := (cW).slice (Rect.unit (s := S16384) (k0_off1 L) S512.size (k0_off1_inb L)) (fun _ => rfl)
abbrev zSl (L : grid0.Coords) : Memref sig .scVector .hbm S64x512 .f32 := (zW).slice (Rect.unit (s := S1000x16384) (k0_off2 L) S64x512.size (k0_off2_inb L)) (fun _ => rfl)
abbrev oSl (L : grid0.Coords) : Memref sig .scVector .hbm S16 .f32 := ((oW).slice (Rect.unit (s := S32x16) (k0_off36 L) S1x16.size (k0_off36_inb L)) (fun _ => rfl)).squeeze S16 squeezes_S1x16_S16
abbrev cellOf (d : Dev nD) (L : grid0.Coords) (s : DmaSems sig S_) : GSem nD τ sig := (thr d L, SemLoc.dma s.sem)

/-- An array of the TensorCore's, where a worker's copies find it. -/
abbrev tcLoc (d : Dev nD) (b : Ref sig .tc) : Loc nD τ sig := (SparseCore.T d : Thread nD τ).loc b

/-! ## Words and offsets -/

theorem ofBool3 (a b c : Bool) : (BitVec.ofBool a &&& BitVec.ofBool b &&& BitVec.ofBool c = 1#1) ↔ (a = true ∧ b = true ∧ c = true) := by
  cases a <;> cases b <;> cases c <;> decide

/-- A word is at least zero and below 64 as a signed number exactly when it is below 64 as an unsigned one. -/
theorem signed_lt64 (lab : BitVec 32) : ((0#32).sle lab = true ∧ lab.slt 64#32 = true) ↔ lab.toNat < 64 := by
  rw [BitVec.sle_iff_toInt_le, BitVec.slt_iff_toInt_lt]
  have e0 : (0#32 : BitVec 32).toInt = 0 := by decide
  have e64 : (64#32 : BitVec 32).toInt = 64 := by decide
  have hl := BitVec.toInt_eq_toNat_cond lab
  have h2 := lab.isLt
  rw [e0, e64]
  constructor
  · rintro ⟨h0, h1⟩; split at hl <;> omega
  · intro h; split at hl <;> omega

theorem trip_lt (k : Fin k0_t1_loop.trips) : k.val < 32 := Nat.lt_of_lt_of_le k.isLt k0_t1_abs.2.1

/-- The program's test of a label under a mask word: the mask word is not zero and the label, as a signed word, lies in `[0, 64)`. -/
theorem sel_cond (lab msk : BitVec 32) :
    (Scalar.andi (Scalar.andi (Scalar.cmpi .ne msk 0#32) (Scalar.cmpi .sge lab 0#32)) (Scalar.cmpi .slt lab 64#32) = 1) ↔ (msk ≠ 0#32 ∧ lab.toNat < 64) := by
  simp only [Scalar.cmpi, Scalar.andi, IntOp.cmpi, IntOp.andi]
  rw [show (1 : BitVec 1) = 1#1 from rfl, ofBool3, ← signed_lt64]
  simp only [bne_iff_ne, ne_eq]

/-- Where a read starts: the label's row when the label is honoured, row 128 otherwise; sixteen columns per group. -/
theorem off4_eq (k : Fin k0_t1_loop.trips) (lab msk : BitVec 32) :
    k0_off4 k lab msk = ![if msk ≠ 0#32 ∧ lab.toNat < 64 then lab.toNat else 128, 16 * k.val] := by
  have hk := trip_lt k
  have hcol : (Scalar.muli (Scf.iv 0#32 1#32 k.val) 16#32).toNat = 16 * k.val := by
    simp only [Scalar.muli, IntOp.muli, Scf.iv, BitVec.zero_add, BitVec.mul_one, BitVec.toNat_mul, BitVec.toNat_ofNat]
    omega
  have hlab : Scalar.subi (Scalar.addi 0#32 lab) 0#32 = lab := by
    simp only [Scalar.subi, Scalar.addi, IntOp.subi, IntOp.addi, BitVec.zero_add, BitVec.sub_zero]
  have h128 : (128#32 : BitVec 32).toNat = 128 := by decide
  unfold k0_off4
  simp only [Scalar.select, Scalar.indexCast, apply_ite BitVec.toNat, sel_cond, hcol, hlab, h128]

/-! ## What the matrix scratch holds when the loop starts -/

/-- The sixteen zeros stored at row 128. -/
def zrow : FVec F S1x16 .f32 := k0_pay75 (F := F)

theorem zrow_apply (x : S1x16.Idx) : zrow (F := F) x = zeroE := rfl

theorem zcol_inb (j : Fin 32) : ∀ a, (![128, 16 * (31 - j.val)] : Fin 2 → Nat) a + S1x16.size a ≤ S136x512.size a := by
  have := j.isLt
  intro a; fin_cases a
  · show 128 + 1 ≤ 136; omega
  · show 16 * (31 - j.val) + 16 ≤ 512; omega

/-- The zero stores, the last first: columns 496 down to 0 of row 128. -/
def zf (j : Fin 32) : View.Piece (Elt F) S136x512 .f32 := ⟨Rect.unit (s := S136x512) ![128, 16 * (31 - j.val)] S1x16.size (zcol_inb j), zrow (F := F)⟩

/-- The same list as the program's stores leave it. -/
def zeroLit : List (View.Piece (Elt F) S136x512 .f32) :=
  [⟨Rect.unit (s := S136x512) ![128, 496] S1x16.size inb_S136x512_S1x16_128_496, k0_pay106 (k0_pay74 (F := F))⟩,
   ⟨Rect.unit (s := S136x512) ![128, 480] S1x16.size inb_S136x512_S1x16_128_480, k0_pay105 (k0_pay74 (F := F))⟩,
   ⟨Rect.unit (s := S136x512) ![128, 464] S1x16.size inb_S136x512_S1x16_128_464, k0_pay104 (k0_pay74 (F := F))⟩,
   ⟨Rect.unit (s := S136x512) ![128, 448] S1x16.size inb_S136x512_S1x16_128_448, k0_pay103 (k0_pay74 (F := F))⟩,
   ⟨Rect.unit (s := S136x512) ![128, 432] S1x16.size inb_S136x512_S1x16_128_432, k0_pay102 (k0_pay74 (F := F))⟩,
   ⟨Rect.unit (s := S136x512) ![128, 416] S1x16.size inb_S136x512_S1x16_128_416, k0_pay101 (k0_pay74 (F := F))⟩,
   ⟨Rect.unit (s := S136x512) ![128, 400] S1x16.size inb_S136x512_S1x16_128_400, k0_pay100 (k0_pay74 (F := F))⟩,
   ⟨Rect.unit (s := S136x512) ![128, 384] S1x16.size inb_S136x512_S1x16_128_384, k0_pay99 (k0_pay74 (F := F))⟩,
   ⟨Rect.unit (s := S136x512) ![128, 368] S1x16.size inb_S136x512_S1x16_128_368, k0_pay98 (k0_pay74 (F := F))⟩,
   ⟨Rect.unit (s := S136x512) ![128, 352] S1x16.size inb_S136x512_S1x16_128_352, k0_pay97 (k0_pay74 (F := F))⟩,
   ⟨Rect.unit (s := S136x512) ![128, 336] S1x16.size inb_S136x512_S1x16_128_336, k0_pay96 (k0_pay74 (F := F))⟩,
   ⟨Rect.unit (s := S136x512) ![128, 320] S1x16.size inb_S136x512_S1x16_128_320, k0_pay95 (k0_pay74 (F := F))⟩,
   ⟨Rect.unit (s := S136x512) ![128, 304] S1x16.size inb_S136x512_S1x16_128_304, k0_pay94 (k0_pay74 (F := F))⟩,
   ⟨Rect.unit (s := S136x512) ![128, 288] S1x16.size inb_S136x512_S1x16_128_288, k0_pay93 (k0_pay74 (F := F))⟩,
   ⟨Rect.unit (s := S136x512) ![128, 272] S1x16.size inb_S136x512_S1x16_128_272, k0_pay92 (k0_pay74 (F := F))⟩,
   ⟨Rect.unit (s := S136x512) ![128, 256] S1x16.size inb_S136x512_S1x16_128_256, k0_pay91 (k0_pay74 (F := F))⟩,
   ⟨Rect.unit (s := S136x512) ![128, 240] S1x16.size inb_S136x512_S1x16_128_240, k0_pay90 (k0_pay74 (F := F))⟩,
   ⟨Rect.unit (s := S136x512) ![128, 224] S1x16.size inb_S136x512_S1x16_128_224, k0_pay89 (k0_pay74 (F := F))⟩,
   ⟨Rect.unit (s := S136x512) ![128, 208] S1x16.size inb_S136x512_S1x16_128_208, k0_pay88 (k0_pay74 (F := F))⟩,
   ⟨Rect.unit (s := S136x512) ![128, 192] S1x16.size inb_S136x512_S1x16_128_192, k0_pay87 (k0_pay74 (F := F))⟩,
   ⟨Rect.unit (s := S136x512) ![128, 176] S1x16.size inb_S136x512_S1x16_128_176, k0_pay86 (k0_pay74 (F := F))⟩,
   ⟨Rect.unit (s := S136x512) ![128, 160] S1x16.size inb_S136x512_S1x16_128_160, k0_pay85 (k0_pay74 (F := F))⟩,
   ⟨Rect.unit (s := S136x512) ![128, 144] S1x16.size inb_S136x512_S1x16_128_144, k0_pay84 (k0_pay74 (F := F))⟩,
   ⟨Rect.unit (s := S136x512) ![128, 128] S1x16.size inb_S136x512_S1x16_128_128, k0_pay83 (k0_pay74 (F := F))⟩,
   ⟨Rect.unit (s := S136x512) ![128, 112] S1x16.size inb_S136x512_S1x16_128_112, k0_pay82 (k0_pay74 (F := F))⟩,
   ⟨Rect.unit (s := S136x512) ![128, 96] S1x16.size inb_S136x512_S1x16_128_96, k0_pay81 (k0_pay74 (F := F))⟩,
   ⟨Rect.unit (s := S136x512) ![128, 80] S1x16.size inb_S136x512_S1x16_128_80, k0_pay80 (k0_pay74 (F := F))⟩,
   ⟨Rect.unit (s := S136x512) ![128, 64] S1x16.size inb_S136x512_S1x16_128_64, k0_pay79 (k0_pay74 (F := F))⟩,
   ⟨Rect.unit (s := S136x512) ![128, 48] S1x16.size inb_S136x512_S1x16_128_48, k0_pay78 (F := F)⟩,
   ⟨Rect.unit (s := S136x512) ![128, 32] S1x16.size inb_S136x512_S1x16_128_32, k0_pay77 (F := F)⟩,
   ⟨Rect.unit (s := S136x512) ![128, 16] S1x16.size inb_S136x512_S1x16_128_16, k0_pay76 (F := F)⟩,
   ⟨Rect.unit (s := S136x512) ![128, 0] S1x16.size inb_S136x512_S1x16_128_0, k0_pay75 (F := F)⟩]

theorem zeroLit_eq : zeroLit (F := F) = List.ofFn (zf (F := F)) := by
  rfl

/-- The 64 by 512 block of the transposed matrix the asynchronous copy lands in rows 0 to 63. -/
def dmaPiece (d : Dev nD) (L : grid0.Coords) (zt : Buf (Elt F) (tcLoc d main_v0)) : View.Piece (Elt F) S136x512 .f32 :=
  ⟨Rect.unit (s := S136x512) ![0, 0] S64x512.size inb_S136x512_S64x512_0_0, ReadAs.same.apply ((zSl L).view.read (Elt F) zt)⟩

/-- The matrix scratch when the loop starts: the zero stores, then the landed block, over whatever it held. -/
def bufB (d : Dev nD) (L : grid0.Coords) (zt : Buf (Elt F) (tcLoc d main_v0)) (f3 : Buf (Elt F) ((thr d L).loc cc0_scratch3)) :
    Buf (Elt F) ((thr d L).loc cc0_scratch3) :=
  (s3).view.writes (Elt F) f3 (dmaPiece d L zt :: zeroLit (F := F))

/-- What the written part of the matrix scratch holds: the worker's 512 columns of the first 64 rows of the transposed
    matrix, and zeros from row 64 on (only row 128 of those is written). -/
def bufG (zt : S1000x16384.Idx → Elt F .f32) (L : grid0.Coords) : S136x512.Idx → Elt F .f32 := fun y =>
  if h : (y 0).val < 64 then
    zt (ix2 ⟨(y 0).val, by omega⟩ ⟨512 * wid L + (y 1).val, by have := wid_lt L; have := idx2_lt1 y; omega⟩)
  else zeroE

theorem pieces_agree (d : Dev nD) (L : grid0.Coords) (zt : Buf (Elt F) (tcLoc d main_v0)) :
    ∀ p ∈ (dmaPiece d L zt :: zeroLit (F := F)), ∀ x : p.1.shape.Idx, p.2 x = bufG zt L (p.1.emb x) := by
  intro p hp
  rcases List.mem_cons.mp hp with rfl | hp
  · intro x
    show (zt : S1000x16384.Idx → Elt F .f32) ((zSl L).view.emb x) = bufG zt L _
    have hx0 : (x 0).val < 64 := (x 0).isLt
    unfold bufG
    rw [dif_pos (show ((dmaPiece d L zt).1.emb x 0).val < 64 from by show 0 + 1 * (x 0).val < 64; omega)]
    refine congrArg (zt : S1000x16384.Idx → Elt F .f32) (funext fun a => Fin.ext ?_)
    match a with
    | ⟨0, _⟩ => show (k0_off2 L) 0 + 1 * (x 0).val = 0 + 1 * (x 0).val; rw [k0_off2_eq]; simp
    | ⟨1, _⟩ => show (k0_off2 L) 1 + 1 * (x 1).val = 512 * wid L + (0 + 1 * (x 1).val); rw [k0_off2_eq]; simp [wid]; omega
  · rw [zeroLit_eq] at hp
    obtain ⟨j, rfl⟩ := List.mem_ofFn.mp hp
    intro x
    show zeroE = bufG zt L _
    unfold bufG
    rw [dif_neg]
    show ¬ (128 + 1 * (x 0).val) < 64
    omega

theorem pieces_cover (d : Dev nD) (L : grid0.Coords) (zt : Buf (Elt F) (tcLoc d main_v0)) (y : S136x512.Idx)
    (h : (y 0).val < 64 ∨ (y 0).val = 128) : ∃ p ∈ (dmaPiece d L zt :: zeroLit (F := F)), y ∈ p.1.set := by
  have hc := idx2_lt1 y
  rcases h with h | h
  · refine ⟨dmaPiece d L zt, List.mem_cons_self, ?_⟩
    show y ∈ (Rect.unit (s := S136x512) ![0, 0] S64x512.size inb_S136x512_S64x512_0_0).set
    rw [Rect.mem_set_unit]
    intro a; fin_cases a
    · exact ⟨Nat.zero_le _, by show (y 0).val < 0 + 64; omega⟩
    · exact ⟨Nat.zero_le _, by show (y 1).val < 0 + 512; omega⟩
  · refine ⟨zf ⟨31 - (y 1).val / 16, by omega⟩, List.mem_cons_of_mem _ (by rw [zeroLit_eq]; exact List.mem_ofFn.mpr ⟨_, rfl⟩), ?_⟩
    show y ∈ (Rect.unit (s := S136x512) ![128, 16 * (31 - (31 - (y 1).val / 16))] S1x16.size (zcol_inb ⟨31 - (y 1).val / 16, by omega⟩)).set
    rw [Rect.mem_set_unit]
    intro a; fin_cases a
    · show 128 ≤ (y 0).val ∧ (y 0).val < 128 + 1; omega
    · show 16 * (31 - (31 - (y 1).val / 16)) ≤ (y 1).val ∧ (y 1).val < 16 * (31 - (31 - (y 1).val / 16)) + 16; omega

/-- A read of the matrix scratch for a label under a mask word finds the piece of the transposed matrix, or zeros. -/
theorem ldB_eq (d : Dev nD) (L : grid0.Coords) (zt : Buf (Elt F) (tcLoc d main_v0)) (f3 : Buf (Elt F) ((thr d L).loc cc0_scratch3))
    (k : Fin k0_t1_loop.trips) (lab msk : BitVec 32) :
    ldB d L (bufB d L zt f3) k lab msk = chunk zt L ⟨k.val, trip_lt k⟩ lab msk := by
  funext x
  unfold ldB chunk
  rw [View.readAt_apply]
  have hx0 : (x 0).val < 1 := (x 0).isLt
  generalize hy : (Rect.unit (s := S136x512) (k0_off4 k lab msk) S1x16.size ((k0_chk1_all k lab lab msk).1)).toLoadRect.idx x = y
  have hy0 : (y 0).val = (if msk ≠ 0#32 ∧ lab.toNat < 64 then lab.toNat else 128) := by
    rw [← hy]; show (k0_off4 k lab msk) 0 + 1 * (x 0).val = _
    rw [off4_eq]; simp; omega
  have hy1 : (y 1).val = 16 * k.val + (x 1).val := by
    rw [← hy]; show (k0_off4 k lab msk) 1 + 1 * (x 1).val = _
    rw [off4_eq]; simp
  have hcov : (y 0).val < 64 ∨ (y 0).val = 128 := by
    rw [hy0]; split
    · rename_i h; exact .inl h.2
    · exact .inr rfl
  have hr : (s3).view.read (Elt F) (bufB d L zt f3) y = bufG zt L y :=
    View.read_writes_apply_of_pieces (s3).view f3 (bufG zt L) _ (pieces_agree d L zt) y (pieces_cover d L zt y hcov)
  rw [hr]
  unfold bufG
  by_cases hc : msk ≠ 0#32 ∧ lab.toNat < 64
  · rw [dif_pos hc, dif_pos (show (y 0).val < 64 by rw [hy0, if_pos hc]; exact hc.2)]
    refine congrArg (zt : S1000x16384.Idx → Elt F .f32) (funext fun a => Fin.ext ?_)
    match a with
    | ⟨0, _⟩ => show (y 0).val = lab.toNat; rw [hy0, if_pos hc]
    | ⟨1, _⟩ => show 512 * wid L + (y 1).val = 512 * wid L + 16 * k.val + (x 1).val; rw [hy1]; omega
  · rw [dif_neg hc, dif_neg (show ¬ (y 0).val < 64 by rw [hy0, if_neg hc]; omega)]

/-! ## What the three word scratches hold when the loop starts -/

def A7of (d : Dev nD) (L : grid0.Coords) (l : Buf (Elt F) (tcLoc d main_arg2)) (f0 : Buf (Elt F) ((thr d L).loc cc0_scratch0)) :
    Buf (Elt F) ((thr d L).loc cc0_scratch0) :=
  View.write (Elt F) (s0).view f0 (ReadAs.same.apply ((lSl L).view.read (Elt F) l)) Finset.univ
def A8of (d : Dev nD) (L : grid0.Coords) (lp : Buf (Elt F) (tcLoc d main_arg3)) (f1 : Buf (Elt F) ((thr d L).loc cc0_scratch1)) :
    Buf (Elt F) ((thr d L).loc cc0_scratch1) :=
  View.write (Elt F) (s1).view f1 (ReadAs.same.apply ((pSl L).view.read (Elt F) lp)) Finset.univ
def A9of (d : Dev nD) (L : grid0.Coords) (cnd : Buf (Elt F) (tcLoc d main_v1)) (f2 : Buf (Elt F) ((thr d L).loc cc0_scratch2)) :
    Buf (Elt F) ((thr d L).loc cc0_scratch2) :=
  View.write (Elt F) (s2).view f2 (ReadAs.same.apply ((cSl L).view.read (Elt F) cnd)) Finset.univ

theorem ldA7_eq (d : Dev nD) (L : grid0.Coords) (l : Buf (Elt F) (tcLoc d main_arg2)) (f0 : Buf (Elt F) ((thr d L).loc cc0_scratch0))
    (k : Fin k0_t1_loop.trips) : ldA7 d L (A7of d L l f0) k = ldVec (F := F) l L ⟨k.val, trip_lt k⟩ := by
  funext j
  unfold ldA7 ldVec A7of
  rw [View.readAt_apply]
  simp only [Memref.view_whole, View.write_whole_univ, View.read_whole]
  show (l : S16384.Idx → BitVec 32) ((lSl L).view.emb _) = (l : S16384.Idx → BitVec 32) _
  refine congrArg (l : S16384.Idx → BitVec 32) (funext fun a => Fin.ext ?_)
  match a with
  | ⟨0, _⟩ =>
    show (k0_off1 L) 0 + 1 * ((k0_off3 k) 0 + 1 * (j 0).val) = 512 * wid L + 16 * k.val + (j 0).val
    rw [k0_off1_eq, k0_off3_eq]; simp [wid]; omega

theorem ldA8_eq (d : Dev nD) (L : grid0.Coords) (lp : Buf (Elt F) (tcLoc d main_arg3)) (f1 : Buf (Elt F) ((thr d L).loc cc0_scratch1))
    (k : Fin k0_t1_loop.trips) : ldA8 d L (A8of d L lp f1) k = ldVec (F := F) lp L ⟨k.val, trip_lt k⟩ := by
  funext j
  unfold ldA8 ldVec A8of
  rw [View.readAt_apply]
  simp only [Memref.view_whole, View.write_whole_univ, View.read_whole]
  show (lp : S16384.Idx → BitVec 32) ((pSl L).view.emb _) = (lp : S16384.Idx → BitVec 32) _
  refine congrArg (lp : S16384.Idx → BitVec 32) (funext fun a => Fin.ext ?_)
  match a with
  | ⟨0, _⟩ =>
    show (k0_off1 L) 0 + 1 * ((k0_off3 k) 0 + 1 * (j 0).val) = 512 * wid L + 16 * k.val + (j 0).val
    rw [k0_off1_eq, k0_off3_eq]; simp [wid]; omega

theorem ldA9_eq (d : Dev nD) (L : grid0.Coords) (cnd : Buf (Elt F) (tcLoc d main_v1)) (f2 : Buf (Elt F) ((thr d L).loc cc0_scratch2))
    (k : Fin k0_t1_loop.trips) : ldA9 d L (A9of d L cnd f2) k = ldVec (F := F) cnd L ⟨k.val, trip_lt k⟩ := by
  funext j
  unfold ldA9 ldVec A9of
  rw [View.readAt_apply]
  simp only [Memref.view_whole, View.write_whole_univ, View.read_whole]
  show (cnd : S16384.Idx → BitVec 32) ((cSl L).view.emb _) = (cnd : S16384.Idx → BitVec 32) _
  refine congrArg (cnd : S16384.Idx → BitVec 32) (funext fun a => Fin.ext ?_)
  match a with
  | ⟨0, _⟩ =>
    show (k0_off1 L) 0 + 1 * ((k0_off3 k) 0 + 1 * (j 0).val) = 512 * wid L + 16 * k.val + (j 0).val
    rw [k0_off1_eq, k0_off3_eq]; simp [wid]; omega

/-- One trip of the loop, from the arrays: the scratches hold the worker's pieces, so the trip's update is `tripVal`. -/
theorem tripOf_eq (d : Dev nD) (L : grid0.Coords) (zt : Buf (Elt F) (tcLoc d main_v0)) (l : Buf (Elt F) (tcLoc d main_arg2))
    (lp : Buf (Elt F) (tcLoc d main_arg3)) (cnd : Buf (Elt F) (tcLoc d main_v1))
    (f0 : Buf (Elt F) ((thr d L).loc cc0_scratch0)) (f1 : Buf (Elt F) ((thr d L).loc cc0_scratch1)) (f2 : Buf (Elt F) ((thr d L).loc cc0_scratch2))
    (f3 : Buf (Elt F) ((thr d L).loc cc0_scratch3)) (k : Fin k0_t1_loop.trips) (acc : FVec F S16 .f32) :
    tripOf d L (A7of d L l f0) (A8of d L lp f1) (A9of d L cnd f2) (bufB d L zt f3) k acc
      = tripVal (F := F) zt l lp cnd L ⟨k.val, trip_lt k⟩ acc := by
  unfold tripOf tripVal
  rw [ldA7_eq, ldA8_eq, ldA9_eq]
  simp only [ldB_eq, laneW_eq]

/-- The running sum one group further. -/
theorem accAt_succ (zt : S1000x16384.Idx → Elt F .f32) (l lp cnd : S16384.Idx → BitVec 32) (L : grid0.Coords) (k : Fin k0_t1_loop.trips) :
    accAt (F := F) zt l lp cnd L (k.val + 1) = tripVal zt l lp cnd L ⟨k.val, trip_lt k⟩ (accAt zt l lp cnd L k.val) := by
  rw [accAt, dif_pos (trip_lt k)]

theorem trips_eq : k0_t1_loop.trips = 32 := by decide

end Cert.KernelIdeal.ScBody

end
-- ==== Proof.ScBody4.lean ====
import proofs.«202802_g48112223650475_cont_8to1c4_51_21_alg».proof.Proof.ScBody3
import Idealize.ShloMosaic.Lib.SparseCore.Launch
import Idealize.ShloMosaic.Lib.Tactic

noncomputable section

namespace Cert.KernelIdeal.ScBody

open Idealize.ShloMosaic Idealize.ShloMosaic.ValueIdx Cert.KernelIdeal Cert.KernelIdeal.Gen
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] {Name : Type} [DecidableEq Name] [Infinite Name] {U : Type} [URA U] [CountersIn U]

local notation "𝕄" => MT nD τ sig (SparseCore.Cfg.HIx 1) (Elt F) Name U ℕ

local notation "zW" => (Memref.whole Cert.KernelIdeal.main_v0_scv : Memref Cert.KernelIdeal.sig Kind.scVector Space.hbm Cert.KernelIdeal.S1000x16384 EltTy.f32)
local notation "lW" => (Memref.whole Cert.KernelIdeal.main_arg2_scv : Memref Cert.KernelIdeal.sig Kind.scVector Space.hbm Cert.KernelIdeal.S16384 EltTy.i32)
local notation "pW" => (Memref.whole Cert.KernelIdeal.main_arg3_scv : Memref Cert.KernelIdeal.sig Kind.scVector Space.hbm Cert.KernelIdeal.S16384 EltTy.i32)
local notation "cW" => (Memref.whole Cert.KernelIdeal.main_v1_scv : Memref Cert.KernelIdeal.sig Kind.scVector Space.hbm Cert.KernelIdeal.S16384 EltTy.i32)
local notation "oW" => (Memref.whole Cert.KernelIdeal.main_v6_scv : Memref Cert.KernelIdeal.sig Kind.scVector Space.hbm Cert.KernelIdeal.S32x16 EltTy.f32)
local notation "s0" => (Memref.whole Cert.KernelIdeal.cc0_scratch0 : Memref Cert.KernelIdeal.sig Kind.scVector Space.vmem Cert.KernelIdeal.S512 EltTy.i32)
local notation "s1" => (Memref.whole Cert.KernelIdeal.cc0_scratch1 : Memref Cert.KernelIdeal.sig Kind.scVector Space.vmem Cert.KernelIdeal.S512 EltTy.i32)
local notation "s2" => (Memref.whole Cert.KernelIdeal.cc0_scratch2 : Memref Cert.KernelIdeal.sig Kind.scVector Space.vmem Cert.KernelIdeal.S512 EltTy.i32)
local notation "s3" => (Memref.whole Cert.KernelIdeal.cc0_scratch3 : Memref Cert.KernelIdeal.sig Kind.scVector Space.vmem Cert.KernelIdeal.S136x512 EltTy.f32)
local notation "s4" => (Memref.whole Cert.KernelIdeal.cc0_scratch4 : Memref Cert.KernelIdeal.sig Kind.scVector Space.vmem Cert.KernelIdeal.S16 EltTy.f32)

/-! ## The row of the result a worker writes -/

theorem oSl_emb (L : grid0.Coords) (x : S16.Idx) :
    (oSl L).view.emb x = (ix2 (⟨wid L, wid_lt L⟩ : Fin 32) (x 0) : S32x16.Idx) := by
  have h1 : Shape.reshapeEquiv (s := S1x16) (s' := S16) squeezes_S1x16_S16.numel_eq x = (ix2 (0 : Fin 1) (x 0) : S1x16.Idx) :=
    Shape.reshapeEquiv_eq_of_rowMajor _ (by rw [Shape.rowMajor_val_two, Shape.rowMajor_val_one]; simp)
  show (Rect.unit (s := S32x16) (k0_off36 L) S1x16.size (k0_off36_inb L)).emb (Shape.reshapeEquiv (s := S1x16) (s' := S16) squeezes_S1x16_S16.numel_eq x) = _
  rw [h1]
  funext a; apply Fin.ext
  match a with
  | ⟨0, _⟩ => show (k0_off36 L) 0 + 1 * 0 = wid L; rw [k0_off36_eq]; simp [wid]
  | ⟨1, _⟩ => show (k0_off36 L) 1 + 1 * (x 0).val = (x 0).val; rw [k0_off36_eq]; simp

/-- The accumulator scratch after its one store reads the stored vector. -/
theorem s4_read (d : Dev nD) (L : grid0.Coords) (f4 : Buf (Elt F) ((thr d L).loc cc0_scratch4)) (p : FVec F S16 .f32) (x : S16.Idx) :
    (s4).view.read (Elt F) ((s4).view.writes (Elt F) f4 [⟨Rect.unit (s := S16) ![0] S16.size inb_S16_S16_0, p⟩]) x = p x := by
  have h := View.read_writes_cons_emb (s4).view f4 (Rect.unit (s := S16) ![0] S16.size inb_S16_S16_0) p [] x
  have e : (Rect.unit (s := S16) ![0] S16.size inb_S16_S16_0).emb x = x := by
    funext a; apply Fin.ext
    match a with
    | ⟨0, _⟩ => show 0 + 1 * (x 0).val = (x 0).val; omega
  rwa [e] at h

/-- On the worker's row the result array, after the write-out, holds the running sum after all 32 groups. -/
theorem out_congr (d : Dev nD) (L : grid0.Coords) (zt : Buf (Elt F) (tcLoc d main_v0)) (l : Buf (Elt F) (tcLoc d main_arg2))
    (lp : Buf (Elt F) (tcLoc d main_arg3)) (cnd : Buf (Elt F) (tcLoc d main_v1)) (o : Buf (Elt F) (tcLoc d main_v6))
    (w : S16.Idx → Elt F .f32) (acc : FVec F S16 .f32) (hw : ∀ x, w x = k0_pay109 acc x) (hacc : acc = accAt (F := F) zt l lp cnd L 32) :
    ∀ i ∈ (oSl L).view.set, ((oSl L).view.writes (Elt F) o [⟨Rect.whole S16, w⟩]) i = scRow (F := F) zt l lp cnd L i := by
  intro i hi
  obtain ⟨x, -, rfl⟩ := Finset.mem_map.mp hi
  have h1 := congrFun (View.read_writes_whole (oSl L).view o w) x
  rw [View.read_apply] at h1
  have h2 : ((oSl L).view.writes (Elt F) o [⟨Rect.whole S16, w⟩]) ((oSl L).view.emb x) = w x := by
    rw [← h1]; rfl
  rw [h2, hw, oSl_emb, hacc]
  unfold scRow
  exact congrArg _ (eq_ix1 x)

/-! ## The sets of elements a worker is handed -/

/-- The worker's 512 columns of the first 64 rows of the transposed matrix. -/
def ztSet (L : grid0.Coords) : Finset S1000x16384.Idx := (zSl L).view.set
/-- The worker's 512 samples of a sample vector. -/
def vecSet (L : grid0.Coords) : Finset S16384.Idx := (lSl L).view.set
/-- The worker's row of the result. -/
def outSet (L : grid0.Coords) : Finset S32x16.Idx := (oSl L).view.set

theorem vecSet_p (L : grid0.Coords) : (pSl L).view.set = vecSet L := rfl
theorem vecSet_c (L : grid0.Coords) : (cSl L).view.set = vecSet L := rfl

theorem mem_ztSet {L : grid0.Coords} {ix : S1000x16384.Idx} :
    ix ∈ ztSet L ↔ (ix 0).val < 64 ∧ 512 * wid L ≤ (ix 1).val ∧ (ix 1).val < 512 * wid L + 512 := by
  show ix ∈ ((View.whole main_v0_scv).slice (Rect.unit (s := S1000x16384) (k0_off2 L) S64x512.size (k0_off2_inb L))).set ↔ _
  rw [View.set_slice_whole, Rect.mem_set_unit]
  show (∀ a : Fin 2, (k0_off2 L) a ≤ (ix a).val ∧ (ix a).val < (k0_off2 L) a + S64x512.size a) ↔ _
  rw [Fin.forall_fin_two, k0_off2_eq]
  show (0 ≤ (ix 0).val ∧ (ix 0).val < 0 + 64) ∧ (8192 * (L 0).val + 512 * (L 1).val ≤ (ix 1).val ∧ (ix 1).val < 8192 * (L 0).val + 512 * (L 1).val + 512) ↔ _
  unfold wid; omega

theorem mem_vecSet {L : grid0.Coords} {ix : S16384.Idx} :
    ix ∈ vecSet L ↔ 512 * wid L ≤ (ix 0).val ∧ (ix 0).val < 512 * wid L + 512 := by
  show ix ∈ ((View.whole main_arg2_scv).slice (Rect.unit (s := S16384) (k0_off1 L) S512.size (k0_off1_inb L))).set ↔ _
  rw [View.set_slice_whole, Rect.mem_set_unit]
  show (∀ a : Fin 1, (k0_off1 L) a ≤ (ix a).val ∧ (ix a).val < (k0_off1 L) a + S512.size a) ↔ _
  rw [Fin.forall_fin_one, k0_off1_eq]
  show (8192 * (L 0).val + 512 * (L 1).val ≤ (ix 0).val ∧ (ix 0).val < 8192 * (L 0).val + 512 * (L 1).val + 512) ↔ _
  unfold wid; omega

theorem mem_outSet {L : grid0.Coords} {ix : S32x16.Idx} : ix ∈ outSet L ↔ (ix 0).val = wid L := by
  have hc := idx2_lt1 ix
  show ix ∈ ((oSl L).view).set ↔ _
  rw [show ((oSl L).view).set = (Rect.unit (s := S32x16) (k0_off36 L) S1x16.size (k0_off36_inb L)).set from by
    simp only [Memref.view_squeeze, View.set_reshape]
    exact View.set_slice_whole main_v6_scv _]
  rw [Rect.mem_set_unit, Fin.forall_fin_two, k0_off36_eq]
  show (16 * (L 0).val + (L 1).val ≤ (ix 0).val ∧ (ix 0).val < 16 * (L 0).val + (L 1).val + 1) ∧ (0 ≤ (ix 1).val ∧ (ix 1).val < 0 + 16) ↔ _
  unfold wid; omega

/-- Before group `k`: the running sum is the first `k` groups', and the four scratches hold the worker's pieces. -/
def inv (d : Dev nD) (L : grid0.Coords) (zt : Buf (Elt F) (tcLoc d main_v0)) (l : Buf (Elt F) (tcLoc d main_arg2))
    (lp : Buf (Elt F) (tcLoc d main_arg3)) (cnd : Buf (Elt F) (tcLoc d main_v1))
    (f0 : Buf (Elt F) ((thr d L).loc cc0_scratch0)) (f1 : Buf (Elt F) ((thr d L).loc cc0_scratch1)) (f2 : Buf (Elt F) ((thr d L).loc cc0_scratch2))
    (f3 : Buf (Elt F) ((thr d L).loc cc0_scratch3)) (k : Nat) (acc : FVec F S16 .f32) : sProp 𝕄 :=
  iprop(⌜acc = accAt (F := F) zt l lp cnd L k⌝ ∗ ((s0).view.loc (thr d L) ↦{fullShare} A7of d L l f0) ∗ ((s1).view.loc (thr d L) ↦{fullShare} A8of d L lp f1)
    ∗ ((s2).view.loc (thr d L) ↦{fullShare} A9of d L cnd f2) ∗ ((s3).view.loc (thr d L) ↦{fullShare} bufB d L zt f3))

/-! ## The worker's own scratches and semaphores among what its scope holds -/

omit [FloatOps F] [Infinite Name] in
theorem cell_mem (d : Dev nD) (L : grid0.Coords) (s : DmaSems sig S_) (hs : (SemLoc.dma s.sem : SemLoc sig).isScoped .scVector = true) :
    cellOf d L s ∈ ownCells (sig := sig) (thr d L) := (mem_ownCells (g := cellOf d L s)).mpr ⟨rfl, hs⟩

omit [FloatOps F] [Infinite Name] in
theorem cell_ne (d : Dev nD) (L : grid0.Coords) (s s' : DmaSems sig S_) (h : s.sem ≠ s'.sem) : cellOf d L s ≠ cellOf d L s' :=
  fun e => h (SemLoc.dma.inj (Prod.mk.inj e).2)

omit [FloatOps F] [Infinite Name] in
/-- The five semaphores the worker uses are among its own: they are them, at zero, and the rest. -/
theorem ownSems0_thr (d : Dev nD) (L : grid0.Coords) :
    (ownSems0 (thr d L) : sProp 𝕄)
      = iprop(semVal (cellOf d L cc0_scratch5) 0 ∗ semVal (cellOf d L cc0_scoped0) 0 ∗ semVal (cellOf d L cc0_scoped1) 0 ∗ semVal (cellOf d L cc0_scoped2) 0 ∗ semVal (cellOf d L cc0_scoped3) 0
          ∗ bigSep ((((((ownCells (thr d L)).erase (cellOf d L cc0_scratch5)).erase (cellOf d L cc0_scoped0)).erase (cellOf d L cc0_scoped1)).erase (cellOf d L cc0_scoped2)).erase (cellOf d L cc0_scoped3)) fun g => semVal g 0) := by
  unfold SparseCore.Cfg.ownSems0
  rw [SparseCore.bigSep_erase' (cell_mem d L cc0_scratch5 (by decide)),
    SparseCore.bigSep_erase' (Finset.mem_erase.mpr ⟨cell_ne d L cc0_scoped0 cc0_scratch5 (by decide), cell_mem d L cc0_scoped0 (by decide)⟩),
    SparseCore.bigSep_erase' (Finset.mem_erase.mpr ⟨cell_ne d L cc0_scoped1 cc0_scoped0 (by decide), Finset.mem_erase.mpr ⟨cell_ne d L cc0_scoped1 cc0_scratch5 (by decide), cell_mem d L cc0_scoped1 (by decide)⟩⟩),
    SparseCore.bigSep_erase' (Finset.mem_erase.mpr ⟨cell_ne d L cc0_scoped2 cc0_scoped1 (by decide), Finset.mem_erase.mpr ⟨cell_ne d L cc0_scoped2 cc0_scoped0 (by decide), Finset.mem_erase.mpr ⟨cell_ne d L cc0_scoped2 cc0_scratch5 (by decide), cell_mem d L cc0_scoped2 (by decide)⟩⟩⟩),
    SparseCore.bigSep_erase' (Finset.mem_erase.mpr ⟨cell_ne d L cc0_scoped3 cc0_scoped2 (by decide), Finset.mem_erase.mpr ⟨cell_ne d L cc0_scoped3 cc0_scoped1 (by decide), Finset.mem_erase.mpr ⟨cell_ne d L cc0_scoped3 cc0_scoped0 (by decide), Finset.mem_erase.mpr ⟨cell_ne d L cc0_scoped3 cc0_scratch5 (by decide), cell_mem d L cc0_scoped3 (by decide)⟩⟩⟩⟩)]

omit [FloatOps F] [Infinite Name] in
/-- The five scratches are among the worker's own buffers: they are them, at some contents, and the rest. -/
theorem ownBufs_thr (d : Dev nD) (L : grid0.Coords) :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f) ∗ (∃ f, (thr d L).loc cc0_scratch4 ↦{fullShare} f)
          ∗ bigSep ((((((ownRefs (τ := τ) (.scVector ((L 0).castLE hcore0) ((L 1).castLE hsub0))).erase ((Proc.scVector ((L 0).castLE hcore0) ((L 1).castLE hsub0)).devRef cc0_scratch0)).erase ((Proc.scVector ((L 0).castLE hcore0) ((L 1).castLE hsub0)).devRef cc0_scratch1)).erase ((Proc.scVector ((L 0).castLE hcore0) ((L 1).castLE hsub0)).devRef cc0_scratch2)).erase ((Proc.scVector ((L 0).castLE hcore0) ((L 1).castLE hsub0)).devRef cc0_scratch3)).erase ((Proc.scVector ((L 0).castLE hcore0) ((L 1).castLE hsub0)).devRef cc0_scratch4))
              fun b => iprop(∃ f, ((d, b) : Loc nD τ sig) ↦{fullShare} f)) := by
  unfold SparseCore.Cfg.ownBufs
  refine (SparseCore.bigSep_erase' (SparseCore.Cfg.mem_ownRefs_of_owner (p := Proc.scVector ((L 0).castLE hcore0) ((L 1).castLE hsub0)) (b := (Proc.scVector ((L 0).castLE hcore0) ((L 1).castLE hsub0)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector ((L 0).castLE hcore0) ((L 1).castLE hsub0)) (b := (Proc.scVector ((L 0).castLE hcore0) ((L 1).castLE hsub0)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector ((L 0).castLE hcore0) ((L 1).castLE hsub0)) (b := (Proc.scVector ((L 0).castLE hcore0) ((L 1).castLE hsub0)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector ((L 0).castLE hcore0) ((L 1).castLE hsub0)) (b := (Proc.scVector ((L 0).castLE hcore0) ((L 1).castLE hsub0)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector ((L 0).castLE hcore0) ((L 1).castLE hsub0)) (b := (Proc.scVector ((L 0).castLE hcore0) ((L 1).castLE hsub0)).devRef cc0_scratch4) rfl⟩⟩⟩⟩)]

/-! ## The worker's task over its opened resources -/

set_option maxHeartbeats 4000000 in
set_option maxRecDepth 65536 in
/-- The task from the worker's pieces of the four inputs, its row of the result, its five scratches whole and its five
    semaphores at zero, beside anything else `R`: three copies in and their waits, 32 zero stores, the block's copy and its wait, the loop by its
    invariant, the store of the sum and its copy out. The inputs come back unchanged and the row holds `scRow`. -/
theorem tile_core (d : Dev nD) (L : grid0.Coords) (O : CellTallies nD τ sig (HIx 1)) (W : Waits sig (HIx 1))
    (zt : Buf (Elt F) (tcLoc d main_v0)) (l : Buf (Elt F) (tcLoc d main_arg2)) (lp : Buf (Elt F) (tcLoc d main_arg3)) (cnd : Buf (Elt F) (tcLoc d main_v1))
    (o : Buf (Elt F) (tcLoc d main_v6))
    (f0 : Buf (Elt F) ((thr d L).loc cc0_scratch0)) (f1 : Buf (Elt F) ((thr d L).loc cc0_scratch1)) (f2 : Buf (Elt F) ((thr d L).loc cc0_scratch2))
    (f3 : Buf (Elt F) ((thr d L).loc cc0_scratch3)) (f4 : Buf (Elt F) ((thr d L).loc cc0_scratch4)) (R : sProp 𝕄) :
    iprop(Transfers.MayWaits (thr d L) (none : HIx 1) O ∗ R
        ∗ ((zSl L).view.loc (thr d L) ↦[(zSl L).view.set]{fullShare} zt) ∗ ((lSl L).view.loc (thr d L) ↦[(lSl L).view.set]{fullShare} l)
        ∗ ((pSl L).view.loc (thr d L) ↦[(pSl L).view.set]{fullShare} lp) ∗ ((cSl L).view.loc (thr d L) ↦[(cSl L).view.set]{fullShare} cnd)
        ∗ ((oSl L).view.loc (thr d L) ↦[(oSl L).view.set]{fullShare} o)
        ∗ ((s0).view.loc (thr d L) ↦{fullShare} f0) ∗ ((s1).view.loc (thr d L) ↦{fullShare} f1) ∗ ((s2).view.loc (thr d L) ↦{fullShare} f2)
        ∗ ((s3).view.loc (thr d L) ↦{fullShare} f3) ∗ ((s4).view.loc (thr d L) ↦{fullShare} f4)
        ∗ semVal (cellOf d L cc0_scratch5) 0 ∗ semVal (cellOf d L cc0_scoped0) 0 ∗ semVal (cellOf d L cc0_scoped1) 0 ∗ semVal (cellOf d L cc0_scoped2) 0
        ∗ semVal (cellOf d L cc0_scoped3) 0 ∗ owes (thr d L) O W : sProp 𝕄)
      ⊢ wp frame (wpE (defs₀ (F := F)) Variants.none (thr d L) none) Set.univ
          (cc0__sc_stream L zW (Memref.isWhole_whole _) lW (Memref.isWhole_whole _) pW (Memref.isWhole_whole _) cW (Memref.isWhole_whole _) oW (Memref.isWhole_whole _)
            s0 (Memref.isWhole_whole _) s1 (Memref.isWhole_whole _) s2 (Memref.isWhole_whole _) s3 (Memref.isWhole_whole _) s4 (Memref.isWhole_whole _)
            cc0_scratch5 cc0_scratch6 cc0_scoped0 cc0_scoped1 cc0_scoped2 cc0_scoped3)
          fun _ => iprop(R ∗ ((zSl L).view.loc (thr d L) ↦[(zSl L).view.set]{fullShare} zt) ∗ ((lSl L).view.loc (thr d L) ↦[(lSl L).view.set]{fullShare} l)
            ∗ ((pSl L).view.loc (thr d L) ↦[(pSl L).view.set]{fullShare} lp) ∗ ((cSl L).view.loc (thr d L) ↦[(cSl L).view.set]{fullShare} cnd)
            ∗ ((oSl L).view.loc (thr d L) ↦[(oSl L).view.set]{fullShare} scRow (F := F) zt l lp cnd L)
            ∗ (∃ f, (s0).view.loc (thr d L) ↦{fullShare} f) ∗ (∃ f, (s1).view.loc (thr d L) ↦{fullShare} f) ∗ (∃ f, (s2).view.loc (thr d L) ↦{fullShare} f)
            ∗ (∃ f, (s3).view.loc (thr d L) ↦{fullShare} f) ∗ (∃ f, (s4).view.loc (thr d L) ↦{fullShare} f)
            ∗ semVal (cellOf d L cc0_scratch5) 0 ∗ semVal (cellOf d L cc0_scoped0) 0 ∗ semVal (cellOf d L cc0_scoped1) 0 ∗ semVal (cellOf d L cc0_scoped2) 0
            ∗ semVal (cellOf d L cc0_scoped3) 0 ∗ ∃ W', ⌜∀ p ∈ W', p ∈ W ∨ p.2 = none⌝ ∗ owes (thr d L) O W') := by
  iintro ⟨#Hmw, HR, Hz, Hl, Hp, Hc, Ho, H0, H1, H2, H3, H4, Hs5, Hq0, Hq1, Hq2, Hq3, HO⟩
  unfold cc0__sc_stream
  sl_exec_parts (disch := exact View.amount_pos _ _ (show 0 < S512.numel by decide))
  sl_for (inv d L zt l lp cnd f0 f1 f2 f3) $$ [H0 H1 H2 H3]
  case region =>
    intro k a
    unfold inv
    iintro ⟨%ha, H7, H8, H9, HB⟩
    have hpost : ∀ r : FVec F S16 .f32, (iprop(⌜r = tripOf d L (A7of d L l f0) (A8of d L lp f1) (A9of d L cnd f2) (bufB d L zt f3) k a⌝
          ∗ ((s0).view.loc (thr d L) ↦{fullShare} A7of d L l f0) ∗ ((s1).view.loc (thr d L) ↦{fullShare} A8of d L lp f1)
          ∗ ((s2).view.loc (thr d L) ↦{fullShare} A9of d L cnd f2) ∗ ((s3).view.loc (thr d L) ↦{fullShare} bufB d L zt f3)) : sProp 𝕄)
        ⊢ iprop(⌜r = accAt (F := F) zt l lp cnd L (k.val + 1)⌝
          ∗ ((s0).view.loc (thr d L) ↦{fullShare} A7of d L l f0) ∗ ((s1).view.loc (thr d L) ↦{fullShare} A8of d L lp f1)
          ∗ ((s2).view.loc (thr d L) ↦{fullShare} A9of d L cnd f2) ∗ ((s3).view.loc (thr d L) ↦{fullShare} bufB d L zt f3)) := by
      intro r
      iintro ⟨%hr, H⟩
      isplitr
      · ipureintro; rw [hr, tripOf_eq, ha, accAt_succ]
      · iexact H
    iapply ((trip_body d L k a _ _ _ _ _).trans (wp_mono frame _ _ hpost))
    isplitl [H7]; · iexact H7
    isplitl [H8]; · iexact H8
    isplitl [H9]; · iexact H9
    iexact HB
  · unfold inv
    isplitr
    · ipureintro; rfl
    isplitl [H0]; · iexact H0
    isplitl [H1]; · iexact H1
    isplitl [H2]; · iexact H2
    iexact H3
  iintro %acc HI
  unfold inv
  icases HI with ⟨%hacc, H0, H1, H2, H3⟩
  sl_exec_parts (disch := exact View.amount_pos _ _ (show 0 < S16.numel by decide))
  sl_step
  have hacc' : acc = accAt (F := F) zt l lp cnd L 32 := hacc
  isplitl [HR]; · iexact HR
  isplitl [Hz]; · iexact Hz
  isplitl [Hl]; · iexact Hl
  isplitl [Hp]; · iexact Hp
  isplitl [Hc]; · iexact Hc
  isplitl [Ho]
  · iapply (Entails.of_eq (pointsTo_congr (out_congr d L zt l lp cnd o _ acc (fun x => s4_read d L f4 (k0_pay109 acc) x) hacc')))
    iexact Ho
  isplitl [H0]; · iexists _; iexact H0
  isplitl [H1]; · iexists _; iexact H1
  isplitl [H2]; · iexists _; iexact H2
  isplitl [H3]; · iexists _; iexact H3
  isplitl [H4]; · iexists _; iexact H4
  isplitl [Hs5]; · iexact Hs5
  isplitl [Hq0]; · iexact Hq0
  isplitl [Hq1]; · iexact Hq1
  isplitl [Hq2]; · iexact Hq2
  isplitl [Hq3]; · iexact Hq3
  iexists _; isplitr
  on_goal 2 => iexact HO
  · ipureintro; intro p hp
    rcases Finset.mem_insert.mp hp with hp | hp
    · subst hp; exact .inr rfl
    rcases Finset.mem_insert.mp hp with hp | hp
    · subst hp; exact .inr rfl
    rcases Finset.mem_insert.mp hp with hp | hp
    · subst hp; exact .inr rfl
    rcases Finset.mem_insert.mp hp with hp | hp
    · subst hp; exact .inr rfl
    rcases Finset.mem_insert.mp hp with hp | hp
    · subst hp; exact .inr rfl
    exact .inl hp

end Cert.KernelIdeal.ScBody

end
-- ==== Proof.ScBody.lean ====
import proofs.«202802_g48112223650475_cont_8to1c4_51_21_alg».proof.Proof.ScBody4
import Idealize.ShloMosaic.Lib.SparseCore.Launch
import Idealize.ShloMosaic.Lib.Tactic

noncomputable section

namespace Cert.KernelIdeal.ScBody

open Idealize.ShloMosaic Idealize.ShloMosaic.ValueIdx Cert.KernelIdeal Cert.KernelIdeal.Gen
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] {Name : Type} [DecidableEq Name] [Infinite Name] {U : Type} [URA U] [CountersIn U]

local notation "𝕄" => MT nD τ sig (SparseCore.Cfg.HIx 1) (Elt F) Name U ℕ

local notation "zW" => (Memref.whole Cert.KernelIdeal.main_v0_scv : Memref Cert.KernelIdeal.sig Kind.scVector Space.hbm Cert.KernelIdeal.S1000x16384 EltTy.f32)
local notation "lW" => (Memref.whole Cert.KernelIdeal.main_arg2_scv : Memref Cert.KernelIdeal.sig Kind.scVector Space.hbm Cert.KernelIdeal.S16384 EltTy.i32)
local notation "pW" => (Memref.whole Cert.KernelIdeal.main_arg3_scv : Memref Cert.KernelIdeal.sig Kind.scVector Space.hbm Cert.KernelIdeal.S16384 EltTy.i32)
local notation "cW" => (Memref.whole Cert.KernelIdeal.main_v1_scv : Memref Cert.KernelIdeal.sig Kind.scVector Space.hbm Cert.KernelIdeal.S16384 EltTy.i32)
local notation "oW" => (Memref.whole Cert.KernelIdeal.main_v6_scv : Memref Cert.KernelIdeal.sig Kind.scVector Space.hbm Cert.KernelIdeal.S32x16 EltTy.f32)
local notation "s0" => (Memref.whole Cert.KernelIdeal.cc0_scratch0 : Memref Cert.KernelIdeal.sig Kind.scVector Space.vmem Cert.KernelIdeal.S512 EltTy.i32)
local notation "s1" => (Memref.whole Cert.KernelIdeal.cc0_scratch1 : Memref Cert.KernelIdeal.sig Kind.scVector Space.vmem Cert.KernelIdeal.S512 EltTy.i32)
local notation "s2" => (Memref.whole Cert.KernelIdeal.cc0_scratch2 : Memref Cert.KernelIdeal.sig Kind.scVector Space.vmem Cert.KernelIdeal.S512 EltTy.i32)
local notation "s3" => (Memref.whole Cert.KernelIdeal.cc0_scratch3 : Memref Cert.KernelIdeal.sig Kind.scVector Space.vmem Cert.KernelIdeal.S136x512 EltTy.f32)
local notation "s4" => (Memref.whole Cert.KernelIdeal.cc0_scratch4 : Memref Cert.KernelIdeal.sig Kind.scVector Space.vmem Cert.KernelIdeal.S16 EltTy.f32)

/-! ## The worker's task as the launch hands it over -/

set_option maxHeartbeats 2000000 in
set_option maxRecDepth 65536 in
/-- The task on the vector subcore of place `L` of device `d`, from the worker's pieces of the four inputs, its row of the
    result and what its scope holds: the inputs come back unchanged, the row holds `scRow`, the scope's buffers and
    semaphores come back, and the waits it made are recorded at the index `none`. -/
theorem tile_body (hF : (sc (F := F)).Facts) (d : Dev nD) (L : grid0.Coords) (O : CellTallies nD τ sig (HIx 1)) (W : Waits sig (HIx 1))
    (zt : Buf (Elt F) (tcLoc d main_v0)) (l : Buf (Elt F) (tcLoc d main_arg2)) (lp : Buf (Elt F) (tcLoc d main_arg3))
    (cnd : Buf (Elt F) (tcLoc d main_v1)) (o : Buf (Elt F) (tcLoc d main_v6)) :
    iprop(Transfers.MayWaits (thr d L) (none : HIx 1) O
        ∗ (tcLoc d main_v0 ↦[ztSet L]{fullShare} zt) ∗ (tcLoc d main_arg2 ↦[vecSet L]{fullShare} l)
        ∗ (tcLoc d main_arg3 ↦[vecSet L]{fullShare} lp) ∗ (tcLoc d main_v1 ↦[vecSet L]{fullShare} cnd)
        ∗ (tcLoc d main_v6 ↦[outSet L]{fullShare} o)
        ∗ scopedBufs (thr d L) ∗ scopedSems0 (thr d L) ∗ owes (thr d L) O W : sProp 𝕄)
      ⊢ wp frame (wpE (defs₀ (F := F)) Variants.none (thr d L) none) Set.univ
          (cc0__sc_stream L zW (Memref.isWhole_whole _) lW (Memref.isWhole_whole _) pW (Memref.isWhole_whole _) cW (Memref.isWhole_whole _) oW (Memref.isWhole_whole _)
            s0 (Memref.isWhole_whole _) s1 (Memref.isWhole_whole _) s2 (Memref.isWhole_whole _) s3 (Memref.isWhole_whole _) s4 (Memref.isWhole_whole _)
            cc0_scratch5 cc0_scratch6 cc0_scoped0 cc0_scoped1 cc0_scoped2 cc0_scoped3)
          fun _ => iprop((tcLoc d main_v0 ↦[ztSet L]{fullShare} zt) ∗ (tcLoc d main_arg2 ↦[vecSet L]{fullShare} l)
        ∗ (tcLoc d main_arg3 ↦[vecSet L]{fullShare} lp) ∗ (tcLoc d main_v1 ↦[vecSet L]{fullShare} cnd)
            ∗ (tcLoc d main_v6 ↦[outSet L]{fullShare} scRow (F := F) zt l lp cnd L)
            ∗ scopedBufs (thr d L) ∗ scopedSems0 (thr d L) ∗ ∃ W', ⌜∀ p ∈ W', p ∈ W ∨ p.2 = none⌝ ∗ owes (thr d L) O W') := by
  rw [(sc (F := F)).scopedBufs_V hF d ((L 0).castLE hcore0) ((L 1).castLE hsub0), SparseCore.Cfg.scopedSems0_V (Val := Elt F) d ((L 0).castLE hcore0) ((L 1).castLE hsub0), ownSems0_thr, ownBufs_thr]
  iintro ⟨#Hmw, Hz, Hl, Hp, Hc, Ho, ⟨⟨%f0, H0⟩, ⟨%f1, H1⟩, ⟨%f2, H2⟩, ⟨%f3, H3⟩, ⟨%f4, H4⟩, Hbufs⟩, ⟨Hs5, Hq0, Hq1, Hq2, Hq3, Hsems⟩, HO⟩
  have hpost : ∀ _u : PUnit, (iprop(iprop((bigSep ((((((ownRefs (τ := τ) (.scVector ((L 0).castLE hcore0) ((L 1).castLE hsub0))).erase ((Proc.scVector ((L 0).castLE hcore0) ((L 1).castLE hsub0)).devRef cc0_scratch0)).erase ((Proc.scVector ((L 0).castLE hcore0) ((L 1).castLE hsub0)).devRef cc0_scratch1)).erase ((Proc.scVector ((L 0).castLE hcore0) ((L 1).castLE hsub0)).devRef cc0_scratch2)).erase ((Proc.scVector ((L 0).castLE hcore0) ((L 1).castLE hsub0)).devRef cc0_scratch3)).erase ((Proc.scVector ((L 0).castLE hcore0) ((L 1).castLE hsub0)).devRef cc0_scratch4)) fun b => iprop(∃ f, ((d, b) : Loc nD τ sig) ↦{fullShare} f)) ∗ bigSep ((((((ownCells (thr d L)).erase (cellOf d L cc0_scratch5)).erase (cellOf d L cc0_scoped0)).erase (cellOf d L cc0_scoped1)).erase (cellOf d L cc0_scoped2)).erase (cellOf d L cc0_scoped3)) fun g => semVal g 0) ∗ ((zSl L).view.loc (thr d L) ↦[(zSl L).view.set]{fullShare} zt) ∗ ((lSl L).view.loc (thr d L) ↦[(lSl L).view.set]{fullShare} l)
            ∗ ((pSl L).view.loc (thr d L) ↦[(pSl L).view.set]{fullShare} lp) ∗ ((cSl L).view.loc (thr d L) ↦[(cSl L).view.set]{fullShare} cnd)
            ∗ ((oSl L).view.loc (thr d L) ↦[(oSl L).view.set]{fullShare} scRow (F := F) zt l lp cnd L)
            ∗ (∃ f, (s0).view.loc (thr d L) ↦{fullShare} f) ∗ (∃ f, (s1).view.loc (thr d L) ↦{fullShare} f) ∗ (∃ f, (s2).view.loc (thr d L) ↦{fullShare} f)
            ∗ (∃ f, (s3).view.loc (thr d L) ↦{fullShare} f) ∗ (∃ f, (s4).view.loc (thr d L) ↦{fullShare} f)
            ∗ semVal (cellOf d L cc0_scratch5) 0 ∗ semVal (cellOf d L cc0_scoped0) 0 ∗ semVal (cellOf d L cc0_scoped1) 0 ∗ semVal (cellOf d L cc0_scoped2) 0
            ∗ semVal (cellOf d L cc0_scoped3) 0 ∗ ∃ W', ⌜∀ p ∈ W', p ∈ W ∨ p.2 = none⌝ ∗ owes (thr d L) O W') : sProp 𝕄)
      ⊢ iprop((tcLoc d main_v0 ↦[ztSet L]{fullShare} zt) ∗ (tcLoc d main_arg2 ↦[vecSet L]{fullShare} l)
        ∗ (tcLoc d main_arg3 ↦[vecSet L]{fullShare} lp) ∗ (tcLoc d main_v1 ↦[vecSet L]{fullShare} cnd)
            ∗ (tcLoc d main_v6 ↦[outSet L]{fullShare} scRow (F := F) zt l lp cnd L)
            ∗ ((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f) ∗ (∃ f, (thr d L).loc cc0_scratch4 ↦{fullShare} f)
                ∗ bigSep ((((((ownRefs (τ := τ) (.scVector ((L 0).castLE hcore0) ((L 1).castLE hsub0))).erase ((Proc.scVector ((L 0).castLE hcore0) ((L 1).castLE hsub0)).devRef cc0_scratch0)).erase ((Proc.scVector ((L 0).castLE hcore0) ((L 1).castLE hsub0)).devRef cc0_scratch1)).erase ((Proc.scVector ((L 0).castLE hcore0) ((L 1).castLE hsub0)).devRef cc0_scratch2)).erase ((Proc.scVector ((L 0).castLE hcore0) ((L 1).castLE hsub0)).devRef cc0_scratch3)).erase ((Proc.scVector ((L 0).castLE hcore0) ((L 1).castLE hsub0)).devRef cc0_scratch4)) fun b => iprop(∃ f, ((d, b) : Loc nD τ sig) ↦{fullShare} f))
            ∗ (semVal (cellOf d L cc0_scratch5) 0 ∗ semVal (cellOf d L cc0_scoped0) 0 ∗ semVal (cellOf d L cc0_scoped1) 0 ∗ semVal (cellOf d L cc0_scoped2) 0 ∗ semVal (cellOf d L cc0_scoped3) 0
                ∗ bigSep ((((((ownCells (thr d L)).erase (cellOf d L cc0_scratch5)).erase (cellOf d L cc0_scoped0)).erase (cellOf d L cc0_scoped1)).erase (cellOf d L cc0_scoped2)).erase (cellOf d L cc0_scoped3)) fun g => semVal g 0)
            ∗ ∃ W', ⌜∀ p ∈ W', p ∈ W ∨ p.2 = none⌝ ∗ owes (thr d L) O W') := by
    intro _u
    iintro ⟨⟨Hbufs, Hsems⟩, Hz, Hl, Hp, Hc, Ho, H0, H1, H2, H3, H4, Hs5, Hq0, Hq1, Hq2, Hq3, HW⟩
    isplitl [Hz]; · iexact Hz
    isplitl [Hl]; · iexact Hl
    isplitl [Hp]; · iexact Hp
    isplitl [Hc]; · iexact Hc
    isplitl [Ho]; · iexact Ho
    isplitl [H0 H1 H2 H3 H4 Hbufs]
    · isplitl [H0]; · iexact H0
      isplitl [H1]; · iexact H1
      isplitl [H2]; · iexact H2
      isplitl [H3]; · iexact H3
      isplitl [H4]; · iexact H4
      iexact Hbufs
    isplitl [Hs5 Hq0 Hq1 Hq2 Hq3 Hsems]
    · isplitl [Hs5]; · iexact Hs5
      isplitl [Hq0]; · iexact Hq0
      isplitl [Hq1]; · iexact Hq1
      isplitl [Hq2]; · iexact Hq2
      isplitl [Hq3]; · iexact Hq3
      iexact Hsems
    iexact HW
  iapply ((tile_core d L O W zt l lp cnd o f0 f1 f2 f3 f4 _).trans (wp_mono frame _ _ hpost))
  isplitr; · iexact Hmw
  isplitl [Hbufs Hsems]
  · isplitl [Hbufs]; · iexact Hbufs
    iexact Hsems
  isplitl [Hz]; · iexact Hz
  isplitl [Hl]; · iexact Hl
  isplitl [Hp]; · iexact Hp
  isplitl [Hc]; · iexact Hc
  isplitl [Ho]; · iexact Ho
  isplitl [H0]; · iexact H0
  isplitl [H1]; · iexact H1
  isplitl [H2]; · iexact H2
  isplitl [H3]; · iexact H3
  isplitl [H4]; · iexact H4
  isplitl [Hs5]; · iexact Hs5
  isplitl [Hq0]; · iexact Hq0
  isplitl [Hq1]; · iexact Hq1
  isplitl [Hq2]; · iexact Hq2
  isplitl [Hq3]; · iexact Hq3
  iexact HO

end Cert.KernelIdeal.ScBody

end
-- ==== Proof.Inst.lean ====
/-
  The whole program's run with its parts filled in, and the frame.

  The launch takes the host operations' rule and the two TensorCore regions as parts.  Here they are the ones proved
  for this program: the two stretches of host operations, the dense region entered at the arrays after the SparseCore
  call, the combine region entered at those with the dense result written.  The run then says that every device's final
  memory holds the four arguments and the result at the composed valuation; no stretch and no region writes an argument,
  so each argument is read back to its launch contents, which is the frame.  First with the tile kernel's sets and
  its specification as parameters, then at the tile kernel's own.
-/
import proofs.«202802_g48112223650475_cont_8to1c4_51_21_alg».proof.Proof.Launch
import proofs.«202802_g48112223650475_cont_8to1c4_51_21_alg».proof.Proof.Host
import proofs.«202802_g48112223650475_cont_8to1c4_51_21_alg».proof.Proof.Combine
import proofs.«202802_g48112223650475_cont_8to1c4_51_21_alg».proof.Proof.Dense4
import proofs.«202802_g48112223650475_cont_8to1c4_51_21_alg».proof.Proof.ScBody

noncomputable section

namespace Cert.KernelIdeal.Inst

open Cert.KernelIdeal Cert.KernelIdeal.Gen Cert.KernelIdeal.LaunchA Cert.KernelIdeal.LaunchB Cert.KernelIdeal.Launch

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ UU ℕ

section Parametric

variable (TS : TileSets F) (hspec : TileSpec (F := F) TS)
variable (m : (ℓ : Loc nD τ sig) → Buf (Elt F) ℓ) (ρ : Dev nD → PrngReg)

/-! ## The two regions' results -/

/-- The dense region's one-by-one result, at the arrays after the SparseCore call. -/
abbrev v7 : (d : Dev nD) → Buf (Elt F) ((d.tc : Thread nD τ).loc main_v7) :=
  fun d => Dense.resD d (Vin0 TS m Host.hostOpsA d)

/-- The combine region's one-by-one result, at those arrays with the dense result written. -/
abbrev v8 : (d : Dev nD) → Buf (Elt F) ((d.tc : Thread nD τ).loc main_v8) :=
  fun d => Combine.v8 (Vin1 TS m Host.hostOpsA (v7 TS m)) d

/-- Each region's proof data, at the arrays it is entered at. -/
abbrev dDense (c : Dev nD) : Pipeline.Dat τ (Elt F) (HIx 1) ℕ UU ℕ (Pipeline.pin (pcfgs (F := F)) Launch.adm 0) c :=
  Dense.dat1 (Bd (F := F) c) c (Vin0 TS m Host.hostOpsA c)
abbrev dComb (c : Dev nD) : Pipeline.Dat τ (Elt F) (HIx 1) ℕ UU ℕ (Pipeline.pin (pcfgs (F := F)) Launch.adm 1) c :=
  Combine.dat2 (Vin1 TS m Host.hostOpsA (v7 TS m)) (Bd (F := F)) c

/-! ## The parts -/

/-- The launch's parts: the host operations' stretches and rule, the dense region, the combine region. -/
def partsOf : Launch.Parts TS m Host.hostOpsA Host.hostOpsB (v7 TS m) (v8 TS m) where
  main_eq := Host.main_eq
  hostA := fun d W {_} k Q => Host.wp_hostA 𝒱 none Set.univ d W k Q
  hostB := fun d W {_} k Q => Host.wp_hostB 𝒱 none Set.univ d W k Q
  pd0 := Dense.pdats (dComb TS m) (Vin0 TS m Host.hostOpsA) (Bd (F := F))
  R0 := Dense.regDense (dComb TS m) (Vin0 TS m Host.hostOpsA) (Bd (F := F)) Bd_none (K (F := F)).L (K (F := F)).lev
  pre0 _ := .rfl
  post0 _ := .rfl
  pd1 := Combine.pdats (Vin1 TS m Host.hostOpsA (v7 TS m)) (Bd (F := F)) (dDense TS m)
  R1 := Combine.regCombine (Vin1 TS m Host.hostOpsA (v7 TS m)) none (Bd (F := F)) Bd_none (K (F := F)).L (K (F := F)).lev (dDense TS m)
  pre1 _ := .rfl
  post1 _ := .rfl

/-! ## The run -/

include hspec in
/-- Every weakly fair execution of the program ends, and every final memory holds the four arguments and the result at
    the composed valuation. -/
theorem runOf :
    θ_run (Cert.KernelIdeal.defs (F := F)) (Cert.KernelIdeal.threads (F := F)) ⟨m, fun _ => 0, ρ⟩
      (Launch.QC TS m Host.hostOpsA Host.hostOpsB (v7 TS m) (v8 TS m)) :=
  Launch.run_main TS m ρ Host.hostOpsA Host.hostOpsB (v7 TS m) (v8 TS m) (partsOf TS m) hspec

/-! ## Reading the composed valuation -/

omit [∀ e, Nonempty (Elt F e)] in
/-- A reference that no stretch, no region and not the SparseCore call writes holds, at the end, its launch contents. -/
theorem W4_of_not_written {r : Ref sig .tc} (h9 : r ≠ main_v9) (h8 : r ≠ main_v8) (h7 : r ≠ main_v7) (h6 : r ≠ main_v6)
    (hA : r ∉ Host.writesA) (c : Dev nD)
    (x7 : (d : Dev nD) → Buf (Elt F) ((d.tc : Thread nD τ).loc main_v7)) (x8 : (d : Dev nD) → Buf (Elt F) ((d.tc : Thread nD τ).loc main_v8)) :
    W4 TS m Host.hostOpsA Host.hostOpsB x7 x8 c (dr r) = m ((c.tc : Thread nD τ).loc r) := by
  unfold W4 W3
  rw [Host.afterB_of_ne _ h9, Function.update_of_ne (fun e => h8 (dr_inj e)), Function.update_of_ne (fun e => h7 (dr_inj e)),
    W2_ne TS m Host.hostOpsA c (fun e => h6 (dr_inj e))]
  unfold W1
  rw [Host.afterA_of_not_mem _ hA]
  rfl

omit [∀ e, Nonempty (Elt F e)] in
/-- The scalar result at the end is the one entry of the combine region's result. -/
theorem W4_v9 (c : Dev nD)
    (x7 : (d : Dev nD) → Buf (Elt F) ((d.tc : Thread nD τ).loc main_v7)) (x8 : (d : Dev nD) → Buf (Elt F) ((d.tc : Thread nD τ).loc main_v8)) :
    W4 TS m Host.hostOpsA Host.hostOpsB x7 x8 c (dr main_v9) ix0 = x8 c (ix2 (0 : Fin 1) (0 : Fin 1)) := by
  unfold W4
  rw [Host.afterB_v9_apply]
  unfold W3
  rw [Function.update_self]

/-! ## The frame, and the run with the arguments read back -/

include hspec in
/-- The program runs to its end and its four argument arrays end unchanged. -/
theorem frameOf :
    θ_run (Cert.KernelIdeal.defs (F := F)) (Cert.KernelIdeal.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run _ _ _).mono (fun r hr c => by
    obtain ⟨h0, h1, h2, h3, -⟩ := hr c
    exact ⟨h0.trans (W4_of_not_written TS m (by decide) (by decide) (by decide) (by decide) (by decide) c _ _),
      h1.trans (W4_of_not_written TS m (by decide) (by decide) (by decide) (by decide) (by decide) c _ _),
      h2.trans (W4_of_not_written TS m (by decide) (by decide) (by decide) (by decide) (by decide) c _ _),
      h3.trans (W4_of_not_written TS m (by decide) (by decide) (by decide) (by decide) (by decide) c _ _)⟩)
    (runOf TS hspec m ρ)

include hspec in
/-- The same run, the result named first and the arguments read back: the scalar result is at the composed valuation
    and the four argument arrays end unchanged. -/
theorem valueOf :
    θ_run (Cert.KernelIdeal.defs (F := F)) (Cert.KernelIdeal.threads (F := F)) ⟨m, fun _ => 0, ρ⟩ (fun r => ∀ c : Dev nD,
      r.2.mem ((c.tc : Thread nD τ).loc main_v9) = W4 TS m Host.hostOpsA Host.hostOpsB (v7 TS m) (v8 TS m) c (dr main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run _ _ _).mono (fun r hr c => by
    obtain ⟨h0, h1, h2, h3, h9⟩ := hr c
    exact ⟨h9,
      h0.trans (W4_of_not_written TS m (by decide) (by decide) (by decide) (by decide) (by decide) c _ _),
      h1.trans (W4_of_not_written TS m (by decide) (by decide) (by decide) (by decide) (by decide) c _ _),
      h2.trans (W4_of_not_written TS m (by decide) (by decide) (by decide) (by decide) (by decide) c _ _),
      h3.trans (W4_of_not_written TS m (by decide) (by decide) (by decide) (by decide) (by decide) c _ _)⟩)
    (runOf TS hspec m ρ)

end Parametric

/-! ## At the tile kernel's own sets and specification -/

/-- The tile kernel's element sets and its row as a pure term of the four inputs. -/
def TS : TileSets F where
  ztSet := ScBody.ztSet
  vecSet := ScBody.vecSet
  outSet := ScBody.outSet
  scRow := ScBody.scRow
  mem_ztSet := fun L ix => ScBody.mem_ztSet
  mem_vecSet := fun L ix => ScBody.mem_vecSet
  mem_outSet := fun L ix => ScBody.mem_outSet

omit [∀ e, Nonempty (Elt F e)] in
/-- The tile kernel meets its specification: its body's triple, the five pieces of the arrays grouped as the launch
    hands them over. -/
theorem hspec : TileSpec (F := F) (TS (F := F)) := fun d L O W zt l lp cnd o => by
  unfold tileTd tileGo
  refine (?_ : _ ⊢ _).trans ((ScBody.tile_body (F := F) (Name := ℕ) (U := UU) LaunchA.facts d L O W zt l lp cnd o).trans
    (wp_mono frame _ _ fun _ => ?_))
  · iintro ⟨Hmw, ⟨Hz, Hl, Hp, Hc, Ho⟩, Hb, Hs, HO⟩
    isplitl [Hmw]; · iexact Hmw
    isplitl [Hz]; · iexact Hz
    isplitl [Hl]; · iexact Hl
    isplitl [Hp]; · iexact Hp
    isplitl [Hc]; · iexact Hc
    isplitl [Ho]; · iexact Ho
    isplitl [Hb]; · iexact Hb
    isplitl [Hs]; · iexact Hs
    iexact HO
  · iintro ⟨Hz, Hl, Hp, Hc, Ho, Hb, Hs, HO⟩
    isplitl [Hz Hl Hp Hc Ho]
    · isplitl [Hz]; · iexact Hz
      isplitl [Hl]; · iexact Hl
      isplitl [Hp]; · iexact Hp
      isplitl [Hc]; · iexact Hc
      iexact Ho
    isplitl [Hb]; · iexact Hb
    isplitl [Hs]; · iexact Hs
    iexact HO

variable (m : (ℓ : Loc nD τ sig) → Buf (Elt F) ℓ) (ρ : Dev nD → PrngReg)

/-- The launch's parts at the tile kernel's sets. -/
def parts : Launch.Parts (TS (F := F)) m Host.hostOpsA Host.hostOpsB (v7 TS m) (v8 TS m) := partsOf TS m

/-- The whole program's run: every weakly fair execution ends, and every final memory holds the four arguments and the
    result at the composed valuation. -/
theorem run :
    θ_run (Cert.KernelIdeal.defs (F := F)) (Cert.KernelIdeal.threads (F := F)) ⟨m, fun _ => 0, ρ⟩
      (Launch.QC (TS (F := F)) m Host.hostOpsA Host.hostOpsB
        (fun d => Dense.resD d (Launch.Vin0 TS m Host.hostOpsA d))
        (fun d => Combine.v8 (Launch.Vin1 TS m Host.hostOpsA (fun d => Dense.resD d (Launch.Vin0 TS m Host.hostOpsA d))) d)) :=
  runOf TS hspec m ρ

/-- The frame: the program runs to its end and its four argument arrays end unchanged. -/
theorem frame_run :
    θ_run (Cert.KernelIdeal.defs (F := F)) (Cert.KernelIdeal.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frameOf TS hspec m ρ

/-- The run with the result named first and the arguments read back. -/
theorem value_run :
    θ_run (Cert.KernelIdeal.defs (F := F)) (Cert.KernelIdeal.threads (F := F)) ⟨m, fun _ => 0, ρ⟩ (fun r => ∀ c : Dev nD,
      r.2.mem ((c.tc : Thread nD τ).loc main_v9) = W4 TS m Host.hostOpsA Host.hostOpsB (v7 TS m) (v8 TS m) c (dr main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  valueOf TS hspec m ρ

end Cert.KernelIdeal.Inst

end
-- ==== Proof.Bits.LaunchA.lean ====
/-
  The run of the whole program from its parts, I.

  The program as the launch theorem for a SparseCore program sees it; the resource algebra (the handshakes' rounds, the
  staging cells' rounds of the two TensorCore kernels, the transfers' counters); what the handshakes of the one
  SparseCore call carry: each of the 32 tiles gets its 64 by 512 block of the transposed matrix, its 512 entries of the
  two label vectors and of the widened mask, and its own row of the 32 by 16 result, and gives them back with the row
  at the tile's value. A SparseCore's payload is the conjunction of its sixteen tiles', so the split among the tiles is
  the identity. The tile's obligation follows from the tile kernel's specification, which is a hypothesis here.
-/
import proofs.«202802_g48112223650475_cont_8to1c4_51_21_alg».proof.Proof.Gen.Kernel
import proofs.«202802_g48112223650475_cont_8to1c4_51_21_alg».proof.Proof.Gen.Kernel.Launch
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic

noncomputable section

namespace Cert.Kernel.LaunchA

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UR : Type := URounds (GSem nD τ sig) Unit
abbrev UU : Type := (UH × UR) × Counters

local notation "𝕄" => MT nD τ sig (HIx 1) (Elt F) ℕ UU ℕ

/-- The handshakes' rounds: the left of the left factor. -/
def EH : Emb UH (MT nD τ sig (HIx 1) (Elt F) ℕ UU ℕ) := (Emb.inl : Emb UH (UH × UR)).trans embL
/-- The staging cells' rounds: the right of the left factor. The counters are found by instance in the right factor. -/
def EP : Emb UR (MT nD τ sig (HIx 1) (Elt F) ℕ UU ℕ) := (Emb.inr : Emb UR (UH × UR)).trans embL

instance EH_landsIn : (EH : Emb UH 𝕄).LandsIn (upEmb : UEmb _ 𝕄) := by unfold EH; infer_instance
instance EP_landsIn : (EP : Emb UR 𝕄).LandsIn (upEmb : UEmb _ 𝕄) := by unfold EP; infer_instance

/-! ## The tiles -/

/-- The coordinates of tile `i` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The tile's number among the 32: sixteen per SparseCore. -/
def wid (L : grid0.Coords) : Nat := 16 * (L 0).val + (L 1).val

/-- The tile's thread. -/
abbrev thr (d : Dev nD) (L : grid0.Coords) : Thread nD τ := V d ((L 0).castLE hcore0) ((L 1).castLE hsub0)

/-- The coordinates of the task the launch theorem numbers `(c, i)`. -/
abbrev Lof (c : Fin ((K (F := F)).nCore 0)) (i : Fin ((K (F := F)).nSub 0)) : grid0.Coords := coordsV ⟨c.val, c.isLt⟩ ⟨i.val, i.isLt⟩

theorem wid_Lof (c : Fin ((K (F := F)).nCore 0)) (i : Fin ((K (F := F)).nSub 0)) : wid (Lof (F := F) c i) = 16 * c.val + i.val := rfl

abbrev zLoc (d : Dev nD) : Loc nD τ sig := (SparseCore.T d).loc main_v0
abbrev lLoc (d : Dev nD) : Loc nD τ sig := (SparseCore.T d).loc main_arg2
abbrev lpLoc (d : Dev nD) : Loc nD τ sig := (SparseCore.T d).loc main_arg3
abbrev cLoc (d : Dev nD) : Loc nD τ sig := (SparseCore.T d).loc main_v1
abbrev oLoc (d : Dev nD) : Loc nD τ sig := (SparseCore.T d).loc main_v6

/-- The element sets of a tile: its block of the transposed matrix, its entries of a vector, its row of the result; and
    the tile's row as a pure term of the four inputs. These are hypotheses here; they are properties of the tile kernel. -/
structure TileSets (F : FTy → Type) where
  ztSet : grid0.Coords → Finset S1000x16384.Idx
  vecSet : grid0.Coords → Finset S16384.Idx
  outSet : grid0.Coords → Finset S32x16.Idx
  scRow : Vec F S1000x16384 .f32 → Vec F S16384 .i32 → Vec F S16384 .i32 → Vec F S16384 .i32 → grid0.Coords → Vec F S32x16 .f32
  mem_ztSet : ∀ L ix, ix ∈ ztSet L ↔ (ix 0).val < 64 ∧ 512 * wid L ≤ (ix 1).val ∧ (ix 1).val < 512 * wid L + 512
  mem_vecSet : ∀ L ix, ix ∈ vecSet L ↔ 512 * wid L ≤ (ix 0).val ∧ (ix 0).val < 512 * wid L + 512
  mem_outSet : ∀ L ix, ix ∈ outSet L ↔ (ix 0).val = wid L

variable (TS : TileSets F)

/-- What a tile is handed: its parts of the four inputs, and its row of the result at contents `o`. -/
def tileGo (d : Dev nD) (L : grid0.Coords) (zt : Vec F S1000x16384 .f32) (l lp cnd : Vec F S16384 .i32) (o : Vec F S32x16 .f32) : sProp 𝕄 :=
  iprop((zLoc d ↦[TS.ztSet L]{fullShare} zt) ∗ (lLoc d ↦[TS.vecSet L]{fullShare} l) ∗ (lpLoc d ↦[TS.vecSet L]{fullShare} lp)
    ∗ (cLoc d ↦[TS.vecSet L]{fullShare} cnd) ∗ (oLoc d ↦[TS.outSet L]{fullShare} o))

/-- What it hands back: the same, its row at the tile's value. -/
def tileTd (d : Dev nD) (L : grid0.Coords) (zt : Vec F S1000x16384 .f32) (l lp cnd : Vec F S16384 .i32) : sProp 𝕄 :=
  tileGo TS d L zt l lp cnd (TS.scRow zt l lp cnd L)

instance tileGo_storable (d : Dev nD) (L : grid0.Coords) (zt : Vec F S1000x16384 .f32) (l lp cnd : Vec F S16384 .i32) (o : Vec F S32x16 .f32) :
    BI.Storable (upEmb : UEmb _ 𝕄) (tileGo TS d L zt l lp cnd o) := by unfold tileGo; infer_instance
instance tileTd_storable (d : Dev nD) (L : grid0.Coords) (zt : Vec F S1000x16384 .f32) (l lp cnd : Vec F S16384 .i32) :
    BI.Storable (upEmb : UEmb _ 𝕄) (tileTd TS d L zt l lp cnd) := by unfold tileTd; infer_instance

/-- The contents the call is made at, per device: the transposed matrix, the two label vectors, the widened mask, and
    what the result array holds before the call. -/
structure CallVals (F : FTy → Type) where
  zt : Dev nD → Vec F S1000x16384 .f32
  l : Dev nD → Vec F S16384 .i32
  lp : Dev nD → Vec F S16384 .i32
  cnd : Dev nD → Vec F S16384 .i32
  o : Dev nD → Vec F S32x16 .f32

variable (cv : CallVals F)

/-- The one call's payloads: a tile's are `tileGo` and `tileTd` at the call's contents, a SparseCore's the
    conjunction of its tiles'; no kernel proof consumes anything of the launch's. -/
def P : (K (F := F)).Pay (nD := nD) (Val := Elt F) (Name := ℕ) (U := UU) where
  st := fun q d c => match q with
    | 0 => bigSep Finset.univ fun i : Fin ((K (F := F)).nSub 0) => tileGo TS d (Lof (F := F) c i) (cv.zt d) (cv.l d) (cv.lp d) (cv.cnd d) (cv.o d)
  dn := fun q d c => match q with
    | 0 => bigSep Finset.univ fun i : Fin ((K (F := F)).nSub 0) => tileTd TS d (Lof (F := F) c i) (cv.zt d) (cv.l d) (cv.lp d) (cv.cnd d)
  go := fun q d c i => match q with
    | 0 => tileGo TS d (Lof (F := F) c i) (cv.zt d) (cv.l d) (cv.lp d) (cv.cnd d) (cv.o d)
  td := fun q d c i => match q with
    | 0 => tileTd TS d (Lof (F := F) c i) (cv.zt d) (cv.l d) (cv.lp d) (cv.cnd d)
  x := fun _ _ => iprop(emp)

instance P_storable : (P (F := F) TS cv).IsStorable where
  st q d c := match q with
    | 0 => (inferInstance : BI.Storable (upEmb : UEmb _ 𝕄)
        (bigSep Finset.univ fun i : Fin ((K (F := F)).nSub 0) => tileGo TS d (Lof (F := F) c i) (cv.zt d) (cv.l d) (cv.lp d) (cv.cnd d) (cv.o d)))
  dn q d c := match q with
    | 0 => (inferInstance : BI.Storable (upEmb : UEmb _ 𝕄)
        (bigSep Finset.univ fun i : Fin ((K (F := F)).nSub 0) => tileTd TS d (Lof (F := F) c i) (cv.zt d) (cv.l d) (cv.lp d) (cv.cnd d)))
  go q d c i := match q with
    | 0 => (inferInstance : BI.Storable (upEmb : UEmb _ 𝕄) (tileGo TS d (Lof (F := F) c i) (cv.zt d) (cv.l d) (cv.lp d) (cv.cnd d) (cv.o d)))
  td q d c i := match q with
    | 0 => (inferInstance : BI.Storable (upEmb : UEmb _ 𝕄) (tileTd TS d (Lof (F := F) c i) (cv.zt d) (cv.l d) (cv.lp d) (cv.cnd d)))

/-- A SparseCore's payload splits into its tiles' by definition. -/
theorem vecSplit : (K (F := F)).VecSplit' (P TS cv) 0 := by
  intro d c
  show (bigSep Finset.univ fun i : Fin ((K (F := F)).nSub 0) => tileGo TS d (Lof (F := F) c i) (cv.zt d) (cv.l d) (cv.lp d) (cv.cnd d) (cv.o d))
    ⊢ |={Set.univ}=> iprop((bigSep Finset.univ fun i : Fin ((K (F := F)).nSub 0) => tileGo TS d (Lof (F := F) c i) (cv.zt d) (cv.l d) (cv.lp d) (cv.cnd d) (cv.o d))
      ∗ ((bigSep Finset.univ fun i : Fin ((K (F := F)).nSub 0) => tileTd TS d (Lof (F := F) c i) (cv.zt d) (cv.l d) (cv.lp d) (cv.cnd d))
          -∗ (bigSep Finset.univ fun i : Fin ((K (F := F)).nSub 0) => tileTd TS d (Lof (F := F) c i) (cv.zt d) (cv.l d) (cv.lp d) (cv.cnd d))))
  iintro H; imodintro
  isplitl [H]; · iexact H
  iintro H; iexact H

/-! ## The tile's obligation, from the tile kernel's specification -/

variable [FloatOps F]

/-- The tile kernel as the body table runs it at coordinates `L`. -/
abbrev tileProg (L : grid0.Coords) : Prog (TpuEff nD τ sig (Elt F) Λ₀ (.scVector ((L 0).castLE hcore0) ((L 1).castLE hsub0))) PUnit :=
  cc0__sc_stream L (Memref.whole main_v0_scv) (Memref.isWhole_whole _) (Memref.whole main_arg2_scv) (Memref.isWhole_whole _)
    (Memref.whole main_arg3_scv) (Memref.isWhole_whole _) (Memref.whole main_v1_scv) (Memref.isWhole_whole _) (Memref.whole main_v6_scv) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _)
    cc0_scratch5 cc0_scratch6 cc0_scoped0 cc0_scoped1 cc0_scoped2 cc0_scoped3

/-- The tile kernel's specification at any tile, any contents and whatever the tile owes: from the wait evidence, the
    tile's parts and its scoped storage, the kernel runs to the parts with the row at the tile's value. -/
def TileSpec : Prop :=
  ∀ (d : Dev nD) (L : grid0.Coords) (O : CellTallies nD τ sig (HIx 1)) (W : Waits sig (HIx 1))
    (zt : Vec F S1000x16384 .f32) (l lp cnd : Vec F S16384 .i32) (o : Vec F S32x16 .f32),
    iprop(Transfers.MayWaits (thr d L) (none : HIx 1) O ∗ tileGo TS d L zt l lp cnd o
        ∗ scopedBufs (thr d L) ∗ scopedSems0 (thr d L) ∗ owes (thr d L) O W)
      ⊢ wp frame (wpE (defs₀ (F := F)) 𝒱₀ (thr d L) none) Set.univ (tileProg (F := F) L)
          fun _ => (iprop(tileTd TS d L zt l lp cnd ∗ scopedBufs (thr d L) ∗ scopedSems0 (thr d L)
            ∗ ∃ W', ⌜∀ p ∈ W', p ∈ W ∨ p.2 = none⌝ ∗ owes (thr d L) O W') : sProp 𝕄)

theorem defs₀_vector (c : Fin τ.nSC) (s : Fin τ.nSub) :
    defs₀ (F := F) (.scVector c s) 0 ()
      = SparseCore.onTile hcore0 hsub0 (fun c s => tileProg (F := F) (coordsV c s)) ⟨⟩ c s := rfl

omit [FloatOps F] in
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hspec : TileSpec (F := F) TS) : (K (F := F)).TileObl (D (F := F)) 𝒱 (P TS cv) v₀ 0 := by
  intro d c i O W hO _ _
  simp only [show (P TS cv).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have hpre : iprop(levAts (K (F := F)).L (K (F := F)).lev ∗ (iprop(emp) : sProp 𝕄)
        ∗ tileGo TS d (Lof (F := F) c i) (cv.zt d) (cv.l d) (cv.lp d) (cv.cnd d) (cv.o d)
        ∗ scopedBufs (thr d (Lof (F := F) c i)) ∗ scopedSems0 (thr d (Lof (F := F) c i)) ∗ owes (thr d (Lof (F := F) c i)) O W)
      ⊢ (iprop(Transfers.MayWaits (thr d (Lof (F := F) c i)) (none : HIx 1) O
        ∗ tileGo TS d (Lof (F := F) c i) (cv.zt d) (cv.l d) (cv.lp d) (cv.cnd d) (cv.o d)
        ∗ scopedBufs (thr d (Lof (F := F) c i)) ∗ scopedSems0 (thr d (Lof (F := F) c i)) ∗ owes (thr d (Lof (F := F) c i)) O W) : sProp 𝕄) := by
    iintro ⟨#Hlv, -, Hgo, Hsb, Hss, HO⟩
    ihave Hmw := ((K (F := F)).mayWaits_none (thr := thr d (Lof (F := F) c i)) hO) $$ Hlv
    isplitl [Hmw]; · iexact Hmw
    isplitl [Hgo]; · iexact Hgo
    isplitl [Hsb]; · iexact Hsb
    isplitl [Hss]; · iexact Hss
    iexact HO
  exact hpre.trans ((hspec d (Lof (F := F) c i) O W (cv.zt d) (cv.l d) (cv.lp d) (cv.cnd d) (cv.o d)).trans (wp_mono frame _ _ fun _ => obl_post))

end Cert.Kernel.LaunchA

end
-- ==== Proof.Bits.LaunchB.lean ====
/-
  The run of the whole program from its parts, II: how the whole arrays split among the 32 tiles.

  Tile number `w = 16 c + i` owns columns `512 w … 512 w + 511` of the first 64 rows of the transposed matrix, entries
  `512 w … 512 w + 511` of each vector, and row `w` of the 32 by 16 result. Different tiles' sets are disjoint; the
  vectors' sets cover the vectors, the rows cover the result, and the blocks cover the first 64 rows of the matrix (the
  other 936 rows stay where they are). So an array held whole is the tiles' parts conjoined (and the rest), and the rows
  held at the tiles' values join to the result held whole at the one function that reads row `w` off tile `w`'s value.
-/
import proofs.«202802_g48112223650475_cont_8to1c4_51_21_alg».proof.Proof.Bits.LaunchA

noncomputable section

namespace Cert.Kernel.LaunchB

open Cert.Kernel Cert.Kernel.Gen Cert.Kernel.LaunchA

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The tasks of the one call: SparseCore by tile. -/
abbrev TI (F : FTy → Type) : Type := Fin ((K (F := F)).nCore 0) × Fin ((K (F := F)).nSub 0)

theorem c_lt (c : Fin ((K (F := F)).nCore 0)) : c.val < 2 := c.isLt
theorem i_lt (i : Fin ((K (F := F)).nSub 0)) : i.val < 16 := i.isLt

theorem wid_inj {t t' : TI F} (h : wid (Lof (F := F) t.1 t.2) = wid (Lof (F := F) t'.1 t'.2)) : t = t' := by
  obtain ⟨c, i⟩ := t; obtain ⟨c', i'⟩ := t'
  have h' : 16 * c.val + i.val = 16 * c'.val + i'.val := h
  have := c_lt c; have := c_lt c'; have := i_lt i; have := i_lt i'
  exact Prod.ext (Fin.ext (by show c.val = c'.val; omega)) (Fin.ext (by show i.val = i'.val; omega))

variable (TS : TileSets F)

theorem zt_disjoint : ∀ t ∈ (Finset.univ : Finset (TI F)), ∀ t' ∈ (Finset.univ : Finset (TI F)), t ≠ t' →
    Disjoint (TS.ztSet (Lof (F := F) t.1 t.2)) (TS.ztSet (Lof (F := F) t'.1 t'.2)) := fun t _ t' _ hne =>
  Finset.disjoint_left.mpr fun ix h1 h2 => hne (wid_inj (by
    have a := (TS.mem_ztSet _ ix).mp h1; have b := (TS.mem_ztSet _ ix).mp h2; omega))

theorem vec_disjoint : ∀ t ∈ (Finset.univ : Finset (TI F)), ∀ t' ∈ (Finset.univ : Finset (TI F)), t ≠ t' →
    Disjoint (TS.vecSet (Lof (F := F) t.1 t.2)) (TS.vecSet (Lof (F := F) t'.1 t'.2)) := fun t _ t' _ hne =>
  Finset.disjoint_left.mpr fun ix h1 h2 => hne (wid_inj (by
    have a := (TS.mem_vecSet _ ix).mp h1; have b := (TS.mem_vecSet _ ix).mp h2; omega))

theorem out_disjoint : ∀ t ∈ (Finset.univ : Finset (TI F)), ∀ t' ∈ (Finset.univ : Finset (TI F)), t ≠ t' →
    Disjoint (TS.outSet (Lof (F := F) t.1 t.2)) (TS.outSet (Lof (F := F) t'.1 t'.2)) := fun t _ t' _ hne =>
  Finset.disjoint_left.mpr fun ix h1 h2 => hne (wid_inj (by
    have a := (TS.mem_outSet _ ix).mp h1; have b := (TS.mem_outSet _ ix).mp h2; omega))

/-- The task whose number is `w`. -/
def taskOf (w : Nat) (hw : w < 32) : TI F := (⟨w / 16, by show w / 16 < 2; omega⟩, ⟨w % 16, by show w % 16 < 16; omega⟩)

theorem wid_taskOf (w : Nat) (hw : w < 32) : wid (Lof (F := F) (taskOf (F := F) w hw).1 (taskOf (F := F) w hw).2) = w := by
  rw [wid_Lof]; show 16 * (w / 16) + w % 16 = w; omega

/-- The first 64 rows of the transposed matrix. -/
def lowSet : Finset S1000x16384.Idx := Finset.univ.filter fun ix => (ix 0).val < 64

theorem zt_cover : (Finset.univ : Finset (TI F)).biUnion (fun t => TS.ztSet (Lof (F := F) t.1 t.2)) = lowSet := by
  ext ix
  simp only [Finset.mem_biUnion, Finset.mem_univ, true_and, lowSet, Finset.mem_filter]
  constructor
  · rintro ⟨t, ht⟩; exact ((TS.mem_ztSet _ ix).mp ht).1
  · intro h
    have h1 : (ix 1).val < 16384 := (ix 1).isLt
    refine ⟨taskOf (F := F) ((ix 1).val / 512) (by omega), (TS.mem_ztSet _ ix).mpr ?_⟩
    rw [wid_taskOf]; omega

theorem vec_cover : (Finset.univ : Finset (TI F)).biUnion (fun t => TS.vecSet (Lof (F := F) t.1 t.2)) = Finset.univ := by
  ext ix
  simp only [Finset.mem_biUnion, Finset.mem_univ, true_and, iff_true]
  have h0 : (ix 0).val < 16384 := (ix 0).isLt
  refine ⟨taskOf (F := F) ((ix 0).val / 512) (by omega), (TS.mem_vecSet _ ix).mpr ?_⟩
  rw [wid_taskOf]; omega

theorem out_cover : (Finset.univ : Finset (TI F)).biUnion (fun t => TS.outSet (Lof (F := F) t.1 t.2)) = Finset.univ := by
  ext ix
  simp only [Finset.mem_biUnion, Finset.mem_univ, true_and, iff_true]
  have h0 : (ix 0).val < 32 := (ix 0).isLt
  refine ⟨taskOf (F := F) (ix 0).val h0, (TS.mem_outSet _ ix).mpr ?_⟩
  rw [wid_taskOf]

/-! ## The arrays held whole, as the tiles' parts -/

/-- Conjoined over the tasks is conjoined over the SparseCores and, for each, its tiles. -/
theorem bigSep_tasks (Φ : TI F → sProp 𝕄) :
    bigSep Finset.univ Φ = bigSep Finset.univ fun c : Fin ((K (F := F)).nCore 0) => bigSep Finset.univ fun i : Fin ((K (F := F)).nSub 0) => Φ (c, i) :=
  bigSep_univ_prod Φ

theorem zt_split (d : Dev nD) (f : Vec F S1000x16384 .f32) :
    (zLoc d ↦{fullShare} f : sProp 𝕄)
      = iprop((bigSep Finset.univ fun c : Fin ((K (F := F)).nCore 0) => bigSep Finset.univ fun i : Fin ((K (F := F)).nSub 0) =>
            zLoc d ↦[TS.ztSet (Lof (F := F) c i)]{fullShare} f)
          ∗ zLoc d ↦[Finset.univ \ lowSet]{fullShare} f) := by
  rw [← bigSep_tasks (F := F) (fun t => zLoc d ↦[TS.ztSet (Lof (F := F) t.1 t.2)]{fullShare} f),
    ← pointsTo_biUnion Finset.univ (ℓ := zLoc d) (fun t : TI F => TS.ztSet (Lof (F := F) t.1 t.2)) (zt_disjoint TS), zt_cover]
  exact BI.equiv_iff.mp ⟨(pointsTo_split_subset (ℓ := zLoc d) (Finset.subset_univ lowSet)).1, (pointsTo_split_subset (ℓ := zLoc d) (Finset.subset_univ lowSet)).2⟩

theorem l_split (d : Dev nD) (f : Vec F S16384 .i32) :
    (lLoc d ↦{fullShare} f : sProp 𝕄)
      = bigSep Finset.univ fun c : Fin ((K (F := F)).nCore 0) => bigSep Finset.univ fun i : Fin ((K (F := F)).nSub 0) =>
            lLoc d ↦[TS.vecSet (Lof (F := F) c i)]{fullShare} f := by
  rw [← bigSep_tasks (F := F) (fun t => lLoc d ↦[TS.vecSet (Lof (F := F) t.1 t.2)]{fullShare} f),
    ← pointsTo_biUnion Finset.univ (ℓ := lLoc d) (fun t : TI F => TS.vecSet (Lof (F := F) t.1 t.2)) (vec_disjoint TS), vec_cover]; try rfl
theorem lp_split (d : Dev nD) (f : Vec F S16384 .i32) :
    (lpLoc d ↦{fullShare} f : sProp 𝕄)
      = bigSep Finset.univ fun c : Fin ((K (F := F)).nCore 0) => bigSep Finset.univ fun i : Fin ((K (F := F)).nSub 0) =>
            lpLoc d ↦[TS.vecSet (Lof (F := F) c i)]{fullShare} f := by
  rw [← bigSep_tasks (F := F) (fun t => lpLoc d ↦[TS.vecSet (Lof (F := F) t.1 t.2)]{fullShare} f),
    ← pointsTo_biUnion Finset.univ (ℓ := lpLoc d) (fun t : TI F => TS.vecSet (Lof (F := F) t.1 t.2)) (vec_disjoint TS), vec_cover]; try rfl
theorem c_split (d : Dev nD) (f : Vec F S16384 .i32) :
    (cLoc d ↦{fullShare} f : sProp 𝕄)
      = bigSep Finset.univ fun c : Fin ((K (F := F)).nCore 0) => bigSep Finset.univ fun i : Fin ((K (F := F)).nSub 0) =>
            cLoc d ↦[TS.vecSet (Lof (F := F) c i)]{fullShare} f := by
  rw [← bigSep_tasks (F := F) (fun t => cLoc d ↦[TS.vecSet (Lof (F := F) t.1 t.2)]{fullShare} f),
    ← pointsTo_biUnion Finset.univ (ℓ := cLoc d) (fun t : TI F => TS.vecSet (Lof (F := F) t.1 t.2)) (vec_disjoint TS), vec_cover]; try rfl
theorem o_split (d : Dev nD) (f : Vec F S32x16 .f32) :
    (oLoc d ↦{fullShare} f : sProp 𝕄)
      = bigSep Finset.univ fun c : Fin ((K (F := F)).nCore 0) => bigSep Finset.univ fun i : Fin ((K (F := F)).nSub 0) =>
            oLoc d ↦[TS.outSet (Lof (F := F) c i)]{fullShare} f := by
  rw [← bigSep_tasks (F := F) (fun t => oLoc d ↦[TS.outSet (Lof (F := F) t.1 t.2)]{fullShare} f),
    ← pointsTo_biUnion Finset.univ (ℓ := oLoc d) (fun t : TI F => TS.outSet (Lof (F := F) t.1 t.2)) (out_disjoint TS), out_cover]; try rfl

/-- The 32 by 16 result after the call: row `w` read off tile `w`'s value. -/
def scOut (zt : Vec F S1000x16384 .f32) (l lp cnd : Vec F S16384 .i32) : Vec F S32x16 .f32 := fun ix =>
  TS.scRow zt l lp cnd (Lof (F := F) (taskOf (F := F) (ix 0).val (ix 0).isLt).1 (taskOf (F := F) (ix 0).val (ix 0).isLt).2) ix

/-- The rows at the tiles' values are the rows of the one function. -/
theorem o_join (d : Dev nD) (zt : Vec F S1000x16384 .f32) (l lp cnd : Vec F S16384 .i32) :
    (bigSep Finset.univ fun c : Fin ((K (F := F)).nCore 0) => bigSep Finset.univ fun i : Fin ((K (F := F)).nSub 0) =>
        (oLoc d ↦[TS.outSet (Lof (F := F) c i)]{fullShare} TS.scRow zt l lp cnd (Lof (F := F) c i) : sProp 𝕄))
      = (oLoc d ↦{fullShare} scOut TS zt l lp cnd) := by
  rw [o_split TS d (scOut TS zt l lp cnd)]
  refine bigSep_congr fun c _ => bigSep_congr fun i _ => pointsTo_congr fun ix hix => ?_
  have hw : (ix 0).val = wid (Lof (F := F) c i) := (TS.mem_outSet _ ix).mp hix
  have ht : taskOf (F := F) (ix 0).val (ix 0).isLt = (c, i) :=
    wid_inj (t := taskOf (F := F) (ix 0).val (ix 0).isLt) (t' := (c, i)) ((wid_taskOf (F := F) _ _).trans hw)
  have key : ∀ t : TI F, t = (c, i) → TS.scRow zt l lp cnd (Lof (F := F) c i) ix = TS.scRow zt l lp cnd (Lof (F := F) t.1 t.2) ix := by
    rintro _ rfl; rfl
  exact key _ ht

end Cert.Kernel.LaunchB

end
-- ==== Proof.Bits.Launch.lean ====
/-
  The run of the whole program from its parts, III: the launch element, @main on the TensorCore, and the run.

  @main is: six host operations; the SparseCore call; the two TensorCore kernel regions; the final reshape. Holding the
  TensorCore's fourteen arrays whole, the host operations run to their values; the five arrays of the call are split
  into the 32 tiles' parts (the rows of the transposed matrix from 64 on stay here), handed over, and come back with the
  result at the one function reading row `w` off tile `w`'s value; what the TensorCore then owes is nothing, its recorded
  waits within the levels the call left, and each region runs from that to the same with its result written; then the
  reshape. The final memory holds the four arguments at their launch contents and the result at the composed value.

  The host operations' values and the two regions' runs enter as hypotheses.
-/
import proofs.«202802_g48112223650475_cont_8to1c4_51_21_alg».proof.Proof.Bits.LaunchB
import Idealize.ShloMosaic.Lib.Pipeline.Frame

noncomputable section

namespace Cert.Kernel.Launch

open Cert.Kernel Cert.Kernel.Gen Cert.Kernel.LaunchA Cert.Kernel.LaunchB

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr)

variable {F : FTy → Type}

local notation "𝕄" => MT nD τ sig (HIx 1) (Elt F) ℕ UU ℕ

/-! ## The pipelines' staging cells and the launch element -/

/-- The one admissible contents of each pipeline's (empty) prefetched tables. -/
abbrev adm : (p : Fin 2) → (pcfgs (F := F) p).Adm := fun p => (cfgs p).toPCfg_adm
/-- The pipelines at them. -/
abbrev pcs : Fin 2 → Pipeline.Cfg sig Λ₀ := Pipeline.pin (pcfgs (F := F)) adm

theorem pcs_inj : Function.Injective (Pipeline.cellOf (nD := nD) (τ := τ) (pcs (F := F))) := cellOf_inj

def u₀ : UU :=
  ((initOf (K (F := F)).hsCells (K (F := F)).hsToks,
    initOf (Pipeline.cells (pcs (F := F)) pcs_inj) (Pipeline.launchToks (pcs (F := F)) pcs_inj)), 1)

/-- What @main's proof starts from beside what the launch deals: the ghost state of both pipelines' staging cells. -/
def G (d : Dev nD) : sProp 𝕄 :=
  bigSep Finset.univ fun p : Fin 2 => iprop(Pipeline.cellsGhost (pcs (F := F)) EP p d ∗ Pipeline.toksInit (pcs (F := F)) EP p d)

theorem G_eq (d : Dev nD) : (G (F := F) d : sProp 𝕄)
    = iprop((Pipeline.cellsGhost (pcs (F := F)) EP 0 d ∗ Pipeline.toksInit (pcs (F := F)) EP 0 d)
        ∗ (Pipeline.cellsGhost (pcs (F := F)) EP 1 d ∗ Pipeline.toksInit (pcs (F := F)) EP 1 d)) := by
  unfold G
  rw [show (Finset.univ : Finset (Fin 2)) = {0, 1} by decide, SparseCore.bigSep_insert' (by decide), bigSep_singleton]

theorem bigSep_emp' {I : Type} (s : Finset I) : (bigSep s fun _ => iprop(emp)) = (iprop(emp) : sProp 𝕄) := bigSep_emp_const s

variable (TS : TileSets F) (cv : CallVals F)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun t : Thread nD τ => bigSep Finset.univ fun q : Fin 1 => (P TS cv).x q t) := by
  have hG : (bigSep Finset.univ fun d : Dev nD => G (F := F) d)
      = iprop((bigSep Finset.univ fun c : Dev nD => bigSep Finset.univ fun p : Fin 2 => Pipeline.cellsGhost (pcs (F := F)) EP p c)
          ∗ (bigSep Finset.univ fun c : Dev nD => bigSep Finset.univ fun p : Fin 2 => (Pipeline.toksInit (pcs (F := F)) EP p c : sProp 𝕄))) := by
    unfold G; simp only [bigSep_sep']
  have hsplit : (ownU (u₀ (F := F)) : sProp 𝕄)
      ⊢ iprop(BI.own (EH (initOf (K (F := F)).hsCells (K (F := F)).hsToks))
          ∗ BI.own (EP (initOf (Pipeline.cells (pcs (F := F)) pcs_inj) (Pipeline.launchToks (pcs (F := F)) pcs_inj)))) :=
    (ownU_pair _ _).trans (sep_elim_left.trans
      (show (BI.own ((embL : Emb (UH × UR) 𝕄) (initOf (K (F := F)).hsCells (K (F := F)).hsToks,
            initOf (Pipeline.cells (pcs (F := F)) pcs_inj) (Pipeline.launchToks (pcs (F := F)) pcs_inj))) : sProp 𝕄)
          ⊢ iprop(BI.own (EH (initOf (K (F := F)).hsCells (K (F := F)).hsToks))
            ∗ BI.own (EP (initOf (Pipeline.cells (pcs (F := F)) pcs_inj) (Pipeline.launchToks (pcs (F := F)) pcs_inj))))
        from own_pair_emb (embL : Emb (UH × UR) 𝕄) (initOf (K (F := F)).hsCells (K (F := F)).hsToks)
          (initOf (Pipeline.cells (pcs (F := F)) pcs_inj) (Pipeline.launchToks (pcs (F := F)) pcs_inj))))
  iintro Hu
  ihave H2 := hsplit $$ Hu
  icases H2 with ⟨HH, HP⟩
  imod (Pipeline.fund_ghost (pcs (F := F)) EP pcs_inj) $$ HP with Hg
  imodintro
  isplitl [HH]; · iexact HH
  isplitl [Hg]; · rw [hG]; iexact Hg
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The valuations along @main -/

variable (m : (ℓ : Loc nD τ sig) → Buf (Elt F) ℓ) (ρ : Dev nD → PrngReg)
variable (opsA opsB : List (HloOp τ sig (Elt F)))

/-- A TensorCore reference as a buffer of the device. -/
abbrev dr (b : Ref sig .tc) : DevRef τ sig := Proc.devRef .tc b

theorem dr_inj : Function.Injective (dr : Ref sig .tc → DevRef τ sig) := by decide

/-- The TensorCore's arrays at contents of their own, as the regions' states name them. -/
abbrev TcVal (F : FTy → Type) (d : Dev nD) : Type := (b : Ref sig .tc) → Buf (Elt F) ((d.tc : Thread nD τ).loc b)

/-- The launch contents; -/
def W0 (d : Dev nD) : Valuation τ sig (Elt F) := fun b => m (d, b)
/-- after the six host operations; -/
def W1 (d : Dev nD) : Valuation τ sig (Elt F) := StableHlo.after opsA (W0 m d)

/-- the contents the SparseCore call is made at; -/
def cvOf : CallVals F where
  zt d := W1 m opsA d (dr main_v0)
  l d := W1 m opsA d (dr main_arg2)
  lp d := W1 m opsA d (dr main_arg3)
  cnd d := W1 m opsA d (dr main_v1)
  o d := W1 m opsA d (dr main_v6)

/-- after the call: the 32 by 16 result at the tiles' rows. -/
def W2 (d : Dev nD) : Valuation τ sig (Elt F) :=
  Function.update (W1 m opsA d) (dr main_v6)
    (scOut TS ((cvOf m opsA).zt d) ((cvOf m opsA).l d) ((cvOf m opsA).lp d) ((cvOf m opsA).cnd d))

/-- What the first region is entered at, -/
def Vin0 (d : Dev nD) : TcVal F d := fun b => W2 TS m opsA d (dr b)

variable (v7 : (d : Dev nD) → Buf (Elt F) ((d.tc : Thread nD τ).loc main_v7))
variable (v8 : (d : Dev nD) → Buf (Elt F) ((d.tc : Thread nD τ).loc main_v8))

/-- the second, -/
def Vin1 (d : Dev nD) : TcVal F d := Function.update (Vin0 TS m opsA d) main_v7 (v7 d)
/-- what it leaves, -/
def Vout1 (d : Dev nD) : TcVal F d := Function.update (Vin1 TS m opsA v7 d) main_v8 (v8 d)

/-- the same as a valuation of the device's buffers, -/
def W3 (d : Dev nD) : Valuation τ sig (Elt F) :=
  Function.update (Function.update (W2 TS m opsA d) (dr main_v7) (v7 d)) (dr main_v8) (v8 d)
/-- and after the final reshape. -/
def W4 (d : Dev nD) : Valuation τ sig (Elt F) := StableHlo.after opsB (W3 TS m opsA v7 v8 d)

theorem dr_update (d : Dev nD) (W : Valuation τ sig (Elt F)) (r : Ref sig .tc) (x : Buf (Elt F) ((d.tc : Thread nD τ).loc r)) :
    ((fun b => Function.update W (dr r) x (dr b)) : TcVal F d) = Function.update ((fun b => W (dr b)) : TcVal F d) r x := by
  funext b
  by_cases h : b = r
  · subst h; rw [Function.update_self, Function.update_self]
  · rw [Function.update_of_ne h, Function.update_of_ne (fun e => h (dr_inj e))]

theorem Vout1_eq (d : Dev nD) : Vout1 TS m opsA v7 v8 d = fun b => W3 TS m opsA v7 v8 d (dr b) := by
  unfold Vout1 Vin1 Vin0 W3
  rw [dr_update d, dr_update d]

/-! ## The call's five arrays among the fourteen -/

/-- The five arrays the call is handed. -/
abbrev T5 : Finset (DevRef τ sig) := {dr main_v0, dr main_arg2, dr main_arg3, dr main_v1, dr main_v6}

theorem T5_sub : (T5 : Finset (DevRef τ sig)) ⊆ Pipeline.ucRefs τ sig := by decide

theorem held_T5 (d : Dev nD) (W : Valuation τ sig (Elt F)) :
    (held (SparseCore.T d) T5 W : sProp 𝕄)
      = iprop((zLoc d ↦{fullShare} W (dr main_v0)) ∗ (lLoc d ↦{fullShare} W (dr main_arg2)) ∗ (lpLoc d ↦{fullShare} W (dr main_arg3))
          ∗ (cLoc d ↦{fullShare} W (dr main_v1)) ∗ (oLoc d ↦{fullShare} W (dr main_v6))) := by
  unfold held T5
  rw [SparseCore.bigSep_insert' (by decide), SparseCore.bigSep_insert' (by decide), SparseCore.bigSep_insert' (by decide),
    SparseCore.bigSep_insert' (by decide), bigSep_singleton]

/-- What stays with the TensorCore during the call: rows 64 to 999 of the transposed matrix and the other nine arrays. -/
def Stay (d : Dev nD) : sProp 𝕄 :=
  iprop((zLoc d ↦[Finset.univ \ lowSet]{fullShare} (cvOf m opsA).zt d) ∗ held (SparseCore.T d) (Pipeline.ucRefs τ sig \ T5) (W1 m opsA d))

theorem st_eq (d : Dev nD) :
    (bigSep Finset.univ fun c : Fin ((K (F := F)).nCore 0) => (P TS (cvOf m opsA)).st 0 d c)
      = iprop((bigSep Finset.univ fun c : Fin ((K (F := F)).nCore 0) => bigSep Finset.univ fun i : Fin ((K (F := F)).nSub 0) =>
            zLoc d ↦[TS.ztSet (Lof (F := F) c i)]{fullShare} (cvOf m opsA).zt d)
        ∗ (bigSep Finset.univ fun c : Fin ((K (F := F)).nCore 0) => bigSep Finset.univ fun i : Fin ((K (F := F)).nSub 0) =>
            lLoc d ↦[TS.vecSet (Lof (F := F) c i)]{fullShare} (cvOf m opsA).l d)
        ∗ (bigSep Finset.univ fun c : Fin ((K (F := F)).nCore 0) => bigSep Finset.univ fun i : Fin ((K (F := F)).nSub 0) =>
            lpLoc d ↦[TS.vecSet (Lof (F := F) c i)]{fullShare} (cvOf m opsA).lp d)
        ∗ (bigSep Finset.univ fun c : Fin ((K (F := F)).nCore 0) => bigSep Finset.univ fun i : Fin ((K (F := F)).nSub 0) =>
            cLoc d ↦[TS.vecSet (Lof (F := F) c i)]{fullShare} (cvOf m opsA).cnd d)
        ∗ (bigSep Finset.univ fun c : Fin ((K (F := F)).nCore 0) => bigSep Finset.univ fun i : Fin ((K (F := F)).nSub 0) =>
            (oLoc d ↦[TS.outSet (Lof (F := F) c i)]{fullShare} (cvOf m opsA).o d : sProp 𝕄))) := by
  show (bigSep Finset.univ fun c : Fin ((K (F := F)).nCore 0) => bigSep Finset.univ fun i : Fin ((K (F := F)).nSub 0) =>
      tileGo TS d (Lof (F := F) c i) ((cvOf m opsA).zt d) ((cvOf m opsA).l d) ((cvOf m opsA).lp d) ((cvOf m opsA).cnd d) ((cvOf m opsA).o d)) = _
  unfold tileGo; simp only [bigSep_sep']

theorem dn_eq (d : Dev nD) :
    (bigSep Finset.univ fun c : Fin ((K (F := F)).nCore 0) => (P TS (cvOf m opsA)).dn 0 d c)
      = iprop((bigSep Finset.univ fun c : Fin ((K (F := F)).nCore 0) => bigSep Finset.univ fun i : Fin ((K (F := F)).nSub 0) =>
            zLoc d ↦[TS.ztSet (Lof (F := F) c i)]{fullShare} (cvOf m opsA).zt d)
        ∗ (bigSep Finset.univ fun c : Fin ((K (F := F)).nCore 0) => bigSep Finset.univ fun i : Fin ((K (F := F)).nSub 0) =>
            lLoc d ↦[TS.vecSet (Lof (F := F) c i)]{fullShare} (cvOf m opsA).l d)
        ∗ (bigSep Finset.univ fun c : Fin ((K (F := F)).nCore 0) => bigSep Finset.univ fun i : Fin ((K (F := F)).nSub 0) =>
            lpLoc d ↦[TS.vecSet (Lof (F := F) c i)]{fullShare} (cvOf m opsA).lp d)
        ∗ (bigSep Finset.univ fun c : Fin ((K (F := F)).nCore 0) => bigSep Finset.univ fun i : Fin ((K (F := F)).nSub 0) =>
            cLoc d ↦[TS.vecSet (Lof (F := F) c i)]{fullShare} (cvOf m opsA).cnd d)
        ∗ (bigSep Finset.univ fun c : Fin ((K (F := F)).nCore 0) => bigSep Finset.univ fun i : Fin ((K (F := F)).nSub 0) =>
            (oLoc d ↦[TS.outSet (Lof (F := F) c i)]{fullShare}
              TS.scRow ((cvOf m opsA).zt d) ((cvOf m opsA).l d) ((cvOf m opsA).lp d) ((cvOf m opsA).cnd d) (Lof (F := F) c i) : sProp 𝕄))) := by
  show (bigSep Finset.univ fun c : Fin ((K (F := F)).nCore 0) => bigSep Finset.univ fun i : Fin ((K (F := F)).nSub 0) =>
      tileTd TS d (Lof (F := F) c i) ((cvOf m opsA).zt d) ((cvOf m opsA).l d) ((cvOf m opsA).lp d) ((cvOf m opsA).cnd d)) = _
  unfold tileTd tileGo; simp only [bigSep_sep']

/-- The fourteen arrays after the host operations are the call's operands and what stays. -/
theorem call_split (d : Dev nD) :
    (unscopedBufs d (fun b => W1 m opsA d (dr b)) : sProp 𝕄)
      ⊢ iprop((bigSep Finset.univ fun c : Fin ((K (F := F)).nCore 0) => (P TS (cvOf m opsA)).st 0 d c) ∗ Stay m opsA d) := by
  rw [show (unscopedBufs d (fun b => W1 m opsA d (dr b)) : sProp 𝕄) = held (SparseCore.T d) (Pipeline.ucRefs τ sig) (W1 m opsA d) from
      Pipeline.unscopedBufs_held d (W1 m opsA d),
    held_sub_split (SparseCore.T d) T5_sub, held_T5, st_eq]
  unfold Stay
  rw [zt_split TS d, l_split TS d, lp_split TS d, c_split TS d, o_split TS d]
  iintro ⟨⟨⟨Hz, Hzr⟩, Hl, Hlp, Hc, Ho⟩, Hrest⟩
  isplitl [Hz Hl Hlp Hc Ho]
  · isplitl [Hz]; · iexact Hz
    isplitl [Hl]; · iexact Hl
    isplitl [Hlp]; · iexact Hlp
    isplitl [Hc]; · iexact Hc
    iexact Ho
  isplitl [Hzr]; · iexact Hzr
  iexact Hrest

theorem W2_ne (d : Dev nD) {b : DevRef τ sig} (h : b ≠ dr main_v6) : W2 TS m opsA d b = W1 m opsA d b :=
  Function.update_of_ne h _ _
theorem W2_o (d : Dev nD) : W2 TS m opsA d (dr main_v6)
    = scOut TS ((cvOf m opsA).zt d) ((cvOf m opsA).l d) ((cvOf m opsA).lp d) ((cvOf m opsA).cnd d) := Function.update_self _ _ _

/-- What comes back and what stayed are the fourteen arrays after the call. -/
theorem call_join (d : Dev nD) :
    iprop((bigSep Finset.univ fun c : Fin ((K (F := F)).nCore 0) => (P TS (cvOf m opsA)).dn 0 d c) ∗ Stay m opsA d)
      ⊢ (unscopedBufs d (Vin0 TS m opsA d) : sProp 𝕄) := by
  have hrest : (held (SparseCore.T d) (Pipeline.ucRefs τ sig \ T5) (W2 TS m opsA d) : sProp 𝕄)
      = held (SparseCore.T d) (Pipeline.ucRefs τ sig \ T5) (W1 m opsA d) :=
    held_congr (SparseCore.T d) fun b hb => W2_ne TS m opsA d (fun e => (Finset.mem_sdiff.mp hb).2 (by rw [e]; decide))
  rw [show (unscopedBufs d (Vin0 TS m opsA d) : sProp 𝕄) = held (SparseCore.T d) (Pipeline.ucRefs τ sig) (W2 TS m opsA d) from
      Pipeline.unscopedBufs_held d (W2 TS m opsA d),
    held_sub_split (SparseCore.T d) T5_sub, held_T5, hrest, dn_eq,
    W2_ne TS m opsA d (show dr main_v0 ≠ dr main_v6 by decide), W2_ne TS m opsA d (show dr main_arg2 ≠ dr main_v6 by decide),
    W2_ne TS m opsA d (show dr main_arg3 ≠ dr main_v6 by decide), W2_ne TS m opsA d (show dr main_v1 ≠ dr main_v6 by decide), W2_o,
    o_join TS d]
  unfold Stay
  rw [zt_split TS d, l_split TS d, lp_split TS d, c_split TS d]
  iintro ⟨⟨Hz, Hl, Hlp, Hc, Ho⟩, Hzr, Hrest⟩
  isplitr [Hrest]
  · isplitl [Hz Hzr]
    · isplitl [Hz]; · iexact Hz
      iexact Hzr
    isplitl [Hl]; · iexact Hl
    isplitl [Hlp]; · iexact Hlp
    isplitl [Hc]; · iexact Hc
    iexact Ho
  iexact Hrest

/-! ## What the TensorCore owes around the regions -/

/-- The pairs a wait may have recorded by the end of the call: those at the call's levels or below. -/
def Bd (d : Dev nD) : Set (SemLoc sig × HIx 1) := {p | (K (F := F)).lev (SparseCore.T d, p.1) p.2 ≤ 8}

theorem Bd_none (d : Dev nD) (p : SemLoc sig × HIx 1) (h : p.2 = none) : p ∈ Bd (F := F) d := by
  show (K (F := F)).lev (SparseCore.T d, p.1) p.2 ≤ 8
  rw [h]; exact Nat.zero_le _

/-- After the call the TensorCore owes nothing, its recorded pairs within `Bd`; and any such state is the state after
    the call. -/
theorem tcSt_open (d : Dev nD) :
    ((K (F := F)).tcSt EH d ((0 : Fin 1).val + 1) : sProp 𝕄)
      ⊢ iprop(Pipeline.owesWithin d 0 (Bd (F := F) d) ∗ (Pipeline.owesWithin d 0 (Bd (F := F) d) -∗ (K (F := F)).tcSt EH d 1)) := by
  unfold SparseCore.Cfg.tcSt
  rw [(K (F := F)).Otc_end d (show 1 ≤ (0 : Fin 1).val + 1 from le_rfl)]
  iintro ⟨⟨%W, %hW, HO⟩, Hrest⟩
  isplitl [HO]
  · iexists W; isplitr
    · ipureintro; exact fun p hp => hW p hp
    · iexact HO
  iintro ⟨%W', %hW', HO'⟩
  isplitl [HO']
  · iexists W'; isplitr
    · ipureintro; exact fun p hp => hW' hp
    · iexact HO'
  iexact Hrest

/-! ## @main on the TensorCore -/

variable [FloatOps F] [∀ e, Nonempty (Elt F e)]

/-- What @main leaves the claim: the four arguments and the result, at the final valuation. -/
def FIN (d : Dev nD) : sProp 𝕄 :=
  iprop((((SparseCore.T d).loc main_arg0 : Loc nD τ sig) ↦{fullShare} W4 TS m opsA opsB v7 v8 d (dr main_arg0))
    ∗ (((SparseCore.T d).loc main_arg1 : Loc nD τ sig) ↦{fullShare} W4 TS m opsA opsB v7 v8 d (dr main_arg1))
    ∗ (((SparseCore.T d).loc main_arg2 : Loc nD τ sig) ↦{fullShare} W4 TS m opsA opsB v7 v8 d (dr main_arg2))
    ∗ (((SparseCore.T d).loc main_arg3 : Loc nD τ sig) ↦{fullShare} W4 TS m opsA opsB v7 v8 d (dr main_arg3))
    ∗ (((SparseCore.T d).loc main_v9 : Loc nD τ sig) ↦{fullShare} W4 TS m opsA opsB v7 v8 d (dr main_v9)))

abbrev T5f : Finset (DevRef τ sig) := {dr main_arg0, dr main_arg1, dr main_arg2, dr main_arg3, dr main_v9}
theorem T5f_sub : (T5f : Finset (DevRef τ sig)) ⊆ Pipeline.ucRefs τ sig := by decide

omit [FloatOps F] [∀ e, Nonempty (Elt F e)] in
theorem fin_of_bufs (d : Dev nD) :
    (unscopedBufs d (fun b => W4 TS m opsA opsB v7 v8 d (dr b)) : sProp 𝕄) ⊢ FIN TS m opsA opsB v7 v8 d := by
  rw [show (unscopedBufs d (fun b => W4 TS m opsA opsB v7 v8 d (dr b)) : sProp 𝕄)
      = held (SparseCore.T d) (Pipeline.ucRefs τ sig) (W4 TS m opsA opsB v7 v8 d) from Pipeline.unscopedBufs_held d (W4 TS m opsA opsB v7 v8 d),
    held_sub_split (SparseCore.T d) T5f_sub]
  refine sep_elim_left.trans ?_
  unfold held T5f FIN
  rw [SparseCore.bigSep_insert' (by decide), SparseCore.bigSep_insert' (by decide), SparseCore.bigSep_insert' (by decide),
    SparseCore.bigSep_insert' (by decide), bigSep_singleton]

/-- The two regions' runs and the host operations' values, as hypotheses. -/
structure Parts where
  /-- @main is the host operations, the call, the two regions, the reshape. -/
  main_eq : ∀ d : Dev nD, main (F := F) d
    = (StableHlo.seq opsA >>= fun _ => (sc (F := F)).run d 0 >>= fun _ =>
        Prog.lift (.customCall (SparseCore.inner (Pipeline.entry (0 : Fin 2))) ()) >>= fun _ =>
        Prog.lift (.customCall (SparseCore.inner (Pipeline.entry (1 : Fin 2))) ()) >>= fun _ => StableHlo.seq opsB)
  hostA : ∀ (d : Dev nD) (W : Valuation τ sig (Elt F)) {β : Type}
      (k : PUnit → Prog (TpuEff nD τ sig (Elt F) (SparseCore.Sig (ΛP (F := F)) 1) .tc) β) (Q : β → sProp 𝕄),
    iprop(boundary (d.tc : Thread nD τ) ∗ unscopedBufs d (fun b => W (dr b)))
      ⊢ iprop(((boundary (d.tc : Thread nD τ) ∗ unscopedBufs d (fun b => StableHlo.after opsA W (dr b)))
            -∗ wp frame (wpE ((K (F := F)).defs (D (F := F))) 𝒱 (d.tc : Thread nD τ) none) Set.univ (k ⟨⟩) Q)
          -∗ wp frame (wpE ((K (F := F)).defs (D (F := F))) 𝒱 (d.tc : Thread nD τ) none) Set.univ (StableHlo.seq opsA >>= k) Q)
  hostB : ∀ (d : Dev nD) (W : Valuation τ sig (Elt F)) {β : Type}
      (k : PUnit → Prog (TpuEff nD τ sig (Elt F) (SparseCore.Sig (ΛP (F := F)) 1) .tc) β) (Q : β → sProp 𝕄),
    iprop(boundary (d.tc : Thread nD τ) ∗ unscopedBufs d (fun b => W (dr b)))
      ⊢ iprop(((boundary (d.tc : Thread nD τ) ∗ unscopedBufs d (fun b => StableHlo.after opsB W (dr b)))
            -∗ wp frame (wpE ((K (F := F)).defs (D (F := F))) 𝒱 (d.tc : Thread nD τ) none) Set.univ (k ⟨⟩) Q)
          -∗ wp frame (wpE ((K (F := F)).defs (D (F := F))) 𝒱 (d.tc : Thread nD τ) none) Set.univ (StableHlo.seq opsB >>= k) Q)
  /-- The dense kernel's region, entered at the arrays after the call, leaving its one-by-one result `v7`. -/
  pd0 : (p : Fin 2) → (c : Dev nD) → Pipeline.Dat τ (Elt F) (HIx 1) ℕ UU ℕ (pcs (F := F) p) c
  R0 : Pipeline.RegionSeg (pcfgs (F := F)) adm pd0 (none : HIx 1) defs₀ 𝒱₀ (K (F := F)).L (K (F := F)).lev (0 : Fin 2)
  pre0 : ∀ d, iprop(unscopedBufs d (Vin0 TS m opsA d) ∗ Pipeline.owesWithin d 0 (Bd (F := F) d)) ⊢ R0.pre d
  post0 : ∀ d, R0.post d ⊢ iprop(unscopedBufs d (Vin1 TS m opsA v7 d) ∗ Pipeline.owesWithin d 0 (Bd (F := F) d))
  /-- The combine kernel's region, entered at those, leaving its one-by-one result `v8`. -/
  pd1 : (p : Fin 2) → (c : Dev nD) → Pipeline.Dat τ (Elt F) (HIx 1) ℕ UU ℕ (pcs (F := F) p) c
  R1 : Pipeline.RegionSeg (pcfgs (F := F)) adm pd1 (none : HIx 1) defs₀ 𝒱₀ (K (F := F)).L (K (F := F)).lev (1 : Fin 2)
  pre1 : ∀ d, iprop(unscopedBufs d (Vin1 TS m opsA v7 d) ∗ Pipeline.owesWithin d 0 (Bd (F := F) d)) ⊢ R1.pre d
  post1 : ∀ d, R1.post d ⊢ iprop(unscopedBufs d (Vout1 TS m opsA v7 v8 d) ∗ Pipeline.owesWithin d 0 (Bd (F := F) d))

variable (H : Parts TS m opsA opsB v7 v8)

omit [∀ e, Nonempty (Elt F e)] in
/-- A region's call in the program's signature is the lifted call in the pipelines' signature. -/
theorem lift_entry (p : Fin 2) :
    (Prog.lift (.customCall (SparseCore.inner (Pipeline.entry p)) ()) : Prog (TpuEff nD τ sig (Elt F) (SparseCore.Sig (ΛP (F := F)) 1) .tc) PUnit)
      = SparseCore.liftProg (Prog.op (.customCall (Pipeline.entry p) ()) fun _ => .ret ⟨⟩) := rfl

include H in
set_option backward.isDefEq.respectTransparency.types false in
/-- @main on device `d`'s TensorCore. -/
theorem hmain (κ : GSem nD τ sig → ℕ) (d : Dev nD) :
    iprop((K (F := F)).ctx EH (P TS (cvOf m opsA)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN TS m opsA opsB v7 v8 d) := by
  have hcs : (unscopedBufs d (fun b => StableHlo.after opsA (W0 m d) (dr b)) : sProp 𝕄)
      ⊢ iprop((bigSep Finset.univ fun c : Fin ((K (F := F)).nCore 0) => (P TS (cvOf m opsA)).st 0 d c) ∗ Stay m opsA d) := call_split TS m opsA d
  have hfb : (unscopedBufs d (fun b => StableHlo.after opsB (W3 TS m opsA v7 v8 d) (dr b)) : sProp 𝕄) ⊢ FIN TS m opsA opsB v7 v8 d :=
    fin_of_bufs TS m opsA opsB v7 v8 d
  unfold SparseCore.Cfg.tcRes
  rw [H.main_eq d, G_eq]
  iintro ⟨#Hctx, Hst, ⟨Hb, Hun, -, -⟩, ⟨⟨Hg0, Ht0⟩, ⟨Hg1, Ht1⟩⟩⟩
  ihave #Hlv := (SparseCore.Cfg.ctx_levAts κ) $$ Hctx
  -- the six host operations
  iapply (H.hostA d (W0 m d) _ _) $$ [Hb Hun]
  · isplitl [Hb]; · iexact Hb
    iexact Hun
  iintro ⟨Hb, Hun⟩
  -- the call: the five arrays split among the tiles, handed over, and back
  ihave Hsp := hcs $$ Hun
  icases Hsp with ⟨Hops, Hstay⟩
  rw [wp_bind]
  iapply ((K (F := F)).wp_run (D (F := F)) 𝒱 (EH := EH) (P := P TS (cvOf m opsA)) κ d 0) $$ [Hst Hops Hb Hstay Hg0 Ht0 Hg1 Ht1]
  isplitr; · iexact Hctx
  isplitl [Hst]; · iexact Hst
  isplitl [Hops]; · iexact Hops
  iintro ⟨Hst, Hdn⟩
  ihave Hun := (call_join TS m opsA d) $$ [Hdn Hstay]
  · isplitl [Hdn]; · iexact Hdn
    iexact Hstay
  ihave Hst' := (tcSt_open (F := F) d) $$ Hst
  icases Hst' with ⟨HO, Hclose⟩
  -- the dense kernel's region
  rw [wp_bind, lift_entry (F := F) 0]
  iapply ((K (F := F)).wp_liftProg (D (F := F)) 𝒱 (SparseCore.T d) Set.univ none
    (Prog.op (.customCall (Pipeline.entry (0 : Fin 2)) ()) fun _ => .ret ⟨⟩) _)
  iapply (Pipeline.RegionSeg.wp (pcfgs (F := F)) adm H.pd0 (none : HIx 1) pcs_inj EP defs₀ 𝒱₀ (K (F := F)).L (K (F := F)).lev H.R0 d none
    (fun _ h => nomatch h) (fun _ => .ret ⟨⟩) _) $$ [Hb Hun HO Hclose Hg0 Ht0 Hg1 Ht1]
  isplitr [Hb Hun HO Hg0 Ht0]
  swap
  · isplitl [Hb]; · iexact Hb
    isplitl [Hun HO]
    · iapply (H.pre0 d); isplitl [Hun]; · iexact Hun
      iexact HO
    isplitr; · iexact Hlv
    isplitl [Hg0]; · iexact Hg0
    iexact Ht0
  iintro ⟨Hb, Hpost⟩
  ihave Hp := (H.post0 d) $$ Hpost
  icases Hp with ⟨Hun, HO⟩
  rw [wp_ret]; imodintro
  -- the combine kernel's region
  rw [wp_bind, lift_entry (F := F) 1]
  iapply ((K (F := F)).wp_liftProg (D (F := F)) 𝒱 (SparseCore.T d) Set.univ none
    (Prog.op (.customCall (Pipeline.entry (1 : Fin 2)) ()) fun _ => .ret ⟨⟩) _)
  iapply (Pipeline.RegionSeg.wp (pcfgs (F := F)) adm H.pd1 (none : HIx 1) pcs_inj EP defs₀ 𝒱₀ (K (F := F)).L (K (F := F)).lev H.R1 d none
    (fun _ h => nomatch h) (fun _ => .ret ⟨⟩) _) $$ [Hb Hun HO Hclose Hg1 Ht1]
  isplitr [Hb Hun HO Hg1 Ht1]
  swap
  · isplitl [Hb]; · iexact Hb
    isplitl [Hun HO]
    · iapply (H.pre1 d); isplitl [Hun]; · iexact Hun
      iexact HO
    isplitr; · iexact Hlv
    isplitl [Hg1]; · iexact Hg1
    iexact Ht1
  iintro ⟨Hb, Hpost⟩
  ihave Hp := (H.post1 d) $$ Hpost
  icases Hp with ⟨Hun, HO⟩
  rw [wp_ret]; imodintro
  -- the final reshape
  rw [show (StableHlo.seq opsB : Prog (TpuEff nD τ sig (Elt F) (SparseCore.Sig (ΛP (F := F)) 1) .tc) PUnit)
      = (StableHlo.seq opsB >>= fun u => pure u) from (bind_pure _).symm, Vout1_eq]
  iapply (H.hostB d (W3 TS m opsA v7 v8 d) _ _) $$ [Hb Hun]
  · isplitl [Hb]; · iexact Hb
    iexact Hun
  iintro ⟨Hb, Hun⟩
  rw [wp_pure]; imodintro
  isplitl [HO Hclose]
  · iapply Hclose; iexact HO
  iapply hfb; iexact Hun

/-! ## The final memory, and the run -/

/-- What the claim reads off the final memory on device `d`. -/
def fq (d : Dev nD) (s' : Phys nD τ sig (Elt F)) : Prop :=
  s'.mem.mem ((SparseCore.T d).loc main_arg0) = W4 TS m opsA opsB v7 v8 d (dr main_arg0)
  ∧ s'.mem.mem ((SparseCore.T d).loc main_arg1) = W4 TS m opsA opsB v7 v8 d (dr main_arg1)
  ∧ s'.mem.mem ((SparseCore.T d).loc main_arg2) = W4 TS m opsA opsB v7 v8 d (dr main_arg2)
  ∧ s'.mem.mem ((SparseCore.T d).loc main_arg3) = W4 TS m opsA opsB v7 v8 d (dr main_arg3)
  ∧ s'.mem.mem ((SparseCore.T d).loc main_v9) = W4 TS m opsA opsB v7 v8 d (dr main_v9)

omit [FloatOps F] [∀ e, Nonempty (Elt F e)] in
theorem hfin (d : Dev nD) (s' : Phys nD τ sig (Elt F)) :
    iprop(FIN TS m opsA opsB v7 v8 d ∗ SI s') ⊢ (⌜fq TS m opsA opsB v7 v8 d s'⌝ : sProp 𝕄) := by
  unfold FIN
  iintro ⟨⟨H0, H1, H2, H3, H9⟩, HSI⟩
  ihave X := (persistent_entails_right (SI_pointsTo_agree (st := s') (ℓ := (SparseCore.T d).loc main_arg0) (I := Finset.univ) (q := fullShare)
    (f := W4 TS m opsA opsB v7 v8 d (dr main_arg0)))) $$ [HSI H0]
  · isplitl [HSI] <;> iassumption
  icases X with ⟨%h0, HSI, -⟩
  ihave X := (persistent_entails_right (SI_pointsTo_agree (st := s') (ℓ := (SparseCore.T d).loc main_arg1) (I := Finset.univ) (q := fullShare)
    (f := W4 TS m opsA opsB v7 v8 d (dr main_arg1)))) $$ [HSI H1]
  · isplitl [HSI] <;> iassumption
  icases X with ⟨%h1, HSI, -⟩
  ihave X := (persistent_entails_right (SI_pointsTo_agree (st := s') (ℓ := (SparseCore.T d).loc main_arg2) (I := Finset.univ) (q := fullShare)
    (f := W4 TS m opsA opsB v7 v8 d (dr main_arg2)))) $$ [HSI H2]
  · isplitl [HSI] <;> iassumption
  icases X with ⟨%h2, HSI, -⟩
  ihave X := (persistent_entails_right (SI_pointsTo_agree (st := s') (ℓ := (SparseCore.T d).loc main_arg3) (I := Finset.univ) (q := fullShare)
    (f := W4 TS m opsA opsB v7 v8 d (dr main_arg3)))) $$ [HSI H3]
  · isplitl [HSI] <;> iassumption
  icases X with ⟨%h3, HSI, -⟩
  ihave X := (SI_pointsTo_agree (st := s') (ℓ := (SparseCore.T d).loc main_v9) (I := Finset.univ) (q := fullShare)
    (f := W4 TS m opsA opsB v7 v8 d (dr main_v9))) $$ [HSI H9]
  · isplitl [HSI] <;> iassumption
  icases X with %h9
  ipureintro
  exact ⟨funext fun i => h0 i (Finset.mem_univ i), funext fun i => h1 i (Finset.mem_univ i), funext fun i => h2 i (Finset.mem_univ i),
    funext fun i => h3 i (Finset.mem_univ i), funext fun i => h9 i (Finset.mem_univ i)⟩

/-- The run's post: on every device the four arguments and the result are at the final valuation — the composition of
    the host operations, the tiles' rows, the two kernels' results and the reshape, applied to the launch contents. -/
def QC : PUnit × MemSt nD τ sig (Elt F) → Prop := fun r => ∀ c : Dev nD,
  r.2.mem ((SparseCore.T c).loc main_arg0) = W4 TS m opsA opsB v7 v8 c (dr main_arg0)
  ∧ r.2.mem ((SparseCore.T c).loc main_arg1) = W4 TS m opsA opsB v7 v8 c (dr main_arg1)
  ∧ r.2.mem ((SparseCore.T c).loc main_arg2) = W4 TS m opsA opsB v7 v8 c (dr main_arg2)
  ∧ r.2.mem ((SparseCore.T c).loc main_arg3) = W4 TS m opsA opsB v7 v8 c (dr main_arg3)
  ∧ r.2.mem ((SparseCore.T c).loc main_v9) = W4 TS m opsA opsB v7 v8 c (dr main_v9)

include H in
/-- The whole program's run, from the tile kernel's specification, the two regions' runs and the host operations' values. -/
theorem run_main (hspec : TileSpec (F := F) TS) :
    θ_run (Cert.Kernel.defs (F := F)) (Cert.Kernel.threads (F := F)) ⟨m, fun _ => 0, ρ⟩ (QC TS m opsA opsB v7 v8) :=
  SparseCore.Cfg.θ_run_sc (K := K (F := F)) (D := D (F := F)) (𝒱 := 𝒱) (EH := EH) (P := P TS (cvOf m opsA)) facts v₀
    (fun q hq => match q with | 0 => nomatch hq)
    (fun q _ => match q with | 0 => tileObl TS (cvOf m opsA) hspec)
    (fun q _ => match q with | 0 => SparseCore.Cfg.VecSplit.of_plain (vecSplit TS (cvOf m opsA)))
    m ρ main (G (F := F)) (FIN TS m opsA opsB v7 v8) (u₀ (F := F)) (sep_elim_left.trans (hu₀ TS (cvOf m opsA)))
    (hmain TS m ρ opsA opsB v7 v8 H) (fq TS m opsA opsB v7 v8) (hfin TS m opsA opsB v7 v8) (QC TS m opsA opsB v7 v8) (fun _ h => h)

end Cert.Kernel.Launch

end
-- ==== Proof.Bits.Host.lean ====
/-
  The host operations of the main program: the six before the first kernel call and the one after the last.

  Before: the matrix transposed; the mask widened to 32-bit words and converted to floats; the two label vectors
  and the float mask each reshaped from 16384 entries to 4 blocks of one row of 4096.  After: the one-by-one result
  reshaped to a scalar.  Here: the two stretches as lists of operations, the main program as those stretches around
  its three kernel calls, the rule that runs a stretch for a thread holding every unscoped buffer at a valuation, and
  what each result buffer then holds at an index.
-/
import proofs.«202802_g48112223650475_cont_8to1c4_51_21_alg».proof.Proof.Gen.Kernel
import Idealize.ShloMosaic.Lib.StableHlo.Run
import Idealize.ShloMosaic.Lib.Pipeline.Frame
import Idealize.ShloMosaic.Lib.Pipeline.Value
import Idealize.ShloMosaic.Lib.ValueIdx
import Idealize.ShloMosaic.Lib.ValueLayout
import Idealize.ShloMosaic.Lib.Tactic

noncomputable section

namespace Cert.Kernel.Host

open Cert.Kernel Cert.Kernel.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The two stretches -/

/-- The six operations before the first kernel call, in the program's order. -/
def hostOpsA : List (HloOp τ sig (Elt F)) :=
  [ StableHlo.unary main_arg0 main_v0 ((transpose S1000x16384 [1, 0] · transposes_S16384x1000_S1000x16384_1_0) : (⟨S16384x1000, .f32⟩ : BufTy).Contents (Elt F) → (⟨S1000x16384, .f32⟩ : BufTy).Contents (Elt F)),
    StableHlo.unary main_arg1 main_v1 ((extui 32 · natLt_1_32) : (⟨S16384, .i1⟩ : BufTy).Contents (Elt F) → (⟨S16384, .i32⟩ : BufTy).Contents (Elt F)),
    StableHlo.unary main_arg1 main_v2 (uitofp .f32 : (⟨S16384, .i1⟩ : BufTy).Contents (Elt F) → (⟨S16384, .f32⟩ : BufTy).Contents (Elt F)),
    StableHlo.reshape main_arg2 main_v3 rfl shapeCasts_S16384_S4x1x4096,
    StableHlo.reshape main_arg3 main_v4 rfl shapeCasts_S16384_S4x1x4096,
    StableHlo.reshape main_v2 main_v5 rfl shapeCasts_S16384_S4x1x4096 ]

/-- The one operation after the last kernel call. -/
def hostOpsB : List (HloOp τ sig (Elt F)) :=
  [ StableHlo.reshape main_v8 main_v9 rfl shapeCasts_S1x1_S_ ]

/-- The main program is the first stretch, the three kernel calls, the second stretch. -/
theorem main_eq (d : Dev nD) :
    main (F := F) d
      = (StableHlo.seq hostOpsA >>= fun _ =>
          sc.run d 0 >>= fun _ =>
          Prog.lift (.customCall (SparseCore.inner (Pipeline.entry 0)) ()) >>= fun _ =>
          Prog.lift (.customCall (SparseCore.inner (Pipeline.entry 1)) ()) >>= fun _ =>
          StableHlo.seq hostOpsB) := by
  rfl

/-! ## Their side conditions -/

theorem hostOpsA_sub : ∀ op ∈ (hostOpsA : List (HloOp τ sig (Elt F))), op.bufs ⊆ Pipeline.ucRefs τ sig := by
  intro op hop
  refine Pipeline.sub_ucRefs op ?_
  simp only [hostOpsA, List.mem_cons, List.mem_nil_iff, or_false] at hop
  rcases hop with rfl | rfl | rfl | rfl | rfl | rfl
  · exact StableHlo.unary_bufs_sub ..
  · exact StableHlo.unary_bufs_sub ..
  · exact StableHlo.unary_bufs_sub ..
  · exact StableHlo.reshape_bufs_sub ..
  · exact StableHlo.reshape_bufs_sub ..
  · exact StableHlo.reshape_bufs_sub ..

theorem hostOpsB_sub : ∀ op ∈ (hostOpsB : List (HloOp τ sig (Elt F))), op.bufs ⊆ Pipeline.ucRefs τ sig := by
  intro op hop
  refine Pipeline.sub_ucRefs op ?_
  simp only [hostOpsB, List.mem_cons, List.mem_nil_iff, or_false] at hop
  subst hop
  exact StableHlo.reshape_bufs_sub ..

theorem hostOpsA_fresh : ∀ op ∈ (hostOpsA : List (HloOp τ sig (Elt F))), op.fresh = ∅ := by
  intro op hop
  simp only [hostOpsA, List.mem_cons, List.mem_nil_iff, or_false] at hop
  rcases hop with rfl | rfl | rfl | rfl | rfl | rfl <;> rfl

theorem hostOpsB_fresh : ∀ op ∈ (hostOpsB : List (HloOp τ sig (Elt F))), op.fresh = ∅ := by
  intro op hop
  simp only [hostOpsB, List.mem_cons, List.mem_nil_iff, or_false] at hop
  subst hop; rfl

/-! ## The rule for a stretch -/

section Rules

variable {Ix : Type} [DecidableEq Ix] {Name : Type} [DecidableEq Name] {U : Type} [URA U] {Lvl : Type} [Preorder Lvl]

local notation "𝕄" => MT nD τ sig Ix (Elt F) Name U Lvl

variable {Λ : Labels} {defs : Defs nD τ sig (Elt F) Λ} (𝒱 : Variants) (bd : Option 𝒱.V) (E : Set Name)

/-- A stretch at the head of the TensorCore's program, the thread holding its region boundary and every unscoped
    buffer at the valuation `W`: it runs to its end, where the buffers are at the stretch's fold of `W`. For any body
    table and label signature. -/
theorem wp_host (ops : List (HloOp τ sig (Elt F))) (hS : ∀ op ∈ ops, op.bufs ⊆ Pipeline.ucRefs τ sig) (hf : ∀ op ∈ ops, op.fresh = ∅)
    (d : Dev nD) (W : Valuation τ sig (Elt F)) {β : Type} (k : PUnit → Prog (TpuEff nD τ sig (Elt F) Λ .tc) β) (Q : β → sProp 𝕄) :
    iprop(boundary (d.tc : Thread nD τ) ∗ (unscopedBufs d (fun b => W b) : sProp 𝕄))
      ⊢ iprop(((boundary (d.tc : Thread nD τ) ∗ (unscopedBufs d (fun b => StableHlo.after ops W b) : sProp 𝕄))
                -∗ wp frame (wpE defs 𝒱 d.tc bd) E (k ⟨⟩) Q)
        -∗ wp frame (wpE defs 𝒱 d.tc bd) E (StableHlo.seq ops >>= k) Q) := by
  rw [Pipeline.unscopedBufs_held, Pipeline.unscopedBufs_held]
  exact StableHlo.wp_seq 𝒱 bd E d (Pipeline.ucRefs τ sig) k ops hS hf W

/-- The first stretch. -/
theorem wp_hostA (d : Dev nD) (W : Valuation τ sig (Elt F)) {β : Type} (k : PUnit → Prog (TpuEff nD τ sig (Elt F) Λ .tc) β) (Q : β → sProp 𝕄) :
    iprop(boundary (d.tc : Thread nD τ) ∗ (unscopedBufs d (fun b => W b) : sProp 𝕄))
      ⊢ iprop(((boundary (d.tc : Thread nD τ) ∗ (unscopedBufs d (fun b => StableHlo.after hostOpsA W b) : sProp 𝕄))
                -∗ wp frame (wpE defs 𝒱 d.tc bd) E (k ⟨⟩) Q)
        -∗ wp frame (wpE defs 𝒱 d.tc bd) E (StableHlo.seq hostOpsA >>= k) Q) :=
  wp_host 𝒱 bd E hostOpsA hostOpsA_sub hostOpsA_fresh d W k Q

/-- The second stretch. -/
theorem wp_hostB (d : Dev nD) (W : Valuation τ sig (Elt F)) {β : Type} (k : PUnit → Prog (TpuEff nD τ sig (Elt F) Λ .tc) β) (Q : β → sProp 𝕄) :
    iprop(boundary (d.tc : Thread nD τ) ∗ (unscopedBufs d (fun b => W b) : sProp 𝕄))
      ⊢ iprop(((boundary (d.tc : Thread nD τ) ∗ (unscopedBufs d (fun b => StableHlo.after hostOpsB W b) : sProp 𝕄))
                -∗ wp frame (wpE defs 𝒱 d.tc bd) E (k ⟨⟩) Q)
        -∗ wp frame (wpE defs 𝒱 d.tc bd) E (StableHlo.seq hostOpsB >>= k) Q) :=
  wp_host 𝒱 bd E hostOpsB hostOpsB_sub hostOpsB_fresh d W k Q

end Rules

/-! ## What the buffers hold after a stretch -/

section Values

variable (W : Valuation τ sig (Elt F))

/-- The references the first stretch writes. -/
abbrev writesA : List (Ref sig .tc) := [main_v0, main_v1, main_v2, main_v3, main_v4, main_v5]

theorem hostOpsA_writes :
    (hostOpsA : List (HloOp τ sig (Elt F))).Forall fun op => op.writes ⊆ (writesA.map (Proc.devRef (τ := τ) .tc)).toFinset := by
  simp only [hostOpsA, List.Forall, StableHlo.unary_writes, StableHlo.reshape_writes, Finset.singleton_subset_iff, List.mem_toFinset]
  refine ⟨?_, ?_, ?_, ?_, ?_, ?_⟩ <;> exact List.mem_map.mpr ⟨_, by decide, rfl⟩

theorem hostOpsB_writes :
    (hostOpsB : List (HloOp τ sig (Elt F))).Forall fun op => op.writes ⊆ (([main_v9] : List (Ref sig .tc)).map (Proc.devRef (τ := τ) .tc)).toFinset := by
  simp only [hostOpsB, List.Forall, StableHlo.reshape_writes, Finset.singleton_subset_iff, List.mem_toFinset]
  exact List.mem_map.mpr ⟨_, by decide, rfl⟩

/-- A reference the first stretch does not write keeps its contents. -/
theorem afterA_of_not_mem {r : Ref sig .tc} (hr : r ∉ writesA) :
    StableHlo.after hostOpsA W (Proc.devRef .tc r) = W (Proc.devRef .tc r) :=
  StableHlo.after_of_writes_sub hostOpsA W hostOpsA_writes hr

/-- A reference other than the scalar result keeps its contents through the second stretch. -/
theorem afterB_of_ne {r : Ref sig .tc} (hr : r ≠ main_v9) :
    StableHlo.after hostOpsB W (Proc.devRef .tc r) = W (Proc.devRef .tc r) :=
  StableHlo.after_of_writes_sub hostOpsB W hostOpsB_writes (by simpa using hr)

/-- The first stretch's six results, each as a function of the arguments' contents. -/
theorem afterA_v0 : StableHlo.after hostOpsA W (Proc.devRef .tc main_v0)
    = transpose S1000x16384 [1, 0] (W (Proc.devRef .tc main_arg0)) transposes_S16384x1000_S1000x16384_1_0 := by
  unfold hostOpsA; after_results
theorem afterA_v1 : StableHlo.after hostOpsA W (Proc.devRef .tc main_v1)
    = extui 32 (W (Proc.devRef .tc main_arg1)) natLt_1_32 := by
  unfold hostOpsA; after_results
theorem afterA_v2 : StableHlo.after hostOpsA W (Proc.devRef .tc main_v2)
    = uitofp .f32 (W (Proc.devRef .tc main_arg1)) := by
  unfold hostOpsA; after_results
theorem afterA_v3 : StableHlo.after hostOpsA W (Proc.devRef .tc main_v3)
    = shapeCast S4x1x4096 (W (Proc.devRef .tc main_arg2)) shapeCasts_S16384_S4x1x4096 := by
  unfold hostOpsA; after_results; rfl
theorem afterA_v4 : StableHlo.after hostOpsA W (Proc.devRef .tc main_v4)
    = shapeCast S4x1x4096 (W (Proc.devRef .tc main_arg3)) shapeCasts_S16384_S4x1x4096 := by
  unfold hostOpsA; after_results; rfl
theorem afterA_v5 : StableHlo.after hostOpsA W (Proc.devRef .tc main_v5)
    = shapeCast S4x1x4096 (uitofp (F := F) .f32 (W (Proc.devRef .tc main_arg1))) shapeCasts_S16384_S4x1x4096 := by
  unfold hostOpsA; after_results; rfl

/-- The second stretch's result. -/
theorem afterB_v9 : StableHlo.after hostOpsB W (Proc.devRef .tc main_v9)
    = shapeCast S_ (W (Proc.devRef .tc main_v8)) shapeCasts_S1x1_S_ := by
  unfold hostOpsB; after_results; rfl

end Values

/-! ## The same, read at an index -/

section Indexed

variable (W : Valuation τ sig (Elt F))

/-- The transposed matrix at class `k`, row `r` is the matrix at row `r`, class `k`. -/
theorem afterA_v0_apply (k : Fin 1000) (r : Fin 16384) :
    StableHlo.after hostOpsA W (Proc.devRef .tc main_v0) (ix2 k r) = W (Proc.devRef .tc main_arg0) (ix2 r k) := by
  rw [afterA_v0]; exact transpose_ix2_apply _ _ k r

/-- The widened mask at row `r` is the mask's bit there as a 32-bit word. -/
theorem afterA_v1_apply (r : Fin 16384) :
    StableHlo.after hostOpsA W (Proc.devRef .tc main_v1) (ix1 r) = (W (Proc.devRef .tc main_arg1) (ix1 r)).setWidth 32 := by
  rw [afterA_v1]; rfl

/-- The float mask at row `r` is the mask's bit there converted. -/
theorem afterA_v2_apply (r : Fin 16384) :
    StableHlo.after hostOpsA W (Proc.devRef .tc main_v2) (ix1 r) = FloatOps.uitofp .f32 (W (Proc.devRef .tc main_arg1) (ix1 r)) := by
  rw [afterA_v2]; rfl

/-- Position `4096 n + j` of a vector of 16384 entries. -/
abbrev row (n : Fin 4) (j : Fin 4096) : Fin 16384 := ⟨4096 * n.val + j.val, by omega⟩

/-- A vector of 16384 entries reshaped to 4 blocks of one row of 4096 reads, at block `n` lane `j`, its entry `4096 n + j`. -/
theorem shapeCast_blocks_apply {α : Type} (x : S16384.Idx → α) (n : Fin 4) (u : Fin 1) (j : Fin 4096) :
    shapeCast S4x1x4096 x shapeCasts_S16384_S4x1x4096 (ix3 n u j) = x (ix1 (row n j)) :=
  shapeCast_apply x _ _ _ (by
    rw [Shape.rowMajor_val_one, Shape.rowMajor_val_three]
    show 4096 * n.val + j.val = (n.val * 1 + u.val) * 4096 + j.val
    have := u.isLt; omega)

theorem afterA_v3_apply (n : Fin 4) (u : Fin 1) (j : Fin 4096) :
    StableHlo.after hostOpsA W (Proc.devRef .tc main_v3) (ix3 n u j) = W (Proc.devRef .tc main_arg2) (ix1 (row n j)) := by
  rw [afterA_v3]; exact shapeCast_blocks_apply _ n u j
theorem afterA_v4_apply (n : Fin 4) (u : Fin 1) (j : Fin 4096) :
    StableHlo.after hostOpsA W (Proc.devRef .tc main_v4) (ix3 n u j) = W (Proc.devRef .tc main_arg3) (ix1 (row n j)) := by
  rw [afterA_v4]; exact shapeCast_blocks_apply _ n u j
theorem afterA_v5_apply (n : Fin 4) (u : Fin 1) (j : Fin 4096) :
    StableHlo.after hostOpsA W (Proc.devRef .tc main_v5) (ix3 n u j)
      = FloatOps.uitofp .f32 (W (Proc.devRef .tc main_arg1) (ix1 (row n j))) := by
  rw [afterA_v5]; exact shapeCast_blocks_apply _ n u j

/-- The scalar result is the one entry of the one-by-one result. -/
theorem afterB_v9_apply :
    StableHlo.after hostOpsB W (Proc.devRef .tc main_v9) ix0 = W (Proc.devRef .tc main_v8) (ix2 (0 : Fin 1) (0 : Fin 1)) := by
  rw [afterB_v9]
  exact shapeCast_apply _ _ _ _ (by
    show (S1x1.rowMajor (ix2 (0 : Fin 1) (0 : Fin 1))).val = (S_.rowMajor ix0).val
    rw [Shape.rowMajor_val_two]
    show 0 * 1 + 0 = (Shape.rowMajorPi _ _).val
    rw [Shape.rowMajorPi_zero])

end Indexed

end Cert.Kernel.Host

end
-- ==== Proof.Bits.Vals.lean ====
/-
  The values the two TensorCore kernels compute, as pure terms of what their bodies load, for any float instance.

  The dense kernel visits four blocks of 4096 rows.  At block `n` it loads the block's slab of the transposed matrix
  (classes 64 to 999 by the block's 4096 rows), the block's two label rows and its mask row, and adds to a running row of
  4096 lanes the column sums of "entry where the class is the first label, minus entry where the class is the second
  label", times the mask.  The running row starts at zero; after the fourth block its 4096 lanes are summed into one number.
  The combine kernel adds the sum of a 32 by 16 array to one number.
-/
import proofs.«202802_g48112223650475_cont_8to1c4_51_21_alg».proof.Proof.Gen.Kernel.Skeleton

noncomputable section

namespace Cert.Kernel.Vals

open Idealize.ShloMosaic Cert.Kernel Cert.Kernel.Gen

variable {F : FTy → Type} [FloatOps F]

/-- The running row after the first `n` blocks: zero, then one block's contribution at a time. -/
def denseAcc (zb : Fin 4 → Vec F S1x936x4096 .f32) (lb lpb : Fin 4 → Vec F S1x1x4096 .i32) (cb : Fin 4 → Vec F S1x1x4096 .f32) :
    Nat → FVec F S1x4096 .f32
  | 0 => k1_pay3 (F := F)
  | n + 1 =>
    if h : n < 4 then
      k1_pay1 (k1_pay4 (zb ⟨n, h⟩)) (k1_pay5 (F := F) (lpb ⟨n, h⟩)) (k1_pay6 (cb ⟨n, h⟩)) (k1_pay7) (k1_pay8 (zb ⟨n, h⟩) (lb ⟨n, h⟩))
        (denseAcc zb lb lpb cb n)
    else denseAcc zb lb lpb cb n

/-- The dense kernel's one-by-one result: the lanes of the running row after all four blocks, summed. -/
def denseRes (zb : Fin 4 → Vec F S1x936x4096 .f32) (lb lpb : Fin 4 → Vec F S1x1x4096 .i32) (cb : Fin 4 → Vec F S1x1x4096 .f32) :
    FVec F S1x1 .f32 :=
  k1_pay2 (denseAcc zb lb lpb cb 4)

/-- The combine kernel's one-by-one result: the sum of the 32 by 16 array plus the dense kernel's number. -/
def combRes (part : Vec F S32x16 .f32) (tcs : Vec F S1x1 .f32) : FVec F S1x1 .f32 :=
  k2_pay1 part tcs

end Cert.Kernel.Vals

end
-- ==== Proof.Bits.Combine.lean ====
/-
  The combine region: the third kernel of the program, one point, no grid.

  It is handed the 32 by 16 array of partial sums and the one-by-one number the dense kernel produced, and stores
  into a one-by-one result the sum of the array's entries plus that number.  Here: what its body leaves in the
  result's buffer as a pure term of what it loads, the proof data of its region, and the region as a segment of the
  main program between two states that hold every unscoped buffer at a valuation.
-/
import proofs.«202802_g48112223650475_cont_8to1c4_51_21_alg».proof.Proof.Bits.Vals
import proofs.«202802_g48112223650475_cont_8to1c4_51_21_alg».proof.Proof.Gen.Kernel.Launch
import proofs.«202802_g48112223650475_cont_8to1c4_51_21_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Tactic

noncomputable section

namespace Cert.Kernel.Combine

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline.Dat (before_fetched)

variable {F : FTy → Type} [FloatOps F]
variable {Ix : Type} [DecidableEq Ix] {Name : Type} [DecidableEq Name] {U : Type} [URA U] [CountersIn U]
  {Lvl : Type} [Preorder Lvl]

local notation "𝕄" => MT nD τ sig Ix (Elt F) Name U Lvl

/-! ## The body's triple -/

/-- The two-dimensional zero offset, as a constant function. -/
theorem off2_zero : (![0, 0] : Fin 2 → Nat) = fun _ => 0 := by
  funext a; fin_cases a <;> rfl

set_option maxHeartbeats 1000000 in
/-- The body on whole staging memrefs, the two inputs' at read contents `x0` and `x1` and the output's at anything,
    runs to the continuation holding the inputs' as they were and the output's at the sum of `x0`'s entries plus
    `x1`'s one entry: three loads of whole buffers and one store of the whole output. -/
theorem sound_kernel (c : Dev nD) (E : Set Name)
    (arg0 : Memref sig .tc .vmem S32x16 .f32) (harg0 : arg0.IsWhole) (arg1 : Memref sig .tc .vmem S1x1 .f32) (harg1 : arg1.IsWhole)
    (arg2 : Memref sig .tc .vmem S1x1 .f32) (harg2 : arg2.IsWhole)
    (x0 : Vec F S32x16 .f32) (x1 : Vec F S1x1 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
              ∗ owns (c : Thread nD τ) arg2 fullShare (Vals.combRes x0 x1)) -∗ K ⟨⟩))
      ⊢ wp frame (wpE (defs₀ (F := F)) Variants.none c none) E (cc2__tc_combine_body arg0 harg0 arg1 harg1 arg2 harg2) K := by
  simp only [cc2__tc_combine_body_eq_skeleton]; unfold cc2__tc_combine_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero off2_zero inb_S1x1_S1x1_0_0 y⟩),
    View.canon_unit_zero off2_zero]
  unfold Vals.combRes
  rw [View.readAt_eq_ld, View.readAt_eq_ld, View.ld_unit_zero off2_zero, View.ld_unit_zero off2_zero]

/-! ## The region's proof data -/

section Region

-- the TensorCore's buffer contents when the region is entered, and the bound on the pairs its waits have recorded
variable (V : (c : Dev nD) → (b : Ref sig .tc) → Buf (Elt F) ((c : Thread nD τ).loc b))
variable (ι : Ix) (B : Dev nD → Set (SemLoc sig × Ix))

/-- Window `w`'s block at a point, read off its array as the region finds it: the whole array. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The proof data of the combine pipeline on core `c`: the arrays as the region finds them; after the body each
    input's buffer at its block and the output's at the sum of the first block's entries plus the second's entry;
    the invariant the scoped buffers that stage nothing, untouched; nothing owed; the recorded pairs within `B c`;
    full shares. -/
def dat2 (c : Dev nD) : Dat τ (Elt F) Ix Name U Lvl cfg2 c where
  A w := V c (Pipeline.arrRef spec2 w)
  after w t := match w with
    | ⟨0, _⟩ => iblk V c 0 t
    | ⟨1, _⟩ => iblk V c 1 t
    | ⟨2, _⟩ => Vals.combRes (iblk V c 0 t) (iblk V c 1 t)
  Φ _ := Pipeline.scopedRest (Ix := Ix) (Name := Name) (U := U) (Lvl := Lvl) (Val := Elt F) spec2 c
  q _ := fullShare
  owed _ := 0
  recorded _ := B c

-- the proof data at this section's parameters, its resource algebra named
local notation "dat₂" => dat2 (F := F) (Ix := Ix) (Name := Name) (U := U) (Lvl := Lvl) V B

theorem A_eq (c : Dev nD) (w : Fin cfg2.W) : (dat₂ c).A w = V c (Pipeline.arrRef spec2 w) := by
  dsimp only [dat2]

theorem after_0 (c : Dev nD) (t : Fin cfg2.N) : (dat₂ c).after 0 t = iblk V c 0 t := by dsimp only [dat2]
theorem after_1 (c : Dev nD) (t : Fin cfg2.N) : (dat₂ c).after 1 t = iblk V c 1 t := by dsimp only [dat2]
theorem after_2 (c : Dev nD) (t : Fin cfg2.N) :
    (dat₂ c).after 2 t = Vals.combRes (iblk V c 0 t) (iblk V c 1 t) := by dsimp only [dat2]

/-- Each input's staging buffer holds its block when the body runs: both are fetched at the one point. -/
theorem before_0 (c : Dev nD) (t : Fin cfg2.N) (d) : (dat₂ c).before 0 t d = iblk V c 0 t :=
  ((dat₂ c).before_fetched 0 t (fetch2_0 t) d).trans (by unfold Dat.fetched Dat.blockOf iblk; rw [A_eq]; try rfl)
theorem before_1 (c : Dev nD) (t : Fin cfg2.N) (d) : (dat₂ c).before 1 t d = iblk V c 1 t :=
  ((dat₂ c).before_fetched 1 t (fetch2_1 t) d).trans (by unfold Dat.fetched Dat.blockOf iblk; rw [A_eq]; try rfl)

/-! ## The body obligation -/

/-- What the body is called with at the point, the windows one by one, -/
def bodyPre (c : Dev nD) (t : Fin cfg2.N) : sProp 𝕄 :=
  iprop((dat₂ c).Φ t.castSucc ∗ (dat₂ c).owesAt ι t.castSucc
    ∗ (∃ d, owns (c : Thread nD τ) (st2_0 t) fullShare ((dat₂ c).before 0 t d))
    ∗ (∃ d, owns (c : Thread nD τ) (st2_1 t) fullShare ((dat₂ c).before 1 t d))
    ∗ (∃ d, owns (c : Thread nD τ) (st2_2 t) fullShare ((dat₂ c).before 2 t d)))

/-- and what it returns. -/
def bodyPost (c : Dev nD) (t : Fin cfg2.N) : sProp 𝕄 :=
  iprop((dat₂ c).Φ t.succ ∗ (dat₂ c).owesAt ι t.succ
    ∗ owns (c : Thread nD τ) (st2_0 t) fullShare ((dat₂ c).after 0 t)
    ∗ owns (c : Thread nD τ) (st2_1 t) fullShare ((dat₂ c).after 1 t)
    ∗ owns (c : Thread nD τ) (st2_2 t) fullShare ((dat₂ c).after 2 t))

/-- The body at the point: the inputs' memrefs hold their blocks, so the triple applies; the invariant and what the
    core owes pass through unread. -/
theorem sound_body (c : Dev nD) (t : Fin cfg2.N) :
    bodyPre (Name := Name) (U := U) (Lvl := Lvl) V ι B c t ⊢ wp frame (wpE (defs₀ (F := F)) Variants.none c none) Set.univ (bodyAt2 t) (fun _ => bodyPost (Name := Name) (U := U) (Lvl := Lvl) V ι B c t) := by
  unfold bodyPre bodyPost bodyAt2
  simp only [before_0, before_1]
  rw [show (dat₂ c).Φ t.succ = (dat₂ c).Φ t.castSucc from rfl,
    show (dat₂ c).owesAt ι t.succ = (dat₂ c).owesAt ι t.castSucc from rfl,
    after_0, after_1, after_2]
  iintro ⟨HΦ, Ho, ⟨%d0, H0⟩, ⟨%d1, H1⟩, ⟨%d2, H2⟩⟩
  iapply (sound_kernel c Set.univ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at the one point. -/
theorem combine_body (c : Dev nD) :
    BodyObligation (dat₂ c) (defs₀ (F := F)) Variants.none ι Set.univ := fun t => by
  rw [bigSep_W2, bigSep_W2]
  exact sound_body V ι B c t

end Region

/-! ## What the region leaves in its arrays -/

section Region2

variable (V : (c : Dev nD) → (b : Ref sig .tc) → Buf (Elt F) ((c : Thread nD τ).loc b))
variable (ι : Ix) (B : Dev nD → Set (SemLoc sig × Ix))

local notation "dat₂" => dat2 (F := F) (Ix := Ix) (Name := Name) (U := U) (Lvl := Lvl) V B

/-- A whole-shape rectangle at offsets that are all zero, however spelt, embeds an index as itself. -/
theorem unit_zero_emb {S : Shape} {off : Fin S.rank → Nat} (h : off = fun _ => 0) (inb : ∀ a, off a + S.size a ≤ S.size a)
    (x : S.Idx) : (Rect.unit off S.size inb).emb x = x := by
  subst h; exact Rect.emb_whole_apply S x

/-- Each window's block is its whole array: the one block index is zero on every axis. -/
theorem iblk_0 (c : Dev nD) (t : Fin cfg2.N) : iblk V c 0 t = V c main_v6 := by
  have h : iblk V c 0 t = View.ld (V c main_v6) ((cfg2.win 0).rect t) := rfl
  rw [h]
  exact View.ld_unit_zero (by funext a; exact Nat.zero_mul _) _ _
theorem iblk_1 (c : Dev nD) (t : Fin cfg2.N) : iblk V c 1 t = V c main_v7 := by
  have h : iblk V c 1 t = View.ld (V c main_v7) ((cfg2.win 1).rect t) := rfl
  rw [h]
  exact View.ld_unit_zero (by funext a; exact Nat.zero_mul _) _ _

/-- The result the region writes: the sum of the entries of the 32 by 16 array it is handed plus the one entry of the
    one-by-one array it is handed. -/
def v8 (c : Dev nD) : Buf (Elt F) ((c : Thread nD τ).loc main_v8) := Vals.combRes (V c main_v6) (V c main_v7)

/-- The two input arrays are as entered at the region's exit. -/
theorem dat2_arrAt0 (c : Dev nD) (n : Nat) : (dat₂ c).arrAt 0 n = V c main_v6 := (dat₂ c).arrAt_in 0 rfl n
theorem dat2_arrAt1 (c : Dev nD) (n : Nat) : (dat₂ c).arrAt 1 n = V c main_v7 := (dat₂ c).arrAt_in 1 rfl n

/-- The output array holds the result at the region's exit: the one point writes its whole block back. -/
theorem dat2_arrAt2 (c : Dev nD) : (dat₂ c).arrAt 2 cfg2.N = v8 V c := by
  refine (dat₂ c).arrAt_eq_of_cover 2 (v8 V c) (fun t _ => ?_) (fun i => ⟨t2_0, flush2_2 _, ?_⟩)
  · have h1 : (dat₂ c).flushed 2 t = Vals.combRes (iblk V c 0 t) (iblk V c 1 t) := rfl
    have h2 : ((cfg2.win 2).blk t).view.read (Elt F) (v8 V c) = View.ld (v8 V c) ((cfg2.win 2).rect t) := rfl
    rw [h1, h2, iblk_0, iblk_1]
    symm
    exact View.ld_unit_zero (by funext a; exact Nat.zero_mul _) _ _
  · refine Finset.mem_map.mpr ⟨i, Finset.mem_univ _, ?_⟩
    show ((cfg2.win 2).rect t2_0).emb i = i
    exact unit_zero_emb (by funext a; exact Nat.zero_mul _) _ i

end Region2

/-! ## The region as a segment of the main program -/

section Seg

variable (V : (c : Dev nD) → (b : Ref sig .tc) → Buf (Elt F) ((c : Thread nD τ).loc b))
variable (ι : Ix) (B : Dev nD → Set (SemLoc sig × Ix))

local notation "dat₂" => dat2 (F := F) (Ix := Ix) (Name := Name) (U := U) (Lvl := Lvl) V B

/-- The prefetched tables' admissible contents: no pipeline has a table. -/
abbrev adm : (p : Fin 2) → (pcfgs (F := F) p).Adm := fun p => (cfgs p).toPCfg_adm

/-- Both pipelines' proof data: this region's, and for the other pipeline whatever it is given. -/
def pdats (d0 : (c : Dev nD) → Dat τ (Elt F) Ix Name U Lvl (Pipeline.pin (pcfgs (F := F)) adm 0) c) :
    (p : Fin 2) → (c : Dev nD) → Dat τ (Elt F) Ix Name U Lvl (Pipeline.pin (pcfgs (F := F)) adm p) c
  | ⟨0, _⟩ => d0
  | ⟨1, _⟩ => fun c => dat₂ c

/-- The buffer contents at the region's exit: as entered, the result array at the result. -/
abbrev Vout (c : Dev nD) : (b : Ref sig .tc) → Buf (Elt F) ((c : Thread nD τ).loc b) :=
  Function.update (V c) main_v8 (v8 V c)

/-- At the exit each of the region's arrays holds what the pipeline leaves, -/
theorem hF (c : Dev nD) (w : Fin cfg2.W) : (dat₂ c).arrAt w cfg2.N = Vout V c (Pipeline.arrRef spec2 w) := by
  match w with
  | ⟨0, _⟩ => exact (dat2_arrAt0 V B c _).trans (Function.update_of_ne (show (main_v6 : Ref sig .tc) ≠ main_v8 by decide) _ _).symm
  | ⟨1, _⟩ => exact (dat2_arrAt1 V B c _).trans (Function.update_of_ne (show (main_v7 : Ref sig .tc) ≠ main_v8 by decide) _ _).symm
  | ⟨2, _⟩ => exact (dat2_arrAt2 V B c).trans (show v8 V c = Function.update (V c) main_v8 (v8 V c) main_v8 from (Function.update_self (β := fun b : Ref sig .tc => Buf (Elt F) ((c : Thread nD τ).loc b)) main_v8 (v8 V c) (V c)).symm)

/-- and every other buffer what it held at entry. -/
theorem hrest (c : Dev nD) : ∀ b, b ∉ Finset.univ.image (Pipeline.arrRef spec2) → Vout V c b = V c b := fun b hb =>
  Function.update_of_ne (fun e => hb (Finset.mem_image.mpr ⟨2, Finset.mem_univ _, e.symm⟩)) _ _

variable (hB : ∀ d p, p.2 = ι → p ∈ B d)
variable (L : GSem nD τ sig → Finset Ix) (lv : GSem nD τ sig → Ix → Lvl)

-- the pipeline's configuration at index 1 is the printed one up to unfolding of definitions
set_option backward.isDefEq.respectTransparency.types false in
/-- The combine region over a thread state that holds every unscoped buffer at a valuation and the core owing
    nothing with its recorded pairs within `B`: entered at `V`, left at `V` with the result array at the result.
    Its arrays are split out of the unscoped buffers at entry and put back at exit; the invariant is the scoped
    buffers that stage nothing; no semaphore of the kernel's own. -/
def regCombine (d0 : (c : Dev nD) → Dat τ (Elt F) Ix Name U Lvl (Pipeline.pin (pcfgs (F := F)) adm 0) c) :
    Pipeline.RegionSeg (pcfgs (F := F)) adm (pdats V B d0) ι defs₀ Variants.none L lv 1 where
  win := launch2.win.to₀
  block_pos := launch2.block_pos
  stage_whole := launch2.stage_whole
  K := PEmpty
  osem k := k.elim
  ho := Pipeline.OwnSemFacts.none _
  hbody c := (combine_body V ι B c).loose
  hwaits := Pipeline.hwaits_of_owed_zero _ _ _ _ L lv 1 fun _ _ => rfl
  pre c := iprop(unscopedBufs c (V c) ∗ Pipeline.owesWithin (c : Dev nD) (0 : CellTallies nD τ sig Ix) (B c))
  post c := iprop(unscopedBufs c (Vout V c) ∗ Pipeline.owesWithin (c : Dev nD) (0 : CellTallies nD τ sig Ix) (B c))
  X c := iprop(emp)
  Y c := iprop(emp)
  Z c := Pipeline.unscopedRest (Ix := Ix) (Name := Name) (U := U) (Lvl := Lvl) spec2 c (V c)
  hentry c := by
    rw [Pipeline.ownSems0_none]
    have hsplit := Pipeline.arrays_of_unscopedBufs (p := 1) (pcfgs (F := F)) adm (pdats V B d0) launch2.win launch2.arr_whole c
      ((pdats V B d0 1 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono (c : Dev nD) (0 : CellTallies nD τ sig Ix) (B := B c) (B' := (dat₂ c).bound ι 0) Set.subset_union_left)
      iexact HO
    isplitr; · iempintro
    iexact Hrest
  hin c := by
    rw [show (pdats V B d0 1 c).Φ 0 = Pipeline.scopedRest (Ix := Ix) (Name := Name) (U := U) (Lvl := Lvl) (Val := Elt F) spec2 c from rfl]
    iintro ⟨-, -, Hr⟩
    iexact Hr
  hout c := by
    rw [Pipeline.ownSems0_none,
      show (pdats V B d0 1 c).Φ (Fin.last _) = Pipeline.scopedRest (Ix := Ix) (Name := Name) (U := U) (Lvl := Lvl) (Val := Elt F) spec2 c from rfl]
    iintro Hr
    isplitr; · iempintro
    isplitr; · iempintro
    iexact Hr
  hexit c := by
    have hjoin := Pipeline.unscopedBufs_of_arrays (p := 1) (pcfgs (F := F)) adm (Ix := Ix) (Name := Name) (U := U) (Lvl := Lvl)
      launch2.win launch2.arr_whole c (pdats V B d0) ((pdats V B d0 1 c).share_full fun _ => rfl)
      (V c) (Vout V c) ((pdats V B d0 1 c).arrAt · cfg2.N) (hF V B c) (hrest V c)
    have hsub : (dat₂ c).bound ι (Fin.last cfg2.N) ⊆ B c :=
      Set.union_subset (fun _ h => h) fun p hp => by obtain ⟨w, s, rfl⟩ := hp; exact hB c _ rfl
    iintro ⟨Ha, HO, -, Hrest⟩
    imodintro
    isplitl [Ha Hrest]
    · iapply hjoin; isplitl [Ha] <;> iassumption
    iapply (Pipeline.owesWithin_mono (c : Dev nD) (0 : CellTallies nD τ sig Ix) hsub)
    iexact HO

end Seg

end Cert.Kernel.Combine

end
-- ==== Proof.Bits.Dense1.lean ====
/-
  The dense region's geometry and invariant.

  The region visits four blocks of 4096 rows.  The transposed matrix stays where it is and the body streams the block's
  slab (classes 64 to 999 by the block's 4096 rows) through a two-slot buffer by its own copies: at block `i` it starts
  the copy of block `i + 1` into slot `(i + 1) % 2`, on that slot's own counter, and then waits for the copy of block `i`
  into slot `i % 2`, which the step before started (the first step starts it itself).  Between steps `k - 1` and `k`
  (`1 ≤ k ≤ 3`) one copy is outstanding: block `k` into slot `k % 2`.  The matrix is held as two read shares, one per
  slot, and each copy borrows its block's elements from its own slot's share.  The running row holds, before step `k`,
  the sum of the first `k` blocks' contributions.
-/
import proofs.«202802_g48112223650475_cont_8to1c4_51_21_alg».proof.Proof.Gen.Kernel.Launch
import proofs.«202802_g48112223650475_cont_8to1c4_51_21_alg».proof.Proof.Gen.Kernel.Points
import proofs.«202802_g48112223650475_cont_8to1c4_51_21_alg».proof.Proof.Gen.Kernel.Skeleton
import proofs.«202802_g48112223650475_cont_8to1c4_51_21_alg».proof.Proof.Bits.Vals
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.Kernel.Dense

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]
variable {Ix : Type} [DecidableEq Ix] [Inhabited Ix] {Name : Type} [DecidableEq Name] [Infinite Name] {U : Type} [URA U] [CountersIn U]
variable {Lvl : Type} [Preorder Lvl]

local notation "𝕄" => MT nD τ sig Ix (Elt F) Name U Lvl

/-! ## The memrefs the body names -/

/-- The transposed matrix, the two-slot buffer and the running row, whole. -/
abbrev zM : Memref sig .tc .hbm S1000x16384 .f32 := Memref.whole main_v0
abbrev scM : Memref sig .tc .vmem S2x936x4096 .f32 := Memref.whole cc1_scratch0
abbrev accM : Memref sig .tc .vmem S1x4096 .f32 := Memref.whole cc1_scratch1

theorem inb_slot (s : Fin 2) : ∀ a, (![s.val, 0, 0] : Fin 3 → Nat) a + S1x936x4096.size a ≤ S2x936x4096.size a := by
  have := s.isLt; intro a; fin_cases a <;> simp <;> omega
theorem inb_src (b : Fin 4) : ∀ a, (![64, 4096 * b.val] : Fin 2 → Nat) a + S936x4096.size a ≤ S1000x16384.size a := by
  have := b.isLt; intro a; fin_cases a <;> simp <;> omega
theorem inb_cell (s : Fin 2) : ∀ a, (![s.val] : Fin 1 → Nat) a + S1.size a ≤ S2.size a := by
  have := s.isLt; intro a; fin_cases a <;> simp <;> omega

/-- Slot `s` of the buffer, as the copies spell their destination. -/
def rslot (s : Fin 2) : Memref sig .tc .vmem S936x4096 .f32 :=
  (scM.slice (Rect.unit (s := S2x936x4096) ![s.val, 0, 0] S1x936x4096.size (inb_slot s)) (fun _ => rfl)).squeeze S936x4096 squeezes_S1x936x4096_S936x4096
/-- Block `b`'s slab of the matrix, as the copies spell their source. -/
def srcB (b : Fin 4) : Memref sig .tc .hbm S936x4096 .f32 :=
  zM.slice (Rect.unit (s := S1000x16384) ![64, 4096 * b.val] S936x4096.size (inb_src b)) (fun _ => rfl)
/-- Counter `s` of the pair, as the body spells it. -/
def cellA (s : Fin 2) : DmaSems sig S_ := (cc1_scratch2.slice (Rect.unit (s := S2) ![s.val] S1.size (inb_cell s))).squeeze S_ squeezes_S1_S_
abbrev cellR (s : Fin 2) : SemLoc sig := SemLoc.dma (cellA s).sem
theorem cellR_0 : cellR 0 = SemLoc.dma 13 := by decide
theorem cellR_1 : cellR 1 = SemLoc.dma 14 := by decide

/-! ## The body's branch conditions, decided over the four steps -/

/-- The first step. -/
abbrev cond1 (i : grid1.Coords) : Prop := (Scalar.cmpi .ne (Scalar.extui (Scalar.cmpi .eq (BitVec.ofNat 32 (i 0).val) 0#32)) 0#32) = 1#1
theorem hcond1 : ∀ t : Fin cfg1.N, cond1 (grid1.coords t) ↔ t.val = 0 :=
  (by decide +kernel : ∀ t : Fin grid1.N, cond1 (grid1.coords t) ↔ t.val = 0)
/-- A next block exists. -/
abbrev cond2 (i : grid1.Coords) : Prop := k1_cond2 i = 1#1
theorem hcond2 : ∀ t : Fin cfg1.N, cond2 (grid1.coords t) ↔ t.val < 3 :=
  (by decide +kernel : ∀ t : Fin grid1.N, cond2 (grid1.coords t) ↔ t.val < 3)
/-- The last step. -/
abbrev cond3 (i : grid1.Coords) : Prop := k1_cond3 i = 1#1
theorem hcond3 : ∀ t : Fin cfg1.N, cond3 (grid1.coords t) ↔ t.val = 3 :=
  (by decide +kernel : ∀ t : Fin grid1.N, cond3 (grid1.coords t) ↔ t.val = 3)

instance : NeZero grid1.N := ⟨by rw [N_1]; decide⟩

/-! ## The body's operands at step `t` are the slots, blocks and counters by number -/

section Canon
set_option synthInstance.maxSize 4096
theorem coffA1 : ∀ t : Fin grid1.N, cond1 (grid1.coords t) → (![0, 0, 0] : Fin 3 → Nat) = ![(Ring.sl 2 t.val).val, 0, 0] := by decide +kernel
@[sl_canon] theorem canonA1 (t : Fin grid1.N) (h1 : cond1 (grid1.coords t)) :
    (scM.slice (Rect.unit (s := S2x936x4096) ![0, 0, 0] S1x936x4096.size inb_S2x936x4096_S1x936x4096_0_0_0) (fun _ => rfl)).squeeze S936x4096 squeezes_S1x936x4096_S936x4096 = rslot (Ring.sl 2 t.val) :=
  congrArg (fun M : Memref sig .tc .vmem S1x936x4096 .f32 => M.squeeze S936x4096 squeezes_S1x936x4096_S936x4096) (Memref.slice_unit_congr _ (coffA1 t h1) _ _ (fun _ => rfl) (fun _ => rfl))
theorem coffA2 : ∀ t : Fin grid1.N, cond1 (grid1.coords t) → (![0] : Fin 1 → Nat) = ![(Ring.sl 2 t.val).val] := by decide +kernel
@[sl_canon] theorem canonA2 (t : Fin grid1.N) (h1 : cond1 (grid1.coords t)) :
    (cc1_scratch2.slice (Rect.unit (s := S2) ![0] S1.size inb_S2_S1_0)).squeeze S_ squeezes_S1_S_ = cellA (Ring.sl 2 t.val) :=
  congrArg (fun A : DmaSems sig S1 => A.squeeze S_ squeezes_S1_S_) (SemArray.slice_unit_congr _ (coffA2 t h1) _ _)
theorem coffA3 : ∀ t : Fin grid1.N, cond1 (grid1.coords t) → (![64, 0] : Fin 2 → Nat) = ![64, 4096 * (Ring.bk 4 t.val).val] := by decide +kernel
@[sl_canon] theorem canonA3 (t : Fin grid1.N) (h1 : cond1 (grid1.coords t)) :
    zM.slice (Rect.unit (s := S1000x16384) ![64, 0] S936x4096.size inb_S1000x16384_S936x4096_64_0) (fun _ => rfl) = srcB (Ring.bk 4 t.val) :=
  Memref.slice_unit_congr _ (coffA3 t h1) _ _ (fun _ => rfl) (fun _ => rfl)
theorem coff2 : ∀ t : Fin grid1.N, k1_off2 (grid1.coords t) = ![(Ring.sl 2 (t.val + 1)).val, 0, 0] := by decide +kernel
@[sl_canon] theorem canon2 (t : Fin grid1.N) (h2 : cond2 (grid1.coords t)) :
    (scM.slice (Rect.unit (s := S2x936x4096) (k1_off2 (grid1.coords t)) S1x936x4096.size (k1_off2_inb (grid1.coords t) h2)) (fun _ => rfl)).squeeze S936x4096 squeezes_S1x936x4096_S936x4096 = rslot (Ring.sl 2 (t.val + 1)) :=
  congrArg (fun M : Memref sig .tc .vmem S1x936x4096 .f32 => M.squeeze S936x4096 squeezes_S1x936x4096_S936x4096) (Memref.slice_unit_congr _ (coff2 t) _ _ (fun _ => rfl) (fun _ => rfl))
theorem coff1 : ∀ t : Fin grid1.N, k1_off1 (grid1.coords t) = ![(Ring.sl 2 (t.val + 1)).val] := by decide +kernel
@[sl_canon] theorem canon1 (t : Fin grid1.N) (h2 : cond2 (grid1.coords t)) :
    (cc1_scratch2.slice (Rect.unit (s := S2) (k1_off1 (grid1.coords t)) S1.size (k1_off1_inb (grid1.coords t) h2))).squeeze S_ squeezes_S1_S_ = cellA (Ring.sl 2 (t.val + 1)) :=
  congrArg (fun A : DmaSems sig S1 => A.squeeze S_ squeezes_S1_S_) (SemArray.slice_unit_congr _ (coff1 t) _ _)
theorem coff3 : ∀ t : Fin grid1.N, cond2 (grid1.coords t) → k1_off3 (grid1.coords t) = ![64, 4096 * (Ring.bk 4 (t.val + 1)).val] := by decide +kernel
@[sl_canon] theorem canon3 (t : Fin grid1.N) (h2 : cond2 (grid1.coords t)) :
    zM.slice (Rect.unit (s := S1000x16384) (k1_off3 (grid1.coords t)) S936x4096.size (k1_off3_inb (grid1.coords t) h2)) (fun _ => rfl) = srcB (Ring.bk 4 (t.val + 1)) :=
  Memref.slice_unit_congr _ (coff3 t h2) _ _ (fun _ => rfl) (fun _ => rfl)
theorem coff5 : ∀ t : Fin grid1.N, k1_off5 (grid1.coords t) = ![(Ring.sl 2 t.val).val, 0, 0] := by decide +kernel
@[sl_canon] theorem canon5 (t : Fin grid1.N) :
    (scM.slice (Rect.unit (s := S2x936x4096) (k1_off5 (grid1.coords t)) S1x936x4096.size (k1_off5_inb (grid1.coords t))) (fun _ => rfl)).squeeze S936x4096 squeezes_S1x936x4096_S936x4096 = rslot (Ring.sl 2 t.val) :=
  congrArg (fun M : Memref sig .tc .vmem S1x936x4096 .f32 => M.squeeze S936x4096 squeezes_S1x936x4096_S936x4096) (Memref.slice_unit_congr _ (coff5 t) _ _ (fun _ => rfl) (fun _ => rfl))
theorem coff4 : ∀ t : Fin grid1.N, k1_off4 (grid1.coords t) = ![(Ring.sl 2 t.val).val] := by decide +kernel
@[sl_canon] theorem canon4 (t : Fin grid1.N) :
    (cc1_scratch2.slice (Rect.unit (s := S2) (k1_off4 (grid1.coords t)) S1.size (k1_off4_inb (grid1.coords t)))).squeeze S_ squeezes_S1_S_ = cellA (Ring.sl 2 t.val) :=
  congrArg (fun A : DmaSems sig S1 => A.squeeze S_ squeezes_S1_S_) (SemArray.slice_unit_congr _ (coff4 t) _ _)
theorem coff6 : ∀ t : Fin grid1.N, k1_off6 (grid1.coords t) = ![64, 4096 * (Ring.bk 4 t.val).val] := by decide +kernel
@[sl_canon] theorem canon6 (t : Fin grid1.N) :
    zM.slice (Rect.unit (s := S1000x16384) (k1_off6 (grid1.coords t)) S936x4096.size (k1_off6_inb (grid1.coords t))) (fun _ => rfl) = srcB (Ring.bk 4 t.val) :=
  Memref.slice_unit_congr _ (coff6 t) _ _ (fun _ => rfl) (fun _ => rfl)
theorem coff7 : ∀ t : Fin grid1.N, k1_off7 (grid1.coords t) = ![(Ring.sl 2 t.val).val, 0, 0] := by decide +kernel
/-- The load of the slot just waited for, in the slot's spelling. -/
instance (priority := high) closedOff7 (t : Fin grid1.N) : ClosedOff (k1_off7 (grid1.coords t)) := ⟨![(Ring.sl 2 t.val).val, 0, 0], coff7 t⟩
end Canon

/-! ## The pieces of the invariant -/

section Pieces
variable (c : Dev nD)

/-- Contents of the matrix's buffer, of a slot's, of the running row's. -/
abbrev ZBuf : Type := Buf (Elt F) (zM.view.loc (c : Thread nD τ))
abbrev SlotBuf (s : Fin 2) : Type := Buf (Elt F) ((rslot s).view.loc (c : Thread nD τ))

variable (Wz : ZBuf (F := F) c)

/-- The matrix is lent by share: slot 0's copies borrow from the left half of the full share, slot 1's from the right. -/
abbrev qs (s : Fin 2) : PosShare TreeShare := if s.val = 0 then fullShare.left else fullShare.right
/-- Slot `s` held at `f`; counter `s` at zero; block `b`'s elements of slot `s`'s share of the matrix, the rest of that share,
    and the share whole; slot `s` once block `b` has landed over `f`; the copy of block `b` into slot `s` outstanding. -/
abbrev slotP (s : Fin 2) (f : SlotBuf (F := F) c s) : sProp 𝕄 := (rslot s).view.loc (c : Thread nD τ) ↦[(rslot s).view.set]{fullShare} f
abbrev cellP (s : Fin 2) : sProp 𝕄 := semVal ((c : Thread nD τ), cellR s) 0
abbrev srcP (s : Fin 2) (b : Fin 4) : sProp 𝕄 := (srcB b).view.loc (c : Thread nD τ) ↦[(srcB b).view.set]{qs s} Wz
def restP (s : Fin 2) (b : Fin 4) : sProp 𝕄 := ((c : Thread nD τ).loc main_v0) ↦[Finset.univ \ (srcB b).view.set]{qs s} Wz
abbrev wholeP (s : Fin 2) : sProp 𝕄 := ((c : Thread nD τ).loc main_v0) ↦[Finset.univ]{qs s} Wz
abbrev landed (s : Fin 2) (b : Fin 4) (f : SlotBuf (F := F) c s) : SlotBuf (F := F) c s :=
  (rslot s).view.writes (Elt F) f [⟨Rect.whole S936x4096, ReadAs.same.apply ((srcB b).view.read (Elt F) Wz)⟩]
abbrev flightP (s : Fin 2) (b : Fin 4) (f : SlotBuf (F := F) c s) : sProp 𝕄 :=
  Transfers.Flight countersEmb (c : Thread nD τ) (cellR s) default ((rslot s).view.amount (cellR s))
    iprop(slotP c s (landed c Wz s b f) ∗ srcP c Wz s b)
/-- The running row at `a`. -/
abbrev accP (a : Vec F S1x4096 .f32) : sProp 𝕄 := accM.view.loc (c : Thread nD τ) ↦[accM.view.set]{fullShare} a

theorem src_split (s : Fin 2) (b : Fin 4) : wholeP (F := F) (Ix := Ix) (Name := Name) (U := U) (Lvl := Lvl) c Wz s ⊣⊢ iprop(srcP c Wz s b ∗ restP c Wz s b) := by
  unfold restP; exact pointsTo_split_subset (Finset.subset_univ _)

end Pieces

/-! ## The blocks the body reads, as functions of the arrays' contents -/

section Data
variable (c : Dev nD)

/-- Step `n` as a point of the grid. -/
def pt (n : Fin 4) : Fin cfg1.N := ⟨n.val, lt_of_lt_of_eq n.isLt N_1.symm⟩

/-- Block `n`'s slab of the transposed matrix as the body loads it from its slot: entry `(0, k, j)` is the slab's entry `(k, j)`,
    the matrix's entry at class `64 + k`, row `4096 n + j`. -/
def zb (Wz : ZBuf (F := F) c) (n : Fin 4) : Vec F S1x936x4096 .f32 :=
  fun y => ReadAs.same.apply ((srcB n).view.read (Elt F) Wz) (fun i => (y i.succ).cast rfl)

variable (V : (b : Ref sig .tc) → Buf (Elt F) ((c : Thread nD τ).loc b))

/-- Window `w`'s block at point `t`, read off its array. -/
def iblk (w : Fin cfg1.W) (t : Fin cfg1.N) : ((cfg1.win w).xblock (cfg1.grid.coords t)).Idx → Elt F (cfg1.win w).elt :=
  ((cfg1.win w).blk t).view.read (Elt F) (V (Pipeline.arrRef spec1 w))

/-- Block `n` of the labels, of the second labels, of the mask. -/
def lb (n : Fin 4) : Vec F S1x1x4096 .i32 := iblk c V 0 (pt n)
def lpb (n : Fin 4) : Vec F S1x1x4096 .i32 := iblk c V 1 (pt n)
def cb (n : Fin 4) : Vec F S1x1x4096 .f32 := iblk c V 2 (pt n)

/-- The running row after the first `k` blocks, and the region's one-by-one result. -/
def accD (k : ℕ) : Vec F S1x4096 .f32 := Vals.denseAcc (zb c (V main_v0)) (lb c V) (lpb c V) (cb c V) k
def resD : Vec F S1x1 .f32 := Vals.denseRes (zb c (V main_v0)) (lb c V) (lpb c V) (cb c V)

/-- One block's contribution added to the running row. -/
def accStep (z : Vec F S1x936x4096 .f32) (x0 x1 : Vec F S1x1x4096 .i32) (x2 : Vec F S1x1x4096 .f32) (a : Vec F S1x4096 .f32) : Vec F S1x4096 .f32 :=
  k1_pay1 (k1_pay4 z) (k1_pay5 (F := F) x1) (k1_pay6 x2) k1_pay7 (k1_pay8 z x0) a

theorem accD_zero : accD c V 0 = k1_pay3 (F := F) := rfl
theorem accD_succ (t : Fin cfg1.N) : accD c V (t.val + 1) = accStep (zb c (V main_v0) (Ring.bk 4 t.val)) (iblk c V 0 t) (iblk c V 1 t) (iblk c V 2 t) (accD c V t.val) := by
  have h : t.val < 4 := lt_of_lt_of_eq t.isLt N_1
  have hb : Ring.bk 4 t.val = ⟨t.val, h⟩ := Fin.ext (Ring.bk_val h)
  unfold accD; rw [Vals.denseAcc, dif_pos h, hb]; rfl
theorem resD_eq : resD c V = k1_pay2 (accD c V 4) := rfl

end Data

/-! ## The invariant between steps -/

section Inv
variable (c : Dev nD) (Wz : ZBuf (F := F) c) (acc : ℕ → Vec F S1x4096 .f32)

/-- The other region's three staging buffers ride through untouched. -/
abbrev otherP : sProp 𝕄 :=
  iprop((∃ f : Buf (Elt F) ((c : Thread nD τ).loc cc2_stg0_0), ((c : Thread nD τ).loc cc2_stg0_0) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f))

/-- Nothing outstanding: the running row and both slots at anything, both counters at zero, both shares of the matrix whole. -/
def PhiFree : sProp 𝕄 :=
  iprop((∃ a, accP c a) ∗ (cellP c 0 ∗ ∃ f, slotP c 0 f) ∗ (cellP c 1 ∗ ∃ f, slotP c 1 f) ∗ wholeP c Wz 0 ∗ wholeP c Wz 1 ∗ otherP c)

/-- Before step `k`, `1 ≤ k ≤ 3`: the running row at the first `k` blocks' sum; the copy of block `k` into slot `k % 2`
    outstanding, beside the rest of the share it borrowed from; the other slot free, its counter at zero, its share whole. -/
def PhiMid (k : ℕ) : sProp 𝕄 :=
  iprop(accP c (acc k)
    ∗ ((∃ f, flightP c Wz (Ring.sl 2 k) (Ring.bk 4 k) f) ∗ restP c Wz (Ring.sl 2 k) (Ring.bk 4 k))
    ∗ (cellP c (Ring.sl 2 (k + 1)) ∗ (∃ f, slotP c (Ring.sl 2 (k + 1)) f) ∗ wholeP c Wz (Ring.sl 2 (k + 1)))
    ∗ otherP c)

/-- The invariant before step `k` (after step `k - 1`). -/
def PhiD (k : ℕ) : sProp 𝕄 := if k = 0 ∨ 4 ≤ k then PhiFree c Wz else PhiMid c Wz acc k

end Inv

/-! ## The proof data -/

/-- The dense region's proof data on core `c`, at the entry contents `V`, the core's recorded pairs within `B`: each input's
    buffer keeps its block; the result's buffer holds the region's result after the last step; the invariant above; nothing
    owed; full shares. -/
def dat1 (B : Set (SemLoc sig × Ix)) (c : Dev nD) (V : (b : Ref sig .tc) → Buf (Elt F) ((c : Thread nD τ).loc b)) :
    Dat τ (Elt F) Ix Name U Lvl cfg1 c where
  A w := V (Pipeline.arrRef spec1 w)
  after w t := match w with
    | ⟨0, _⟩ => iblk c V 0 t
    | ⟨1, _⟩ => iblk c V 1 t
    | ⟨2, _⟩ => iblk c V 2 t
    | ⟨3, _⟩ => resD c V
  Φ t := PhiD c (V main_v0) (accD c V) t.val
  q _ := fullShare
  owed _ := 0
  recorded _ := B

section DatFacts
variable (B : Set (SemLoc sig × Ix)) (c : Dev nD) (V : (b : Ref sig .tc) → Buf (Elt F) ((c : Thread nD τ).loc b))

theorem A_eq (w : Fin cfg1.W) : (dat1 (Name := Name) (U := U) (Lvl := Lvl) B c V).A w = V (Pipeline.arrRef spec1 w) := by dsimp only [dat1]
theorem after_0 (t : Fin cfg1.N) : (dat1 (Name := Name) (U := U) (Lvl := Lvl) B c V).after 0 t = iblk c V 0 t := by dsimp only [dat1]
theorem after_1 (t : Fin cfg1.N) : (dat1 (Name := Name) (U := U) (Lvl := Lvl) B c V).after 1 t = iblk c V 1 t := by dsimp only [dat1]
theorem after_2 (t : Fin cfg1.N) : (dat1 (Name := Name) (U := U) (Lvl := Lvl) B c V).after 2 t = iblk c V 2 t := by dsimp only [dat1]
theorem after_3 (t : Fin cfg1.N) : (dat1 (Name := Name) (U := U) (Lvl := Lvl) B c V).after 3 t = resD c V := by dsimp only [dat1]
theorem Phi_castSucc (t : Fin cfg1.N) : (dat1 (Name := Name) (U := U) (Lvl := Lvl) B c V).Φ t.castSucc = PhiD c (V main_v0) (accD c V) t.val := by
  dsimp only [dat1]; simp only [Fin.coe_castSucc]
theorem Phi_succ (t : Fin cfg1.N) : (dat1 (Name := Name) (U := U) (Lvl := Lvl) B c V).Φ t.succ = PhiD c (V main_v0) (accD c V) (t.val + 1) := by
  dsimp only [dat1]; simp only [Fin.val_succ]

/-- Each input's current buffer holds its block at every point. -/
theorem before_0 (t : Fin cfg1.N) (d) : (dat1 (Name := Name) (U := U) (Lvl := Lvl) B c V).before 0 t d = iblk c V 0 t :=
  ((dat1 B c V).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (t : Fin cfg1.N) (d) : (dat1 (Name := Name) (U := U) (Lvl := Lvl) B c V).before 1 t d = iblk c V 1 t :=
  ((dat1 B c V).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (t : Fin cfg1.N) (d) : (dat1 (Name := Name) (U := U) (Lvl := Lvl) B c V).before 2 t d = iblk c V 2 t :=
  ((dat1 B c V).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

end DatFacts

end Cert.Kernel.Dense

end
-- ==== Proof.Bits.Dense2.lean ====
/-
  The dense region's body, step by step: the first step (it zeroes the running row and starts the first two copies), a
  middle step (it starts the next copy, waits for its own, adds its block), the last step (it waits, adds, and sums the
  running row into the result).
-/
import proofs.«202802_g48112223650475_cont_8to1c4_51_21_alg».proof.Proof.Bits.Dense1
import Idealize.ShloMosaic.Lib.Pipeline.Value

set_option maxRecDepth 16384

noncomputable section

namespace Cert.Kernel.Dense

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]
variable {Ix : Type} [DecidableEq Ix] [Inhabited Ix] {Name : Type} [DecidableEq Name] [Infinite Name] {U : Type} [URA U] [CountersIn U]
variable {Lvl : Type} [Preorder Lvl]

local notation "𝕄" => MT nD τ sig Ix (Elt F) Name U Lvl

variable {c : Dev nD}

/-! ## What the body's loads read and its stores leave -/

theorem hz2 : (![0, 0] : Fin 2 → Nat) = fun _ => 0 := by funext a; fin_cases a <;> rfl
theorem hz3 : (![0, 0, 0] : Fin 3 → Nat) = fun _ => 0 := by funext a; fin_cases a <;> rfl

/-- A load of the whole running row reads it. -/
theorem acc_readAt (inb) (a : Vec F S1x4096 .f32) :
    View.readAt (Elt F) accM.view (Rect.unit (s := S1x4096) ![0, 0] S1x4096.size inb).toLoadRect a = a := by
  simp only [View.readAt_eq_ld, Memref.view_whole, View.read_whole, View.ld_unit_zero (S := S1x4096) hz2]

/-- A store of the whole running row leaves what it stores. -/
theorem acc_writes (inb) (a w : Vec F S1x4096 .f32) :
    accM.view.writes (Elt F) a [⟨Rect.unit (s := S1x4096) ![0, 0] S1x4096.size inb, w⟩] = w := by
  have h := View.read_writes_eq_canon accM.view a [(⟨Rect.unit (s := S1x4096) ![0, 0] S1x4096.size inb, w⟩ : View.Piece (Elt F) S1x4096 .f32)]
    (fun y => ⟨_, List.mem_singleton_self _, View.mem_set_unit_zero hz2 inb y⟩)
  rw [View.canon_unit_zero hz2] at h
  simpa only [Memref.view_whole, View.read_whole] using h

/-- A store of the whole running row, last, leaves what it stores whatever was stored before. -/
theorem acc_writes' (inb) (a w : Vec F S1x4096 .f32) (L : List (View.Piece (Elt F) S1x4096 .f32)) :
    accM.view.writes (Elt F) a ((⟨Rect.unit (s := S1x4096) ![0, 0] S1x4096.size inb, w⟩ : View.Piece (Elt F) S1x4096 .f32) :: L) = w := by
  have h := View.read_writes_eq_canon accM.view a ((⟨Rect.unit (s := S1x4096) ![0, 0] S1x4096.size inb, w⟩ : View.Piece (Elt F) S1x4096 .f32) :: L)
    (fun y => ⟨_, List.mem_cons_self, View.mem_set_unit_zero hz2 inb y⟩)
  rw [View.canon_cons_unit_zero hz2] at h
  simpa only [Memref.view_whole, View.read_whole] using h

/-- Where the slot's view puts an index: behind the slot's number on the leading axis. -/
theorem slot_emb (s : Fin 2) (y : S936x4096.Idx) (x : S1x936x4096.Idx) (hy : ∀ i : Fin 2, (y i).val = (x i.succ).val) (a : Fin 3) :
    ((rslot s).view.emb y a).val = (![s.val, 0, 0] : Fin 3 → Nat) a + (x a).val := by
  show (![s.val, 0, 0] : Fin 3 → Nat) a + 1 * ((Shape.reshapeEquiv (Shape.Squeezes.numel_eq squeezes_S1x936x4096_S936x4096) y) a).val = _
  rw [Shape.reshapeEquiv_cons_one (n := 2) (d := ![936, 4096])]
  refine Fin.cases ?_ (fun i => ?_) a
  · have hx : (x 0).val < 1 := (x 0).isLt
    show s.val + 1 * 0 = s.val + (x 0).val
    omega
  · have := hy i
    show (![s.val, 0, 0] : Fin 3 → Nat) i.succ + 1 * (y i).val = _
    omega

/-- A load of slot `s`'s row through the whole buffer, of contents a copy left on the slot's own view, reads the copy's
    payload at the index behind the leading axis. -/
theorem slot_read (s : Fin 2) (f : SlotBuf (F := F) c s) (x : S936x4096.Idx → Elt F .f32) (off : Fin 3 → Nat) (inb) (hoff : off = ![s.val, 0, 0]) :
    View.readAt (Elt F) scM.view (Rect.unit (s := S2x936x4096) off S1x936x4096.size inb).toLoadRect
        ((rslot s).view.writes (Elt F) f [⟨Rect.whole S936x4096, x⟩])
      = fun y => x (fun i => (y i.succ).cast rfl) := by
  subst hoff
  funext y
  simp only [View.readAt, Memref.view_whole, View.read_whole]
  have e : (Rect.unit (s := S2x936x4096) ![s.val, 0, 0] S1x936x4096.size inb).toLoadRect.idx y
      = (rslot s).view.emb (fun i => (y i.succ).cast rfl) := by
    funext a; apply Fin.ext
    rw [slot_emb s (fun i => (y i.succ).cast rfl) y (fun _ => rfl) a]
    show (![s.val, 0, 0] : Fin 3 → Nat) a + 1 * (y a).val = _
    omega
  rw [e]
  exact congrFun (View.read_writes_whole (rslot s).view f x) _

set_option maxHeartbeats 1000000 in
/-- A middle step. -/
theorem runB (c : Dev nD) (t : Fin cfg1.N)
    (arg2 : Memref sig .tc .vmem S1x1x4096 .i32) (harg2 : arg2.IsWhole) (arg3 : Memref sig .tc .vmem S1x1x4096 .i32) (harg3 : arg3.IsWhole)
    (arg4 : Memref sig .tc .vmem S1x1x4096 .f32) (harg4 : arg4.IsWhole) (arg5 : Memref sig .tc .vmem S1x1 .f32) (harg5 : arg5.IsWhole)
    (hc1 : ¬cond1 (grid1.coords t)) (hc2 : cond2 (grid1.coords t)) (hc3 : ¬cond3 (grid1.coords t))
    (x0 x1 : Vec F S1x1x4096 .i32) (x2 : Vec F S1x1x4096 .f32) (y : Vec F S1x1 .f32) (Wz : ZBuf (F := F) c) (a : Vec F S1x4096 .f32)
    (W : Waits sig Ix) (K : PUnit → sProp 𝕄) :
    iprop(owns (c : Thread nD τ) arg2 fullShare x0 ∗ owns (c : Thread nD τ) arg3 fullShare x1 ∗ owns (c : Thread nD τ) arg4 fullShare x2
          ∗ owns (c : Thread nD τ) arg5 fullShare y ∗ accP c a
          ∗ (∃ f, flightP c Wz (Ring.sl 2 t.val) (Ring.bk 4 t.val) f) ∗ restP c Wz (Ring.sl 2 t.val) (Ring.bk 4 t.val)
          ∗ cellP c (Ring.sl 2 (t.val + 1)) ∗ (∃ f, slotP c (Ring.sl 2 (t.val + 1)) f) ∗ wholeP c Wz (Ring.sl 2 (t.val + 1))
          ∗ owes (c : Thread nD τ) 0 W
          ∗ (iprop(owns (c : Thread nD τ) arg2 fullShare x0 ∗ owns (c : Thread nD τ) arg3 fullShare x1 ∗ owns (c : Thread nD τ) arg4 fullShare x2
              ∗ owns (c : Thread nD τ) arg5 fullShare y
              ∗ (∃ g, ⌜g = accStep (zb c Wz (Ring.bk 4 t.val)) x0 x1 x2 a⌝ ∗ accP c g)
              ∗ (∃ f, flightP c Wz (Ring.sl 2 (t.val + 1)) (Ring.bk 4 (t.val + 1)) f) ∗ restP c Wz (Ring.sl 2 (t.val + 1)) (Ring.bk 4 (t.val + 1))
              ∗ cellP c (Ring.sl 2 t.val) ∗ (∃ f, slotP c (Ring.sl 2 t.val) f) ∗ wholeP c Wz (Ring.sl 2 t.val)
              ∗ owes (c : Thread nD τ) 0 (insert (cellR (Ring.sl 2 t.val), default) W)) -∗ K ⟨⟩))
      ⊢ wp frame (wpE (defs₀ (F := F)) Variants.none c none) Set.univ (cc1__tc_dense_body (grid1.coords t) zM (Memref.isWhole_whole _) arg2 harg2 arg3 harg3 arg4 harg4 arg5 harg5 scM (Memref.isWhole_whole _) accM (Memref.isWhole_whole _) cc1_scratch2) K := by
  haveI : Fact (¬cond1 (grid1.coords t)) := ⟨hc1⟩
  haveI : Fact (cond2 (grid1.coords t)) := ⟨hc2⟩
  haveI : Fact (¬cond3 (grid1.coords t)) := ⟨hc3⟩
  simp only [cc1__tc_dense_body_eq_skeleton]; unfold cc1__tc_dense_body_skel
  unfold owns
  iintro ⟨⟨%f0, %hf0, H0⟩, ⟨%f1, %hf1, H1⟩, ⟨%f2, %hf2, H2⟩, ⟨%f3, %hf3, H3⟩, Hacc, ⟨%ff, Hfl⟩, Hrf, Hc, ⟨%fs, Hs⟩, Hw, HW, Hk⟩
  ihave Hsp := (src_split c Wz (Ring.sl 2 (t.val + 1)) (Ring.bk 4 (t.val + 1))).1 $$ Hw
  icases Hsp with ⟨Hh, Hr⟩
  obtain rfl := harg2.eq_unread hf0
  obtain rfl := harg3.eq_unread hf1
  obtain rfl := harg4.eq_unread hf2
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact hf3
    iexact H3
  isplitl [Hacc]
  · iexists _; isplitr
    swap; · iexact Hacc
    ipureintro
    sl_unfold_run_names
    rw [slot_read (c := c) (Ring.sl 2 t.val) _ _ _ _ (coff7 t), acc_readAt, acc_writes]
    simp only [View.readAt_eq_ld, harg2.read_unread, harg3.read_unread, harg4.read_unread, View.ld_unit_zero (S := S1x1x4096) hz3]
    rfl
  isplitl [Hc]; · iexists _; iexact Hc
  isplitl [Hr]; · iexact Hr
  isplitl [Hfl]; · iexact Hfl
  isplitl [Hfl_dst]; · iexists _; iexact Hfl_dst
  isplitl [Hfl_src Hrf]
  · iapply (src_split c Wz (Ring.sl 2 t.val) (Ring.bk 4 t.val)).2; isplitl [Hfl_src]; · iexact Hfl_src
    iexact Hrf
  iexact HW

set_option maxHeartbeats 1000000 in
/-- The first step. -/
theorem runA (c : Dev nD) (t : Fin cfg1.N)
    (arg2 : Memref sig .tc .vmem S1x1x4096 .i32) (harg2 : arg2.IsWhole) (arg3 : Memref sig .tc .vmem S1x1x4096 .i32) (harg3 : arg3.IsWhole)
    (arg4 : Memref sig .tc .vmem S1x1x4096 .f32) (harg4 : arg4.IsWhole) (arg5 : Memref sig .tc .vmem S1x1 .f32) (harg5 : arg5.IsWhole)
    (hc1 : cond1 (grid1.coords t)) (hc2 : cond2 (grid1.coords t)) (hc3 : ¬cond3 (grid1.coords t))
    (x0 x1 : Vec F S1x1x4096 .i32) (x2 : Vec F S1x1x4096 .f32) (y : Vec F S1x1 .f32) (Wz : ZBuf (F := F) c)
    (W : Waits sig Ix) (K : PUnit → sProp 𝕄) :
    iprop(owns (c : Thread nD τ) arg2 fullShare x0 ∗ owns (c : Thread nD τ) arg3 fullShare x1 ∗ owns (c : Thread nD τ) arg4 fullShare x2
          ∗ owns (c : Thread nD τ) arg5 fullShare y ∗ (∃ a, accP c a)
          ∗ cellP c (Ring.sl 2 t.val) ∗ (∃ f, slotP c (Ring.sl 2 t.val) f) ∗ wholeP c Wz (Ring.sl 2 t.val)
          ∗ cellP c (Ring.sl 2 (t.val + 1)) ∗ (∃ f, slotP c (Ring.sl 2 (t.val + 1)) f) ∗ wholeP c Wz (Ring.sl 2 (t.val + 1))
          ∗ owes (c : Thread nD τ) 0 W
          ∗ (iprop(owns (c : Thread nD τ) arg2 fullShare x0 ∗ owns (c : Thread nD τ) arg3 fullShare x1 ∗ owns (c : Thread nD τ) arg4 fullShare x2
              ∗ owns (c : Thread nD τ) arg5 fullShare y
              ∗ (∃ g, ⌜g = accStep (zb c Wz (Ring.bk 4 t.val)) x0 x1 x2 (k1_pay3 (F := F))⌝ ∗ accP c g)
              ∗ (∃ f, flightP c Wz (Ring.sl 2 (t.val + 1)) (Ring.bk 4 (t.val + 1)) f) ∗ restP c Wz (Ring.sl 2 (t.val + 1)) (Ring.bk 4 (t.val + 1))
              ∗ cellP c (Ring.sl 2 t.val) ∗ (∃ f, slotP c (Ring.sl 2 t.val) f) ∗ wholeP c Wz (Ring.sl 2 t.val)
              ∗ owes (c : Thread nD τ) 0 (insert (cellR (Ring.sl 2 t.val), default) W)) -∗ K ⟨⟩))
      ⊢ wp frame (wpE (defs₀ (F := F)) Variants.none c none) Set.univ (cc1__tc_dense_body (grid1.coords t) zM (Memref.isWhole_whole _) arg2 harg2 arg3 harg3 arg4 harg4 arg5 harg5 scM (Memref.isWhole_whole _) accM (Memref.isWhole_whole _) cc1_scratch2) K := by
  haveI : Fact (cond1 (grid1.coords t)) := ⟨hc1⟩
  haveI : Fact (cond2 (grid1.coords t)) := ⟨hc2⟩
  haveI : Fact (¬cond3 (grid1.coords t)) := ⟨hc3⟩
  simp only [cc1__tc_dense_body_eq_skeleton]; unfold cc1__tc_dense_body_skel
  unfold owns
  iintro ⟨⟨%f0, %hf0, H0⟩, ⟨%f1, %hf1, H1⟩, ⟨%f2, %hf2, H2⟩, ⟨%f3, %hf3, H3⟩, ⟨%a0, Hacc⟩, Hc0, ⟨%fs0, Hs0⟩, Hw0, Hc1, ⟨%fs1, Hs1⟩, Hw1, HW, Hk⟩
  ihave Hsp0 := (src_split c Wz (Ring.sl 2 t.val) (Ring.bk 4 t.val)).1 $$ Hw0
  icases Hsp0 with ⟨Hh0, Hr0⟩
  ihave Hsp1 := (src_split c Wz (Ring.sl 2 (t.val + 1)) (Ring.bk 4 (t.val + 1))).1 $$ Hw1
  icases Hsp1 with ⟨Hh1, Hr1⟩
  obtain rfl := harg2.eq_unread hf0
  obtain rfl := harg3.eq_unread hf1
  obtain rfl := harg4.eq_unread hf2
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact hf3
    iexact H3
  isplitl [Hacc]
  · iexists _; isplitr
    swap; · iexact Hacc
    ipureintro
    sl_unfold_run_names
    rw [slot_read (c := c) (Ring.sl 2 t.val) _ _ _ _ (coff7 t), View.readCov_unit_zero _ hz2, acc_writes']
    simp only [View.readAt_eq_ld, harg2.read_unread, harg3.read_unread, harg4.read_unread, View.ld_unit_zero (S := S1x1x4096) hz3]
    rfl
  isplitl [Hc1]; · iexists _; iexact Hc1
  isplitl [Hr1]; · iexact Hr1
  isplitl [Hc0]; · iexact Hc0
  isplitl [Hs0]; · iexists _; iexact Hs0
  isplitl [Hh0 Hr0]
  · iapply (src_split c Wz (Ring.sl 2 t.val) (Ring.bk 4 t.val)).2; isplitl [Hh0]; · iexact Hh0
    iexact Hr0
  iexact HW

set_option maxHeartbeats 1000000 in
/-- The last step. -/
theorem runC (c : Dev nD) (t : Fin cfg1.N)
    (arg2 : Memref sig .tc .vmem S1x1x4096 .i32) (harg2 : arg2.IsWhole) (arg3 : Memref sig .tc .vmem S1x1x4096 .i32) (harg3 : arg3.IsWhole)
    (arg4 : Memref sig .tc .vmem S1x1x4096 .f32) (harg4 : arg4.IsWhole) (arg5 : Memref sig .tc .vmem S1x1 .f32) (harg5 : arg5.IsWhole)
    (hc1 : ¬cond1 (grid1.coords t)) (hc2 : ¬cond2 (grid1.coords t)) (hc3 : cond3 (grid1.coords t))
    (x0 x1 : Vec F S1x1x4096 .i32) (x2 : Vec F S1x1x4096 .f32) (Wz : ZBuf (F := F) c) (a : Vec F S1x4096 .f32)
    (W : Waits sig Ix) (K : PUnit → sProp 𝕄) :
    iprop(owns (c : Thread nD τ) arg2 fullShare x0 ∗ owns (c : Thread nD τ) arg3 fullShare x1 ∗ owns (c : Thread nD τ) arg4 fullShare x2
          ∗ (∃ d, owns (c : Thread nD τ) arg5 fullShare d) ∗ accP c a
          ∗ (∃ f, flightP c Wz (Ring.sl 2 t.val) (Ring.bk 4 t.val) f) ∗ restP c Wz (Ring.sl 2 t.val) (Ring.bk 4 t.val)
          ∗ owes (c : Thread nD τ) 0 W
          ∗ (iprop(owns (c : Thread nD τ) arg2 fullShare x0 ∗ owns (c : Thread nD τ) arg3 fullShare x1 ∗ owns (c : Thread nD τ) arg4 fullShare x2
              ∗ owns (c : Thread nD τ) arg5 fullShare (k1_pay2 (accStep (zb c Wz (Ring.bk 4 t.val)) x0 x1 x2 a))
              ∗ (∃ g, accP c g)
              ∗ cellP c (Ring.sl 2 t.val) ∗ (∃ f, slotP c (Ring.sl 2 t.val) f) ∗ wholeP c Wz (Ring.sl 2 t.val)
              ∗ owes (c : Thread nD τ) 0 (insert (cellR (Ring.sl 2 t.val), default) W)) -∗ K ⟨⟩))
      ⊢ wp frame (wpE (defs₀ (F := F)) Variants.none c none) Set.univ (cc1__tc_dense_body (grid1.coords t) zM (Memref.isWhole_whole _) arg2 harg2 arg3 harg3 arg4 harg4 arg5 harg5 scM (Memref.isWhole_whole _) accM (Memref.isWhole_whole _) cc1_scratch2) K := by
  haveI : Fact (¬cond1 (grid1.coords t)) := ⟨hc1⟩
  haveI : Fact (¬cond2 (grid1.coords t)) := ⟨hc2⟩
  haveI : Fact (cond3 (grid1.coords t)) := ⟨hc3⟩
  simp only [cc1__tc_dense_body_eq_skeleton]; unfold cc1__tc_dense_body_skel
  unfold owns
  iintro ⟨⟨%f0, %hf0, H0⟩, ⟨%f1, %hf1, H1⟩, ⟨%f2, %hf2, H2⟩, ⟨%d3, %f3, -, H3⟩, Hacc, ⟨%ff, Hfl⟩, Hrf, HW, Hk⟩
  obtain rfl := harg2.eq_unread hf0
  obtain rfl := harg3.eq_unread hf1
  obtain rfl := harg4.eq_unread hf2
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_run_names
    rw [View.read_writes_eq_canon _ _ _ (fun y => ⟨_, List.mem_singleton_self _, View.mem_set_unit_zero hz2 inb_S1x1_S1x1_0_0 y⟩), View.canon_unit_zero hz2]
    rw [View.readCov_unit_zero _ hz2]
    rw [slot_read (c := c) (Ring.sl 2 t.val) _ _ _ _ (coff7 t), acc_readAt]
    simp only [View.readAt_eq_ld, harg2.read_unread, harg3.read_unread, harg4.read_unread, View.ld_unit_zero (S := S1x1x4096) hz3]
    rfl
  isplitl [Hacc]; · iexists _; iexact Hacc
  isplitl [Hfl]; · iexact Hfl
  isplitl [Hfl_dst]; · iexists _; iexact Hfl_dst
  isplitl [Hfl_src Hrf]
  · iapply (src_split c Wz (Ring.sl 2 t.val) (Ring.bk 4 t.val)).2; isplitl [Hfl_src]; · iexact Hfl_src
    iexact Hrf
  iexact HW

end Cert.Kernel.Dense

end
-- ==== Proof.Bits.Dense3.lean ====
/-
  The dense region's body obligation: at every step, from the invariant, the core's recorded waits and the windows'
  buffers, the body runs to the invariant at the next step.
-/
import proofs.«202802_g48112223650475_cont_8to1c4_51_21_alg».proof.Proof.Bits.Dense2

set_option maxRecDepth 16384

noncomputable section

namespace Cert.Kernel.Dense

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]
variable {Ix : Type} [DecidableEq Ix] [Inhabited Ix] {Name : Type} [DecidableEq Name] [Infinite Name] {U : Type} [URA U] [CountersIn U]
variable {Lvl : Type} [Preorder Lvl]

local notation "𝕄" => MT nD τ sig Ix (Elt F) Name U Lvl

section Body
variable (B : Set (SemLoc sig × Ix)) (hB : ∀ p : SemLoc sig × Ix, p.2 = default → p ∈ B) (ι : Ix) (c : Dev nD)
  (V : (b : Ref sig .tc) → Buf (Elt F) ((c : Thread nD τ).loc b))

/-- The result's window is idle but at the last step, and written back only there. -/
theorem idle3_true : ∀ t : Fin cfg1.N, t.val ≠ 3 → cfg1.idle (3 : Fin 4) (cfg1.grid.coords t) = true :=
  (by decide +kernel : ∀ t : Fin grid1.N, t.val ≠ 3 → idle1 3 (grid1.coords t) = true)
theorem idle3_false : ∀ t : Fin cfg1.N, t.val = 3 → cfg1.idle (3 : Fin 4) (cfg1.grid.coords t) = false :=
  (by decide +kernel : ∀ t : Fin grid1.N, t.val = 3 → idle1 3 (grid1.coords t) = false)
theorem idle3_true' : ∀ t : Fin cfg1.N, t.val ≠ 3 → idle1 3 (grid1.coords t) = true :=
  (by decide +kernel : ∀ t : Fin grid1.N, t.val ≠ 3 → idle1 3 (grid1.coords t) = true)
theorem idle3_false' : ∀ t : Fin cfg1.N, t.val = 3 → idle1 3 (grid1.coords t) = false :=
  (by decide +kernel : ∀ t : Fin grid1.N, t.val = 3 → idle1 3 (grid1.coords t) = false)
theorem flush3_false (t : Fin cfg1.N) (h : t.val ≠ 3) : (cfg1.win (3 : Fin 4)).flush t = false := by
  have hN : t.val < 4 := lt_of_lt_of_eq t.isLt N_1
  cases hf : (cfg1.win (3 : Fin 4)).flush t
  · rfl
  · exact absurd ((flush1_3 t).mp hf) (by omega)

/-- What the body is called with at step `t`, -/
def bodyPre (t : Fin cfg1.N) : sProp 𝕄 :=
  iprop((dat1 (Name := Name) (U := U) (Lvl := Lvl) B c V).Φ t.castSucc ∗ (dat1 (Name := Name) (U := U) (Lvl := Lvl) B c V).owesAt ι t.castSucc
    ∗ (∃ d, owns (c : Thread nD τ) (st1_0 t) fullShare ((dat1 (Name := Name) (U := U) (Lvl := Lvl) B c V).before 0 t d))
    ∗ (∃ d, owns (c : Thread nD τ) (st1_1 t) fullShare ((dat1 (Name := Name) (U := U) (Lvl := Lvl) B c V).before 1 t d))
    ∗ (∃ d, owns (c : Thread nD τ) (st1_2 t) fullShare ((dat1 (Name := Name) (U := U) (Lvl := Lvl) B c V).before 2 t d))
    ∗ (∃ d, owns (c : Thread nD τ) (st1_3 t) fullShare ((dat1 (Name := Name) (U := U) (Lvl := Lvl) B c V).before 3 t d)))
/-- what it returns at a step that leaves the result's buffer alone, -/
def bodyPostIdle (t : Fin cfg1.N) : sProp 𝕄 :=
  iprop((dat1 (Name := Name) (U := U) (Lvl := Lvl) B c V).Φ t.succ ∗ (dat1 (Name := Name) (U := U) (Lvl := Lvl) B c V).owesAt ι t.succ
    ∗ owns (c : Thread nD τ) (st1_0 t) fullShare ((dat1 (Name := Name) (U := U) (Lvl := Lvl) B c V).after 0 t)
    ∗ owns (c : Thread nD τ) (st1_1 t) fullShare ((dat1 (Name := Name) (U := U) (Lvl := Lvl) B c V).after 1 t)
    ∗ owns (c : Thread nD τ) (st1_2 t) fullShare ((dat1 (Name := Name) (U := U) (Lvl := Lvl) B c V).after 2 t)
    ∗ (∃ d, owns (c : Thread nD τ) (st1_3 t) fullShare ((dat1 (Name := Name) (U := U) (Lvl := Lvl) B c V).before 3 t d)))
/-- and at the last. -/
def bodyPostLast (t : Fin cfg1.N) : sProp 𝕄 :=
  iprop((dat1 (Name := Name) (U := U) (Lvl := Lvl) B c V).Φ t.succ ∗ (dat1 (Name := Name) (U := U) (Lvl := Lvl) B c V).owesAt ι t.succ
    ∗ owns (c : Thread nD τ) (st1_0 t) fullShare ((dat1 (Name := Name) (U := U) (Lvl := Lvl) B c V).after 0 t)
    ∗ owns (c : Thread nD τ) (st1_1 t) fullShare ((dat1 (Name := Name) (U := U) (Lvl := Lvl) B c V).after 1 t)
    ∗ owns (c : Thread nD τ) (st1_2 t) fullShare ((dat1 (Name := Name) (U := U) (Lvl := Lvl) B c V).after 2 t)
    ∗ owns (c : Thread nD τ) (st1_3 t) fullShare ((dat1 (Name := Name) (U := U) (Lvl := Lvl) B c V).after 3 t))

include hB in
/-- The wait's pair joins the recorded ones within the bound. -/
theorem bound_insert (t : Fin cfg1.N) (s : Fin 2) (W : Waits sig Ix) (hW : ↑W ⊆ (dat1 (Name := Name) (U := U) (Lvl := Lvl) B c V).bound ι t.castSucc) :
    ↑(insert (cellR s, (default : Ix)) W) ⊆ (dat1 (Name := Name) (U := U) (Lvl := Lvl) B c V).bound ι t.succ := by
  intro p hp
  rw [Finset.coe_insert] at hp
  rcases hp with rfl | hp
  · exact Or.inl (hB _ rfl)
  · exact hW hp

set_option maxHeartbeats 1000000 in
include hB in
/-- A middle step. -/
theorem body_mid (t : Fin cfg1.N) (h1 : 1 ≤ t.val) (h2 : t.val < 3) :
    bodyPre (Name := Name) (U := U) (Lvl := Lvl) B ι c V t ⊢ wp frame (wpE (defs₀ (F := F)) Variants.none c none) Set.univ (bodyAt1 t) (fun _ => bodyPostIdle (Name := Name) (U := U) (Lvl := Lvl) B ι c V t) := by
  have hc1 : ¬cond1 (grid1.coords t) := fun h => by have := (hcond1 t).mp h; omega
  have hc2 : cond2 (grid1.coords t) := (hcond2 t).mpr h2
  have hc3 : ¬cond3 (grid1.coords t) := fun h => by have := (hcond3 t).mp h; omega
  unfold bodyPre bodyPostIdle bodyAt1
  simp only [before_0, before_1, before_2]
  rw [after_0, after_1, after_2, Phi_castSucc, Phi_succ]
  unfold Dat.owesAt Pipeline.owesWithin
  rw [show (dat1 (Name := Name) (U := U) (Lvl := Lvl) B c V).owed t.castSucc = 0 from rfl, show (dat1 (Name := Name) (U := U) (Lvl := Lvl) B c V).owed t.succ = 0 from rfl]
  unfold PhiD
  rw [if_neg (show ¬(t.val = 0 ∨ 4 ≤ t.val) by omega), if_neg (show ¬(t.val + 1 = 0 ∨ 4 ≤ t.val + 1) by omega)]
  unfold PhiMid
  rw [show t.val + 1 + 1 = t.val + 2 from rfl, Ring.sl_add 2 t.val]
  iintro ⟨⟨Hacc, ⟨Hfl, Hrf⟩, ⟨Hc, Hs, Hw⟩, Hoth⟩, ⟨%W, %hW, HW⟩, ⟨%d0, H0⟩, ⟨%d1, H1⟩, ⟨%d2, H2⟩, ⟨%d3, H3⟩⟩
  iapply (runB c t _ _ _ _ _ _ _ _ hc1 hc2 hc3 (iblk c V 0 t) (iblk c V 1 t) (iblk c V 2 t) ((dat1 (Name := Name) (U := U) (Lvl := Lvl) B c V).before 3 t d3) (V main_v0) (accD c V t.val) W _)
  isplitl [H0]; · iexact H0
  isplitl [H1]; · iexact H1
  isplitl [H2]; · iexact H2
  isplitl [H3]; · iexact H3
  isplitl [Hacc]; · iexact Hacc
  isplitl [Hfl]; · iexact Hfl
  isplitl [Hrf]; · iexact Hrf
  isplitl [Hc]; · iexact Hc
  isplitl [Hs]; · iexact Hs
  isplitl [Hw]; · iexact Hw
  isplitl [HW]; · iexact HW
  iintro ⟨H0, H1, H2, H3, ⟨%g, %hg, Hacc⟩, Hfl', Hrf', Hc', Hs', Hw', HW'⟩
  isplitl [Hacc Hfl' Hrf' Hc' Hs' Hw' Hoth]
  · isplitl [Hacc]; · rw [accD_succ c V t, ← hg]; iexact Hacc
    isplitl [Hfl' Hrf']
    · isplitl [Hfl']; · iexact Hfl'
      iexact Hrf'
    isplitl [Hc' Hs' Hw']
    · isplitl [Hc']; · iexact Hc'
      isplitl [Hs']; · iexact Hs'
      iexact Hw'
    iexact Hoth
  isplitl [HW']
  · iexists _; isplitr
    swap; · iexact HW'
    ipureintro; exact bound_insert B hB ι c V t _ W hW
  isplitl [H0]; · iexact H0
  isplitl [H1]; · iexact H1
  isplitl [H2]; · iexact H2
  iexists _; iexact H3

end Body

section Body2
variable (B : Set (SemLoc sig × Ix)) (hB : ∀ p : SemLoc sig × Ix, p.2 = default → p ∈ B) (ι : Ix) (c : Dev nD)
  (V : (b : Ref sig .tc) → Buf (Elt F) ((c : Thread nD τ).loc b))

set_option maxHeartbeats 1000000 in
include hB in
/-- The first step. -/
theorem body_first (t : Fin cfg1.N) (h0 : t.val = 0) :
    bodyPre (Name := Name) (U := U) (Lvl := Lvl) B ι c V t ⊢ wp frame (wpE (defs₀ (F := F)) Variants.none c none) Set.univ (bodyAt1 t) (fun _ => bodyPostIdle (Name := Name) (U := U) (Lvl := Lvl) B ι c V t) := by
  have hc1 : cond1 (grid1.coords t) := (hcond1 t).mpr h0
  have hc2 : cond2 (grid1.coords t) := (hcond2 t).mpr (by omega)
  have hc3 : ¬cond3 (grid1.coords t) := fun h => by have := (hcond3 t).mp h; omega
  have hs0 : Ring.sl 2 t.val = 0 := by rw [h0]; rfl
  have hs1 : Ring.sl 2 (t.val + 1) = 1 := by rw [h0]; rfl
  have ha0 : accD c V t.val = k1_pay3 (F := F) := by rw [h0]; rfl
  unfold bodyPre bodyPostIdle bodyAt1
  simp only [before_0, before_1, before_2]
  rw [after_0, after_1, after_2, Phi_castSucc, Phi_succ]
  unfold Dat.owesAt Pipeline.owesWithin
  rw [show (dat1 (Name := Name) (U := U) (Lvl := Lvl) B c V).owed t.castSucc = 0 from rfl, show (dat1 (Name := Name) (U := U) (Lvl := Lvl) B c V).owed t.succ = 0 from rfl]
  unfold PhiD
  rw [if_pos (show t.val = 0 ∨ 4 ≤ t.val from Or.inl h0), if_neg (show ¬(t.val + 1 = 0 ∨ 4 ≤ t.val + 1) by omega)]
  unfold PhiFree PhiMid
  rw [show t.val + 1 + 1 = t.val + 2 from rfl, Ring.sl_add 2 t.val]
  rw [← hs0, ← hs1]
  iintro ⟨⟨⟨%a0, Hacc⟩, ⟨Hc0, Hs0⟩, ⟨Hc1, Hs1⟩, Hw0, Hw1, Hoth⟩, ⟨%W, %hW, HW⟩, ⟨%d0, H0⟩, ⟨%d1, H1⟩, ⟨%d2, H2⟩, ⟨%d3, H3⟩⟩
  iapply (runA c t _ _ _ _ _ _ _ _ hc1 hc2 hc3 (iblk c V 0 t) (iblk c V 1 t) (iblk c V 2 t) ((dat1 (Name := Name) (U := U) (Lvl := Lvl) B c V).before 3 t d3) (V main_v0) W _)
  isplitl [H0]; · iexact H0
  isplitl [H1]; · iexact H1
  isplitl [H2]; · iexact H2
  isplitl [H3]; · iexact H3
  isplitl [Hacc]; · iexists a0; iexact Hacc
  isplitl [Hc0]; · iexact Hc0
  isplitl [Hs0]; · iexact Hs0
  isplitl [Hw0]; · iexact Hw0
  isplitl [Hc1]; · iexact Hc1
  isplitl [Hs1]; · iexact Hs1
  isplitl [Hw1]; · iexact Hw1
  isplitl [HW]; · iexact HW
  iintro ⟨H0, H1, H2, H3, ⟨%g, %hg, Hacc⟩, Hfl', Hrf', Hc', Hs', Hw', HW'⟩
  isplitl [Hacc Hfl' Hrf' Hc' Hs' Hw' Hoth]
  · isplitl [Hacc]; · rw [accD_succ c V t, ha0, ← hg]; iexact Hacc
    isplitl [Hfl' Hrf']
    · isplitl [Hfl']; · iexact Hfl'
      iexact Hrf'
    isplitl [Hc' Hs' Hw']
    · isplitl [Hc']; · iexact Hc'
      isplitl [Hs']; · iexact Hs'
      iexact Hw'
    iexact Hoth
  isplitl [HW']
  · iexists _; isplitr
    swap; · iexact HW'
    ipureintro; exact bound_insert B hB ι c V t _ W hW
  isplitl [H0]; · iexact H0
  isplitl [H1]; · iexact H1
  isplitl [H2]; · iexact H2
  iexists _; iexact H3

set_option maxHeartbeats 1000000 in
include hB in
/-- The last step. -/
theorem body_last (t : Fin cfg1.N) (h3 : t.val = 3) :
    bodyPre (Name := Name) (U := U) (Lvl := Lvl) B ι c V t ⊢ wp frame (wpE (defs₀ (F := F)) Variants.none c none) Set.univ (bodyAt1 t) (fun _ => bodyPostLast (Name := Name) (U := U) (Lvl := Lvl) B ι c V t) := by
  have hc1 : ¬cond1 (grid1.coords t) := fun h => by have := (hcond1 t).mp h; omega
  have hc2 : ¬cond2 (grid1.coords t) := fun h => by have := (hcond2 t).mp h; omega
  have hc3 : cond3 (grid1.coords t) := (hcond3 t).mpr h3
  have hs1 : Ring.sl 2 t.val = 1 := by rw [h3]; rfl
  have hs0 : Ring.sl 2 (t.val + 1) = 0 := by rw [h3]; rfl
  have h4 : accD c V 4 = accD c V (t.val + 1) := by rw [h3]
  unfold bodyPre bodyPostLast bodyAt1
  simp only [before_0, before_1, before_2]
  rw [after_0, after_1, after_2, after_3, resD_eq, h4, accD_succ c V t, Phi_castSucc, Phi_succ]
  unfold Dat.owesAt Pipeline.owesWithin
  rw [show (dat1 (Name := Name) (U := U) (Lvl := Lvl) B c V).owed t.castSucc = 0 from rfl, show (dat1 (Name := Name) (U := U) (Lvl := Lvl) B c V).owed t.succ = 0 from rfl]
  unfold PhiD
  rw [if_neg (show ¬(t.val = 0 ∨ 4 ≤ t.val) by omega), if_pos (show t.val + 1 = 0 ∨ 4 ≤ t.val + 1 from Or.inr (by omega))]
  unfold PhiFree PhiMid
  rw [← hs1, ← hs0]
  iintro ⟨⟨Hacc, ⟨Hfl, Hrf⟩, ⟨Hc, Hs, Hw⟩, Hoth⟩, ⟨%W, %hW, HW⟩, ⟨%d0, H0⟩, ⟨%d1, H1⟩, ⟨%d2, H2⟩, ⟨%d3, H3⟩⟩
  iapply (runC c t _ _ _ _ _ _ _ _ hc1 hc2 hc3 (iblk c V 0 t) (iblk c V 1 t) (iblk c V 2 t) (V main_v0) (accD c V t.val) W _)
  isplitl [H0]; · iexact H0
  isplitl [H1]; · iexact H1
  isplitl [H2]; · iexact H2
  isplitl [H3]; · iexists _; iexact H3
  isplitl [Hacc]; · iexact Hacc
  isplitl [Hfl]; · iexact Hfl
  isplitl [Hrf]; · iexact Hrf
  isplitl [HW]; · iexact HW
  iintro ⟨H0, H1, H2, H3, Hacc, Hc', Hs', Hw', HW'⟩
  isplitl [Hacc Hc' Hs' Hw' Hc Hs Hw Hoth]
  · isplitl [Hacc]; · iexact Hacc
    isplitl [Hc Hs]
    · isplitl [Hc]; · iexact Hc
      iexact Hs
    isplitl [Hc' Hs']
    · isplitl [Hc']; · iexact Hc'
      iexact Hs'
    isplitl [Hw]; · iexact Hw
    isplitl [Hw']; · iexact Hw'
    iexact Hoth
  isplitl [HW']
  · iexists _; isplitr
    swap; · iexact HW'
    ipureintro; exact bound_insert B hB ι c V t _ W hW
  isplitl [H0]; · iexact H0
  isplitl [H1]; · iexact H1
  isplitl [H2]; · iexact H2
  iexact H3

include hB in
/-- THE BODY OBLIGATION of the dense region, at every step. -/
theorem dense_body : Pipeline.BodyObligationLoose (dat1 (Name := Name) (U := U) (Lvl := Lvl) B c V) (defs₀ (F := F)) Variants.none ι Set.univ := fun t => by
  have hN : t.val < 4 := lt_of_lt_of_eq t.isLt N_1
  rw [bigSep_W1, bigSep_W1]
  by_cases h3 : t.val = 3
  · simp only [idle3_false t h3, idle3_false' t h3]
    exact body_last (Name := Name) (U := U) (Lvl := Lvl) B hB ι c V t h3
  · simp only [idle3_true t h3, idle3_true' t h3, flush3_false t h3]
    by_cases h0 : t.val = 0
    · exact body_first (Name := Name) (U := U) (Lvl := Lvl) B hB ι c V t h0
    · exact body_mid (Name := Name) (U := U) (Lvl := Lvl) B hB ι c V t (by omega) (by omega)

end Body2

end Cert.Kernel.Dense

end
-- ==== Proof.Bits.Dense4.lean ====
/-
  The dense region as a whole: what its result array holds at the end, and the region between the thread state that holds
  every unscoped buffer at the entry contents and the one that holds them at the exit contents — the result array at the
  region's result, every other buffer as it was.
-/
import proofs.«202802_g48112223650475_cont_8to1c4_51_21_alg».proof.Proof.Bits.Dense3
import Idealize.ShloMosaic.Lib.Pipeline.FrameSuffix

set_option maxRecDepth 16384

noncomputable section

namespace Cert.Kernel.Dense

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]
variable {Ix : Type} [DecidableEq Ix] [Inhabited Ix] {Name : Type} [DecidableEq Name] [Infinite Name] {U : Type} [URA U] [CountersIn U]
variable {Lvl : Type} [Preorder Lvl]

local notation "𝕄" => MT nD τ sig Ix (Elt F) Name U Lvl

/-! ## The arrays at the end -/

section Arrays
variable (B : Set (SemLoc sig × Ix)) (c : Dev nD) (V : (b : Ref sig .tc) → Buf (Elt F) ((c : Thread nD τ).loc b))

/-- The region's one-by-one result as contents of the result array. -/
def v7 : Buf (Elt F) ((c : Thread nD τ).loc main_v7) := resD c V

/-- The one write-back, at the last step, writes it: block (0, 0) of the one-by-one array is the array. -/
theorem flushed3_eq (t : Fin cfg1.N) (hf : (cfg1.win (3 : Fin 4)).flush t = true) :
    (dat1 (Name := Name) (U := U) (Lvl := Lvl) B c V).flushed 3 t = ((cfg1.win (3 : Fin 4)).blk t).view.read (Elt F) (v7 c V) := by
  have h3 : t.val = 3 := by have := (flush1_3 t).mp hf; have := lt_of_lt_of_eq t.isLt N_1; omega
  obtain rfl : t = t1_3 := Fin.ext h3
  show (cfg1.win (3 : Fin 4)).cut (grid1.coords t1_3) ((dat1 (Name := Name) (U := U) (Lvl := Lvl) B c V).after 3 t1_3) = _
  rw [after_3]
  have hz' : (fun a => win1_3.index t1_3 a * main_v7.ty.shape.size a) = fun _ => 0 := funext fun a => by fin_cases a <;> decide
  exact (Memref.read_access_unit_zero (Elt F) main_v7 hz' (fun a => by rw [congrFun hz' a]; simp) (v7 c V)).symm

/-- The result array ends holding the region's result: the last step's block covers it. -/
theorem dat1_arrAt3 : (dat1 (Name := Name) (U := U) (Lvl := Lvl) B c V).arrAt 3 cfg1.N = v7 c V :=
  (dat1 (Name := Name) (U := U) (Lvl := Lvl) B c V).arrAt_eq_of_cover 3 (v7 c V) (flushed3_eq B c V) fun i =>
    ⟨t1_3, (flush1_3 t1_3).mpr rfl, by
      show i ∈ ((View.whole main_v7).slice (win1_3.rect t1_3)).set
      rw [View.set_slice_whole, Rect.mem_set_unit]
      intro a
      have h0 : (i 0 : Nat) < 1 := (i 0).isLt
      have h1 : (i 1 : Nat) < 1 := (i 1).isLt
      match a with
      | ⟨0, _⟩ => show win1_3.index t1_3 0 * win1_3.size 0 ≤ (i 0 : Nat) ∧ (i 0 : Nat) < win1_3.index t1_3 0 * win1_3.size 0 + win1_3.xsize (grid1.coords t1_3) 0
                  rw [show win1_3.index t1_3 0 * win1_3.size 0 = 0 from by decide +kernel, show win1_3.xsize (grid1.coords t1_3) 0 = 1 from by decide +kernel]; omega
      | ⟨1, _⟩ => show win1_3.index t1_3 1 * win1_3.size 1 ≤ (i 1 : Nat) ∧ (i 1 : Nat) < win1_3.index t1_3 1 * win1_3.size 1 + win1_3.xsize (grid1.coords t1_3) 1
                  rw [show win1_3.index t1_3 1 * win1_3.size 1 = 0 from by decide +kernel, show win1_3.xsize (grid1.coords t1_3) 1 = 1 from by decide +kernel]; omega⟩

/-- The input arrays end as they were. -/
theorem dat1_arrAt0 : (dat1 (Name := Name) (U := U) (Lvl := Lvl) B c V).arrAt 0 cfg1.N = V main_v3 :=
  ((dat1 (Name := Name) (U := U) (Lvl := Lvl) B c V).arrAt_in 0 rfl _).trans (A_eq B c V 0)
theorem dat1_arrAt1 : (dat1 (Name := Name) (U := U) (Lvl := Lvl) B c V).arrAt 1 cfg1.N = V main_v4 :=
  ((dat1 (Name := Name) (U := U) (Lvl := Lvl) B c V).arrAt_in 1 rfl _).trans (A_eq B c V 1)
theorem dat1_arrAt2 : (dat1 (Name := Name) (U := U) (Lvl := Lvl) B c V).arrAt 2 cfg1.N = V main_v5 :=
  ((dat1 (Name := Name) (U := U) (Lvl := Lvl) B c V).arrAt_in 2 rfl _).trans (A_eq B c V 2)

end Arrays

/-! ## Into the invariant and out of it -/

section InOut
variable (c : Dev nD)

/-- The slots' element sets: disjoint, and together the whole buffer. -/
abbrev slotSet (s : Fin 2) : Finset S2x936x4096.Idx := (Rect.unit (s := S2x936x4096) ![s.val, 0, 0] S1x936x4096.size (inb_slot s)).set
theorem slotSet_eq (s : Fin 2) : (rslot s).view.set = slotSet s := by
  simp only [rslot, Memref.view_squeeze, View.set_reshape]; exact View.set_slice_whole _ _
theorem slots_disjoint (s s' : Fin 2) (h : s ≠ s') : Disjoint (slotSet s) (slotSet s') :=
  Ring.lead_disjoint (s := S2x936x4096) (0 : Fin 3) 1 (fun s : Fin 2 => (![s.val, 0, 0] : Fin 3 → Nat)) S1x936x4096.size inb_slot (fun s => by simp) rfl s s' h
theorem slots_cover : Finset.univ.biUnion slotSet = Finset.univ :=
  Ring.lead_cover (s := S2x936x4096) (0 : Fin 3) 1 (fun s : Fin 2 => (![s.val, 0, 0] : Fin 3 → Nat)) S1x936x4096.size inb_slot (fun s => by simp)
    (fun s a ha => by fin_cases a <;> first | exact absurd rfl ha | rfl) rfl (fun a ha => by fin_cases a <;> first | exact absurd rfl ha | rfl) rfl

theorem slotP_eq (s : Fin 2) (f) : slotP (F := F) (Ix := Ix) (Name := Name) (U := U) (Lvl := Lvl) c s f = (((c : Thread nD τ).loc cc1_scratch0) ↦[slotSet s]{fullShare} f : sProp 𝕄) := by
  unfold slotP; rw [slotSet_eq]; rfl

set_option maxHeartbeats 1000000 in
/-- The buffer whole at anything is its two slots at something each, and back. -/
theorem slots_in : iprop(∃ f : Buf (Elt F) ((c : Thread nD τ).loc cc1_scratch0), ((c : Thread nD τ).loc cc1_scratch0) ↦{fullShare} f)
    ⊢ (iprop((∃ f, slotP (F := F) c 0 f) ∗ ∃ f, slotP (F := F) c 1 f) : sProp 𝕄) :=
  Ring.slots2_split (U := U) (ℓ := (c : Thread nD τ).loc cc1_scratch0) (q := fullShare) slotSet slots_disjoint slots_cover
    (slotP c 0) (slotP c 1) (slotP_eq c 0) (slotP_eq c 1)
set_option maxHeartbeats 1000000 in
theorem slots_out : (iprop((∃ f, slotP (F := F) c 0 f) ∗ ∃ f, slotP (F := F) c 1 f) : sProp 𝕄)
    ⊢ iprop(∃ f : Buf (Elt F) ((c : Thread nD τ).loc cc1_scratch0), ((c : Thread nD τ).loc cc1_scratch0) ↦{fullShare} f) :=
  Ring.slots2_join (U := U) (ℓ := (c : Thread nD τ).loc cc1_scratch0) (q := fullShare) slotSet slots_disjoint slots_cover
    (slotP c 0) (slotP c 1) (slotP_eq c 0) (slotP_eq c 1)

/-- The matrix whole at the full share is the two half shares. -/
theorem whole_split (Wz : ZBuf (F := F) c) : ((((c : Thread nD τ).loc main_v0) ↦{fullShare} Wz) : sProp 𝕄) ⊣⊢ iprop(wholeP c Wz 0 ∗ wholeP c Wz 1) :=
  pointsTo_share (PosShare.mem_left_op_right fullShare)

/-- The running row's buffer whole at anything. -/
theorem accP_eq (a : Vec F S1x4096 .f32) : (accP (F := F) (Ix := Ix) (Name := Name) (U := U) (Lvl := Lvl) c a : sProp 𝕄) = (((c : Thread nD τ).loc cc1_scratch1) ↦{fullShare} a) := by
  unfold accP; simp only [Memref.view_whole, View.set_whole]

/-- The body's own counters, listed. -/
abbrev osem : Fin 2 → SemLoc sig := fun j => (![SemLoc.dma 13, SemLoc.dma 14] : Fin 2 → SemLoc sig) j
theorem ownSemFacts : Pipeline.OwnSemFacts spec1 osem := by decide
theorem ownSems0_eq :
    (Pipeline.ownSems0 (Ix := Ix) (Name := Name) (U := U) (Lvl := Lvl) (Val := Elt F) (τ := τ) osem c : sProp 𝕄)
      = iprop(semVal ((c : Thread nD τ), SemLoc.dma 13) 0 ∗ semVal ((c : Thread nD τ), SemLoc.dma 14) 0) := by
  rw [Pipeline.ownSems0_eq_of_list c osem [0, 1] (by decide) (by decide)]; rfl
omit [FloatOps F] in
theorem cellP_0 : cellP (F := F) (Ix := Ix) (Name := Name) (U := U) (Lvl := Lvl) c 0 = semVal ((c : Thread nD τ), SemLoc.dma 13) 0 :=
  congrArg (fun x => (semVal ((c : Thread nD τ), x) 0 : sProp 𝕄)) cellR_0
omit [FloatOps F] in
theorem cellP_1 : cellP (F := F) (Ix := Ix) (Name := Name) (U := U) (Lvl := Lvl) c 1 = semVal ((c : Thread nD τ), SemLoc.dma 14) 0 :=
  congrArg (fun x => (semVal ((c : Thread nD τ), x) 0 : sProp 𝕄)) cellR_1

/-- INTO THE INVARIANT: the scoped buffers no window stages, the counters at zero and the matrix whole are the invariant
    before the first step; -/
theorem phi_in (Wz : ZBuf (F := F) c) (acc : ℕ → Vec F S1x4096 .f32) :
    iprop(Pipeline.scopedRest (Ix := Ix) (Name := Name) (U := U) (Lvl := Lvl) (Val := Elt F) spec1 c
        ∗ (semVal ((c : Thread nD τ), SemLoc.dma 13) 0 ∗ semVal ((c : Thread nD τ), SemLoc.dma 14) 0)
        ∗ (((c : Thread nD τ).loc main_v0) ↦{fullShare} Wz))
      ⊢ (PhiD c Wz acc 0 : sProp 𝕄) := by
  unfold PhiD; rw [if_pos (Or.inl rfl)]; unfold PhiFree
  rw [scopedRest1_eq, cellP_0, cellP_1]
  iintro ⟨⟨Hsc, ⟨%a, Hacc⟩, Ho0, Ho1, Ho2⟩, ⟨Hc0, Hc1⟩, Hz⟩
  ihave Hs := (slots_in (F := F) c) $$ Hsc
  icases Hs with ⟨Hs0, Hs1⟩
  ihave Hw := (whole_split (F := F) c Wz).1 $$ Hz
  icases Hw with ⟨Hw0, Hw1⟩
  isplitl [Hacc]
  · iexists a; rw [accP_eq]; iexact Hacc
  isplitl [Hc0 Hs0]
  · isplitl [Hc0]
    · iexact Hc0
    · iexact Hs0
  isplitl [Hc1 Hs1]
  · isplitl [Hc1]
    · iexact Hc1
    · iexact Hs1
  isplitl [Hw0]; · iexact Hw0
  isplitl [Hw1]; · iexact Hw1
  isplitl [Ho0]; · iexact Ho0
  isplitl [Ho1]; · iexact Ho1
  iexact Ho2

/-- OUT OF IT: after the last step those pieces again. -/
theorem phi_out (Wz : ZBuf (F := F) c) (acc : ℕ → Vec F S1x4096 .f32) :
    (PhiD c Wz acc 4 : sProp 𝕄)
      ⊢ iprop(Pipeline.scopedRest (Ix := Ix) (Name := Name) (U := U) (Lvl := Lvl) (Val := Elt F) spec1 c
        ∗ (semVal ((c : Thread nD τ), SemLoc.dma 13) 0 ∗ semVal ((c : Thread nD τ), SemLoc.dma 14) 0)
        ∗ (((c : Thread nD τ).loc main_v0) ↦{fullShare} Wz)) := by
  unfold PhiD; rw [if_pos (Or.inr (Nat.le_refl 4))]; unfold PhiFree
  rw [scopedRest1_eq, cellP_0, cellP_1]
  iintro ⟨⟨%a, Hacc⟩, ⟨Hc0, Hs0⟩, ⟨Hc1, Hs1⟩, Hw0, Hw1, Ho0, Ho1, Ho2⟩
  isplitl [Hacc Hs0 Hs1 Ho0 Ho1 Ho2]
  · isplitl [Hs0 Hs1]
    · iapply (slots_out (F := F) c)
      isplitl [Hs0]
      · iexact Hs0
      · iexact Hs1
    isplitl [Hacc]
    · iexists a; rw [← accP_eq]; iexact Hacc
    isplitl [Ho0]
    · iexact Ho0
    isplitl [Ho1]
    · iexact Ho1
    iexact Ho2
  isplitl [Hc0 Hc1]
  · isplitl [Hc0]
    · iexact Hc0
    · iexact Hc1
  iapply (whole_split (F := F) c Wz).2
  isplitl [Hw0]
  · iexact Hw0
  · iexact Hw1

end InOut

/-! ## The region -/

section Region

/-- No pipeline has a prefetched table. -/
abbrev adm : (p : Fin 2) → (pcfgs (F := F) p).Adm := fun p => (cfgs p).toPCfg_adm

variable (d1 : (c : Dev nD) → Dat τ (Elt F) Ix Name U Lvl (Pipeline.pin (pcfgs (F := F)) adm 1) c)
  (V : (c : Dev nD) → (b : Ref sig .tc) → Buf (Elt F) ((c : Thread nD τ).loc b))
  (B : Dev nD → Set (SemLoc sig × Ix)) (hB : ∀ d p, p.2 = (default : Ix) → p ∈ B d)
  (L : GSem nD τ sig → Finset Ix) (lv : GSem nD τ sig → Ix → Lvl)

/-- The proof data family the region is stated over: this region's at the entry contents, the other pipeline's a parameter. -/
def pdats : (p : Fin 2) → (c : Dev nD) → Dat τ (Elt F) Ix Name U Lvl (Pipeline.pin (pcfgs (F := F)) adm p) c
  | ⟨0, _⟩ => fun c => dat1 (B c) c (V c)
  | ⟨1, _⟩ => d1

/-- The buffer contents at the region's exit: the result array at the region's result, every other buffer as entered. -/
abbrev Vout (c : Dev nD) : (b : Ref sig .tc) → Buf (Elt F) ((c : Thread nD τ).loc b) := Function.update (V c) main_v7 (v7 c (V c))

theorem hF (c : Dev nD) : ∀ w : Fin cfg1.W, (dat1 (Name := Name) (U := U) (Lvl := Lvl) (B c) c (V c)).arrAt w cfg1.N = Vout V c (Pipeline.arrRef spec1 w)
  | ⟨0, _⟩ => (dat1_arrAt0 (B c) c (V c)).trans (show V c main_v3 = Function.update (V c) main_v7 (v7 c (V c)) main_v3 from (Function.update_of_ne (by decide) _ _).symm)
  | ⟨1, _⟩ => (dat1_arrAt1 (B c) c (V c)).trans (show V c main_v4 = Function.update (V c) main_v7 (v7 c (V c)) main_v4 from (Function.update_of_ne (by decide) _ _).symm)
  | ⟨2, _⟩ => (dat1_arrAt2 (B c) c (V c)).trans (show V c main_v5 = Function.update (V c) main_v7 (v7 c (V c)) main_v5 from (Function.update_of_ne (by decide) _ _).symm)
  | ⟨3, _⟩ => (dat1_arrAt3 (B c) c (V c)).trans (show v7 c (V c) = Function.update (V c) main_v7 (v7 c (V c)) main_v7 from by rw [Function.update_self])
theorem hrest (c : Dev nD) : ∀ b, b ∉ Finset.univ.image (Pipeline.arrRef spec1) → Vout V c b = V c b := fun b hb =>
  Function.update_of_ne (fun e => hb (Finset.mem_image.mpr ⟨3, Finset.mem_univ _, e.symm⟩)) _ _

/-- The unscoped buffers that bypass the region: every one that is no window's array, but the matrix. -/
abbrev restZ (c : Dev nD) : sProp 𝕄 :=
  iprop((((c : Thread nD τ).loc main_arg0) ↦{fullShare} V c main_arg0) ∗ (((c : Thread nD τ).loc main_arg1) ↦{fullShare} V c main_arg1)
    ∗ (((c : Thread nD τ).loc main_arg2) ↦{fullShare} V c main_arg2) ∗ (((c : Thread nD τ).loc main_arg3) ↦{fullShare} V c main_arg3)
    ∗ (((c : Thread nD τ).loc main_v1) ↦{fullShare} V c main_v1) ∗ (((c : Thread nD τ).loc main_v2) ↦{fullShare} V c main_v2)
    ∗ (((c : Thread nD τ).loc main_v6) ↦{fullShare} V c main_v6) ∗ (((c : Thread nD τ).loc main_v8) ↦{fullShare} V c main_v8)
    ∗ (((c : Thread nD τ).loc main_v9) ↦{fullShare} V c main_v9))

set_option backward.isDefEq.respectTransparency.types false in
set_option maxHeartbeats 1000000 in
include hB in
/-- THE DENSE REGION over the thread state "every unscoped buffer at a valuation, the core's recorded waits within `B`":
    entered at `V`, left at `V` updated at the result array by the region's result. The windows' arrays are split out of
    the unscoped buffers and put back; the matrix and the body's two counters enter the invariant and come back; the other
    unscoped buffers bypass the region. -/
def regDense : Pipeline.RegionSeg (pcfgs (F := F)) adm (pdats d1 V B) (default : Ix) defs₀ Variants.none L lv 0 where
  win := launch1.win.to₀
  block_pos := launch1.block_pos
  stage_whole := launch1.stage_whole
  K := Fin 2
  osem := osem
  ho := ownSemFacts
  hbody c := dense_body (B c) (hB c) default c (V c)
  hwaits := Pipeline.hwaits_of_owed_zero _ _ _ _ L lv 0 fun _ _ => rfl
  pre c := iprop(unscopedBufs c (V c) ∗ Pipeline.owesWithin (c : Dev nD) (0 : CellTallies nD τ sig Ix) (B c))
  post c := iprop(unscopedBufs c (Vout V c) ∗ Pipeline.owesWithin (c : Dev nD) (0 : CellTallies nD τ sig Ix) (B c))
  X c := iprop(Pipeline.ownSems0 osem c ∗ (((c : Thread nD τ).loc main_v0) ↦{fullShare} V c main_v0))
  Y c := (((c : Thread nD τ).loc main_v0) ↦{fullShare} V c main_v0)
  Z c := restZ V c
  hentry c := by
    have hsplit := Pipeline.arrays_of_unscopedBufs (p := 0) (pcfgs (F := F)) adm (pdats d1 V B) launch1.win launch1.arr_whole c
      ((pdats d1 V B 0 c).share_full fun _ => rfl) (V c) fun _ => rfl
    rw [show (Pipeline.unscopedRest (Pipeline.pin (pcfgs (F := F)) adm 0).spec c (V c) : sProp 𝕄) = _ from unscopedRest1_eq c (V c)] at hsplit
    iintro ⟨⟨Hub, HO⟩, Hsem, -⟩
    ihave H := hsplit $$ Hub
    icases H with ⟨Ha, Ha0, Ha1, Ha2, Ha3, Hv0, Hv1, Hv2, Hv6, Hv8, Hv9⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono c 0 (fun p hp => Or.inl hp)); iexact HO
    isplitl [Hsem Hv0]
    · isplitl [Hsem]; · iexact Hsem
      iexact Hv0
    isplitl [Ha0]; · iexact Ha0
    isplitl [Ha1]; · iexact Ha1
    isplitl [Ha2]; · iexact Ha2
    isplitl [Ha3]; · iexact Ha3
    isplitl [Hv1]; · iexact Hv1
    isplitl [Hv2]; · iexact Hv2
    isplitl [Hv6]; · iexact Hv6
    isplitl [Hv8]; · iexact Hv8
    iexact Hv9
  hin c := by
    rw [show (pdats d1 V B 0 c).Φ 0 = PhiD c (V c main_v0) (accD c (V c)) 0 from rfl, ownSems0_eq]
    iintro ⟨⟨Hsem, Hz⟩, -, Hr⟩
    iapply (phi_in c (V c main_v0) (accD c (V c)))
    isplitl [Hr]; · iexact Hr
    isplitl [Hsem]; · iexact Hsem
    iexact Hz
  hout c := by
    rw [show (pdats d1 V B 0 c).Φ (Fin.last _) = PhiD c (V c main_v0) (accD c (V c)) grid1.N from rfl, ownSems0_eq, show grid1.N = 4 from N_1]
    iintro H
    ihave H' := (phi_out c (V c main_v0) (accD c (V c))) $$ H
    icases H' with ⟨Hr, Hsem, Hz⟩
    isplitl [Hz]; · iexact Hz
    isplitl [Hsem]; · iexact Hsem
    iexact Hr
  hexit c := by
    have hjoin := Pipeline.unscopedBufs_of_arrays (p := 0) (pcfgs (F := F)) adm (Ix := Ix) (Name := Name) (U := U) (Lvl := Lvl)
      launch1.win launch1.arr_whole c (pdats d1 V B) ((pdats d1 V B 0 c).share_full fun _ => rfl)
      (V c) (Vout V c) ((pdats d1 V B 0 c).arrAt · cfg1.N) (hF V B c) (hrest V c)
    rw [show (Pipeline.unscopedRest (Pipeline.pin (pcfgs (F := F)) adm 0).spec c (V c) : sProp 𝕄) = _ from unscopedRest1_eq c (V c)] at hjoin
    iintro ⟨Ha, HO, Hv0, Ha0, Ha1, Ha2, Ha3, Hv1, Hv2, Hv6, Hv8, Hv9⟩
    imodintro
    isplitl [Ha Hv0 Ha0 Ha1 Ha2 Ha3 Hv1 Hv2 Hv6 Hv8 Hv9]
    · iapply hjoin
      isplitl [Ha]; · iexact Ha
      isplitl [Ha0]; · iexact Ha0
      isplitl [Ha1]; · iexact Ha1
      isplitl [Ha2]; · iexact Ha2
      isplitl [Ha3]; · iexact Ha3
      isplitl [Hv0]; · iexact Hv0
      isplitl [Hv1]; · iexact Hv1
      isplitl [Hv2]; · iexact Hv2
      isplitl [Hv6]; · iexact Hv6
      isplitl [Hv8]; · iexact Hv8
      iexact Hv9
    unfold Pipeline.Dat.owesAt Pipeline.owesWithin
    icases HO with ⟨%W, %hW, HO⟩
    iexists W; isplitr
    · ipureintro
      exact fun p hp => (hW hp).elim id (fun ⟨w, s, e⟩ => hB c p (by rw [e]))
    iexact HO

end Region

end Cert.Kernel.Dense

end
-- ==== Proof.Bits.ScBody1.lean ====
/-
  What one worker of the streaming part computes, as a pure term of the arrays it reads, for any float instance.

  Worker `w = 16 c + s` (core `c`, subcore `s`) owns the 512 samples `512 w .. 512 w + 511`.  It visits them in 32 groups
  `g` of 16 lanes.  For the sample at lane `t` of group `g` it reads two 16-wide pieces of the transposed matrix, the one at
  the row its first label names and the one at the row its second label names, both at the group's 16 columns; a label is
  honoured only when the sample's mask word is not zero and the label is below 64, and otherwise the piece read is sixteen
  zeros.  The running 16-lane sum gains lane `t` of the first piece and loses lane `t` of the second.  After the 32 groups
  the sum is row `w` of the 32 by 16 result.
-/
import proofs.«202802_g48112223650475_cont_8to1c4_51_21_alg».proof.Proof.Gen.Kernel.Skeleton
import Idealize.ShloMosaic.Lib.ValueIdx

noncomputable section

namespace Cert.Kernel.ScBody

open Idealize.ShloMosaic Idealize.ShloMosaic.ValueIdx Cert.Kernel Cert.Kernel.Gen

variable {F : FTy → Type} [FloatOps F]

/-- The worker number of a place of the grid: sixteen workers to a core. -/
def wid (L : grid0.Coords) : Nat := 16 * (L 0).val + (L 1).val

theorem wid_lt (L : grid0.Coords) : wid L < 32 := by
  have h0 : (L 0).val < 2 := (L 0).isLt
  have h1 : (L 1).val < 16 := (L 1).isLt
  unfold wid; omega

/-- The sample at lane `t` of group `g` of worker `L`. -/
theorem row_lt (L : grid0.Coords) (g : Fin 32) (t : Nat) (ht : t < 16) : 512 * wid L + 16 * g.val + t < 16384 := by
  have := wid_lt L; omega

/-- The sixteen words of a sample vector that group `g` of worker `L` loads. -/
def ldVec (v : S16384.Idx → BitVec 32) (L : grid0.Coords) (g : Fin 32) : Vec F S16 .i32 :=
  fun j => v (ix1 ⟨512 * wid L + 16 * g.val + (j 0).val, row_lt L g _ (j 0).isLt⟩)

/-- The zero a redirected read finds. -/
def zeroE : Elt F .f32 := (Scalar.ofBits .f32 0x00000000#32 : F .f32)

/-- The piece of the transposed matrix read for a label `lab` under the mask word `msk` in group `g`: the label's row at the
    group's sixteen columns when the mask word is not zero and the label is below 64, sixteen zeros otherwise. -/
def chunk (zt : S1000x16384.Idx → Elt F .f32) (L : grid0.Coords) (g : Fin 32) (lab msk : BitVec 32) : Vec F S1x16 .f32 :=
  fun j =>
    if h : msk ≠ 0#32 ∧ lab.toNat < 64 then
      zt (ix2 ⟨lab.toNat, by omega⟩ ⟨512 * wid L + 16 * g.val + (j 1).val, row_lt L g _ (idx2_lt1 j)⟩)
    else zeroE

/-- One group's update of the running sum, from the three loaded word vectors and the thirty-two pieces read: the
    program's own arithmetic, lane by lane. -/
def tripPay (v149 v152 v155 : Vec F S16 .i32) (P N : Fin 16 → Vec F S1x16 .f32) (acc : FVec F S16 .f32) : FVec F S16 .f32 :=
  let v132 : IVec S16 32 := iota .scVector S16 32 [0] iota_S16_d0_w32_scVector
  let v232 := k0_pay14 v132 acc (k0_pay7 (P 0)) (k0_pay8 (N 0)) (k0_pay9 v132) (k0_pay10 (F := F)) (P 1) (N 1)
  let v270 := k0_pay18 v132 v232 (P 2) (N 2)
  let v308 := k0_pay22 v132 v270 (P 3) (N 3)
  let v346 := k0_pay26 v132 v308 (P 4) (N 4)
  let v384 := k0_pay30 v132 v346 (P 5) (N 5)
  let v422 := k0_pay34 v132 v384 (P 6) (N 6)
  let v460 := k0_pay38 v132 v422 (P 7) (N 7)
  let v498 := k0_pay42 v132 v460 (P 8) (N 8)
  let v536 := k0_pay47 v132 v498 (k0_pay46 (P 9)) (N 9)
  let v612 := k0_pay58 v132 v536 (k0_pay51 (P 10)) (k0_pay52 (N 10)) (k0_pay53 v132) (k0_pay54 (F := F)) (P 11) (N 11)
  let v650 := k0_pay62 v132 v612 (P 12) (N 12)
  let v688 := k0_pay66 v132 v650 (P 13) (N 13)
  let v726 := k0_pay70 v132 v688 (P 14) (N 14)
  k0_pay108 v726 (P 15) (N 15)

/-- Group `g`'s update at worker `L`, from the arrays. -/
def tripVal (zt : S1000x16384.Idx → Elt F .f32) (l lp cnd : S16384.Idx → BitVec 32) (L : grid0.Coords) (g : Fin 32)
    (acc : FVec F S16 .f32) : FVec F S16 .f32 :=
  tripPay (F := F) (ldVec (F := F) l L g) (ldVec (F := F) lp L g) (ldVec (F := F) cnd L g)
    (fun t => chunk zt L g (ldVec (F := F) l L g (ix1 t)) (ldVec (F := F) cnd L g (ix1 t)))
    (fun t => chunk zt L g (ldVec (F := F) lp L g (ix1 t)) (ldVec (F := F) cnd L g (ix1 t))) acc

/-- The running sum after the first `k` groups: zero, then one group at a time. -/
def accAt (zt : S1000x16384.Idx → Elt F .f32) (l lp cnd : S16384.Idx → BitVec 32) (L : grid0.Coords) : Nat → FVec F S16 .f32
  | 0 => k0_pay107 (F := F)
  | k + 1 => if h : k < 32 then tripVal zt l lp cnd L ⟨k, h⟩ (accAt zt l lp cnd L k) else accAt zt l lp cnd L k

/-- What row `wid L` of the 32 by 16 result ends at: the running sum after all 32 groups, at the column. -/
def scRow (zt : S1000x16384.Idx → Elt F .f32) (l lp cnd : S16384.Idx → BitVec 32) (L : grid0.Coords) : S32x16.Idx → Elt F .f32 :=
  fun ix => k0_pay109 (accAt zt l lp cnd L 32) (ix1 (ix 1))

end Cert.Kernel.ScBody

end
-- ==== Proof.Bits.ScBody2.lean ====
/-
  One trip of the tile's loop.  In trip g the tile reads 16 labels, 16 second labels and 16 mask words at offset 16 g; for
  each lane t it reads two rows of 16 lanes out of its slab — the row the label names when the label lies below 64 and the
  mask word is set, the row of zeros otherwise — and adds to the running 16-lane sum the first row's lane t minus the second
  row's lane t.  The trip's effect on the running sum is one pure function of what the trip reads; the rows it reads lie
  inside the slab whichever way the selection falls.
-/
import proofs.«202802_g48112223650475_cont_8to1c4_51_21_alg».proof.Proof.Bits.ScBody1
import Idealize.ShloMosaic.Lib.SparseCore.Launch
import Idealize.ShloMosaic.Lib.Tactic

noncomputable section

namespace Cert.Kernel.ScBody

open Idealize.ShloMosaic Idealize.ShloMosaic.ValueIdx Cert.Kernel Cert.Kernel.Gen
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] {Name : Type} [DecidableEq Name] {U : Type} [URA U] [CountersIn U]

local notation "𝕄" => MT nD τ sig (SparseCore.Cfg.HIx 1) (Elt F) Name U ℕ

/-- The vector subcore a place of the grid names. -/
abbrev thr (d : Dev nD) (L : grid0.Coords) : Thread nD τ := SparseCore.V d ((L 0).castLE hcore0) ((L 1).castLE hsub0)

local notation "zW" => (Memref.whole Cert.Kernel.main_v0_scv : Memref Cert.Kernel.sig Kind.scVector Space.hbm Cert.Kernel.S1000x16384 EltTy.f32)
local notation "lW" => (Memref.whole Cert.Kernel.main_arg2_scv : Memref Cert.Kernel.sig Kind.scVector Space.hbm Cert.Kernel.S16384 EltTy.i32)
local notation "pW" => (Memref.whole Cert.Kernel.main_arg3_scv : Memref Cert.Kernel.sig Kind.scVector Space.hbm Cert.Kernel.S16384 EltTy.i32)
local notation "cW" => (Memref.whole Cert.Kernel.main_v1_scv : Memref Cert.Kernel.sig Kind.scVector Space.hbm Cert.Kernel.S16384 EltTy.i32)
local notation "oW" => (Memref.whole Cert.Kernel.main_v6_scv : Memref Cert.Kernel.sig Kind.scVector Space.hbm Cert.Kernel.S32x16 EltTy.f32)
local notation "s0" => (Memref.whole Cert.Kernel.cc0_scratch0 : Memref Cert.Kernel.sig Kind.scVector Space.vmem Cert.Kernel.S512 EltTy.i32)
local notation "s1" => (Memref.whole Cert.Kernel.cc0_scratch1 : Memref Cert.Kernel.sig Kind.scVector Space.vmem Cert.Kernel.S512 EltTy.i32)
local notation "s2" => (Memref.whole Cert.Kernel.cc0_scratch2 : Memref Cert.Kernel.sig Kind.scVector Space.vmem Cert.Kernel.S512 EltTy.i32)
local notation "s3" => (Memref.whole Cert.Kernel.cc0_scratch3 : Memref Cert.Kernel.sig Kind.scVector Space.vmem Cert.Kernel.S136x512 EltTy.f32)
local notation "s4" => (Memref.whole Cert.Kernel.cc0_scratch4 : Memref Cert.Kernel.sig Kind.scVector Space.vmem Cert.Kernel.S16 EltTy.f32)

/-! ## One group of sixteen samples -/

/-- Lane `t` of a loaded word vector, spelt as the program extracts it. -/
def laneW (t : Fin 16) (v : Vec F S16 .i32) : BitVec 32 :=
  match t with
  | ⟨0, _⟩ => extractAt ![0] (k0_pay4 v) inpos_S1_p0
  | ⟨1, _⟩ => extractAt ![0] (k0_pay11 (k0_pay1 v)) inpos_S1_p0
  | ⟨2, _⟩ => extractAt ![0] (k0_pay15 (k0_pay1 v)) inpos_S1_p0
  | ⟨3, _⟩ => extractAt ![0] (k0_pay19 (k0_pay1 v)) inpos_S1_p0
  | ⟨4, _⟩ => extractAt ![0] (k0_pay23 (k0_pay1 v)) inpos_S1_p0
  | ⟨5, _⟩ => extractAt ![0] (k0_pay27 (k0_pay1 v)) inpos_S1_p0
  | ⟨6, _⟩ => extractAt ![0] (k0_pay31 (k0_pay1 v)) inpos_S1_p0
  | ⟨7, _⟩ => extractAt ![0] (k0_pay35 (k0_pay1 v)) inpos_S1_p0
  | ⟨8, _⟩ => extractAt ![0] (k0_pay39 (k0_pay1 v)) inpos_S1_p0
  | ⟨9, _⟩ => extractAt ![0] (k0_pay43 (k0_pay1 v)) inpos_S1_p0
  | ⟨10, _⟩ => extractAt ![0] (k0_pay48 (k0_pay1 v)) inpos_S1_p0
  | ⟨11, _⟩ => extractAt ![0] (k0_pay55 (k0_pay1 v)) inpos_S1_p0
  | ⟨12, _⟩ => extractAt ![0] (k0_pay59 (k0_pay1 v)) inpos_S1_p0
  | ⟨13, _⟩ => extractAt ![0] (k0_pay63 (k0_pay1 v)) inpos_S1_p0
  | ⟨14, _⟩ => extractAt ![0] (k0_pay67 (k0_pay1 v)) inpos_S1_p0
  | ⟨15, _⟩ => extractAt ![0] (k0_pay71 (k0_pay1 v)) inpos_S1_p0
  | ⟨_ + 16, h⟩ => absurd h (by omega)

theorem laneW_eq (t : Fin 16) (v : Vec F S16 .i32) : laneW (F := F) t v = v (ix1 t) := by
  fin_cases t <;> (show v _ = v _; congr 1; funext a; fin_cases a; rfl)

/-- What group `k` loads from the three word scratches and the matrix scratch. -/
def ldA7 (d : Dev nD) (L : grid0.Coords) (A : Buf (Elt F) ((thr d L).loc cc0_scratch0)) (k : Fin k0_t1_loop.trips) : Vec F S16 .i32 :=
  (s0).view.readAt (Elt F) (Rect.unit (s := S512) (k0_off3 k) S16.size (k0_off3_inb k)).toLoadRect A
def ldA8 (d : Dev nD) (L : grid0.Coords) (A : Buf (Elt F) ((thr d L).loc cc0_scratch1)) (k : Fin k0_t1_loop.trips) : Vec F S16 .i32 :=
  (s1).view.readAt (Elt F) (Rect.unit (s := S512) (k0_off3 k) S16.size (k0_off3_inb k)).toLoadRect A
def ldA9 (d : Dev nD) (L : grid0.Coords) (A : Buf (Elt F) ((thr d L).loc cc0_scratch2)) (k : Fin k0_t1_loop.trips) : Vec F S16 .i32 :=
  (s2).view.readAt (Elt F) (Rect.unit (s := S512) (k0_off3 k) S16.size (k0_off3_inb k)).toLoadRect A
/-- The sixteen-wide piece read from the matrix scratch for a label under a mask word. -/
def ldB (d : Dev nD) (L : grid0.Coords) (B : Buf (Elt F) ((thr d L).loc cc0_scratch3)) (k : Fin k0_t1_loop.trips) (lab msk : BitVec 32) : Vec F S1x16 .f32 :=
  (s3).view.readAt (Elt F) (Rect.unit (s := S136x512) (k0_off4 k lab msk) S1x16.size ((k0_chk1_all k lab lab msk).1)).toLoadRect B

/-- One group's new running sum from the scratches' contents. -/
def tripOf (d : Dev nD) (L : grid0.Coords) (A7 : Buf (Elt F) ((thr d L).loc cc0_scratch0)) (A8 : Buf (Elt F) ((thr d L).loc cc0_scratch1))
    (A9 : Buf (Elt F) ((thr d L).loc cc0_scratch2)) (B : Buf (Elt F) ((thr d L).loc cc0_scratch3)) (k : Fin k0_t1_loop.trips) (acc : FVec F S16 .f32) : FVec F S16 .f32 :=
  tripPay (F := F) (ldA7 d L A7 k) (ldA8 d L A8 k) (ldA9 d L A9 k)
    (fun t => ldB d L B k (laneW (F := F) t (ldA7 d L A7 k)) (laneW (F := F) t (ldA9 d L A9 k)))
    (fun t => ldB d L B k (laneW (F := F) t (ldA8 d L A8 k)) (laneW (F := F) t (ldA9 d L A9 k))) acc

set_option maxHeartbeats 4000000 in
set_option maxRecDepth 65536 in
/-- One trip of the loop: the four scratches are read, never written; the running sum moves by `tripOf`. -/
theorem trip_body (d : Dev nD) (L : grid0.Coords) (k : Fin k0_t1_loop.trips) (acc v3 : FVec F S16 .f32)
    (A7 : Buf (Elt F) ((thr d L).loc cc0_scratch0)) (A8 : Buf (Elt F) ((thr d L).loc cc0_scratch1)) (A9 : Buf (Elt F) ((thr d L).loc cc0_scratch2))
    (B : Buf (Elt F) ((thr d L).loc cc0_scratch3)) :
    iprop(((s0).view.loc (thr d L) ↦{fullShare} A7) ∗ ((s1).view.loc (thr d L) ↦{fullShare} A8) ∗ ((s2).view.loc (thr d L) ↦{fullShare} A9)
        ∗ ((s3).view.loc (thr d L) ↦{fullShare} B) : sProp 𝕄)
      ⊢ wp frame (wpE (defs₀ (F := F)) Variants.none (thr d L) none) Set.univ
          (k0_t1_body L zW (Memref.isWhole_whole _) lW (Memref.isWhole_whole _) pW (Memref.isWhole_whole _) cW (Memref.isWhole_whole _) oW (Memref.isWhole_whole _)
            s0 (Memref.isWhole_whole _) s1 (Memref.isWhole_whole _) s2 (Memref.isWhole_whole _) s3 (Memref.isWhole_whole _) s4 (Memref.isWhole_whole _)
            cc0_scratch5 cc0_scratch6 cc0_scoped0 cc0_scoped1 cc0_scoped2 cc0_scoped3 v3 (iota .scVector S16 32 [0] iota_S16_d0_w32_scVector) k acc)
          fun r => iprop(⌜r = tripOf d L A7 A8 A9 B k acc⌝ ∗ ((s0).view.loc (thr d L) ↦{fullShare} A7) ∗ ((s1).view.loc (thr d L) ↦{fullShare} A8)
            ∗ ((s2).view.loc (thr d L) ↦{fullShare} A9) ∗ ((s3).view.loc (thr d L) ↦{fullShare} B)) := by
  iintro ⟨H7, H8, H9, HB⟩
  unfold k0_t1_body
  sl_exec_parts
  sl_step
  isplitr
  · ipureintro; rfl
  isplitl [H7]; · iexact H7
  isplitl [H8]; · iexact H8
  isplitl [H9]; · iexact H9
  iexact HB

end Cert.Kernel.ScBody

end
-- ==== Proof.Bits.ScBody3.lean ====
import proofs.«202802_g48112223650475_cont_8to1c4_51_21_alg».proof.Proof.Bits.ScBody2
import Idealize.ShloMosaic.Lib.SparseCore.Launch
import Idealize.ShloMosaic.Lib.Tactic

noncomputable section

namespace Cert.Kernel.ScBody

open Idealize.ShloMosaic Idealize.ShloMosaic.ValueIdx Cert.Kernel Cert.Kernel.Gen
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] {Name : Type} [DecidableEq Name] [Infinite Name] {U : Type} [URA U] [CountersIn U]

local notation "𝕄" => MT nD τ sig (SparseCore.Cfg.HIx 1) (Elt F) Name U ℕ

local notation "zW" => (Memref.whole Cert.Kernel.main_v0_scv : Memref Cert.Kernel.sig Kind.scVector Space.hbm Cert.Kernel.S1000x16384 EltTy.f32)
local notation "lW" => (Memref.whole Cert.Kernel.main_arg2_scv : Memref Cert.Kernel.sig Kind.scVector Space.hbm Cert.Kernel.S16384 EltTy.i32)
local notation "pW" => (Memref.whole Cert.Kernel.main_arg3_scv : Memref Cert.Kernel.sig Kind.scVector Space.hbm Cert.Kernel.S16384 EltTy.i32)
local notation "cW" => (Memref.whole Cert.Kernel.main_v1_scv : Memref Cert.Kernel.sig Kind.scVector Space.hbm Cert.Kernel.S16384 EltTy.i32)
local notation "oW" => (Memref.whole Cert.Kernel.main_v6_scv : Memref Cert.Kernel.sig Kind.scVector Space.hbm Cert.Kernel.S32x16 EltTy.f32)
local notation "s0" => (Memref.whole Cert.Kernel.cc0_scratch0 : Memref Cert.Kernel.sig Kind.scVector Space.vmem Cert.Kernel.S512 EltTy.i32)
local notation "s1" => (Memref.whole Cert.Kernel.cc0_scratch1 : Memref Cert.Kernel.sig Kind.scVector Space.vmem Cert.Kernel.S512 EltTy.i32)
local notation "s2" => (Memref.whole Cert.Kernel.cc0_scratch2 : Memref Cert.Kernel.sig Kind.scVector Space.vmem Cert.Kernel.S512 EltTy.i32)
local notation "s3" => (Memref.whole Cert.Kernel.cc0_scratch3 : Memref Cert.Kernel.sig Kind.scVector Space.vmem Cert.Kernel.S136x512 EltTy.f32)
local notation "s4" => (Memref.whole Cert.Kernel.cc0_scratch4 : Memref Cert.Kernel.sig Kind.scVector Space.vmem Cert.Kernel.S16 EltTy.f32)

/-! ## The pieces of the arrays a worker touches, spelt as the program slices them -/

abbrev lSl (L : grid0.Coords) : Memref sig .scVector .hbm S512 .i32 := (lW).slice (Rect.unit (s := S16384) (k0_off1 L) S512.size (k0_off1_inb L)) (fun _ => rfl)
abbrev pSl (L : grid0.Coords) : Memref sig .scVector .hbm S512 .i32 := (pW).slice (Rect.unit (s := S16384) (k0_off1 L) S512.size (k0_off1_inb L)) (fun _ => rfl)
abbrev cSl (L : grid0.Coords) : Memref sig .scVector .hbm S512 .i32 := (cW).slice (Rect.unit (s := S16384) (k0_off1 L) S512.size (k0_off1_inb L)) (fun _ => rfl)
abbrev zSl (L : grid0.Coords) : Memref sig .scVector .hbm S64x512 .f32 := (zW).slice (Rect.unit (s := S1000x16384) (k0_off2 L) S64x512.size (k0_off2_inb L)) (fun _ => rfl)
abbrev oSl (L : grid0.Coords) : Memref sig .scVector .hbm S16 .f32 := ((oW).slice (Rect.unit (s := S32x16) (k0_off36 L) S1x16.size (k0_off36_inb L)) (fun _ => rfl)).squeeze S16 squeezes_S1x16_S16
abbrev cellOf (d : Dev nD) (L : grid0.Coords) (s : DmaSems sig S_) : GSem nD τ sig := (thr d L, SemLoc.dma s.sem)

/-- An array of the TensorCore's, where a worker's copies find it. -/
abbrev tcLoc (d : Dev nD) (b : Ref sig .tc) : Loc nD τ sig := (SparseCore.T d : Thread nD τ).loc b

/-! ## Words and offsets -/

theorem ofBool3 (a b c : Bool) : (BitVec.ofBool a &&& BitVec.ofBool b &&& BitVec.ofBool c = 1#1) ↔ (a = true ∧ b = true ∧ c = true) := by
  cases a <;> cases b <;> cases c <;> decide

/-- A word is at least zero and below 64 as a signed number exactly when it is below 64 as an unsigned one. -/
theorem signed_lt64 (lab : BitVec 32) : ((0#32).sle lab = true ∧ lab.slt 64#32 = true) ↔ lab.toNat < 64 := by
  rw [BitVec.sle_iff_toInt_le, BitVec.slt_iff_toInt_lt]
  have e0 : (0#32 : BitVec 32).toInt = 0 := by decide
  have e64 : (64#32 : BitVec 32).toInt = 64 := by decide
  have hl := BitVec.toInt_eq_toNat_cond lab
  have h2 := lab.isLt
  rw [e0, e64]
  constructor
  · rintro ⟨h0, h1⟩; split at hl <;> omega
  · intro h; split at hl <;> omega

theorem trip_lt (k : Fin k0_t1_loop.trips) : k.val < 32 := Nat.lt_of_lt_of_le k.isLt k0_t1_abs.2.1

/-- The program's test of a label under a mask word: the mask word is not zero and the label, as a signed word, lies in `[0, 64)`. -/
theorem sel_cond (lab msk : BitVec 32) :
    (Scalar.andi (Scalar.andi (Scalar.cmpi .ne msk 0#32) (Scalar.cmpi .sge lab 0#32)) (Scalar.cmpi .slt lab 64#32) = 1) ↔ (msk ≠ 0#32 ∧ lab.toNat < 64) := by
  simp only [Scalar.cmpi, Scalar.andi, IntOp.cmpi, IntOp.andi]
  rw [show (1 : BitVec 1) = 1#1 from rfl, ofBool3, ← signed_lt64]
  simp only [bne_iff_ne, ne_eq]

/-- Where a read starts: the label's row when the label is honoured, row 128 otherwise; sixteen columns per group. -/
theorem off4_eq (k : Fin k0_t1_loop.trips) (lab msk : BitVec 32) :
    k0_off4 k lab msk = ![if msk ≠ 0#32 ∧ lab.toNat < 64 then lab.toNat else 128, 16 * k.val] := by
  have hk := trip_lt k
  have hcol : (Scalar.muli (Scf.iv 0#32 1#32 k.val) 16#32).toNat = 16 * k.val := by
    simp only [Scalar.muli, IntOp.muli, Scf.iv, BitVec.zero_add, BitVec.mul_one, BitVec.toNat_mul, BitVec.toNat_ofNat]
    omega
  have hlab : Scalar.subi (Scalar.addi 0#32 lab) 0#32 = lab := by
    simp only [Scalar.subi, Scalar.addi, IntOp.subi, IntOp.addi, BitVec.zero_add, BitVec.sub_zero]
  have h128 : (128#32 : BitVec 32).toNat = 128 := by decide
  unfold k0_off4
  simp only [Scalar.select, Scalar.indexCast, apply_ite BitVec.toNat, sel_cond, hcol, hlab, h128]

/-! ## What the matrix scratch holds when the loop starts -/

/-- The sixteen zeros stored at row 128. -/
def zrow : FVec F S1x16 .f32 := k0_pay75 (F := F)

theorem zrow_apply (x : S1x16.Idx) : zrow (F := F) x = zeroE := rfl

theorem zcol_inb (j : Fin 32) : ∀ a, (![128, 16 * (31 - j.val)] : Fin 2 → Nat) a + S1x16.size a ≤ S136x512.size a := by
  have := j.isLt
  intro a; fin_cases a
  · show 128 + 1 ≤ 136; omega
  · show 16 * (31 - j.val) + 16 ≤ 512; omega

/-- The zero stores, the last first: columns 496 down to 0 of row 128. -/
def zf (j : Fin 32) : View.Piece (Elt F) S136x512 .f32 := ⟨Rect.unit (s := S136x512) ![128, 16 * (31 - j.val)] S1x16.size (zcol_inb j), zrow (F := F)⟩

/-- The same list as the program's stores leave it. -/
def zeroLit : List (View.Piece (Elt F) S136x512 .f32) :=
  [⟨Rect.unit (s := S136x512) ![128, 496] S1x16.size inb_S136x512_S1x16_128_496, k0_pay106 (k0_pay74 (F := F))⟩,
   ⟨Rect.unit (s := S136x512) ![128, 480] S1x16.size inb_S136x512_S1x16_128_480, k0_pay105 (k0_pay74 (F := F))⟩,
   ⟨Rect.unit (s := S136x512) ![128, 464] S1x16.size inb_S136x512_S1x16_128_464, k0_pay104 (k0_pay74 (F := F))⟩,
   ⟨Rect.unit (s := S136x512) ![128, 448] S1x16.size inb_S136x512_S1x16_128_448, k0_pay103 (k0_pay74 (F := F))⟩,
   ⟨Rect.unit (s := S136x512) ![128, 432] S1x16.size inb_S136x512_S1x16_128_432, k0_pay102 (k0_pay74 (F := F))⟩,
   ⟨Rect.unit (s := S136x512) ![128, 416] S1x16.size inb_S136x512_S1x16_128_416, k0_pay101 (k0_pay74 (F := F))⟩,
   ⟨Rect.unit (s := S136x512) ![128, 400] S1x16.size inb_S136x512_S1x16_128_400, k0_pay100 (k0_pay74 (F := F))⟩,
   ⟨Rect.unit (s := S136x512) ![128, 384] S1x16.size inb_S136x512_S1x16_128_384, k0_pay99 (k0_pay74 (F := F))⟩,
   ⟨Rect.unit (s := S136x512) ![128, 368] S1x16.size inb_S136x512_S1x16_128_368, k0_pay98 (k0_pay74 (F := F))⟩,
   ⟨Rect.unit (s := S136x512) ![128, 352] S1x16.size inb_S136x512_S1x16_128_352, k0_pay97 (k0_pay74 (F := F))⟩,
   ⟨Rect.unit (s := S136x512) ![128, 336] S1x16.size inb_S136x512_S1x16_128_336, k0_pay96 (k0_pay74 (F := F))⟩,
   ⟨Rect.unit (s := S136x512) ![128, 320] S1x16.size inb_S136x512_S1x16_128_320, k0_pay95 (k0_pay74 (F := F))⟩,
   ⟨Rect.unit (s := S136x512) ![128, 304] S1x16.size inb_S136x512_S1x16_128_304, k0_pay94 (k0_pay74 (F := F))⟩,
   ⟨Rect.unit (s := S136x512) ![128, 288] S1x16.size inb_S136x512_S1x16_128_288, k0_pay93 (k0_pay74 (F := F))⟩,
   ⟨Rect.unit (s := S136x512) ![128, 272] S1x16.size inb_S136x512_S1x16_128_272, k0_pay92 (k0_pay74 (F := F))⟩,
   ⟨Rect.unit (s := S136x512) ![128, 256] S1x16.size inb_S136x512_S1x16_128_256, k0_pay91 (k0_pay74 (F := F))⟩,
   ⟨Rect.unit (s := S136x512) ![128, 240] S1x16.size inb_S136x512_S1x16_128_240, k0_pay90 (k0_pay74 (F := F))⟩,
   ⟨Rect.unit (s := S136x512) ![128, 224] S1x16.size inb_S136x512_S1x16_128_224, k0_pay89 (k0_pay74 (F := F))⟩,
   ⟨Rect.unit (s := S136x512) ![128, 208] S1x16.size inb_S136x512_S1x16_128_208, k0_pay88 (k0_pay74 (F := F))⟩,
   ⟨Rect.unit (s := S136x512) ![128, 192] S1x16.size inb_S136x512_S1x16_128_192, k0_pay87 (k0_pay74 (F := F))⟩,
   ⟨Rect.unit (s := S136x512) ![128, 176] S1x16.size inb_S136x512_S1x16_128_176, k0_pay86 (k0_pay74 (F := F))⟩,
   ⟨Rect.unit (s := S136x512) ![128, 160] S1x16.size inb_S136x512_S1x16_128_160, k0_pay85 (k0_pay74 (F := F))⟩,
   ⟨Rect.unit (s := S136x512) ![128, 144] S1x16.size inb_S136x512_S1x16_128_144, k0_pay84 (k0_pay74 (F := F))⟩,
   ⟨Rect.unit (s := S136x512) ![128, 128] S1x16.size inb_S136x512_S1x16_128_128, k0_pay83 (k0_pay74 (F := F))⟩,
   ⟨Rect.unit (s := S136x512) ![128, 112] S1x16.size inb_S136x512_S1x16_128_112, k0_pay82 (k0_pay74 (F := F))⟩,
   ⟨Rect.unit (s := S136x512) ![128, 96] S1x16.size inb_S136x512_S1x16_128_96, k0_pay81 (k0_pay74 (F := F))⟩,
   ⟨Rect.unit (s := S136x512) ![128, 80] S1x16.size inb_S136x512_S1x16_128_80, k0_pay80 (k0_pay74 (F := F))⟩,
   ⟨Rect.unit (s := S136x512) ![128, 64] S1x16.size inb_S136x512_S1x16_128_64, k0_pay79 (k0_pay74 (F := F))⟩,
   ⟨Rect.unit (s := S136x512) ![128, 48] S1x16.size inb_S136x512_S1x16_128_48, k0_pay78 (F := F)⟩,
   ⟨Rect.unit (s := S136x512) ![128, 32] S1x16.size inb_S136x512_S1x16_128_32, k0_pay77 (F := F)⟩,
   ⟨Rect.unit (s := S136x512) ![128, 16] S1x16.size inb_S136x512_S1x16_128_16, k0_pay76 (F := F)⟩,
   ⟨Rect.unit (s := S136x512) ![128, 0] S1x16.size inb_S136x512_S1x16_128_0, k0_pay75 (F := F)⟩]

theorem zeroLit_eq : zeroLit (F := F) = List.ofFn (zf (F := F)) := by
  rfl

/-- The 64 by 512 block of the transposed matrix the asynchronous copy lands in rows 0 to 63. -/
def dmaPiece (d : Dev nD) (L : grid0.Coords) (zt : Buf (Elt F) (tcLoc d main_v0)) : View.Piece (Elt F) S136x512 .f32 :=
  ⟨Rect.unit (s := S136x512) ![0, 0] S64x512.size inb_S136x512_S64x512_0_0, ReadAs.same.apply ((zSl L).view.read (Elt F) zt)⟩

/-- The matrix scratch when the loop starts: the zero stores, then the landed block, over whatever it held. -/
def bufB (d : Dev nD) (L : grid0.Coords) (zt : Buf (Elt F) (tcLoc d main_v0)) (f3 : Buf (Elt F) ((thr d L).loc cc0_scratch3)) :
    Buf (Elt F) ((thr d L).loc cc0_scratch3) :=
  (s3).view.writes (Elt F) f3 (dmaPiece d L zt :: zeroLit (F := F))

/-- What the written part of the matrix scratch holds: the worker's 512 columns of the first 64 rows of the transposed
    matrix, and zeros from row 64 on (only row 128 of those is written). -/
def bufG (zt : S1000x16384.Idx → Elt F .f32) (L : grid0.Coords) : S136x512.Idx → Elt F .f32 := fun y =>
  if h : (y 0).val < 64 then
    zt (ix2 ⟨(y 0).val, by omega⟩ ⟨512 * wid L + (y 1).val, by have := wid_lt L; have := idx2_lt1 y; omega⟩)
  else zeroE

theorem pieces_agree (d : Dev nD) (L : grid0.Coords) (zt : Buf (Elt F) (tcLoc d main_v0)) :
    ∀ p ∈ (dmaPiece d L zt :: zeroLit (F := F)), ∀ x : p.1.shape.Idx, p.2 x = bufG zt L (p.1.emb x) := by
  intro p hp
  rcases List.mem_cons.mp hp with rfl | hp
  · intro x
    show (zt : S1000x16384.Idx → Elt F .f32) ((zSl L).view.emb x) = bufG zt L _
    have hx0 : (x 0).val < 64 := (x 0).isLt
    unfold bufG
    rw [dif_pos (show ((dmaPiece d L zt).1.emb x 0).val < 64 from by show 0 + 1 * (x 0).val < 64; omega)]
    refine congrArg (zt : S1000x16384.Idx → Elt F .f32) (funext fun a => Fin.ext ?_)
    match a with
    | ⟨0, _⟩ => show (k0_off2 L) 0 + 1 * (x 0).val = 0 + 1 * (x 0).val; rw [k0_off2_eq]; simp
    | ⟨1, _⟩ => show (k0_off2 L) 1 + 1 * (x 1).val = 512 * wid L + (0 + 1 * (x 1).val); rw [k0_off2_eq]; simp [wid]; omega
  · rw [zeroLit_eq] at hp
    obtain ⟨j, rfl⟩ := List.mem_ofFn.mp hp
    intro x
    show zeroE = bufG zt L _
    unfold bufG
    rw [dif_neg]
    show ¬ (128 + 1 * (x 0).val) < 64
    omega

theorem pieces_cover (d : Dev nD) (L : grid0.Coords) (zt : Buf (Elt F) (tcLoc d main_v0)) (y : S136x512.Idx)
    (h : (y 0).val < 64 ∨ (y 0).val = 128) : ∃ p ∈ (dmaPiece d L zt :: zeroLit (F := F)), y ∈ p.1.set := by
  have hc := idx2_lt1 y
  rcases h with h | h
  · refine ⟨dmaPiece d L zt, List.mem_cons_self, ?_⟩
    show y ∈ (Rect.unit (s := S136x512) ![0, 0] S64x512.size inb_S136x512_S64x512_0_0).set
    rw [Rect.mem_set_unit]
    intro a; fin_cases a
    · exact ⟨Nat.zero_le _, by show (y 0).val < 0 + 64; omega⟩
    · exact ⟨Nat.zero_le _, by show (y 1).val < 0 + 512; omega⟩
  · refine ⟨zf ⟨31 - (y 1).val / 16, by omega⟩, List.mem_cons_of_mem _ (by rw [zeroLit_eq]; exact List.mem_ofFn.mpr ⟨_, rfl⟩), ?_⟩
    show y ∈ (Rect.unit (s := S136x512) ![128, 16 * (31 - (31 - (y 1).val / 16))] S1x16.size (zcol_inb ⟨31 - (y 1).val / 16, by omega⟩)).set
    rw [Rect.mem_set_unit]
    intro a; fin_cases a
    · show 128 ≤ (y 0).val ∧ (y 0).val < 128 + 1; omega
    · show 16 * (31 - (31 - (y 1).val / 16)) ≤ (y 1).val ∧ (y 1).val < 16 * (31 - (31 - (y 1).val / 16)) + 16; omega

/-- A read of the matrix scratch for a label under a mask word finds the piece of the transposed matrix, or zeros. -/
theorem ldB_eq (d : Dev nD) (L : grid0.Coords) (zt : Buf (Elt F) (tcLoc d main_v0)) (f3 : Buf (Elt F) ((thr d L).loc cc0_scratch3))
    (k : Fin k0_t1_loop.trips) (lab msk : BitVec 32) :
    ldB d L (bufB d L zt f3) k lab msk = chunk zt L ⟨k.val, trip_lt k⟩ lab msk := by
  funext x
  unfold ldB chunk
  rw [View.readAt_apply]
  have hx0 : (x 0).val < 1 := (x 0).isLt
  generalize hy : (Rect.unit (s := S136x512) (k0_off4 k lab msk) S1x16.size ((k0_chk1_all k lab lab msk).1)).toLoadRect.idx x = y
  have hy0 : (y 0).val = (if msk ≠ 0#32 ∧ lab.toNat < 64 then lab.toNat else 128) := by
    rw [← hy]; show (k0_off4 k lab msk) 0 + 1 * (x 0).val = _
    rw [off4_eq]; simp; omega
  have hy1 : (y 1).val = 16 * k.val + (x 1).val := by
    rw [← hy]; show (k0_off4 k lab msk) 1 + 1 * (x 1).val = _
    rw [off4_eq]; simp
  have hcov : (y 0).val < 64 ∨ (y 0).val = 128 := by
    rw [hy0]; split
    · rename_i h; exact .inl h.2
    · exact .inr rfl
  have hr : (s3).view.read (Elt F) (bufB d L zt f3) y = bufG zt L y :=
    View.read_writes_apply_of_pieces (s3).view f3 (bufG zt L) _ (pieces_agree d L zt) y (pieces_cover d L zt y hcov)
  rw [hr]
  unfold bufG
  by_cases hc : msk ≠ 0#32 ∧ lab.toNat < 64
  · rw [dif_pos hc, dif_pos (show (y 0).val < 64 by rw [hy0, if_pos hc]; exact hc.2)]
    refine congrArg (zt : S1000x16384.Idx → Elt F .f32) (funext fun a => Fin.ext ?_)
    match a with
    | ⟨0, _⟩ => show (y 0).val = lab.toNat; rw [hy0, if_pos hc]
    | ⟨1, _⟩ => show 512 * wid L + (y 1).val = 512 * wid L + 16 * k.val + (x 1).val; rw [hy1]; omega
  · rw [dif_neg hc, dif_neg (show ¬ (y 0).val < 64 by rw [hy0, if_neg hc]; omega)]

/-! ## What the three word scratches hold when the loop starts -/

def A7of (d : Dev nD) (L : grid0.Coords) (l : Buf (Elt F) (tcLoc d main_arg2)) (f0 : Buf (Elt F) ((thr d L).loc cc0_scratch0)) :
    Buf (Elt F) ((thr d L).loc cc0_scratch0) :=
  View.write (Elt F) (s0).view f0 (ReadAs.same.apply ((lSl L).view.read (Elt F) l)) Finset.univ
def A8of (d : Dev nD) (L : grid0.Coords) (lp : Buf (Elt F) (tcLoc d main_arg3)) (f1 : Buf (Elt F) ((thr d L).loc cc0_scratch1)) :
    Buf (Elt F) ((thr d L).loc cc0_scratch1) :=
  View.write (Elt F) (s1).view f1 (ReadAs.same.apply ((pSl L).view.read (Elt F) lp)) Finset.univ
def A9of (d : Dev nD) (L : grid0.Coords) (cnd : Buf (Elt F) (tcLoc d main_v1)) (f2 : Buf (Elt F) ((thr d L).loc cc0_scratch2)) :
    Buf (Elt F) ((thr d L).loc cc0_scratch2) :=
  View.write (Elt F) (s2).view f2 (ReadAs.same.apply ((cSl L).view.read (Elt F) cnd)) Finset.univ

theorem ldA7_eq (d : Dev nD) (L : grid0.Coords) (l : Buf (Elt F) (tcLoc d main_arg2)) (f0 : Buf (Elt F) ((thr d L).loc cc0_scratch0))
    (k : Fin k0_t1_loop.trips) : ldA7 d L (A7of d L l f0) k = ldVec (F := F) l L ⟨k.val, trip_lt k⟩ := by
  funext j
  unfold ldA7 ldVec A7of
  rw [View.readAt_apply]
  simp only [Memref.view_whole, View.write_whole_univ, View.read_whole]
  show (l : S16384.Idx → BitVec 32) ((lSl L).view.emb _) = (l : S16384.Idx → BitVec 32) _
  refine congrArg (l : S16384.Idx → BitVec 32) (funext fun a => Fin.ext ?_)
  match a with
  | ⟨0, _⟩ =>
    show (k0_off1 L) 0 + 1 * ((k0_off3 k) 0 + 1 * (j 0).val) = 512 * wid L + 16 * k.val + (j 0).val
    rw [k0_off1_eq, k0_off3_eq]; simp [wid]; omega

theorem ldA8_eq (d : Dev nD) (L : grid0.Coords) (lp : Buf (Elt F) (tcLoc d main_arg3)) (f1 : Buf (Elt F) ((thr d L).loc cc0_scratch1))
    (k : Fin k0_t1_loop.trips) : ldA8 d L (A8of d L lp f1) k = ldVec (F := F) lp L ⟨k.val, trip_lt k⟩ := by
  funext j
  unfold ldA8 ldVec A8of
  rw [View.readAt_apply]
  simp only [Memref.view_whole, View.write_whole_univ, View.read_whole]
  show (lp : S16384.Idx → BitVec 32) ((pSl L).view.emb _) = (lp : S16384.Idx → BitVec 32) _
  refine congrArg (lp : S16384.Idx → BitVec 32) (funext fun a => Fin.ext ?_)
  match a with
  | ⟨0, _⟩ =>
    show (k0_off1 L) 0 + 1 * ((k0_off3 k) 0 + 1 * (j 0).val) = 512 * wid L + 16 * k.val + (j 0).val
    rw [k0_off1_eq, k0_off3_eq]; simp [wid]; omega

theorem ldA9_eq (d : Dev nD) (L : grid0.Coords) (cnd : Buf (Elt F) (tcLoc d main_v1)) (f2 : Buf (Elt F) ((thr d L).loc cc0_scratch2))
    (k : Fin k0_t1_loop.trips) : ldA9 d L (A9of d L cnd f2) k = ldVec (F := F) cnd L ⟨k.val, trip_lt k⟩ := by
  funext j
  unfold ldA9 ldVec A9of
  rw [View.readAt_apply]
  simp only [Memref.view_whole, View.write_whole_univ, View.read_whole]
  show (cnd : S16384.Idx → BitVec 32) ((cSl L).view.emb _) = (cnd : S16384.Idx → BitVec 32) _
  refine congrArg (cnd : S16384.Idx → BitVec 32) (funext fun a => Fin.ext ?_)
  match a with
  | ⟨0, _⟩ =>
    show (k0_off1 L) 0 + 1 * ((k0_off3 k) 0 + 1 * (j 0).val) = 512 * wid L + 16 * k.val + (j 0).val
    rw [k0_off1_eq, k0_off3_eq]; simp [wid]; omega

/-- One trip of the loop, from the arrays: the scratches hold the worker's pieces, so the trip's update is `tripVal`. -/
theorem tripOf_eq (d : Dev nD) (L : grid0.Coords) (zt : Buf (Elt F) (tcLoc d main_v0)) (l : Buf (Elt F) (tcLoc d main_arg2))
    (lp : Buf (Elt F) (tcLoc d main_arg3)) (cnd : Buf (Elt F) (tcLoc d main_v1))
    (f0 : Buf (Elt F) ((thr d L).loc cc0_scratch0)) (f1 : Buf (Elt F) ((thr d L).loc cc0_scratch1)) (f2 : Buf (Elt F) ((thr d L).loc cc0_scratch2))
    (f3 : Buf (Elt F) ((thr d L).loc cc0_scratch3)) (k : Fin k0_t1_loop.trips) (acc : FVec F S16 .f32) :
    tripOf d L (A7of d L l f0) (A8of d L lp f1) (A9of d L cnd f2) (bufB d L zt f3) k acc
      = tripVal (F := F) zt l lp cnd L ⟨k.val, trip_lt k⟩ acc := by
  unfold tripOf tripVal
  rw [ldA7_eq, ldA8_eq, ldA9_eq]
  simp only [ldB_eq, laneW_eq]

/-- The running sum one group further. -/
theorem accAt_succ (zt : S1000x16384.Idx → Elt F .f32) (l lp cnd : S16384.Idx → BitVec 32) (L : grid0.Coords) (k : Fin k0_t1_loop.trips) :
    accAt (F := F) zt l lp cnd L (k.val + 1) = tripVal zt l lp cnd L ⟨k.val, trip_lt k⟩ (accAt zt l lp cnd L k.val) := by
  rw [accAt, dif_pos (trip_lt k)]

theorem trips_eq : k0_t1_loop.trips = 32 := by decide

end Cert.Kernel.ScBody

end
-- ==== Proof.Bits.ScBody4.lean ====
import proofs.«202802_g48112223650475_cont_8to1c4_51_21_alg».proof.Proof.Bits.ScBody3
import Idealize.ShloMosaic.Lib.SparseCore.Launch
import Idealize.ShloMosaic.Lib.Tactic

noncomputable section

namespace Cert.Kernel.ScBody

open Idealize.ShloMosaic Idealize.ShloMosaic.ValueIdx Cert.Kernel Cert.Kernel.Gen
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] {Name : Type} [DecidableEq Name] [Infinite Name] {U : Type} [URA U] [CountersIn U]

local notation "𝕄" => MT nD τ sig (SparseCore.Cfg.HIx 1) (Elt F) Name U ℕ

local notation "zW" => (Memref.whole Cert.Kernel.main_v0_scv : Memref Cert.Kernel.sig Kind.scVector Space.hbm Cert.Kernel.S1000x16384 EltTy.f32)
local notation "lW" => (Memref.whole Cert.Kernel.main_arg2_scv : Memref Cert.Kernel.sig Kind.scVector Space.hbm Cert.Kernel.S16384 EltTy.i32)
local notation "pW" => (Memref.whole Cert.Kernel.main_arg3_scv : Memref Cert.Kernel.sig Kind.scVector Space.hbm Cert.Kernel.S16384 EltTy.i32)
local notation "cW" => (Memref.whole Cert.Kernel.main_v1_scv : Memref Cert.Kernel.sig Kind.scVector Space.hbm Cert.Kernel.S16384 EltTy.i32)
local notation "oW" => (Memref.whole Cert.Kernel.main_v6_scv : Memref Cert.Kernel.sig Kind.scVector Space.hbm Cert.Kernel.S32x16 EltTy.f32)
local notation "s0" => (Memref.whole Cert.Kernel.cc0_scratch0 : Memref Cert.Kernel.sig Kind.scVector Space.vmem Cert.Kernel.S512 EltTy.i32)
local notation "s1" => (Memref.whole Cert.Kernel.cc0_scratch1 : Memref Cert.Kernel.sig Kind.scVector Space.vmem Cert.Kernel.S512 EltTy.i32)
local notation "s2" => (Memref.whole Cert.Kernel.cc0_scratch2 : Memref Cert.Kernel.sig Kind.scVector Space.vmem Cert.Kernel.S512 EltTy.i32)
local notation "s3" => (Memref.whole Cert.Kernel.cc0_scratch3 : Memref Cert.Kernel.sig Kind.scVector Space.vmem Cert.Kernel.S136x512 EltTy.f32)
local notation "s4" => (Memref.whole Cert.Kernel.cc0_scratch4 : Memref Cert.Kernel.sig Kind.scVector Space.vmem Cert.Kernel.S16 EltTy.f32)

/-! ## The row of the result a worker writes -/

theorem oSl_emb (L : grid0.Coords) (x : S16.Idx) :
    (oSl L).view.emb x = (ix2 (⟨wid L, wid_lt L⟩ : Fin 32) (x 0) : S32x16.Idx) := by
  have h1 : Shape.reshapeEquiv (s := S1x16) (s' := S16) squeezes_S1x16_S16.numel_eq x = (ix2 (0 : Fin 1) (x 0) : S1x16.Idx) :=
    Shape.reshapeEquiv_eq_of_rowMajor _ (by rw [Shape.rowMajor_val_two, Shape.rowMajor_val_one]; simp)
  show (Rect.unit (s := S32x16) (k0_off36 L) S1x16.size (k0_off36_inb L)).emb (Shape.reshapeEquiv (s := S1x16) (s' := S16) squeezes_S1x16_S16.numel_eq x) = _
  rw [h1]
  funext a; apply Fin.ext
  match a with
  | ⟨0, _⟩ => show (k0_off36 L) 0 + 1 * 0 = wid L; rw [k0_off36_eq]; simp [wid]
  | ⟨1, _⟩ => show (k0_off36 L) 1 + 1 * (x 0).val = (x 0).val; rw [k0_off36_eq]; simp

/-- The accumulator scratch after its one store reads the stored vector. -/
theorem s4_read (d : Dev nD) (L : grid0.Coords) (f4 : Buf (Elt F) ((thr d L).loc cc0_scratch4)) (p : FVec F S16 .f32) (x : S16.Idx) :
    (s4).view.read (Elt F) ((s4).view.writes (Elt F) f4 [⟨Rect.unit (s := S16) ![0] S16.size inb_S16_S16_0, p⟩]) x = p x := by
  have h := View.read_writes_cons_emb (s4).view f4 (Rect.unit (s := S16) ![0] S16.size inb_S16_S16_0) p [] x
  have e : (Rect.unit (s := S16) ![0] S16.size inb_S16_S16_0).emb x = x := by
    funext a; apply Fin.ext
    match a with
    | ⟨0, _⟩ => show 0 + 1 * (x 0).val = (x 0).val; omega
  rwa [e] at h

/-- On the worker's row the result array, after the write-out, holds the running sum after all 32 groups. -/
theorem out_congr (d : Dev nD) (L : grid0.Coords) (zt : Buf (Elt F) (tcLoc d main_v0)) (l : Buf (Elt F) (tcLoc d main_arg2))
    (lp : Buf (Elt F) (tcLoc d main_arg3)) (cnd : Buf (Elt F) (tcLoc d main_v1)) (o : Buf (Elt F) (tcLoc d main_v6))
    (w : S16.Idx → Elt F .f32) (acc : FVec F S16 .f32) (hw : ∀ x, w x = k0_pay109 acc x) (hacc : acc = accAt (F := F) zt l lp cnd L 32) :
    ∀ i ∈ (oSl L).view.set, ((oSl L).view.writes (Elt F) o [⟨Rect.whole S16, w⟩]) i = scRow (F := F) zt l lp cnd L i := by
  intro i hi
  obtain ⟨x, -, rfl⟩ := Finset.mem_map.mp hi
  have h1 := congrFun (View.read_writes_whole (oSl L).view o w) x
  rw [View.read_apply] at h1
  have h2 : ((oSl L).view.writes (Elt F) o [⟨Rect.whole S16, w⟩]) ((oSl L).view.emb x) = w x := by
    rw [← h1]; rfl
  rw [h2, hw, oSl_emb, hacc]
  unfold scRow
  exact congrArg _ (eq_ix1 x)

/-! ## The sets of elements a worker is handed -/

/-- The worker's 512 columns of the first 64 rows of the transposed matrix. -/
def ztSet (L : grid0.Coords) : Finset S1000x16384.Idx := (zSl L).view.set
/-- The worker's 512 samples of a sample vector. -/
def vecSet (L : grid0.Coords) : Finset S16384.Idx := (lSl L).view.set
/-- The worker's row of the result. -/
def outSet (L : grid0.Coords) : Finset S32x16.Idx := (oSl L).view.set

theorem vecSet_p (L : grid0.Coords) : (pSl L).view.set = vecSet L := rfl
theorem vecSet_c (L : grid0.Coords) : (cSl L).view.set = vecSet L := rfl

theorem mem_ztSet {L : grid0.Coords} {ix : S1000x16384.Idx} :
    ix ∈ ztSet L ↔ (ix 0).val < 64 ∧ 512 * wid L ≤ (ix 1).val ∧ (ix 1).val < 512 * wid L + 512 := by
  show ix ∈ ((View.whole main_v0_scv).slice (Rect.unit (s := S1000x16384) (k0_off2 L) S64x512.size (k0_off2_inb L))).set ↔ _
  rw [View.set_slice_whole, Rect.mem_set_unit]
  show (∀ a : Fin 2, (k0_off2 L) a ≤ (ix a).val ∧ (ix a).val < (k0_off2 L) a + S64x512.size a) ↔ _
  rw [Fin.forall_fin_two, k0_off2_eq]
  show (0 ≤ (ix 0).val ∧ (ix 0).val < 0 + 64) ∧ (8192 * (L 0).val + 512 * (L 1).val ≤ (ix 1).val ∧ (ix 1).val < 8192 * (L 0).val + 512 * (L 1).val + 512) ↔ _
  unfold wid; omega

theorem mem_vecSet {L : grid0.Coords} {ix : S16384.Idx} :
    ix ∈ vecSet L ↔ 512 * wid L ≤ (ix 0).val ∧ (ix 0).val < 512 * wid L + 512 := by
  show ix ∈ ((View.whole main_arg2_scv).slice (Rect.unit (s := S16384) (k0_off1 L) S512.size (k0_off1_inb L))).set ↔ _
  rw [View.set_slice_whole, Rect.mem_set_unit]
  show (∀ a : Fin 1, (k0_off1 L) a ≤ (ix a).val ∧ (ix a).val < (k0_off1 L) a + S512.size a) ↔ _
  rw [Fin.forall_fin_one, k0_off1_eq]
  show (8192 * (L 0).val + 512 * (L 1).val ≤ (ix 0).val ∧ (ix 0).val < 8192 * (L 0).val + 512 * (L 1).val + 512) ↔ _
  unfold wid; omega

theorem mem_outSet {L : grid0.Coords} {ix : S32x16.Idx} : ix ∈ outSet L ↔ (ix 0).val = wid L := by
  have hc := idx2_lt1 ix
  show ix ∈ ((oSl L).view).set ↔ _
  rw [show ((oSl L).view).set = (Rect.unit (s := S32x16) (k0_off36 L) S1x16.size (k0_off36_inb L)).set from by
    simp only [Memref.view_squeeze, View.set_reshape]
    exact View.set_slice_whole main_v6_scv _]
  rw [Rect.mem_set_unit, Fin.forall_fin_two, k0_off36_eq]
  show (16 * (L 0).val + (L 1).val ≤ (ix 0).val ∧ (ix 0).val < 16 * (L 0).val + (L 1).val + 1) ∧ (0 ≤ (ix 1).val ∧ (ix 1).val < 0 + 16) ↔ _
  unfold wid; omega

/-- Before group `k`: the running sum is the first `k` groups', and the four scratches hold the worker's pieces. -/
def inv (d : Dev nD) (L : grid0.Coords) (zt : Buf (Elt F) (tcLoc d main_v0)) (l : Buf (Elt F) (tcLoc d main_arg2))
    (lp : Buf (Elt F) (tcLoc d main_arg3)) (cnd : Buf (Elt F) (tcLoc d main_v1))
    (f0 : Buf (Elt F) ((thr d L).loc cc0_scratch0)) (f1 : Buf (Elt F) ((thr d L).loc cc0_scratch1)) (f2 : Buf (Elt F) ((thr d L).loc cc0_scratch2))
    (f3 : Buf (Elt F) ((thr d L).loc cc0_scratch3)) (k : Nat) (acc : FVec F S16 .f32) : sProp 𝕄 :=
  iprop(⌜acc = accAt (F := F) zt l lp cnd L k⌝ ∗ ((s0).view.loc (thr d L) ↦{fullShare} A7of d L l f0) ∗ ((s1).view.loc (thr d L) ↦{fullShare} A8of d L lp f1)
    ∗ ((s2).view.loc (thr d L) ↦{fullShare} A9of d L cnd f2) ∗ ((s3).view.loc (thr d L) ↦{fullShare} bufB d L zt f3))

/-! ## The worker's own scratches and semaphores among what its scope holds -/

omit [FloatOps F] [Infinite Name] in
theorem cell_mem (d : Dev nD) (L : grid0.Coords) (s : DmaSems sig S_) (hs : (SemLoc.dma s.sem : SemLoc sig).isScoped .scVector = true) :
    cellOf d L s ∈ ownCells (sig := sig) (thr d L) := (mem_ownCells (g := cellOf d L s)).mpr ⟨rfl, hs⟩

omit [FloatOps F] [Infinite Name] in
theorem cell_ne (d : Dev nD) (L : grid0.Coords) (s s' : DmaSems sig S_) (h : s.sem ≠ s'.sem) : cellOf d L s ≠ cellOf d L s' :=
  fun e => h (SemLoc.dma.inj (Prod.mk.inj e).2)

omit [FloatOps F] [Infinite Name] in
/-- The five semaphores the worker uses are among its own: they are them, at zero, and the rest. -/
theorem ownSems0_thr (d : Dev nD) (L : grid0.Coords) :
    (ownSems0 (thr d L) : sProp 𝕄)
      = iprop(semVal (cellOf d L cc0_scratch5) 0 ∗ semVal (cellOf d L cc0_scoped0) 0 ∗ semVal (cellOf d L cc0_scoped1) 0 ∗ semVal (cellOf d L cc0_scoped2) 0 ∗ semVal (cellOf d L cc0_scoped3) 0
          ∗ bigSep ((((((ownCells (thr d L)).erase (cellOf d L cc0_scratch5)).erase (cellOf d L cc0_scoped0)).erase (cellOf d L cc0_scoped1)).erase (cellOf d L cc0_scoped2)).erase (cellOf d L cc0_scoped3)) fun g => semVal g 0) := by
  unfold SparseCore.Cfg.ownSems0
  rw [SparseCore.bigSep_erase' (cell_mem d L cc0_scratch5 (by decide)),
    SparseCore.bigSep_erase' (Finset.mem_erase.mpr ⟨cell_ne d L cc0_scoped0 cc0_scratch5 (by decide), cell_mem d L cc0_scoped0 (by decide)⟩),
    SparseCore.bigSep_erase' (Finset.mem_erase.mpr ⟨cell_ne d L cc0_scoped1 cc0_scoped0 (by decide), Finset.mem_erase.mpr ⟨cell_ne d L cc0_scoped1 cc0_scratch5 (by decide), cell_mem d L cc0_scoped1 (by decide)⟩⟩),
    SparseCore.bigSep_erase' (Finset.mem_erase.mpr ⟨cell_ne d L cc0_scoped2 cc0_scoped1 (by decide), Finset.mem_erase.mpr ⟨cell_ne d L cc0_scoped2 cc0_scoped0 (by decide), Finset.mem_erase.mpr ⟨cell_ne d L cc0_scoped2 cc0_scratch5 (by decide), cell_mem d L cc0_scoped2 (by decide)⟩⟩⟩),
    SparseCore.bigSep_erase' (Finset.mem_erase.mpr ⟨cell_ne d L cc0_scoped3 cc0_scoped2 (by decide), Finset.mem_erase.mpr ⟨cell_ne d L cc0_scoped3 cc0_scoped1 (by decide), Finset.mem_erase.mpr ⟨cell_ne d L cc0_scoped3 cc0_scoped0 (by decide), Finset.mem_erase.mpr ⟨cell_ne d L cc0_scoped3 cc0_scratch5 (by decide), cell_mem d L cc0_scoped3 (by decide)⟩⟩⟩⟩)]

omit [FloatOps F] [Infinite Name] in
/-- The five scratches are among the worker's own buffers: they are them, at some contents, and the rest. -/
theorem ownBufs_thr (d : Dev nD) (L : grid0.Coords) :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f) ∗ (∃ f, (thr d L).loc cc0_scratch4 ↦{fullShare} f)
          ∗ bigSep ((((((ownRefs (τ := τ) (.scVector ((L 0).castLE hcore0) ((L 1).castLE hsub0))).erase ((Proc.scVector ((L 0).castLE hcore0) ((L 1).castLE hsub0)).devRef cc0_scratch0)).erase ((Proc.scVector ((L 0).castLE hcore0) ((L 1).castLE hsub0)).devRef cc0_scratch1)).erase ((Proc.scVector ((L 0).castLE hcore0) ((L 1).castLE hsub0)).devRef cc0_scratch2)).erase ((Proc.scVector ((L 0).castLE hcore0) ((L 1).castLE hsub0)).devRef cc0_scratch3)).erase ((Proc.scVector ((L 0).castLE hcore0) ((L 1).castLE hsub0)).devRef cc0_scratch4))
              fun b => iprop(∃ f, ((d, b) : Loc nD τ sig) ↦{fullShare} f)) := by
  unfold SparseCore.Cfg.ownBufs
  refine (SparseCore.bigSep_erase' (SparseCore.Cfg.mem_ownRefs_of_owner (p := Proc.scVector ((L 0).castLE hcore0) ((L 1).castLE hsub0)) (b := (Proc.scVector ((L 0).castLE hcore0) ((L 1).castLE hsub0)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector ((L 0).castLE hcore0) ((L 1).castLE hsub0)) (b := (Proc.scVector ((L 0).castLE hcore0) ((L 1).castLE hsub0)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector ((L 0).castLE hcore0) ((L 1).castLE hsub0)) (b := (Proc.scVector ((L 0).castLE hcore0) ((L 1).castLE hsub0)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector ((L 0).castLE hcore0) ((L 1).castLE hsub0)) (b := (Proc.scVector ((L 0).castLE hcore0) ((L 1).castLE hsub0)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector ((L 0).castLE hcore0) ((L 1).castLE hsub0)) (b := (Proc.scVector ((L 0).castLE hcore0) ((L 1).castLE hsub0)).devRef cc0_scratch4) rfl⟩⟩⟩⟩)]

/-! ## The worker's task over its opened resources -/

set_option maxHeartbeats 4000000 in
set_option maxRecDepth 65536 in
/-- The task from the worker's pieces of the four inputs, its row of the result, its five scratches whole and its five
    semaphores at zero, beside anything else `R`: three copies in and their waits, 32 zero stores, the block's copy and its wait, the loop by its
    invariant, the store of the sum and its copy out. The inputs come back unchanged and the row holds `scRow`. -/
theorem tile_core (d : Dev nD) (L : grid0.Coords) (O : CellTallies nD τ sig (HIx 1)) (W : Waits sig (HIx 1))
    (zt : Buf (Elt F) (tcLoc d main_v0)) (l : Buf (Elt F) (tcLoc d main_arg2)) (lp : Buf (Elt F) (tcLoc d main_arg3)) (cnd : Buf (Elt F) (tcLoc d main_v1))
    (o : Buf (Elt F) (tcLoc d main_v6))
    (f0 : Buf (Elt F) ((thr d L).loc cc0_scratch0)) (f1 : Buf (Elt F) ((thr d L).loc cc0_scratch1)) (f2 : Buf (Elt F) ((thr d L).loc cc0_scratch2))
    (f3 : Buf (Elt F) ((thr d L).loc cc0_scratch3)) (f4 : Buf (Elt F) ((thr d L).loc cc0_scratch4)) (R : sProp 𝕄) :
    iprop(Transfers.MayWaits (thr d L) (none : HIx 1) O ∗ R
        ∗ ((zSl L).view.loc (thr d L) ↦[(zSl L).view.set]{fullShare} zt) ∗ ((lSl L).view.loc (thr d L) ↦[(lSl L).view.set]{fullShare} l)
        ∗ ((pSl L).view.loc (thr d L) ↦[(pSl L).view.set]{fullShare} lp) ∗ ((cSl L).view.loc (thr d L) ↦[(cSl L).view.set]{fullShare} cnd)
        ∗ ((oSl L).view.loc (thr d L) ↦[(oSl L).view.set]{fullShare} o)
        ∗ ((s0).view.loc (thr d L) ↦{fullShare} f0) ∗ ((s1).view.loc (thr d L) ↦{fullShare} f1) ∗ ((s2).view.loc (thr d L) ↦{fullShare} f2)
        ∗ ((s3).view.loc (thr d L) ↦{fullShare} f3) ∗ ((s4).view.loc (thr d L) ↦{fullShare} f4)
        ∗ semVal (cellOf d L cc0_scratch5) 0 ∗ semVal (cellOf d L cc0_scoped0) 0 ∗ semVal (cellOf d L cc0_scoped1) 0 ∗ semVal (cellOf d L cc0_scoped2) 0
        ∗ semVal (cellOf d L cc0_scoped3) 0 ∗ owes (thr d L) O W : sProp 𝕄)
      ⊢ wp frame (wpE (defs₀ (F := F)) Variants.none (thr d L) none) Set.univ
          (cc0__sc_stream L zW (Memref.isWhole_whole _) lW (Memref.isWhole_whole _) pW (Memref.isWhole_whole _) cW (Memref.isWhole_whole _) oW (Memref.isWhole_whole _)
            s0 (Memref.isWhole_whole _) s1 (Memref.isWhole_whole _) s2 (Memref.isWhole_whole _) s3 (Memref.isWhole_whole _) s4 (Memref.isWhole_whole _)
            cc0_scratch5 cc0_scratch6 cc0_scoped0 cc0_scoped1 cc0_scoped2 cc0_scoped3)
          fun _ => iprop(R ∗ ((zSl L).view.loc (thr d L) ↦[(zSl L).view.set]{fullShare} zt) ∗ ((lSl L).view.loc (thr d L) ↦[(lSl L).view.set]{fullShare} l)
            ∗ ((pSl L).view.loc (thr d L) ↦[(pSl L).view.set]{fullShare} lp) ∗ ((cSl L).view.loc (thr d L) ↦[(cSl L).view.set]{fullShare} cnd)
            ∗ ((oSl L).view.loc (thr d L) ↦[(oSl L).view.set]{fullShare} scRow (F := F) zt l lp cnd L)
            ∗ (∃ f, (s0).view.loc (thr d L) ↦{fullShare} f) ∗ (∃ f, (s1).view.loc (thr d L) ↦{fullShare} f) ∗ (∃ f, (s2).view.loc (thr d L) ↦{fullShare} f)
            ∗ (∃ f, (s3).view.loc (thr d L) ↦{fullShare} f) ∗ (∃ f, (s4).view.loc (thr d L) ↦{fullShare} f)
            ∗ semVal (cellOf d L cc0_scratch5) 0 ∗ semVal (cellOf d L cc0_scoped0) 0 ∗ semVal (cellOf d L cc0_scoped1) 0 ∗ semVal (cellOf d L cc0_scoped2) 0
            ∗ semVal (cellOf d L cc0_scoped3) 0 ∗ ∃ W', ⌜∀ p ∈ W', p ∈ W ∨ p.2 = none⌝ ∗ owes (thr d L) O W') := by
  iintro ⟨#Hmw, HR, Hz, Hl, Hp, Hc, Ho, H0, H1, H2, H3, H4, Hs5, Hq0, Hq1, Hq2, Hq3, HO⟩
  unfold cc0__sc_stream
  sl_exec_parts (disch := exact View.amount_pos _ _ (show 0 < S512.numel by decide))
  sl_for (inv d L zt l lp cnd f0 f1 f2 f3) $$ [H0 H1 H2 H3]
  case region =>
    intro k a
    unfold inv
    iintro ⟨%ha, H7, H8, H9, HB⟩
    have hpost : ∀ r : FVec F S16 .f32, (iprop(⌜r = tripOf d L (A7of d L l f0) (A8of d L lp f1) (A9of d L cnd f2) (bufB d L zt f3) k a⌝
          ∗ ((s0).view.loc (thr d L) ↦{fullShare} A7of d L l f0) ∗ ((s1).view.loc (thr d L) ↦{fullShare} A8of d L lp f1)
          ∗ ((s2).view.loc (thr d L) ↦{fullShare} A9of d L cnd f2) ∗ ((s3).view.loc (thr d L) ↦{fullShare} bufB d L zt f3)) : sProp 𝕄)
        ⊢ iprop(⌜r = accAt (F := F) zt l lp cnd L (k.val + 1)⌝
          ∗ ((s0).view.loc (thr d L) ↦{fullShare} A7of d L l f0) ∗ ((s1).view.loc (thr d L) ↦{fullShare} A8of d L lp f1)
          ∗ ((s2).view.loc (thr d L) ↦{fullShare} A9of d L cnd f2) ∗ ((s3).view.loc (thr d L) ↦{fullShare} bufB d L zt f3)) := by
      intro r
      iintro ⟨%hr, H⟩
      isplitr
      · ipureintro; rw [hr, tripOf_eq, ha, accAt_succ]
      · iexact H
    iapply ((trip_body d L k a _ _ _ _ _).trans (wp_mono frame _ _ hpost))
    isplitl [H7]; · iexact H7
    isplitl [H8]; · iexact H8
    isplitl [H9]; · iexact H9
    iexact HB
  · unfold inv
    isplitr
    · ipureintro; rfl
    isplitl [H0]; · iexact H0
    isplitl [H1]; · iexact H1
    isplitl [H2]; · iexact H2
    iexact H3
  iintro %acc HI
  unfold inv
  icases HI with ⟨%hacc, H0, H1, H2, H3⟩
  sl_exec_parts (disch := exact View.amount_pos _ _ (show 0 < S16.numel by decide))
  sl_step
  have hacc' : acc = accAt (F := F) zt l lp cnd L 32 := hacc
  isplitl [HR]; · iexact HR
  isplitl [Hz]; · iexact Hz
  isplitl [Hl]; · iexact Hl
  isplitl [Hp]; · iexact Hp
  isplitl [Hc]; · iexact Hc
  isplitl [Ho]
  · iapply (Entails.of_eq (pointsTo_congr (out_congr d L zt l lp cnd o _ acc (fun x => s4_read d L f4 (k0_pay109 acc) x) hacc')))
    iexact Ho
  isplitl [H0]; · iexists _; iexact H0
  isplitl [H1]; · iexists _; iexact H1
  isplitl [H2]; · iexists _; iexact H2
  isplitl [H3]; · iexists _; iexact H3
  isplitl [H4]; · iexists _; iexact H4
  isplitl [Hs5]; · iexact Hs5
  isplitl [Hq0]; · iexact Hq0
  isplitl [Hq1]; · iexact Hq1
  isplitl [Hq2]; · iexact Hq2
  isplitl [Hq3]; · iexact Hq3
  iexists _; isplitr
  on_goal 2 => iexact HO
  · ipureintro; intro p hp
    rcases Finset.mem_insert.mp hp with hp | hp
    · subst hp; exact .inr rfl
    rcases Finset.mem_insert.mp hp with hp | hp
    · subst hp; exact .inr rfl
    rcases Finset.mem_insert.mp hp with hp | hp
    · subst hp; exact .inr rfl
    rcases Finset.mem_insert.mp hp with hp | hp
    · subst hp; exact .inr rfl
    rcases Finset.mem_insert.mp hp with hp | hp
    · subst hp; exact .inr rfl
    exact .inl hp

end Cert.Kernel.ScBody

end
-- ==== Proof.Bits.ScBody.lean ====
import proofs.«202802_g48112223650475_cont_8to1c4_51_21_alg».proof.Proof.Bits.ScBody4
import Idealize.ShloMosaic.Lib.SparseCore.Launch
import Idealize.ShloMosaic.Lib.Tactic

noncomputable section

namespace Cert.Kernel.ScBody

open Idealize.ShloMosaic Idealize.ShloMosaic.ValueIdx Cert.Kernel Cert.Kernel.Gen
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] {Name : Type} [DecidableEq Name] [Infinite Name] {U : Type} [URA U] [CountersIn U]

local notation "𝕄" => MT nD τ sig (SparseCore.Cfg.HIx 1) (Elt F) Name U ℕ

local notation "zW" => (Memref.whole Cert.Kernel.main_v0_scv : Memref Cert.Kernel.sig Kind.scVector Space.hbm Cert.Kernel.S1000x16384 EltTy.f32)
local notation "lW" => (Memref.whole Cert.Kernel.main_arg2_scv : Memref Cert.Kernel.sig Kind.scVector Space.hbm Cert.Kernel.S16384 EltTy.i32)
local notation "pW" => (Memref.whole Cert.Kernel.main_arg3_scv : Memref Cert.Kernel.sig Kind.scVector Space.hbm Cert.Kernel.S16384 EltTy.i32)
local notation "cW" => (Memref.whole Cert.Kernel.main_v1_scv : Memref Cert.Kernel.sig Kind.scVector Space.hbm Cert.Kernel.S16384 EltTy.i32)
local notation "oW" => (Memref.whole Cert.Kernel.main_v6_scv : Memref Cert.Kernel.sig Kind.scVector Space.hbm Cert.Kernel.S32x16 EltTy.f32)
local notation "s0" => (Memref.whole Cert.Kernel.cc0_scratch0 : Memref Cert.Kernel.sig Kind.scVector Space.vmem Cert.Kernel.S512 EltTy.i32)
local notation "s1" => (Memref.whole Cert.Kernel.cc0_scratch1 : Memref Cert.Kernel.sig Kind.scVector Space.vmem Cert.Kernel.S512 EltTy.i32)
local notation "s2" => (Memref.whole Cert.Kernel.cc0_scratch2 : Memref Cert.Kernel.sig Kind.scVector Space.vmem Cert.Kernel.S512 EltTy.i32)
local notation "s3" => (Memref.whole Cert.Kernel.cc0_scratch3 : Memref Cert.Kernel.sig Kind.scVector Space.vmem Cert.Kernel.S136x512 EltTy.f32)
local notation "s4" => (Memref.whole Cert.Kernel.cc0_scratch4 : Memref Cert.Kernel.sig Kind.scVector Space.vmem Cert.Kernel.S16 EltTy.f32)

/-! ## The worker's task as the launch hands it over -/

set_option maxHeartbeats 2000000 in
set_option maxRecDepth 65536 in
/-- The task on the vector subcore of place `L` of device `d`, from the worker's pieces of the four inputs, its row of the
    result and what its scope holds: the inputs come back unchanged, the row holds `scRow`, the scope's buffers and
    semaphores come back, and the waits it made are recorded at the index `none`. -/
theorem tile_body (hF : (sc (F := F)).Facts) (d : Dev nD) (L : grid0.Coords) (O : CellTallies nD τ sig (HIx 1)) (W : Waits sig (HIx 1))
    (zt : Buf (Elt F) (tcLoc d main_v0)) (l : Buf (Elt F) (tcLoc d main_arg2)) (lp : Buf (Elt F) (tcLoc d main_arg3))
    (cnd : Buf (Elt F) (tcLoc d main_v1)) (o : Buf (Elt F) (tcLoc d main_v6)) :
    iprop(Transfers.MayWaits (thr d L) (none : HIx 1) O
        ∗ (tcLoc d main_v0 ↦[ztSet L]{fullShare} zt) ∗ (tcLoc d main_arg2 ↦[vecSet L]{fullShare} l)
        ∗ (tcLoc d main_arg3 ↦[vecSet L]{fullShare} lp) ∗ (tcLoc d main_v1 ↦[vecSet L]{fullShare} cnd)
        ∗ (tcLoc d main_v6 ↦[outSet L]{fullShare} o)
        ∗ scopedBufs (thr d L) ∗ scopedSems0 (thr d L) ∗ owes (thr d L) O W : sProp 𝕄)
      ⊢ wp frame (wpE (defs₀ (F := F)) Variants.none (thr d L) none) Set.univ
          (cc0__sc_stream L zW (Memref.isWhole_whole _) lW (Memref.isWhole_whole _) pW (Memref.isWhole_whole _) cW (Memref.isWhole_whole _) oW (Memref.isWhole_whole _)
            s0 (Memref.isWhole_whole _) s1 (Memref.isWhole_whole _) s2 (Memref.isWhole_whole _) s3 (Memref.isWhole_whole _) s4 (Memref.isWhole_whole _)
            cc0_scratch5 cc0_scratch6 cc0_scoped0 cc0_scoped1 cc0_scoped2 cc0_scoped3)
          fun _ => iprop((tcLoc d main_v0 ↦[ztSet L]{fullShare} zt) ∗ (tcLoc d main_arg2 ↦[vecSet L]{fullShare} l)
        ∗ (tcLoc d main_arg3 ↦[vecSet L]{fullShare} lp) ∗ (tcLoc d main_v1 ↦[vecSet L]{fullShare} cnd)
            ∗ (tcLoc d main_v6 ↦[outSet L]{fullShare} scRow (F := F) zt l lp cnd L)
            ∗ scopedBufs (thr d L) ∗ scopedSems0 (thr d L) ∗ ∃ W', ⌜∀ p ∈ W', p ∈ W ∨ p.2 = none⌝ ∗ owes (thr d L) O W') := by
  rw [(sc (F := F)).scopedBufs_V hF d ((L 0).castLE hcore0) ((L 1).castLE hsub0), SparseCore.Cfg.scopedSems0_V (Val := Elt F) d ((L 0).castLE hcore0) ((L 1).castLE hsub0), ownSems0_thr, ownBufs_thr]
  iintro ⟨#Hmw, Hz, Hl, Hp, Hc, Ho, ⟨⟨%f0, H0⟩, ⟨%f1, H1⟩, ⟨%f2, H2⟩, ⟨%f3, H3⟩, ⟨%f4, H4⟩, Hbufs⟩, ⟨Hs5, Hq0, Hq1, Hq2, Hq3, Hsems⟩, HO⟩
  have hpost : ∀ _u : PUnit, (iprop(iprop((bigSep ((((((ownRefs (τ := τ) (.scVector ((L 0).castLE hcore0) ((L 1).castLE hsub0))).erase ((Proc.scVector ((L 0).castLE hcore0) ((L 1).castLE hsub0)).devRef cc0_scratch0)).erase ((Proc.scVector ((L 0).castLE hcore0) ((L 1).castLE hsub0)).devRef cc0_scratch1)).erase ((Proc.scVector ((L 0).castLE hcore0) ((L 1).castLE hsub0)).devRef cc0_scratch2)).erase ((Proc.scVector ((L 0).castLE hcore0) ((L 1).castLE hsub0)).devRef cc0_scratch3)).erase ((Proc.scVector ((L 0).castLE hcore0) ((L 1).castLE hsub0)).devRef cc0_scratch4)) fun b => iprop(∃ f, ((d, b) : Loc nD τ sig) ↦{fullShare} f)) ∗ bigSep ((((((ownCells (thr d L)).erase (cellOf d L cc0_scratch5)).erase (cellOf d L cc0_scoped0)).erase (cellOf d L cc0_scoped1)).erase (cellOf d L cc0_scoped2)).erase (cellOf d L cc0_scoped3)) fun g => semVal g 0) ∗ ((zSl L).view.loc (thr d L) ↦[(zSl L).view.set]{fullShare} zt) ∗ ((lSl L).view.loc (thr d L) ↦[(lSl L).view.set]{fullShare} l)
            ∗ ((pSl L).view.loc (thr d L) ↦[(pSl L).view.set]{fullShare} lp) ∗ ((cSl L).view.loc (thr d L) ↦[(cSl L).view.set]{fullShare} cnd)
            ∗ ((oSl L).view.loc (thr d L) ↦[(oSl L).view.set]{fullShare} scRow (F := F) zt l lp cnd L)
            ∗ (∃ f, (s0).view.loc (thr d L) ↦{fullShare} f) ∗ (∃ f, (s1).view.loc (thr d L) ↦{fullShare} f) ∗ (∃ f, (s2).view.loc (thr d L) ↦{fullShare} f)
            ∗ (∃ f, (s3).view.loc (thr d L) ↦{fullShare} f) ∗ (∃ f, (s4).view.loc (thr d L) ↦{fullShare} f)
            ∗ semVal (cellOf d L cc0_scratch5) 0 ∗ semVal (cellOf d L cc0_scoped0) 0 ∗ semVal (cellOf d L cc0_scoped1) 0 ∗ semVal (cellOf d L cc0_scoped2) 0
            ∗ semVal (cellOf d L cc0_scoped3) 0 ∗ ∃ W', ⌜∀ p ∈ W', p ∈ W ∨ p.2 = none⌝ ∗ owes (thr d L) O W') : sProp 𝕄)
      ⊢ iprop((tcLoc d main_v0 ↦[ztSet L]{fullShare} zt) ∗ (tcLoc d main_arg2 ↦[vecSet L]{fullShare} l)
        ∗ (tcLoc d main_arg3 ↦[vecSet L]{fullShare} lp) ∗ (tcLoc d main_v1 ↦[vecSet L]{fullShare} cnd)
            ∗ (tcLoc d main_v6 ↦[outSet L]{fullShare} scRow (F := F) zt l lp cnd L)
            ∗ ((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f) ∗ (∃ f, (thr d L).loc cc0_scratch4 ↦{fullShare} f)
                ∗ bigSep ((((((ownRefs (τ := τ) (.scVector ((L 0).castLE hcore0) ((L 1).castLE hsub0))).erase ((Proc.scVector ((L 0).castLE hcore0) ((L 1).castLE hsub0)).devRef cc0_scratch0)).erase ((Proc.scVector ((L 0).castLE hcore0) ((L 1).castLE hsub0)).devRef cc0_scratch1)).erase ((Proc.scVector ((L 0).castLE hcore0) ((L 1).castLE hsub0)).devRef cc0_scratch2)).erase ((Proc.scVector ((L 0).castLE hcore0) ((L 1).castLE hsub0)).devRef cc0_scratch3)).erase ((Proc.scVector ((L 0).castLE hcore0) ((L 1).castLE hsub0)).devRef cc0_scratch4)) fun b => iprop(∃ f, ((d, b) : Loc nD τ sig) ↦{fullShare} f))
            ∗ (semVal (cellOf d L cc0_scratch5) 0 ∗ semVal (cellOf d L cc0_scoped0) 0 ∗ semVal (cellOf d L cc0_scoped1) 0 ∗ semVal (cellOf d L cc0_scoped2) 0 ∗ semVal (cellOf d L cc0_scoped3) 0
                ∗ bigSep ((((((ownCells (thr d L)).erase (cellOf d L cc0_scratch5)).erase (cellOf d L cc0_scoped0)).erase (cellOf d L cc0_scoped1)).erase (cellOf d L cc0_scoped2)).erase (cellOf d L cc0_scoped3)) fun g => semVal g 0)
            ∗ ∃ W', ⌜∀ p ∈ W', p ∈ W ∨ p.2 = none⌝ ∗ owes (thr d L) O W') := by
    intro _u
    iintro ⟨⟨Hbufs, Hsems⟩, Hz, Hl, Hp, Hc, Ho, H0, H1, H2, H3, H4, Hs5, Hq0, Hq1, Hq2, Hq3, HW⟩
    isplitl [Hz]; · iexact Hz
    isplitl [Hl]; · iexact Hl
    isplitl [Hp]; · iexact Hp
    isplitl [Hc]; · iexact Hc
    isplitl [Ho]; · iexact Ho
    isplitl [H0 H1 H2 H3 H4 Hbufs]
    · isplitl [H0]; · iexact H0
      isplitl [H1]; · iexact H1
      isplitl [H2]; · iexact H2
      isplitl [H3]; · iexact H3
      isplitl [H4]; · iexact H4
      iexact Hbufs
    isplitl [Hs5 Hq0 Hq1 Hq2 Hq3 Hsems]
    · isplitl [Hs5]; · iexact Hs5
      isplitl [Hq0]; · iexact Hq0
      isplitl [Hq1]; · iexact Hq1
      isplitl [Hq2]; · iexact Hq2
      isplitl [Hq3]; · iexact Hq3
      iexact Hsems
    iexact HW
  iapply ((tile_core d L O W zt l lp cnd o f0 f1 f2 f3 f4 _).trans (wp_mono frame _ _ hpost))
  isplitr; · iexact Hmw
  isplitl [Hbufs Hsems]
  · isplitl [Hbufs]; · iexact Hbufs
    iexact Hsems
  isplitl [Hz]; · iexact Hz
  isplitl [Hl]; · iexact Hl
  isplitl [Hp]; · iexact Hp
  isplitl [Hc]; · iexact Hc
  isplitl [Ho]; · iexact Ho
  isplitl [H0]; · iexact H0
  isplitl [H1]; · iexact H1
  isplitl [H2]; · iexact H2
  isplitl [H3]; · iexact H3
  isplitl [H4]; · iexact H4
  isplitl [Hs5]; · iexact Hs5
  isplitl [Hq0]; · iexact Hq0
  isplitl [Hq1]; · iexact Hq1
  isplitl [Hq2]; · iexact Hq2
  isplitl [Hq3]; · iexact Hq3
  iexact HO

end Cert.Kernel.ScBody

end
-- ==== Proof.Bits.Inst.lean ====
/-
  The whole program's run with its parts filled in, and the frame.

  The launch takes the host operations' rule and the two TensorCore regions as parts.  Here they are the ones proved
  for this program: the two stretches of host operations, the dense region entered at the arrays after the SparseCore
  call, the combine region entered at those with the dense result written.  The run then says that every device's final
  memory holds the four arguments and the result at the composed valuation; no stretch and no region writes an argument,
  so each argument is read back to its launch contents, which is the frame.  First with the tile kernel's sets and
  its specification as parameters, then at the tile kernel's own.
-/
import proofs.«202802_g48112223650475_cont_8to1c4_51_21_alg».proof.Proof.Bits.Launch
import proofs.«202802_g48112223650475_cont_8to1c4_51_21_alg».proof.Proof.Bits.Host
import proofs.«202802_g48112223650475_cont_8to1c4_51_21_alg».proof.Proof.Bits.Combine
import proofs.«202802_g48112223650475_cont_8to1c4_51_21_alg».proof.Proof.Bits.Dense4
import proofs.«202802_g48112223650475_cont_8to1c4_51_21_alg».proof.Proof.Bits.ScBody

noncomputable section

namespace Cert.Kernel.Inst

open Cert.Kernel Cert.Kernel.Gen Cert.Kernel.LaunchA Cert.Kernel.LaunchB Cert.Kernel.Launch

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ UU ℕ

section Parametric

variable (TS : TileSets F) (hspec : TileSpec (F := F) TS)
variable (m : (ℓ : Loc nD τ sig) → Buf (Elt F) ℓ) (ρ : Dev nD → PrngReg)

/-! ## The two regions' results -/

/-- The dense region's one-by-one result, at the arrays after the SparseCore call. -/
abbrev v7 : (d : Dev nD) → Buf (Elt F) ((d.tc : Thread nD τ).loc main_v7) :=
  fun d => Dense.resD d (Vin0 TS m Host.hostOpsA d)

/-- The combine region's one-by-one result, at those arrays with the dense result written. -/
abbrev v8 : (d : Dev nD) → Buf (Elt F) ((d.tc : Thread nD τ).loc main_v8) :=
  fun d => Combine.v8 (Vin1 TS m Host.hostOpsA (v7 TS m)) d

/-- Each region's proof data, at the arrays it is entered at. -/
abbrev dDense (c : Dev nD) : Pipeline.Dat τ (Elt F) (HIx 1) ℕ UU ℕ (Pipeline.pin (pcfgs (F := F)) Launch.adm 0) c :=
  Dense.dat1 (Bd (F := F) c) c (Vin0 TS m Host.hostOpsA c)
abbrev dComb (c : Dev nD) : Pipeline.Dat τ (Elt F) (HIx 1) ℕ UU ℕ (Pipeline.pin (pcfgs (F := F)) Launch.adm 1) c :=
  Combine.dat2 (Vin1 TS m Host.hostOpsA (v7 TS m)) (Bd (F := F)) c

/-! ## The parts -/

/-- The launch's parts: the host operations' stretches and rule, the dense region, the combine region. -/
def partsOf : Launch.Parts TS m Host.hostOpsA Host.hostOpsB (v7 TS m) (v8 TS m) where
  main_eq := Host.main_eq
  hostA := fun d W {_} k Q => Host.wp_hostA 𝒱 none Set.univ d W k Q
  hostB := fun d W {_} k Q => Host.wp_hostB 𝒱 none Set.univ d W k Q
  pd0 := Dense.pdats (dComb TS m) (Vin0 TS m Host.hostOpsA) (Bd (F := F))
  R0 := Dense.regDense (dComb TS m) (Vin0 TS m Host.hostOpsA) (Bd (F := F)) Bd_none (K (F := F)).L (K (F := F)).lev
  pre0 _ := .rfl
  post0 _ := .rfl
  pd1 := Combine.pdats (Vin1 TS m Host.hostOpsA (v7 TS m)) (Bd (F := F)) (dDense TS m)
  R1 := Combine.regCombine (Vin1 TS m Host.hostOpsA (v7 TS m)) none (Bd (F := F)) Bd_none (K (F := F)).L (K (F := F)).lev (dDense TS m)
  pre1 _ := .rfl
  post1 _ := .rfl

/-! ## The run -/

include hspec in
/-- Every weakly fair execution of the program ends, and every final memory holds the four arguments and the result at
    the composed valuation. -/
theorem runOf :
    θ_run (Cert.Kernel.defs (F := F)) (Cert.Kernel.threads (F := F)) ⟨m, fun _ => 0, ρ⟩
      (Launch.QC TS m Host.hostOpsA Host.hostOpsB (v7 TS m) (v8 TS m)) :=
  Launch.run_main TS m ρ Host.hostOpsA Host.hostOpsB (v7 TS m) (v8 TS m) (partsOf TS m) hspec

/-! ## Reading the composed valuation -/

omit [∀ e, Nonempty (Elt F e)] in
/-- A reference that no stretch, no region and not the SparseCore call writes holds, at the end, its launch contents. -/
theorem W4_of_not_written {r : Ref sig .tc} (h9 : r ≠ main_v9) (h8 : r ≠ main_v8) (h7 : r ≠ main_v7) (h6 : r ≠ main_v6)
    (hA : r ∉ Host.writesA) (c : Dev nD)
    (x7 : (d : Dev nD) → Buf (Elt F) ((d.tc : Thread nD τ).loc main_v7)) (x8 : (d : Dev nD) → Buf (Elt F) ((d.tc : Thread nD τ).loc main_v8)) :
    W4 TS m Host.hostOpsA Host.hostOpsB x7 x8 c (dr r) = m ((c.tc : Thread nD τ).loc r) := by
  unfold W4 W3
  rw [Host.afterB_of_ne _ h9, Function.update_of_ne (fun e => h8 (dr_inj e)), Function.update_of_ne (fun e => h7 (dr_inj e)),
    W2_ne TS m Host.hostOpsA c (fun e => h6 (dr_inj e))]
  unfold W1
  rw [Host.afterA_of_not_mem _ hA]
  rfl

omit [∀ e, Nonempty (Elt F e)] in
/-- The scalar result at the end is the one entry of the combine region's result. -/
theorem W4_v9 (c : Dev nD)
    (x7 : (d : Dev nD) → Buf (Elt F) ((d.tc : Thread nD τ).loc main_v7)) (x8 : (d : Dev nD) → Buf (Elt F) ((d.tc : Thread nD τ).loc main_v8)) :
    W4 TS m Host.hostOpsA Host.hostOpsB x7 x8 c (dr main_v9) ix0 = x8 c (ix2 (0 : Fin 1) (0 : Fin 1)) := by
  unfold W4
  rw [Host.afterB_v9_apply]
  unfold W3
  rw [Function.update_self]

/-! ## The frame, and the run with the arguments read back -/

include hspec in
/-- The program runs to its end and its four argument arrays end unchanged. -/
theorem frameOf :
    θ_run (Cert.Kernel.defs (F := F)) (Cert.Kernel.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run _ _ _).mono (fun r hr c => by
    obtain ⟨h0, h1, h2, h3, -⟩ := hr c
    exact ⟨h0.trans (W4_of_not_written TS m (by decide) (by decide) (by decide) (by decide) (by decide) c _ _),
      h1.trans (W4_of_not_written TS m (by decide) (by decide) (by decide) (by decide) (by decide) c _ _),
      h2.trans (W4_of_not_written TS m (by decide) (by decide) (by decide) (by decide) (by decide) c _ _),
      h3.trans (W4_of_not_written TS m (by decide) (by decide) (by decide) (by decide) (by decide) c _ _)⟩)
    (runOf TS hspec m ρ)

include hspec in
/-- The same run, the result named first and the arguments read back: the scalar result is at the composed valuation
    and the four argument arrays end unchanged. -/
theorem valueOf :
    θ_run (Cert.Kernel.defs (F := F)) (Cert.Kernel.threads (F := F)) ⟨m, fun _ => 0, ρ⟩ (fun r => ∀ c : Dev nD,
      r.2.mem ((c.tc : Thread nD τ).loc main_v9) = W4 TS m Host.hostOpsA Host.hostOpsB (v7 TS m) (v8 TS m) c (dr main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run _ _ _).mono (fun r hr c => by
    obtain ⟨h0, h1, h2, h3, h9⟩ := hr c
    exact ⟨h9,
      h0.trans (W4_of_not_written TS m (by decide) (by decide) (by decide) (by decide) (by decide) c _ _),
      h1.trans (W4_of_not_written TS m (by decide) (by decide) (by decide) (by decide) (by decide) c _ _),
      h2.trans (W4_of_not_written TS m (by decide) (by decide) (by decide) (by decide) (by decide) c _ _),
      h3.trans (W4_of_not_written TS m (by decide) (by decide) (by decide) (by decide) (by decide) c _ _)⟩)
    (runOf TS hspec m ρ)

end Parametric

/-! ## At the tile kernel's own sets and specification -/

/-- The tile kernel's element sets and its row as a pure term of the four inputs. -/
def TS : TileSets F where
  ztSet := ScBody.ztSet
  vecSet := ScBody.vecSet
  outSet := ScBody.outSet
  scRow := ScBody.scRow
  mem_ztSet := fun L ix => ScBody.mem_ztSet
  mem_vecSet := fun L ix => ScBody.mem_vecSet
  mem_outSet := fun L ix => ScBody.mem_outSet

omit [∀ e, Nonempty (Elt F e)] in
/-- The tile kernel meets its specification: its body's triple, the five pieces of the arrays grouped as the launch
    hands them over. -/
theorem hspec : TileSpec (F := F) (TS (F := F)) := fun d L O W zt l lp cnd o => by
  unfold tileTd tileGo
  refine (?_ : _ ⊢ _).trans ((ScBody.tile_body (F := F) (Name := ℕ) (U := UU) LaunchA.facts d L O W zt l lp cnd o).trans
    (wp_mono frame _ _ fun _ => ?_))
  · iintro ⟨Hmw, ⟨Hz, Hl, Hp, Hc, Ho⟩, Hb, Hs, HO⟩
    isplitl [Hmw]; · iexact Hmw
    isplitl [Hz]; · iexact Hz
    isplitl [Hl]; · iexact Hl
    isplitl [Hp]; · iexact Hp
    isplitl [Hc]; · iexact Hc
    isplitl [Ho]; · iexact Ho
    isplitl [Hb]; · iexact Hb
    isplitl [Hs]; · iexact Hs
    iexact HO
  · iintro ⟨Hz, Hl, Hp, Hc, Ho, Hb, Hs, HO⟩
    isplitl [Hz Hl Hp Hc Ho]
    · isplitl [Hz]; · iexact Hz
      isplitl [Hl]; · iexact Hl
      isplitl [Hp]; · iexact Hp
      isplitl [Hc]; · iexact Hc
      iexact Ho
    isplitl [Hb]; · iexact Hb
    isplitl [Hs]; · iexact Hs
    iexact HO

variable (m : (ℓ : Loc nD τ sig) → Buf (Elt F) ℓ) (ρ : Dev nD → PrngReg)

/-- The launch's parts at the tile kernel's sets. -/
def parts : Launch.Parts (TS (F := F)) m Host.hostOpsA Host.hostOpsB (v7 TS m) (v8 TS m) := partsOf TS m

/-- The whole program's run: every weakly fair execution ends, and every final memory holds the four arguments and the
    result at the composed valuation. -/
theorem run :
    θ_run (Cert.Kernel.defs (F := F)) (Cert.Kernel.threads (F := F)) ⟨m, fun _ => 0, ρ⟩
      (Launch.QC (TS (F := F)) m Host.hostOpsA Host.hostOpsB
        (fun d => Dense.resD d (Launch.Vin0 TS m Host.hostOpsA d))
        (fun d => Combine.v8 (Launch.Vin1 TS m Host.hostOpsA (fun d => Dense.resD d (Launch.Vin0 TS m Host.hostOpsA d))) d)) :=
  runOf TS hspec m ρ

/-- The frame: the program runs to its end and its four argument arrays end unchanged. -/
theorem frame_run :
    θ_run (Cert.Kernel.defs (F := F)) (Cert.Kernel.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frameOf TS hspec m ρ

/-- The run with the result named first and the arguments read back. -/
theorem value_run :
    θ_run (Cert.Kernel.defs (F := F)) (Cert.Kernel.threads (F := F)) ⟨m, fun _ => 0, ρ⟩ (fun r => ∀ c : Dev nD,
      r.2.mem ((c.tc : Thread nD τ).loc main_v9) = W4 TS m Host.hostOpsA Host.hostOpsB (v7 TS m) (v8 TS m) c (dr main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  valueOf TS hspec m ρ

end Cert.Kernel.Inst

end
-- ==== Proof.Spec.lean ====
/-
  The mathematics of this kernel, free of any program.

  The input is a matrix `z` of 16384 rows (samples) by 1000 columns (classes), a one-bit mask `cnd` over the rows and
  two label vectors `l`, `lp` (32-bit words) over the rows.  The quantity computed is

      sum over rows r with cnd r = 1 of  z r (l r) - z r (lp r).

  The kernel splits the classes at 64.  A row's entry at a label `k` restricted to the classes `lo ≤ k < hi` is `pick`;
  a row's masked difference restricted to those classes is `term`.  One part of the kernel produces, for each of 32
  workers `w` and 16 lanes `t`, the sum over 32 groups `g` of the rows `512 w + 16 g + t` restricted to the classes
  below 64 (`scOut`); the other part produces the sum over all rows, read as 4 blocks `i` of 4096 lanes `j`
  (row `4096 i + j`), restricted to the classes from 64 on (`denseOut`).  Their sum is `total`; the reference value is `spec`.
-/
import Idealize.ShloMosaic.PureOps.Ideal
import Idealize.ShloMosaic.Lib.ValueIdx

noncomputable section

open scoped BigOperators

namespace Cert.Spec

open Idealize.ShloMosaic Idealize.ShloMosaic.ValueIdx

abbrev SZ : Shape := ⟨2, ![16384, 1000]⟩
abbrev SB : Shape := ⟨1, ![16384]⟩

theorem rowSc_lt (w : Fin 32) (g : Fin 32) (t : Fin 16) : 512 * w.val + 16 * g.val + t.val < 16384 := by omega
theorem rowTc_lt (i : Fin 4) (j : Fin 4096) : 4096 * i.val + j.val < 16384 := by omega

/-- The row that worker `w` reads in group `g` at lane `t`. -/
def rowSc (w : Fin 32) (g : Fin 32) (t : Fin 16) : Fin 16384 := ⟨512 * w.val + 16 * g.val + t.val, rowSc_lt w g t⟩
/-- The row at lane `j` of block `i`. -/
def rowTc (i : Fin 4) (j : Fin 4096) : Fin 16384 := ⟨4096 * i.val + j.val, rowTc_lt i j⟩

/-- Row `r`'s entry at the class the word `k` names, if that class lies in `[lo, hi)`; zero otherwise. -/
def pick (z : SZ.Idx → EReal) (r : Fin 16384) (k : BitVec 32) (lo hi : Nat) : EReal :=
  if h : k.toNat < 1000 then (if lo ≤ k.toNat ∧ k.toNat < hi then z (ix2 r ⟨k.toNat, h⟩) else 0) else 0

/-- Row `r`'s masked difference of the entries at its two labels, restricted to the classes in `[lo, hi)`. -/
def term (z : SZ.Idx → EReal) (cnd : SB.Idx → BitVec 1) (l lp : SB.Idx → BitVec 32) (lo hi : Nat) (r : Fin 16384) : EReal :=
  if cnd (ix1 r) = 1#1 then pick z r (l (ix1 r)) lo hi - pick z r (lp (ix1 r)) lo hi else 0

/-- Worker `w`, lane `t`: its 32 rows, classes below 64. -/
def scOut (z : SZ.Idx → EReal) (cnd : SB.Idx → BitVec 1) (l lp : SB.Idx → BitVec 32) (w : Fin 32) (t : Fin 16) : EReal :=
  ∑ g : Fin 32, term z cnd l lp 0 64 (rowSc w g t)

/-- All rows, classes from 64 on, summed lane by lane over the four blocks and then over the lanes. -/
def denseOut (z : SZ.Idx → EReal) (cnd : SB.Idx → BitVec 1) (l lp : SB.Idx → BitVec 32) : EReal :=
  ∑ j : Fin 4096, ∑ i : Fin 4, term z cnd l lp 64 1000 (rowTc i j)

/-- The two parts together. -/
def total (z : SZ.Idx → EReal) (cnd : SB.Idx → BitVec 1) (l lp : SB.Idx → BitVec 32) : EReal :=
  (∑ w : Fin 32, ∑ t : Fin 16, scOut z cnd l lp w t) + denseOut z cnd l lp

/-- The reference value. -/
def spec (z : SZ.Idx → EReal) (cnd : SB.Idx → BitVec 1) (l lp : SB.Idx → BitVec 32) : EReal :=
  ∑ r : Fin 16384, term z cnd l lp 0 1000 r

end Cert.Spec

end
-- ==== Proof.LibPairGather.lean ====
/-
  A gather of single entries of a matrix by pairs of coordinates, read at an index.

  What `x[rows, cols]` of a matrix `x : [N, C]` at two integer vectors of length `E` lowers to: a gather with no
  offset axes, both operand axes collapsed, the start index map `[0, 1]`, the index vector on axis 1 of start indices
  shaped `[E, 2]`, and slices of one entry.  Result element `e` is `x` at the pair `(idx[e, 0], idx[e, 1])`, each
  component read as a signed integer and clamped into its axis.
-/
import Idealize.ShloMosaic.Lib.ValueIdx
import Idealize.ShloMosaic.Lib.Pipeline.Value

noncomputable section

namespace Cert.LibPairGather

open Idealize.ShloMosaic Idealize.ShloMosaic.ValueIdx

variable {α : Type}

/-- Those dimension numbers for an operand `[N, C]`, start indices `[E, 2]` and a result `[E]`. -/
abbrev pairDims (N C E : Nat) (wf : GatherDims.WF ⟨2, ![N, C]⟩ ⟨2, ![E, 2]⟩ ⟨1, ![E]⟩ [] [0, 1] [] [0, 1] [] 1 ![1, 1]) :
    GatherDims ⟨2, ![N, C]⟩ ⟨2, ![E, 2]⟩ ⟨1, ![E]⟩ where
  offsetDims := []
  collapsedSliceDims := [0, 1]
  operandBatchingDims := []
  startIndicesBatchingDims := []
  startIndexMap := [0, 1]
  indexVectorDim := 1
  sliceSizes := ![1, 1]
  wf := wf

/-- The start-indices index `[e, k]` of result index `e` and component `k`. -/
abbrev pairIdx {E : Nat} (y : (⟨1, ![E]⟩ : Shape).Idx) (k : Fin 2) : (⟨2, ![E, 2]⟩ : Shape).Idx :=
  fun a => match a with
    | ⟨0, _⟩ => ⟨(y 0).val, (y 0).isLt⟩
    | ⟨1, _⟩ => ⟨k.val, k.isLt⟩

/-- The gather read at `e`: the operand at the pair of start-index components, each read signed and clamped. -/
theorem gather_pair_apply {N C E w : Nat} (hN : 0 < N) (hC : 0 < C)
    (wf : GatherDims.WF ⟨2, ![N, C]⟩ ⟨2, ![E, 2]⟩ ⟨1, ![E]⟩ [] [0, 1] [] [0, 1] [] 1 ![1, 1])
    (x : (⟨2, ![N, C]⟩ : Shape).Idx → α) (idx : IVec ⟨2, ![E, 2]⟩ w) (y : (⟨1, ![E]⟩ : Shape).Idx) :
    Host.gather (pairDims N C E wf) x idx y
      = x (ix2 ⟨min (idx (pairIdx y 0)).toInt.toNat (N - 1), by omega⟩ ⟨min (idx (pairIdx y 1)).toInt.toNat (C - 1), by omega⟩) := by
  unfold Host.gather
  congr 1
  funext a
  refine Fin.ext ?_
  show (pairDims N C E wf).start y idx a + (pairDims N C E wf).batchCoord y a + (pairDims N C E wf).offCoord y a = _
  have hmem : a ∈ (pairDims N C E wf).collapsedSliceDims := by
    match a with
    | ⟨0, _⟩ => exact List.mem_cons_self
    | ⟨1, _⟩ => exact List.mem_cons_of_mem _ (List.mem_singleton.mpr rfl)
  rw [GatherDims.batchCoord_eq_zero _ _ _ List.not_mem_nil,
    GatherDims.offCoord_eq_zero _ _ _ (fun h => ((GatherDims.mem_sKept _ _).mp h).1 hmem)]
  simp only [Nat.add_zero]
  unfold GatherDims.start
  match a, hmem with
  | ⟨0, h0⟩, _ =>
    have hsi : ∀ h, (pairDims N C E wf).siIdx y ⟨List.idxOf (⟨0, h0⟩ : Fin _) (pairDims N C E wf).startIndexMap, h⟩ = pairIdx y 0 := by
      intro h; funext b; refine Fin.ext ?_
      match b with
      | ⟨0, _⟩ => rfl
      | ⟨1, _⟩ => rfl
    rw [dif_pos (show (⟨0, h0⟩ : Fin _) ∈ (pairDims N C E wf).startIndexMap from List.mem_cons_self), hsi]
    rfl
  | ⟨1, h1⟩, _ =>
    have hsi : ∀ h, (pairDims N C E wf).siIdx y ⟨List.idxOf (⟨1, h1⟩ : Fin _) (pairDims N C E wf).startIndexMap, h⟩ = pairIdx y 1 := by
      intro h; funext b; refine Fin.ext ?_
      match b with
      | ⟨0, _⟩ => rfl
      | ⟨1, _⟩ => rfl
    rw [dif_pos (show (⟨1, h1⟩ : Fin _) ∈ (pairDims N C E wf).startIndexMap from List.mem_cons_of_mem _ (List.mem_singleton.mpr rfl)), hsi]
    rfl

end Cert.LibPairGather

end
-- ==== Proof.RefValue.lean ====
/-
  The reference's value: its result is the sum over the rows selected by the mask of the entry at the first label minus the
  entry at the second label.

  The reference gathers single entries of the matrix at pairs (row, label).  The row component is the row's own number
  (an iota, with the usual "negative index wraps" select that never fires on a nonnegative number); the label component
  is the label, which the same select leaves alone when it is nonnegative.  With the labels between 0 and 999 the
  gather's clamping does nothing, so entry `r` of the gathered vector is the matrix at `(r, label r)`.
-/
import proofs.«202802_g48112223650475_cont_8to1c4_51_21_alg».proof.Proof.Gen.ReferenceIdeal.Run
import proofs.«202802_g48112223650475_cont_8to1c4_51_21_alg».proof.Proof.Gen.ReferenceIdeal.Read
import proofs.«202802_g48112223650475_cont_8to1c4_51_21_alg».proof.Proof.Spec
import proofs.«202802_g48112223650475_cont_8to1c4_51_21_alg».proof.Proof.LibPairGather
import Idealize.ShloMosaic.Lib.ValueIdx
import Idealize.ShloMosaic.Lib.Pipeline.Value
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Gen Cert.ReferenceIdeal.Read
open Cert.LibPairGather

/-! ## Words -/

/-- A word whose signed value lies between 0 and 999 is its unsigned value, at most 999. -/
theorem toNat_of_range {x : BitVec 32} (h : 0 ≤ x.toInt ∧ x.toInt ≤ 999) : x.toInt.toNat = x.toNat ∧ x.toNat ≤ 999 := by
  have hx : x.toNat < 2 ^ 32 := x.isLt
  by_cases hlt : 2 * x.toNat < 2 ^ 32
  · have e := BitVec.toInt_eq_toNat_of_lt hlt
    omega
  · have e : x.toInt = (x.toNat : Int) - ((2 ^ 32 : Nat) : Int) := by rw [BitVec.toInt_eq_toNat_cond, if_neg hlt]
    omega

/-- "Signed less than zero" is false of a word whose signed value is nonnegative. -/
theorem cmpi_slt_zero {x : BitVec 32} (h : 0 ≤ x.toInt) : IntOp.cmpi .slt x 0#32 = 0#1 := by
  show BitVec.ofBool (x.slt 0#32) = 0#1
  rw [BitVec.slt_eq_decide, BitVec.toInt_zero, decide_eq_false (by omega)]
  rfl

/-- A row number below 16384, as a 32-bit word, has that number as its signed value. -/
theorem toInt_row (r : Nat) (hr : r < 16384) : (BitVec.ofNat 32 r).toInt = r := by
  have e : (BitVec.ofNat 32 r).toNat = r := by rw [BitVec.toNat_ofNat]; exact Nat.mod_eq_of_lt (by omega)
  rw [BitVec.toInt_eq_toNat_of_lt (by rw [e]; omega), e]

/-! ## Sums over a vector's indices -/

/-- An index of a vector is its one coordinate. -/
def idxEquiv1 {n : Nat} : (⟨1, ![n]⟩ : Shape).Idx ≃ Fin n where
  toFun j := ⟨(j 0).val, (j 0).isLt⟩
  invFun r := ix1 r
  left_inv j := by funext d; match d with | ⟨0, _⟩ => rfl
  right_inv r := rfl

theorem sum_idx1 {M : Type*} [AddCommMonoid M] {n : Nat} (f : (⟨1, ![n]⟩ : Shape).Idx → M) :
    ∑ j, f j = ∑ r : Fin n, f (ix1 r) := by
  rw [← Equiv.sum_comp (idxEquiv1 (n := n)).symm f]
  rfl

/-! ## The index pairs -/

/-- The row component of the pair at `y` is `y`'s own number. -/
theorem pair_row (x2 : (⟨S16384, .i32⟩ : BufTy).Contents (Elt Ideal)) (y : S16384.Idx) :
    val_main_v13 (F := Ideal) x2 (pairIdx y 0) = BitVec.ofNat 32 (y 0).val := by
  unfold val_main_v13
  refine (concatenate_pair_apply_left (t := S16384x2) (s₁ := S16384x1) (s₂ := S16384x1) _ _ _ _ (pairIdx y 0) rfl (ix2 (⟨(y 0).val, (y 0).isLt⟩ : Fin 16384) (0 : Fin 1)) ?_).trans ?_
  · intro b
    match b with
    | ⟨0, _⟩ => rfl
    | ⟨1, _⟩ => rfl
  · rw [val_main_v11_apply, val_main_v5_apply, val_main_v2_apply, val_main_v1_apply, val_main_c_apply, val_main_v0_apply]
    rw [cmpi_slt_zero (by rw [toInt_row _ (y 0).isLt]; omega)]
    exact select_zero _ _

/-- The label component of the pair at `y` is the label, when it is nonnegative. -/
theorem pair_label (x2 : (⟨S16384, .i32⟩ : BufTy).Contents (Elt Ideal)) (y : S16384.Idx) (h : 0 ≤ (x2 y).toInt) :
    val_main_v13 (F := Ideal) x2 (pairIdx y 1) = x2 y := by
  unfold val_main_v13
  refine (concatenate_pair_apply_right (t := S16384x2) (s₁ := S16384x1) (s₂ := S16384x1) _ _ _ _ (pairIdx y 1) rfl rfl (ix2 (⟨(y 0).val, (y 0).isLt⟩ : Fin 16384) (0 : Fin 1)) ?_ ?_).trans ?_
  · intro b hb
    match b with
    | ⟨0, _⟩ => rfl
    | ⟨1, _⟩ => exact absurd rfl hb
  · rfl
  · rw [val_main_v12_apply, val_main_v10_apply, val_main_v7_apply, val_main_v6_apply, val_main_c_1_apply]
    have e : idx_main_v12 (ix2 (⟨(y 0).val, (y 0).isLt⟩ : Fin 16384) (0 : Fin 1)) = y := by
      funext d; match d with | ⟨0, _⟩ => rfl
    rw [e, cmpi_slt_zero h]
    exact select_zero _ _

/-! ## The gathered entries -/

/-- The program's gather record is the pair gather's. -/
theorem dims_eq : gather_S16384x1000_S16384x2_S16384_n_01_n_n_01_1_11
    = pairDims 16384 1000 16384 Facts₀.gather_S16384x1000_S16384x2_S16384_n_01_n_n_01_1_11_wf := rfl

/-- The second gather's index pairs are built exactly as the first's. -/
theorem pairs_eq (x : (⟨S16384, .i32⟩ : BufTy).Contents (Elt Ideal)) : val_main_v27 (F := Ideal) x = val_main_v13 (F := Ideal) x := rfl

/-- Entry `r` of the gathered vector is the matrix at row `r` and the column the label names. -/
theorem gathered (z : (⟨S16384x1000, .f32⟩ : BufTy).Contents (Elt Ideal)) (x : (⟨S16384, .i32⟩ : BufTy).Contents (Elt Ideal))
    (hx : ∀ i, 0 ≤ (x i).toInt ∧ (x i).toInt ≤ 999) (r : Fin 16384) :
    Host.gather gather_S16384x1000_S16384x2_S16384_n_01_n_n_01_1_11 z (val_main_v13 (F := Ideal) x) (ix1 r)
      = z (ix2 r ⟨(x (ix1 r)).toNat, by have := (toNat_of_range (hx (ix1 r))).2; omega⟩) := by
  rw [dims_eq, gather_pair_apply (by decide) (by decide)]
  congr 1
  funext a; refine Fin.ext ?_
  match a with
  | ⟨0, _⟩ =>
    show min (val_main_v13 (F := Ideal) x (pairIdx (ix1 r) 0)).toInt.toNat (16384 - 1) = r.val
    rw [pair_row]
    show min (BitVec.ofNat 32 r.val).toInt.toNat (16384 - 1) = r.val
    rw [toInt_row _ r.isLt, Int.toNat_natCast]
    have := r.isLt; omega
  | ⟨1, _⟩ =>
    show min (val_main_v13 (F := Ideal) x (pairIdx (ix1 r) 1)).toInt.toNat (1000 - 1) = (x (ix1 r)).toNat
    rw [pair_label _ _ (hx _).1]
    have := toNat_of_range (hx (ix1 r)); omega

/-- Row `r` of the masked difference is the row's term over all classes. -/
theorem entry (z : (⟨S16384x1000, .f32⟩ : BufTy).Contents (Elt Ideal)) (cnd : (⟨S16384, .i1⟩ : BufTy).Contents (Elt Ideal))
    (l lp : (⟨S16384, .i32⟩ : BufTy).Contents (Elt Ideal))
    (hl : ∀ i, 0 ≤ (l i).toInt ∧ (l i).toInt ≤ 999) (hlp : ∀ i, 0 ≤ (lp i).toInt ∧ (lp i).toInt ≤ 999) (r : Fin 16384) :
    @Eq EReal (val_main_v31 (F := Ideal) z cnd l lp (ix1 r)) (Cert.Spec.term z cnd l lp 0 1000 r) := by
  rw [val_main_v31_apply, val_main_v29_apply, val_main_v30_apply, val_main_cst_apply]
  unfold val_main_v14 val_main_v28
  rw [pairs_eq, gathered z l hl r, gathered z lp hlp r]
  unfold Cert.Spec.term Cert.Spec.pick
  have h1 := (toNat_of_range (hl (ix1 r))).2
  have h2 := (toNat_of_range (hlp (ix1 r))).2
  rw [dif_pos (show (l (ix1 r)).toNat < 1000 by omega),
    if_pos (show 0 ≤ (l (ix1 r)).toNat ∧ (l (ix1 r)).toNat < 1000 from ⟨Nat.zero_le _, by omega⟩),
    dif_pos (show (lp (ix1 r)).toNat < 1000 by omega),
    if_pos (show 0 ≤ (lp (ix1 r)).toNat ∧ (lp (ix1 r)).toNat < 1000 from ⟨Nat.zero_le _, by omega⟩)]
  show (if cnd (ix1 r) = 1 then _ else (Ideal.ofBits .f32 0x00000000#32 : EReal)) = _
  rw [Ideal.ofBits_zero_f32]
  rfl

/-- The reference's result is the reference value. -/
theorem ref_value (z : (⟨S16384x1000, .f32⟩ : BufTy).Contents (Elt Ideal)) (cnd : (⟨S16384, .i1⟩ : BufTy).Contents (Elt Ideal))
    (l lp : (⟨S16384, .i32⟩ : BufTy).Contents (Elt Ideal))
    (hl : ∀ i, 0 ≤ (l i).toInt ∧ (l i).toInt ≤ 999) (hlp : ∀ i, 0 ≤ (lp i).toInt ∧ (lp i).toInt ≤ 999) :
    @Eq EReal (val_main_v32 (F := Ideal) z cnd l lp ix0) (Cert.Spec.spec z cnd l lp) := by
  rw [val_main_v32_apply, val_main_cst_7_apply, sum_idx1]
  unfold Cert.Spec.spec
  rw [show (FloatOps.ofBits (F := Ideal) .f32 0x00000000#32 : EReal) = 0 from Ideal.ofBits_zero_f32, zero_add]
  exact Finset.sum_congr rfl (fun r _ => entry z cnd l lp hl hlp r)

end Cert.ReferenceIdeal.RefValue

end
-- ==== Proof.LibFinite.lean ====
/-
  Finite extended reals.

  An extended real is FINITE (here `IsReal`) when it is the image of a real number, equivalently when it is
  neither `⊤` nor `⊥`. The arithmetic of the extended reals is the arithmetic of the reals on the finite
  ones: sums, differences, products, finite sums, maxima and minima of finite values are finite, and so are a
  quotient by a finite divisor that is not zero, the exponential, and a power `r ^ (-1/2)` of a real `r ≥ 1`
  (which is moreover positive). Distributivity of the product over the sum FAILS on the extended reals at the
  infinities, so an algebraic law between two arrangements of a sum of products is proved on the reals and
  carried over; a part of this file is the toolkit for that: the coercion commutes with finite
  sums, and a family of finite extended reals is the coercion of a family of reals. The last part reads three
  stages of a network layer on finite values: min-max normalisation, the leaky activation, a column maximum or
  minimum.
-/
import Idealize.ShloMosaic.PureOps.Ideal
import Idealize.ShloMosaic.PureOps.Ideal.Laws
import Idealize.ShloMosaic.Lib.ValueIdx

noncomputable section

open scoped BigOperators

namespace Cert.Finite

open Idealize.ShloMosaic

/-! ## Finite extended reals -/

/-- `x` is (the coercion of) a real number. -/
def IsReal (x : EReal) : Prop := ∃ r : ℝ, x = (r : EReal)

/-- The coercion of a real is finite. -/
theorem isReal_coe (r : ℝ) : IsReal (r : EReal) := ⟨r, rfl⟩

/-- Finite means: neither infinity. -/
theorem isReal_iff_ne {x : EReal} : IsReal x ↔ x ≠ ⊤ ∧ x ≠ ⊥ := by
  constructor
  · rintro ⟨r, rfl⟩
    exact ⟨EReal.coe_ne_top r, EReal.coe_ne_bot r⟩
  · rintro ⟨ht, hb⟩
    exact ⟨x.toReal, (EReal.coe_toReal ht hb).symm⟩

/-- An extended real that is neither infinity is finite. -/
theorem isReal_of_ne {x : EReal} (ht : x ≠ ⊤) (hb : x ≠ ⊥) : IsReal x := isReal_iff_ne.mpr ⟨ht, hb⟩

/-- A finite value is not `⊤`. -/
theorem IsReal.ne_top {x : EReal} (h : IsReal x) : x ≠ ⊤ := (isReal_iff_ne.mp h).1

/-- A finite value is not `⊥`. -/
theorem IsReal.ne_bot {x : EReal} (h : IsReal x) : x ≠ ⊥ := (isReal_iff_ne.mp h).2

/-- A finite extended real is the coercion of its real part. -/
theorem IsReal.coe_toReal {x : EReal} (h : IsReal x) : ((x.toReal : ℝ) : EReal) = x :=
  EReal.coe_toReal h.ne_top h.ne_bot

/-- A finite value is above `⊥`. -/
theorem IsReal.bot_lt {x : EReal} (h : IsReal x) : ⊥ < x := bot_lt_iff_ne_bot.mpr h.ne_bot

/-- A finite value is below `⊤`. -/
theorem IsReal.lt_top {x : EReal} (h : IsReal x) : x < ⊤ := lt_top_iff_ne_top.mpr h.ne_top

/-- `⊤` is not finite. -/
theorem not_isReal_top : ¬ IsReal ⊤ := fun h => h.ne_top rfl

/-- `⊥` is not finite. -/
theorem not_isReal_bot : ¬ IsReal ⊥ := fun h => h.ne_bot rfl

/-! ## Closure under the arithmetic -/

/-- Zero is finite. -/
theorem isReal_zero : IsReal 0 := ⟨0, EReal.coe_zero.symm⟩

/-- One is finite. -/
theorem isReal_one : IsReal 1 := ⟨1, EReal.coe_one.symm⟩

/-- The sum of two finite values is finite. -/
theorem IsReal.add {a b : EReal} (ha : IsReal a) (hb : IsReal b) : IsReal (a + b) := by
  obtain ⟨r, rfl⟩ := ha
  obtain ⟨s, rfl⟩ := hb
  exact ⟨r + s, (EReal.coe_add r s).symm⟩

/-- The opposite of a finite value is finite. -/
theorem IsReal.neg {a : EReal} (ha : IsReal a) : IsReal (-a) := by
  obtain ⟨r, rfl⟩ := ha
  exact ⟨-r, (EReal.coe_neg r).symm⟩

/-- The difference of two finite values is finite. -/
theorem IsReal.sub {a b : EReal} (ha : IsReal a) (hb : IsReal b) : IsReal (a - b) := by
  obtain ⟨r, rfl⟩ := ha
  obtain ⟨s, rfl⟩ := hb
  exact ⟨r - s, (EReal.coe_sub r s).symm⟩

/-- The product of two finite values is finite. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- A finite sum of finite terms is finite. -/
theorem isReal_sum {ι : Type*} (s : Finset ι) (f : ι → EReal) (h : ∀ i ∈ s, IsReal (f i)) :
    IsReal (∑ i ∈ s, f i) :=
  Finset.sum_induction f IsReal (fun _ _ ha hb => ha.add hb) isReal_zero h

/-- The same over a whole finite type. -/
theorem isReal_sum_univ {ι : Type*} [Fintype ι] (f : ι → EReal) (h : ∀ i, IsReal (f i)) : IsReal (∑ i, f i) :=
  isReal_sum Finset.univ f fun i _ => h i

/-- A zero accumulator plus a finite sum of finite terms is finite. -/
theorem isReal_zero_add_sum {ι : Type*} (s : Finset ι) (f : ι → EReal) (h : ∀ i ∈ s, IsReal (f i)) :
    IsReal (0 + ∑ i ∈ s, f i) :=
  isReal_zero.add (isReal_sum s f h)

/-- A finite accumulator plus a finite sum of finite terms is finite. -/
theorem isReal_add_sum {ι : Type*} (s : Finset ι) (f : ι → EReal) {a : EReal} (ha : IsReal a)
    (h : ∀ i ∈ s, IsReal (f i)) : IsReal (a + ∑ i ∈ s, f i) :=
  ha.add (isReal_sum s f h)

/-! ## Maxima and minima -/

/-- The larger of two finite values is finite. -/
theorem IsReal.max {a b : EReal} (ha : IsReal a) (hb : IsReal b) : IsReal (max a b) := by
  rcases max_choice a b with h | h <;> rw [h] <;> assumption

/-- The smaller of two finite values is finite. -/
theorem IsReal.min {a b : EReal} (ha : IsReal a) (hb : IsReal b) : IsReal (min a b) := by
  rcases min_choice a b with h | h <;> rw [h] <;> assumption

/-- If every member of a family is finite, any value the family takes is finite: however a maximum or a
    minimum over the family is presented, once it is known to be attained it is finite. -/
theorem isReal_of_eq_apply {ι : Sort*} {f : ι → EReal} (h : ∀ i, IsReal (f i)) {m : EReal} (hm : ∃ i, m = f i) :
    IsReal m := by
  obtain ⟨i, rfl⟩ := hm
  exact h i

/-- The same over a finite set of indices. -/
theorem isReal_of_eq_apply_mem {ι : Type*} {s : Finset ι} {f : ι → EReal} (h : ∀ i ∈ s, IsReal (f i)) {m : EReal}
    (hm : ∃ i ∈ s, m = f i) : IsReal m := by
  obtain ⟨i, hi, rfl⟩ := hm
  exact h i hi

/-- The maximum of finitely many finite values, over a nonempty set of indices, is finite. -/
theorem isReal_sup' {ι : Type*} (s : Finset ι) (hs : s.Nonempty) (f : ι → EReal) (h : ∀ i ∈ s, IsReal (f i)) :
    IsReal (s.sup' hs f) := by
  obtain ⟨i, hi, he⟩ := Finset.exists_mem_eq_sup' hs f
  rw [he]
  exact h i hi

/-- The minimum of finitely many finite values, over a nonempty set of indices, is finite. -/
theorem isReal_inf' {ι : Type*} (s : Finset ι) (hs : s.Nonempty) (f : ι → EReal) (h : ∀ i ∈ s, IsReal (f i)) :
    IsReal (s.inf' hs f) := by
  obtain ⟨i, hi, he⟩ := Finset.exists_mem_eq_inf' hs f
  rw [he]
  exact h i hi

/-- The maximum of a family of finite values over a nonempty finite type is finite. -/
theorem isReal_univ_sup' {ι : Type*} [Fintype ι] [Nonempty ι] (f : ι → EReal) (h : ∀ i, IsReal (f i)) :
    IsReal (Finset.univ.sup' Finset.univ_nonempty f) :=
  isReal_sup' _ _ f fun i _ => h i

/-- The minimum of a family of finite values over a nonempty finite type is finite. -/
theorem isReal_univ_inf' {ι : Type*} [Fintype ι] [Nonempty ι] (f : ι → EReal) (h : ∀ i, IsReal (f i)) :
    IsReal (Finset.univ.inf' Finset.univ_nonempty f) :=
  isReal_inf' _ _ f fun i _ => h i

/-- A fold of `max` from a starting value is the starting value or one of the folded values. -/
theorem fold_max_eq_or {ι : Type*} (s : Finset ι) (b : EReal) (f : ι → EReal) :
    s.fold max b f = b ∨ ∃ i ∈ s, s.fold max b f = f i := by
  classical
  refine Finset.induction_on s (Or.inl (Finset.fold_empty)) ?_
  intro a t ha ih
  rw [Finset.fold_insert ha]
  rcases max_choice (f a) (t.fold max b f) with h | h
  · exact Or.inr ⟨a, Finset.mem_insert_self a t, h⟩
  · rw [h]
    rcases ih with ih | ⟨i, hi, ih⟩
    · exact Or.inl ih
    · exact Or.inr ⟨i, Finset.mem_insert_of_mem hi, ih⟩

/-- A fold of `min` from a starting value is the starting value or one of the folded values. -/
theorem fold_min_eq_or {ι : Type*} (s : Finset ι) (b : EReal) (f : ι → EReal) :
    s.fold min b f = b ∨ ∃ i ∈ s, s.fold min b f = f i := by
  classical
  refine Finset.induction_on s (Or.inl (Finset.fold_empty)) ?_
  intro a t ha ih
  rw [Finset.fold_insert ha]
  rcases min_choice (f a) (t.fold min b f) with h | h
  · exact Or.inr ⟨a, Finset.mem_insert_self a t, h⟩
  · rw [h]
    rcases ih with ih | ⟨i, hi, ih⟩
    · exact Or.inl ih
    · exact Or.inr ⟨i, Finset.mem_insert_of_mem hi, ih⟩

/-- A fold of `max` from a finite starting value over finite values is finite. -/
theorem isReal_fold_max {ι : Type*} (s : Finset ι) {b : EReal} (f : ι → EReal) (hb : IsReal b)
    (h : ∀ i ∈ s, IsReal (f i)) : IsReal (s.fold max b f) := by
  rcases fold_max_eq_or s b f with e | ⟨i, hi, e⟩ <;> rw [e]
  · exact hb
  · exact h i hi

/-- A fold of `min` from a finite starting value over finite values is finite. -/
theorem isReal_fold_min {ι : Type*} (s : Finset ι) {b : EReal} (f : ι → EReal) (hb : IsReal b)
    (h : ∀ i ∈ s, IsReal (f i)) : IsReal (s.fold min b f) := by
  rcases fold_min_eq_or s b f with e | ⟨i, hi, e⟩ <;> rw [e]
  · exact hb
  · exact h i hi

/-- A fold of `max` from `⊥` (the neutral element of a maximum) over finite values, on a nonempty set of
    indices, is finite: it is above one of them, hence not `⊥`, hence one of them. -/
theorem isReal_fold_max_bot {ι : Type*} (s : Finset ι) (hs : s.Nonempty) (f : ι → EReal)
    (h : ∀ i ∈ s, IsReal (f i)) : IsReal (s.fold max ⊥ f) := by
  rcases fold_max_eq_or s ⊥ f with e | ⟨i, hi, e⟩
  · obtain ⟨i, hi⟩ := hs
    have hle : f i ≤ s.fold max ⊥ f := (Finset.le_fold_max (f i)).mpr (Or.inr ⟨i, hi, le_rfl⟩)
    rw [e] at hle
    exact absurd (le_bot_iff.mp hle) (h i hi).ne_bot
  · rw [e]
    exact h i hi

/-- A fold of `min` from `⊤` (the neutral element of a minimum) over finite values, on a nonempty set of
    indices, is finite. -/
theorem isReal_fold_min_top {ι : Type*} (s : Finset ι) (hs : s.Nonempty) (f : ι → EReal)
    (h : ∀ i ∈ s, IsReal (f i)) : IsReal (s.fold min ⊤ f) := by
  rcases fold_min_eq_or s ⊤ f with e | ⟨i, hi, e⟩
  · obtain ⟨i, hi⟩ := hs
    have hle : s.fold min ⊤ f ≤ f i := (Finset.fold_min_le (f i)).mpr (Or.inr ⟨i, hi, le_rfl⟩)
    rw [e] at hle
    exact absurd (top_le_iff.mp hle) (h i hi).ne_top
  · rw [e]
    exact h i hi

/-! ## Quotient, exponential, power -/

/-- The quotient of two reals, the divisor not zero, is the real quotient. -/
theorem div_coe_coe (r : ℝ) {s : ℝ} (hs : s ≠ 0) : Ideal.div (r : EReal) (s : EReal) = ((r / s : ℝ) : EReal) := by
  rw [Ideal.div_coe hs, ← EReal.coe_mul, mul_one_div]

/-- The quotient of a finite value by a finite divisor that is not zero is finite. -/
theorem IsReal.div {a b : EReal} (ha : IsReal a) (hb : IsReal b) (hb0 : b ≠ 0) : IsReal (Ideal.div a b) := by
  obtain ⟨r, rfl⟩ := ha
  obtain ⟨s, rfl⟩ := hb
  have hs : s ≠ 0 := fun h0 => hb0 (by rw [h0, EReal.coe_zero])
  exact ⟨r / s, div_coe_coe r hs⟩

/-- The exponential of a real is a positive real. -/
theorem exp_coe_isReal (r : ℝ) : IsReal (Ideal.exp (r : EReal)) := ⟨Real.exp r, Ideal.exp_coe r⟩

/-- The exponential of a real is positive. -/
theorem exp_coe_pos (r : ℝ) : 0 < Ideal.exp (r : EReal) := by
  rw [Ideal.exp_coe]
  exact EReal.coe_pos.mpr (Real.exp_pos r)

/-- The exponential of a finite value is finite and positive. -/
theorem IsReal.exp {a : EReal} (ha : IsReal a) : IsReal (Ideal.exp a) ∧ 0 < Ideal.exp a := by
  obtain ⟨r, rfl⟩ := ha
  exact ⟨exp_coe_isReal r, exp_coe_pos r⟩

/-- A power of a positive real by a real exponent is a positive real. -/
theorem pow_coe_coe_of_pos {r : ℝ} (hr : 0 < r) (y : ℝ) :
    IsReal (Ideal.pow (r : EReal) (y : EReal)) ∧ 0 < Ideal.pow (r : EReal) (y : EReal) := by
  rw [Ideal.pow_coe_coe]
  exact ⟨isReal_coe _, EReal.coe_pos.mpr (Real.rpow_pos_of_pos hr y)⟩

/-- A real `r ≥ 1` to the power `-1/2` is a positive real. -/
theorem pow_neg_half_of_one_le {r : ℝ} (hr : 1 ≤ r) :
    IsReal (Ideal.pow (r : EReal) ((-(1 / 2) : ℝ) : EReal)) ∧ 0 < Ideal.pow (r : EReal) ((-(1 / 2) : ℝ) : EReal) :=
  pow_coe_coe_of_pos (lt_of_lt_of_le one_pos hr) _

/-- The same, naming the real value: `r ^ (-1/2) = (√r)⁻¹` for `r ≥ 0`. -/
theorem pow_neg_half_eq {r : ℝ} (hr : 0 ≤ r) :
    Ideal.pow (r : EReal) ((-(1 / 2) : ℝ) : EReal) = (((Real.sqrt r)⁻¹ : ℝ) : EReal) := by
  rw [Ideal.pow_coe_coe]
  congr 1
  show r ^ (-(1 / 2) : ℝ) = (Real.sqrt r)⁻¹
  rw [Real.rpow_neg hr, Real.sqrt_eq_rpow]

/-- The f32 pattern `0xBF000000` is the real `-1/2`. -/
theorem ofBits_neg_half_f32 : Ideal.ofBits .f32 0xBF000000#32 = ((-(1 / 2) : ℝ) : EReal) := by
  simp [Ideal.ofBits, Ideal.ieee, -EReal.coe_mul, -EReal.coe_neg]; norm_num

/-- A finite value `a ≥ 1` to the power written as the f32 pattern `0xBF000000` (that is `-1/2`) is finite and
    positive. -/
theorem IsReal.pow_neg_half {a : EReal} (ha : IsReal a) (h1 : 1 ≤ a) :
    IsReal (Ideal.pow a (Ideal.ofBits .f32 0xBF000000#32)) ∧ 0 < Ideal.pow a (Ideal.ofBits .f32 0xBF000000#32) := by
  obtain ⟨r, rfl⟩ := ha
  rw [ofBits_neg_half_f32]
  exact pow_neg_half_of_one_le (by exact_mod_cast h1)

/-- A finite value raised to at least one, `max a 1`, to the power `-1/2` (the f32 pattern `0xBF000000`) is finite
    and positive: the inverse square root of a degree clamped below by one. -/
theorem isReal_pow_neg_half_max_one {a : EReal} (ha : IsReal a) :
    IsReal (Ideal.pow (max a 1) (Ideal.ofBits .f32 0xBF000000#32))
      ∧ 0 < Ideal.pow (max a 1) (Ideal.ofBits .f32 0xBF000000#32) :=
  (ha.max isReal_one).pow_neg_half (le_max_right a 1)

/-! ## From finite extended reals to reals -/

/-- The coercion commutes with finite sums. -/
@[norm_cast]
theorem coe_sum {ι : Type*} (s : Finset ι) (f : ι → ℝ) : ((∑ i ∈ s, f i : ℝ) : EReal) = ∑ i ∈ s, (f i : EReal) := by
  classical
  refine Finset.induction_on s (by simp) ?_
  intro a t ha ih
  rw [Finset.sum_insert ha, Finset.sum_insert ha, EReal.coe_add, ih]

/-- A family of finite extended reals is the coercion of a family of reals. -/
theorem exists_real_fun {ι : Sort*} (f : ι → EReal) (h : ∀ i, IsReal (f i)) : ∃ g : ι → ℝ, ∀ i, f i = (g i : EReal) := by
  choose g hg using h
  exact ⟨g, hg⟩

/-- The same for a family with two indices. -/
theorem exists_real_fun₂ {ι κ : Sort*} (f : ι → κ → EReal) (h : ∀ i k, IsReal (f i k)) :
    ∃ g : ι → κ → ℝ, ∀ i k, f i k = (g i k : EReal) := by
  choose g hg using h
  exact ⟨g, hg⟩

/-- As an equation of functions, ready for substitution. -/
theorem exists_real_fun_eq {ι : Sort*} (f : ι → EReal) (h : ∀ i, IsReal (f i)) :
    ∃ g : ι → ℝ, f = fun i => (g i : EReal) := by
  obtain ⟨g, hg⟩ := exists_real_fun f h
  exact ⟨g, funext hg⟩

/-- As an equation of functions, two indices. -/
theorem exists_real_fun₂_eq {ι κ : Sort*} (f : ι → κ → EReal) (h : ∀ i k, IsReal (f i k)) :
    ∃ g : ι → κ → ℝ, f = fun i k => (g i k : EReal) := by
  obtain ⟨g, hg⟩ := exists_real_fun₂ f h
  exact ⟨g, funext fun i => funext fun k => hg i k⟩

/-! ## Stages of a layer on finite values

Min-max normalisation, the leaky activation, and a column maximum or minimum keep finite values finite. -/

/-- Min-max normalisation of reals: `(a - r) / (s - r)` when `r < s`. -/
theorem minmax_coe (a : ℝ) {r s : ℝ} (h : r < s) :
    Ideal.div ((a : EReal) - (r : EReal)) ((s : EReal) - (r : EReal)) = (((a - r) / (s - r) : ℝ) : EReal) := by
  rw [← EReal.coe_sub, ← EReal.coe_sub]
  exact div_coe_coe _ (sub_ne_zero.mpr (ne_of_gt h))

/-- Min-max normalisation of a finite value between finite bounds `mn < mx` is finite. -/
theorem isReal_minmax {x mn mx : EReal} (hx : IsReal x) (hmn : IsReal mn) (hmx : IsReal mx) (h : mn < mx) :
    IsReal (Ideal.div (x - mn) (mx - mn)) := by
  obtain ⟨a, rfl⟩ := hx
  obtain ⟨r, rfl⟩ := hmn
  obtain ⟨s, rfl⟩ := hmx
  rw [minmax_coe a (EReal.coe_lt_coe_iff.mp h)]
  exact isReal_coe _

/-- An f32 word whose exponent field is not all ones (neither an infinity nor a NaN pattern) denotes a real. -/
theorem isReal_ofBits_f32 (w : BitVec 32) (h : (w.extractLsb' 23 8).toNat ≠ 2 ^ 8 - 1) :
    IsReal (Ideal.ofBits .f32 w) := by
  show IsReal (Ideal.ieee 8 23 w)
  unfold Ideal.ieee
  simp only [if_neg h]
  split_ifs <;> exact isReal_coe _

/-- The f32 word `0x3C23D70A` (the slope `0.01` of the leaky activation, rounded) denotes a real. -/
theorem isReal_ofBits_slope : IsReal (Ideal.ofBits .f32 0x3C23D70A#32) :=
  isReal_ofBits_f32 _ (by decide)

/-- The f32 word `0xFF800000` is `-∞`. -/
theorem ofBits_neg_inf_f32 : Ideal.ofBits .f32 0xFF800000#32 = ⊥ := by simp [Ideal.ofBits, Ideal.ieee]

/-- The f32 word `0x7F800000` is `+∞`. -/
theorem ofBits_pos_inf_f32 : Ideal.ofBits .f32 0x7F800000#32 = ⊤ := by simp [Ideal.ofBits, Ideal.ieee]

/-- The comparison `y > 0` against the f32 zero word answers the bit one when `0 < y`. -/
theorem cmpf_ogt_zero_of_pos {y : Ideal .f32} (hy : 0 < y) :
    FloatOps.cmpf .ogt y (Ideal.ofBits .f32 0x00000000#32) = 1#1 := by
  rw [Ideal.cmpf_def, Ideal.ofBits_zero_f32]
  show BitVec.ofBool (decide ((0 : EReal) < y)) = 1#1
  rw [decide_eq_true hy]
  rfl

/-- The comparison `y > 0` against the f32 zero word answers the bit zero when not `0 < y`. -/
theorem cmpf_ogt_zero_of_not_pos {y : Ideal .f32} (hy : ¬ 0 < y) :
    FloatOps.cmpf .ogt y (Ideal.ofBits .f32 0x00000000#32) = 0#1 := by
  rw [Ideal.cmpf_def, Ideal.ofBits_zero_f32]
  show BitVec.ofBool (decide ((0 : EReal) < y)) = 0#1
  rw [decide_eq_false hy]
  rfl

/-- The leaky activation `if y > 0 then y else c * y` at a positive value is the value. -/
theorem leaky_of_pos (c : Ideal .f32) {y : Ideal .f32} (hy : 0 < y) :
    Scalar.select (FloatOps.cmpf .ogt y (Ideal.ofBits .f32 0x00000000#32)) y (c * y) = y := by
  rw [cmpf_ogt_zero_of_pos hy]
  exact if_pos rfl

/-- The leaky activation at a value that is not positive is the slope times the value. -/
theorem leaky_of_not_pos (c : Ideal .f32) {y : Ideal .f32} (hy : ¬ 0 < y) :
    Scalar.select (FloatOps.cmpf .ogt y (Ideal.ofBits .f32 0x00000000#32)) y (c * y) = c * y := by
  rw [cmpf_ogt_zero_of_not_pos hy]
  exact if_neg (by decide)

/-- The leaky activation of a finite value with a finite slope is finite. -/
theorem isReal_leaky {c y : Ideal .f32} (hc : IsReal c) (hy : IsReal y) :
    IsReal (Scalar.select (FloatOps.cmpf .ogt y (Ideal.ofBits .f32 0x00000000#32)) y (c * y)) := by
  by_cases h : 0 < y
  · rw [leaky_of_pos c h]
    exact hy
  · rw [leaky_of_not_pos c h]
    exact hc.mul hy

/-- The leaky activation with the slope word `0x3C23D70A` of a finite value is finite. -/
theorem isReal_leaky_slope {y : Ideal .f32} (hy : IsReal y) :
    IsReal (Scalar.select (FloatOps.cmpf .ogt y (Ideal.ofBits .f32 0x00000000#32)) y
      (Ideal.ofBits .f32 0x3C23D70A#32 * y)) :=
  isReal_leaky isReal_ofBits_slope hy

/-! ### A maximum or minimum over one axis -/

section Reduce

variable {s t u : Shape} {a : Fin s.rank} {φ : FTy}

/-- A reduction with a maximum body over one axis is, at `j`, the fold of `max` from the initial value over that
    axis's coordinates. -/
theorem hostReduce_maximumf_eq_fold (x : FVec Ideal s φ) (init : FVec Ideal u φ) (h' : s.ReducesTo [a] t)
    (h : s.Reduces [a] t) (hu : 0 < u.numel) (j : t.Idx) :
    Host.reduce FloatOps.maximumf x init h' hu j
      = (Finset.univ : Finset (Fin (s.size a))).fold max (init (Shape.Idx.first hu)) (x ∘ h.lift j) :=
  Host.reduce_eq_fold_single FloatOps.maximumf x init h' h hu j

/-- A reduction with a minimum body over one axis is, at `j`, the fold of `min` from the initial value over that
    axis's coordinates. -/
theorem hostReduce_minimumf_eq_fold (x : FVec Ideal s φ) (init : FVec Ideal u φ) (h' : s.ReducesTo [a] t)
    (h : s.Reduces [a] t) (hu : 0 < u.numel) (j : t.Idx) :
    Host.reduce FloatOps.minimumf x init h' hu j
      = (Finset.univ : Finset (Fin (s.size a))).fold min (init (Shape.Idx.first hu)) (x ∘ h.lift j) :=
  Host.reduce_eq_fold_single FloatOps.minimumf x init h' h hu j

/-- The maximum over a nonempty axis, from `-∞`, of finite values is finite. -/
theorem isReal_hostReduce_maximumf (x : FVec Ideal s φ) (init : FVec Ideal u φ) (h' : s.ReducesTo [a] t)
    (h : s.Reduces [a] t) (hu : 0 < u.numel) (hinit : init (Shape.Idx.first hu) = ⊥) (hpos : 0 < s.size a)
    (hx : ∀ i, IsReal (x i)) (j : t.Idx) : IsReal (Host.reduce (α := Ideal φ) FloatOps.maximumf x init h' hu j) := by
  rw [hostReduce_maximumf_eq_fold x init h' h hu j, hinit]
  exact isReal_fold_max_bot _ ⟨⟨0, hpos⟩, Finset.mem_univ _⟩ _ fun k _ => hx _

/-- The maximum over an axis is at least every value along it. -/
theorem le_hostReduce_maximumf (x : FVec Ideal s φ) (init : FVec Ideal u φ) (h' : s.ReducesTo [a] t)
    (h : s.Reduces [a] t) (hu : 0 < u.numel) (j : t.Idx) (k : Fin (s.size a)) :
    x (h.lift j k) ≤ Host.reduce FloatOps.maximumf x init h' hu j := by
  rw [hostReduce_maximumf_eq_fold x init h' h hu j]
  exact (Finset.le_fold_max _).mpr (Or.inr ⟨k, Finset.mem_univ _, le_rfl⟩)

/-- Every entry is at most the maximum at the index it reduces to. -/
theorem le_hostReduce_maximumf_drop (x : FVec Ideal s φ) (init : FVec Ideal u φ) (h' : s.ReducesTo [a] t)
    (h : s.Reduces [a] t) (hu : 0 < u.numel) (i : s.Idx) :
    x i ≤ Host.reduce FloatOps.maximumf x init h' hu (h.drop i) := by
  have e := le_hostReduce_maximumf x init h' h hu (h.drop i) (i a)
  rwa [h.lift_drop] at e

/-- The maximum over a nonempty axis, from `-∞`, of finite values is one of them. -/
theorem hostReduce_maximumf_attained (x : FVec Ideal s φ) (init : FVec Ideal u φ) (h' : s.ReducesTo [a] t)
    (h : s.Reduces [a] t) (hu : 0 < u.numel) (hinit : init (Shape.Idx.first hu) = ⊥) (hpos : 0 < s.size a)
    (hx : ∀ i, IsReal (x i)) (j : t.Idx) :
    ∃ k : Fin (s.size a), Host.reduce FloatOps.maximumf x init h' hu j = x (h.lift j k) := by
  have hr := isReal_hostReduce_maximumf x init h' h hu hinit hpos hx j
  rw [hostReduce_maximumf_eq_fold x init h' h hu j, hinit] at hr ⊢
  rcases fold_max_eq_or Finset.univ ⊥ (x ∘ h.lift j) with e | ⟨k, _, e⟩
  · rw [e] at hr
    exact absurd hr not_isReal_bot
  · exact ⟨k, e⟩

/-- The minimum over a nonempty axis, from `+∞`, of finite values is finite. -/
theorem isReal_hostReduce_minimumf (x : FVec Ideal s φ) (init : FVec Ideal u φ) (h' : s.ReducesTo [a] t)
    (h : s.Reduces [a] t) (hu : 0 < u.numel) (hinit : init (Shape.Idx.first hu) = ⊤) (hpos : 0 < s.size a)
    (hx : ∀ i, IsReal (x i)) (j : t.Idx) : IsReal (Host.reduce (α := Ideal φ) FloatOps.minimumf x init h' hu j) := by
  rw [hostReduce_minimumf_eq_fold x init h' h hu j, hinit]
  exact isReal_fold_min_top _ ⟨⟨0, hpos⟩, Finset.mem_univ _⟩ _ fun k _ => hx _

/-- The minimum over an axis is at most every value along it. -/
theorem hostReduce_minimumf_le (x : FVec Ideal s φ) (init : FVec Ideal u φ) (h' : s.ReducesTo [a] t)
    (h : s.Reduces [a] t) (hu : 0 < u.numel) (j : t.Idx) (k : Fin (s.size a)) :
    Host.reduce FloatOps.minimumf x init h' hu j ≤ x (h.lift j k) := by
  rw [hostReduce_minimumf_eq_fold x init h' h hu j]
  exact (Finset.fold_min_le _).mpr (Or.inr ⟨k, Finset.mem_univ _, le_rfl⟩)

/-- Every entry is at least the minimum at the index it reduces to. -/
theorem hostReduce_minimumf_drop_le (x : FVec Ideal s φ) (init : FVec Ideal u φ) (h' : s.ReducesTo [a] t)
    (h : s.Reduces [a] t) (hu : 0 < u.numel) (i : s.Idx) :
    Host.reduce FloatOps.minimumf x init h' hu (h.drop i) ≤ x i := by
  have e := hostReduce_minimumf_le x init h' h hu (h.drop i) (i a)
  rwa [h.lift_drop] at e

/-- The minimum over a nonempty axis, from `+∞`, of finite values is one of them. -/
theorem hostReduce_minimumf_attained (x : FVec Ideal s φ) (init : FVec Ideal u φ) (h' : s.ReducesTo [a] t)
    (h : s.Reduces [a] t) (hu : 0 < u.numel) (hinit : init (Shape.Idx.first hu) = ⊤) (hpos : 0 < s.size a)
    (hx : ∀ i, IsReal (x i)) (j : t.Idx) :
    ∃ k : Fin (s.size a), Host.reduce FloatOps.minimumf x init h' hu j = x (h.lift j k) := by
  have hr := isReal_hostReduce_minimumf x init h' h hu hinit hpos hx j
  rw [hostReduce_minimumf_eq_fold x init h' h hu j, hinit] at hr ⊢
  rcases fold_min_eq_or Finset.univ ⊤ (x ∘ h.lift j) with e | ⟨k, _, e⟩
  · rw [e] at hr
    exact absurd hr not_isReal_top
  · exact ⟨k, e⟩

end Reduce

/-! ### The column maximum and minimum of a matrix -/

section Column

open Idealize.ShloMosaic.ValueIdx

variable {R C : Nat}

/-- In a reduction of an `R × C` matrix over its rows, column `c` with row `k` put back is the entry `(k, c)`. -/
theorem lift_ix2 (h : (⟨2, ![R, C]⟩ : Shape).Reduces [0] (⟨1, ![C]⟩ : Shape)) (c : Fin C)
    (k : Fin ((⟨2, ![R, C]⟩ : Shape).size 0)) : h.lift (ix1 c) k = ix2 (⟨k.val, k.isLt⟩ : Fin R) c := by
  funext d
  apply Fin.ext
  fin_cases d <;> rfl

/-- The column maximum, from the word of `-∞`, of a matrix of finite values with at least one row is finite. -/
theorem isReal_colMax (x : FVec Ideal ⟨2, ![R, C]⟩ .f32)
    (h' : (⟨2, ![R, C]⟩ : Shape).ReducesTo [0] (⟨1, ![C]⟩ : Shape))
    (h : (⟨2, ![R, C]⟩ : Shape).Reduces [0] (⟨1, ![C]⟩ : Shape)) (hu : 0 < (⟨0, ![]⟩ : Shape).numel)
    (hR : 0 < R) (hx : ∀ i, IsReal (x i)) (c : Fin C) :
    IsReal (Host.reduce (α := Ideal .f32) FloatOps.maximumf x (constant (⟨0, ![]⟩ : Shape) .f32 0xFF800000#32) h' hu (ix1 c)) :=
  isReal_hostReduce_maximumf x (constant (⟨0, ![]⟩ : Shape) .f32 0xFF800000#32) h' h hu ofBits_neg_inf_f32 hR hx (ix1 c)

/-- The column maximum is at least every entry of the column. -/
theorem le_colMax (x : FVec Ideal ⟨2, ![R, C]⟩ .f32)
    (h' : (⟨2, ![R, C]⟩ : Shape).ReducesTo [0] (⟨1, ![C]⟩ : Shape))
    (h : (⟨2, ![R, C]⟩ : Shape).Reduces [0] (⟨1, ![C]⟩ : Shape)) (hu : 0 < (⟨0, ![]⟩ : Shape).numel)
    (r : Fin R) (c : Fin C) :
    x (ix2 r c) ≤ Host.reduce FloatOps.maximumf x (constant (⟨0, ![]⟩ : Shape) .f32 0xFF800000#32) h' hu (ix1 c) := by
  have e := le_hostReduce_maximumf x (constant (⟨0, ![]⟩ : Shape) .f32 0xFF800000#32) h' h hu (ix1 c) r
  rwa [lift_ix2 h c r] at e

/-- The column maximum of a matrix of finite values with at least one row is an entry of the column. -/
theorem colMax_attained (x : FVec Ideal ⟨2, ![R, C]⟩ .f32)
    (h' : (⟨2, ![R, C]⟩ : Shape).ReducesTo [0] (⟨1, ![C]⟩ : Shape))
    (h : (⟨2, ![R, C]⟩ : Shape).Reduces [0] (⟨1, ![C]⟩ : Shape)) (hu : 0 < (⟨0, ![]⟩ : Shape).numel)
    (hR : 0 < R) (hx : ∀ i, IsReal (x i)) (c : Fin C) :
    ∃ r : Fin R,
      Host.reduce FloatOps.maximumf x (constant (⟨0, ![]⟩ : Shape) .f32 0xFF800000#32) h' hu (ix1 c) = x (ix2 r c) := by
  obtain ⟨k, e⟩ := hostReduce_maximumf_attained x (constant (⟨0, ![]⟩ : Shape) .f32 0xFF800000#32) h' h hu ofBits_neg_inf_f32 hR hx (ix1 c)
  exact ⟨⟨k.val, k.isLt⟩, by rw [e, lift_ix2 h c k]⟩

/-- The column minimum, from the word of `+∞`, of a matrix of finite values with at least one row is finite. -/
theorem isReal_colMin (x : FVec Ideal ⟨2, ![R, C]⟩ .f32)
    (h' : (⟨2, ![R, C]⟩ : Shape).ReducesTo [0] (⟨1, ![C]⟩ : Shape))
    (h : (⟨2, ![R, C]⟩ : Shape).Reduces [0] (⟨1, ![C]⟩ : Shape)) (hu : 0 < (⟨0, ![]⟩ : Shape).numel)
    (hR : 0 < R) (hx : ∀ i, IsReal (x i)) (c : Fin C) :
    IsReal (Host.reduce (α := Ideal .f32) FloatOps.minimumf x (constant (⟨0, ![]⟩ : Shape) .f32 0x7F800000#32) h' hu (ix1 c)) :=
  isReal_hostReduce_minimumf x (constant (⟨0, ![]⟩ : Shape) .f32 0x7F800000#32) h' h hu ofBits_pos_inf_f32 hR hx (ix1 c)

/-- The column minimum is at most every entry of the column. -/
theorem colMin_le (x : FVec Ideal ⟨2, ![R, C]⟩ .f32)
    (h' : (⟨2, ![R, C]⟩ : Shape).ReducesTo [0] (⟨1, ![C]⟩ : Shape))
    (h : (⟨2, ![R, C]⟩ : Shape).Reduces [0] (⟨1, ![C]⟩ : Shape)) (hu : 0 < (⟨0, ![]⟩ : Shape).numel)
    (r : Fin R) (c : Fin C) :
    Host.reduce FloatOps.minimumf x (constant (⟨0, ![]⟩ : Shape) .f32 0x7F800000#32) h' hu (ix1 c) ≤ x (ix2 r c) := by
  have e := hostReduce_minimumf_le x (constant (⟨0, ![]⟩ : Shape) .f32 0x7F800000#32) h' h hu (ix1 c) r
  rwa [lift_ix2 h c r] at e

/-- The column minimum of a matrix of finite values with at least one row is an entry of the column. -/
theorem colMin_attained (x : FVec Ideal ⟨2, ![R, C]⟩ .f32)
    (h' : (⟨2, ![R, C]⟩ : Shape).ReducesTo [0] (⟨1, ![C]⟩ : Shape))
    (h : (⟨2, ![R, C]⟩ : Shape).Reduces [0] (⟨1, ![C]⟩ : Shape)) (hu : 0 < (⟨0, ![]⟩ : Shape).numel)
    (hR : 0 < R) (hx : ∀ i, IsReal (x i)) (c : Fin C) :
    ∃ r : Fin R,
      Host.reduce FloatOps.minimumf x (constant (⟨0, ![]⟩ : Shape) .f32 0x7F800000#32) h' hu (ix1 c) = x (ix2 r c) := by
  obtain ⟨k, e⟩ := hostReduce_minimumf_attained x (constant (⟨0, ![]⟩ : Shape) .f32 0x7F800000#32) h' h hu ofBits_pos_inf_f32 hR hx (ix1 c)
  exact ⟨⟨k.val, k.isLt⟩, by rw [e, lift_ix2 h c k]⟩

end Column

end Cert.Finite
-- ==== Proof.LibPreDecode.lean ====
/-
  A predicate that is a conjunction of "all entries of an array satisfy a comparison", read back.

  Such a predicate is a one-bit scalar built from three things: an entrywise comparison of two arrays, giving an
  array of one-bit words; a reduction of that array by "and" over all axes, from the word 1; and the "and" of several
  such scalars. If the scalar is 1 then every conjunct is 1 (a conjunction of one-bit words is 1 exactly when each
  word is), a reduction by "and" that came out 1 met only 1s, and a comparison word that is 1 says the comparison
  holds. Over the extended reals two comparisons matter here: "x > y" is the strict order, and "|x| < +infinity"
  says exactly that x is finite, the image of a real number (it excludes both infinities; |x| is max x (-x)).

  The statements are over an arbitrary array shape, an arbitrary float format whose compared pattern denotes +infinity
  (with the f32 and bf16 patterns as instances), and both ways a scalar is said to be 1: at its one index, or as the
  constant function. Nothing here mentions a particular program.
-/
import Idealize.ShloMosaic.PureOps.Ideal
import Idealize.ShloMosaic.PureOps.Ideal.Laws
import Idealize.ShloMosaic.Lib.ValueIdx
import Idealize.ShloMosaic.Lib.ReduceAll
import proofs.«202802_g48112223650475_cont_8to1c4_51_21_alg».proof.Proof.LibFinite

noncomputable section

namespace Cert.PreDecodeLib

open Idealize.ShloMosaic Idealize.ShloMosaic.ValueIdx
open Cert.Finite

/-! ## The scalar shape -/

/-- The shape of a scalar: rank 0. -/
abbrev S0 : Shape := ⟨0, ![]⟩

/-- The scalar shape has one index. -/
instance subsingleton_S0_idx : Subsingleton S0.Idx := ⟨fun a b => funext fun d => d.elim0⟩

/-- A one-bit scalar that is the constant function 1 is 1 at its one index. -/
theorem at_ix0_of_eq_one {x : IVec S0 1} (h : x = fun _ => 1#1) : x ix0 = 1#1 := congrFun h ix0

/-- A one-bit scalar that is 1 at its one index is the constant function 1. -/
theorem eq_one_of_at_ix0 {x : IVec S0 1} (h : x ix0 = 1#1) : x = fun _ => 1#1 :=
  funext fun i => by rw [eq_ix0 i]; exact h

/-! ## One-bit words -/

/-- A one-bit word made from a decision is 1 exactly when the decision holds. -/
theorem ofBool_eq_one (b : Bool) : BitVec.ofBool b = 1#1 ↔ b = true := by cases b <;> decide

/-- The entrywise "and" of two arrays of one-bit words is 1 at an index exactly when both are 1 there. -/
theorem andi_eq_one_at {s : Shape} {x y : IVec s 1} {i : s.Idx} (h : andi x y i = 1#1) : x i = 1#1 ∧ y i = 1#1 :=
  IntOp.andi_eq_one.1 h

/-- The "and" of two one-bit scalars that is 1 at the scalar's index has both conjuncts 1 there. -/
theorem andi_ix0 {x y : IVec S0 1} (h : andi x y ix0 = 1#1) : x ix0 = 1#1 ∧ y ix0 = 1#1 :=
  andi_eq_one_at h

/-- The entrywise "and" of two arrays of one-bit words that is constantly 1 has both arrays constantly 1. -/
theorem andi_eq_one {s : Shape} {x y : IVec s 1} (h : andi x y = fun _ => 1#1) :
    x = (fun _ => 1#1) ∧ y = (fun _ => 1#1) :=
  ⟨funext fun i => (andi_eq_one_at (congrFun h i)).1, funext fun i => (andi_eq_one_at (congrFun h i)).2⟩

/-! ## Comparisons of extended reals, read back -/

/-- A comparison word "x > y" that is 1: x is strictly above y. -/
theorem lt_of_ogt {φ : FTy} {x y : Ideal φ} (h : FloatOps.cmpf .ogt x y = 1#1) : (y : EReal) < x := by
  have h2 : Ideal.cmp .ogt x y = 1#1 := h
  unfold Ideal.cmp at h2
  rw [ofBool_eq_one] at h2
  exact of_decide_eq_true h2

/-- A comparison word "x < y" that is 1: x is strictly below y. -/
theorem lt_of_olt {φ : FTy} {x y : Ideal φ} (h : FloatOps.cmpf .olt x y = 1#1) : (x : EReal) < y := by
  have h2 : Ideal.cmp .olt x y = 1#1 := h
  unfold Ideal.cmp at h2
  rw [ofBool_eq_one] at h2
  exact of_decide_eq_true h2

/-- Two arrays compared entry by entry by "greater than", the word at an index being 1: the inequality there. -/
theorem gt_of_ogt_at {φ : FTy} {s : Shape} (x y : FVec Ideal s φ) (j : s.Idx) (h : cmpf .ogt x y j = 1#1) :
    x j > y j :=
  lt_of_ogt h

/-- The f32 pattern `0x7F800000` denotes +infinity. -/
theorem ofBits_inf_f32 : Ideal.ofBits .f32 0x7F800000#32 = (⊤ : EReal) := by simp [Ideal.ofBits, Ideal.ieee]

/-- The bf16 pattern `0x7F80` denotes +infinity. -/
theorem ofBits_inf_bf16 : Ideal.ofBits .bf16 0x7F80#16 = (⊤ : EReal) := by simp [Ideal.ofBits, Ideal.ieee]

/-- An extended real whose absolute value max x (-x) lies strictly below +infinity is a real. -/
theorem isReal_of_abs_lt_top {x : EReal} (h : max x (-x) < ⊤) : IsReal x := by
  induction x using EReal.rec with
  | bot => simp at h
  | coe r => exact ⟨r, rfl⟩
  | top => simp at h

/-- The comparison word "|x| < b" that is 1, for a pattern b that denotes +infinity: x is a real. -/
theorem isReal_of_abs_lt {φ : FTy} (b : BitVec φ.bits) (hb : Ideal.ofBits φ b = (⊤ : EReal)) (x : Ideal φ)
    (h : FloatOps.cmpf .olt (FloatOps.hostAbsf x) (FloatOps.ofBits (F := Ideal) φ b) = 1#1) : IsReal x := by
  have h2 : (max (x : EReal) (-x)) < Ideal.ofBits φ b := lt_of_olt h
  rw [hb] at h2
  exact isReal_of_abs_lt_top h2

/-- The f32 case: the comparison word "|x| < 0x7F800000" that is 1 says x is a real. -/
theorem isReal_of_abs_lt_f32 (x : Ideal .f32)
    (h : FloatOps.cmpf .olt (FloatOps.hostAbsf x) (FloatOps.ofBits (F := Ideal) .f32 0x7F800000#32) = 1#1) :
    IsReal x :=
  isReal_of_abs_lt _ ofBits_inf_f32 x h

/-! ## Arrays -/

/-- Every entry of an array of extended reals is a real. -/
abbrev AllReal {φ : FTy} {s : Shape} (x : FVec Ideal s φ) : Prop := ∀ i, IsReal (x i)

/-- Every entry of an array (already in absolute value) compares strictly below the scalar pattern b broadcast to
    the array's shape: the array of comparison words is 1 at every index. -/
abbrev LtBcast {φ : FTy} {s : Shape} (b : BitVec φ.bits) (hb : S0.BroadcastsInDim s (![] : Fin 0 → Fin s.rank))
    (x : FVec Ideal s φ) : Prop :=
  ∀ i, cmpf .olt x (broadcastInDim s ![] hb (constant S0 φ b)) i = 1#1

/-- The f32 case with the pattern of +infinity. -/
abbrev AbsLtInf {s : Shape} (hb : S0.BroadcastsInDim s (![] : Fin 0 → Fin s.rank)) (x : FVec Ideal s .f32) : Prop :=
  LtBcast 0x7F800000#32 hb x

/-- An array whose absolute values all compare below a pattern that denotes +infinity has real entries. -/
theorem allReal_of_ltBcast {φ : FTy} {s : Shape} (b : BitVec φ.bits) (htop : Ideal.ofBits φ b = (⊤ : EReal))
    (x : FVec Ideal s φ) (hb : S0.BroadcastsInDim s (![] : Fin 0 → Fin s.rank)) (h : LtBcast b hb (Host.absf x)) :
    AllReal x :=
  fun i => isReal_of_abs_lt b htop (x i) (h i)

/-- The f32 case: an array whose absolute values all compare below +infinity has real entries. -/
theorem allReal_of_abs {s : Shape} (x : FVec Ideal s .f32) (hb : S0.BroadcastsInDim s (![] : Fin 0 → Fin s.rank))
    (h : AbsLtInf hb (Host.absf x)) : AllReal x :=
  allReal_of_ltBcast _ ofBits_inf_f32 x hb h

/-! ## The reduction by "and" -/

/-- A reduction by "and" over all axes that is 1 at the scalar's index: every entry of the reduced array is 1. -/
theorem all_of_reduce {s u : Shape} {axes : List (Fin s.rank)} (p : IVec s 1) (init : IVec u 1) (hr : s.ReducesTo axes S0)
    (hu : 0 < u.numel) (e : Host.reduce IntOp.andi p init hr hu ix0 = 1#1) (i : s.Idx) : p i = 1#1 :=
  Host.reduce_andi_all p init hr hu ix0 e i

/-- The same when the reduction is said to be the constant function 1. -/
theorem all_of_reduce_eq {s u : Shape} {axes : List (Fin s.rank)} (p : IVec s 1) (init : IVec u 1)
    (hr : s.ReducesTo axes S0) (hu : 0 < u.numel) (e : Host.reduce IntOp.andi p init hr hu = fun _ => 1#1) (i : s.Idx) :
    p i = 1#1 :=
  all_of_reduce p init hr hu (congrFun e ix0) i

/-- "All |x i| < b" came out 1, for a pattern b that denotes +infinity: every entry of x is a real. -/
theorem allReal_of_all {φ : FTy} {s u : Shape} {axes : List (Fin s.rank)} (b : BitVec φ.bits)
    (htop : Ideal.ofBits φ b = (⊤ : EReal)) (x : FVec Ideal s φ) (hb : S0.BroadcastsInDim s (![] : Fin 0 → Fin s.rank))
    (init : IVec u 1) (hr : s.ReducesTo axes S0) (hu : 0 < u.numel)
    (e : Host.reduce IntOp.andi (cmpf .olt (Host.absf x) (broadcastInDim s ![] hb (constant S0 φ b))) init hr hu ix0
      = 1#1) : AllReal x :=
  allReal_of_ltBcast b htop x hb (all_of_reduce _ _ hr hu e)

/-- The f32 case, the reduction started from the word 1, 1 at the scalar's index: every entry of x is a real. -/
theorem finite_of_all {s : Shape} {axes : List (Fin s.rank)} (x : FVec Ideal s .f32)
    (hb : S0.BroadcastsInDim s (![] : Fin 0 → Fin s.rank)) (hr : s.ReducesTo axes S0) (hu : 0 < S0.numel)
    (e : Host.reduce IntOp.andi (cmpf .olt (Host.absf x) (broadcastInDim s ![] hb (constant S0 .f32 0x7F800000#32)))
      (constantI S0 1 1#1) hr hu ix0 = 1#1) : AllReal x :=
  allReal_of_all _ ofBits_inf_f32 x hb _ hr hu e

/-- The same when the reduction is said to be the constant function 1. -/
theorem finite_of_all_eq {s : Shape} {axes : List (Fin s.rank)} (x : FVec Ideal s .f32)
    (hb : S0.BroadcastsInDim s (![] : Fin 0 → Fin s.rank)) (hr : s.ReducesTo axes S0) (hu : 0 < S0.numel)
    (e : Host.reduce IntOp.andi (cmpf .olt (Host.absf x) (broadcastInDim s ![] hb (constant S0 .f32 0x7F800000#32)))
      (constantI S0 1 1#1) hr hu = fun _ => 1#1) : AllReal x :=
  finite_of_all x hb hr hu (congrFun e ix0)

/-- "All x j > y j" came out 1 at the scalar's index: x lies strictly above y at every index. -/
theorem gt_of_all {φ : FTy} {s u : Shape} {axes : List (Fin s.rank)} (x y : FVec Ideal s φ) (init : IVec u 1)
    (hr : s.ReducesTo axes S0) (hu : 0 < u.numel)
    (e : Host.reduce IntOp.andi (cmpf .ogt x y) init hr hu ix0 = 1#1) (j : s.Idx) : x j > y j :=
  gt_of_ogt_at x y j (all_of_reduce _ _ hr hu e j)

/-- The same when the reduction is said to be the constant function 1. -/
theorem gt_of_all_eq {φ : FTy} {s u : Shape} {axes : List (Fin s.rank)} (x y : FVec Ideal s φ) (init : IVec u 1)
    (hr : s.ReducesTo axes S0) (hu : 0 < u.numel)
    (e : Host.reduce IntOp.andi (cmpf .ogt x y) init hr hu = fun _ => 1#1) (j : s.Idx) : x j > y j :=
  gt_of_all x y init hr hu (congrFun e ix0) j

end Cert.PreDecodeLib

end
-- ==== Proof.PreDecode.lean ====
/-
  What the precondition says of the inputs: every entry of the matrix is a real number, and both label vectors hold
  words whose signed value lies between 0 and 999.

  The precondition is printed as a chain of "all" reductions joined by "and".  Read back at the scalar's one index, each
  reduction being 1 says its array of comparison words is 1 everywhere; a comparison word being 1 says its comparison holds.
-/
import proofs.«202802_g48112223650475_cont_8to1c4_51_21_alg».proof.Pre_input_domain
import proofs.«202802_g48112223650475_cont_8to1c4_51_21_alg».proof.Proof.LibPreDecode
import Idealize.ShloMosaic.Lib.ReduceAll
import Idealize.ShloMosaic.Lib.Affine
import Idealize.ShloMosaic.Lib.ValueIdx

noncomputable section

namespace Cert.PreDecode

open Idealize.ShloMosaic Idealize.ShloMosaic.ValueIdx Cert.Pre_input_domain Cert.PreDecodeLib Cert.Finite

variable [Cert.Pre_input_domain.Facts]
open Cert.Pre_input_domain.Facts

/-- A word that tests "at least 0" and "at most 999", signed, has its signed value in that range. -/
theorem range_of_words {x lo hi : BitVec 32} (hlo : lo = 0#32) (hhi : hi = 999#32)
    (e1 : IntOp.cmpi .sge x lo = 1#1) (e2 : IntOp.cmpi .sle x hi = 1#1) : 0 ≤ x.toInt ∧ x.toInt ≤ 999 := by
  subst hlo hhi
  have a1 := IntOp.cmpi_sge.1 e1
  have a2 := IntOp.cmpi_sle.1 e2
  have z0 : (0#32 : BitVec 32).toInt = 0 := by decide
  have z9 : (999#32 : BitVec 32).toInt = 999 := by decide
  omega

/-- The precondition, read back. -/
theorem decode (z : FVec Ideal S16384x1000 .f32) (cnd : IVec S16384 1) (l lp : IVec S16384 32)
    (h : fn (F := Ideal) z cnd l lp = fun _ => 1#1) :
    (∀ i, IsReal (z i)) ∧ (∀ i, 0 ≤ (l i).toInt ∧ (l i).toInt ≤ 999) ∧ (∀ i, 0 ≤ (lp i).toInt ∧ (lp i).toInt ≤ 999) := by
  have h0 : fn (F := Ideal) z cnd l lp ix0 = 1#1 := congrFun h ix0
  dsimp only [fn, fn_part1] at h0
  obtain ⟨h10, h16⟩ := andi_eq_one_at h0
  obtain ⟨h3, h9⟩ := andi_eq_one_at h10
  refine ⟨finite_of_all z bcast_S_S16384x1000 reducesTo_S16384x1000_S_d0_1 h_S_ h3, fun i => ?_, fun i => ?_⟩
  · obtain ⟨e1, e2⟩ := andi_eq_one_at (all_of_reduce _ _ reducesTo_S16384_S_d0 h_S_ h9 i)
    exact range_of_words rfl rfl e1 e2
  · obtain ⟨e1, e2⟩ := andi_eq_one_at (all_of_reduce _ _ reducesTo_S16384_S_d0 h_S_ h16 i)
    exact range_of_words rfl rfl e1 e2

end Cert.PreDecode

end
-- ==== Proof.DenseBlocks.lean ====
/-
  The blocks the dense kernel reads, entry by entry, as entries of the arrays they are cut from.

  Block `n` of the transposed matrix is its slab of classes 64 to 999 by rows `4096 n` to `4096 n + 4095`: entry
  `(0, k, j)` of the slab as the body loads it is the matrix's entry at class `k + 64`, row `4096 n + j`.  Block `n` of
  a 4 by 1 by 4096 array is its plane `n`: a block's coordinate on an axis is the block's number times the block's
  extent plus the coordinate inside the block.
-/
import proofs.«202802_g48112223650475_cont_8to1c4_51_21_alg».proof.Proof.Dense1
import Idealize.ShloMosaic.Lib.ValueIdx

noncomputable section

namespace Cert.KernelIdeal.DenseBlocks

open Idealize.ShloMosaic Idealize.ShloMosaic.TcCoe Idealize.ShloMosaic.ValueIdx Cert.KernelIdeal Cert.KernelIdeal.Gen

variable {F : FTy → Type} [FloatOps F]

/-- Class `k + 64` is a class, and row `4096 n + j` is a row. -/
theorem cls_lt (k : Fin 936) : k.val + 64 < 1000 := by have := k.isLt; omega
theorem row_lt (n : Fin 4) (j : Fin 4096) : 4096 * n.val + j.val < 16384 := by have := n.isLt; have := j.isLt; omega

/-- The three label and mask windows' block numbers at a point of the grid: the point's number on the first axis. -/
theorem index_0 : ∀ t : Fin cfg1.N, win1_0.index t = ![t.val, 0, 0] := (by decide +kernel : ∀ t : Fin grid1.N, _)
theorem index_1 : ∀ t : Fin cfg1.N, win1_1.index t = ![t.val, 0, 0] := (by decide +kernel : ∀ t : Fin grid1.N, _)
theorem index_2 : ∀ t : Fin cfg1.N, win1_2.index t = ![t.val, 0, 0] := (by decide +kernel : ∀ t : Fin grid1.N, _)

/-- THE SLAB: entry `(0, k, j)` of block `n`'s slab is the matrix's entry at class `k + 64`, row `4096 n + j`. -/
theorem zb_apply (c : Dev nD) (Wz : Dense.ZBuf (F := F) c) (n : Fin 4) (k : Fin 936) (j : Fin 4096) :
    Dense.zb c Wz n (ix3 (0 : Fin 1) k j)
      = (Wz : S1000x16384.Idx → Elt F .f32) (ix2 (⟨k.val + 64, cls_lt k⟩ : Fin 1000) (⟨4096 * n.val + j.val, row_lt n j⟩ : Fin 16384)) := by
  unfold Dense.zb
  show (Wz : S1000x16384.Idx → Elt F .f32) ((Dense.srcB n).view.emb (fun i => ((ix3 (0 : Fin 1) k j) i.succ).cast rfl)) = _
  refine congrArg (Wz : S1000x16384.Idx → Elt F .f32) (funext fun a => Fin.ext ?_)
  match a with
  | ⟨0, _⟩ => show 64 + 1 * k.val = k.val + 64; omega
  | ⟨1, _⟩ => show 4096 * n.val + 1 * j.val = 4096 * n.val + j.val; omega

variable (c : Dev nD) (V : (b : Ref sig .tc) → Buf (Elt F) ((c : Thread nD τ).loc b))

/-- THE FIRST LABELS: entry `(0, 0, j)` of block `n` is the array's entry `(n, 0, j)`. -/
theorem lb_apply (n : Fin 4) (j : Fin 4096) :
    Dense.lb c V n (ix3 (0 : Fin 1) (0 : Fin 1) j) = (V main_v3 : S4x1x4096.Idx → BitVec 32) (ix3 n (0 : Fin 1) j) := by
  unfold Dense.lb Dense.iblk
  show (V main_v3 : S4x1x4096.Idx → BitVec 32) (((cfg1.win 0).blk (Dense.pt n)).view.emb (ix3 (0 : Fin 1) (0 : Fin 1) j)) = _
  refine congrArg (V main_v3 : S4x1x4096.Idx → BitVec 32) (funext fun ax => Fin.ext ?_)
  have e := index_0 (Dense.pt n)
  match ax with
  | ⟨0, _⟩ => show win1_0.index (Dense.pt n) (0 : Fin 3) * 1 + 1 * 0 = n.val; rw [e]; simp [Dense.pt]
  | ⟨1, _⟩ => show win1_0.index (Dense.pt n) (1 : Fin 3) * 1 + 1 * 0 = 0; rw [e]; simp
  | ⟨2, _⟩ => show win1_0.index (Dense.pt n) (2 : Fin 3) * 4096 + 1 * j.val = j.val; rw [e]; simp

/-- THE SECOND LABELS: entry `(0, 0, j)` of block `n` is the array's entry `(n, 0, j)`. -/
theorem lpb_apply (n : Fin 4) (j : Fin 4096) :
    Dense.lpb c V n (ix3 (0 : Fin 1) (0 : Fin 1) j) = (V main_v4 : S4x1x4096.Idx → BitVec 32) (ix3 n (0 : Fin 1) j) := by
  unfold Dense.lpb Dense.iblk
  show (V main_v4 : S4x1x4096.Idx → BitVec 32) (((cfg1.win 1).blk (Dense.pt n)).view.emb (ix3 (0 : Fin 1) (0 : Fin 1) j)) = _
  refine congrArg (V main_v4 : S4x1x4096.Idx → BitVec 32) (funext fun ax => Fin.ext ?_)
  have e := index_1 (Dense.pt n)
  match ax with
  | ⟨0, _⟩ => show win1_1.index (Dense.pt n) (0 : Fin 3) * 1 + 1 * 0 = n.val; rw [e]; simp [Dense.pt]
  | ⟨1, _⟩ => show win1_1.index (Dense.pt n) (1 : Fin 3) * 1 + 1 * 0 = 0; rw [e]; simp
  | ⟨2, _⟩ => show win1_1.index (Dense.pt n) (2 : Fin 3) * 4096 + 1 * j.val = j.val; rw [e]; simp

/-- THE MASK: entry `(0, 0, j)` of block `n` is the array's entry `(n, 0, j)`. -/
theorem cb_apply (n : Fin 4) (j : Fin 4096) :
    Dense.cb c V n (ix3 (0 : Fin 1) (0 : Fin 1) j) = (V main_v5 : S4x1x4096.Idx → Elt F .f32) (ix3 n (0 : Fin 1) j) := by
  unfold Dense.cb Dense.iblk
  show (V main_v5 : S4x1x4096.Idx → Elt F .f32) (((cfg1.win 2).blk (Dense.pt n)).view.emb (ix3 (0 : Fin 1) (0 : Fin 1) j)) = _
  refine congrArg (V main_v5 : S4x1x4096.Idx → Elt F .f32) (funext fun ax => Fin.ext ?_)
  have e := index_2 (Dense.pt n)
  match ax with
  | ⟨0, _⟩ => show win1_2.index (Dense.pt n) (0 : Fin 3) * 1 + 1 * 0 = n.val; rw [e]; simp [Dense.pt]
  | ⟨1, _⟩ => show win1_2.index (Dense.pt n) (1 : Fin 3) * 1 + 1 * 0 = 0; rw [e]; simp
  | ⟨2, _⟩ => show win1_2.index (Dense.pt n) (2 : Fin 3) * 4096 + 1 * j.val = j.val; rw [e]; simp

end Cert.KernelIdeal.DenseBlocks

end
-- ==== Proof.PickValue.lean ====
/-
  The column sums of the dense part, on the extended reals, free of any program.

  For one row and one lane the dense part sums, over the 936 classes c + 64, the entry where the class is the first label
  minus the entry where the class is the second label, and multiplies by the mask.  A sum over the classes of "entry where
  the class is the label, else zero" has at most one nonzero term and is the row's entry at the label restricted to the
  classes from 64 on.  The sum of the differences is the difference of the sums because every term is finite.
-/
import proofs.«202802_g48112223650475_cont_8to1c4_51_21_alg».proof.Proof.Spec

noncomputable section

open scoped BigOperators

namespace Cert.Spec

open Idealize.ShloMosaic Idealize.ShloMosaic.ValueIdx

/-- The class that position c of the dense part's 936 classes stands for. -/
def cls (c : Fin 936) : Fin 1000 := ⟨c.val + 64, by have := c.isLt; omega⟩

/-- The coercion from the reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of differences of finite terms is the difference of the sums. -/
theorem sum_sub_of_finite {ι : Type} (s : Finset ι) (a b : ι → EReal)
    (ha : ∀ i, a i ≠ ⊤ ∧ a i ≠ ⊥) (hb : ∀ i, b i ≠ ⊤ ∧ b i ≠ ⊥) :
    ∑ i ∈ s, (a i - b i) = ∑ i ∈ s, a i - ∑ i ∈ s, b i := by
  lift a to ι → ℝ using ha
  lift b to ι → ℝ using hb
  simp only [← EReal.coe_sub, ← coe_sum, Finset.sum_sub_distrib]

/-- The 32-bit word of position c plus 64 is the word k exactly when k names the class c + 64. -/
theorem word_eq_iff (c : Fin 936) (k : BitVec 32) : BitVec.ofNat 32 c.val + 64#32 = k ↔ k.toNat = c.val + 64 := by
  have hc := c.isLt
  constructor
  · rintro rfl
    simp only [BitVec.toNat_add, BitVec.toNat_ofNat, Nat.reducePow]
    omega
  · intro h
    apply BitVec.eq_of_toNat_eq
    simp only [BitVec.toNat_add, BitVec.toNat_ofNat, Nat.reducePow]
    omega

/-- Over the 936 classes, "the row's entry where the class is the label, else zero" sums to the row's entry at the label
    restricted to the classes from 64 on. -/
theorem sum_hot_eq_pick (z : SZ.Idx → EReal) (r : Fin 16384) (k : BitVec 32) :
    ∑ c : Fin 936, (if BitVec.ofNat 32 c.val + 64#32 = k then z (ix2 r (cls c)) else 0) = pick z r k 64 1000 := by
  unfold pick
  by_cases h : k.toNat < 1000
  · rw [dif_pos h]
    by_cases h64 : 64 ≤ k.toNat
    · rw [if_pos ⟨h64, h⟩, Finset.sum_eq_single (⟨k.toNat - 64, by omega⟩ : Fin 936)]
      · rw [if_pos ((word_eq_iff _ k).mpr (by show k.toNat = k.toNat - 64 + 64; omega))]
        exact congrArg (fun q : Fin 1000 => z (ix2 r q)) (Fin.ext (by show k.toNat - 64 + 64 = k.toNat; omega))
      · intro c _ hc
        rw [if_neg]
        intro hw
        have hk := (word_eq_iff c k).mp hw
        exact hc (Fin.ext (by show c.val = k.toNat - 64; omega))
      · intro hn
        exact absurd (Finset.mem_univ _) hn
    · rw [if_neg (fun hh => h64 hh.1)]
      refine Finset.sum_eq_zero fun c _ => ?_
      rw [if_neg]
      intro hw
      have hk := (word_eq_iff c k).mp hw
      omega
  · rw [dif_neg h]
    refine Finset.sum_eq_zero fun c _ => ?_
    rw [if_neg]
    intro hw
    have hk := (word_eq_iff c k).mp hw
    have hc := c.isLt
    omega

/-- One row's contribution to the dense part: the column sum of the differences times the mask is the row's masked
    difference restricted to the classes from 64 on. -/
theorem block_term (z : SZ.Idx → EReal) (cnd : SB.Idx → BitVec 1) (l lp : SB.Idx → BitVec 32)
    (hfin : ∀ ix, z ix ≠ ⊤ ∧ z ix ≠ ⊥) (r : Fin 16384) :
    (∑ c : Fin 936, ((if BitVec.ofNat 32 c.val + 64#32 = l (ix1 r) then z (ix2 r (cls c)) else 0)
        - (if BitVec.ofNat 32 c.val + 64#32 = lp (ix1 r) then z (ix2 r (cls c)) else 0)))
      * (if cnd (ix1 r) = 1#1 then 1 else 0 : EReal) = term z cnd l lp 64 1000 r := by
  have hA : ∀ (k : BitVec 32) (c : Fin 936),
      (if BitVec.ofNat 32 c.val + 64#32 = k then z (ix2 r (cls c)) else 0) ≠ ⊤
        ∧ (if BitVec.ofNat 32 c.val + 64#32 = k then z (ix2 r (cls c)) else 0) ≠ ⊥ := by
    intro k c
    split
    · exact hfin _
    · exact ⟨EReal.zero_ne_top, EReal.zero_ne_bot⟩
  rw [sum_sub_of_finite _ _ _ (hA _) (hA _), sum_hot_eq_pick, sum_hot_eq_pick]
  unfold term
  by_cases hc : cnd (ix1 r) = 1#1
  · rw [if_pos hc, if_pos hc, mul_one]
  · rw [if_neg hc, if_neg hc, mul_zero]

/-- The four blocks' contributions to one lane, added in order onto zero, are the lane's sum over the blocks. -/
theorem four_blocks (f : Fin 4 → EReal) : 0 + f 0 + f 1 + f 2 + f 3 = ∑ i : Fin 4, f i := by
  rw [Fin.sum_univ_four, zero_add]

end Cert.Spec

end
-- ==== Proof.CombValue.lean ====
/-
  The combine kernel's number, read on the extended reals: the sum of the 32 by 16 array plus the other number.

  The array is viewed as 1 by 32 by 16 and summed over its last two axes into one element; that sum runs over every index of
  the view, and the indices of the view are the pairs (worker, lane).
-/
import proofs.«202802_g48112223650475_cont_8to1c4_51_21_alg».proof.Proof.Vals
import Idealize.ShloMosaic.PureOps.Ideal.Laws
import Idealize.ShloMosaic.Lib.ValueLayout

noncomputable section

open scoped BigOperators

namespace Cert.KernelIdeal.CombValue

open Idealize.ShloMosaic Idealize.ShloMosaic.ValueIdx Cert.KernelIdeal Cert.KernelIdeal.Gen

/-- An index of a 1 by a by b array is its last two coordinates. -/
def idxEquiv1ab (a b : Nat) : (⟨3, ![1, a, b]⟩ : Shape).Idx ≃ Fin a × Fin b where
  toFun i := (i 1, i 2)
  invFun p := ix3 (0 : Fin 1) p.1 p.2
  left_inv i := by
    funext d
    match d with
    | ⟨0, _⟩ =>
      refine Fin.ext ?_
      have h : (i 0).val < 1 := (i 0).isLt
      show 0 = (i 0).val
      omega
    | ⟨1, _⟩ => rfl
    | ⟨2, _⟩ => rfl
  right_inv _ := rfl

/-- A sum over the indices of a 1 by a by b array is the double sum over its last two coordinates. -/
theorem sum_idx1ab {a b : Nat} (f : (⟨3, ![1, a, b]⟩ : Shape).Idx → EReal) :
    ∑ i, f i = ∑ p : Fin a, ∑ q : Fin b, f (ix3 (0 : Fin 1) p q) := by
  rw [← Equiv.sum_comp (idxEquiv1ab a b).symm f, Fintype.sum_prod_type]
  rfl

/-- The one element of a one-element vector, taken out through the 1 by 1 by 1 view. -/
theorem extract_cast_one {α : Type} (v : S1.Idx → α) :
    extractAt ![0, 0, 0] (shapeCast S1x1x1 v shapeCasts_S1_S1x1x1) inpos_S1x1x1_p0_0_0 = v (ix1 (0 : Fin 1)) := by
  unfold extractAt
  refine shapeCast_apply v shapeCasts_S1_S1x1x1 _ (ix1 (0 : Fin 1)) ?_
  rw [Shape.rowMajor_val_one, Shape.rowMajor_val_three]
  rfl

/-- The combine kernel's number is the sum of the array plus the other number. -/
theorem combRes_value (part : Vec Ideal S32x16 .f32) (tcs : Vec Ideal S1x1 .f32) :
    @Eq EReal (Vals.combRes (F := Ideal) part tcs (ix2 0 0))
      ((∑ w : Fin 32, ∑ t : Fin 16, (part (ix2 w t) : EReal)) + tcs (ix2 0 0)) := by
  unfold Vals.combRes k2_pay1
  show (_ : EReal) + _ = _ + _
  refine congrArg₂ (· + ·) ?_ ?_
  · refine (extract_cast_one _).trans ?_
    refine (Ideal.multiReduction_add_total _ _ reduces_S1x32x16_S1 (by decide) (.inl rfl) rfl (ix1 (0 : Fin 1))).trans ?_
    rw [sum_idx1ab]
    refine Finset.sum_congr rfl fun w _ => Finset.sum_congr rfl fun t _ => ?_
    refine (shapeCast_ab_1ab_apply _ _ 0 w t).trans ?_
    rw [shapeCast_self]
  · exact congrArg tcs (funext fun a => by match a with | ⟨0, _⟩ => rfl | ⟨1, _⟩ => rfl)

end Cert.KernelIdeal.CombValue

end
-- ==== Proof.DenseValue.lean ====
/-
  The dense kernel's number, read on the extended reals.

  At each of the four blocks the kernel adds to a running row of 4096 lanes, lane by lane, the column sum over the 936
  classes of "entry where the class is the first label minus entry where the class is the second label", times the mask.
  Read at a lane, one block's contribution is the block's row's masked difference restricted to the classes from 64 on;
  after four blocks the lane holds the sum over the blocks, and the final number is the sum over the lanes.
-/
import proofs.«202802_g48112223650475_cont_8to1c4_51_21_alg».proof.Proof.Vals
import proofs.«202802_g48112223650475_cont_8to1c4_51_21_alg».proof.Proof.PickValue
import proofs.«202802_g48112223650475_cont_8to1c4_51_21_alg».proof.Proof.CombValue
import Idealize.ShloMosaic.PureOps.Ideal.Laws
import Idealize.ShloMosaic.Lib.ValueLayout

noncomputable section

open scoped BigOperators

namespace Cert.KernelIdeal.DenseValue

open Idealize.ShloMosaic Idealize.ShloMosaic.ValueIdx Cert.KernelIdeal Cert.KernelIdeal.Gen

/-! ## Words -/

/-- A select on an equality test of two words is the if on their equality. -/
theorem select_cmpi_eq {α : Type} {w : Nat} (a b : BitVec w) (x y : α) :
    Scalar.select (IntOp.cmpi .eq a b) x y = if a = b then x else y := by
  have hc : IntOp.cmpi .eq a b = if a = b then 1#1 else 0#1 := by
    unfold IntOp.cmpi
    by_cases h : a = b
    · subst h
      simp
    · have hb : (a == b) = false := beq_eq_false_iff_ne.mpr h
      rw [if_neg h, hb]
      rfl
  rw [hc]
  unfold Scalar.select
  by_cases h : a = b
  · rw [if_pos h, if_pos h]
    exact if_pos (by decide)
  · rw [if_neg h, if_neg h]
    exact if_neg (by decide)

/-! ## Layout: the loaded blocks read at a lane -/

/-- A 1 by 1 by n array viewed as a row of n reads, at lane j, the array at (0, 0, j). -/
theorem shapeCast_11a_a_apply {α : Type} {a : Nat} (x : (⟨3, ![1, 1, a]⟩ : Shape).Idx → α)
    (h : (⟨3, ![1, 1, a]⟩ : Shape).ShapeCasts ⟨1, ![a]⟩) (j : Fin a) :
    shapeCast ⟨1, ![a]⟩ x h (ix1 j) = x (ix3 (0 : Fin 1) (0 : Fin 1) j) :=
  shapeCast_apply x h _ _ (by
    rw [Shape.rowMajor_val_three, Shape.rowMajor_val_one]
    show (0 * 1 + 0) * a + j.val = j.val
    simp)

/-- The slab viewed as 936 by 4096 reads the slab at (0, c, j). -/
theorem pay4_apply (zb : Vec Ideal S1x936x4096 .f32) (c : Fin 936) (j : Fin 4096) :
    @Eq EReal (k1_pay4 (F := Ideal) zb (ix2 c j)) (zb (ix3 0 c j)) := by
  unfold k1_pay4
  exact shapeCast_1ab_ab_apply _ _ c j

/-- The second label row viewed as 1 by 4096 reads the row at (0, 0, j). -/
theorem pay5_apply (lpb : Vec Ideal S1x1x4096 .i32) (j : Fin 4096) :
    k1_pay5 (F := Ideal) lpb (ix2 0 j) = lpb (ix3 0 0 j) := by
  unfold k1_pay5
  exact (shapeCast_a_1a_apply _ _ 0 j).trans (shapeCast_11a_a_apply _ _ j)

/-- The mask row viewed as 1 by 4096 reads the row at (0, 0, j). -/
theorem pay6_apply (cb : Vec Ideal S1x1x4096 .f32) (j : Fin 4096) :
    @Eq EReal (k1_pay6 (F := Ideal) cb (ix2 0 j)) (cb (ix3 0 0 j)) := by
  unfold k1_pay6
  exact (shapeCast_a_1a_apply _ _ 0 j).trans (shapeCast_11a_a_apply _ _ j)

/-- The class word at position c is c plus 64. -/
theorem pay7_apply (c : Fin 936) (j : Fin 4096) :
    k1_pay7 (ix2 c j) = BitVec.ofNat 32 c.val + 64#32 := by
  unfold k1_pay7
  show IntOp.addi (iota .tc S936x4096 32 [0] iota_S936x4096_d0_w32 (ix2 c j)) 64#32 = _
  rw [iota_single_apply]
  rfl

/-- The first label's entries: the slab's entry where the class is the first label, else zero. -/
theorem pay8_apply (zb : Vec Ideal S1x936x4096 .f32) (lb : Vec Ideal S1x1x4096 .i32) (c : Fin 936) (j : Fin 4096) :
    @Eq EReal (k1_pay8 (F := Ideal) zb lb (ix2 c j))
      (if BitVec.ofNat 32 c.val + 64#32 = lb (ix3 0 0 j) then (zb (ix3 0 c j) : EReal) else 0) := by
  unfold k1_pay8
  show Scalar.select (IntOp.cmpi .eq (k1_pay7 (ix2 c j))
      (broadcastTo S936x4096 (shapeCast S1x4096 (shapeCast S4096 lb shapeCasts_S1x1x4096_S4096) shapeCasts_S4096_S1x4096)
        broadcasts_S1x4096_S936x4096 (ix2 c j)))
    (k1_pay4 (F := Ideal) zb (ix2 c j)) (Ideal.ofBits .f32 0x00000000#32) = _
  rw [broadcastTo_1b_ab_apply, shapeCast_a_1a_apply, shapeCast_11a_a_apply, pay7_apply, pay4_apply,
    Ideal.ofBits_zero_f32, select_cmpi_eq]

/-! ## One block's step, read at a lane -/

/-- The lane's index with the class coordinate put back is (class, lane). -/
theorem lift_eq (j : Fin 4096) (c : Fin 936) :
    reduces_S936x4096_S4096.lift (ix1 j) c = ix2 c j := by
  funext a
  match a with
  | ⟨0, _⟩ => rfl
  | ⟨1, _⟩ => rfl

/-- The running row after one block, at lane j: the row before, plus the column sum of the differences times the mask. -/
theorem pay1_apply (v16 : FVec Ideal S936x4096 .f32) (v22 : IVec S1x4096 32) (v25 : FVec Ideal S1x4096 .f32)
    (v28 : IVec S936x4096 32) (v32 : FVec Ideal S936x4096 .f32) (v38 : Vec Ideal S1x4096 .f32) (j : Fin 4096) :
    @Eq EReal (k1_pay1 v16 v22 v25 v28 v32 v38 (ix2 0 j))
      ((v38 (ix2 0 j) : EReal)
        + (∑ c : Fin 936, ((v32 (ix2 c j) : EReal) - (if v28 (ix2 c j) = v22 (ix2 0 j) then (v16 (ix2 c j) : EReal) else 0)))
          * v25 (ix2 0 j)) := by
  unfold k1_pay1
  refine (congrFun (shapeCast_self _ _) _).trans ?_
  show (v38 (ix2 0 j) : EReal) + (_ : EReal) * v25 (ix2 0 j) = _
  refine congrArg (fun s : EReal => (v38 (ix2 0 j) : EReal) + s * v25 (ix2 0 j)) ?_
  refine (shapeCast_a_1a_apply _ _ 0 j).trans ?_
  refine (Ideal.multiReduction_add_single _ _ reduces_S936x4096_S4096 (.inl rfl) rfl (ix1 j)).trans ?_
  refine Finset.sum_congr rfl fun (c : Fin 936) _ => ?_
  rw [lift_eq]
  show (v32 (ix2 c j) : EReal) - Scalar.select (IntOp.cmpi .eq (v28 (ix2 c j))
      (broadcastTo S936x4096 v22 broadcasts_S1x4096_S936x4096 (ix2 c j))) (v16 (ix2 c j)) (Ideal.ofBits .f32 0x00000000#32) = _
  rw [broadcastTo_1b_ab_apply, Ideal.ofBits_zero_f32, select_cmpi_eq]

/-- One block's step at a lane, in the terms of the specification: the row before plus the block's row's masked
    difference restricted to the classes from 64 on. -/
theorem step_apply (z : Spec.SZ.Idx → EReal) (cnd : Spec.SB.Idx → BitVec 1) (l lp : Spec.SB.Idx → BitVec 32)
    (hfin : ∀ ix, z ix ≠ ⊤ ∧ z ix ≠ ⊥)
    (zb : Vec Ideal S1x936x4096 .f32) (lb lpb : Vec Ideal S1x1x4096 .i32) (cb : Vec Ideal S1x1x4096 .f32)
    (r : Fin 16384) (j : Fin 4096)
    (hzb : ∀ c : Fin 936, (zb (ix3 0 c j) : EReal) = z (ix2 r (Spec.cls c)))
    (hlb : lb (ix3 0 0 j) = l (ix1 r)) (hlpb : lpb (ix3 0 0 j) = lp (ix1 r))
    (hcb : (cb (ix3 0 0 j) : EReal) = if cnd (ix1 r) = 1#1 then 1 else 0)
    (acc : Vec Ideal S1x4096 .f32) :
    @Eq EReal (k1_pay1 (k1_pay4 zb) (k1_pay5 (F := Ideal) lpb) (k1_pay6 cb) k1_pay7 (k1_pay8 zb lb) acc (ix2 0 j))
      ((acc (ix2 0 j) : EReal) + Spec.term z cnd l lp 64 1000 r) := by
  rw [pay1_apply]
  refine congrArg (fun s : EReal => (acc (ix2 0 j) : EReal) + s) ?_
  rw [pay6_apply, hcb, pay5_apply, hlpb, ← Spec.block_term z cnd l lp hfin r]
  refine congrArg (fun s : EReal => s * (if cnd (ix1 r) = 1#1 then 1 else 0 : EReal)) (Finset.sum_congr rfl fun c _ => ?_)
  rw [pay8_apply, pay7_apply, pay4_apply, hlb, hzb]

/-! ## The four blocks and the lane sum -/

/-- The running row starts at zero. -/
theorem pay3_apply (j : Fin 4096) : @Eq EReal (k1_pay3 (F := Ideal) (ix2 0 j)) 0 := by
  unfold k1_pay3
  refine (congrFun (shapeCast_self _ _) _).trans ?_
  show Ideal.ofBits .f32 0x00000000#32 = 0
  exact Ideal.ofBits_zero_f32

/-- The final number is the sum of the running row's lanes. -/
theorem pay2_apply (v49 : Vec Ideal S1x4096 .f32) :
    @Eq EReal (k1_pay2 v49 (ix2 0 0)) (∑ j : Fin 4096, (v49 (ix2 0 j) : EReal)) := by
  unfold k1_pay2
  show extractAt ![0, 0, 0] (shapeCast S1x1x1 (multiReduction (F := Ideal) .add [1, 2] S1
      (shapeCast S1x1x4096 v49 shapeCasts_S1x4096_S1x1x4096) 0x00000000#32 reduces_S1x1x4096_S1 (.inl rfl) rfl)
      shapeCasts_S1_S1x1x1) inpos_S1x1x1_p0_0_0 = _
  refine (CombValue.extract_cast_one _).trans ?_
  refine (Ideal.multiReduction_add_total _ _ reduces_S1x1x4096_S1 (by decide) (.inl rfl) rfl (ix1 (0 : Fin 1))).trans ?_
  rw [CombValue.sum_idx1ab, Fin.sum_univ_one]
  refine Finset.sum_congr rfl fun q _ => ?_
  exact shapeCast_ab_1ab_apply _ _ 0 0 q

/-- The running row before any block. -/
theorem denseAcc_zero (zb : Fin 4 → Vec Ideal S1x936x4096 .f32) (lb lpb : Fin 4 → Vec Ideal S1x1x4096 .i32)
    (cb : Fin 4 → Vec Ideal S1x1x4096 .f32) :
    Vals.denseAcc (F := Ideal) zb lb lpb cb 0 = k1_pay3 (F := Ideal) := by
  rw [Vals.denseAcc]

/-- The running row after one more block. -/
theorem denseAcc_succ (zb : Fin 4 → Vec Ideal S1x936x4096 .f32) (lb lpb : Fin 4 → Vec Ideal S1x1x4096 .i32)
    (cb : Fin 4 → Vec Ideal S1x1x4096 .f32) (n : Nat) (h : n < 4) :
    Vals.denseAcc (F := Ideal) zb lb lpb cb (n + 1)
      = k1_pay1 (k1_pay4 (zb ⟨n, h⟩)) (k1_pay5 (F := Ideal) (lpb ⟨n, h⟩)) (k1_pay6 (cb ⟨n, h⟩)) k1_pay7
          (k1_pay8 (zb ⟨n, h⟩) (lb ⟨n, h⟩)) (Vals.denseAcc (F := Ideal) zb lb lpb cb n) := by
  rw [Vals.denseAcc, dif_pos h]

/-- The dense kernel's number is the sum, over the lanes and the four blocks, of the rows' masked differences restricted to
    the classes from 64 on. -/
theorem denseRes_value (z : Spec.SZ.Idx → EReal) (cnd : Spec.SB.Idx → BitVec 1) (l lp : Spec.SB.Idx → BitVec 32)
    (zb : Fin 4 → Vec Ideal S1x936x4096 .f32) (lb lpb : Fin 4 → Vec Ideal S1x1x4096 .i32)
    (cb : Fin 4 → Vec Ideal S1x1x4096 .f32)
    (hzb : ∀ (n : Fin 4) (c : Fin 936) (j : Fin 4096),
      (zb n (ix3 0 c j) : EReal) = z (ix2 (Spec.rowTc n j) (Spec.cls c)))
    (hlb : ∀ (n : Fin 4) (j : Fin 4096), lb n (ix3 0 0 j) = l (ix1 (Spec.rowTc n j)))
    (hlpb : ∀ (n : Fin 4) (j : Fin 4096), lpb n (ix3 0 0 j) = lp (ix1 (Spec.rowTc n j)))
    (hcb : ∀ (n : Fin 4) (j : Fin 4096),
      (cb n (ix3 0 0 j) : EReal) = if cnd (ix1 (Spec.rowTc n j)) = 1#1 then 1 else 0)
    (hfin : ∀ ix, z ix ≠ ⊤ ∧ z ix ≠ ⊥) :
    @Eq EReal (Vals.denseRes (F := Ideal) zb lb lpb cb (ix2 0 0)) (Spec.denseOut z cnd l lp) := by
  unfold Vals.denseRes Spec.denseOut
  refine (pay2_apply _).trans ?_
  refine Finset.sum_congr rfl fun j _ => ?_
  have step : ∀ (n : Nat) (h : n < 4),
      @Eq EReal (Vals.denseAcc (F := Ideal) zb lb lpb cb (n + 1) (ix2 0 j))
        ((Vals.denseAcc (F := Ideal) zb lb lpb cb n (ix2 0 j) : EReal)
          + Spec.term z cnd l lp 64 1000 (Spec.rowTc ⟨n, h⟩ j)) := by
    intro n h
    rw [denseAcc_succ zb lb lpb cb n h]
    exact step_apply z cnd l lp hfin (zb ⟨n, h⟩) (lb ⟨n, h⟩) (lpb ⟨n, h⟩) (cb ⟨n, h⟩) (Spec.rowTc ⟨n, h⟩ j) j
      (fun c => hzb ⟨n, h⟩ c j) (hlb ⟨n, h⟩ j) (hlpb ⟨n, h⟩ j) (hcb ⟨n, h⟩ j) _
  have e4 : @Eq EReal (Vals.denseAcc (F := Ideal) zb lb lpb cb 4 (ix2 0 j)) _ := step 3 (by omega)
  have e3 : @Eq EReal (Vals.denseAcc (F := Ideal) zb lb lpb cb 3 (ix2 0 j)) _ := step 2 (by omega)
  have e2 : @Eq EReal (Vals.denseAcc (F := Ideal) zb lb lpb cb 2 (ix2 0 j)) _ := step 1 (by omega)
  have e1 : @Eq EReal (Vals.denseAcc (F := Ideal) zb lb lpb cb 1 (ix2 0 j)) _ := step 0 (by omega)
  rw [e4, e3, e2, e1, denseAcc_zero, pay3_apply]
  exact Spec.four_blocks (fun i => Spec.term z cnd l lp 64 1000 (Spec.rowTc i j))

end Cert.KernelIdeal.DenseValue

end
-- ==== Proof.DenseBlocksValue.lean ====
/-
  The dense kernel's number, from the arrays it is cut from, on the extended reals.

  The slab of block `n` reads the transposed matrix at class `k + 64`, row `4096 n + j`, which is the matrix's entry at
  that row and class; the label and mask blocks read plane `n` of their arrays.  With those entry formulas the value of
  the four-block running sum, summed over its lanes, is the sum over all rows of the masked differences restricted to
  the classes from 64 on.
-/
import proofs.«202802_g48112223650475_cont_8to1c4_51_21_alg».proof.Proof.DenseBlocks
import proofs.«202802_g48112223650475_cont_8to1c4_51_21_alg».proof.Proof.DenseValue

noncomputable section

namespace Cert.KernelIdeal.DenseBlocksValue

open Idealize.ShloMosaic Idealize.ShloMosaic.TcCoe Idealize.ShloMosaic.ValueIdx Cert.KernelIdeal Cert.KernelIdeal.Gen

/-- THE DENSE KERNEL'S NUMBER over the arrays: the transposed matrix holds the matrix transposed, the three 4 by 1 by 4096
    arrays hold the labels, the second labels and the mask as zero or one, row `4096 n + j` at `(n, 0, j)`, and the matrix
    is finite; then the number is the sum over all rows of the masked differences restricted to the classes from 64 on. -/
theorem resD_value (c : Dev nD) (V : (b : Ref sig .tc) → Buf (Elt Ideal) ((c : Thread nD τ).loc b))
    (z : Spec.SZ.Idx → EReal) (cnd : Spec.SB.Idx → BitVec 1) (l lp : Spec.SB.Idx → BitVec 32)
    (hzt : ∀ (r : Fin 16384) (k : Fin 1000),
      @Eq EReal ((V main_v0 : S1000x16384.Idx → Elt Ideal .f32) (ix2 k r)) (z (ix2 r k)))
    (hl3 : ∀ (n : Fin 4) (j : Fin 4096),
      (V main_v3 : S4x1x4096.Idx → BitVec 32) (ix3 n (0 : Fin 1) j) = l (ix1 (Spec.rowTc n j)))
    (hlp3 : ∀ (n : Fin 4) (j : Fin 4096),
      (V main_v4 : S4x1x4096.Idx → BitVec 32) (ix3 n (0 : Fin 1) j) = lp (ix1 (Spec.rowTc n j)))
    (hc3 : ∀ (n : Fin 4) (j : Fin 4096),
      @Eq EReal ((V main_v5 : S4x1x4096.Idx → Elt Ideal .f32) (ix3 n (0 : Fin 1) j))
        (if cnd (ix1 (Spec.rowTc n j)) = 1#1 then 1 else 0))
    (hfin : ∀ ix, z ix ≠ ⊤ ∧ z ix ≠ ⊥) :
    @Eq EReal (Dense.resD (F := Ideal) c V (ix2 0 0)) (Spec.denseOut z cnd l lp) := by
  unfold Dense.resD
  refine DenseValue.denseRes_value z cnd l lp _ _ _ _ ?_ ?_ ?_ ?_ hfin
  · intro n k j
    exact (DenseBlocks.zb_apply c (V main_v0) n k j).trans (hzt (Spec.rowTc n j) (Spec.cls k))
  · intro n j
    exact (DenseBlocks.lb_apply c V n j).trans (hl3 n j)
  · intro n j
    exact (DenseBlocks.lpb_apply c V n j).trans (hlp3 n j)
  · intro n j
    exact (DenseBlocks.cb_apply c V n j).trans (hc3 n j)

end Cert.KernelIdeal.DenseBlocksValue

end
-- ==== Proof.Total.lean ====
/-
  The two parts of the kernel together give the reference value.

  The rows 0 .. 16383 are enumerated once by (worker, group, lane) ↦ 512 w + 16 g + t and once by
  (block, lane) ↦ 4096 i + j; both are bijections onto the rows, so each part's iterated sum is a sum over all rows.
  Row by row, the masked difference restricted to the classes below 64 plus the one restricted to the classes from 64 on
  is the unrestricted one: each label falls in at most one of the two ranges, so of the two restricted entries at
  most one is nonzero, and the identity holds in the extended reals without any finiteness.
-/
import proofs.«202802_g48112223650475_cont_8to1c4_51_21_alg».proof.Proof.Spec

noncomputable section

open scoped BigOperators

namespace Cert.Spec

open Idealize.ShloMosaic Idealize.ShloMosaic.ValueIdx

/-- (worker, lane, group) ↦ row 512 w + 16 g + t enumerates the rows. -/
def equivSc : Fin 32 × Fin 16 × Fin 32 ≃ Fin 16384 where
  toFun p := rowSc p.1 p.2.2 p.2.1
  invFun r := (⟨r.val / 512, by omega⟩, ⟨r.val % 16, by omega⟩, ⟨(r.val % 512) / 16, by omega⟩)
  left_inv p := by
    obtain ⟨w, t, g⟩ := p
    refine Prod.ext (Fin.ext ?_) (Prod.ext (Fin.ext ?_) (Fin.ext ?_))
    · show (512 * w.val + 16 * g.val + t.val) / 512 = w.val
      omega
    · show (512 * w.val + 16 * g.val + t.val) % 16 = t.val
      omega
    · show ((512 * w.val + 16 * g.val + t.val) % 512) / 16 = g.val
      omega
  right_inv r := by
    refine Fin.ext ?_
    show 512 * (r.val / 512) + 16 * ((r.val % 512) / 16) + r.val % 16 = r.val
    omega

/-- (lane, block) ↦ row 4096 i + j enumerates the rows. -/
def equivTc : Fin 4096 × Fin 4 ≃ Fin 16384 where
  toFun p := rowTc p.2 p.1
  invFun r := (⟨r.val % 4096, by omega⟩, ⟨r.val / 4096, by omega⟩)
  left_inv p := by
    obtain ⟨j, i⟩ := p
    refine Prod.ext (Fin.ext ?_) (Fin.ext ?_)
    · show (4096 * i.val + j.val) % 4096 = j.val
      omega
    · show (4096 * i.val + j.val) / 4096 = i.val
      omega
  right_inv r := by
    refine Fin.ext ?_
    show 4096 * (r.val / 4096) + r.val % 4096 = r.val
    omega

/-- A sum over workers, lanes and groups of a function of the row is the sum over the rows. -/
theorem sum_rowSc (f : Fin 16384 → EReal) :
    ∑ w : Fin 32, ∑ t : Fin 16, ∑ g : Fin 32, f (rowSc w g t) = ∑ r : Fin 16384, f r := by
  rw [← Fintype.sum_equiv equivSc (fun p => f (rowSc p.1 p.2.2 p.2.1)) f (fun _ => rfl), Fintype.sum_prod_type]
  refine Finset.sum_congr rfl fun w _ => ?_
  rw [Fintype.sum_prod_type]

/-- A sum over lanes and blocks of a function of the row is the sum over the rows. -/
theorem sum_rowTc (f : Fin 16384 → EReal) :
    ∑ j : Fin 4096, ∑ i : Fin 4, f (rowTc i j) = ∑ r : Fin 16384, f r := by
  rw [← Fintype.sum_equiv equivTc (fun p => f (rowTc p.2 p.1)) f (fun _ => rfl), Fintype.sum_prod_type]

/-- A label's entry lies wholly in one of the two class ranges. -/
theorem pick_split (z : SZ.Idx → EReal) (r : Fin 16384) (k : BitVec 32) :
    (pick z r k 0 64 = pick z r k 0 1000 ∧ pick z r k 64 1000 = 0) ∨
      (pick z r k 0 64 = 0 ∧ pick z r k 64 1000 = pick z r k 0 1000) := by
  unfold pick
  by_cases h : k.toNat < 1000
  · simp only [dif_pos h]
    by_cases h64 : k.toNat < 64
    · left
      refine ⟨?_, ?_⟩
      · rw [if_pos ⟨Nat.zero_le _, h64⟩, if_pos ⟨Nat.zero_le _, h⟩]
      · rw [if_neg (by omega)]
    · right
      refine ⟨?_, ?_⟩
      · rw [if_neg (by omega)]
      · rw [if_pos ⟨by omega, h⟩, if_pos ⟨Nat.zero_le _, h⟩]
  · left
    exact ⟨by rw [dif_neg h, dif_neg h], by rw [dif_neg h]⟩

/-- Row by row the two restricted masked differences add up to the unrestricted one. -/
theorem term_split (z : SZ.Idx → EReal) (cnd : SB.Idx → BitVec 1) (l lp : SB.Idx → BitVec 32) (r : Fin 16384) :
    term z cnd l lp 0 64 r + term z cnd l lp 64 1000 r = term z cnd l lp 0 1000 r := by
  unfold term
  by_cases hc : cnd (ix1 r) = 1#1
  · simp only [if_pos hc]
    rcases pick_split z r (l (ix1 r)) with ⟨h1, h2⟩ | ⟨h1, h2⟩ <;>
      rcases pick_split z r (lp (ix1 r)) with ⟨h3, h4⟩ | ⟨h3, h4⟩ <;> rw [h1, h2, h3, h4]
    · rw [sub_zero, add_zero]
    · rw [sub_zero, zero_sub, sub_eq_add_neg]
    · rw [sub_zero, zero_sub, add_comm, sub_eq_add_neg]
    · rw [sub_zero, zero_add]
  · simp only [if_neg hc, add_zero]

/-- The two parts of the kernel together are the reference value. -/
theorem total_eq_spec (z : SZ.Idx → EReal) (cnd : SB.Idx → BitVec 1) (l lp : SB.Idx → BitVec 32) :
    total z cnd l lp = spec z cnd l lp := by
  unfold total spec denseOut scOut
  rw [sum_rowSc (fun r => term z cnd l lp 0 64 r), sum_rowTc (fun r => term z cnd l lp 64 1000 r),
    ← Finset.sum_add_distrib]
  exact Finset.sum_congr rfl fun r _ => term_split z cnd l lp r

end Cert.Spec

end
-- ==== Proof.ScValue.lean ====
/-
  The value of the vector-subcore kernel on the extended reals.

  One trip of the kernel's loop handles 16 samples, one per lane.  Step `j` of a trip adds to the running 16-lane
  vector "lane = j ? p_j : 0" and subtracts "lane = j ? n_j : 0", where `p_j` and `n_j` are the two 16-lane pieces
  read for sample `j`.  On the extended reals `a + x - y = a + (x - y)` and `a + 0 - 0 = a` hold with no finiteness,
  so after the 16 steps lane `t` has gained exactly `p_t t - n_t t`, and after the 32 trips, started from zero, lane
  `t` holds the sum over the trips of those gains.  A piece is the label's row of the transposed matrix when the
  sample's mask word is not zero and the label is below 64, and sixteen zeros otherwise; so the gain of lane `t` in
  trip `g` is the masked difference of the sample's two entries restricted to the classes below 64.
-/
import proofs.«202802_g48112223650475_cont_8to1c4_51_21_alg».proof.Proof.Gen.KernelIdeal.Skeleton
import proofs.«202802_g48112223650475_cont_8to1c4_51_21_alg».proof.Proof.Spec
import proofs.«202802_g48112223650475_cont_8to1c4_51_21_alg».proof.Proof.ScBody1
import Idealize.ShloMosaic.Lib.ValueLayout

noncomputable section

open scoped BigOperators

namespace Cert.KernelIdeal.ScValue

open Idealize.ShloMosaic Idealize.ShloMosaic.ValueIdx Cert.KernelIdeal Cert.KernelIdeal.Gen

/-! ## Sums on the extended reals -/

/-- Adding and then subtracting is adding the difference: no finiteness is needed. -/
theorem add_sub_assoc_ereal (a x y : EReal) : a + x - y = a + (x - y) := by
  rw [sub_eq_add_neg, sub_eq_add_neg, add_assoc]

/-- A sequence that starts at zero and gains `d g` at step `g` is, after `N` steps, the sum of the gains. -/
theorem sum_of_steps (A d : Nat → EReal) (N : Nat) (h0 : A 0 = 0) (hs : ∀ g, g < N → A (g + 1) = A g + d g) :
    A N = ∑ g : Fin N, d g.val := by
  induction N with
  | zero => simpa using h0
  | succ M ih =>
    rw [hs M (Nat.lt_succ_self M), ih (fun g hg => hs g (Nat.lt_succ_of_lt hg)), Fin.sum_univ_castSucc]
    rfl

/-! ## One step of a trip, at a lane -/

/-- A rank-1 index's coordinate is below the extent, written as the extent itself. -/
theorem idx1_lt {n : Nat} (j : (⟨1, ![n]⟩ : Shape).Idx) : (j 0).val < n := (j 0).isLt

/-- The lane numbers read at a lane. -/
theorem iota_lane (t : Fin 16) : (iota Kind.scVector S16 32 [0] iota_S16_d0_w32_scVector) (ix1 t) = BitVec.ofNat 32 t.val := by
  simp [iota]

/-- The word of the constant zero is the extended real zero. -/
theorem zero_bits : (Scalar.ofBits .f32 0x00000000#32 : Ideal .f32) = 0 := by
  show Ideal.ofBits .f32 0x00000000#32 = 0
  simp [Ideal.ofBits, Ideal.ieee]

/-- A select on "lane `t` is lane `j`" is the `if`. -/
theorem laneSel (t : Fin 16) (j : Nat) (hj : j < 16) (a b : EReal) :
    Scalar.select (IntOp.cmpi .eq (BitVec.ofNat 32 t.val) (BitVec.ofNat 32 j)) a b = if t.val = j then a else b := by
  have ht := t.isLt
  unfold Scalar.select IntOp.cmpi
  by_cases h : t.val = j
  · simp [h]
  · have hne : ¬ (BitVec.ofNat 32 t.val = BitVec.ofNat 32 j) := by
      intro e
      have := congrArg BitVec.toNat e
      simp [BitVec.toNat_ofNat] at this
      omega
    have hb : (BitVec.ofNat 32 t.val == BitVec.ofNat 32 j) = false := by simpa using hne
    simp [h, hb]

/-- One step of a trip: lane `j` gains `p - n` read at that lane, the other lanes gain `0 - 0`. -/
def step (j : Nat) (acc : FVec Ideal S16 .f32) (p n : Vec Ideal S1x16 .f32) : FVec Ideal S16 .f32 :=
  fun i =>
    acc i + (if (i 0).val = j then p (ix2 (0 : Fin 1) (⟨(i 0).val, idx1_lt i⟩ : Fin 16)) else 0)
      - (if (i 0).val = j then n (ix2 (0 : Fin 1) (⟨(i 0).val, idx1_lt i⟩ : Fin 16)) else 0)

/-- A step at a lane: the lane of the step gains the difference, every other lane is unchanged. -/
theorem step_apply (j : Nat) (acc : FVec Ideal S16 .f32) (p n : Vec Ideal S1x16 .f32) (t : Fin 16) :
    step j acc p n (ix1 t)
      = if t.val = j then acc (ix1 t) + (p (ix2 (0 : Fin 1) t) - n (ix2 (0 : Fin 1) t)) else acc (ix1 t) := by
  show acc (ix1 t) + (if t.val = j then p (ix2 (0 : Fin 1) t) else 0) - (if t.val = j then n (ix2 (0 : Fin 1) t) else 0) = _
  by_cases h : t.val = j
  · rw [if_pos h, if_pos h, if_pos h]; exact add_sub_assoc_ereal _ _ _
  · rw [if_neg h, if_neg h, if_neg h, add_zero, sub_zero]

/-- A step is determined by its values at the lanes. -/
theorem step_ext (j : Nat) (acc : FVec Ideal S16 .f32) (p n : Vec Ideal S1x16 .f32) (v : FVec Ideal S16 .f32)
    (h : ∀ t : Fin 16, v (ix1 t) = acc (ix1 t) + (if t.val = j then p (ix2 (0 : Fin 1) t) else 0)
      - (if t.val = j then n (ix2 (0 : Fin 1) t) else 0)) : v = step j acc p n := by
  funext i
  obtain ⟨t, rfl⟩ : ∃ t : Fin 16, i = ix1 t := ⟨i 0, eq_ix1 i⟩
  exact h t

/-! ## The kernel's accumulator payloads are steps -/

theorem pay18_eq (acc : FVec Ideal S16 .f32) (p n : Vec Ideal S1x16 .f32) :
    k0_pay18 (iota Kind.scVector S16 32 [0] iota_S16_d0_w32_scVector) acc p n = step 2 acc p n := by
  refine step_ext _ _ _ _ _ (fun t => ?_)
  unfold k0_pay18
  simp only [subf_apply, addf_apply, select_apply, cmpi, broadcast_apply, shapeCast_1a_a_apply, zero_bits]
  rw [iota_lane]
  rw [laneSel t 2 (by omega), laneSel t 2 (by omega)]

theorem pay22_eq (acc : FVec Ideal S16 .f32) (p n : Vec Ideal S1x16 .f32) :
    k0_pay22 (iota Kind.scVector S16 32 [0] iota_S16_d0_w32_scVector) acc p n = step 3 acc p n := by
  refine step_ext _ _ _ _ _ (fun t => ?_)
  unfold k0_pay22
  simp only [subf_apply, addf_apply, select_apply, cmpi, broadcast_apply, shapeCast_1a_a_apply, zero_bits]
  rw [iota_lane]
  rw [laneSel t 3 (by omega), laneSel t 3 (by omega)]

theorem pay26_eq (acc : FVec Ideal S16 .f32) (p n : Vec Ideal S1x16 .f32) :
    k0_pay26 (iota Kind.scVector S16 32 [0] iota_S16_d0_w32_scVector) acc p n = step 4 acc p n := by
  refine step_ext _ _ _ _ _ (fun t => ?_)
  unfold k0_pay26
  simp only [subf_apply, addf_apply, select_apply, cmpi, broadcast_apply, shapeCast_1a_a_apply, zero_bits]
  rw [iota_lane]
  rw [laneSel t 4 (by omega), laneSel t 4 (by omega)]

theorem pay30_eq (acc : FVec Ideal S16 .f32) (p n : Vec Ideal S1x16 .f32) :
    k0_pay30 (iota Kind.scVector S16 32 [0] iota_S16_d0_w32_scVector) acc p n = step 5 acc p n := by
  refine step_ext _ _ _ _ _ (fun t => ?_)
  unfold k0_pay30
  simp only [subf_apply, addf_apply, select_apply, cmpi, broadcast_apply, shapeCast_1a_a_apply, zero_bits]
  rw [iota_lane]
  rw [laneSel t 5 (by omega), laneSel t 5 (by omega)]

theorem pay34_eq (acc : FVec Ideal S16 .f32) (p n : Vec Ideal S1x16 .f32) :
    k0_pay34 (iota Kind.scVector S16 32 [0] iota_S16_d0_w32_scVector) acc p n = step 6 acc p n := by
  refine step_ext _ _ _ _ _ (fun t => ?_)
  unfold k0_pay34
  simp only [subf_apply, addf_apply, select_apply, cmpi, broadcast_apply, shapeCast_1a_a_apply, zero_bits]
  rw [iota_lane]
  rw [laneSel t 6 (by omega), laneSel t 6 (by omega)]

theorem pay38_eq (acc : FVec Ideal S16 .f32) (p n : Vec Ideal S1x16 .f32) :
    k0_pay38 (iota Kind.scVector S16 32 [0] iota_S16_d0_w32_scVector) acc p n = step 7 acc p n := by
  refine step_ext _ _ _ _ _ (fun t => ?_)
  unfold k0_pay38
  simp only [subf_apply, addf_apply, select_apply, cmpi, broadcast_apply, shapeCast_1a_a_apply, zero_bits]
  rw [iota_lane]
  rw [laneSel t 7 (by omega), laneSel t 7 (by omega)]

theorem pay42_eq (acc : FVec Ideal S16 .f32) (p n : Vec Ideal S1x16 .f32) :
    k0_pay42 (iota Kind.scVector S16 32 [0] iota_S16_d0_w32_scVector) acc p n = step 8 acc p n := by
  refine step_ext _ _ _ _ _ (fun t => ?_)
  unfold k0_pay42
  simp only [subf_apply, addf_apply, select_apply, cmpi, broadcast_apply, shapeCast_1a_a_apply, zero_bits]
  rw [iota_lane]
  rw [laneSel t 8 (by omega), laneSel t 8 (by omega)]

theorem pay62_eq (acc : FVec Ideal S16 .f32) (p n : Vec Ideal S1x16 .f32) :
    k0_pay62 (iota Kind.scVector S16 32 [0] iota_S16_d0_w32_scVector) acc p n = step 12 acc p n := by
  refine step_ext _ _ _ _ _ (fun t => ?_)
  unfold k0_pay62
  simp only [subf_apply, addf_apply, select_apply, cmpi, broadcast_apply, shapeCast_1a_a_apply, zero_bits]
  rw [iota_lane]
  rw [laneSel t 12 (by omega), laneSel t 12 (by omega)]

theorem pay66_eq (acc : FVec Ideal S16 .f32) (p n : Vec Ideal S1x16 .f32) :
    k0_pay66 (iota Kind.scVector S16 32 [0] iota_S16_d0_w32_scVector) acc p n = step 13 acc p n := by
  refine step_ext _ _ _ _ _ (fun t => ?_)
  unfold k0_pay66
  simp only [subf_apply, addf_apply, select_apply, cmpi, broadcast_apply, shapeCast_1a_a_apply, zero_bits]
  rw [iota_lane]
  rw [laneSel t 13 (by omega), laneSel t 13 (by omega)]

theorem pay70_eq (acc : FVec Ideal S16 .f32) (p n : Vec Ideal S1x16 .f32) :
    k0_pay70 (iota Kind.scVector S16 32 [0] iota_S16_d0_w32_scVector) acc p n = step 14 acc p n := by
  refine step_ext _ _ _ _ _ (fun t => ?_)
  unfold k0_pay70
  simp only [subf_apply, addf_apply, select_apply, cmpi, broadcast_apply, shapeCast_1a_a_apply, zero_bits]
  rw [iota_lane]
  rw [laneSel t 14 (by omega), laneSel t 14 (by omega)]

theorem pay14_eq (acc : FVec Ideal S16 .f32) (p0 n0 p1 n1 : Vec Ideal S1x16 .f32) :
    k0_pay14 (iota Kind.scVector S16 32 [0] iota_S16_d0_w32_scVector) acc (k0_pay7 p0) (k0_pay8 n0) (k0_pay9 (iota Kind.scVector S16 32 [0] iota_S16_d0_w32_scVector)) (k0_pay10 (F := Ideal)) p1 n1
      = step 1 (step 0 acc p0 n0) p1 n1 := by
  refine step_ext _ _ _ _ _ (fun t => ?_)
  rw [step_apply]
  unfold k0_pay14 k0_pay7 k0_pay8 k0_pay9 k0_pay10
  simp only [subf_apply, addf_apply, select_apply, cmpi, broadcast_apply, shapeCast_1a_a_apply, zero_bits]
  rw [iota_lane]
  rw [laneSel t 0 (by omega), laneSel t 0 (by omega), laneSel t 1 (by omega), laneSel t 1 (by omega)]
  by_cases h : t.val = 0
  · rw [if_pos h, if_pos h, if_pos h, add_sub_assoc_ereal (acc (ix1 t))]
  · rw [if_neg h, if_neg h, if_neg h, add_zero, sub_zero]

theorem pay47_eq (acc : FVec Ideal S16 .f32) (p n : Vec Ideal S1x16 .f32) :
    k0_pay47 (iota Kind.scVector S16 32 [0] iota_S16_d0_w32_scVector) acc (k0_pay46 p) n = step 9 acc p n := by
  refine step_ext _ _ _ _ _ (fun t => ?_)
  unfold k0_pay47 k0_pay46
  simp only [subf_apply, addf_apply, select_apply, cmpi, broadcast_apply, shapeCast_1a_a_apply, zero_bits]
  rw [iota_lane]
  rw [laneSel t 9 (by omega), laneSel t 9 (by omega)]

theorem pay58_eq (acc : FVec Ideal S16 .f32) (p0 n0 p1 n1 : Vec Ideal S1x16 .f32) :
    k0_pay58 (iota Kind.scVector S16 32 [0] iota_S16_d0_w32_scVector) acc (k0_pay51 p0) (k0_pay52 n0) (k0_pay53 (iota Kind.scVector S16 32 [0] iota_S16_d0_w32_scVector)) (k0_pay54 (F := Ideal)) p1 n1
      = step 11 (step 10 acc p0 n0) p1 n1 := by
  refine step_ext _ _ _ _ _ (fun t => ?_)
  rw [step_apply]
  unfold k0_pay58 k0_pay51 k0_pay52 k0_pay53 k0_pay54
  simp only [subf_apply, addf_apply, select_apply, cmpi, broadcast_apply, shapeCast_1a_a_apply, zero_bits]
  rw [iota_lane]
  rw [laneSel t 10 (by omega), laneSel t 10 (by omega), laneSel t 11 (by omega), laneSel t 11 (by omega)]
  by_cases h : t.val = 10
  · rw [if_pos h, if_pos h, if_pos h, add_sub_assoc_ereal (acc (ix1 t))]
  · rw [if_neg h, if_neg h, if_neg h, add_zero, sub_zero]

theorem pay108_eq (acc : FVec Ideal S16 .f32) (p n : Vec Ideal S1x16 .f32) :
    k0_pay108 acc p n = step 15 acc p n := by
  refine step_ext _ _ _ _ _ (fun t => ?_)
  unfold k0_pay108
  simp only [subf_apply, addf_apply, select_apply, cmpi, broadcast_apply, shapeCast_1a_a_apply, zero_bits]
  rw [iota_lane]
  rw [laneSel t 15 (by omega), laneSel t 15 (by omega)]

/-- The loop starts from the zero vector. -/
theorem pay107_apply (i : S16.Idx) : k0_pay107 (F := Ideal) i = 0 := by
  unfold k0_pay107
  simp only [broadcast_apply, zero_bits]

/-- The stored vector is the loop's result. -/
theorem pay109_eq (v : FVec Ideal S16 .f32) : k0_pay109 v = v := by
  unfold k0_pay109
  exact shapeCast_self v _

/-! ## The 16 steps of a trip -/

/-- The 16 steps of one trip, in the kernel's order. -/
def trip (acc : FVec Ideal S16 .f32) (p n : Fin 16 → Vec Ideal S1x16 .f32) : FVec Ideal S16 .f32 :=
  step 15 (step 14 (step 13 (step 12 (step 11 (step 10 (step 9 (step 8 (step 7 (step 6 (step 5 (step 4 (step 3 (step 2
    (step 1 (step 0 acc (p 0) (n 0)) (p 1) (n 1)) (p 2) (n 2)) (p 3) (n 3)) (p 4) (n 4)) (p 5) (n 5)) (p 6) (n 6))
    (p 7) (n 7)) (p 8) (n 8)) (p 9) (n 9)) (p 10) (n 10)) (p 11) (n 11)) (p 12) (n 12)) (p 13) (n 13)) (p 14) (n 14))
    (p 15) (n 15)

/-- After a trip lane `t` has gained the difference of step `t`'s two pieces at that lane. -/
theorem trip_apply (acc : FVec Ideal S16 .f32) (p n : Fin 16 → Vec Ideal S1x16 .f32) (t : Fin 16) :
    trip acc p n (ix1 t) = acc (ix1 t) + (p t (ix2 (0 : Fin 1) t) - n t (ix2 (0 : Fin 1) t)) := by
  unfold trip
  fin_cases t <;> simp [step_apply]

/-- The program's arithmetic of one trip is the 16 steps. -/
theorem tripPay_eq (a b c : Vec Ideal S16 .i32) (P N : Fin 16 → Vec Ideal S1x16 .f32) (acc : FVec Ideal S16 .f32) :
    ScBody.tripPay (F := Ideal) a b c P N acc = trip acc P N := by
  unfold ScBody.tripPay trip
  dsimp only
  rw [pay14_eq, pay18_eq, pay22_eq, pay26_eq, pay30_eq, pay34_eq, pay38_eq, pay42_eq, pay47_eq, pay58_eq,
    pay62_eq, pay66_eq, pay70_eq, pay108_eq]

/-! ## A piece read, against the reference's entry -/

/-- The piece read for a label under the sample's mask, at the sample's lane, is the sample's entry at the label when
    the mask bit is set and the label is below 64, and zero otherwise. -/
theorem chunk_pick (z : Cert.Spec.SZ.Idx → EReal) (zt : S1000x16384.Idx → Elt Ideal .f32)
    (hzt : ∀ (r : Fin 16384) (k : Fin 1000), zt (ix2 k r) = z (ix2 r k))
    (L : grid0.Coords) (g : Fin 32) (t : Fin 16) (lab : BitVec 32) (b : BitVec 1) (hlab : lab.toNat ≤ 999) :
    @Eq EReal (ScBody.chunk (F := Ideal) zt L g lab (b.setWidth 32) (ix2 (0 : Fin 1) t))
      (if b = 1#1 then Cert.Spec.pick z (Cert.Spec.rowSc ⟨ScBody.wid L, ScBody.wid_lt L⟩ g t) lab 0 64 else 0) := by
  have h1000 : lab.toNat < 1000 := by omega
  unfold ScBody.chunk Cert.Spec.pick
  rcases BitVec.eq_zero_or_eq_one b with hb | hb
  · subst hb
    rw [dif_neg (fun h => h.1 (by decide)), if_neg (by decide : ¬((0#1 : BitVec 1) = 1#1))]
    exact zero_bits
  · subst hb
    rw [if_pos rfl, dif_pos h1000]
    by_cases h64 : lab.toNat < 64
    · rw [dif_pos ⟨by decide, h64⟩, if_pos ⟨Nat.zero_le _, h64⟩]
      exact hzt (Cert.Spec.rowSc ⟨ScBody.wid L, ScBody.wid_lt L⟩ g t) ⟨lab.toNat, h1000⟩
    · rw [dif_neg (fun h => h64 h.2), if_neg (fun h => h64 h.2)]
      exact zero_bits

/-! ## The 32 trips -/

/-- THE VALUE: row `w` of the 32 by 16 result, at lane `t`, is the sum over the 32 groups `g` of the masked differences
    of the samples `512 w + 16 g + t` restricted to the classes below 64. -/
theorem scRow_value
    (z : Cert.Spec.SZ.Idx → EReal) (zt : S1000x16384.Idx → Elt Ideal .f32)
    (cnd : Cert.Spec.SB.Idx → BitVec 1) (cnd32 l lp : S16384.Idx → BitVec 32)
    (hzt : ∀ (r : Fin 16384) (k : Fin 1000), zt (ix2 k r) = z (ix2 r k))
    (hc : ∀ r : Fin 16384, cnd32 (ix1 r) = (cnd (ix1 r)).setWidth 32)
    (hl : ∀ r : Fin 16384, (l (ix1 r)).toNat ≤ 999) (hlp : ∀ r : Fin 16384, (lp (ix1 r)).toNat ≤ 999)
    (L : grid0.Coords) (w' : Fin 32) (t : Fin 16) :
    @Eq EReal (ScBody.scRow (F := Ideal) zt l lp cnd32 L (ix2 w' t))
      (Cert.Spec.scOut z cnd l lp ⟨ScBody.wid L, ScBody.wid_lt L⟩ t) := by
  -- the gain of lane `t` in trip `g`
  let d : Nat → EReal := fun g =>
    if h : g < 32 then Cert.Spec.term z cnd l lp 0 64 (Cert.Spec.rowSc ⟨ScBody.wid L, ScBody.wid_lt L⟩ ⟨g, h⟩ t) else 0
  have hstep : ∀ g, g < 32 → @Eq EReal (ScBody.accAt (F := Ideal) zt l lp cnd32 L (g + 1) (ix1 t))
      (ScBody.accAt (F := Ideal) zt l lp cnd32 L g (ix1 t) + d g) := by
    intro g hg
    have e1 : ScBody.accAt (F := Ideal) zt l lp cnd32 L (g + 1)
        = ScBody.tripVal (F := Ideal) zt l lp cnd32 L ⟨g, hg⟩ (ScBody.accAt (F := Ideal) zt l lp cnd32 L g) := by
      show (if h : g < 32 then ScBody.tripVal (F := Ideal) zt l lp cnd32 L ⟨g, h⟩ (ScBody.accAt (F := Ideal) zt l lp cnd32 L g)
        else ScBody.accAt (F := Ideal) zt l lp cnd32 L g) = _
      rw [dif_pos hg]
    rw [e1]
    unfold ScBody.tripVal
    rw [tripPay_eq, trip_apply]
    congr 1
    show @Eq EReal (ScBody.chunk (F := Ideal) zt L ⟨g, hg⟩
          (l (ix1 (Cert.Spec.rowSc ⟨ScBody.wid L, ScBody.wid_lt L⟩ ⟨g, hg⟩ t)))
          (cnd32 (ix1 (Cert.Spec.rowSc ⟨ScBody.wid L, ScBody.wid_lt L⟩ ⟨g, hg⟩ t))) (ix2 (0 : Fin 1) t)
        - ScBody.chunk (F := Ideal) zt L ⟨g, hg⟩
          (lp (ix1 (Cert.Spec.rowSc ⟨ScBody.wid L, ScBody.wid_lt L⟩ ⟨g, hg⟩ t)))
          (cnd32 (ix1 (Cert.Spec.rowSc ⟨ScBody.wid L, ScBody.wid_lt L⟩ ⟨g, hg⟩ t))) (ix2 (0 : Fin 1) t)) (d g)
    rw [hc, chunk_pick z zt hzt L ⟨g, hg⟩ t _ _ (hl _), chunk_pick z zt hzt L ⟨g, hg⟩ t _ _ (hlp _)]
    show _ = (if h : g < 32 then _ else _)
    rw [dif_pos hg]
    unfold Cert.Spec.term
    by_cases hb : cnd (ix1 (Cert.Spec.rowSc ⟨ScBody.wid L, ScBody.wid_lt L⟩ ⟨g, hg⟩ t)) = 1#1
    · rw [if_pos hb, if_pos hb, if_pos hb]
    · rw [if_neg hb, if_neg hb, if_neg hb, sub_zero]
  have h0 : @Eq EReal (ScBody.accAt (F := Ideal) zt l lp cnd32 L 0 (ix1 t)) 0 := pay107_apply _
  have hsum := sum_of_steps (fun g => ScBody.accAt (F := Ideal) zt l lp cnd32 L g (ix1 t)) d 32 h0 hstep
  show @Eq EReal (k0_pay109 (ScBody.accAt (F := Ideal) zt l lp cnd32 L 32) (ix1 t)) _
  rw [pay109_eq]
  refine hsum.trans ?_
  unfold Cert.Spec.scOut
  refine Finset.sum_congr rfl (fun g _ => ?_)
  show (if h : g.val < 32 then _ else _) = _
  rw [dif_pos g.isLt]

end Cert.KernelIdeal.ScValue

end
-- ==== Proof.Bridge.lean ====
/-
  From the two kernels' values to the reference value, on the extended reals, over arrays and hypotheses only.

  The host side prepares the kernels' operands: the matrix transposed, the mask widened to a 32-bit word and converted to
  a float, the label vectors and the float mask cut into four blocks of 4096.  Read at an index each of these is an entry
  of the argument it came from.  With every worker's row of the 32 by 16 array read as that worker's sums over its rows
  restricted to the classes below 64, and the dense number read as the sum over all rows restricted to the classes from 64
  on, the combine kernel's number is the two parts together, which is the reference value.
-/
import proofs.«202802_g48112223650475_cont_8to1c4_51_21_alg».proof.Proof.Total
import proofs.«202802_g48112223650475_cont_8to1c4_51_21_alg».proof.Proof.CombValue
import proofs.«202802_g48112223650475_cont_8to1c4_51_21_alg».proof.Proof.ScValue
import Idealize.ShloMosaic.Lib.ValueLayout

noncomputable section

open scoped BigOperators

namespace Cert.KernelIdeal.Bridge

open Idealize.ShloMosaic Idealize.ShloMosaic.ValueIdx Cert.KernelIdeal Cert.KernelIdeal.Gen

/-! ## The host conversions and layout changes read at an index -/

/-- A one-bit word converted to a float, on the extended reals, is one where the bit is set and zero elsewhere. -/
theorem uitofp_bit (b : BitVec 1) : @Eq EReal (FloatOps.uitofp (F := Ideal) .f32 b) (if b = 1#1 then 1 else 0) := by
  show (((b.toNat : ℝ)) : EReal) = _
  rcases BitVec.eq_zero_or_eq_one b with h | h
  · rw [h, if_neg (by decide)]
    simp
  · rw [h, if_pos rfl]
    simp

/-- The same for a vector of bits, at an index. -/
theorem uitofp_bit_apply {s : Shape} (x : IVec s 1) (i : s.Idx) :
    @Eq EReal (uitofp (F := Ideal) .f32 x i) (if x i = 1#1 then 1 else 0) :=
  uitofp_bit (x i)

/-- A vector of bits widened to 32-bit words reads, at an index, the bit widened. -/
theorem extui_bit_apply {s : Shape} (x : IVec s 1) (h : 1 < 32) (i : s.Idx) : extui 32 x h i = (x i).setWidth 32 := rfl

/-- The transposed matrix at (class, row) is the matrix at (row, class). -/
theorem transpose_apply {α : Type} (z : S16384x1000.Idx → α) (k : Fin 1000) (r : Fin 16384) :
    transpose S1000x16384 [1, 0] z transposes_S16384x1000_S1000x16384_1_0 (ix2 k r) = z (ix2 r k) :=
  transpose_ix2_apply z _ k r

/-- A vector over the rows cut into four blocks of 4096 reads, at (block, 0, lane), the vector at row 4096 block + lane. -/
theorem reshape_rows_apply {α : Type} (x : S16384.Idx → α) (n : Fin 4) (j : Fin 4096) :
    shapeCast S4x1x4096 x shapeCasts_S16384_S4x1x4096 (ix3 n (0 : Fin 1) j) = x (ix1 (Spec.rowTc n j)) :=
  shapeCast_apply x _ _ _ (by
    rw [Shape.rowMajor_val_one, Shape.rowMajor_val_three]
    show 4096 * n.val + j.val = (n.val * 1 + 0) * 4096 + j.val
    omega)

/-- A one by one array viewed as a scalar reads its one entry. -/
theorem reshape_scalar_apply {α : Type} (x : S1x1.Idx → α) :
    shapeCast S_ x shapeCasts_S1x1_S_ ix0 = x (ix2 (0 : Fin 1) (0 : Fin 1)) :=
  shapeCast_apply x _ _ _ (by
    have h1 : (S1x1.rowMajor (ix2 (0 : Fin 1) (0 : Fin 1))).val < 1 :=
      lt_of_lt_of_eq (S1x1.rowMajor (ix2 (0 : Fin 1) (0 : Fin 1))).isLt (by decide)
    have h2 : (S_.rowMajor ix0).val < 1 := lt_of_lt_of_eq (S_.rowMajor ix0).isLt (by decide)
    omega)

/-! ## Words in a signed range -/

/-- A 32-bit word whose signed reading lies between 0 and 999 has unsigned reading at most 999. -/
theorem toNat_le_of_toInt (x : BitVec 32) (h0 : 0 ≤ x.toInt) (h1 : x.toInt ≤ 999) : x.toNat ≤ 999 := by
  have hx : x.toNat < 2 ^ 32 := x.isLt
  rw [BitVec.toInt_eq_toNat_cond] at h0 h1
  by_cases hc : 2 * x.toNat < 2 ^ 32
  · rw [if_pos hc] at h0 h1
    omega
  · rw [if_neg hc] at h0 h1
    omega

/-! ## The workers' places -/

/-- The place of the grid that worker w runs at: core w / 16, subcore w % 16. -/
def Lw (w : Fin 32) : grid0.Coords := fun a =>
  match a with
  | ⟨0, _⟩ => (⟨w.val / 16, by have := w.isLt; omega⟩ : Fin 2)
  | ⟨1, _⟩ => (⟨w.val % 16, by omega⟩ : Fin 16)

/-- Its worker number is w. -/
theorem wid_Lw (w : Fin 32) : ScBody.wid (Lw w) = w.val := by
  unfold ScBody.wid
  show 16 * (w.val / 16) + w.val % 16 = w.val
  omega

/-! ## The bridge -/

/-- The combine kernel's number is the reference value, given each worker's row and the dense number; the workers' places
    are any places numbered as the workers are. -/
theorem bridge_at (Lc : Fin 32 → grid0.Coords) (hLc : ∀ w : Fin 32, ScBody.wid (Lc w) = w.val)
    (z : Spec.SZ.Idx → EReal) (zt : S1000x16384.Idx → Elt Ideal .f32)
    (cnd : Spec.SB.Idx → BitVec 1) (cnd32 l lp : S16384.Idx → BitVec 32)
    (hzt : ∀ (r : Fin 16384) (k : Fin 1000), zt (ix2 k r) = z (ix2 r k))
    (hc : ∀ r : Fin 16384, cnd32 (ix1 r) = (cnd (ix1 r)).setWidth 32)
    (hl : ∀ r : Fin 16384, (l (ix1 r)).toNat ≤ 999) (hlp : ∀ r : Fin 16384, (lp (ix1 r)).toNat ≤ 999)
    (part : Vec Ideal S32x16 .f32) (tcs : Vec Ideal S1x1 .f32)
    (hpart : ∀ (w : Fin 32) (t : Fin 16),
      part (ix2 w t) = ScBody.scRow (F := Ideal) zt l lp cnd32 (Lc w) (ix2 w t))
    (hdense : @Eq EReal (tcs (ix2 0 0)) (Spec.denseOut z cnd l lp)) :
    @Eq EReal (Vals.combRes (F := Ideal) part tcs (ix2 0 0)) (Spec.spec z cnd l lp) := by
  rw [CombValue.combRes_value, hdense, ← Spec.total_eq_spec]
  unfold Spec.total
  refine congrArg (fun s : EReal => s + Spec.denseOut z cnd l lp) ?_
  refine Finset.sum_congr rfl fun w _ => Finset.sum_congr rfl fun t _ => ?_
  rw [hpart w t, ScValue.scRow_value z zt cnd cnd32 l lp hzt hc hl hlp (Lc w) w t]
  exact congrArg (fun q => Spec.scOut z cnd l lp q t) (Fin.ext (hLc w))

/-- The same at the places core w / 16, subcore w % 16. -/
theorem bridge (z : Spec.SZ.Idx → EReal) (zt : S1000x16384.Idx → Elt Ideal .f32)
    (cnd : Spec.SB.Idx → BitVec 1) (cnd32 l lp : S16384.Idx → BitVec 32)
    (hzt : ∀ (r : Fin 16384) (k : Fin 1000), zt (ix2 k r) = z (ix2 r k))
    (hc : ∀ r : Fin 16384, cnd32 (ix1 r) = (cnd (ix1 r)).setWidth 32)
    (hl : ∀ r : Fin 16384, (l (ix1 r)).toNat ≤ 999) (hlp : ∀ r : Fin 16384, (lp (ix1 r)).toNat ≤ 999)
    (part : Vec Ideal S32x16 .f32) (tcs : Vec Ideal S1x1 .f32)
    (hpart : ∀ (w : Fin 32) (t : Fin 16),
      part (ix2 w t) = ScBody.scRow (F := Ideal) zt l lp cnd32 (Lw w) (ix2 w t))
    (hdense : @Eq EReal (tcs (ix2 0 0)) (Spec.denseOut z cnd l lp)) :
    @Eq EReal (Vals.combRes (F := Ideal) part tcs (ix2 0 0)) (Spec.spec z cnd l lp) :=
  bridge_at Lw wid_Lw z zt cnd cnd32 l lp hzt hc hl hlp part tcs hpart hdense

/-- The same from the labels' signed ranges. -/
theorem bridge_of_signed (z : Spec.SZ.Idx → EReal) (zt : S1000x16384.Idx → Elt Ideal .f32)
    (cnd : Spec.SB.Idx → BitVec 1) (cnd32 l lp : S16384.Idx → BitVec 32)
    (hzt : ∀ (r : Fin 16384) (k : Fin 1000), zt (ix2 k r) = z (ix2 r k))
    (hc : ∀ r : Fin 16384, cnd32 (ix1 r) = (cnd (ix1 r)).setWidth 32)
    (hl : ∀ i : S16384.Idx, 0 ≤ (l i).toInt ∧ (l i).toInt ≤ 999)
    (hlp : ∀ i : S16384.Idx, 0 ≤ (lp i).toInt ∧ (lp i).toInt ≤ 999)
    (part : Vec Ideal S32x16 .f32) (tcs : Vec Ideal S1x1 .f32)
    (hpart : ∀ (w : Fin 32) (t : Fin 16),
      part (ix2 w t) = ScBody.scRow (F := Ideal) zt l lp cnd32 (Lw w) (ix2 w t))
    (hdense : @Eq EReal (tcs (ix2 0 0)) (Spec.denseOut z cnd l lp)) :
    @Eq EReal (Vals.combRes (F := Ideal) part tcs (ix2 0 0)) (Spec.spec z cnd l lp) :=
  bridge z zt cnd cnd32 l lp hzt hc
    (fun r => toNat_le_of_toInt _ (hl (ix1 r)).1 (hl (ix1 r)).2)
    (fun r => toNat_le_of_toInt _ (hlp (ix1 r)).1 (hlp (ix1 r)).2) part tcs hpart hdense

end Cert.KernelIdeal.Bridge

end
-- ==== Proof.HostValue.lean ====
/-
  What the host side hands the kernels, read at an index, on the extended reals.

  After the six host operations that precede the kernels, the transposed matrix at (class, row) is the matrix at
  (row, class); the widened mask at a row is the mask bit widened; the two label arrays cut into four blocks read, at
  (block, 0, lane), the label at row 4096 block + lane; the float mask cut the same way reads one where the mask bit is
  set and zero elsewhere; and the arguments themselves are unchanged.
-/
import proofs.«202802_g48112223650475_cont_8to1c4_51_21_alg».proof.Proof.Host
import proofs.«202802_g48112223650475_cont_8to1c4_51_21_alg».proof.Proof.Bridge

noncomputable section

namespace Cert.KernelIdeal.HostValue

open Idealize.ShloMosaic Idealize.ShloMosaic.TcCoe Idealize.ShloMosaic.ValueIdx Cert.KernelIdeal Cert.KernelIdeal.Gen

variable (W : Valuation τ sig (Elt Ideal))

/-- The transposed matrix at (class, row) is the matrix at (row, class). -/
theorem v0_apply (k : Fin 1000) (r : Fin 16384) :
    @Eq EReal ((StableHlo.after Host.hostOpsA W (Proc.devRef .tc main_v0) : S1000x16384.Idx → Elt Ideal .f32) (ix2 k r))
      ((W (Proc.devRef .tc main_arg0) : S16384x1000.Idx → Elt Ideal .f32) (ix2 r k)) := by
  rw [Host.afterA_v0]
  exact Bridge.transpose_apply _ k r

/-- The widened mask at a row is the mask bit widened. -/
theorem v1_apply (r : Fin 16384) :
    (StableHlo.after Host.hostOpsA W (Proc.devRef .tc main_v1) : S16384.Idx → BitVec 32) (ix1 r)
      = ((W (Proc.devRef .tc main_arg1) : S16384.Idx → BitVec 1) (ix1 r)).setWidth 32 := by
  rw [Host.afterA_v1]
  rfl

/-- The first labels cut into blocks read, at (block, 0, lane), the label at row 4096 block + lane. -/
theorem v3_apply (n : Fin 4) (j : Fin 4096) :
    (StableHlo.after Host.hostOpsA W (Proc.devRef .tc main_v3) : S4x1x4096.Idx → BitVec 32) (ix3 n (0 : Fin 1) j)
      = (W (Proc.devRef .tc main_arg2) : S16384.Idx → BitVec 32) (ix1 (Spec.rowTc n j)) := by
  rw [Host.afterA_v3]
  exact Bridge.reshape_rows_apply _ n j

/-- The second labels likewise. -/
theorem v4_apply (n : Fin 4) (j : Fin 4096) :
    (StableHlo.after Host.hostOpsA W (Proc.devRef .tc main_v4) : S4x1x4096.Idx → BitVec 32) (ix3 n (0 : Fin 1) j)
      = (W (Proc.devRef .tc main_arg3) : S16384.Idx → BitVec 32) (ix1 (Spec.rowTc n j)) := by
  rw [Host.afterA_v4]
  exact Bridge.reshape_rows_apply _ n j

/-- The float mask cut into blocks reads, at (block, 0, lane), one where the mask bit of row 4096 block + lane is set and
    zero elsewhere. -/
theorem v5_apply (n : Fin 4) (j : Fin 4096) :
    @Eq EReal ((StableHlo.after Host.hostOpsA W (Proc.devRef .tc main_v5) : S4x1x4096.Idx → Elt Ideal .f32) (ix3 n (0 : Fin 1) j))
      (if (W (Proc.devRef .tc main_arg1) : S16384.Idx → BitVec 1) (ix1 (Spec.rowTc n j)) = 1#1 then 1 else 0) := by
  rw [Host.afterA_v5]
  exact (Bridge.reshape_rows_apply _ n j).trans (Bridge.uitofp_bit_apply _ _)

/-- The arguments are unchanged by the host operations. -/
theorem arg0_eq : StableHlo.after Host.hostOpsA W (Proc.devRef .tc main_arg0) = W (Proc.devRef .tc main_arg0) :=
  Host.afterA_of_not_mem W (by decide)
theorem arg1_eq : StableHlo.after Host.hostOpsA W (Proc.devRef .tc main_arg1) = W (Proc.devRef .tc main_arg1) :=
  Host.afterA_of_not_mem W (by decide)
theorem arg2_eq : StableHlo.after Host.hostOpsA W (Proc.devRef .tc main_arg2) = W (Proc.devRef .tc main_arg2) :=
  Host.afterA_of_not_mem W (by decide)
theorem arg3_eq : StableHlo.after Host.hostOpsA W (Proc.devRef .tc main_arg3) = W (Proc.devRef .tc main_arg3) :=
  Host.afterA_of_not_mem W (by decide)

end Cert.KernelIdeal.HostValue

end
-- ==== Proof.RunValue.lean ====
/-
  The value the whole program computes on one device, on the extended reals, from the launch contents of its arrays.

  After the host operations the streaming part leaves the 32 by 16 array whose row w is worker w's sums; the dense kernel
  is entered at the arrays with that array in place and leaves its number; the combine kernel adds the array's entries
  and that number.  Under the precondition (the matrix finite, both label vectors between 0 and 999) the result is the
  reference value of the four arguments.
-/
import proofs.«202802_g48112223650475_cont_8to1c4_51_21_alg».proof.Proof.LaunchB
import proofs.«202802_g48112223650475_cont_8to1c4_51_21_alg».proof.Proof.DenseBlocksValue
import proofs.«202802_g48112223650475_cont_8to1c4_51_21_alg».proof.Proof.HostValue

noncomputable section

namespace Cert.KernelIdeal.RunValue

open Idealize.ShloMosaic Idealize.ShloMosaic.TcCoe Idealize.ShloMosaic.ValueIdx Cert.KernelIdeal Cert.KernelIdeal.Gen

/-- A TensorCore reference as a buffer of the device. -/
abbrev dr (b : Ref sig .tc) : DevRef τ sig := Proc.devRef .tc b

variable (TS : LaunchA.TileSets Ideal) (W : Valuation τ sig (Elt Ideal))

/-- The arrays after the six host operations. -/
abbrev V1 : Valuation τ sig (Elt Ideal) := StableHlo.after Host.hostOpsA W

/-- The 32 by 16 array the streaming part leaves: row w read off worker w's value. -/
def part : Vec Ideal S32x16 .f32 :=
  LaunchB.scOut TS (V1 W (dr main_v0)) (V1 W (dr main_arg2)) (V1 W (dr main_arg3)) (V1 W (dr main_v1))

/-- The arrays after the streaming part. -/
def W2 : Valuation τ sig (Elt Ideal) := Function.update (V1 W) (dr main_v6) (part TS W)

/-- The same as the dense kernel's region names them. -/
def Vin0 (c : Dev nD) : (b : Ref sig .tc) → Buf (Elt Ideal) ((c : Thread nD τ).loc b) := fun b => W2 TS W (dr b)

theorem W2_ne {b : DevRef τ sig} (h : b ≠ dr main_v6) : W2 TS W b = V1 W b := Function.update_of_ne h _ _

theorem W2_o : W2 TS W (dr main_v6) = part TS W := Function.update_self _ _ _

/-- THE VALUE on one device: the combine kernel's number, from the streaming part's array and the dense kernel's number,
    is the reference value of the four arguments. -/
theorem core (hscRow : TS.scRow = ScBody.scRow (F := Ideal)) (c : Dev nD)
    (hfin : ∀ ix : S16384x1000.Idx, @Ne EReal ((W (dr main_arg0) : S16384x1000.Idx → EReal) ix) ⊤
      ∧ @Ne EReal ((W (dr main_arg0) : S16384x1000.Idx → EReal) ix) ⊥)
    (hl : ∀ i : S16384.Idx, 0 ≤ ((W (dr main_arg2) : S16384.Idx → BitVec 32) i).toInt
      ∧ ((W (dr main_arg2) : S16384.Idx → BitVec 32) i).toInt ≤ 999)
    (hlp : ∀ i : S16384.Idx, 0 ≤ ((W (dr main_arg3) : S16384.Idx → BitVec 32) i).toInt
      ∧ ((W (dr main_arg3) : S16384.Idx → BitVec 32) i).toInt ≤ 999) :
    @Eq EReal (Vals.combRes (F := Ideal) (part TS W) (Dense.resD c (Vin0 TS W c)) (ix2 0 0))
      (Spec.spec (W (dr main_arg0)) (W (dr main_arg1)) (W (dr main_arg2)) (W (dr main_arg3))) := by
  have e2 : V1 W (dr main_arg2) = W (dr main_arg2) := HostValue.arg2_eq W
  have e3 : V1 W (dr main_arg3) = W (dr main_arg3) := HostValue.arg3_eq W
  refine Bridge.bridge_at
    (fun w => LaunchA.Lof (F := Ideal) (LaunchB.taskOf (F := Ideal) w.val w.isLt).1 (LaunchB.taskOf (F := Ideal) w.val w.isLt).2)
    (fun w => LaunchB.wid_taskOf (F := Ideal) w.val w.isLt)
    (W (dr main_arg0)) (V1 W (dr main_v0)) (W (dr main_arg1)) (V1 W (dr main_v1)) (W (dr main_arg2)) (W (dr main_arg3))
    (fun r k => HostValue.v0_apply W k r) (fun r => HostValue.v1_apply W r)
    (fun r => Bridge.toNat_le_of_toInt _ (hl (ix1 r)).1 (hl (ix1 r)).2)
    (fun r => Bridge.toNat_le_of_toInt _ (hlp (ix1 r)).1 (hlp (ix1 r)).2)
    (part TS W) (Dense.resD c (Vin0 TS W c)) ?_ ?_
  · intro w t
    unfold part LaunchB.scOut
    rw [hscRow, e2, e3]
  · refine DenseBlocksValue.resD_value c (Vin0 TS W c) (W (dr main_arg0)) (W (dr main_arg1)) (W (dr main_arg2))
      (W (dr main_arg3)) ?_ ?_ ?_ ?_ hfin
    · intro r k
      unfold Vin0
      rw [W2_ne TS W (show dr main_v0 ≠ dr main_v6 by decide)]
      exact HostValue.v0_apply W k r
    · intro n j
      unfold Vin0
      rw [W2_ne TS W (show dr main_v3 ≠ dr main_v6 by decide)]
      exact HostValue.v3_apply W n j
    · intro n j
      unfold Vin0
      rw [W2_ne TS W (show dr main_v4 ≠ dr main_v6 by decide)]
      exact HostValue.v4_apply W n j
    · intro n j
      unfold Vin0
      rw [W2_ne TS W (show dr main_v5 ≠ dr main_v6 by decide)]
      exact HostValue.v5_apply W n j

end Cert.KernelIdeal.RunValue

end
-- ==== Proof.Algebraic.lean ====
/-
  The kernel's program and the reference compute the same number on the extended reals.

  The kernel's run ends with its four arguments unchanged and its result at the value the host operations, the streaming
  part, the dense kernel and the combine kernel compose to; under the precondition that value is the reference value of
  the four arguments.  The reference's run ends with its result at the reference value of its own arguments, which agree
  with the kernel's.
-/
import proofs.«202802_g48112223650475_cont_8to1c4_51_21_alg».proof.Defs
import proofs.«202802_g48112223650475_cont_8to1c4_51_21_alg».proof.Proof.Gen.ReferenceIdeal
import proofs.«202802_g48112223650475_cont_8to1c4_51_21_alg».proof.Proof.Gen.Pre_input_domain
import proofs.«202802_g48112223650475_cont_8to1c4_51_21_alg».proof.Proof.RefValue
import proofs.«202802_g48112223650475_cont_8to1c4_51_21_alg».proof.Proof.PreDecode
import proofs.«202802_g48112223650475_cont_8to1c4_51_21_alg».proof.Proof.LibFinite
import proofs.«202802_g48112223650475_cont_8to1c4_51_21_alg».proof.Proof.Launch
import proofs.«202802_g48112223650475_cont_8to1c4_51_21_alg».proof.Proof.Combine
import proofs.«202802_g48112223650475_cont_8to1c4_51_21_alg».proof.Proof.RunValue

noncomputable section

namespace Cert.KernelIdeal.Algebraic

open Idealize.ShloMosaic Idealize.ShloMosaic.TcCoe Idealize.ShloMosaic.ValueIdx Idealize.SL.Sem
open Cert.KernelIdeal Cert.KernelIdeal.Gen
open Cert.KernelIdeal.Launch (dr W0 W1 W2 W3 W4 Vin0 Vin1 QC)

variable (TS : LaunchA.TileSets Ideal) (m : (ℓ : Loc nD τ sig) → Buf (Elt Ideal) ℓ)

/-- The dense kernel's number, from the arrays after the streaming part. -/
abbrev v7 : (d : Dev nD) → Buf (Elt Ideal) ((d.tc : Thread nD τ).loc main_v7) :=
  fun d => Dense.resD d (Vin0 TS m Host.hostOpsA d)

/-- The combine kernel's number, from the arrays after the dense kernel. -/
abbrev v8 : (d : Dev nD) → Buf (Elt Ideal) ((d.tc : Thread nD τ).loc main_v8) :=
  fun d => Combine.v8 (Vin1 TS m Host.hostOpsA (v7 TS m)) d

/-! ## The arguments at the end of the run -/

/-- An argument is untouched by everything the program writes. -/
theorem W4_arg (c : Dev nD) (r : Ref sig .tc) (hA : r ∉ Host.writesA) (h6 : dr r ≠ dr main_v6) (h7 : dr r ≠ dr main_v7)
    (h8 : dr r ≠ dr main_v8) (h9 : r ≠ main_v9) :
    W4 TS m Host.hostOpsA Host.hostOpsB (v7 TS m) (v8 TS m) c (dr r) = m (c, dr r) := by
  unfold W4
  rw [Host.afterB_of_ne _ h9]
  unfold W3
  rw [Function.update_of_ne h8, Function.update_of_ne h7]
  unfold W2
  rw [Function.update_of_ne h6]
  unfold W1
  rw [Host.afterA_of_not_mem _ hA]
  rfl

/-! ## The result at the end of the run -/

/-- THE VALUE of the kernel's result: the reference value of its four arguments. -/
theorem run_value (hscRow : TS.scRow = ScBody.scRow (F := Ideal))
    (hpre : Cert.Pre_KernelIdeal (hPre_input_domain := Cert.Pre_input_domain.Gen.facts) m) (c : Dev nD) :
    @Eq EReal (W4 TS m Host.hostOpsA Host.hostOpsB (v7 TS m) (v8 TS m) c (dr main_v9) ix0)
      (Spec.spec (m ((c.tc : Thread nD τ).loc main_arg0)) (m ((c.tc : Thread nD τ).loc main_arg1))
        (m ((c.tc : Thread nD τ).loc main_arg2)) (m ((c.tc : Thread nD τ).loc main_arg3))) := by
  obtain ⟨hreal, hl, hlp⟩ := Cert.PreDecode.decode _ _ _ _ (hpre c)
  unfold W4
  rw [Host.afterB_v9_apply]
  unfold W3
  rw [Function.update_self]
  have e6 : Vin1 TS m Host.hostOpsA (v7 TS m) c main_v6 = RunValue.part TS (W0 m c) := by
    refine (Function.update_of_ne (show main_v6 ≠ main_v7 by decide) _ _).trans ?_
    show W2 TS m Host.hostOpsA c (dr main_v6) = _
    rw [Launch.W2_o]
    rfl
  have e7 : Vin1 TS m Host.hostOpsA (v7 TS m) c main_v7 = Dense.resD c (RunValue.Vin0 TS (W0 m c) c) :=
    Function.update_self _ _ _
  show @Eq EReal (Vals.combRes (F := Ideal) (Vin1 TS m Host.hostOpsA (v7 TS m) c main_v6)
    (Vin1 TS m Host.hostOpsA (v7 TS m) c main_v7) (ix2 0 0)) _
  rw [e6, e7]
  exact RunValue.core TS (W0 m c) hscRow c (fun ix => Cert.Finite.isReal_iff_ne.mp (hreal ix)) hl hlp

/-! ## The reference's run -/

/-- The reference runs, its arguments unchanged and its result at the reference value of them. -/
theorem ref_side (m' : (ℓ : Loc Cert.ReferenceIdeal.nD Cert.ReferenceIdeal.τ Cert.ReferenceIdeal.sig) → Buf (Elt Ideal) ℓ)
    (g' : Dev Cert.ReferenceIdeal.nD → PrngReg)
    (hpre : Cert.Pre_ReferenceIdeal (hPre_input_domain := Cert.Pre_input_domain.Gen.facts) m') :
    θ_run (Cert.ReferenceIdeal.defs (F := Ideal)) (onTc (τ := Cert.ReferenceIdeal.τ) (Cert.ReferenceIdeal.main (F := Ideal)))
      ⟨m', fun _ => 0, g'⟩ (fun r => ∀ c : Dev Cert.ReferenceIdeal.nD,
      r.2.mem ((c.tc : Thread Cert.ReferenceIdeal.nD Cert.ReferenceIdeal.τ).loc Cert.ReferenceIdeal.main_v32)
        = (fun _ => Cert.Spec.spec (m' ((c.tc : Thread _ _).loc Cert.ReferenceIdeal.main_arg0))
            (m' ((c.tc : Thread _ _).loc Cert.ReferenceIdeal.main_arg1)) (m' ((c.tc : Thread _ _).loc Cert.ReferenceIdeal.main_arg2))
            (m' ((c.tc : Thread _ _).loc Cert.ReferenceIdeal.main_arg3)))
      ∧ r.2.mem ((c.tc : Thread _ _).loc Cert.ReferenceIdeal.main_arg0) = m' ((c.tc : Thread _ _).loc Cert.ReferenceIdeal.main_arg0)
      ∧ r.2.mem ((c.tc : Thread _ _).loc Cert.ReferenceIdeal.main_arg1) = m' ((c.tc : Thread _ _).loc Cert.ReferenceIdeal.main_arg1)
      ∧ r.2.mem ((c.tc : Thread _ _).loc Cert.ReferenceIdeal.main_arg2) = m' ((c.tc : Thread _ _).loc Cert.ReferenceIdeal.main_arg2)
      ∧ r.2.mem ((c.tc : Thread _ _).loc Cert.ReferenceIdeal.main_arg3) = m' ((c.tc : Thread _ _).loc Cert.ReferenceIdeal.main_arg3)) := by
  refine (θ_run Cert.ReferenceIdeal.defs _ _).mono (fun _ h c => ⟨(h c).1.trans ?_, (h c).2⟩)
    (Cert.ReferenceIdeal.Value.run (F := Ideal) m' g')
  obtain ⟨-, hl, hlp⟩ := Cert.PreDecode.decode _ _ _ _ (hpre c)
  rw [Cert.ReferenceIdeal.Read.val_main_v32_eq]
  funext j
  obtain rfl := eq_ix0 j
  exact Cert.ReferenceIdeal.RefValue.ref_value _ _ _ _ hl hlp

/-! ## The claim -/

/-- The two programs end with equal results and unchanged arguments, given the kernel's run. -/
theorem algebraic (hscRow : TS.scRow = ScBody.scRow (F := Ideal))
    (hrun : ∀ (m : (ℓ : Loc nD τ sig) → Buf (Elt Ideal) ℓ) (ρ : Dev nD → PrngReg),
      Cert.Pre_KernelIdeal (hPre_input_domain := Cert.Pre_input_domain.Gen.facts) m →
      θ_run (Cert.KernelIdeal.defs (F := Ideal)) (Cert.KernelIdeal.threads (F := Ideal)) ⟨m, fun _ => 0, ρ⟩
        (QC TS m Host.hostOpsA Host.hostOpsB (v7 TS m) (v8 TS m))) :
    Cert.algebraic_KernelIdeal_ReferenceIdeal (hKernelIdeal := Cert.KernelIdeal.Gen.facts)
      (hReferenceIdeal := Cert.ReferenceIdeal.Gen.facts) (hPre_input_domain := Cert.Pre_input_domain.Gen.facts) := by
  intro m g m' g' hpre hagree
  refine ⟨fun c => W4 TS m Host.hostOpsA Host.hostOpsB (v7 TS m) (v8 TS m) c (dr main_v9), ?_, ?_⟩
  · refine (θ_run Cert.KernelIdeal.defs _ _).mono (fun r h c => ?_) (hrun m g hpre)
    obtain ⟨h0, h1, h2, h3, h9⟩ := h c
    exact ⟨h9,
      h0.trans (W4_arg TS m c main_arg0 (by decide) (by decide) (by decide) (by decide) (by decide)),
      h1.trans (W4_arg TS m c main_arg1 (by decide) (by decide) (by decide) (by decide) (by decide)),
      h2.trans (W4_arg TS m c main_arg2 (by decide) (by decide) (by decide) (by decide) (by decide)),
      h3.trans (W4_arg TS m c main_arg3 (by decide) (by decide) (by decide) (by decide) (by decide))⟩
  · have hpre' : Cert.Pre_ReferenceIdeal (hPre_input_domain := Cert.Pre_input_domain.Gen.facts) m' := fun c => by
      rw [(hagree c).1, (hagree c).2.1, (hagree c).2.2.1, (hagree c).2.2.2]
      exact hpre c
    refine (θ_run Cert.ReferenceIdeal.defs _ _).mono (fun r h c => ⟨(h c).1.trans ?_, (h c).2⟩) (ref_side m' g' hpre')
    funext j
    obtain rfl := eq_ix0 j
    rw [(hagree c).1, (hagree c).2.1, (hagree c).2.2.1, (hagree c).2.2.2]
    exact (run_value TS m hscRow hpre c).symm

end Cert.KernelIdeal.Algebraic

end
-- ==== Proof.lean ====
/-
  The five claims of this certificate, assembled.

  The program sums, over the rows the mask selects, the matrix entry at the row's first label minus the entry at its
  second label.  It splits the classes at 64: thirty-two vector subcores each take 512 rows and sum, lane by lane, the
  entries whose label lies below 64 (read out of a 64-row slab of the transposed matrix, a redirected read of a zero row
  standing for "label not below 64" or "row masked"); a dense kernel visits the rows in four blocks and sums, per row, the
  entries at classes 64 to 999 that match a label (a one-hot comparison against the class number), times the mask; a last
  kernel adds the two partial results.

  Frames: the run of the whole family of threads — the host operations, the call to the vector subcores, the two dense
  regions — ends, faults nowhere, and leaves the four arguments as they were, at either float instance; the reference is
  a straight line of host operations.  The idealization changes no operation, so there is nothing to preserve.  At the
  exact instance the kernel's result is the total of the two parts, which by re-indexing the rows and splitting each row's
  term at class 64 is the sum over all rows; the reference's two gathers read the same entries (the labels lie between 0
  and 999, so no clamping happens), and its masked sum is that same sum.
-/
import proofs.«202802_g48112223650475_cont_8to1c4_51_21_alg».proof.Defs
import proofs.«202802_g48112223650475_cont_8to1c4_51_21_alg».proof.Proof.Gen.Kernel
import proofs.«202802_g48112223650475_cont_8to1c4_51_21_alg».proof.Proof.Gen.KernelIdeal
import proofs.«202802_g48112223650475_cont_8to1c4_51_21_alg».proof.Proof.Gen.ReferenceIdeal
import proofs.«202802_g48112223650475_cont_8to1c4_51_21_alg».proof.Proof.Gen.Pre_input_domain
import proofs.«202802_g48112223650475_cont_8to1c4_51_21_alg».proof.Proof.Inst
import proofs.«202802_g48112223650475_cont_8to1c4_51_21_alg».proof.Proof.Bits.Inst
import proofs.«202802_g48112223650475_cont_8to1c4_51_21_alg».proof.Proof.Algebraic
import Idealize.ShloMosaic.Adequacy
import Idealize.ShloMosaic.Init

noncomputable section

namespace Cert.Proof

open Idealize.ShloMosaic Idealize.SL.Sem

/-- The word-level program runs and leaves its arguments unchanged. -/
theorem frame_k : Cert.frame_Kernel (hKernel := Cert.Kernel.Gen.facts) (hPre_input_domain := Cert.Pre_input_domain.Gen.facts) :=
  fun m ρ _ => Cert.Kernel.Inst.frame_run (F := Bits) m ρ

/-- The idealized program runs and leaves its arguments unchanged. -/
theorem frame_ki : Cert.frame_KernelIdeal (hKernelIdeal := Cert.KernelIdeal.Gen.facts) (hPre_input_domain := Cert.Pre_input_domain.Gen.facts) :=
  fun m ρ _ => Cert.KernelIdeal.Inst.frame_run (F := Ideal) m ρ

/-- The reference runs and leaves its arguments unchanged: its run with the result dropped. -/
theorem frame_ri : Cert.frame_ReferenceIdeal (hReferenceIdeal := Cert.ReferenceIdeal.Gen.facts) (hPre_input_domain := Cert.Pre_input_domain.Gen.facts) :=
  fun m ρ _ => (θ_run Cert.ReferenceIdeal.defs _ _).mono (fun _ h c => (h c).2) (Cert.ReferenceIdeal.Value.run (F := Ideal) m ρ)

theorem claim : Cert.Claim :=
  ⟨Cert.Kernel.Gen.facts, Cert.KernelIdeal.Gen.facts, Cert.ReferenceIdeal.Gen.facts, Cert.Pre_input_domain.Gen.facts,
    frame_k, frame_ki, frame_ri, trivial,
    Cert.KernelIdeal.Algebraic.algebraic Cert.KernelIdeal.Inst.TS rfl (fun m ρ _ => Cert.KernelIdeal.Inst.run m ρ)⟩

end Cert.Proof

end
